-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x1536 : Shape := ⟨2, ![512, 1536]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_

variable [Facts]

def fn_part4 {F : FTy → Type} [FloatOps F] (main_arg15 : FVec F S512 .f32) (main_v63 : IVec S_ 1) (main_v67 : IVec S_ 1) : IVec S_ 1 :=
  let main_v68 : IVec S_ 1 := andi main_v63 main_v67
  let main_v69 : FVec F S512 .f32 := Host.absf main_arg15
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg12 : FVec F S512x512 .f32) (main_arg13 : FVec F S512 .f32) (main_arg14 : FVec F S512x512 .f32) (main_arg15 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg12
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg14
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg15 main_v63 main_v67

def fn_part2 {F : FTy → Type} [FloatOps F] (main_arg8 : FVec F S512x1536 .f32) (main_arg9 : FVec F S512 .f32) (main_arg10 : FVec F S512x1536 .f32) (main_arg11 : FVec F S512 .f32) (main_arg12 : FVec F S512x512 .f32) (main_arg13 : FVec F S512 .f32) (main_arg14 : FVec F S512x512 .f32) (main_arg15 : FVec F S512 .f32) (main_v33 : IVec S_ 1) : IVec S_ 1 :=
  let main_v34 : FVec F S512x1536 .f32 := Host.absf main_arg8
  let main_cst_12 : FVec F S_ .f32 := constant S_ .f32 0x7F800000#32
  let main_v35 : FVec F S512x1536 .f32 := broadcastInDim S512x1536 ![] bcast_S_S512x1536 main_cst_12
  let main_v36 : IVec S512x1536 1 := cmpf .olt main_v34 main_v35
  let main_c_13 : IVec S_ 1 := constantI S_ 1 1#1
  let main_v37 : IVec S_ 1 := (fun x v => Host.reduce IntOp.andi x v reducesTo_S512x1536_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1536 .f32 := Host.absf main_arg10
  let main_cst_16 : FVec F S_ .f32 := constant S_ .f32 0x7F800000#32
  let main_v45 : FVec F S512x1536 .f32 := broadcastInDim S512x1536 ![] bcast_S_S512x1536 main_cst_16
  let main_v46 : IVec S512x1536 1 := cmpf .olt main_v44 main_v45
  let main_c_17 : IVec S_ 1 := constantI S_ 1 1#1
  let main_v47 : IVec S_ 1 := (fun x v => Host.reduce IntOp.andi x v reducesTo_S512x1536_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_v48 main_v49 main_v50

def fn_part1 {F : FTy → Type} [FloatOps F] (main_arg5 : FVec F S512 .f32) (main_arg6 : FVec F S512x1536 .f32) (main_arg7 : FVec F S512 .f32) (main_arg8 : FVec F S512x1536 .f32) (main_arg9 : FVec F S512 .f32) (main_arg10 : FVec F S512x1536 .f32) (main_arg11 : FVec F S512 .f32) (main_arg12 : FVec F S512x512 .f32) (main_arg13 : FVec F S512 .f32) (main_arg14 : FVec F S512x512 .f32) (main_arg15 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1536 .f32 := Host.absf main_arg6
  let main_cst_8 : FVec F S_ .f32 := constant S_ .f32 0x7F800000#32
  let main_v25 : FVec F S512x1536 .f32 := broadcastInDim S512x1536 ![] bcast_S_S512x1536 main_cst_8
  let main_v26 : IVec S512x1536 1 := cmpf .olt main_v24 main_v25
  let main_c_9 : IVec S_ 1 := constantI S_ 1 1#1
  let main_v27 : IVec S_ 1 := (fun x v => Host.reduce IntOp.andi x v reducesTo_S512x1536_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S4096x512 .f32) (main_arg1 : IVec S4096x4096 32) (main_arg2 : FVec F S512x512 .f32) (main_arg3 : FVec F S512 .f32) (main_arg4 : FVec F S512x512 .f32) (main_arg5 : FVec F S512 .f32) (main_arg6 : FVec F S512x1536 .f32) (main_arg7 : FVec F S512 .f32) (main_arg8 : FVec F S512x1536 .f32) (main_arg9 : FVec F S512 .f32) (main_arg10 : FVec F S512x1536 .f32) (main_arg11 : FVec F S512 .f32) (main_arg12 : FVec F S512x512 .f32) (main_arg13 : FVec F S512 .f32) (main_arg14 : FVec F S512x512 .f32) (main_arg15 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x1536 : Shape := ⟨2, ![512, 1536]⟩
abbrev S1536x512 : Shape := ⟨2, ![1536, 512]⟩
abbrev S1x512 : Shape := ⟨2, ![1, 512]⟩
abbrev S1024x512 : Shape := ⟨2, ![1024, 512]⟩

abbrev nBuf : Space → Nat
  | .hbm => 55
  | .vmem => 148
  | .smem => 0
  | _ => 0

abbrev vmemTy0_0 (i : Nat) : BufTy := match i % 128 with
  | 0 => ⟨S1024x512, .f32⟩
  | 1 => ⟨S1024x512, .f32⟩
  | 2 => ⟨S512x512, .bf16⟩
  | 3 => ⟨S1x512, .f32⟩
  | 4 => ⟨S512x512, .bf16⟩
  | 5 => ⟨S1x512, .f32⟩
  | 6 => ⟨S1024x512, .bf16⟩
  | 7 => ⟨S1024x512, .bf16⟩
  | 8 => ⟨S1024x512, .bf16⟩
  | 9 => ⟨S1024x512, .bf16⟩
  | 10 => ⟨S512x512, .bf16⟩
  | 11 => ⟨S512x512, .bf16⟩
  | 12 => ⟨S512x512, .bf16⟩
  | 13 => ⟨S512x512, .bf16⟩
  | 14 => ⟨S4096x512, .bf16⟩
  | 15 => ⟨S4096x512, .bf16⟩
  | 16 => ⟨S512x512, .f32⟩
  | 17 => ⟨S512x512, .f32⟩
  | 18 => ⟨S1536x512, .bf16⟩
  | 19 => ⟨S1x512, .f32⟩
  | 20 => ⟨S1536x512, .bf16⟩
  | 21 => ⟨S1x512, .f32⟩
  | 22 => ⟨S1536x512, .bf16⟩
  | 23 => ⟨S1x512, .f32⟩
  | 24 => ⟨S512x512, .f32⟩
  | 25 => ⟨S512x512, .f32⟩
  | 26 => ⟨S512x512, .f32⟩
  | 27 => ⟨S512x512, .f32⟩
  | 28 => ⟨S1024x512, .f32⟩
  | 29 => ⟨S1024x512, .f32⟩
  | 30 => ⟨S512x512, .bf16⟩
  | 31 => ⟨S1x512, .f32⟩
  | 32 => ⟨S512x512, .bf16⟩
  | 33 => ⟨S1x512, .f32⟩
  | 34 => ⟨S1024x512, .bf16⟩
  | 35 => ⟨S1024x512, .bf16⟩
  | 36 => ⟨S1024x512, .bf16⟩
  | 37 => ⟨S1024x512, .bf16⟩
  | 38 => ⟨S512x512, .bf16⟩
  | 39 => ⟨S512x512, .bf16⟩
  | 40 => ⟨S512x512, .bf16⟩
  | 41 => ⟨S512x512, .bf16⟩
  | 42 => ⟨S4096x512, .bf16⟩
  | 43 => ⟨S4096x512, .bf16⟩
  | 44 => ⟨S512x512, .f32⟩
  | 45 => ⟨S512x512, .f32⟩
  | 46 => ⟨S1536x512, .bf16⟩
  | 47 => ⟨S1x512, .f32⟩
  | 48 => ⟨S1536x512, .bf16⟩
  | 49 => ⟨S1x512, .f32⟩
  | 50 => ⟨S1536x512, .bf16⟩
  | 51 => ⟨S1x512, .f32⟩
  | 52 => ⟨S512x512, .f32⟩
  | 53 => ⟨S512x512, .f32⟩
  | 54 => ⟨S512x512, .f32⟩
  | 55 => ⟨S512x512, .f32⟩
  | 56 => ⟨S1024x512, .f32⟩
  | 57 => ⟨S1024x512, .f32⟩
  | 58 => ⟨S512x512, .bf16⟩
  | 59 => ⟨S1x512, .f32⟩
  | 60 => ⟨S512x512, .bf16⟩
  | 61 => ⟨S1x512, .f32⟩
  | 62 => ⟨S1024x512, .bf16⟩
  | 63 => ⟨S1024x512, .bf16⟩
  | 64 => ⟨S1024x512, .bf16⟩
  | 65 => ⟨S1024x512, .bf16⟩
  | 66 => ⟨S512x512, .bf16⟩
  | 67 => ⟨S512x512, .bf16⟩
  | 68 => ⟨S512x512, .bf16⟩
  | 69 => ⟨S512x512, .bf16⟩
  | 70 => ⟨S4096x512, .bf16⟩
  | 71 => ⟨S4096x512, .bf16⟩
  | 72 => ⟨S512x512, .f32⟩
  | 73 => ⟨S512x512, .f32⟩
  | 74 => ⟨S1536x512, .bf16⟩
  | 75 => ⟨S1x512, .f32⟩
  | 76 => ⟨S1536x512, .bf16⟩
  | 77 => ⟨S1x512, .f32⟩
  | 78 => ⟨S1536x512, .bf16⟩
  | 79 => ⟨S1x512, .f32⟩
  | 80 => ⟨S512x512, .f32⟩
  | 81 => ⟨S512x512, .f32⟩
  | 82 => ⟨S512x512, .f32⟩
  | 83 => ⟨S512x512, .f32⟩
  | 84 => ⟨S1024x512, .f32⟩
  | 85 => ⟨S1024x512, .f32⟩
  | 86 => ⟨S512x512, .bf16⟩
  | 87 => ⟨S1x512, .f32⟩
  | 88 => ⟨S512x512, .bf16⟩
  | 89 => ⟨S1x512, .f32⟩
  | 90 => ⟨S1024x512, .bf16⟩
  | 91 => ⟨S1024x512, .bf16⟩
  | 92 => ⟨S1024x512, .bf16⟩
  | 93 => ⟨S1024x512, .bf16⟩
  | 94 => ⟨S512x512, .bf16⟩
  | 95 => ⟨S512x512, .bf16⟩
  | 96 => ⟨S512x512, .bf16⟩
  | 97 => ⟨S512x512, .bf16⟩
  | 98 => ⟨S4096x512, .bf16⟩
  | 99 => ⟨S4096x512, .bf16⟩
  | 100 => ⟨S512x512, .f32⟩
  | 101 => ⟨S512x512, .f32⟩
  | 102 => ⟨S1536x512, .bf16⟩
  | 103 => ⟨S1x512, .f32⟩
  | 104 => ⟨S1536x512, .bf16⟩
  | 105 => ⟨S1x512, .f32⟩
  | 106 => ⟨S1536x512, .bf16⟩
  | 107 => ⟨S1x512, .f32⟩
  | 108 => ⟨S512x512, .f32⟩
  | 109 => ⟨S512x512, .f32⟩
  | 110 => ⟨S512x512, .f32⟩
  | 111 => ⟨S512x512, .f32⟩
  | 112 => ⟨S1024x512, .f32⟩
  | 113 => ⟨S1024x512, .f32⟩
  | 114 => ⟨S512x512, .bf16⟩
  | 115 => ⟨S1x512, .f32⟩
  | 116 => ⟨S512x512, .bf16⟩
  | 117 => ⟨S1x512, .f32⟩
  | 118 => ⟨S1024x512, .bf16⟩
  | 119 => ⟨S1024x512, .bf16⟩
  | 120 => ⟨S1024x512, .bf16⟩
  | 121 => ⟨S1024x512, .bf16⟩
  | 122 => ⟨S512x512, .bf16⟩
  | 123 => ⟨S512x512, .bf16⟩
  | 124 => ⟨S512x512, .bf16⟩
  | 125 => ⟨S512x512, .bf16⟩
  | 126 => ⟨S4096x512, .bf16⟩
  | 127 => ⟨S4096x512, .bf16⟩
  | _ => ⟨S4096x512, .f32⟩

abbrev vmemTy0_1 (i : Nat) : BufTy := match i % 128 with
  | 0 => ⟨S512x512, .f32⟩
  | 1 => ⟨S512x512, .f32⟩
  | 2 => ⟨S1536x512, .bf16⟩
  | 3 => ⟨S1x512, .f32⟩
  | 4 => ⟨S1536x512, .bf16⟩
  | 5 => ⟨S1x512, .f32⟩
  | 6 => ⟨S1536x512, .bf16⟩
  | 7 => ⟨S1x512, .f32⟩
  | 8 => ⟨S512x512, .f32⟩
  | 9 => ⟨S512x512, .f32⟩
  | 10 => ⟨S512x512, .f32⟩
  | 11 => ⟨S512x512, .f32⟩
  | 12 => ⟨S1024x512, .f32⟩
  | 13 => ⟨S1024x512, .f32⟩
  | 14 => ⟨S512x512, .bf16⟩
  | 15 => ⟨S1x512, .f32⟩
  | 16 => ⟨S512x512, .bf16⟩
  | 17 => ⟨S1x512, .f32⟩
  | 18 => ⟨S1024x512, .f32⟩
  | 19 => ⟨S1024x512, .f32⟩
  | _ => ⟨S4096x512, .f32⟩

abbrev vmemTy (i : Nat) : BufTy := match i / 128 with
  | 0 => vmemTy0_0 i
  | 1 => vmemTy0_1 i
  | _ => ⟨S4096x512, .f32⟩

abbrev bufTy : (tb : Table) → Fin (tcTables nBuf tb) → BufTy
  | .hbm, ⟨0, _⟩ => ⟨S4096x512, .f32⟩
  | .hbm, ⟨1, _⟩ => ⟨S4096x4096, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1536, .f32⟩
  | .hbm, ⟨7, _⟩ => ⟨S512, .f32⟩
  | .hbm, ⟨8, _⟩ => ⟨S512x1536, .f32⟩
  | .hbm, ⟨9, _⟩ => ⟨S512, .f32⟩
  | .hbm, ⟨10, _⟩ => ⟨S512x1536, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S4096x4096, .f32⟩
  | .hbm, ⟨17, _⟩ => ⟨S4096x4096, .bf16⟩
  | .hbm, ⟨18, _⟩ => ⟨S512x512, .f32⟩
  | .hbm, ⟨19, _⟩ => ⟨S512x512, .bf16⟩
  | .hbm, ⟨20, _⟩ => ⟨S512x512, .f32⟩
  | .hbm, ⟨21, _⟩ => ⟨S512x512, .bf16⟩
  | .hbm, ⟨22, _⟩ => ⟨S1536x512, .f32⟩
  | .hbm, ⟨23, _⟩ => ⟨S1536x512, .bf16⟩
  | .hbm, ⟨24, _⟩ => ⟨S1536x512, .f32⟩
  | .hbm, ⟨25, _⟩ => ⟨S1536x512, .bf16⟩
  | .hbm, ⟨26, _⟩ => ⟨S1536x512, .f32⟩
  | .hbm, ⟨27, _⟩ => ⟨S1536x512, .bf16⟩
  | .hbm, ⟨28, _⟩ => ⟨S512x512, .f32⟩
  | .hbm, ⟨29, _⟩ => ⟨S512x512, .bf16⟩
  | .hbm, ⟨30, _⟩ => ⟨S512x512, .f32⟩
  | .hbm, ⟨31, _⟩ => ⟨S512x512, .bf16⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S4096x512, .bf16⟩
  | .hbm, ⟨40, _⟩ => ⟨S4096x512, .bf16⟩
  | .hbm, ⟨41, _⟩ => ⟨S4096x512, .f32⟩
  | .hbm, ⟨42, _⟩ => ⟨S4096x512, .bf16⟩
  | .hbm, ⟨43, _⟩ => ⟨S4096x512, .bf16⟩
  | .hbm, ⟨44, _⟩ => ⟨S4096x512, .f32⟩
  | .hbm, ⟨45, _⟩ => ⟨S4096x512, .bf16⟩
  | .hbm, ⟨46, _⟩ => ⟨S4096x512, .bf16⟩
  | .hbm, ⟨47, _⟩ => ⟨S4096x512, .f32⟩
  | .hbm, ⟨48, _⟩ => ⟨S4096x512, .bf16⟩
  | .hbm, ⟨49, _⟩ => ⟨S4096x512, .bf16⟩
  | .hbm, ⟨50, _⟩ => ⟨S4096x512, .f32⟩
  | .hbm, ⟨51, _⟩ => ⟨S4096x512, .bf16⟩
  | .hbm, ⟨52, _⟩ => ⟨S4096x512, .bf16⟩
  | .hbm, ⟨53, _⟩ => ⟨S4096x512, .f32⟩
  | .hbm, ⟨54, _⟩ => ⟨S4096x512, .f32⟩
  | .local _ .vmem, ⟨i, _⟩ => vmemTy i
  | _, _ => ⟨S4096x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 138 → Bool
  | ⟨i, _⟩ => dmaSemScopedAt i

abbrev sig : RefSig :=
  ofTc nBuf bufTy 0 138 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg10_0 : Ref sig .tc := ⟨.vmem, 51, rfl⟩
abbrev cc3_stg11_0 : Ref sig .tc := ⟨.vmem, 52, rfl⟩
abbrev cc3_stg11_1 : Ref sig .tc := ⟨.vmem, 53, rfl⟩
abbrev cc3_scratch0 : Ref sig .tc := ⟨.vmem, 54, rfl⟩
abbrev cc3_scratch1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg5_1 : Ref sig .tc := ⟨.vmem, 63, rfl⟩
abbrev cc4_stg6_0 : Ref sig .tc := ⟨.vmem, 64, rfl⟩
abbrev cc4_stg6_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg1_1 : Ref sig .tc := ⟨.vmem, 69, rfl⟩
abbrev cc5_stg2_0 : Ref sig .tc := ⟨.vmem, 70, rfl⟩
abbrev cc5_stg3_0 : Ref sig .tc := ⟨.vmem, 71, rfl⟩
abbrev cc5_stg4_0 : Ref sig .tc := ⟨.vmem, 72, rfl⟩
abbrev cc5_stg4_1 : Ref sig .tc := ⟨.vmem, 73, rfl⟩
abbrev cc5_stg5_0 : Ref sig .tc := ⟨.vmem, 74, rfl⟩
abbrev cc5_stg6_0 : Ref sig .tc := ⟨.vmem, 75, rfl⟩
abbrev cc5_stg7_0 : Ref sig .tc := ⟨.vmem, 76, rfl⟩
abbrev cc5_stg8_0 : Ref sig .tc := ⟨.vmem, 77, rfl⟩
abbrev cc5_stg9_0 : Ref sig .tc := ⟨.vmem, 78, rfl⟩
abbrev cc5_stg10_0 : Ref sig .tc := ⟨.vmem, 79, rfl⟩
abbrev cc5_stg11_0 : Ref sig .tc := ⟨.vmem, 80, rfl⟩
abbrev cc5_stg11_1 : Ref sig .tc := ⟨.vmem, 81, rfl⟩
abbrev cc5_scratch0 : Ref sig .tc := ⟨.vmem, 82, rfl⟩
abbrev cc5_scratch1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg2_0 : Ref sig .tc := ⟨.vmem, 87, rfl⟩
abbrev cc6_stg3_0 : Ref sig .tc := ⟨.vmem, 88, rfl⟩
abbrev cc6_stg4_0 : Ref sig .tc := ⟨.vmem, 89, rfl⟩
abbrev cc6_stg5_0 : Ref sig .tc := ⟨.vmem, 90, rfl⟩
abbrev cc6_stg5_1 : Ref sig .tc := ⟨.vmem, 91, rfl⟩
abbrev cc6_stg6_0 : Ref sig .tc := ⟨.vmem, 92, rfl⟩
abbrev cc6_stg6_1 : Ref sig .tc := ⟨.vmem, 93, rfl⟩
abbrev cc7_stg0_0 : Ref sig .tc := ⟨.vmem, 94, rfl⟩
abbrev cc7_stg0_1 : Ref sig .tc := ⟨.vmem, 95, rfl⟩
abbrev cc7_stg1_0 : Ref sig .tc := ⟨.vmem, 96, rfl⟩
abbrev cc7_stg1_1 : Ref sig .tc := ⟨.vmem, 97, rfl⟩
abbrev cc7_stg2_0 : Ref sig .tc := ⟨.vmem, 98, rfl⟩
abbrev cc7_stg3_0 : Ref sig .tc := ⟨.vmem, 99, rfl⟩
abbrev cc7_stg4_0 : Ref sig .tc := ⟨.vmem, 100, rfl⟩
abbrev cc7_stg4_1 : Ref sig .tc := ⟨.vmem, 101, rfl⟩
abbrev cc7_stg5_0 : Ref sig .tc := ⟨.vmem, 102, rfl⟩
abbrev cc7_stg6_0 : Ref sig .tc := ⟨.vmem, 103, rfl⟩
abbrev cc7_stg7_0 : Ref sig .tc := ⟨.vmem, 104, rfl⟩
abbrev cc7_stg8_0 : Ref sig .tc := ⟨.vmem, 105, rfl⟩
abbrev cc7_stg9_0 : Ref sig .tc := ⟨.vmem, 106, rfl⟩
abbrev cc7_stg10_0 : Ref sig .tc := ⟨.vmem, 107, rfl⟩
abbrev cc7_stg11_0 : Ref sig .tc := ⟨.vmem, 108, rfl⟩
abbrev cc7_stg11_1 : Ref sig .tc := ⟨.vmem, 109, rfl⟩
abbrev cc7_scratch0 : Ref sig .tc := ⟨.vmem, 110, rfl⟩
abbrev cc7_scratch1 : Ref sig .tc := ⟨.vmem, 111, rfl⟩
abbrev cc8_stg0_0 : Ref sig .tc := ⟨.vmem, 112, rfl⟩
abbrev cc8_stg0_1 : Ref sig .tc := ⟨.vmem, 113, rfl⟩
abbrev cc8_stg1_0 : Ref sig .tc := ⟨.vmem, 114, rfl⟩
abbrev cc8_stg2_0 : Ref sig .tc := ⟨.vmem, 115, rfl⟩
abbrev cc8_stg3_0 : Ref sig .tc := ⟨.vmem, 116, rfl⟩
abbrev cc8_stg4_0 : Ref sig .tc := ⟨.vmem, 117, rfl⟩
abbrev cc8_stg5_0 : Ref sig .tc := ⟨.vmem, 118, rfl⟩
abbrev cc8_stg5_1 : Ref sig .tc := ⟨.vmem, 119, rfl⟩
abbrev cc8_stg6_0 : Ref sig .tc := ⟨.vmem, 120, rfl⟩
abbrev cc8_stg6_1 : Ref sig .tc := ⟨.vmem, 121, rfl⟩
abbrev cc9_stg0_0 : Ref sig .tc := ⟨.vmem, 122, rfl⟩
abbrev cc9_stg0_1 : Ref sig .tc := ⟨.vmem, 123, rfl⟩
abbrev cc9_stg1_0 : Ref sig .tc := ⟨.vmem, 124, rfl⟩
abbrev cc9_stg1_1 : Ref sig .tc := ⟨.vmem, 125, rfl⟩
abbrev cc9_stg2_0 : Ref sig .tc := ⟨.vmem, 126, rfl⟩
abbrev cc9_stg3_0 : Ref sig .tc := ⟨.vmem, 127, rfl⟩
abbrev cc9_stg4_0 : Ref sig .tc := ⟨.vmem, 128, rfl⟩
abbrev cc9_stg4_1 : Ref sig .tc := ⟨.vmem, 129, rfl⟩
abbrev cc9_stg5_0 : Ref sig .tc := ⟨.vmem, 130, rfl⟩
abbrev cc9_stg6_0 : Ref sig .tc := ⟨.vmem, 131, rfl⟩
abbrev cc9_stg7_0 : Ref sig .tc := ⟨.vmem, 132, rfl⟩
abbrev cc9_stg8_0 : Ref sig .tc := ⟨.vmem, 133, rfl⟩
abbrev cc9_stg9_0 : Ref sig .tc := ⟨.vmem, 134, rfl⟩
abbrev cc9_stg10_0 : Ref sig .tc := ⟨.vmem, 135, rfl⟩
abbrev cc9_stg11_0 : Ref sig .tc := ⟨.vmem, 136, rfl⟩
abbrev cc9_stg11_1 : Ref sig .tc := ⟨.vmem, 137, rfl⟩
abbrev cc9_scratch0 : Ref sig .tc := ⟨.vmem, 138, rfl⟩
abbrev cc9_scratch1 : Ref sig .tc := ⟨.vmem, 139, rfl⟩
abbrev cc10_stg0_0 : Ref sig .tc := ⟨.vmem, 140, rfl⟩
abbrev cc10_stg0_1 : Ref sig .tc := ⟨.vmem, 141, rfl⟩
abbrev cc10_stg1_0 : Ref sig .tc := ⟨.vmem, 142, rfl⟩
abbrev cc10_stg2_0 : Ref sig .tc := ⟨.vmem, 143, rfl⟩
abbrev cc10_stg3_0 : Ref sig .tc := ⟨.vmem, 144, rfl⟩
abbrev cc10_stg4_0 : Ref sig .tc := ⟨.vmem, 145, rfl⟩
abbrev cc10_stg5_0 : Ref sig .tc := ⟨.vmem, 146, rfl⟩
abbrev cc10_stg5_1 : Ref sig .tc := ⟨.vmem, 147, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem4_1 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem10_0 : DmaSem sig := 49
abbrev cc3_sem11_0 : DmaSem sig := 50
abbrev cc3_sem11_1 : DmaSem sig := 51
abbrev cc4_sem0_0 : DmaSem sig := 52
abbrev cc4_sem0_1 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem5_1 : DmaSem sig := 59
abbrev cc4_sem6_0 : DmaSem sig := 60
abbrev cc4_sem6_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem3_0 : DmaSem sig := 67
abbrev cc5_sem4_0 : DmaSem sig := 68
abbrev cc5_sem4_1 : DmaSem sig := 69
abbrev cc5_sem5_0 : DmaSem sig := 70
abbrev cc5_sem6_0 : DmaSem sig := 71
abbrev cc5_sem7_0 : DmaSem sig := 72
abbrev cc5_sem8_0 : DmaSem sig := 73
abbrev cc5_sem9_0 : DmaSem sig := 74
abbrev cc5_sem10_0 : DmaSem sig := 75
abbrev cc5_sem11_0 : DmaSem sig := 76
abbrev cc5_sem11_1 : DmaSem sig := 77
abbrev cc6_sem0_0 : DmaSem sig := 78
abbrev cc6_sem0_1 : DmaSem sig := 79
abbrev cc6_sem1_0 : DmaSem sig := 80
abbrev cc6_sem2_0 : DmaSem sig := 81
abbrev cc6_sem3_0 : DmaSem sig := 82
abbrev cc6_sem4_0 : DmaSem sig := 83
abbrev cc6_sem5_0 : DmaSem sig := 84
abbrev cc6_sem5_1 : DmaSem sig := 85
abbrev cc6_sem6_0 : DmaSem sig := 86
abbrev cc6_sem6_1 : DmaSem sig := 87
abbrev cc7_sem0_0 : DmaSem sig := 88
abbrev cc7_sem0_1 : DmaSem sig := 89
abbrev cc7_sem1_0 : DmaSem sig := 90
abbrev cc7_sem1_1 : DmaSem sig := 91
abbrev cc7_sem2_0 : DmaSem sig := 92
abbrev cc7_sem3_0 : DmaSem sig := 93
abbrev cc7_sem4_0 : DmaSem sig := 94
abbrev cc7_sem4_1 : DmaSem sig := 95
abbrev cc7_sem5_0 : DmaSem sig := 96
abbrev cc7_sem6_0 : DmaSem sig := 97
abbrev cc7_sem7_0 : DmaSem sig := 98
abbrev cc7_sem8_0 : DmaSem sig := 99
abbrev cc7_sem9_0 : DmaSem sig := 100
abbrev cc7_sem10_0 : DmaSem sig := 101
abbrev cc7_sem11_0 : DmaSem sig := 102
abbrev cc7_sem11_1 : DmaSem sig := 103
abbrev cc8_sem0_0 : DmaSem sig := 104
abbrev cc8_sem0_1 : DmaSem sig := 105
abbrev cc8_sem1_0 : DmaSem sig := 106
abbrev cc8_sem2_0 : DmaSem sig := 107
abbrev cc8_sem3_0 : DmaSem sig := 108
abbrev cc8_sem4_0 : DmaSem sig := 109
abbrev cc8_sem5_0 : DmaSem sig := 110
abbrev cc8_sem5_1 : DmaSem sig := 111
abbrev cc8_sem6_0 : DmaSem sig := 112
abbrev cc8_sem6_1 : DmaSem sig := 113
abbrev cc9_sem0_0 : DmaSem sig := 114
abbrev cc9_sem0_1 : DmaSem sig := 115
abbrev cc9_sem1_0 : DmaSem sig := 116
abbrev cc9_sem1_1 : DmaSem sig := 117
abbrev cc9_sem2_0 : DmaSem sig := 118
abbrev cc9_sem3_0 : DmaSem sig := 119
abbrev cc9_sem4_0 : DmaSem sig := 120
abbrev cc9_sem4_1 : DmaSem sig := 121
abbrev cc9_sem5_0 : DmaSem sig := 122
abbrev cc9_sem6_0 : DmaSem sig := 123
abbrev cc9_sem7_0 : DmaSem sig := 124
abbrev cc9_sem8_0 : DmaSem sig := 125
abbrev cc9_sem9_0 : DmaSem sig := 126
abbrev cc9_sem10_0 : DmaSem sig := 127
abbrev cc9_sem11_0 : DmaSem sig := 128
abbrev cc9_sem11_1 : DmaSem sig := 129
abbrev cc10_sem0_0 : DmaSem sig := 130
abbrev cc10_sem0_1 : DmaSem sig := 131
abbrev cc10_sem1_0 : DmaSem sig := 132
abbrev cc10_sem2_0 : DmaSem sig := 133
abbrev cc10_sem3_0 : DmaSem sig := 134
abbrev cc10_sem4_0 : DmaSem sig := 135
abbrev cc10_sem5_0 : DmaSem sig := 136
abbrev cc10_sem5_1 : DmaSem sig := 137

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4096x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1536x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1536x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1536x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S512x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![8, 8], ![false, false]⟩

def k3_mult1 (i : grid3.Coords) : BitVec 32 :=
  let arg1 : BitVec 32 := BitVec.ofNat 32 (i 1).val
  let c512_i32 : BitVec 32 := 512#32
  let v3 : BitVec 32 := Scalar.muli arg1 c512_i32
  v3
def k3_off1 (i : grid3.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S4096x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S4096x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 1 → Memref sig .tc .vmem S1536x512 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1536x512 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1536x512 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 2 → Memref sig .tc .vmem S512x512 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x512 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1024x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1024x512 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨2, ![8, 8], ![false, false]⟩

def k5_mult1 (i : grid5.Coords) : BitVec 32 :=
  let arg1 : BitVec 32 := BitVec.ofNat 32 (i 1).val
  let c512_i32 : BitVec 32 := 512#32
  let v3 : BitVec 32 := Scalar.muli arg1 c512_i32
  v3
def k5_off1 (i : grid5.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k5_cond2 (i : grid5.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S512x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S512x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S4096x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S4096x512 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S512x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 1 → Memref sig .tc .vmem S1536x512 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S1x512 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 1 → Memref sig .tc .vmem S1536x512 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 1 → Memref sig .tc .vmem S1x512 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false, false]

abbrev stage5_9 : Fin 1 → Memref sig .tc .vmem S1536x512 .bf16 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false, false]

abbrev stage5_10 : Fin 1 → Memref sig .tc .vmem S1x512 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false, false]

abbrev stage5_11 : Fin 2 → Memref sig .tc .vmem S512x512 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true, false]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x512 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1024x512 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1024x512 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨2, ![8, 8], ![false, false]⟩

def k7_mult1 (i : grid7.Coords) : BitVec 32 :=
  let arg1 : BitVec 32 := BitVec.ofNat 32 (i 1).val
  let c512_i32 : BitVec 32 := 512#32
  let v3 : BitVec 32 := Scalar.muli arg1 c512_i32
  v3
def k7_off1 (i : grid7.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k7_cond2 (i : grid7.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S512x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S512x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 1 → Memref sig .tc .vmem S4096x512 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S4096x512 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S512x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 1 → Memref sig .tc .vmem S1536x512 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 1 → Memref sig .tc .vmem S1x512 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false, false]

abbrev stage7_7 : Fin 1 → Memref sig .tc .vmem S1536x512 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false, false]

abbrev stage7_8 : Fin 1 → Memref sig .tc .vmem S1x512 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false, false]

abbrev stage7_9 : Fin 1 → Memref sig .tc .vmem S1536x512 .bf16 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false, false]

abbrev stage7_10 : Fin 1 → Memref sig .tc .vmem S1x512 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false, false]

abbrev stage7_11 : Fin 2 → Memref sig .tc .vmem S512x512 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true, false]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x512 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1024x512 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S1024x512 .bf16 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨2, ![8, 8], ![false, false]⟩

def k9_mult1 (i : grid9.Coords) : BitVec 32 :=
  let arg1 : BitVec 32 := BitVec.ofNat 32 (i 1).val
  let c512_i32 : BitVec 32 := 512#32
  let v3 : BitVec 32 := Scalar.muli arg1 c512_i32
  v3
def k9_off1 (i : grid9.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k9_cond2 (i : grid9.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S512x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S512x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 1 → Memref sig .tc .vmem S4096x512 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 1 → Memref sig .tc .vmem S4096x512 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 2 → Memref sig .tc .vmem S512x512 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, false]

abbrev stage9_5 : Fin 1 → Memref sig .tc .vmem S1536x512 .bf16 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false, false]

abbrev stage9_6 : Fin 1 → Memref sig .tc .vmem S1x512 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false, false]

abbrev stage9_7 : Fin 1 → Memref sig .tc .vmem S1536x512 .bf16 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false, false]

abbrev stage9_8 : Fin 1 → Memref sig .tc .vmem S1x512 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false, false]

abbrev stage9_9 : Fin 1 → Memref sig .tc .vmem S1536x512 .bf16 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false, false]

abbrev stage9_10 : Fin 1 → Memref sig .tc .vmem S1x512 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false, false]

abbrev stage9_11 : Fin 2 → Memref sig .tc .vmem S512x512 .f32 := fun | 0 => Memref.whole cc9_stg11_0 | 1 => Memref.whole cc9_stg11_1 | ⟨_ + 2, h⟩ => absurd h (Nat.not_lt.2 (Nat.le_add_left _ _))
abbrev sem9_11 : Fin 2 → DmaSem sig := fun | 0 => cc9_sem11_0 | 1 => cc9_sem11_1 | ⟨_ + 2, h⟩ => absurd h (Nat.not_lt.2 (Nat.le_add_left _ _))
abbrev reads9_11 : Fin grid9.rank → Bool := ![true, false]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x512 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S512x512 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x512 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S1024x512 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  bitsLt_bf16_f32 : FTy.bits .bf16 < FTy.bits .f32
  transposes_S512x512_S512x512_1_0 : S512x512.Transposes [1, 0] S512x512
  transposes_S512x1536_S1536x512_1_0 : S512x1536.Transposes [1, 0] S1536x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  inb_S1536x512_S512x512_0_0 : ∀ a, (![0, 0] : Fin 2 → Nat) a + S512x512.size a ≤ S1536x512.size a
  inb_S1536x512_S512x512_512_0 : ∀ a, (![512, 0] : Fin 2 → Nat) a + S512x512.size a ≤ S1536x512.size a
  inb_S1536x512_S512x512_1024_0 : ∀ a, (![1024, 0] : Fin 2 → Nat) a + S512x512.size a ≤ S1536x512.size a
  broadcasts_S1x512_S512x512 : S1x512.Broadcasts S512x512
  shapeCasts_S1024x512_S1024x512 : S1024x512.ShapeCasts S1024x512
  dot_S1024x512_S512x512_S1024x512_1_0_0_1_n_n_wf : DotDims.WF S1024x512 S512x512 S1024x512 [1] [0] [0] [1] [] []
  dot_S512x512_S512x512_S512x512_1_0_0_1_n_n_wf : DotDims.WF S512x512 S512x512 S512x512 [1] [0] [0] [1] [] []
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x512.size a
  hwx0_5 : ∀ i : grid0.Coords, EltTy.bits .bf16 = 32 ∨ (Rect.block (s := S4096x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S4096x512.size a
  hwx0_6 : ∀ i : grid0.Coords, EltTy.bits .bf16 = 32 ∨ (Rect.block (s := S4096x512) S1024x512.size (cc0_transform_6 i) (hinb0_6 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x512.size a ≤ S4096x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .bf16 = 32 ∨ (Rect.block (s := S4096x4096) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .bf16 = 32 ∨ (Rect.block (s := S4096x4096) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x512.size a
  hwx1_3 : ∀ i : grid1.Coords, EltTy.bits .bf16 = 32 ∨ (Rect.block (s := S4096x512) S4096x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x512.size a
  hwx1_4 : ∀ i : grid1.Coords, EltTy.bits .f32 = 32 ∨ (Rect.block (s := S4096x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1536x512.size a ≤ S1536x512.size a
  hwx1_5 : ∀ i : grid1.Coords, EltTy.bits .bf16 = 32 ∨ (Rect.block (s := S1536x512) S1536x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1536x512.size a ≤ S1536x512.size a
  hwx1_7 : ∀ i : grid1.Coords, EltTy.bits .bf16 = 32 ∨ (Rect.block (s := S1536x512) S1536x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1536x512.size a ≤ S1536x512.size a
  hwx1_9 : ∀ i : grid1.Coords, EltTy.bits .bf16 = 32 ∨ (Rect.block (s := S1536x512) S1536x512.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x512.size a
  hwx1_10 : ∀ i : grid1.Coords, EltTy.bits .f32 = 32 ∨ (Rect.block (s := S1x512) S1x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x512.size a ≤ S4096x512.size a
  hwx1_11 : ∀ i : grid1.Coords, EltTy.bits .f32 = 32 ∨ (Rect.block (s := S4096x512) S512x512.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .f32 = 32 ∨ (Rect.block (s := S4096x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S4096x512.size a
  hwx2_5 : ∀ i : grid2.Coords, EltTy.bits .bf16 = 32 ∨ (Rect.block (s := S4096x512) S1024x512.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S4096x512.size a
  hwx2_6 : ∀ i : grid2.Coords, EltTy.bits .bf16 = 32 ∨ (Rect.block (s := S4096x512) S1024x512.size (cc2_transform_6 i) (hinb2_6 i)).WholeWords (EltTy.packing .bf16)
  hrank3 : 0 < grid3.rank
  k3_mult1_dvd : ∀ i : grid3.Coords, 512 ∣ (k3_mult1 i).toNat
  k3_off1_inb : ∀ i : grid3.Coords, ∀ a, (k3_off1 i) a + S512x512.size a ≤ S4096x512.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S4096x4096.size a
  hwx3_0 : ∀ i : grid3.Coords, EltTy.bits .bf16 = 32 ∨ (Rect.block (s := S4096x4096) S512x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S4096x4096.size a
  hwx3_1 : ∀ i : grid3.Coords, EltTy.bits .bf16 = 32 ∨ (Rect.block (s := S4096x4096) S512x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x512.size a ≤ S4096x512.size a
  hwx3_2 : ∀ i : grid3.Coords, EltTy.bits .bf16 = 32 ∨ (Rect.block (s := S4096x512) S4096x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x512.size a ≤ S4096x512.size a
  hwx3_3 : ∀ i : grid3.Coords, EltTy.bits .bf16 = 32 ∨ (Rect.block (s := S4096x512) S4096x512.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S4096x512.size a
  hwx3_4 : ∀ i : grid3.Coords, EltTy.bits .f32 = 32 ∨ (Rect.block (s := S4096x512) S512x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1536x512.size a ≤ S1536x512.size a
  hwx3_5 : ∀ i : grid3.Coords, EltTy.bits .bf16 = 32 ∨ (Rect.block (s := S1536x512) S1536x512.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x512.size a
  hwx3_6 : ∀ i : grid3.Coords, EltTy.bits .f32 = 32 ∨ (Rect.block (s := S1x512) S1x512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1536x512.size a ≤ S1536x512.size a
  hwx3_7 : ∀ i : grid3.Coords, EltTy.bits .bf16 = 32 ∨ (Rect.block (s := S1536x512) S1536x512.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x512.size a ≤ S1x512.size a
  hwx3_8 : ∀ i : grid3.Coords, EltTy.bits .f32 = 32 ∨ (Rect.block (s := S1x512) S1x512.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1536x512.size a ≤ S1536x512.size a
  hwx3_9 : ∀ i : grid3.Coords, EltTy.bits .bf16 = 32 ∨ (Rect.block (s := S1536x512) S1536x512.size (cc3_transform_9 i) (hinb3_9 i)).WholeWords (EltTy.packing .bf16)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x512.size a ≤ S1x512.size a
  hwx3_10 : ∀ i : grid3.Coords, EltTy.bits .f32 = 32 ∨ (Rect.block (s := S1x512) S1x512.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S512x512.size a ≤ S4096x512.size a
  hwx3_11 : ∀ i : grid3.Coords, EltTy.bits .f32 = 32 ∨ (Rect.block (s := S4096x512) S512x512.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S4096x512.size a
  hwx4_0 : ∀ i : grid4.Coords, EltTy.bits .f32 = 32 ∨ (Rect.block (s := S4096x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .bf16 = 32 ∨ (Rect.block (s := S512x512) S512x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S512x512.size a
  hwx4_3 : ∀ i : grid4.Coords, EltTy.bits .bf16 = 32 ∨ (Rect.block (s := S512x512) S512x512.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x512.size a ≤ S4096x512.size a
  hwx4_5 : ∀ i : grid4.Coords, EltTy.bits .bf16 = 32 ∨ (Rect.block (s := S4096x512) S1024x512.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1024x512.size a ≤ S4096x512.size a
  hwx4_6 : ∀ i : grid4.Coords, EltTy.bits .bf16 = 32 ∨ (Rect.block (s := S4096x512) S1024x512.size (cc4_transform_6 i) (hinb4_6 i)).WholeWords (EltTy.packing .bf16)
  hrank5 : 0 < grid5.rank
  k5_mult1_dvd : ∀ i : grid5.Coords, 512 ∣ (k5_mult1 i).toNat
  k5_off1_inb : ∀ i : grid5.Coords, ∀ a, (k5_off1 i) a + S512x512.size a ≤ S4096x512.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x512.size a ≤ S4096x4096.size a
  hwx5_0 : ∀ i : grid5.Coords, EltTy.bits .bf16 = 32 ∨ (Rect.block (s := S4096x4096) S512x512.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S4096x4096.size a
  hwx5_1 : ∀ i : grid5.Coords, EltTy.bits .bf16 = 32 ∨ (Rect.block (s := S4096x4096) S512x512.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S4096x512.size a ≤ S4096x512.size a
  hwx5_2 : ∀ i : grid5.Coords, EltTy.bits .bf16 = 32 ∨ (Rect.block (s := S4096x512) S4096x512.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S4096x512.size a ≤ S4096x512.size a
  hwx5_3 : ∀ i : grid5.Coords, EltTy.bits .bf16 = 32 ∨ (Rect.block (s := S4096x512) S4096x512.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x512.size a ≤ S4096x512.size a
  hwx5_4 : ∀ i : grid5.Coords, EltTy.bits .f32 = 32 ∨ (Rect.block (s := S4096x512) S512x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1536x512.size a ≤ S1536x512.size a
  hwx5_5 : ∀ i : grid5.Coords, EltTy.bits .bf16 = 32 ∨ (Rect.block (s := S1536x512) S1536x512.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x512.size a ≤ S1x512.size a
  hwx5_6 : ∀ i : grid5.Coords, EltTy.bits .f32 = 32 ∨ (Rect.block (s := S1x512) S1x512.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1536x512.size a ≤ S1536x512.size a
  hwx5_7 : ∀ i : grid5.Coords, EltTy.bits .bf16 = 32 ∨ (Rect.block (s := S1536x512) S1536x512.size (cc5_transform_7 i) (hinb5_7 i)).WholeWords (EltTy.packing .bf16)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x512.size a ≤ S1x512.size a
  hwx5_8 : ∀ i : grid5.Coords, EltTy.bits .f32 = 32 ∨ (Rect.block (s := S1x512) S1x512.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1536x512.size a ≤ S1536x512.size a
  hwx5_9 : ∀ i : grid5.Coords, EltTy.bits .bf16 = 32 ∨ (Rect.block (s := S1536x512) S1536x512.size (cc5_transform_9 i) (hinb5_9 i)).WholeWords (EltTy.packing .bf16)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x512.size a ≤ S1x512.size a
  hwx5_10 : ∀ i : grid5.Coords, EltTy.bits .f32 = 32 ∨ (Rect.block (s := S1x512) S1x512.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S512x512.size a ≤ S4096x512.size a
  hwx5_11 : ∀ i : grid5.Coords, EltTy.bits .f32 = 32 ∨ (Rect.block (s := S4096x512) S512x512.size (cc5_transform_11 i) (hinb5_11 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S4096x512.size a
  hwx6_0 : ∀ i : grid6.Coords, EltTy.bits .f32 = 32 ∨ (Rect.block (s := S4096x512) S1024x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S512x512.size a
  hwx6_1 : ∀ i : grid6.Coords, EltTy.bits .bf16 = 32 ∨ (Rect.block (s := S512x512) S512x512.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x512.size a ≤ S512x512.size a
  hwx6_3 : ∀ i : grid6.Coords, EltTy.bits .bf16 = 32 ∨ (Rect.block (s := S512x512) S512x512.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x512.size a ≤ S4096x512.size a
  hwx6_5 : ∀ i : grid6.Coords, EltTy.bits .bf16 = 32 ∨ (Rect.block (s := S4096x512) S1024x512.size (cc6_transform_5 i) (hinb6_5 i)).WholeWords (EltTy.packing .bf16)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1024x512.size a ≤ S4096x512.size a
  hwx6_6 : ∀ i : grid6.Coords, EltTy.bits .bf16 = 32 ∨ (Rect.block (s := S4096x512) S1024x512.size (cc6_transform_6 i) (hinb6_6 i)).WholeWords (EltTy.packing .bf16)
  hrank7 : 0 < grid7.rank
  k7_mult1_dvd : ∀ i : grid7.Coords, 512 ∣ (k7_mult1 i).toNat
  k7_off1_inb : ∀ i : grid7.Coords, ∀ a, (k7_off1 i) a + S512x512.size a ≤ S4096x512.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x512.size a ≤ S4096x4096.size a
  hwx7_0 : ∀ i : grid7.Coords, EltTy.bits .bf16 = 32 ∨ (Rect.block (s := S4096x4096) S512x512.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S4096x4096.size a
  hwx7_1 : ∀ i : grid7.Coords, EltTy.bits .bf16 = 32 ∨ (Rect.block (s := S4096x4096) S512x512.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S4096x512.size a ≤ S4096x512.size a
  hwx7_2 : ∀ i : grid7.Coords, EltTy.bits .bf16 = 32 ∨ (Rect.block (s := S4096x512) S4096x512.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S4096x512.size a ≤ S4096x512.size a
  hwx7_3 : ∀ i : grid7.Coords, EltTy.bits .bf16 = 32 ∨ (Rect.block (s := S4096x512) S4096x512.size (cc7_transform_3 i) (hinb7_3 i)).WholeWords (EltTy.packing .bf16)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S512x512.size a ≤ S4096x512.size a
  hwx7_4 : ∀ i : grid7.Coords, EltTy.bits .f32 = 32 ∨ (Rect.block (s := S4096x512) S512x512.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1536x512.size a ≤ S1536x512.size a
  hwx7_5 : ∀ i : grid7.Coords, EltTy.bits .bf16 = 32 ∨ (Rect.block (s := S1536x512) S1536x512.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x512.size a ≤ S1x512.size a
  hwx7_6 : ∀ i : grid7.Coords, EltTy.bits .f32 = 32 ∨ (Rect.block (s := S1x512) S1x512.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1536x512.size a ≤ S1536x512.size a
  hwx7_7 : ∀ i : grid7.Coords, EltTy.bits .bf16 = 32 ∨ (Rect.block (s := S1536x512) S1536x512.size (cc7_transform_7 i) (hinb7_7 i)).WholeWords (EltTy.packing .bf16)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x512.size a ≤ S1x512.size a
  hwx7_8 : ∀ i : grid7.Coords, EltTy.bits .f32 = 32 ∨ (Rect.block (s := S1x512) S1x512.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1536x512.size a ≤ S1536x512.size a
  hwx7_9 : ∀ i : grid7.Coords, EltTy.bits .bf16 = 32 ∨ (Rect.block (s := S1536x512) S1536x512.size (cc7_transform_9 i) (hinb7_9 i)).WholeWords (EltTy.packing .bf16)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x512.size a ≤ S1x512.size a
  hwx7_10 : ∀ i : grid7.Coords, EltTy.bits .f32 = 32 ∨ (Rect.block (s := S1x512) S1x512.size (cc7_transform_10 i) (hinb7_10 i)).WholeWords (EltTy.packing .f32)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S512x512.size a ≤ S4096x512.size a
  hwx7_11 : ∀ i : grid7.Coords, EltTy.bits .f32 = 32 ∨ (Rect.block (s := S4096x512) S512x512.size (cc7_transform_11 i) (hinb7_11 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x512.size a ≤ S4096x512.size a
  hwx8_0 : ∀ i : grid8.Coords, EltTy.bits .f32 = 32 ∨ (Rect.block (s := S4096x512) S1024x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S512x512.size a
  hwx8_1 : ∀ i : grid8.Coords, EltTy.bits .bf16 = 32 ∨ (Rect.block (s := S512x512) S512x512.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S512x512.size a ≤ S512x512.size a
  hwx8_3 : ∀ i : grid8.Coords, EltTy.bits .bf16 = 32 ∨ (Rect.block (s := S512x512) S512x512.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x512.size a ≤ S1x512.size a
  hwx8_4 : ∀ i : grid8.Coords, EltTy.bits .f32 = 32 ∨ (Rect.block (s := S1x512) S1x512.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x512.size a ≤ S4096x512.size a
  hwx8_5 : ∀ i : grid8.Coords, EltTy.bits .bf16 = 32 ∨ (Rect.block (s := S4096x512) S1024x512.size (cc8_transform_5 i) (hinb8_5 i)).WholeWords (EltTy.packing .bf16)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1024x512.size a ≤ S4096x512.size a
  hwx8_6 : ∀ i : grid8.Coords, EltTy.bits .bf16 = 32 ∨ (Rect.block (s := S4096x512) S1024x512.size (cc8_transform_6 i) (hinb8_6 i)).WholeWords (EltTy.packing .bf16)
  hrank9 : 0 < grid9.rank
  k9_mult1_dvd : ∀ i : grid9.Coords, 512 ∣ (k9_mult1 i).toNat
  k9_off1_inb : ∀ i : grid9.Coords, ∀ a, (k9_off1 i) a + S512x512.size a ≤ S4096x512.size a
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x512.size a ≤ S4096x4096.size a
  hwx9_0 : ∀ i : grid9.Coords, EltTy.bits .bf16 = 32 ∨ (Rect.block (s := S4096x4096) S512x512.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S512x512.size a ≤ S4096x4096.size a
  hwx9_1 : ∀ i : grid9.Coords, EltTy.bits .bf16 = 32 ∨ (Rect.block (s := S4096x4096) S512x512.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S4096x512.size a ≤ S4096x512.size a
  hwx9_2 : ∀ i : grid9.Coords, EltTy.bits .bf16 = 32 ∨ (Rect.block (s := S4096x512) S4096x512.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S4096x512.size a ≤ S4096x512.size a
  hwx9_3 : ∀ i : grid9.Coords, EltTy.bits .bf16 = 32 ∨ (Rect.block (s := S4096x512) S4096x512.size (cc9_transform_3 i) (hinb9_3 i)).WholeWords (EltTy.packing .bf16)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S512x512.size a ≤ S4096x512.size a
  hwx9_4 : ∀ i : grid9.Coords, EltTy.bits .f32 = 32 ∨ (Rect.block (s := S4096x512) S512x512.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1536x512.size a ≤ S1536x512.size a
  hwx9_5 : ∀ i : grid9.Coords, EltTy.bits .bf16 = 32 ∨ (Rect.block (s := S1536x512) S1536x512.size (cc9_transform_5 i) (hinb9_5 i)).WholeWords (EltTy.packing .bf16)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x512.size a ≤ S1x512.size a
  hwx9_6 : ∀ i : grid9.Coords, EltTy.bits .f32 = 32 ∨ (Rect.block (s := S1x512) S1x512.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1536x512.size a ≤ S1536x512.size a
  hwx9_7 : ∀ i : grid9.Coords, EltTy.bits .bf16 = 32 ∨ (Rect.block (s := S1536x512) S1536x512.size (cc9_transform_7 i) (hinb9_7 i)).WholeWords (EltTy.packing .bf16)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x512.size a ≤ S1x512.size a
  hwx9_8 : ∀ i : grid9.Coords, EltTy.bits .f32 = 32 ∨ (Rect.block (s := S1x512) S1x512.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S1536x512.size a ≤ S1536x512.size a
  hwx9_9 : ∀ i : grid9.Coords, EltTy.bits .bf16 = 32 ∨ (Rect.block (s := S1536x512) S1536x512.size (cc9_transform_9 i) (hinb9_9 i)).WholeWords (EltTy.packing .bf16)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S1x512.size a ≤ S1x512.size a
  hwx9_10 : ∀ i : grid9.Coords, EltTy.bits .f32 = 32 ∨ (Rect.block (s := S1x512) S1x512.size (cc9_transform_10 i) (hinb9_10 i)).WholeWords (EltTy.packing .f32)
  hstage9_11 : ∀ j, (stage9_11 j).IsWhole
  nbuf9_11 : grid9.bufCount reads9_11 false = 2
  hreads9_11 : ∀ i i' : grid9.Coords, (∀ a, reads9_11 a = true → i a = i' a) → cc9_transform_11 i = cc9_transform_11 i'
  hinb9_11 : ∀ (i : grid9.Coords) a, (cc9_transform_11 i a + 1) * S512x512.size a ≤ S4096x512.size a
  hwx9_11 : ∀ i : grid9.Coords, EltTy.bits .f32 = 32 ∨ (Rect.block (s := S4096x512) S512x512.size (cc9_transform_11 i) (hinb9_11 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x512.size a ≤ S4096x512.size a
  hwx10_0 : ∀ i : grid10.Coords, EltTy.bits .f32 = 32 ∨ (Rect.block (s := S4096x512) S1024x512.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x512.size a ≤ S512x512.size a
  hwx10_1 : ∀ i : grid10.Coords, EltTy.bits .bf16 = 32 ∨ (Rect.block (s := S512x512) S512x512.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x512.size a ≤ S1x512.size a
  hwx10_2 : ∀ i : grid10.Coords, EltTy.bits .f32 = 32 ∨ (Rect.block (s := S1x512) S1x512.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S512x512.size a ≤ S512x512.size a
  hwx10_3 : ∀ i : grid10.Coords, EltTy.bits .bf16 = 32 ∨ (Rect.block (s := S512x512) S512x512.size (cc10_transform_3 i) (hinb10_3 i)).WholeWords (EltTy.packing .bf16)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x512.size a ≤ S1x512.size a
  hwx10_4 : ∀ i : grid10.Coords, EltTy.bits .f32 = 32 ∨ (Rect.block (s := S1x512) S1x512.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1024x512.size a ≤ S4096x512.size a
  hwx10_5 : ∀ i : grid10.Coords, EltTy.bits .f32 = 32 ∨ (Rect.block (s := S4096x512) S1024x512.size (cc10_transform_5 i) (hinb10_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23_0) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23_1) S4096x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1536x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1536x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S1536x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S1x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v24) S512x512.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k1_cond2 i == 1#1) | ⟨_ + 12, h⟩ => absurd h (Nat.not_lt.2 (Nat.le_add_left _ _))

abbrev win2_0 : Pipeline.Window sig grid2 :=
  Pipeline.Window.ofSpec (Memref.whole main_v24) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25_0) S1024x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v25_1) S1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v1) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25_0) S4096x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25_1) S4096x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v24) S512x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1536x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v18) S1x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v9) S1536x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v19) S1x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v11) S1536x512.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v20) S1x512.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v26) S512x512.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev idle3 : Fin 12 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k3_cond2 i == 1#1) | ⟨_ + 12, h⟩ => absurd h (Nat.not_lt.2 (Nat.le_add_left _ _))

abbrev win4_0 : Pipeline.Window sig grid4 :=
  Pipeline.Window.ofSpec (Memref.whole main_v26) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v5) S512x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v17) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v27_0) S1024x512.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v27_1) S1024x512.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v1) S512x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S512x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27_0) S4096x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v27_1) S4096x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v26) S512x512.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v7) S1536x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v18) S1x512.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v9) S1536x512.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v19) S1x512.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v11) S1536x512.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v20) S1x512.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v28) S512x512.size cc5_transform_11 reads5_11 true false 2 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

abbrev idle5 : Fin 12 → grid5.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k5_cond2 i == 1#1) | ⟨_ + 12, h⟩ => absurd h (Nat.not_lt.2 (Nat.le_add_left _ _))

abbrev win6_0 : Pipeline.Window sig grid6 :=
  Pipeline.Window.ofSpec (Memref.whole main_v28) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v3) S512x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v16) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v5) S512x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v17) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v29_0) S1024x512.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v29_1) S1024x512.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v1) S512x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v1) S512x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v29_0) S4096x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v29_1) S4096x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v28) S512x512.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v7) S1536x512.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v18) S1x512.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v9) S1536x512.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v19) S1x512.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v11) S1536x512.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v20) S1x512.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v30) S512x512.size cc7_transform_11 reads7_11 true false 2 stage7_11 sem7_11
    hrank7 hreads7_11 hinb7_11 nbuf7_11 (Memref.isWhole_whole _) hwx7_11 hstage7_11

abbrev win7 : Fin 12 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | ⟨_ + 12, h⟩ => absurd h (Nat.not_lt.2 (Nat.le_add_left _ _))
abbrev spec7 : Fin 12 → Pipeline.WinSpec sig grid7.rank := fun w => (win7 w).toWinSpec

abbrev idle7 : Fin 12 → grid7.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k7_cond2 i == 1#1) | ⟨_ + 12, h⟩ => absurd h (Nat.not_lt.2 (Nat.le_add_left _ _))

abbrev win8_0 : Pipeline.Window sig grid8 :=
  Pipeline.Window.ofSpec (Memref.whole main_v30) S1024x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v3) S512x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v16) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v5) S512x512.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v17) S1x512.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v31_0) S1024x512.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v31_1) S1024x512.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v1) S512x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v1) S512x512.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v31_0) S4096x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v31_1) S4096x512.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v30) S512x512.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v7) S1536x512.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v18) S1x512.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v9) S1536x512.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v19) S1x512.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v11) S1536x512.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v20) S1x512.size cc9_transform_10 reads9_10 false true 1 stage9_10 sem9_10
    hrank9 hreads9_10 hinb9_10 nbuf9_10 (Memref.isWhole_whole _) hwx9_10 hstage9_10

abbrev win9_11 : Pipeline.Window sig grid9 :=
  Pipeline.Window.ofSpec (Memref.whole main_v32) S512x512.size cc9_transform_11 reads9_11 true false 2 stage9_11 sem9_11
    hrank9 hreads9_11 hinb9_11 nbuf9_11 (Memref.isWhole_whole _) hwx9_11 hstage9_11

abbrev win9 : Fin 12 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | ⟨_ + 12, h⟩ => absurd h (Nat.not_lt.2 (Nat.le_add_left _ _))
abbrev spec9 : Fin 12 → Pipeline.WinSpec sig grid9.rank := fun w => (win9 w).toWinSpec

abbrev idle9 : Fin 12 → grid9.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k9_cond2 i == 1#1) | ⟨_ + 12, h⟩ => absurd h (Nat.not_lt.2 (Nat.le_add_left _ _))

abbrev win10_0 : Pipeline.Window sig grid10 :=
  Pipeline.Window.ofSpec (Memref.whole main_v32) S1024x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v13) S512x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v21) S1x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v15) S512x512.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v22) S1x512.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v33) S1024x512.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x1536 : Shape := ⟨2, ![512, 1536]⟩
abbrev S1x512 : Shape := ⟨2, ![1, 512]⟩
abbrev S4096x1536 : Shape := ⟨2, ![4096, 1536]⟩
abbrev S1536x512 : Shape := ⟨2, ![1536, 512]⟩
abbrev S_ : Shape := ⟨0, ![]⟩

abbrev nBuf : Space → Nat
  | .hbm => 294
  | .vmem => 0
  | .smem => 0
  | _ => 0

abbrev hbmTy0_0 (i : Nat) : BufTy := match i % 128 with
  | 0 => ⟨S4096x512, .f32⟩
  | 1 => ⟨S4096x4096, .i32⟩
  | 2 => ⟨S512x512, .f32⟩
  | 3 => ⟨S512, .f32⟩
  | 4 => ⟨S512x512, .f32⟩
  | 5 => ⟨S512, .f32⟩
  | 6 => ⟨S512x1536, .f32⟩
  | 7 => ⟨S512, .f32⟩
  | 8 => ⟨S512x1536, .f32⟩
  | 9 => ⟨S512, .f32⟩
  | 10 => ⟨S512x1536, .f32⟩
  | 11 => ⟨S512, .f32⟩
  | 12 => ⟨S512x512, .f32⟩
  | 13 => ⟨S512, .f32⟩
  | 14 => ⟨S512x512, .f32⟩
  | 15 => ⟨S512, .f32⟩
  | 16 => ⟨S4096x4096, .f32⟩
  | 17 => ⟨S4096x4096, .f32⟩
  | 18 => ⟨S512x512, .f32⟩
  | 19 => ⟨S4096x512, .f32⟩
  | 20 => ⟨S1x512, .f32⟩
  | 21 => ⟨S4096x512, .f32⟩
  | 22 => ⟨S4096x512, .f32⟩
  | 23 => ⟨S512x512, .f32⟩
  | 24 => ⟨S4096x512, .f32⟩
  | 25 => ⟨S1x512, .f32⟩
  | 26 => ⟨S4096x512, .f32⟩
  | 27 => ⟨S4096x512, .f32⟩
  | 28 => ⟨S4096x512, .f32⟩
  | 29 => ⟨S4096x512, .f32⟩
  | 30 => ⟨S4096x1536, .f32⟩
  | 31 => ⟨S1536x512, .f32⟩
  | 32 => ⟨S4096x512, .f32⟩
  | 33 => ⟨S1x512, .f32⟩
  | 34 => ⟨S4096x512, .f32⟩
  | 35 => ⟨S4096x512, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S1536x512, .f32⟩
  | 45 => ⟨S4096x512, .f32⟩
  | 46 => ⟨S1x512, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S4096x512, .f32⟩
  | 58 => ⟨S4096x1536, .f32⟩
  | 59 => ⟨S1536x512, .f32⟩
  | 60 => ⟨S4096x512, .f32⟩
  | 61 => ⟨S1x512, .f32⟩
  | 62 => ⟨S4096x512, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S4096x512, .f32⟩
  | 70 => ⟨S4096x512, .f32⟩
  | 71 => ⟨S512x512, .f32⟩
  | 72 => ⟨S4096x512, .f32⟩
  | 73 => ⟨S1x512, .f32⟩
  | 74 => ⟨S4096x512, .f32⟩
  | 75 => ⟨S4096x512, .f32⟩
  | 76 => ⟨S512x512, .f32⟩
  | 77 => ⟨S4096x512, .f32⟩
  | 78 => ⟨S1x512, .f32⟩
  | 79 => ⟨S4096x512, .f32⟩
  | 80 => ⟨S4096x512, .f32⟩
  | 81 => ⟨S4096x512, .f32⟩
  | 82 => ⟨S4096x512, .f32⟩
  | 83 => ⟨S4096x1536, .f32⟩
  | 84 => ⟨S1536x512, .f32⟩
  | 85 => ⟨S4096x512, .f32⟩
  | 86 => ⟨S1x512, .f32⟩
  | 87 => ⟨S4096x512, .f32⟩
  | 88 => ⟨S4096x512, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S_, .f32⟩
  | 95 => ⟨S4096x512, .f32⟩
  | 96 => ⟨S4096x512, .f32⟩
  | 97 => ⟨S1536x512, .f32⟩
  | 98 => ⟨S4096x512, .f32⟩
  | 99 => ⟨S1x512, .f32⟩
  | 100 => ⟨S4096x512, .f32⟩
  | 101 => ⟨S4096x512, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S_, .f32⟩
  | 108 => ⟨S4096x512, .f32⟩
  | 109 => ⟨S4096x512, .f32⟩
  | 110 => ⟨S4096x512, .f32⟩
  | 111 => ⟨S4096x1536, .f32⟩
  | 112 => ⟨S1536x512, .f32⟩
  | 113 => ⟨S4096x512, .f32⟩
  | 114 => ⟨S1x512, .f32⟩
  | 115 => ⟨S4096x512, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S4096x512, .f32⟩
  | 122 => ⟨S4096x512, .f32⟩
  | 123 => ⟨S4096x512, .f32⟩
  | 124 => ⟨S512x512, .f32⟩
  | 125 => ⟨S4096x512, .f32⟩
  | 126 => ⟨S1x512, .f32⟩
  | 127 => ⟨S4096x512, .f32⟩
  | _ => ⟨S4096x512, .f32⟩

abbrev hbmTy0_1 (i : Nat) : BufTy := match i % 128 with
  | 0 => ⟨S4096x512, .f32⟩
  | 1 => ⟨S512x512, .f32⟩
  | 2 => ⟨S4096x512, .f32⟩
  | 3 => ⟨S1x512, .f32⟩
  | 4 => ⟨S4096x512, .f32⟩
  | 5 => ⟨S4096x512, .f32⟩
  | 6 => ⟨S4096x512, .f32⟩
  | 7 => ⟨S4096x512, .f32⟩
  | 8 => ⟨S4096x1536, .f32⟩
  | 9 => ⟨S1536x512, .f32⟩
  | 10 => ⟨S4096x512, .f32⟩
  | 11 => ⟨S1x512, .f32⟩
  | 12 => ⟨S4096x512, .f32⟩
  | 13 => ⟨S4096x512, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S1536x512, .f32⟩
  | 23 => ⟨S4096x512, .f32⟩
  | 24 => ⟨S1x512, .f32⟩
  | 25 => ⟨S4096x512, .f32⟩
  | 26 => ⟨S4096x512, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S4096x512, .f32⟩
  | 36 => ⟨S4096x1536, .f32⟩
  | 37 => ⟨S1536x512, .f32⟩
  | 38 => ⟨S4096x512, .f32⟩
  | 39 => ⟨S1x512, .f32⟩
  | 40 => ⟨S4096x512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S512x512, .f32⟩
  | 50 => ⟨S4096x512, .f32⟩
  | 51 => ⟨S1x512, .f32⟩
  | 52 => ⟨S4096x512, .f32⟩
  | 53 => ⟨S4096x512, .f32⟩
  | 54 => ⟨S512x512, .f32⟩
  | 55 => ⟨S4096x512, .f32⟩
  | 56 => ⟨S1x512, .f32⟩
  | 57 => ⟨S4096x512, .f32⟩
  | 58 => ⟨S4096x512, .f32⟩
  | 59 => ⟨S4096x512, .f32⟩
  | 60 => ⟨S4096x512, .f32⟩
  | 61 => ⟨S4096x1536, .f32⟩
  | 62 => ⟨S1536x512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S1536x512, .f32⟩
  | 76 => ⟨S4096x512, .f32⟩
  | 77 => ⟨S1x512, .f32⟩
  | 78 => ⟨S4096x512, .f32⟩
  | 79 => ⟨S4096x512, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S4096x512, .f32⟩
  | 89 => ⟨S4096x1536, .f32⟩
  | 90 => ⟨S1536x512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S_, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S512x512, .f32⟩
  | 103 => ⟨S4096x512, .f32⟩
  | 104 => ⟨S1x512, .f32⟩
  | 105 => ⟨S4096x512, .f32⟩
  | 106 => ⟨S4096x512, .f32⟩
  | 107 => ⟨S512x512, .f32⟩
  | 108 => ⟨S4096x512, .f32⟩
  | 109 => ⟨S1x512, .f32⟩
  | 110 => ⟨S4096x512, .f32⟩
  | 111 => ⟨S4096x512, .f32⟩
  | 112 => ⟨S4096x512, .f32⟩
  | 113 => ⟨S4096x512, .f32⟩
  | 114 => ⟨S4096x1536, .f32⟩
  | 115 => ⟨S1536x512, .f32⟩
  | 116 => ⟨S4096x512, .f32⟩
  | 117 => ⟨S1x512, .f32⟩
  | 118 => ⟨S4096x512, .f32⟩
  | 119 => ⟨S4096x512, .f32⟩
  | 120 => ⟨S4096x512, .f32⟩
  | 121 => ⟨S4096x512, .f32⟩
  | 122 => ⟨S_, .f32⟩
  | 123 => ⟨S4096x512, .f32⟩
  | 124 => ⟨S4096x512, .f32⟩
  | 125 => ⟨S_, .f32⟩
  | 126 => ⟨S4096x512, .f32⟩
  | 127 => ⟨S4096x512, .f32⟩
  | _ => ⟨S4096x512, .f32⟩

abbrev hbmTy0_2 (i : Nat) : BufTy := match i % 128 with
  | 0 => ⟨S1536x512, .f32⟩
  | 1 => ⟨S4096x512, .f32⟩
  | 2 => ⟨S1x512, .f32⟩
  | 3 => ⟨S4096x512, .f32⟩
  | 4 => ⟨S4096x512, .f32⟩
  | 5 => ⟨S4096x512, .f32⟩
  | 6 => ⟨S4096x512, .f32⟩
  | 7 => ⟨S_, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S4096x512, .f32⟩
  | 14 => ⟨S4096x1536, .f32⟩
  | 15 => ⟨S1536x512, .f32⟩
  | 16 => ⟨S4096x512, .f32⟩
  | 17 => ⟨S1x512, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S512x512, .f32⟩
  | 28 => ⟨S4096x512, .f32⟩
  | 29 => ⟨S1x512, .f32⟩
  | 30 => ⟨S4096x512, .f32⟩
  | 31 => ⟨S4096x512, .f32⟩
  | 32 => ⟨S4096x512, .f32⟩
  | 33 => ⟨S512x512, .f32⟩
  | 34 => ⟨S4096x512, .f32⟩
  | 35 => ⟨S1x512, .f32⟩
  | 36 => ⟨S4096x512, .f32⟩
  | 37 => ⟨S4096x512, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_1 : Ref sig .tc := ⟨.hbm, 51, rfl⟩
abbrev main_v33 : Ref sig .tc := ⟨.hbm, 52, rfl⟩
abbrev main_v34 : Ref sig .tc := ⟨.hbm, 53, rfl⟩
abbrev main_cst_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_4 : Ref sig .tc := ⟨.hbm, 91, rfl⟩
abbrev main_v70 : Ref sig .tc := ⟨.hbm, 92, rfl⟩
abbrev main_v71 : Ref sig .tc := ⟨.hbm, 93, rfl⟩
abbrev main_cst_5 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_6 : Ref sig .tc := ⟨.hbm, 104, rfl⟩
abbrev main_v81 : Ref sig .tc := ⟨.hbm, 105, rfl⟩
abbrev main_v82 : Ref sig .tc := ⟨.hbm, 106, rfl⟩
abbrev main_cst_7 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_8 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_9 : Ref sig .tc := ⟨.hbm, 144, rfl⟩
abbrev main_v118 : Ref sig .tc := ⟨.hbm, 145, rfl⟩
abbrev main_v119 : Ref sig .tc := ⟨.hbm, 146, rfl⟩
abbrev main_cst_10 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_11 : Ref sig .tc := ⟨.hbm, 157, rfl⟩
abbrev main_v129 : Ref sig .tc := ⟨.hbm, 158, rfl⟩
abbrev main_v130 : Ref sig .tc := ⟨.hbm, 159, rfl⟩
abbrev main_cst_12 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_13 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_cst_14 : Ref sig .tc := ⟨.hbm, 197, rfl⟩
abbrev main_v166 : Ref sig .tc := ⟨.hbm, 198, rfl⟩
abbrev main_v167 : Ref sig .tc := ⟨.hbm, 199, rfl⟩
abbrev main_cst_15 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_cst_16 : Ref sig .tc := ⟨.hbm, 210, rfl⟩
abbrev main_v177 : Ref sig .tc := ⟨.hbm, 211, rfl⟩
abbrev main_v178 : Ref sig .tc := ⟨.hbm, 212, rfl⟩
abbrev main_cst_17 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_cst_18 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_cst_19 : Ref sig .tc := ⟨.hbm, 250, rfl⟩
abbrev main_v214 : Ref sig .tc := ⟨.hbm, 251, rfl⟩
abbrev main_v215 : Ref sig .tc := ⟨.hbm, 252, rfl⟩
abbrev main_cst_20 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_cst_21 : Ref sig .tc := ⟨.hbm, 263, rfl⟩
abbrev main_v225 : Ref sig .tc := ⟨.hbm, 264, rfl⟩
abbrev main_v226 : Ref sig .tc := ⟨.hbm, 265, rfl⟩
abbrev main_cst_22 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_cst_23 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩

abbrev nD : Nat := 1
abbrev τ : Topo := Topo.v7x

variable {F : FTy → Type} [FloatOps F]

class Facts₀ : Prop where
  transposes_S4096x4096_S4096x4096_1_0 : S4096x4096.Transposes [1, 0] S4096x4096
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  concatenates_S4096x512_S4096x512_S4096x512_S4096x1536_d1 : Shape.Concatenates [S4096x512, S4096x512, S4096x512] S4096x1536 1
  transposes_S512x1536_S1536x512_1_0 : S512x1536.Transposes [1, 0] S1536x512
  bcast_S_S4096x512 : S_.BroadcastsInDim S4096x512 (![] : Fin 0 → Fin S4096x512.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S4096x1536_S1536x512_S4096x512_1_0_0_1_n_n_wf : DotDims.WF S4096x1536 S1536x512 S4096x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x1536_S1536x512_S4096x512_1_0_0_1_n_n : DotDims S4096x1536 S1536x512 S4096x512 where
  lhsContracting := [1]
  rhsContracting := [0]
  lhsNonContracting := [0]
  rhsNonContracting := [1]
  lhsBatch := []
  rhsBatch := []
  wf := dot_S4096x1536_S1536x512_S4096x512_1_0_0_1_n_n_wf

class Facts : Prop extends Facts₀ where

variable [Facts]
-- ==== Proof.BitsMessages0.lean ====
/-
  Region 0 of the program: the two edge messages of one GGNN step. For a block of 1024 rows of the node state
  `x` (window 0), the kernel forms  s_in = x · W_in + b_in  (windows 1, 2 -> window 5) and
  s_out = x · W_out + b_out  (windows 3, 4 -> window 6): each a 1024x512 by 512x512 product into the zero
  accumulator plus a bias row broadcast down the rows. The weights and biases are the same block at every point
  (constant index maps); the state block and the two result blocks move with the point.
  Here: what each result buffer holds after the body as a function of the five input blocks, the body's run on
  whole staging buffers, the region's proof data over entry contents `V`, and the body obligation at every point.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Messages0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the two result buffers -/

/-- The incoming-edge message block: the state block times `W_in` plus the bias row, as one stored piece. -/
def sIn (x : Vec F S1024x512 .f32) (w : Vec F S512x512 .bf16) (b : Vec F S1x512 .f32) : Vec F S1024x512 .bf16 :=
  View.canon [⟨rRows, k0_pay2 (View.ld x rRows) (View.ld w rWeight) (View.ld b rBias)⟩]

/-- The outgoing-edge message block: the state block times `W_out` plus the bias row. -/
def sOut (x : Vec F S1024x512 .f32) (w : Vec F S512x512 .bf16) (b : Vec F S1x512 .f32) : Vec F S1024x512 .bf16 :=
  View.canon [⟨rRows, k0_pay3 (View.ld x rRows) (View.ld w rWeight) (View.ld b rBias)⟩]

/-- One store through the whole-buffer rectangle covers the buffer. -/
theorem covers (p : Vec F S1024x512 .bf16) (y : S1024x512.Idx) :
    ∃ pc ∈ ([⟨rRows, p⟩] : List (View.Piece (Elt F) S1024x512 .bf16)), y ∈ pc.1.set :=
  View.cover_of_tiled [⟨rRows, p⟩] S1024x512.size (by rfl) y

/-! ## The body's run -/

set_option maxHeartbeats 1000000 in
/-- On whole staging buffers, the five inputs at contents `x, wi, bi, wo, bo` and the two results at anything, the
    body runs to its end with the inputs as they were and the results at `sIn`, `sOut` of the inputs. -/
theorem body_runs (i : grid0.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .bf16) (h6 : a6.IsWhole)
    (a7 : Memref sig .tc .vmem S1024x512 .bf16) (h7 : a7.IsWhole)
    (x : Vec F S1024x512 .f32) (wi : Vec F S512x512 .bf16) (bi : Vec F S1x512 .f32) (wo : Vec F S512x512 .bf16) (bo : Vec F S1x512 .f32)
    (K : PUnit → sProp 𝕄) :
    iprop(owns (c : Thread nD τ) a1 fullShare x ∗ owns (c : Thread nD τ) a2 fullShare wi ∗ owns (c : Thread nD τ) a3 fullShare bi
        ∗ owns (c : Thread nD τ) a4 fullShare wo ∗ owns (c : Thread nD τ) a5 fullShare bo
        ∗ (∃ d, owns (c : Thread nD τ) a6 fullShare d) ∗ (∃ d, owns (c : Thread nD τ) a7 fullShare d)
        ∗ (iprop(owns (c : Thread nD τ) a1 fullShare x ∗ owns (c : Thread nD τ) a2 fullShare wi ∗ owns (c : Thread nD τ) a3 fullShare bi
            ∗ owns (c : Thread nD τ) a4 fullShare wo ∗ owns (c : Thread nD τ) a5 fullShare bo
            ∗ owns (c : Thread nD τ) a6 fullShare (sIn x wi bi) ∗ owns (c : Thread nD τ) a7 fullShare (sOut x wo bo)) -∗ K ⟨⟩))
      ⊢ wp frame (wpE (defs₀ (F := F)) Variants.none c none) E (cc0__sinout_kernel i a1 h1 a2 h2 a3 h3 a4 h4 a5 h5 a6 h6 a7 h7) K := by
  simp only [cc0__sinout_kernel_eq_skeleton]; unfold cc0__sinout_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  iexists _; isplitr
  swap; · iexact H7
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and each result's at the message block of the input blocks; the invariant is the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sIn (blk V c 0 t) (blk V c 1 t) (blk V c 2 t)
    | ⟨6, _⟩ => sOut (blk V c 0 t) (blk V c 3 t) (blk V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = sIn (blk V c 0 t) (blk V c 1 t) (blk V c 2 t) := by dsimp only [dat]
theorem after6 (c : Dev nD) (t : Fin cfg0.N) : (dat V c).after 6 t = sOut (blk V c 0 t) (blk V c 3 t) (blk V c 4 t) := by dsimp only [dat]

theorem before0 (c : Dev nD) (t : Fin cfg0.N) (d) : (dat V c).before 0 t d = blk V c 0 t :=
  before0_of V (dat V c) (dat_A V c 0) (after0 V c) t d
theorem before1 (c : Dev nD) (t : Fin cfg0.N) (d) : (dat V c).before 1 t d = blk V c 1 t :=
  before1_of V (dat V c) (dat_A V c 1) (after1 V c) t d
theorem before2 (c : Dev nD) (t : Fin cfg0.N) (d) : (dat V c).before 2 t d = blk V c 2 t :=
  before2_of V (dat V c) (dat_A V c 2) (after2 V c) t d
theorem before3 (c : Dev nD) (t : Fin cfg0.N) (d) : (dat V c).before 3 t d = blk V c 3 t :=
  before3_of V (dat V c) (dat_A V c 3) (after3 V c) t d
theorem before4 (c : Dev nD) (t : Fin cfg0.N) (d) : (dat V c).before 4 t d = blk V c 4 t :=
  before4_of V (dat V c) (dat_A V c 4) (after4 V c) t d

/-! ## The body obligation -/

/-- What the body is called with at point `t`: the invariant, the core's dues, and each window's current staging buffer
    at what the pipeline put there. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so `body_runs` applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs (grid0.coords t) c Set.univ _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation (c : Dev nD) : BodyObligation (dat (F := F) V c) (defs₀ (F := F)) Variants.none () Set.univ := fun t => by
  rw [bigSep_W0, bigSep_W0]
  exact sound_body V c t

end Cert.Kernel.Messages0

end
-- ==== Proof.BitsGated1Runs.lean ====
/-
  Region 1 of the program: the gated update of one block of 512 nodes, accumulated over the eight blocks of 512
  neighbours. At grid point (m, k) the body adds to two running sums kept in scratch between points,
      acc_in  += A[m-block, k-block] · s_in[k-block]        acc_out += A[k-block, m-block]ᵀ · s_out[k-block],
  after setting both to zero when k = 0; when k = 7 it reads the finished sums, forms the reset and update gates and
  the candidate state from them and the node block's own state, and stores the new state. At the other points the
  result block is left alone.
  Here: the body's run in each of the three situations the grid meets — k = 0 (start), 0 < k < 7 (middle), k = 7
  (finish) — on whole staging buffers; what each stored buffer ends with is given as the list of stored pieces the
  run itself produces.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gated1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- "This is the first neighbour block": the test the body makes before zeroing the running sums. -/
abbrev atStart (i : grid1.Coords) : Prop :=
  (Scalar.cmpi .ne (Scalar.extui (Scalar.cmpi .eq (BitVec.ofNat 32 (i 1).val) 0#32)) 0#32) = 1#1
/-- "This is the last neighbour block": the test the body makes before finishing the node block. -/
abbrev atFinish (i : grid1.Coords) : Prop := k1_cond2 i = 1#1

/-- The first test holds exactly at the points whose position is a multiple of 8 (k = 0). -/
theorem atStart_iff : ∀ t : Fin cfg1.N, atStart (grid1.coords t) ↔ t.val % 8 = 0 :=
  (by decide +kernel : ∀ t : Fin grid1.N, atStart (grid1.coords t) ↔ t.val % 8 = 0)
/-- The second holds exactly at the points whose position is 7 modulo 8 (k = 7). -/
theorem atFinish_iff : ∀ t : Fin cfg1.N, atFinish (grid1.coords t) ↔ t.val % 8 = 7 :=
  (by decide +kernel : ∀ t : Fin grid1.N, atFinish (grid1.coords t) ↔ t.val % 8 = 7)

/-! ## The body's run, situation by situation -/

set_option maxHeartbeats 4000000 in
/-- START (k = 0): the running sums are zeroed and the first products added; the result block `xo` is handed back
    untouched. The scratch buffers may hold anything on entry. -/
noncomputable def runStart (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc1__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc1__ggnn_kernel_eq_skeleton, k1_part1_eq_skeleton]; unfold cc1__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 4000000 in
/-- MIDDLE (0 < k < 7): the products are added to the running sums `s0`, `s1` the point before left; the result
    block `xo` is handed back untouched. -/
noncomputable def runMiddle (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc1__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc1__ggnn_kernel_eq_skeleton, k1_part1_eq_skeleton]; unfold cc1__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 8000000 in
/-- FINISH (k = 7): the last products are added to the running sums `s0`, `s1`, and the new state of the node block
    is computed from the finished sums and stored over whatever the result block held. -/
noncomputable def runFinish (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LO : List (View.Piece (Elt F) S512x512 .f32)) (LS0 : List (View.Piece (Elt F) S512x512 .f32)), { LS1 : List (View.Piece (Elt F) S512x512 .f32) //
      ∀ (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f LO) ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc1__ggnn_kernel i a2 h2 a3 h3 a4 h4 a5 h5 a6 h6 a7 h7 a8 h8 a9 h9 a10 h10 a11 h11 a12 h12 a13 h13 a14 h14 a15 h15) Kont } := by
  refine ⟨?_, ?_, ?_, fun E Kont => ?run⟩
  case run =>
    simp only [cc1__ggnn_kernel_eq_skeleton, k1_part1_eq_skeleton]; unfold cc1__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

end Cert.Kernel.Gated1

end
-- ==== Proof.BitsGated1.lean ====
/-
  Region 1 of the program, continued: what the two running sums and the result block hold after each of the 64 grid
  points, by recursion on the point's position n = 8·m + k — at k = 0 the sums restart from zero, at 0 < k < 7 they
  grow from what the point before left, at k = 7 they are finished and the new node state is stored —; the region's
  invariant, which carries the two sums from one point to the next; the proof data; and the body obligation.
-/
import proofs.«121501_j55087250538634_2_alg».proof.Proof.BitsGated1Runs
import Idealize.ShloMosaic.Lib.Ring

set_option maxRecDepth 16384

noncomputable section

namespace Cert.Kernel.Gated1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The buffers the body runs on at a point -/

abbrev mw0 (t : Fin cfg1.N) := win1_0.stage (cfg1.slots t 0)
abbrev hw0 (t : Fin cfg1.N) : (mw0 t).IsWhole := hstage1_0 ((cfg1.slots t 0).cast nbuf1_0)
abbrev mw1 (t : Fin cfg1.N) := win1_1.stage (cfg1.slots t 1)
abbrev hw1 (t : Fin cfg1.N) : (mw1 t).IsWhole := hstage1_1 ((cfg1.slots t 1).cast nbuf1_1)
abbrev mw2 (t : Fin cfg1.N) := win1_2.stage (cfg1.slots t 2)
abbrev hw2 (t : Fin cfg1.N) : (mw2 t).IsWhole := hstage1_2 ((cfg1.slots t 2).cast nbuf1_2)
abbrev mw3 (t : Fin cfg1.N) := win1_3.stage (cfg1.slots t 3)
abbrev hw3 (t : Fin cfg1.N) : (mw3 t).IsWhole := hstage1_3 ((cfg1.slots t 3).cast nbuf1_3)
abbrev mw4 (t : Fin cfg1.N) := win1_4.stage (cfg1.slots t 4)
abbrev hw4 (t : Fin cfg1.N) : (mw4 t).IsWhole := hstage1_4 ((cfg1.slots t 4).cast nbuf1_4)
abbrev mw5 (t : Fin cfg1.N) := win1_5.stage (cfg1.slots t 5)
abbrev hw5 (t : Fin cfg1.N) : (mw5 t).IsWhole := hstage1_5 ((cfg1.slots t 5).cast nbuf1_5)
abbrev mw6 (t : Fin cfg1.N) := win1_6.stage (cfg1.slots t 6)
abbrev hw6 (t : Fin cfg1.N) : (mw6 t).IsWhole := hstage1_6 ((cfg1.slots t 6).cast nbuf1_6)
abbrev mw7 (t : Fin cfg1.N) := win1_7.stage (cfg1.slots t 7)
abbrev hw7 (t : Fin cfg1.N) : (mw7 t).IsWhole := hstage1_7 ((cfg1.slots t 7).cast nbuf1_7)
abbrev mw8 (t : Fin cfg1.N) := win1_8.stage (cfg1.slots t 8)
abbrev hw8 (t : Fin cfg1.N) : (mw8 t).IsWhole := hstage1_8 ((cfg1.slots t 8).cast nbuf1_8)
abbrev mw9 (t : Fin cfg1.N) := win1_9.stage (cfg1.slots t 9)
abbrev hw9 (t : Fin cfg1.N) : (mw9 t).IsWhole := hstage1_9 ((cfg1.slots t 9).cast nbuf1_9)
abbrev mw10 (t : Fin cfg1.N) := win1_10.stage (cfg1.slots t 10)
abbrev hw10 (t : Fin cfg1.N) : (mw10 t).IsWhole := hstage1_10 ((cfg1.slots t 10).cast nbuf1_10)
abbrev mw11 (t : Fin cfg1.N) := win1_11.stage (cfg1.slots t 11)
abbrev hw11 (t : Fin cfg1.N) : (mw11 t).IsWhole := hstage1_11 ((cfg1.slots t 11).cast nbuf1_11)
/-- The two scratch buffers holding the running sums. -/
abbrev sc0 : Memref sig .tc .vmem S512x512 .f32 := Memref.whole cc1_scratch0
abbrev sc1 : Memref sig .tc .vmem S512x512 .f32 := Memref.whole cc1_scratch1
/-- The views through which stored pieces are read back as contents. -/
abbrev vS0 : View sig .tc .vmem S512x512 .f32 := sc0.view
abbrev vS1 : View sig .tc .vmem S512x512 .f32 := sc1.view
abbrev vOut : View sig .tc .vmem S512x512 .f32 := (Memref.whole cc1_stg11_0 : Memref sig .tc .vmem S512x512 .f32).view

/-! ## Where the result window rests -/

theorem out_idle : ∀ t : Fin cfg1.N, ¬atFinish (grid1.coords t) → cfg1.idle 11 (grid1.coords t) = true :=
  (by decide +kernel : ∀ t : Fin grid1.N, ¬atFinish (grid1.coords t) → cfg1.idle 11 (grid1.coords t) = true)
theorem out_noFlush : ∀ t : Fin cfg1.N, ¬atFinish (grid1.coords t) → (cfg1.win 11).flush t = false :=
  (by decide +kernel : ∀ t : Fin grid1.N, ¬atFinish (grid1.coords t) → win1_11.flush t = false)
theorem out_live : ∀ t : Fin cfg1.N, atFinish (grid1.coords t) → cfg1.idle 11 (grid1.coords t) = false :=
  (by decide +kernel : ∀ t : Fin grid1.N, atFinish (grid1.coords t) → cfg1.idle 11 (grid1.coords t) = false)

/-! ## What each situation leaves: the stored pieces read back -/

/-- The result block's placeholder at the points where nothing is stored into it (never consulted: the window rests
    there and is not written back). -/
def restOut : Vec F S512x512 .f32 := vOut.read (Elt F) (vOut.writes (Elt F) vOut.junk [])

/-- After a START point: (the resting result block, the first sum, the second sum). -/
def startTriple (c : Dev nD) (t : Fin cfg1.N) (hs : atStart (grid1.coords t)) (hf : ¬atFinish (grid1.coords t)) : Vec F S512x512 .f32 × Vec F S512x512 .f32 × Vec F S512x512 .f32 :=
  (restOut,
   vS0.read (Elt F) (vS0.writes (Elt F) vS0.junk (runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1),
   vS1.read (Elt F) (vS1.writes (Elt F) vS1.junk (runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1))

/-- After a MIDDLE point, from the sums `s0`, `s1` the point before left. -/
def middleTriple (c : Dev nD) (t : Fin cfg1.N) (hs : ¬atStart (grid1.coords t)) (hf : ¬atFinish (grid1.coords t)) (s0 s1 : Vec F S512x512 .f32) : Vec F S512x512 .f32 × Vec F S512x512 .f32 × Vec F S512x512 .f32 :=
  (restOut,
   vS0.read (Elt F) (vS0.writes (Elt F) vS0.junk (runMiddle c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS1.read (Elt F) (vS1.writes (Elt F) vS1.junk (runMiddle c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1))

/-- After a FINISH point, from the sums `s0`, `s1` the point before left: (the new node state, the finished sums). -/
def finishTriple (c : Dev nD) (t : Fin cfg1.N) (hs : ¬atStart (grid1.coords t)) (hf : atFinish (grid1.coords t)) (s0 s1 : Vec F S512x512 .f32) : Vec F S512x512 .f32 × Vec F S512x512 .f32 × Vec F S512x512 .f32 :=
  (vOut.read (Elt F) (vOut.writes (Elt F) vOut.junk (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS0.read (Elt F) (vS0.writes (Elt F) vS0.junk (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1),
   vS1.read (Elt F) (vS1.writes (Elt F) vS1.junk (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1))

/-! ## The stored pieces cover their buffers -/

theorem start_cover0 (c : Dev nD) (t : Fin cfg1.N) (hs : atStart (grid1.coords t)) (hf : ¬atFinish (grid1.coords t)) (y : S512x512.Idx) :
    ∃ pc ∈ (runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1, y ∈ pc.1.set :=
  View.cover_of_tiledL _ S512x512.size (by sl_kernel_rfl) y
theorem start_cover1 (c : Dev nD) (t : Fin cfg1.N) (hs : atStart (grid1.coords t)) (hf : ¬atFinish (grid1.coords t)) (y : S512x512.Idx) :
    ∃ pc ∈ (runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1, y ∈ pc.1.set :=
  View.cover_of_tiledL _ S512x512.size (by sl_kernel_rfl) y
theorem middle_cover0 (c : Dev nD) (t : Fin cfg1.N) (hs : ¬atStart (grid1.coords t)) (hf : ¬atFinish (grid1.coords t)) (s0 s1 : Vec F S512x512 .f32) (y : S512x512.Idx) :
    ∃ pc ∈ (runMiddle c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem middle_cover1 (c : Dev nD) (t : Fin cfg1.N) (hs : ¬atStart (grid1.coords t)) (hf : ¬atFinish (grid1.coords t)) (s0 s1 : Vec F S512x512 .f32) (y : S512x512.Idx) :
    ∃ pc ∈ (runMiddle c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_coverO (c : Dev nD) (t : Fin cfg1.N) (hs : ¬atStart (grid1.coords t)) (hf : atFinish (grid1.coords t)) (s0 s1 : Vec F S512x512 .f32) (y : S512x512.Idx) :
    ∃ pc ∈ (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem finish_cover0 (c : Dev nD) (t : Fin cfg1.N) (hs : ¬atStart (grid1.coords t)) (hf : atFinish (grid1.coords t)) (s0 s1 : Vec F S512x512 .f32) (y : S512x512.Idx) :
    ∃ pc ∈ (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_cover1 (c : Dev nD) (t : Fin cfg1.N) (hs : ¬atStart (grid1.coords t)) (hf : atFinish (grid1.coords t)) (s0 s1 : Vec F S512x512 .f32) (y : S512x512.Idx) :
    ∃ pc ∈ (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1, y ∈ pc.1.set :=
  View.cover_of_tiledL _ S512x512.size (by sl_kernel_rfl) y

/-! ## The accumulation over the grid -/

/-- After the point at position `n`: (the result block's buffer, the first running sum, the second). -/
def sums (c : Dev nD) : (n : ℕ) → n < cfg1.N → Vec F S512x512 .f32 × Vec F S512x512 .f32 × Vec F S512x512 .f32
  | 0, hn => startTriple V c ⟨0, hn⟩ ((atStart_iff ⟨0, hn⟩).mpr (Nat.zero_mod _))
      (fun h => (fun h => by (try dsimp only at h); omega) ((atFinish_iff ⟨0, hn⟩).mp h))
  | n + 1, hn =>
    if h0 : (n + 1) % 8 = 0 then
      if h7 : (n + 1) % 8 = 7 then False.elim (by omega)
      else startTriple V c ⟨n + 1, hn⟩ ((atStart_iff ⟨n + 1, hn⟩).mpr h0) (fun h => h7 ((atFinish_iff ⟨n + 1, hn⟩).mp h))
    else
      if h7 : (n + 1) % 8 = 7 then
        finishTriple V c ⟨n + 1, hn⟩ (fun h => h0 ((atStart_iff ⟨n + 1, hn⟩).mp h)) ((atFinish_iff ⟨n + 1, hn⟩).mpr h7)
          (sums c n (Nat.lt_of_succ_lt hn)).2.1 (sums c n (Nat.lt_of_succ_lt hn)).2.2
      else
        middleTriple V c ⟨n + 1, hn⟩ (fun h => h0 ((atStart_iff ⟨n + 1, hn⟩).mp h)) (fun h => h7 ((atFinish_iff ⟨n + 1, hn⟩).mp h))
          (sums c n (Nat.lt_of_succ_lt hn)).2.1 (sums c n (Nat.lt_of_succ_lt hn)).2.2

theorem sums_start (c : Dev nD) (t : Fin cfg1.N) (h0 : t.val % 8 = 0) (h7 : ¬t.val % 8 = 7) :
    sums V c t.val t.isLt = startTriple V c t ((atStart_iff t).mpr h0) (fun h => h7 ((atFinish_iff t).mp h)) := by
  obtain ⟨n, hn⟩ := t
  cases n with
  | zero => exact rfl
  | succ n => exact (dif_pos h0).trans ((dif_neg h7).trans rfl)

theorem sums_middle (c : Dev nD) (t : Fin cfg1.N) (h0 : ¬t.val % 8 = 0) (h7 : ¬t.val % 8 = 7) :
    sums V c t.val t.isLt = middleTriple V c t (fun h => h0 ((atStart_iff t).mp h)) (fun h => h7 ((atFinish_iff t).mp h))
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h7).trans rfl)

theorem sums_finish (c : Dev nD) (t : Fin cfg1.N) (h0 : ¬t.val % 8 = 0) (h7 : t.val % 8 = 7) :
    sums V c t.val t.isLt = finishTriple V c t (fun h => h0 ((atStart_iff t).mp h)) ((atFinish_iff t).mpr h7)
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- The other scoped buffers of the core, unopened. -/
abbrev others (c : Dev nD) : sProp 𝕄 :=
  Pipeline.scopedRestBut (Ix := Unit) (Name := ℕ) (U := UR sig nD τ) (Lvl := ℕ) (Val := Elt F) spec1 c [cc1_scratch0, cc1_scratch1]

/-- Before the point at position `n`: at the first point every scratch buffer at anything; afterwards the two running
    sums at what the point before left, the other scoped buffers and the generator register untouched. -/
def carried (c : Dev nD) : (n : ℕ) → n ≤ cfg1.N → sProp 𝕄
  | 0, _ => Pipeline.ΦA spec1 c
  | n + 1, hn => iprop(iprop(iprop(owns (c : Thread nD τ) sc0 fullShare (sums V c n hn).2.1 ∗ owns (c : Thread nD τ) sc1 fullShare (sums V c n hn).2.2)
      ∗ others c) ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop(iprop(iprop(owns (c : Thread nD τ) sc0 fullShare (sums V c n hn).2.1 ∗ owns (c : Thread nD τ) sc1 fullShare (sums V c n hn).2.2)
      ∗ others c) ∗ (∃ r, prngReg c r)) := rfl

theorem carried_pos (c : Dev nD) (n : ℕ) (h : n ≤ cfg1.N) (hz : n ≠ 0) :
    carried V c n h = iprop(iprop(iprop(owns (c : Thread nD τ) sc0 fullShare (sums V c (n - 1) (by omega)).2.1
      ∗ owns (c : Thread nD τ) sc1 fullShare (sums V c (n - 1) (by omega)).2.2) ∗ others c) ∗ (∃ r, prngReg c r)) := by
  cases n with
  | zero => exact absurd rfl hz
  | succ n => rfl

/-- The invariant handed in at the first point, with the two scratch buffers named. -/
theorem entry_eq (c : Dev nD) :
    (Pipeline.ΦA spec1 c : sProp 𝕄)
      = iprop(iprop(iprop((∃ d, owns (c : Thread nD τ) sc0 fullShare d) ∗ (∃ d, owns (c : Thread nD τ) sc1 fullShare d)) ∗ others c) ∗ (∃ r, prngReg c r)) := by
  unfold Pipeline.ΦA; rw [scopedRest1_split]; simp only [sc0, sc1, owns_whole]; try rfl

/-! ## The proof data -/

theorem before0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before5_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before6_of {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before7_of {c : Dev nD} (dat : Dat τ (Elt F) Unit ℕ (UR sig nD τ) ℕ cfg1 c) (hA : dat.A 7 = V c (Pipeline.arrRef spec1 7))
    (hafter : ∀ t, dat.after 7 t = blk V c 7 t) (t : Fin cfg1.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
theorem before8_of {c : Dev nD} (dat : Dat τ (Elt F) Unit ℕ (UR sig nD τ) ℕ cfg1 c) (hA : dat.A 8 = V c (Pipeline.arrRef spec1 8))
    (hafter : ∀ t, dat.after 8 t = blk V c 8 t) (t : Fin cfg1.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
theorem before9_of {c : Dev nD} (dat : Dat τ (Elt F) Unit ℕ (UR sig nD τ) ℕ cfg1 c) (hA : dat.A 9 = V c (Pipeline.arrRef spec1 9))
    (hafter : ∀ t, dat.after 9 t = blk V c 9 t) (t : Fin cfg1.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
theorem before10_of {c : Dev nD} (dat : Dat τ (Elt F) Unit ℕ (UR sig nD τ) ℕ cfg1 c) (hA : dat.A 10 = V c (Pipeline.arrRef spec1 10))
    (hafter : ∀ t, dat.after 10 t = blk V c 10 t) (t : Fin cfg1.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`. The adjacency array is read through two windows (a block and the
    mirrored block): each holds half of the read permission. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (sums V c t.val t.isLt).1
  Φ t := carried V c t.val (Nat.le_of_lt_succ t.isLt)
  q w := match w with
    | ⟨0, _⟩ => fullShare.left
    | ⟨1, _⟩ => fullShare.right
    | _ => fullShare
  owed _ := 0

theorem dat_A (c : Dev nD) (w : Fin cfg1.W) : (dat V c).A w = V c (Pipeline.arrRef spec1 w) := by
  dsimp only [dat]

theorem carried_castSucc (c : Dev nD) (t : Fin cfg1.N) :
    (dat V c).Φ t.castSucc = carried V c t.val (Nat.le_of_lt t.isLt) := by
  dsimp only [dat]; simp only [Fin.coe_castSucc]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = blk V c 6 t := by dsimp only [dat]
theorem after7 (c : Dev nD) (t : Fin cfg1.N) : (dat V c).after 7 t = blk V c 7 t := by dsimp only [dat]
theorem after8 (c : Dev nD) (t : Fin cfg1.N) : (dat V c).after 8 t = blk V c 8 t := by dsimp only [dat]
theorem after9 (c : Dev nD) (t : Fin cfg1.N) : (dat V c).after 9 t = blk V c 9 t := by dsimp only [dat]
theorem after10 (c : Dev nD) (t : Fin cfg1.N) : (dat V c).after 10 t = blk V c 10 t := by dsimp only [dat]
theorem after11 (c : Dev nD) (t : Fin cfg1.N) : (dat V c).after 11 t = (sums V c t.val t.isLt).1 := by dsimp only [dat]

theorem before0 (c : Dev nD) (t : Fin cfg1.N) (d) : (dat V c).before 0 t d = blk V c 0 t :=
  before0_of V (dat V c) (dat_A V c 0) (after0 V c) t d
theorem before1 (c : Dev nD) (t : Fin cfg1.N) (d) : (dat V c).before 1 t d = blk V c 1 t :=
  before1_of V (dat V c) (dat_A V c 1) (after1 V c) t d
theorem before2 (c : Dev nD) (t : Fin cfg1.N) (d) : (dat V c).before 2 t d = blk V c 2 t :=
  before2_of V (dat V c) (dat_A V c 2) (after2 V c) t d
theorem before3 (c : Dev nD) (t : Fin cfg1.N) (d) : (dat V c).before 3 t d = blk V c 3 t :=
  before3_of V (dat V c) (dat_A V c 3) (after3 V c) t d
theorem before4 (c : Dev nD) (t : Fin cfg1.N) (d) : (dat V c).before 4 t d = blk V c 4 t :=
  before4_of V (dat V c) (dat_A V c 4) (after4 V c) t d
theorem before5 (c : Dev nD) (t : Fin cfg1.N) (d) : (dat V c).before 5 t d = blk V c 5 t :=
  before5_of V (dat V c) (dat_A V c 5) (after5 V c) t d
theorem before6 (c : Dev nD) (t : Fin cfg1.N) (d) : (dat V c).before 6 t d = blk V c 6 t :=
  before6_of V (dat V c) (dat_A V c 6) (after6 V c) t d
theorem before7 (c : Dev nD) (t : Fin cfg1.N) (d) : (dat V c).before 7 t d = blk V c 7 t :=
  before7_of V (dat V c) (dat_A V c 7) (after7 V c) t d
theorem before8 (c : Dev nD) (t : Fin cfg1.N) (d) : (dat V c).before 8 t d = blk V c 8 t :=
  before8_of V (dat V c) (dat_A V c 8) (after8 V c) t d
theorem before9 (c : Dev nD) (t : Fin cfg1.N) (d) : (dat V c).before 9 t d = blk V c 9 t :=
  before9_of V (dat V c) (dat_A V c 9) (after9 V c) t d
theorem before10 (c : Dev nD) (t : Fin cfg1.N) (d) : (dat V c).before 10 t d = blk V c 10 t :=
  before10_of V (dat V c) (dat_A V c 10) (after10 V c) t d

theorem leaves0 (c : Dev nD) (t : Fin cfg1.N) :
    (dat V c).leavesExact 0 t = owns (c : Thread nD τ) (mw0 t) fullShare (blk V c 0 t) := by
  unfold Dat.leavesExact; rw [show cfg1.idle 0 (cfg1.grid.coords t) = false from rfl, after0]; try rfl
theorem leaves1 (c : Dev nD) (t : Fin cfg1.N) :
    (dat V c).leavesExact 1 t = owns (c : Thread nD τ) (mw1 t) fullShare (blk V c 1 t) := by
  unfold Dat.leavesExact; rw [show cfg1.idle 1 (cfg1.grid.coords t) = false from rfl, after1]; try rfl
theorem leaves2 (c : Dev nD) (t : Fin cfg1.N) :
    (dat V c).leavesExact 2 t = owns (c : Thread nD τ) (mw2 t) fullShare (blk V c 2 t) := by
  unfold Dat.leavesExact; rw [show cfg1.idle 2 (cfg1.grid.coords t) = false from rfl, after2]; try rfl
theorem leaves3 (c : Dev nD) (t : Fin cfg1.N) :
    (dat V c).leavesExact 3 t = owns (c : Thread nD τ) (mw3 t) fullShare (blk V c 3 t) := by
  unfold Dat.leavesExact; rw [show cfg1.idle 3 (cfg1.grid.coords t) = false from rfl, after3]; try rfl
theorem leaves4 (c : Dev nD) (t : Fin cfg1.N) :
    (dat V c).leavesExact 4 t = owns (c : Thread nD τ) (mw4 t) fullShare (blk V c 4 t) := by
  unfold Dat.leavesExact; rw [show cfg1.idle 4 (cfg1.grid.coords t) = false from rfl, after4]; try rfl
theorem leaves5 (c : Dev nD) (t : Fin cfg1.N) :
    (dat V c).leavesExact 5 t = owns (c : Thread nD τ) (mw5 t) fullShare (blk V c 5 t) := by
  unfold Dat.leavesExact; rw [show cfg1.idle 5 (cfg1.grid.coords t) = false from rfl, after5]; try rfl
theorem leaves6 (c : Dev nD) (t : Fin cfg1.N) :
    (dat V c).leavesExact 6 t = owns (c : Thread nD τ) (mw6 t) fullShare (blk V c 6 t) := by
  unfold Dat.leavesExact; rw [show cfg1.idle 6 (cfg1.grid.coords t) = false from rfl, after6]; try rfl
theorem leaves7 (c : Dev nD) (t : Fin cfg1.N) :
    (dat V c).leavesExact 7 t = owns (c : Thread nD τ) (mw7 t) fullShare (blk V c 7 t) := by
  unfold Dat.leavesExact; rw [show cfg1.idle 7 (cfg1.grid.coords t) = false from rfl, after7]; try rfl
theorem leaves8 (c : Dev nD) (t : Fin cfg1.N) :
    (dat V c).leavesExact 8 t = owns (c : Thread nD τ) (mw8 t) fullShare (blk V c 8 t) := by
  unfold Dat.leavesExact; rw [show cfg1.idle 8 (cfg1.grid.coords t) = false from rfl, after8]; try rfl
theorem leaves9 (c : Dev nD) (t : Fin cfg1.N) :
    (dat V c).leavesExact 9 t = owns (c : Thread nD τ) (mw9 t) fullShare (blk V c 9 t) := by
  unfold Dat.leavesExact; rw [show cfg1.idle 9 (cfg1.grid.coords t) = false from rfl, after9]; try rfl
theorem leaves10 (c : Dev nD) (t : Fin cfg1.N) :
    (dat V c).leavesExact 10 t = owns (c : Thread nD τ) (mw10 t) fullShare (blk V c 10 t) := by
  unfold Dat.leavesExact; rw [show cfg1.idle 10 (cfg1.grid.coords t) = false from rfl, after10]; try rfl

/-! ## The body obligation -/

def bodyPre (c : Dev nD) (t : Fin cfg1.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d))
    ∗ (∃ d, owns (c : Thread nD τ) (mw5 t) fullShare ((dat V c).before 5 t d))
    ∗ (∃ d, owns (c : Thread nD τ) (mw6 t) fullShare ((dat V c).before 6 t d))
    ∗ (∃ d, owns (c : Thread nD τ) (mw7 t) fullShare ((dat V c).before 7 t d))
    ∗ (∃ d, owns (c : Thread nD τ) (mw8 t) fullShare ((dat V c).before 8 t d))
    ∗ (∃ d, owns (c : Thread nD τ) (mw9 t) fullShare ((dat V c).before 9 t d))
    ∗ (∃ d, owns (c : Thread nD τ) (mw10 t) fullShare ((dat V c).before 10 t d))
    ∗ (∃ d, owns (c : Thread nD τ) (mw11 t) fullShare ((dat V c).before 11 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

end Cert.Kernel.Gated1

end
-- ==== Proof.BitsGated1Body.lean ====
/-
  Region 1 of the program, concluded: the body obligation at every grid point — the point's position decides
  which of the three situations applies, the invariant hands the body the two running sums (at anything at the very
  first point, at what the point before left afterwards) and takes them back at this point's contents — and how
  the invariant is entered and left.
-/
import proofs.«121501_j55087250538634_2_alg».proof.Proof.BitsGated1

set_option maxRecDepth 16384

noncomputable section

namespace Cert.Kernel.Gated1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8, before9, before10]
  rw [show (dat V c).owesAt () t.succ = (dat V c).owesAt () t.castSucc from rfl]
  rw [show (dat V c).Φ t.succ = carried V c (t.val + 1) t.isLt from rfl, carried_succ]
  rw [leaves0, leaves1, leaves2, leaves3, leaves4, leaves5, leaves6, leaves7, leaves8, leaves9, leaves10]
  have hN : t.val < 64 := lt_of_lt_of_eq t.isLt (show cfg1.N = 64 from N_1)
  by_cases h0 : t.val % 8 = 0
  · by_cases h7 : t.val % 8 = 7
    · exfalso; omega
    · rw [Dat.leavesExact_idle (dat V c) 11 t (out_idle t (fun h => h7 ((atFinish_iff t).mp h))) (out_noFlush t (fun h => h7 ((atFinish_iff t).mp h)))]
      rw [sums_start V c t h0 h7]
      unfold startTriple; (try dsimp only)
      by_cases hz : t.val = 0
      · rw [carried_castSucc V c t, carried_zero V c _ _ hz, entry_eq]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [carried_castSucc V c t, carried_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun h => h0 (by rw [h])
    by_cases h7 : t.val % 8 = 7
    · rw [show (dat V c).leavesExact 11 t = owns (c : Thread nD τ) (mw11 t) fullShare ((dat V c).after 11 t) from by
        unfold Dat.leavesExact; rw [out_live t ((atFinish_iff t).mpr h7)], after11]
      rw [sums_finish V c t h0 h7]
      unfold finishTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) ((atFinish_iff t).mpr h7) (blk V c 0 t) (blk V c 1 t) (blk V c 2 t) (blk V c 3 t) (blk V c 4 t) (blk V c 5 t) (blk V c 6 t) (blk V c 7 t) (blk V c 8 t) (blk V c 9 t) (blk V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (finish_cover0 V c t _ _ _ _)
            unfold owns; iexists _; isplitr
            swap; · iexact HS1
            ipureintro; exact View.read_writes_of_cover _ _ _ _ _ (finish_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (finish_coverO V c t _ _ _ _)
    · rw [Dat.leavesExact_idle (dat V c) 11 t (out_idle t (fun h => h7 ((atFinish_iff t).mp h))) (out_noFlush t (fun h => h7 ((atFinish_iff t).mp h)))]
      rw [sums_middle V c t h0 h7]
      unfold middleTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (middle_cover0 V c t _ _ _ _)
            unfold owns; iexists _; isplitr
            swap; · iexact HS1
            ipureintro; exact View.read_writes_of_cover _ _ _ _ _ (middle_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation of the region, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem enter (c : Dev nD) : Pipeline.ΦA spec1 c ⊢ (dat V c).Φ 0 := by
  rw [show (dat V c).Φ 0 = carried V c 0 (Nat.zero_le _) from rfl, carried_zero V c 0 _ rfl]
  try exact Idealize.SL.BI.Entails.refl _

/-- After the last point the invariant gives the scoped buffers back: the sums' contents are forgotten. -/
theorem leave (c : Dev nD) : (dat V c).Φ (Fin.last cfg1.N) ⊢ Pipeline.ΦA spec1 c := by
  have hne : (Fin.last cfg1.N).val ≠ 0 := by rw [Fin.val_last]; have : cfg1.N = 64 := N_1; omega
  rw [show (dat V c).Φ (Fin.last cfg1.N) = carried V c (Fin.last cfg1.N).val (Nat.le_of_lt_succ (Fin.last cfg1.N).isLt) from rfl,
    carried_pos V c _ _ hne, entry_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Cert.Kernel.Gated1

end
-- ==== Proof.BitsGated1Arrays.lean ====
/-
  Region 1 of the program: its windows' arrays against the buffers behind them. The adjacency array is read
  through two windows; the read permission on its buffer is cut in two halves, one per window, when the region
  is entered, and the halves are joined again when it is left. Every other array has a buffer of its own.
-/
import proofs.«121501_j55087250538634_2_alg».proof.Proof.BitsGated1

set_option maxRecDepth 16384

noncomputable section

namespace Cert.Kernel.Gated1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows. -/
abbrev bufs : List (Ref sig .tc) := [main_v1, main_v23_0, main_v23_1, main_arg0, main_v7, main_v18, main_v9, main_v19, main_v11, main_v20, main_v24]

theorem bufs_eq : Finset.univ.image (Pipeline.arrRef spec1) = bufs.toFinset := by decide

/-- A conjunction over those buffers, one by one. -/
theorem bufs_chain (Φ : Ref sig .tc → sProp 𝕄) :
    bigSep (Finset.univ.image (Pipeline.arrRef spec1)) Φ = iprop(Φ main_v1 ∗ Φ main_v23_0 ∗ Φ main_v23_1 ∗ Φ main_arg0 ∗ Φ main_v7 ∗ Φ main_v18 ∗ Φ main_v9 ∗ Φ main_v19 ∗ Φ main_v11 ∗ Φ main_v20 ∗ Φ main_v24) :=
  bigSep_eq_bigSepL_of_eq bufs bufs_eq (by decide) Φ

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl
theorem share11 (c : Dev nD) : (dat V c).share 11 = fullShare := rfl

/-- ENTRY: the buffers whole at contents `G` make the windows' arrays at `G`, the adjacency buffer's permission halved. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      ⊢ (dat V c).arrays (fun w => G (Pipeline.arrRef spec1 w)) := by
  unfold Pipeline.arrBufs Dat.arrays
  rw [bufs_chain, bigSep_W1]
  simp only [share0, share1, share2, share3, share4, share5, share6, share7, share8, share9, share10, share11, View.set_whole]
  iintro ⟨HA, H2, H3, H4, H5, H6, H7, H8, H9, H10, H11⟩
  ihave HA' := (pointsTo_share (PosShare.mem_left_op_right fullShare)).1 $$ HA
  icases HA' with ⟨HA0, HA1⟩
  isplitl [HA0]; · iexact HA0
  isplitl [HA1]; · iexact HA1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `G`, the two halves of the adjacency buffer's permission joined, are the
    buffers whole at `G`. -/
theorem bufs_of_arrays (c : Dev nD) (G : (b : Ref sig .tc) → Buf (Elt F) ((c : Thread nD τ).loc b)) :
    (dat V c).arrays (fun w => G (Pipeline.arrRef spec1 w))
      ⊢ (Pipeline.arrBufs (Ix := Unit) (Name := ℕ) (U := UR sig nD τ) (Lvl := ℕ) spec1 c G : sProp 𝕄) := by
  unfold Pipeline.arrBufs Dat.arrays
  rw [bufs_chain, bigSep_W1]
  simp only [share0, share1, share2, share3, share4, share5, share6, share7, share8, share9, share10, share11, View.set_whole]
  iintro ⟨HA0, HA1, H2, H3, H4, H5, H6, H7, H8, H9, H10, H11⟩
  ihave HA := (pointsTo_share (PosShare.mem_left_op_right fullShare)).2 $$ [HA0 HA1]
  · isplitl [HA0]; · iexact HA0
    iexact HA1
  isplitl [HA]; · iexact HA
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY, from all the core's unscoped buffers: the windows' arrays and the buffers that are no window's array. -/
theorem enter_arrays (c : Dev nD) (G : (b : Ref sig .tc) → Buf (Elt F) ((c : Thread nD τ).loc b)) :
    (unscopedBufs c G : sProp 𝕄)
      ⊢ iprop((dat V c).arrays (fun w => G (Pipeline.arrRef spec1 w))
          ∗ Pipeline.unscopedRest (Ix := Unit) (Name := ℕ) (U := UR sig nD τ) (Lvl := ℕ) spec1 c G) := by
  rw [Pipeline.unscopedBufs_split₀ cfgs 1 winFacts₀1.arr_unscoped c G]
  exact BIClass.sep_mono (arrays_of_bufs V c G) .rfl

/-- EXIT, back to all the core's unscoped buffers at contents `G'` that agree with the arrays' final contents on the
    arrays and with the entry contents `G` elsewhere. -/
theorem leave_arrays (c : Dev nD) (G G' : (b : Ref sig .tc) → Buf (Elt F) ((c : Thread nD τ).loc b))
    (Fa : (w : Fin cfg1.W) → Buf (Elt F) ((cfg1.win w).arr.view.loc (c : Thread nD τ)))
    (hF : ∀ w, Fa w = G' (Pipeline.arrRef spec1 w))
    (hrest : ∀ b, b ∉ Finset.univ.image (Pipeline.arrRef spec1) → G' b = G b) :
    iprop((dat V c).arrays Fa ∗ Pipeline.unscopedRest (Ix := Unit) (Name := ℕ) (U := UR sig nD τ) (Lvl := ℕ) spec1 c G)
      ⊢ (unscopedBufs c G' : sProp 𝕄) := by
  rw [Pipeline.unscopedBufs_split₀ cfgs 1 winFacts₀1.arr_unscoped c G', show Fa = fun w => G' (Pipeline.arrRef spec1 w) from funext hF]
  refine BIClass.sep_mono (bufs_of_arrays V c G') ?_
  unfold Pipeline.unscopedRest
  exact Entails.of_eq (bigSep_congr fun b hb => by rw [hrest b (Finset.mem_sdiff.mp hb).2])

end Cert.Kernel.Gated1

end
-- ==== Proof.BitsMessages2.lean ====
/-
  Region 2 of the program: the two edge messages of one GGNN step. For a block of 1024 rows of the node state
  `x` (window 0), the kernel forms  s_in = x · W_in + b_in  (windows 1, 2 -> window 5) and
  s_out = x · W_out + b_out  (windows 3, 4 -> window 6): each a 1024x512 by 512x512 product into the zero
  accumulator plus a bias row broadcast down the rows. The weights and biases are the same block at every point
  (constant index maps); the state block and the two result blocks move with the point.
  Here: what each result buffer holds after the body as a function of the five input blocks, the body's run on
  whole staging buffers, the region's proof data over entry contents `V`, and the body obligation at every point.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Messages2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the two result buffers -/

/-- The incoming-edge message block: the state block times `W_in` plus the bias row, as one stored piece. -/
def sIn (x : Vec F S1024x512 .f32) (w : Vec F S512x512 .bf16) (b : Vec F S1x512 .f32) : Vec F S1024x512 .bf16 :=
  View.canon [⟨rRows, k2_pay2 (View.ld x rRows) (View.ld w rWeight) (View.ld b rBias)⟩]

/-- The outgoing-edge message block: the state block times `W_out` plus the bias row. -/
def sOut (x : Vec F S1024x512 .f32) (w : Vec F S512x512 .bf16) (b : Vec F S1x512 .f32) : Vec F S1024x512 .bf16 :=
  View.canon [⟨rRows, k2_pay3 (View.ld x rRows) (View.ld w rWeight) (View.ld b rBias)⟩]

/-- One store through the whole-buffer rectangle covers the buffer. -/
theorem covers (p : Vec F S1024x512 .bf16) (y : S1024x512.Idx) :
    ∃ pc ∈ ([⟨rRows, p⟩] : List (View.Piece (Elt F) S1024x512 .bf16)), y ∈ pc.1.set :=
  View.cover_of_tiled [⟨rRows, p⟩] S1024x512.size (by rfl) y

/-! ## The body's run -/

set_option maxHeartbeats 1000000 in
/-- On whole staging buffers, the five inputs at contents `x, wi, bi, wo, bo` and the two results at anything, the
    body runs to its end with the inputs as they were and the results at `sIn`, `sOut` of the inputs. -/
theorem body_runs (i : grid2.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .bf16) (h6 : a6.IsWhole)
    (a7 : Memref sig .tc .vmem S1024x512 .bf16) (h7 : a7.IsWhole)
    (x : Vec F S1024x512 .f32) (wi : Vec F S512x512 .bf16) (bi : Vec F S1x512 .f32) (wo : Vec F S512x512 .bf16) (bo : Vec F S1x512 .f32)
    (K : PUnit → sProp 𝕄) :
    iprop(owns (c : Thread nD τ) a1 fullShare x ∗ owns (c : Thread nD τ) a2 fullShare wi ∗ owns (c : Thread nD τ) a3 fullShare bi
        ∗ owns (c : Thread nD τ) a4 fullShare wo ∗ owns (c : Thread nD τ) a5 fullShare bo
        ∗ (∃ d, owns (c : Thread nD τ) a6 fullShare d) ∗ (∃ d, owns (c : Thread nD τ) a7 fullShare d)
        ∗ (iprop(owns (c : Thread nD τ) a1 fullShare x ∗ owns (c : Thread nD τ) a2 fullShare wi ∗ owns (c : Thread nD τ) a3 fullShare bi
            ∗ owns (c : Thread nD τ) a4 fullShare wo ∗ owns (c : Thread nD τ) a5 fullShare bo
            ∗ owns (c : Thread nD τ) a6 fullShare (sIn x wi bi) ∗ owns (c : Thread nD τ) a7 fullShare (sOut x wo bo)) -∗ K ⟨⟩))
      ⊢ wp frame (wpE (defs₀ (F := F)) Variants.none c none) E (cc2__sinout_kernel i a1 h1 a2 h2 a3 h3 a4 h4 a5 h5 a6 h6 a7 h7) K := by
  simp only [cc2__sinout_kernel_eq_skeleton]; unfold cc2__sinout_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  iexists _; isplitr
  swap; · iexact H7
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and each result's at the message block of the input blocks; the invariant is the
    scoped rest and the generator register, untouched; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sIn (blk V c 0 t) (blk V c 1 t) (blk V c 2 t)
    | ⟨6, _⟩ => sOut (blk V c 0 t) (blk V c 3 t) (blk V c 4 t)
  Φ _ := Pipeline.ΦA spec2 c
  q _ := fullShare
  owed _ := 0

theorem dat_A (c : Dev nD) (w : Fin cfg2.W) : (dat V c).A w = V c (Pipeline.arrRef spec2 w) := by
  dsimp only [dat]

theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after5 (c : Dev nD) (t : Fin cfg2.N) : (dat V c).after 5 t = sIn (blk V c 0 t) (blk V c 1 t) (blk V c 2 t) := by dsimp only [dat]
theorem after6 (c : Dev nD) (t : Fin cfg2.N) : (dat V c).after 6 t = sOut (blk V c 0 t) (blk V c 3 t) (blk V c 4 t) := by dsimp only [dat]

theorem before0 (c : Dev nD) (t : Fin cfg2.N) (d) : (dat V c).before 0 t d = blk V c 0 t :=
  before0_of V (dat V c) (dat_A V c 0) (after0 V c) t d
theorem before1 (c : Dev nD) (t : Fin cfg2.N) (d) : (dat V c).before 1 t d = blk V c 1 t :=
  before1_of V (dat V c) (dat_A V c 1) (after1 V c) t d
theorem before2 (c : Dev nD) (t : Fin cfg2.N) (d) : (dat V c).before 2 t d = blk V c 2 t :=
  before2_of V (dat V c) (dat_A V c 2) (after2 V c) t d
theorem before3 (c : Dev nD) (t : Fin cfg2.N) (d) : (dat V c).before 3 t d = blk V c 3 t :=
  before3_of V (dat V c) (dat_A V c 3) (after3 V c) t d
theorem before4 (c : Dev nD) (t : Fin cfg2.N) (d) : (dat V c).before 4 t d = blk V c 4 t :=
  before4_of V (dat V c) (dat_A V c 4) (after4 V c) t d

/-! ## The body obligation -/

/-- What the body is called with at point `t`: the invariant, the core's dues, and each window's current staging buffer
    at what the pipeline put there. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- What it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the inputs' buffers hold their blocks, so `body_runs` applies; the invariant and the core's
    dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs (grid2.coords t) c Set.univ _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation (c : Dev nD) : BodyObligation (dat (F := F) V c) (defs₀ (F := F)) Variants.none () Set.univ := fun t => by
  rw [bigSep_W2, bigSep_W2]
  exact sound_body V c t

end Cert.Kernel.Messages2

end
-- ==== Proof.BitsGated3Runs.lean ====
/-
  Region 3 of the program: the gated update of one block of 512 nodes, accumulated over the eight blocks of 512
  neighbours. At grid point (m, k) the body adds to two running sums kept in scratch between points,
      acc_in  += A[m-block, k-block] · s_in[k-block]        acc_out += A[k-block, m-block]ᵀ · s_out[k-block],
  after setting both to zero when k = 0; when k = 7 it reads the finished sums, forms the reset and update gates and
  the candidate state from them and the node block's own state, and stores the new state. At the other points the
  result block is left alone.
  Here: the body's run in each of the three situations the grid meets — k = 0 (start), 0 < k < 7 (middle), k = 7
  (finish) — on whole staging buffers; what each stored buffer ends with is given as the list of stored pieces the
  run itself produces.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gated3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- "This is the first neighbour block": the test the body makes before zeroing the running sums. -/
abbrev atStart (i : grid3.Coords) : Prop :=
  (Scalar.cmpi .ne (Scalar.extui (Scalar.cmpi .eq (BitVec.ofNat 32 (i 1).val) 0#32)) 0#32) = 1#1
/-- "This is the last neighbour block": the test the body makes before finishing the node block. -/
abbrev atFinish (i : grid3.Coords) : Prop := k3_cond2 i = 1#1

/-- The first test holds exactly at the points whose position is a multiple of 8 (k = 0). -/
theorem atStart_iff : ∀ t : Fin cfg3.N, atStart (grid3.coords t) ↔ t.val % 8 = 0 :=
  (by decide +kernel : ∀ t : Fin grid3.N, atStart (grid3.coords t) ↔ t.val % 8 = 0)
/-- The second holds exactly at the points whose position is 7 modulo 8 (k = 7). -/
theorem atFinish_iff : ∀ t : Fin cfg3.N, atFinish (grid3.coords t) ↔ t.val % 8 = 7 :=
  (by decide +kernel : ∀ t : Fin grid3.N, atFinish (grid3.coords t) ↔ t.val % 8 = 7)

/-! ## The body's run, situation by situation -/

set_option maxHeartbeats 4000000 in
/-- START (k = 0): the running sums are zeroed and the first products added; the result block `xo` is handed back
    untouched. The scratch buffers may hold anything on entry. -/
noncomputable def runStart (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc3__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc3__ggnn_kernel_eq_skeleton, k3_part1_eq_skeleton]; unfold cc3__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 4000000 in
/-- MIDDLE (0 < k < 7): the products are added to the running sums `s0`, `s1` the point before left; the result
    block `xo` is handed back untouched. -/
noncomputable def runMiddle (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc3__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc3__ggnn_kernel_eq_skeleton, k3_part1_eq_skeleton]; unfold cc3__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 8000000 in
/-- FINISH (k = 7): the last products are added to the running sums `s0`, `s1`, and the new state of the node block
    is computed from the finished sums and stored over whatever the result block held. -/
noncomputable def runFinish (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LO : List (View.Piece (Elt F) S512x512 .f32)) (LS0 : List (View.Piece (Elt F) S512x512 .f32)), { LS1 : List (View.Piece (Elt F) S512x512 .f32) //
      ∀ (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f LO) ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc3__ggnn_kernel i a2 h2 a3 h3 a4 h4 a5 h5 a6 h6 a7 h7 a8 h8 a9 h9 a10 h10 a11 h11 a12 h12 a13 h13 a14 h14 a15 h15) Kont } := by
  refine ⟨?_, ?_, ?_, fun E Kont => ?run⟩
  case run =>
    simp only [cc3__ggnn_kernel_eq_skeleton, k3_part1_eq_skeleton]; unfold cc3__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

end Cert.Kernel.Gated3

end
-- ==== Proof.BitsGated3.lean ====
/-
  Region 3 of the program, continued: what the two running sums and the result block hold after each of the 64 grid
  points, by recursion on the point's position n = 8·m + k — at k = 0 the sums restart from zero, at 0 < k < 7 they
  grow from what the point before left, at k = 7 they are finished and the new node state is stored —; the region's
  invariant, which carries the two sums from one point to the next; the proof data; and the body obligation.
-/
import proofs.«121501_j55087250538634_2_alg».proof.Proof.BitsGated3Runs
import Idealize.ShloMosaic.Lib.Ring

set_option maxRecDepth 16384

noncomputable section

namespace Cert.Kernel.Gated3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## The buffers the body runs on at a point -/

abbrev mw0 (t : Fin cfg3.N) := win3_0.stage (cfg3.slots t 0)
abbrev hw0 (t : Fin cfg3.N) : (mw0 t).IsWhole := hstage3_0 ((cfg3.slots t 0).cast nbuf3_0)
abbrev mw1 (t : Fin cfg3.N) := win3_1.stage (cfg3.slots t 1)
abbrev hw1 (t : Fin cfg3.N) : (mw1 t).IsWhole := hstage3_1 ((cfg3.slots t 1).cast nbuf3_1)
abbrev mw2 (t : Fin cfg3.N) := win3_2.stage (cfg3.slots t 2)
abbrev hw2 (t : Fin cfg3.N) : (mw2 t).IsWhole := hstage3_2 ((cfg3.slots t 2).cast nbuf3_2)
abbrev mw3 (t : Fin cfg3.N) := win3_3.stage (cfg3.slots t 3)
abbrev hw3 (t : Fin cfg3.N) : (mw3 t).IsWhole := hstage3_3 ((cfg3.slots t 3).cast nbuf3_3)
abbrev mw4 (t : Fin cfg3.N) := win3_4.stage (cfg3.slots t 4)
abbrev hw4 (t : Fin cfg3.N) : (mw4 t).IsWhole := hstage3_4 ((cfg3.slots t 4).cast nbuf3_4)
abbrev mw5 (t : Fin cfg3.N) := win3_5.stage (cfg3.slots t 5)
abbrev hw5 (t : Fin cfg3.N) : (mw5 t).IsWhole := hstage3_5 ((cfg3.slots t 5).cast nbuf3_5)
abbrev mw6 (t : Fin cfg3.N) := win3_6.stage (cfg3.slots t 6)
abbrev hw6 (t : Fin cfg3.N) : (mw6 t).IsWhole := hstage3_6 ((cfg3.slots t 6).cast nbuf3_6)
abbrev mw7 (t : Fin cfg3.N) := win3_7.stage (cfg3.slots t 7)
abbrev hw7 (t : Fin cfg3.N) : (mw7 t).IsWhole := hstage3_7 ((cfg3.slots t 7).cast nbuf3_7)
abbrev mw8 (t : Fin cfg3.N) := win3_8.stage (cfg3.slots t 8)
abbrev hw8 (t : Fin cfg3.N) : (mw8 t).IsWhole := hstage3_8 ((cfg3.slots t 8).cast nbuf3_8)
abbrev mw9 (t : Fin cfg3.N) := win3_9.stage (cfg3.slots t 9)
abbrev hw9 (t : Fin cfg3.N) : (mw9 t).IsWhole := hstage3_9 ((cfg3.slots t 9).cast nbuf3_9)
abbrev mw10 (t : Fin cfg3.N) := win3_10.stage (cfg3.slots t 10)
abbrev hw10 (t : Fin cfg3.N) : (mw10 t).IsWhole := hstage3_10 ((cfg3.slots t 10).cast nbuf3_10)
abbrev mw11 (t : Fin cfg3.N) := win3_11.stage (cfg3.slots t 11)
abbrev hw11 (t : Fin cfg3.N) : (mw11 t).IsWhole := hstage3_11 ((cfg3.slots t 11).cast nbuf3_11)
/-- The two scratch buffers holding the running sums. -/
abbrev sc0 : Memref sig .tc .vmem S512x512 .f32 := Memref.whole cc3_scratch0
abbrev sc1 : Memref sig .tc .vmem S512x512 .f32 := Memref.whole cc3_scratch1
/-- The views through which stored pieces are read back as contents. -/
abbrev vS0 : View sig .tc .vmem S512x512 .f32 := sc0.view
abbrev vS1 : View sig .tc .vmem S512x512 .f32 := sc1.view
abbrev vOut : View sig .tc .vmem S512x512 .f32 := (Memref.whole cc3_stg11_0 : Memref sig .tc .vmem S512x512 .f32).view

/-! ## Where the result window rests -/

theorem out_idle : ∀ t : Fin cfg3.N, ¬atFinish (grid3.coords t) → cfg3.idle 11 (grid3.coords t) = true :=
  (by decide +kernel : ∀ t : Fin grid3.N, ¬atFinish (grid3.coords t) → cfg3.idle 11 (grid3.coords t) = true)
theorem out_noFlush : ∀ t : Fin cfg3.N, ¬atFinish (grid3.coords t) → (cfg3.win 11).flush t = false :=
  (by decide +kernel : ∀ t : Fin grid3.N, ¬atFinish (grid3.coords t) → win3_11.flush t = false)
theorem out_live : ∀ t : Fin cfg3.N, atFinish (grid3.coords t) → cfg3.idle 11 (grid3.coords t) = false :=
  (by decide +kernel : ∀ t : Fin grid3.N, atFinish (grid3.coords t) → cfg3.idle 11 (grid3.coords t) = false)

/-! ## What each situation leaves: the stored pieces read back -/

/-- The result block's placeholder at the points where nothing is stored into it (never consulted: the window rests
    there and is not written back). -/
def restOut : Vec F S512x512 .f32 := vOut.read (Elt F) (vOut.writes (Elt F) vOut.junk [])

/-- After a START point: (the resting result block, the first sum, the second sum). -/
def startTriple (c : Dev nD) (t : Fin cfg3.N) (hs : atStart (grid3.coords t)) (hf : ¬atFinish (grid3.coords t)) : Vec F S512x512 .f32 × Vec F S512x512 .f32 × Vec F S512x512 .f32 :=
  (restOut,
   vS0.read (Elt F) (vS0.writes (Elt F) vS0.junk (runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1),
   vS1.read (Elt F) (vS1.writes (Elt F) vS1.junk (runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1))

/-- After a MIDDLE point, from the sums `s0`, `s1` the point before left. -/
def middleTriple (c : Dev nD) (t : Fin cfg3.N) (hs : ¬atStart (grid3.coords t)) (hf : ¬atFinish (grid3.coords t)) (s0 s1 : Vec F S512x512 .f32) : Vec F S512x512 .f32 × Vec F S512x512 .f32 × Vec F S512x512 .f32 :=
  (restOut,
   vS0.read (Elt F) (vS0.writes (Elt F) vS0.junk (runMiddle c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS1.read (Elt F) (vS1.writes (Elt F) vS1.junk (runMiddle c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1))

/-- After a FINISH point, from the sums `s0`, `s1` the point before left: (the new node state, the finished sums). -/
def finishTriple (c : Dev nD) (t : Fin cfg3.N) (hs : ¬atStart (grid3.coords t)) (hf : atFinish (grid3.coords t)) (s0 s1 : Vec F S512x512 .f32) : Vec F S512x512 .f32 × Vec F S512x512 .f32 × Vec F S512x512 .f32 :=
  (vOut.read (Elt F) (vOut.writes (Elt F) vOut.junk (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS0.read (Elt F) (vS0.writes (Elt F) vS0.junk (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1),
   vS1.read (Elt F) (vS1.writes (Elt F) vS1.junk (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1))

/-! ## The stored pieces cover their buffers -/

theorem start_cover0 (c : Dev nD) (t : Fin cfg3.N) (hs : atStart (grid3.coords t)) (hf : ¬atFinish (grid3.coords t)) (y : S512x512.Idx) :
    ∃ pc ∈ (runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1, y ∈ pc.1.set :=
  View.cover_of_tiledL _ S512x512.size (by sl_kernel_rfl) y
theorem start_cover1 (c : Dev nD) (t : Fin cfg3.N) (hs : atStart (grid3.coords t)) (hf : ¬atFinish (grid3.coords t)) (y : S512x512.Idx) :
    ∃ pc ∈ (runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1, y ∈ pc.1.set :=
  View.cover_of_tiledL _ S512x512.size (by sl_kernel_rfl) y
theorem middle_cover0 (c : Dev nD) (t : Fin cfg3.N) (hs : ¬atStart (grid3.coords t)) (hf : ¬atFinish (grid3.coords t)) (s0 s1 : Vec F S512x512 .f32) (y : S512x512.Idx) :
    ∃ pc ∈ (runMiddle c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem middle_cover1 (c : Dev nD) (t : Fin cfg3.N) (hs : ¬atStart (grid3.coords t)) (hf : ¬atFinish (grid3.coords t)) (s0 s1 : Vec F S512x512 .f32) (y : S512x512.Idx) :
    ∃ pc ∈ (runMiddle c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_coverO (c : Dev nD) (t : Fin cfg3.N) (hs : ¬atStart (grid3.coords t)) (hf : atFinish (grid3.coords t)) (s0 s1 : Vec F S512x512 .f32) (y : S512x512.Idx) :
    ∃ pc ∈ (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem finish_cover0 (c : Dev nD) (t : Fin cfg3.N) (hs : ¬atStart (grid3.coords t)) (hf : atFinish (grid3.coords t)) (s0 s1 : Vec F S512x512 .f32) (y : S512x512.Idx) :
    ∃ pc ∈ (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_cover1 (c : Dev nD) (t : Fin cfg3.N) (hs : ¬atStart (grid3.coords t)) (hf : atFinish (grid3.coords t)) (s0 s1 : Vec F S512x512 .f32) (y : S512x512.Idx) :
    ∃ pc ∈ (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1, y ∈ pc.1.set :=
  View.cover_of_tiledL _ S512x512.size (by sl_kernel_rfl) y

/-! ## The accumulation over the grid -/

/-- After the point at position `n`: (the result block's buffer, the first running sum, the second). -/
def sums (c : Dev nD) : (n : ℕ) → n < cfg3.N → Vec F S512x512 .f32 × Vec F S512x512 .f32 × Vec F S512x512 .f32
  | 0, hn => startTriple V c ⟨0, hn⟩ ((atStart_iff ⟨0, hn⟩).mpr (Nat.zero_mod _))
      (fun h => (fun h => by (try dsimp only at h); omega) ((atFinish_iff ⟨0, hn⟩).mp h))
  | n + 1, hn =>
    if h0 : (n + 1) % 8 = 0 then
      if h7 : (n + 1) % 8 = 7 then False.elim (by omega)
      else startTriple V c ⟨n + 1, hn⟩ ((atStart_iff ⟨n + 1, hn⟩).mpr h0) (fun h => h7 ((atFinish_iff ⟨n + 1, hn⟩).mp h))
    else
      if h7 : (n + 1) % 8 = 7 then
        finishTriple V c ⟨n + 1, hn⟩ (fun h => h0 ((atStart_iff ⟨n + 1, hn⟩).mp h)) ((atFinish_iff ⟨n + 1, hn⟩).mpr h7)
          (sums c n (Nat.lt_of_succ_lt hn)).2.1 (sums c n (Nat.lt_of_succ_lt hn)).2.2
      else
        middleTriple V c ⟨n + 1, hn⟩ (fun h => h0 ((atStart_iff ⟨n + 1, hn⟩).mp h)) (fun h => h7 ((atFinish_iff ⟨n + 1, hn⟩).mp h))
          (sums c n (Nat.lt_of_succ_lt hn)).2.1 (sums c n (Nat.lt_of_succ_lt hn)).2.2

theorem sums_start (c : Dev nD) (t : Fin cfg3.N) (h0 : t.val % 8 = 0) (h7 : ¬t.val % 8 = 7) :
    sums V c t.val t.isLt = startTriple V c t ((atStart_iff t).mpr h0) (fun h => h7 ((atFinish_iff t).mp h)) := by
  obtain ⟨n, hn⟩ := t
  cases n with
  | zero => exact rfl
  | succ n => exact (dif_pos h0).trans ((dif_neg h7).trans rfl)

theorem sums_middle (c : Dev nD) (t : Fin cfg3.N) (h0 : ¬t.val % 8 = 0) (h7 : ¬t.val % 8 = 7) :
    sums V c t.val t.isLt = middleTriple V c t (fun h => h0 ((atStart_iff t).mp h)) (fun h => h7 ((atFinish_iff t).mp h))
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h7).trans rfl)

theorem sums_finish (c : Dev nD) (t : Fin cfg3.N) (h0 : ¬t.val % 8 = 0) (h7 : t.val % 8 = 7) :
    sums V c t.val t.isLt = finishTriple V c t (fun h => h0 ((atStart_iff t).mp h)) ((atFinish_iff t).mpr h7)
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- The other scoped buffers of the core, unopened. -/
abbrev others (c : Dev nD) : sProp 𝕄 :=
  Pipeline.scopedRestBut (Ix := Unit) (Name := ℕ) (U := UR sig nD τ) (Lvl := ℕ) (Val := Elt F) spec3 c [cc3_scratch0, cc3_scratch1]

/-- Before the point at position `n`: at the first point every scratch buffer at anything; afterwards the two running
    sums at what the point before left, the other scoped buffers and the generator register untouched. -/
def carried (c : Dev nD) : (n : ℕ) → n ≤ cfg3.N → sProp 𝕄
  | 0, _ => Pipeline.ΦA spec3 c
  | n + 1, hn => iprop(iprop(iprop(owns (c : Thread nD τ) sc0 fullShare (sums V c n hn).2.1 ∗ owns (c : Thread nD τ) sc1 fullShare (sums V c n hn).2.2)
      ∗ others c) ∗ (∃ r, prngReg c r))

theorem carried_zero (c : Dev nD) (n : ℕ) (h : n ≤ cfg3.N) (hz : n = 0) : carried V c n h = Pipeline.ΦA spec3 c := by
  subst hz; rfl

theorem carried_succ (c : Dev nD) (n : ℕ) (hn : n < cfg3.N) :
    carried V c (n + 1) hn = iprop(iprop(iprop(owns (c : Thread nD τ) sc0 fullShare (sums V c n hn).2.1 ∗ owns (c : Thread nD τ) sc1 fullShare (sums V c n hn).2.2)
      ∗ others c) ∗ (∃ r, prngReg c r)) := rfl

theorem carried_pos (c : Dev nD) (n : ℕ) (h : n ≤ cfg3.N) (hz : n ≠ 0) :
    carried V c n h = iprop(iprop(iprop(owns (c : Thread nD τ) sc0 fullShare (sums V c (n - 1) (by omega)).2.1
      ∗ owns (c : Thread nD τ) sc1 fullShare (sums V c (n - 1) (by omega)).2.2) ∗ others c) ∗ (∃ r, prngReg c r)) := by
  cases n with
  | zero => exact absurd rfl hz
  | succ n => rfl

/-- The invariant handed in at the first point, with the two scratch buffers named. -/
theorem entry_eq (c : Dev nD) :
    (Pipeline.ΦA spec3 c : sProp 𝕄)
      = iprop(iprop(iprop((∃ d, owns (c : Thread nD τ) sc0 fullShare d) ∗ (∃ d, owns (c : Thread nD τ) sc1 fullShare d)) ∗ others c) ∗ (∃ r, prngReg c r)) := by
  unfold Pipeline.ΦA; rw [scopedRest3_split]; simp only [sc0, sc1, owns_whole]; try rfl

/-! ## The proof data -/

theorem before0_of {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before5_of {c : Dev nD} (dat : Dat τ (Elt F) Unit ℕ (UR sig nD τ) ℕ cfg3 c) (hA : dat.A 5 = V c (Pipeline.arrRef spec3 5))
    (hafter : ∀ t, dat.after 5 t = blk V c 5 t) (t : Fin cfg3.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before6_of {c : Dev nD} (dat : Dat τ (Elt F) Unit ℕ (UR sig nD τ) ℕ cfg3 c) (hA : dat.A 6 = V c (Pipeline.arrRef spec3 6))
    (hafter : ∀ t, dat.after 6 t = blk V c 6 t) (t : Fin cfg3.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before7_of {c : Dev nD} (dat : Dat τ (Elt F) Unit ℕ (UR sig nD τ) ℕ cfg3 c) (hA : dat.A 7 = V c (Pipeline.arrRef spec3 7))
    (hafter : ∀ t, dat.after 7 t = blk V c 7 t) (t : Fin cfg3.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
theorem before8_of {c : Dev nD} (dat : Dat τ (Elt F) Unit ℕ (UR sig nD τ) ℕ cfg3 c) (hA : dat.A 8 = V c (Pipeline.arrRef spec3 8))
    (hafter : ∀ t, dat.after 8 t = blk V c 8 t) (t : Fin cfg3.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
theorem before9_of {c : Dev nD} (dat : Dat τ (Elt F) Unit ℕ (UR sig nD τ) ℕ cfg3 c) (hA : dat.A 9 = V c (Pipeline.arrRef spec3 9))
    (hafter : ∀ t, dat.after 9 t = blk V c 9 t) (t : Fin cfg3.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
theorem before10_of {c : Dev nD} (dat : Dat τ (Elt F) Unit ℕ (UR sig nD τ) ℕ cfg3 c) (hA : dat.A 10 = V c (Pipeline.arrRef spec3 10))
    (hafter : ∀ t, dat.after 10 t = blk V c 10 t) (t : Fin cfg3.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`. The adjacency array is read through two windows (a block and the
    mirrored block): each holds half of the read permission. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (sums V c t.val t.isLt).1
  Φ t := carried V c t.val (Nat.le_of_lt_succ t.isLt)
  q w := match w with
    | ⟨0, _⟩ => fullShare.left
    | ⟨1, _⟩ => fullShare.right
    | _ => fullShare
  owed _ := 0

theorem dat_A (c : Dev nD) (w : Fin cfg3.W) : (dat V c).A w = V c (Pipeline.arrRef spec3 w) := by
  dsimp only [dat]

theorem carried_castSucc (c : Dev nD) (t : Fin cfg3.N) :
    (dat V c).Φ t.castSucc = carried V c t.val (Nat.le_of_lt t.isLt) := by
  dsimp only [dat]; simp only [Fin.coe_castSucc]

theorem after0 (c : Dev nD) (t : Fin cfg3.N) : (dat V c).after 0 t = blk V c 0 t := by dsimp only [dat]
theorem after1 (c : Dev nD) (t : Fin cfg3.N) : (dat V c).after 1 t = blk V c 1 t := by dsimp only [dat]
theorem after2 (c : Dev nD) (t : Fin cfg3.N) : (dat V c).after 2 t = blk V c 2 t := by dsimp only [dat]
theorem after3 (c : Dev nD) (t : Fin cfg3.N) : (dat V c).after 3 t = blk V c 3 t := by dsimp only [dat]
theorem after4 (c : Dev nD) (t : Fin cfg3.N) : (dat V c).after 4 t = blk V c 4 t := by dsimp only [dat]
theorem after5 (c : Dev nD) (t : Fin cfg3.N) : (dat V c).after 5 t = blk V c 5 t := by dsimp only [dat]
theorem after6 (c : Dev nD) (t : Fin cfg3.N) : (dat V c).after 6 t = blk V c 6 t := by dsimp only [dat]
theorem after7 (c : Dev nD) (t : Fin cfg3.N) : (dat V c).after 7 t = blk V c 7 t := by dsimp only [dat]
theorem after8 (c : Dev nD) (t : Fin cfg3.N) : (dat V c).after 8 t = blk V c 8 t := by dsimp only [dat]
theorem after9 (c : Dev nD) (t : Fin cfg3.N) : (dat V c).after 9 t = blk V c 9 t := by dsimp only [dat]
theorem after10 (c : Dev nD) (t : Fin cfg3.N) : (dat V c).after 10 t = blk V c 10 t := by dsimp only [dat]
theorem after11 (c : Dev nD) (t : Fin cfg3.N) : (dat V c).after 11 t = (sums V c t.val t.isLt).1 := by dsimp only [dat]

theorem before0 (c : Dev nD) (t : Fin cfg3.N) (d) : (dat V c).before 0 t d = blk V c 0 t :=
  before0_of V (dat V c) (dat_A V c 0) (after0 V c) t d
theorem before1 (c : Dev nD) (t : Fin cfg3.N) (d) : (dat V c).before 1 t d = blk V c 1 t :=
  before1_of V (dat V c) (dat_A V c 1) (after1 V c) t d
theorem before2 (c : Dev nD) (t : Fin cfg3.N) (d) : (dat V c).before 2 t d = blk V c 2 t :=
  before2_of V (dat V c) (dat_A V c 2) (after2 V c) t d
theorem before3 (c : Dev nD) (t : Fin cfg3.N) (d) : (dat V c).before 3 t d = blk V c 3 t :=
  before3_of V (dat V c) (dat_A V c 3) (after3 V c) t d
theorem before4 (c : Dev nD) (t : Fin cfg3.N) (d) : (dat V c).before 4 t d = blk V c 4 t :=
  before4_of V (dat V c) (dat_A V c 4) (after4 V c) t d
theorem before5 (c : Dev nD) (t : Fin cfg3.N) (d) : (dat V c).before 5 t d = blk V c 5 t :=
  before5_of V (dat V c) (dat_A V c 5) (after5 V c) t d
theorem before6 (c : Dev nD) (t : Fin cfg3.N) (d) : (dat V c).before 6 t d = blk V c 6 t :=
  before6_of V (dat V c) (dat_A V c 6) (after6 V c) t d
theorem before7 (c : Dev nD) (t : Fin cfg3.N) (d) : (dat V c).before 7 t d = blk V c 7 t :=
  before7_of V (dat V c) (dat_A V c 7) (after7 V c) t d
theorem before8 (c : Dev nD) (t : Fin cfg3.N) (d) : (dat V c).before 8 t d = blk V c 8 t :=
  before8_of V (dat V c) (dat_A V c 8) (after8 V c) t d
theorem before9 (c : Dev nD) (t : Fin cfg3.N) (d) : (dat V c).before 9 t d = blk V c 9 t :=
  before9_of V (dat V c) (dat_A V c 9) (after9 V c) t d
theorem before10 (c : Dev nD) (t : Fin cfg3.N) (d) : (dat V c).before 10 t d = blk V c 10 t :=
  before10_of V (dat V c) (dat_A V c 10) (after10 V c) t d

theorem leaves0 (c : Dev nD) (t : Fin cfg3.N) :
    (dat V c).leavesExact 0 t = owns (c : Thread nD τ) (mw0 t) fullShare (blk V c 0 t) := by
  unfold Dat.leavesExact; rw [show cfg3.idle 0 (cfg3.grid.coords t) = false from rfl, after0]; try rfl
theorem leaves1 (c : Dev nD) (t : Fin cfg3.N) :
    (dat V c).leavesExact 1 t = owns (c : Thread nD τ) (mw1 t) fullShare (blk V c 1 t) := by
  unfold Dat.leavesExact; rw [show cfg3.idle 1 (cfg3.grid.coords t) = false from rfl, after1]; try rfl
theorem leaves2 (c : Dev nD) (t : Fin cfg3.N) :
    (dat V c).leavesExact 2 t = owns (c : Thread nD τ) (mw2 t) fullShare (blk V c 2 t) := by
  unfold Dat.leavesExact; rw [show cfg3.idle 2 (cfg3.grid.coords t) = false from rfl, after2]; try rfl
theorem leaves3 (c : Dev nD) (t : Fin cfg3.N) :
    (dat V c).leavesExact 3 t = owns (c : Thread nD τ) (mw3 t) fullShare (blk V c 3 t) := by
  unfold Dat.leavesExact; rw [show cfg3.idle 3 (cfg3.grid.coords t) = false from rfl, after3]; try rfl
theorem leaves4 (c : Dev nD) (t : Fin cfg3.N) :
    (dat V c).leavesExact 4 t = owns (c : Thread nD τ) (mw4 t) fullShare (blk V c 4 t) := by
  unfold Dat.leavesExact; rw [show cfg3.idle 4 (cfg3.grid.coords t) = false from rfl, after4]; try rfl
theorem leaves5 (c : Dev nD) (t : Fin cfg3.N) :
    (dat V c).leavesExact 5 t = owns (c : Thread nD τ) (mw5 t) fullShare (blk V c 5 t) := by
  unfold Dat.leavesExact; rw [show cfg3.idle 5 (cfg3.grid.coords t) = false from rfl, after5]; try rfl
theorem leaves6 (c : Dev nD) (t : Fin cfg3.N) :
    (dat V c).leavesExact 6 t = owns (c : Thread nD τ) (mw6 t) fullShare (blk V c 6 t) := by
  unfold Dat.leavesExact; rw [show cfg3.idle 6 (cfg3.grid.coords t) = false from rfl, after6]; try rfl
theorem leaves7 (c : Dev nD) (t : Fin cfg3.N) :
    (dat V c).leavesExact 7 t = owns (c : Thread nD τ) (mw7 t) fullShare (blk V c 7 t) := by
  unfold Dat.leavesExact; rw [show cfg3.idle 7 (cfg3.grid.coords t) = false from rfl, after7]; try rfl
theorem leaves8 (c : Dev nD) (t : Fin cfg3.N) :
    (dat V c).leavesExact 8 t = owns (c : Thread nD τ) (mw8 t) fullShare (blk V c 8 t) := by
  unfold Dat.leavesExact; rw [show cfg3.idle 8 (cfg3.grid.coords t) = false from rfl, after8]; try rfl
theorem leaves9 (c : Dev nD) (t : Fin cfg3.N) :
    (dat V c).leavesExact 9 t = owns (c : Thread nD τ) (mw9 t) fullShare (blk V c 9 t) := by
  unfold Dat.leavesExact; rw [show cfg3.idle 9 (cfg3.grid.coords t) = false from rfl, after9]; try rfl
theorem leaves10 (c : Dev nD) (t : Fin cfg3.N) :
    (dat V c).leavesExact 10 t = owns (c : Thread nD τ) (mw10 t) fullShare (blk V c 10 t) := by
  unfold Dat.leavesExact; rw [show cfg3.idle 10 (cfg3.grid.coords t) = false from rfl, after10]; try rfl

/-! ## The body obligation -/

def bodyPre (c : Dev nD) (t : Fin cfg3.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d))
    ∗ (∃ d, owns (c : Thread nD τ) (mw5 t) fullShare ((dat V c).before 5 t d))
    ∗ (∃ d, owns (c : Thread nD τ) (mw6 t) fullShare ((dat V c).before 6 t d))
    ∗ (∃ d, owns (c : Thread nD τ) (mw7 t) fullShare ((dat V c).before 7 t d))
    ∗ (∃ d, owns (c : Thread nD τ) (mw8 t) fullShare ((dat V c).before 8 t d))
    ∗ (∃ d, owns (c : Thread nD τ) (mw9 t) fullShare ((dat V c).before 9 t d))
    ∗ (∃ d, owns (c : Thread nD τ) (mw10 t) fullShare ((dat V c).before 10 t d))
    ∗ (∃ d, owns (c : Thread nD τ) (mw11 t) fullShare ((dat V c).before 11 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

end Cert.Kernel.Gated3

end
-- ==== Proof.BitsGated3Body.lean ====
/-
  Region 3 of the program, concluded: the body obligation at every grid point — the point's position decides
  which of the three situations applies, the invariant hands the body the two running sums (at anything at the very
  first point, at what the point before left afterwards) and takes them back at this point's contents — and how
  the invariant is entered and left.
-/
import proofs.«121501_j55087250538634_2_alg».proof.Proof.BitsGated3

set_option maxRecDepth 16384

noncomputable section

namespace Cert.Kernel.Gated3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5, before6, before7, before8, before9, before10]
  rw [show (dat V c).owesAt () t.succ = (dat V c).owesAt () t.castSucc from rfl]
  rw [show (dat V c).Φ t.succ = carried V c (t.val + 1) t.isLt from rfl, carried_succ]
  rw [leaves0, leaves1, leaves2, leaves3, leaves4, leaves5, leaves6, leaves7, leaves8, leaves9, leaves10]
  have hN : t.val < 64 := lt_of_lt_of_eq t.isLt (show cfg3.N = 64 from N_3)
  by_cases h0 : t.val % 8 = 0
  · by_cases h7 : t.val % 8 = 7
    · exfalso; omega
    · rw [Dat.leavesExact_idle (dat V c) 11 t (out_idle t (fun h => h7 ((atFinish_iff t).mp h))) (out_noFlush t (fun h => h7 ((atFinish_iff t).mp h)))]
      rw [sums_start V c t h0 h7]
      unfold startTriple; (try dsimp only)
      by_cases hz : t.val = 0
      · rw [carried_castSucc V c t, carried_zero V c _ _ hz, entry_eq]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [carried_castSucc V c t, carried_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun h => h0 (by rw [h])
    by_cases h7 : t.val % 8 = 7
    · rw [show (dat V c).leavesExact 11 t = owns (c : Thread nD τ) (mw11 t) fullShare ((dat V c).after 11 t) from by
        unfold Dat.leavesExact; rw [out_live t ((atFinish_iff t).mpr h7)], after11]
      rw [sums_finish V c t h0 h7]
      unfold finishTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) ((atFinish_iff t).mpr h7) (blk V c 0 t) (blk V c 1 t) (blk V c 2 t) (blk V c 3 t) (blk V c 4 t) (blk V c 5 t) (blk V c 6 t) (blk V c 7 t) (blk V c 8 t) (blk V c 9 t) (blk V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (finish_cover0 V c t _ _ _ _)
            unfold owns; iexists _; isplitr
            swap; · iexact HS1
            ipureintro; exact View.read_writes_of_cover _ _ _ _ _ (finish_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (finish_coverO V c t _ _ _ _)
    · rw [Dat.leavesExact_idle (dat V c) 11 t (out_idle t (fun h => h7 ((atFinish_iff t).mp h))) (out_noFlush t (fun h => h7 ((atFinish_iff t).mp h)))]
      rw [sums_middle V c t h0 h7]
      unfold middleTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (middle_cover0 V c t _ _ _ _)
            unfold owns; iexists _; isplitr
            swap; · iexact HS1
            ipureintro; exact View.read_writes_of_cover _ _ _ _ _ (middle_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation of the region, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem enter (c : Dev nD) : Pipeline.ΦA spec3 c ⊢ (dat V c).Φ 0 := by
  rw [show (dat V c).Φ 0 = carried V c 0 (Nat.zero_le _) from rfl, carried_zero V c 0 _ rfl]
  try exact Idealize.SL.BI.Entails.refl _

/-- After the last point the invariant gives the scoped buffers back: the sums' contents are forgotten. -/
theorem leave (c : Dev nD) : (dat V c).Φ (Fin.last cfg3.N) ⊢ Pipeline.ΦA spec3 c := by
  have hne : (Fin.last cfg3.N).val ≠ 0 := by rw [Fin.val_last]; have : cfg3.N = 64 := N_3; omega
  rw [show (dat V c).Φ (Fin.last cfg3.N) = carried V c (Fin.last cfg3.N).val (Nat.le_of_lt_succ (Fin.last cfg3.N).isLt) from rfl,
    carried_pos V c _ _ hne, entry_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Cert.Kernel.Gated3

end
-- ==== Proof.BitsGated3Arrays.lean ====
/-
  Region 3 of the program: its windows' arrays against the buffers behind them. The adjacency array is read
  through two windows; the read permission on its buffer is cut in two halves, one per window, when the region
  is entered, and the halves are joined again when it is left. Every other array has a buffer of its own.
-/
import proofs.«121501_j55087250538634_2_alg».proof.Proof.BitsGated3

set_option maxRecDepth 16384

noncomputable section

namespace Cert.Kernel.Gated3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows. -/
abbrev bufs : List (Ref sig .tc) := [main_v1, main_v25_0, main_v25_1, main_v24, main_v7, main_v18, main_v9, main_v19, main_v11, main_v20, main_v26]

theorem bufs_eq : Finset.univ.image (Pipeline.arrRef spec3) = bufs.toFinset := by decide

/-- A conjunction over those buffers, one by one. -/
theorem bufs_chain (Φ : Ref sig .tc → sProp 𝕄) :
    bigSep (Finset.univ.image (Pipeline.arrRef spec3)) Φ = iprop(Φ main_v1 ∗ Φ main_v25_0 ∗ Φ main_v25_1 ∗ Φ main_v24 ∗ Φ main_v7 ∗ Φ main_v18 ∗ Φ main_v9 ∗ Φ main_v19 ∗ Φ main_v11 ∗ Φ main_v20 ∗ Φ main_v26) :=
  bigSep_eq_bigSepL_of_eq bufs bufs_eq (by decide) Φ

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl
theorem share11 (c : Dev nD) : (dat V c).share 11 = fullShare := rfl

/-- ENTRY: the buffers whole at contents `G` make the windows' arrays at `G`, the adjacency buffer's permission halved. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec3 c G : sProp 𝕄)
      ⊢ (dat V c).arrays (fun w => G (Pipeline.arrRef spec3 w)) := by
  unfold Pipeline.arrBufs Dat.arrays
  rw [bufs_chain, bigSep_W3]
  simp only [share0, share1, share2, share3, share4, share5, share6, share7, share8, share9, share10, share11, View.set_whole]
  iintro ⟨HA, H2, H3, H4, H5, H6, H7, H8, H9, H10, H11⟩
  ihave HA' := (pointsTo_share (PosShare.mem_left_op_right fullShare)).1 $$ HA
  icases HA' with ⟨HA0, HA1⟩
  isplitl [HA0]; · iexact HA0
  isplitl [HA1]; · iexact HA1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `G`, the two halves of the adjacency buffer's permission joined, are the
    buffers whole at `G`. -/
theorem bufs_of_arrays (c : Dev nD) (G : (b : Ref sig .tc) → Buf (Elt F) ((c : Thread nD τ).loc b)) :
    (dat V c).arrays (fun w => G (Pipeline.arrRef spec3 w))
      ⊢ (Pipeline.arrBufs (Ix := Unit) (Name := ℕ) (U := UR sig nD τ) (Lvl := ℕ) spec3 c G : sProp 𝕄) := by
  unfold Pipeline.arrBufs Dat.arrays
  rw [bufs_chain, bigSep_W3]
  simp only [share0, share1, share2, share3, share4, share5, share6, share7, share8, share9, share10, share11, View.set_whole]
  iintro ⟨HA0, HA1, H2, H3, H4, H5, H6, H7, H8, H9, H10, H11⟩
  ihave HA := (pointsTo_share (PosShare.mem_left_op_right fullShare)).2 $$ [HA0 HA1]
  · isplitl [HA0]; · iexact HA0
    iexact HA1
  isplitl [HA]; · iexact HA
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY, from all the core's unscoped buffers: the windows' arrays and the buffers that are no window's array. -/
theorem enter_arrays (c : Dev nD) (G : (b : Ref sig .tc) → Buf (Elt F) ((c : Thread nD τ).loc b)) :
    (unscopedBufs c G : sProp 𝕄)
      ⊢ iprop((dat V c).arrays (fun w => G (Pipeline.arrRef spec3 w))
          ∗ Pipeline.unscopedRest (Ix := Unit) (Name := ℕ) (U := UR sig nD τ) (Lvl := ℕ) spec3 c G) := by
  rw [Pipeline.unscopedBufs_split₀ cfgs 3 winFacts₀3.arr_unscoped c G]
  exact BIClass.sep_mono (arrays_of_bufs V c G) .rfl

/-- EXIT, back to all the core's unscoped buffers at contents `G'` that agree with the arrays' final contents on the
    arrays and with the entry contents `G` elsewhere. -/
theorem leave_arrays (c : Dev nD) (G G' : (b : Ref sig .tc) → Buf (Elt F) ((c : Thread nD τ).loc b))
    (Fa : (w : Fin cfg3.W) → Buf (Elt F) ((cfg3.win w).arr.view.loc (c : Thread nD τ)))
    (hF : ∀ w, Fa w = G' (Pipeline.arrRef spec3 w))
    (hrest : ∀ b, b ∉ Finset.univ.image (Pipeline.arrRef spec3) → G' b = G b) :
    iprop((dat V c).arrays Fa ∗ Pipeline.unscopedRest (Ix := Unit) (Name := ℕ) (U := UR sig nD τ) (Lvl := ℕ) spec3 c G)
      ⊢ (unscopedBufs c G' : sProp 𝕄) := by
  rw [Pipeline.unscopedBufs_split₀ cfgs 3 winFacts₀3.arr_unscoped c G', show Fa = fun w => G' (Pipeline.arrRef spec3 w) from funext hF]
  refine BIClass.sep_mono (bufs_of_arrays V c G') ?_
  unfold Pipeline.unscopedRest
  exact Entails.of_eq (bigSep_congr fun b hb => by rw [hrest b (Finset.mem_sdiff.mp hb).2])

end Cert.Kernel.Gated3

end
-- ==== Proof.BitsMessages4.lean ====
/-
  Region 4 of the program: the two edge messages of one GGNN step. For a block of 1024 rows of the node state
  `x` (window 0), the kernel forms  s_in = x · W_in + b_in  (windows 1, 2 -> window 5) and
  s_out = x · W_out + b_out  (windows 3, 4 -> window 6): each a 1024x512 by 512x512 product into the zero
  accumulator plus a bias row broadcast down the rows. The weights and biases are the same block at every point
  (constant index maps); the state block and the two result blocks move with the point.
  Here: what each result buffer holds after the body as a function of the five input blocks, the body's run on
  whole staging buffers, the region's proof data over entry contents `V`, and the body obligation at every point.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Messages4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the two result buffers -/

/-- The incoming-edge message block: the state block times `W_in` plus the bias row, as one stored piece. -/
def sIn (x : Vec F S1024x512 .f32) (w : Vec F S512x512 .bf16) (b : Vec F S1x512 .f32) : Vec F S1024x512 .bf16 :=
  View.canon [⟨rRows, k4_pay2 (View.ld x rRows) (View.ld w rWeight) (View.ld b rBias)⟩]

/-- The outgoing-edge message block: the state block times `W_out` plus the bias row. -/
def sOut (x : Vec F S1024x512 .f32) (w : Vec F S512x512 .bf16) (b : Vec F S1x512 .f32) : Vec F S1024x512 .bf16 :=
  View.canon [⟨rRows, k4_pay3 (View.ld x rRows) (View.ld w rWeight) (View.ld b rBias)⟩]

/-- One store through the whole-buffer rectangle covers the buffer. -/
theorem covers (p : Vec F S1024x512 .bf16) (y : S1024x512.Idx) :
    ∃ pc ∈ ([⟨rRows, p⟩] : List (View.Piece (Elt F) S1024x512 .bf16)), y ∈ pc.1.set :=
  View.cover_of_tiled [⟨rRows, p⟩] S1024x512.size (by rfl) y

/-! ## The body's run -/

set_option maxHeartbeats 1000000 in
/-- On whole staging buffers, the five inputs at contents `x, wi, bi, wo, bo` and the two results at anything, the
    body runs to its end with the inputs as they were and the results at `sIn`, `sOut` of the inputs. -/
theorem body_runs (i : grid4.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .bf16) (h6 : a6.IsWhole)
    (a7 : Memref sig .tc .vmem S1024x512 .bf16) (h7 : a7.IsWhole)
    (x : Vec F S1024x512 .f32) (wi : Vec F S512x512 .bf16) (bi : Vec F S1x512 .f32) (wo : Vec F S512x512 .bf16) (bo : Vec F S1x512 .f32)
    (K : PUnit → sProp 𝕄) :
    iprop(owns (c : Thread nD τ) a1 fullShare x ∗ owns (c : Thread nD τ) a2 fullShare wi ∗ owns (c : Thread nD τ) a3 fullShare bi
        ∗ owns (c : Thread nD τ) a4 fullShare wo ∗ owns (c : Thread nD τ) a5 fullShare bo
        ∗ (∃ d, owns (c : Thread nD τ) a6 fullShare d) ∗ (∃ d, owns (c : Thread nD τ) a7 fullShare d)
        ∗ (iprop(owns (c : Thread nD τ) a1 fullShare x ∗ owns (c : Thread nD τ) a2 fullShare wi ∗ owns (c : Thread nD τ) a3 fullShare bi
            ∗ owns (c : Thread nD τ) a4 fullShare wo ∗ owns (c : Thread nD τ) a5 fullShare bo
            ∗ owns (c : Thread nD τ) a6 fullShare (sIn x wi bi) ∗ owns (c : Thread nD τ) a7 fullShare (sOut x wo bo)) -∗ K ⟨⟩))
      ⊢ wp frame (wpE (defs₀ (F := F)) Variants.none c none) E (cc4__sinout_kernel i a1 h1 a2 h2 a3 h3 a4 h4 a5 h5 a6 h6 a7 h7) K := by
  simp only [cc4__sinout_kernel_eq_skeleton]; unfold cc4__sinout_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  iexists _; isplitr
  swap; · iexact H7
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg4 c) (hA : dat.A 0 = V c (Pipeline.arrRef spec4 0))
    (hafter : ∀ t, dat.after 0 t = blk V c 0 t) (t : Fin cfg4.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg4 c) (hA : dat.A 1 = V c (Pipeline.arrRef spec4 1))
    (hafter : ∀ t, dat.after 1 t = blk V c 1 t) (t : Fin cfg4.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg4 c) (hA : dat.A 2 = V c (Pipeline.arrRef spec4 2))
    (hafter : ∀ t, dat.after 2 t = blk V c 2 t) (t : Fin cfg4.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg4 c) (hA : dat.A 3 = V c (Pipeline.arrRef spec4 3))
    (hafter : ∀ t, dat.after 3 t = blk V c 3 t) (t : Fin cfg4.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg4 c) (hA : dat.A 4 = V c (Pipeline.arrRef spec4 4))
    (hafter : ∀ t, dat.after 4 t = blk V c 4 t) (t : Fin cfg4.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and each result's at the message block of the input blocks; the invariant is the
    scoped rest and the generator register, untouched; nothing owed; full shares. -/
def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sIn (blk V c 0 t) (blk V c 1 t) (blk V c 2 t)
    | ⟨6, _⟩ => sOut (blk V c 0 t) (blk V c 3 t) (blk V c 4 t)
  Φ _ := Pipeline.ΦA spec4 c
  q _ := fullShare
  owed _ := 0

theorem dat_A (c : Dev nD) (w : Fin cfg4.W) : (dat V c).A w = V c (Pipeline.arrRef spec4 w) := by
  dsimp only [dat]

theorem after0 (c : Dev nD) (t : Fin cfg4.N) : (dat V c).after 0 t = blk V c 0 t := by dsimp only [dat]
theorem after1 (c : Dev nD) (t : Fin cfg4.N) : (dat V c).after 1 t = blk V c 1 t := by dsimp only [dat]
theorem after2 (c : Dev nD) (t : Fin cfg4.N) : (dat V c).after 2 t = blk V c 2 t := by dsimp only [dat]
theorem after3 (c : Dev nD) (t : Fin cfg4.N) : (dat V c).after 3 t = blk V c 3 t := by dsimp only [dat]
theorem after4 (c : Dev nD) (t : Fin cfg4.N) : (dat V c).after 4 t = blk V c 4 t := by dsimp only [dat]
theorem after5 (c : Dev nD) (t : Fin cfg4.N) : (dat V c).after 5 t = sIn (blk V c 0 t) (blk V c 1 t) (blk V c 2 t) := by dsimp only [dat]
theorem after6 (c : Dev nD) (t : Fin cfg4.N) : (dat V c).after 6 t = sOut (blk V c 0 t) (blk V c 3 t) (blk V c 4 t) := by dsimp only [dat]

theorem before0 (c : Dev nD) (t : Fin cfg4.N) (d) : (dat V c).before 0 t d = blk V c 0 t :=
  before0_of V (dat V c) (dat_A V c 0) (after0 V c) t d
theorem before1 (c : Dev nD) (t : Fin cfg4.N) (d) : (dat V c).before 1 t d = blk V c 1 t :=
  before1_of V (dat V c) (dat_A V c 1) (after1 V c) t d
theorem before2 (c : Dev nD) (t : Fin cfg4.N) (d) : (dat V c).before 2 t d = blk V c 2 t :=
  before2_of V (dat V c) (dat_A V c 2) (after2 V c) t d
theorem before3 (c : Dev nD) (t : Fin cfg4.N) (d) : (dat V c).before 3 t d = blk V c 3 t :=
  before3_of V (dat V c) (dat_A V c 3) (after3 V c) t d
theorem before4 (c : Dev nD) (t : Fin cfg4.N) (d) : (dat V c).before 4 t d = blk V c 4 t :=
  before4_of V (dat V c) (dat_A V c 4) (after4 V c) t d

/-! ## The body obligation -/

/-- What the body is called with at point `t`: the invariant, the core's dues, and each window's current staging buffer
    at what the pipeline put there. -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d)))

/-- What it returns. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t)
    ∗ owns (c : Thread nD τ) (st4_6 t) fullShare ((dat V c).after 6 t))

/-- The body at any point: the inputs' buffers hold their blocks, so `body_runs` applies; the invariant and the core's
    dues pass through unread. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs (grid4.coords t) c Set.univ _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation (c : Dev nD) : BodyObligation (dat (F := F) V c) (defs₀ (F := F)) Variants.none () Set.univ := fun t => by
  rw [bigSep_W4, bigSep_W4]
  exact sound_body V c t

end Cert.Kernel.Messages4

end
-- ==== Proof.BitsGated5Runs.lean ====
/-
  Region 5 of the program: the gated update of one block of 512 nodes, accumulated over the eight blocks of 512
  neighbours. At grid point (m, k) the body adds to two running sums kept in scratch between points,
      acc_in  += A[m-block, k-block] · s_in[k-block]        acc_out += A[k-block, m-block]ᵀ · s_out[k-block],
  after setting both to zero when k = 0; when k = 7 it reads the finished sums, forms the reset and update gates and
  the candidate state from them and the node block's own state, and stores the new state. At the other points the
  result block is left alone.
  Here: the body's run in each of the three situations the grid meets — k = 0 (start), 0 < k < 7 (middle), k = 7
  (finish) — on whole staging buffers; what each stored buffer ends with is given as the list of stored pieces the
  run itself produces.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gated5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- "This is the first neighbour block": the test the body makes before zeroing the running sums. -/
abbrev atStart (i : grid5.Coords) : Prop :=
  (Scalar.cmpi .ne (Scalar.extui (Scalar.cmpi .eq (BitVec.ofNat 32 (i 1).val) 0#32)) 0#32) = 1#1
/-- "This is the last neighbour block": the test the body makes before finishing the node block. -/
abbrev atFinish (i : grid5.Coords) : Prop := k5_cond2 i = 1#1

/-- The first test holds exactly at the points whose position is a multiple of 8 (k = 0). -/
theorem atStart_iff : ∀ t : Fin cfg5.N, atStart (grid5.coords t) ↔ t.val % 8 = 0 :=
  (by decide +kernel : ∀ t : Fin grid5.N, atStart (grid5.coords t) ↔ t.val % 8 = 0)
/-- The second holds exactly at the points whose position is 7 modulo 8 (k = 7). -/
theorem atFinish_iff : ∀ t : Fin cfg5.N, atFinish (grid5.coords t) ↔ t.val % 8 = 7 :=
  (by decide +kernel : ∀ t : Fin grid5.N, atFinish (grid5.coords t) ↔ t.val % 8 = 7)

/-! ## The body's run, situation by situation -/

set_option maxHeartbeats 4000000 in
/-- START (k = 0): the running sums are zeroed and the first products added; the result block `xo` is handed back
    untouched. The scratch buffers may hold anything on entry. -/
noncomputable def runStart (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc5__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc5__ggnn_kernel_eq_skeleton, k5_part1_eq_skeleton]; unfold cc5__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 4000000 in
/-- MIDDLE (0 < k < 7): the products are added to the running sums `s0`, `s1` the point before left; the result
    block `xo` is handed back untouched. -/
noncomputable def runMiddle (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc5__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc5__ggnn_kernel_eq_skeleton, k5_part1_eq_skeleton]; unfold cc5__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 8000000 in
/-- FINISH (k = 7): the last products are added to the running sums `s0`, `s1`, and the new state of the node block
    is computed from the finished sums and stored over whatever the result block held. -/
noncomputable def runFinish (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LO : List (View.Piece (Elt F) S512x512 .f32)) (LS0 : List (View.Piece (Elt F) S512x512 .f32)), { LS1 : List (View.Piece (Elt F) S512x512 .f32) //
      ∀ (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f LO) ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc5__ggnn_kernel i a2 h2 a3 h3 a4 h4 a5 h5 a6 h6 a7 h7 a8 h8 a9 h9 a10 h10 a11 h11 a12 h12 a13 h13 a14 h14 a15 h15) Kont } := by
  refine ⟨?_, ?_, ?_, fun E Kont => ?run⟩
  case run =>
    simp only [cc5__ggnn_kernel_eq_skeleton, k5_part1_eq_skeleton]; unfold cc5__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

end Cert.Kernel.Gated5

end
-- ==== Proof.BitsGated5.lean ====
/-
  Region 5 of the program, continued: what the two running sums and the result block hold after each of the 64 grid
  points, by recursion on the point's position n = 8·m + k — at k = 0 the sums restart from zero, at 0 < k < 7 they
  grow from what the point before left, at k = 7 they are finished and the new node state is stored —; the region's
  invariant, which carries the two sums from one point to the next; the proof data; and the body obligation.
-/
import proofs.«121501_j55087250538634_2_alg».proof.Proof.BitsGated5Runs
import Idealize.ShloMosaic.Lib.Ring

set_option maxRecDepth 16384

noncomputable section

namespace Cert.Kernel.Gated5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## The buffers the body runs on at a point -/

abbrev mw0 (t : Fin cfg5.N) := win5_0.stage (cfg5.slots t 0)
abbrev hw0 (t : Fin cfg5.N) : (mw0 t).IsWhole := hstage5_0 ((cfg5.slots t 0).cast nbuf5_0)
abbrev mw1 (t : Fin cfg5.N) := win5_1.stage (cfg5.slots t 1)
abbrev hw1 (t : Fin cfg5.N) : (mw1 t).IsWhole := hstage5_1 ((cfg5.slots t 1).cast nbuf5_1)
abbrev mw2 (t : Fin cfg5.N) := win5_2.stage (cfg5.slots t 2)
abbrev hw2 (t : Fin cfg5.N) : (mw2 t).IsWhole := hstage5_2 ((cfg5.slots t 2).cast nbuf5_2)
abbrev mw3 (t : Fin cfg5.N) := win5_3.stage (cfg5.slots t 3)
abbrev hw3 (t : Fin cfg5.N) : (mw3 t).IsWhole := hstage5_3 ((cfg5.slots t 3).cast nbuf5_3)
abbrev mw4 (t : Fin cfg5.N) := win5_4.stage (cfg5.slots t 4)
abbrev hw4 (t : Fin cfg5.N) : (mw4 t).IsWhole := hstage5_4 ((cfg5.slots t 4).cast nbuf5_4)
abbrev mw5 (t : Fin cfg5.N) := win5_5.stage (cfg5.slots t 5)
abbrev hw5 (t : Fin cfg5.N) : (mw5 t).IsWhole := hstage5_5 ((cfg5.slots t 5).cast nbuf5_5)
abbrev mw6 (t : Fin cfg5.N) := win5_6.stage (cfg5.slots t 6)
abbrev hw6 (t : Fin cfg5.N) : (mw6 t).IsWhole := hstage5_6 ((cfg5.slots t 6).cast nbuf5_6)
abbrev mw7 (t : Fin cfg5.N) := win5_7.stage (cfg5.slots t 7)
abbrev hw7 (t : Fin cfg5.N) : (mw7 t).IsWhole := hstage5_7 ((cfg5.slots t 7).cast nbuf5_7)
abbrev mw8 (t : Fin cfg5.N) := win5_8.stage (cfg5.slots t 8)
abbrev hw8 (t : Fin cfg5.N) : (mw8 t).IsWhole := hstage5_8 ((cfg5.slots t 8).cast nbuf5_8)
abbrev mw9 (t : Fin cfg5.N) := win5_9.stage (cfg5.slots t 9)
abbrev hw9 (t : Fin cfg5.N) : (mw9 t).IsWhole := hstage5_9 ((cfg5.slots t 9).cast nbuf5_9)
abbrev mw10 (t : Fin cfg5.N) := win5_10.stage (cfg5.slots t 10)
abbrev hw10 (t : Fin cfg5.N) : (mw10 t).IsWhole := hstage5_10 ((cfg5.slots t 10).cast nbuf5_10)
abbrev mw11 (t : Fin cfg5.N) := win5_11.stage (cfg5.slots t 11)
abbrev hw11 (t : Fin cfg5.N) : (mw11 t).IsWhole := hstage5_11 ((cfg5.slots t 11).cast nbuf5_11)
/-- The two scratch buffers holding the running sums. -/
abbrev sc0 : Memref sig .tc .vmem S512x512 .f32 := Memref.whole cc5_scratch0
abbrev sc1 : Memref sig .tc .vmem S512x512 .f32 := Memref.whole cc5_scratch1
/-- The views through which stored pieces are read back as contents. -/
abbrev vS0 : View sig .tc .vmem S512x512 .f32 := sc0.view
abbrev vS1 : View sig .tc .vmem S512x512 .f32 := sc1.view
abbrev vOut : View sig .tc .vmem S512x512 .f32 := (Memref.whole cc5_stg11_0 : Memref sig .tc .vmem S512x512 .f32).view

/-! ## Where the result window rests -/

theorem out_idle : ∀ t : Fin cfg5.N, ¬atFinish (grid5.coords t) → cfg5.idle 11 (grid5.coords t) = true :=
  (by decide +kernel : ∀ t : Fin grid5.N, ¬atFinish (grid5.coords t) → cfg5.idle 11 (grid5.coords t) = true)
theorem out_noFlush : ∀ t : Fin cfg5.N, ¬atFinish (grid5.coords t) → (cfg5.win 11).flush t = false :=
  (by decide +kernel : ∀ t : Fin grid5.N, ¬atFinish (grid5.coords t) → win5_11.flush t = false)
theorem out_live : ∀ t : Fin cfg5.N, atFinish (grid5.coords t) → cfg5.idle 11 (grid5.coords t) = false :=
  (by decide +kernel : ∀ t : Fin grid5.N, atFinish (grid5.coords t) → cfg5.idle 11 (grid5.coords t) = false)

/-! ## What each situation leaves: the stored pieces read back -/

/-- The result block's placeholder at the points where nothing is stored into it (never consulted: the window rests
    there and is not written back). -/
def restOut : Vec F S512x512 .f32 := vOut.read (Elt F) (vOut.writes (Elt F) vOut.junk [])

/-- After a START point: (the resting result block, the first sum, the second sum). -/
def startTriple (c : Dev nD) (t : Fin cfg5.N) (hs : atStart (grid5.coords t)) (hf : ¬atFinish (grid5.coords t)) : Vec F S512x512 .f32 × Vec F S512x512 .f32 × Vec F S512x512 .f32 :=
  (restOut,
   vS0.read (Elt F) (vS0.writes (Elt F) vS0.junk (runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1),
   vS1.read (Elt F) (vS1.writes (Elt F) vS1.junk (runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1))

/-- After a MIDDLE point, from the sums `s0`, `s1` the point before left. -/
def middleTriple (c : Dev nD) (t : Fin cfg5.N) (hs : ¬atStart (grid5.coords t)) (hf : ¬atFinish (grid5.coords t)) (s0 s1 : Vec F S512x512 .f32) : Vec F S512x512 .f32 × Vec F S512x512 .f32 × Vec F S512x512 .f32 :=
  (restOut,
   vS0.read (Elt F) (vS0.writes (Elt F) vS0.junk (runMiddle c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS1.read (Elt F) (vS1.writes (Elt F) vS1.junk (runMiddle c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1))

/-- After a FINISH point, from the sums `s0`, `s1` the point before left: (the new node state, the finished sums). -/
def finishTriple (c : Dev nD) (t : Fin cfg5.N) (hs : ¬atStart (grid5.coords t)) (hf : atFinish (grid5.coords t)) (s0 s1 : Vec F S512x512 .f32) : Vec F S512x512 .f32 × Vec F S512x512 .f32 × Vec F S512x512 .f32 :=
  (vOut.read (Elt F) (vOut.writes (Elt F) vOut.junk (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS0.read (Elt F) (vS0.writes (Elt F) vS0.junk (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1),
   vS1.read (Elt F) (vS1.writes (Elt F) vS1.junk (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1))

/-! ## The stored pieces cover their buffers -/

theorem start_cover0 (c : Dev nD) (t : Fin cfg5.N) (hs : atStart (grid5.coords t)) (hf : ¬atFinish (grid5.coords t)) (y : S512x512.Idx) :
    ∃ pc ∈ (runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1, y ∈ pc.1.set :=
  View.cover_of_tiledL _ S512x512.size (by sl_kernel_rfl) y
theorem start_cover1 (c : Dev nD) (t : Fin cfg5.N) (hs : atStart (grid5.coords t)) (hf : ¬atFinish (grid5.coords t)) (y : S512x512.Idx) :
    ∃ pc ∈ (runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1, y ∈ pc.1.set :=
  View.cover_of_tiledL _ S512x512.size (by sl_kernel_rfl) y
theorem middle_cover0 (c : Dev nD) (t : Fin cfg5.N) (hs : ¬atStart (grid5.coords t)) (hf : ¬atFinish (grid5.coords t)) (s0 s1 : Vec F S512x512 .f32) (y : S512x512.Idx) :
    ∃ pc ∈ (runMiddle c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem middle_cover1 (c : Dev nD) (t : Fin cfg5.N) (hs : ¬atStart (grid5.coords t)) (hf : ¬atFinish (grid5.coords t)) (s0 s1 : Vec F S512x512 .f32) (y : S512x512.Idx) :
    ∃ pc ∈ (runMiddle c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_coverO (c : Dev nD) (t : Fin cfg5.N) (hs : ¬atStart (grid5.coords t)) (hf : atFinish (grid5.coords t)) (s0 s1 : Vec F S512x512 .f32) (y : S512x512.Idx) :
    ∃ pc ∈ (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem finish_cover0 (c : Dev nD) (t : Fin cfg5.N) (hs : ¬atStart (grid5.coords t)) (hf : atFinish (grid5.coords t)) (s0 s1 : Vec F S512x512 .f32) (y : S512x512.Idx) :
    ∃ pc ∈ (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_cover1 (c : Dev nD) (t : Fin cfg5.N) (hs : ¬atStart (grid5.coords t)) (hf : atFinish (grid5.coords t)) (s0 s1 : Vec F S512x512 .f32) (y : S512x512.Idx) :
    ∃ pc ∈ (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1, y ∈ pc.1.set :=
  View.cover_of_tiledL _ S512x512.size (by sl_kernel_rfl) y

/-! ## The accumulation over the grid -/

/-- After the point at position `n`: (the result block's buffer, the first running sum, the second). -/
def sums (c : Dev nD) : (n : ℕ) → n < cfg5.N → Vec F S512x512 .f32 × Vec F S512x512 .f32 × Vec F S512x512 .f32
  | 0, hn => startTriple V c ⟨0, hn⟩ ((atStart_iff ⟨0, hn⟩).mpr (Nat.zero_mod _))
      (fun h => (fun h => by (try dsimp only at h); omega) ((atFinish_iff ⟨0, hn⟩).mp h))
  | n + 1, hn =>
    if h0 : (n + 1) % 8 = 0 then
      if h7 : (n + 1) % 8 = 7 then False.elim (by omega)
      else startTriple V c ⟨n + 1, hn⟩ ((atStart_iff ⟨n + 1, hn⟩).mpr h0) (fun h => h7 ((atFinish_iff ⟨n + 1, hn⟩).mp h))
    else
      if h7 : (n + 1) % 8 = 7 then
        finishTriple V c ⟨n + 1, hn⟩ (fun h => h0 ((atStart_iff ⟨n + 1, hn⟩).mp h)) ((atFinish_iff ⟨n + 1, hn⟩).mpr h7)
          (sums c n (Nat.lt_of_succ_lt hn)).2.1 (sums c n (Nat.lt_of_succ_lt hn)).2.2
      else
        middleTriple V c ⟨n + 1, hn⟩ (fun h => h0 ((atStart_iff ⟨n + 1, hn⟩).mp h)) (fun h => h7 ((atFinish_iff ⟨n + 1, hn⟩).mp h))
          (sums c n (Nat.lt_of_succ_lt hn)).2.1 (sums c n (Nat.lt_of_succ_lt hn)).2.2

theorem sums_start (c : Dev nD) (t : Fin cfg5.N) (h0 : t.val % 8 = 0) (h7 : ¬t.val % 8 = 7) :
    sums V c t.val t.isLt = startTriple V c t ((atStart_iff t).mpr h0) (fun h => h7 ((atFinish_iff t).mp h)) := by
  obtain ⟨n, hn⟩ := t
  cases n with
  | zero => exact rfl
  | succ n => exact (dif_pos h0).trans ((dif_neg h7).trans rfl)

theorem sums_middle (c : Dev nD) (t : Fin cfg5.N) (h0 : ¬t.val % 8 = 0) (h7 : ¬t.val % 8 = 7) :
    sums V c t.val t.isLt = middleTriple V c t (fun h => h0 ((atStart_iff t).mp h)) (fun h => h7 ((atFinish_iff t).mp h))
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h7).trans rfl)

theorem sums_finish (c : Dev nD) (t : Fin cfg5.N) (h0 : ¬t.val % 8 = 0) (h7 : t.val % 8 = 7) :
    sums V c t.val t.isLt = finishTriple V c t (fun h => h0 ((atStart_iff t).mp h)) ((atFinish_iff t).mpr h7)
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- The other scoped buffers of the core, unopened. -/
abbrev others (c : Dev nD) : sProp 𝕄 :=
  Pipeline.scopedRestBut (Ix := Unit) (Name := ℕ) (U := UR sig nD τ) (Lvl := ℕ) (Val := Elt F) spec5 c [cc5_scratch0, cc5_scratch1]

/-- Before the point at position `n`: at the first point every scratch buffer at anything; afterwards the two running
    sums at what the point before left, the other scoped buffers and the generator register untouched. -/
def carried (c : Dev nD) : (n : ℕ) → n ≤ cfg5.N → sProp 𝕄
  | 0, _ => Pipeline.ΦA spec5 c
  | n + 1, hn => iprop(iprop(iprop(owns (c : Thread nD τ) sc0 fullShare (sums V c n hn).2.1 ∗ owns (c : Thread nD τ) sc1 fullShare (sums V c n hn).2.2)
      ∗ others c) ∗ (∃ r, prngReg c r))

theorem carried_zero (c : Dev nD) (n : ℕ) (h : n ≤ cfg5.N) (hz : n = 0) : carried V c n h = Pipeline.ΦA spec5 c := by
  subst hz; rfl

theorem carried_succ (c : Dev nD) (n : ℕ) (hn : n < cfg5.N) :
    carried V c (n + 1) hn = iprop(iprop(iprop(owns (c : Thread nD τ) sc0 fullShare (sums V c n hn).2.1 ∗ owns (c : Thread nD τ) sc1 fullShare (sums V c n hn).2.2)
      ∗ others c) ∗ (∃ r, prngReg c r)) := rfl

theorem carried_pos (c : Dev nD) (n : ℕ) (h : n ≤ cfg5.N) (hz : n ≠ 0) :
    carried V c n h = iprop(iprop(iprop(owns (c : Thread nD τ) sc0 fullShare (sums V c (n - 1) (by omega)).2.1
      ∗ owns (c : Thread nD τ) sc1 fullShare (sums V c (n - 1) (by omega)).2.2) ∗ others c) ∗ (∃ r, prngReg c r)) := by
  cases n with
  | zero => exact absurd rfl hz
  | succ n => rfl

/-- The invariant handed in at the first point, with the two scratch buffers named. -/
theorem entry_eq (c : Dev nD) :
    (Pipeline.ΦA spec5 c : sProp 𝕄)
      = iprop(iprop(iprop((∃ d, owns (c : Thread nD τ) sc0 fullShare d) ∗ (∃ d, owns (c : Thread nD τ) sc1 fullShare d)) ∗ others c) ∗ (∃ r, prngReg c r)) := by
  unfold Pipeline.ΦA; rw [scopedRest5_split]; simp only [sc0, sc1, owns_whole]; try rfl

/-! ## The proof data -/

theorem before0_of {c : Dev nD} (dat : Dat τ (Elt F) Unit ℕ (UR sig nD τ) ℕ cfg5 c) (hA : dat.A 0 = V c (Pipeline.arrRef spec5 0))
    (hafter : ∀ t, dat.after 0 t = blk V c 0 t) (t : Fin cfg5.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg5 c) (hA : dat.A 1 = V c (Pipeline.arrRef spec5 1))
    (hafter : ∀ t, dat.after 1 t = blk V c 1 t) (t : Fin cfg5.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg5 c) (hA : dat.A 2 = V c (Pipeline.arrRef spec5 2))
    (hafter : ∀ t, dat.after 2 t = blk V c 2 t) (t : Fin cfg5.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg5 c) (hA : dat.A 3 = V c (Pipeline.arrRef spec5 3))
    (hafter : ∀ t, dat.after 3 t = blk V c 3 t) (t : Fin cfg5.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg5 c) (hA : dat.A 4 = V c (Pipeline.arrRef spec5 4))
    (hafter : ∀ t, dat.after 4 t = blk V c 4 t) (t : Fin cfg5.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before5_of {c : Dev nD} (dat : Dat τ (Elt F) Unit ℕ (UR sig nD τ) ℕ cfg5 c) (hA : dat.A 5 = V c (Pipeline.arrRef spec5 5))
    (hafter : ∀ t, dat.after 5 t = blk V c 5 t) (t : Fin cfg5.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before6_of {c : Dev nD} (dat : Dat τ (Elt F) Unit ℕ (UR sig nD τ) ℕ cfg5 c) (hA : dat.A 6 = V c (Pipeline.arrRef spec5 6))
    (hafter : ∀ t, dat.after 6 t = blk V c 6 t) (t : Fin cfg5.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before7_of {c : Dev nD} (dat : Dat τ (Elt F) Unit ℕ (UR sig nD τ) ℕ cfg5 c) (hA : dat.A 7 = V c (Pipeline.arrRef spec5 7))
    (hafter : ∀ t, dat.after 7 t = blk V c 7 t) (t : Fin cfg5.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
theorem before8_of {c : Dev nD} (dat : Dat τ (Elt F) Unit ℕ (UR sig nD τ) ℕ cfg5 c) (hA : dat.A 8 = V c (Pipeline.arrRef spec5 8))
    (hafter : ∀ t, dat.after 8 t = blk V c 8 t) (t : Fin cfg5.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
theorem before9_of {c : Dev nD} (dat : Dat τ (Elt F) Unit ℕ (UR sig nD τ) ℕ cfg5 c) (hA : dat.A 9 = V c (Pipeline.arrRef spec5 9))
    (hafter : ∀ t, dat.after 9 t = blk V c 9 t) (t : Fin cfg5.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
theorem before10_of {c : Dev nD} (dat : Dat τ (Elt F) Unit ℕ (UR sig nD τ) ℕ cfg5 c) (hA : dat.A 10 = V c (Pipeline.arrRef spec5 10))
    (hafter : ∀ t, dat.after 10 t = blk V c 10 t) (t : Fin cfg5.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`. The adjacency array is read through two windows (a block and the
    mirrored block): each holds half of the read permission. -/
def dat (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (sums V c t.val t.isLt).1
  Φ t := carried V c t.val (Nat.le_of_lt_succ t.isLt)
  q w := match w with
    | ⟨0, _⟩ => fullShare.left
    | ⟨1, _⟩ => fullShare.right
    | _ => fullShare
  owed _ := 0

theorem dat_A (c : Dev nD) (w : Fin cfg5.W) : (dat V c).A w = V c (Pipeline.arrRef spec5 w) := by
  dsimp only [dat]

theorem carried_castSucc (c : Dev nD) (t : Fin cfg5.N) :
    (dat V c).Φ t.castSucc = carried V c t.val (Nat.le_of_lt t.isLt) := by
  dsimp only [dat]; simp only [Fin.coe_castSucc]

theorem after0 (c : Dev nD) (t : Fin cfg5.N) : (dat V c).after 0 t = blk V c 0 t := by dsimp only [dat]
theorem after1 (c : Dev nD) (t : Fin cfg5.N) : (dat V c).after 1 t = blk V c 1 t := by dsimp only [dat]
theorem after2 (c : Dev nD) (t : Fin cfg5.N) : (dat V c).after 2 t = blk V c 2 t := by dsimp only [dat]
theorem after3 (c : Dev nD) (t : Fin cfg5.N) : (dat V c).after 3 t = blk V c 3 t := by dsimp only [dat]
theorem after4 (c : Dev nD) (t : Fin cfg5.N) : (dat V c).after 4 t = blk V c 4 t := by dsimp only [dat]
theorem after5 (c : Dev nD) (t : Fin cfg5.N) : (dat V c).after 5 t = blk V c 5 t := by dsimp only [dat]
theorem after6 (c : Dev nD) (t : Fin cfg5.N) : (dat V c).after 6 t = blk V c 6 t := by dsimp only [dat]
theorem after7 (c : Dev nD) (t : Fin cfg5.N) : (dat V c).after 7 t = blk V c 7 t := by dsimp only [dat]
theorem after8 (c : Dev nD) (t : Fin cfg5.N) : (dat V c).after 8 t = blk V c 8 t := by dsimp only [dat]
theorem after9 (c : Dev nD) (t : Fin cfg5.N) : (dat V c).after 9 t = blk V c 9 t := by dsimp only [dat]
theorem after10 (c : Dev nD) (t : Fin cfg5.N) : (dat V c).after 10 t = blk V c 10 t := by dsimp only [dat]
theorem after11 (c : Dev nD) (t : Fin cfg5.N) : (dat V c).after 11 t = (sums V c t.val t.isLt).1 := by dsimp only [dat]

theorem before0 (c : Dev nD) (t : Fin cfg5.N) (d) : (dat V c).before 0 t d = blk V c 0 t :=
  before0_of V (dat V c) (dat_A V c 0) (after0 V c) t d
theorem before1 (c : Dev nD) (t : Fin cfg5.N) (d) : (dat V c).before 1 t d = blk V c 1 t :=
  before1_of V (dat V c) (dat_A V c 1) (after1 V c) t d
theorem before2 (c : Dev nD) (t : Fin cfg5.N) (d) : (dat V c).before 2 t d = blk V c 2 t :=
  before2_of V (dat V c) (dat_A V c 2) (after2 V c) t d
theorem before3 (c : Dev nD) (t : Fin cfg5.N) (d) : (dat V c).before 3 t d = blk V c 3 t :=
  before3_of V (dat V c) (dat_A V c 3) (after3 V c) t d
theorem before4 (c : Dev nD) (t : Fin cfg5.N) (d) : (dat V c).before 4 t d = blk V c 4 t :=
  before4_of V (dat V c) (dat_A V c 4) (after4 V c) t d
theorem before5 (c : Dev nD) (t : Fin cfg5.N) (d) : (dat V c).before 5 t d = blk V c 5 t :=
  before5_of V (dat V c) (dat_A V c 5) (after5 V c) t d
theorem before6 (c : Dev nD) (t : Fin cfg5.N) (d) : (dat V c).before 6 t d = blk V c 6 t :=
  before6_of V (dat V c) (dat_A V c 6) (after6 V c) t d
theorem before7 (c : Dev nD) (t : Fin cfg5.N) (d) : (dat V c).before 7 t d = blk V c 7 t :=
  before7_of V (dat V c) (dat_A V c 7) (after7 V c) t d
theorem before8 (c : Dev nD) (t : Fin cfg5.N) (d) : (dat V c).before 8 t d = blk V c 8 t :=
  before8_of V (dat V c) (dat_A V c 8) (after8 V c) t d
theorem before9 (c : Dev nD) (t : Fin cfg5.N) (d) : (dat V c).before 9 t d = blk V c 9 t :=
  before9_of V (dat V c) (dat_A V c 9) (after9 V c) t d
theorem before10 (c : Dev nD) (t : Fin cfg5.N) (d) : (dat V c).before 10 t d = blk V c 10 t :=
  before10_of V (dat V c) (dat_A V c 10) (after10 V c) t d

theorem leaves0 (c : Dev nD) (t : Fin cfg5.N) :
    (dat V c).leavesExact 0 t = owns (c : Thread nD τ) (mw0 t) fullShare (blk V c 0 t) := by
  unfold Dat.leavesExact; rw [show cfg5.idle 0 (cfg5.grid.coords t) = false from rfl, after0]; try rfl
theorem leaves1 (c : Dev nD) (t : Fin cfg5.N) :
    (dat V c).leavesExact 1 t = owns (c : Thread nD τ) (mw1 t) fullShare (blk V c 1 t) := by
  unfold Dat.leavesExact; rw [show cfg5.idle 1 (cfg5.grid.coords t) = false from rfl, after1]; try rfl
theorem leaves2 (c : Dev nD) (t : Fin cfg5.N) :
    (dat V c).leavesExact 2 t = owns (c : Thread nD τ) (mw2 t) fullShare (blk V c 2 t) := by
  unfold Dat.leavesExact; rw [show cfg5.idle 2 (cfg5.grid.coords t) = false from rfl, after2]; try rfl
theorem leaves3 (c : Dev nD) (t : Fin cfg5.N) :
    (dat V c).leavesExact 3 t = owns (c : Thread nD τ) (mw3 t) fullShare (blk V c 3 t) := by
  unfold Dat.leavesExact; rw [show cfg5.idle 3 (cfg5.grid.coords t) = false from rfl, after3]; try rfl
theorem leaves4 (c : Dev nD) (t : Fin cfg5.N) :
    (dat V c).leavesExact 4 t = owns (c : Thread nD τ) (mw4 t) fullShare (blk V c 4 t) := by
  unfold Dat.leavesExact; rw [show cfg5.idle 4 (cfg5.grid.coords t) = false from rfl, after4]; try rfl
theorem leaves5 (c : Dev nD) (t : Fin cfg5.N) :
    (dat V c).leavesExact 5 t = owns (c : Thread nD τ) (mw5 t) fullShare (blk V c 5 t) := by
  unfold Dat.leavesExact; rw [show cfg5.idle 5 (cfg5.grid.coords t) = false from rfl, after5]; try rfl
theorem leaves6 (c : Dev nD) (t : Fin cfg5.N) :
    (dat V c).leavesExact 6 t = owns (c : Thread nD τ) (mw6 t) fullShare (blk V c 6 t) := by
  unfold Dat.leavesExact; rw [show cfg5.idle 6 (cfg5.grid.coords t) = false from rfl, after6]; try rfl
theorem leaves7 (c : Dev nD) (t : Fin cfg5.N) :
    (dat V c).leavesExact 7 t = owns (c : Thread nD τ) (mw7 t) fullShare (blk V c 7 t) := by
  unfold Dat.leavesExact; rw [show cfg5.idle 7 (cfg5.grid.coords t) = false from rfl, after7]; try rfl
theorem leaves8 (c : Dev nD) (t : Fin cfg5.N) :
    (dat V c).leavesExact 8 t = owns (c : Thread nD τ) (mw8 t) fullShare (blk V c 8 t) := by
  unfold Dat.leavesExact; rw [show cfg5.idle 8 (cfg5.grid.coords t) = false from rfl, after8]; try rfl
theorem leaves9 (c : Dev nD) (t : Fin cfg5.N) :
    (dat V c).leavesExact 9 t = owns (c : Thread nD τ) (mw9 t) fullShare (blk V c 9 t) := by
  unfold Dat.leavesExact; rw [show cfg5.idle 9 (cfg5.grid.coords t) = false from rfl, after9]; try rfl
theorem leaves10 (c : Dev nD) (t : Fin cfg5.N) :
    (dat V c).leavesExact 10 t = owns (c : Thread nD τ) (mw10 t) fullShare (blk V c 10 t) := by
  unfold Dat.leavesExact; rw [show cfg5.idle 10 (cfg5.grid.coords t) = false from rfl, after10]; try rfl

/-! ## The body obligation -/

def bodyPre (c : Dev nD) (t : Fin cfg5.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d))
    ∗ (∃ d, owns (c : Thread nD τ) (mw5 t) fullShare ((dat V c).before 5 t d))
    ∗ (∃ d, owns (c : Thread nD τ) (mw6 t) fullShare ((dat V c).before 6 t d))
    ∗ (∃ d, owns (c : Thread nD τ) (mw7 t) fullShare ((dat V c).before 7 t d))
    ∗ (∃ d, owns (c : Thread nD τ) (mw8 t) fullShare ((dat V c).before 8 t d))
    ∗ (∃ d, owns (c : Thread nD τ) (mw9 t) fullShare ((dat V c).before 9 t d))
    ∗ (∃ d, owns (c : Thread nD τ) (mw10 t) fullShare ((dat V c).before 10 t d))
    ∗ (∃ d, owns (c : Thread nD τ) (mw11 t) fullShare ((dat V c).before 11 t d)))

def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

end Cert.Kernel.Gated5

end
-- ==== Proof.BitsGated5Body.lean ====
/-
  Region 5 of the program, concluded: the body obligation at every grid point — the point's position decides
  which of the three situations applies, the invariant hands the body the two running sums (at anything at the very
  first point, at what the point before left afterwards) and takes them back at this point's contents — and how
  the invariant is entered and left.
-/
import proofs.«121501_j55087250538634_2_alg».proof.Proof.BitsGated5

set_option maxRecDepth 16384

noncomputable section

namespace Cert.Kernel.Gated5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before0, before1, before2, before3, before4, before5, before6, before7, before8, before9, before10]
  rw [show (dat V c).owesAt () t.succ = (dat V c).owesAt () t.castSucc from rfl]
  rw [show (dat V c).Φ t.succ = carried V c (t.val + 1) t.isLt from rfl, carried_succ]
  rw [leaves0, leaves1, leaves2, leaves3, leaves4, leaves5, leaves6, leaves7, leaves8, leaves9, leaves10]
  have hN : t.val < 64 := lt_of_lt_of_eq t.isLt (show cfg5.N = 64 from N_5)
  by_cases h0 : t.val % 8 = 0
  · by_cases h7 : t.val % 8 = 7
    · exfalso; omega
    · rw [Dat.leavesExact_idle (dat V c) 11 t (out_idle t (fun h => h7 ((atFinish_iff t).mp h))) (out_noFlush t (fun h => h7 ((atFinish_iff t).mp h)))]
      rw [sums_start V c t h0 h7]
      unfold startTriple; (try dsimp only)
      by_cases hz : t.val = 0
      · rw [carried_castSucc V c t, carried_zero V c _ _ hz, entry_eq]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [carried_castSucc V c t, carried_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun h => h0 (by rw [h])
    by_cases h7 : t.val % 8 = 7
    · rw [show (dat V c).leavesExact 11 t = owns (c : Thread nD τ) (mw11 t) fullShare ((dat V c).after 11 t) from by
        unfold Dat.leavesExact; rw [out_live t ((atFinish_iff t).mpr h7)], after11]
      rw [sums_finish V c t h0 h7]
      unfold finishTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) ((atFinish_iff t).mpr h7) (blk V c 0 t) (blk V c 1 t) (blk V c 2 t) (blk V c 3 t) (blk V c 4 t) (blk V c 5 t) (blk V c 6 t) (blk V c 7 t) (blk V c 8 t) (blk V c 9 t) (blk V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (finish_cover0 V c t _ _ _ _)
            unfold owns; iexists _; isplitr
            swap; · iexact HS1
            ipureintro; exact View.read_writes_of_cover _ _ _ _ _ (finish_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (finish_coverO V c t _ _ _ _)
    · rw [Dat.leavesExact_idle (dat V c) 11 t (out_idle t (fun h => h7 ((atFinish_iff t).mp h))) (out_noFlush t (fun h => h7 ((atFinish_iff t).mp h)))]
      rw [sums_middle V c t h0 h7]
      unfold middleTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (middle_cover0 V c t _ _ _ _)
            unfold owns; iexists _; isplitr
            swap; · iexact HS1
            ipureintro; exact View.read_writes_of_cover _ _ _ _ _ (middle_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation of the region, at every point. -/
theorem body_obligation (c : Dev nD) : BodyObligation (dat (F := F) V c) (defs₀ (F := F)) Variants.none () Set.univ := fun t => by
  rw [bigSep_W5, bigSep_W5]
  exact sound_body V c t

/-- What the launch hands the region is the invariant before the first point. -/
theorem enter (c : Dev nD) : Pipeline.ΦA spec5 c ⊢ (dat V c).Φ 0 := by
  rw [show (dat V c).Φ 0 = carried V c 0 (Nat.zero_le _) from rfl, carried_zero V c 0 _ rfl]
  try exact Idealize.SL.BI.Entails.refl _

/-- After the last point the invariant gives the scoped buffers back: the sums' contents are forgotten. -/
theorem leave (c : Dev nD) : (dat V c).Φ (Fin.last cfg5.N) ⊢ Pipeline.ΦA spec5 c := by
  have hne : (Fin.last cfg5.N).val ≠ 0 := by rw [Fin.val_last]; have : cfg5.N = 64 := N_5; omega
  rw [show (dat V c).Φ (Fin.last cfg5.N) = carried V c (Fin.last cfg5.N).val (Nat.le_of_lt_succ (Fin.last cfg5.N).isLt) from rfl,
    carried_pos V c _ _ hne, entry_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Cert.Kernel.Gated5

end
-- ==== Proof.BitsGated5Arrays.lean ====
/-
  Region 5 of the program: its windows' arrays against the buffers behind them. The adjacency array is read
  through two windows; the read permission on its buffer is cut in two halves, one per window, when the region
  is entered, and the halves are joined again when it is left. Every other array has a buffer of its own.
-/
import proofs.«121501_j55087250538634_2_alg».proof.Proof.BitsGated5

set_option maxRecDepth 16384

noncomputable section

namespace Cert.Kernel.Gated5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows. -/
abbrev bufs : List (Ref sig .tc) := [main_v1, main_v27_0, main_v27_1, main_v26, main_v7, main_v18, main_v9, main_v19, main_v11, main_v20, main_v28]

theorem bufs_eq : Finset.univ.image (Pipeline.arrRef spec5) = bufs.toFinset := by decide

/-- A conjunction over those buffers, one by one. -/
theorem bufs_chain (Φ : Ref sig .tc → sProp 𝕄) :
    bigSep (Finset.univ.image (Pipeline.arrRef spec5)) Φ = iprop(Φ main_v1 ∗ Φ main_v27_0 ∗ Φ main_v27_1 ∗ Φ main_v26 ∗ Φ main_v7 ∗ Φ main_v18 ∗ Φ main_v9 ∗ Φ main_v19 ∗ Φ main_v11 ∗ Φ main_v20 ∗ Φ main_v28) :=
  bigSep_eq_bigSepL_of_eq bufs bufs_eq (by decide) Φ

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl
theorem share11 (c : Dev nD) : (dat V c).share 11 = fullShare := rfl

/-- ENTRY: the buffers whole at contents `G` make the windows' arrays at `G`, the adjacency buffer's permission halved. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec5 c G : sProp 𝕄)
      ⊢ (dat V c).arrays (fun w => G (Pipeline.arrRef spec5 w)) := by
  unfold Pipeline.arrBufs Dat.arrays
  rw [bufs_chain, bigSep_W5]
  simp only [share0, share1, share2, share3, share4, share5, share6, share7, share8, share9, share10, share11, View.set_whole]
  iintro ⟨HA, H2, H3, H4, H5, H6, H7, H8, H9, H10, H11⟩
  ihave HA' := (pointsTo_share (PosShare.mem_left_op_right fullShare)).1 $$ HA
  icases HA' with ⟨HA0, HA1⟩
  isplitl [HA0]; · iexact HA0
  isplitl [HA1]; · iexact HA1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `G`, the two halves of the adjacency buffer's permission joined, are the
    buffers whole at `G`. -/
theorem bufs_of_arrays (c : Dev nD) (G : (b : Ref sig .tc) → Buf (Elt F) ((c : Thread nD τ).loc b)) :
    (dat V c).arrays (fun w => G (Pipeline.arrRef spec5 w))
      ⊢ (Pipeline.arrBufs (Ix := Unit) (Name := ℕ) (U := UR sig nD τ) (Lvl := ℕ) spec5 c G : sProp 𝕄) := by
  unfold Pipeline.arrBufs Dat.arrays
  rw [bufs_chain, bigSep_W5]
  simp only [share0, share1, share2, share3, share4, share5, share6, share7, share8, share9, share10, share11, View.set_whole]
  iintro ⟨HA0, HA1, H2, H3, H4, H5, H6, H7, H8, H9, H10, H11⟩
  ihave HA := (pointsTo_share (PosShare.mem_left_op_right fullShare)).2 $$ [HA0 HA1]
  · isplitl [HA0]; · iexact HA0
    iexact HA1
  isplitl [HA]; · iexact HA
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY, from all the core's unscoped buffers: the windows' arrays and the buffers that are no window's array. -/
theorem enter_arrays (c : Dev nD) (G : (b : Ref sig .tc) → Buf (Elt F) ((c : Thread nD τ).loc b)) :
    (unscopedBufs c G : sProp 𝕄)
      ⊢ iprop((dat V c).arrays (fun w => G (Pipeline.arrRef spec5 w))
          ∗ Pipeline.unscopedRest (Ix := Unit) (Name := ℕ) (U := UR sig nD τ) (Lvl := ℕ) spec5 c G) := by
  rw [Pipeline.unscopedBufs_split₀ cfgs 5 winFacts₀5.arr_unscoped c G]
  exact BIClass.sep_mono (arrays_of_bufs V c G) .rfl

/-- EXIT, back to all the core's unscoped buffers at contents `G'` that agree with the arrays' final contents on the
    arrays and with the entry contents `G` elsewhere. -/
theorem leave_arrays (c : Dev nD) (G G' : (b : Ref sig .tc) → Buf (Elt F) ((c : Thread nD τ).loc b))
    (Fa : (w : Fin cfg5.W) → Buf (Elt F) ((cfg5.win w).arr.view.loc (c : Thread nD τ)))
    (hF : ∀ w, Fa w = G' (Pipeline.arrRef spec5 w))
    (hrest : ∀ b, b ∉ Finset.univ.image (Pipeline.arrRef spec5) → G' b = G b) :
    iprop((dat V c).arrays Fa ∗ Pipeline.unscopedRest (Ix := Unit) (Name := ℕ) (U := UR sig nD τ) (Lvl := ℕ) spec5 c G)
      ⊢ (unscopedBufs c G' : sProp 𝕄) := by
  rw [Pipeline.unscopedBufs_split₀ cfgs 5 winFacts₀5.arr_unscoped c G', show Fa = fun w => G' (Pipeline.arrRef spec5 w) from funext hF]
  refine BIClass.sep_mono (bufs_of_arrays V c G') ?_
  unfold Pipeline.unscopedRest
  exact Entails.of_eq (bigSep_congr fun b hb => by rw [hrest b (Finset.mem_sdiff.mp hb).2])

end Cert.Kernel.Gated5

end
-- ==== Proof.BitsMessages6.lean ====
/-
  Region 6 of the program: the two edge messages of one GGNN step. For a block of 1024 rows of the node state
  `x` (window 0), the kernel forms  s_in = x · W_in + b_in  (windows 1, 2 -> window 5) and
  s_out = x · W_out + b_out  (windows 3, 4 -> window 6): each a 1024x512 by 512x512 product into the zero
  accumulator plus a bias row broadcast down the rows. The weights and biases are the same block at every point
  (constant index maps); the state block and the two result blocks move with the point.
  Here: what each result buffer holds after the body as a function of the five input blocks, the body's run on
  whole staging buffers, the region's proof data over entry contents `V`, and the body obligation at every point.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Messages6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the two result buffers -/

/-- The incoming-edge message block: the state block times `W_in` plus the bias row, as one stored piece. -/
def sIn (x : Vec F S1024x512 .f32) (w : Vec F S512x512 .bf16) (b : Vec F S1x512 .f32) : Vec F S1024x512 .bf16 :=
  View.canon [⟨rRows, k6_pay2 (View.ld x rRows) (View.ld w rWeight) (View.ld b rBias)⟩]

/-- The outgoing-edge message block: the state block times `W_out` plus the bias row. -/
def sOut (x : Vec F S1024x512 .f32) (w : Vec F S512x512 .bf16) (b : Vec F S1x512 .f32) : Vec F S1024x512 .bf16 :=
  View.canon [⟨rRows, k6_pay3 (View.ld x rRows) (View.ld w rWeight) (View.ld b rBias)⟩]

/-- One store through the whole-buffer rectangle covers the buffer. -/
theorem covers (p : Vec F S1024x512 .bf16) (y : S1024x512.Idx) :
    ∃ pc ∈ ([⟨rRows, p⟩] : List (View.Piece (Elt F) S1024x512 .bf16)), y ∈ pc.1.set :=
  View.cover_of_tiled [⟨rRows, p⟩] S1024x512.size (by rfl) y

/-! ## The body's run -/

set_option maxHeartbeats 1000000 in
/-- On whole staging buffers, the five inputs at contents `x, wi, bi, wo, bo` and the two results at anything, the
    body runs to its end with the inputs as they were and the results at `sIn`, `sOut` of the inputs. -/
theorem body_runs (i : grid6.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .bf16) (h6 : a6.IsWhole)
    (a7 : Memref sig .tc .vmem S1024x512 .bf16) (h7 : a7.IsWhole)
    (x : Vec F S1024x512 .f32) (wi : Vec F S512x512 .bf16) (bi : Vec F S1x512 .f32) (wo : Vec F S512x512 .bf16) (bo : Vec F S1x512 .f32)
    (K : PUnit → sProp 𝕄) :
    iprop(owns (c : Thread nD τ) a1 fullShare x ∗ owns (c : Thread nD τ) a2 fullShare wi ∗ owns (c : Thread nD τ) a3 fullShare bi
        ∗ owns (c : Thread nD τ) a4 fullShare wo ∗ owns (c : Thread nD τ) a5 fullShare bo
        ∗ (∃ d, owns (c : Thread nD τ) a6 fullShare d) ∗ (∃ d, owns (c : Thread nD τ) a7 fullShare d)
        ∗ (iprop(owns (c : Thread nD τ) a1 fullShare x ∗ owns (c : Thread nD τ) a2 fullShare wi ∗ owns (c : Thread nD τ) a3 fullShare bi
            ∗ owns (c : Thread nD τ) a4 fullShare wo ∗ owns (c : Thread nD τ) a5 fullShare bo
            ∗ owns (c : Thread nD τ) a6 fullShare (sIn x wi bi) ∗ owns (c : Thread nD τ) a7 fullShare (sOut x wo bo)) -∗ K ⟨⟩))
      ⊢ wp frame (wpE (defs₀ (F := F)) Variants.none c none) E (cc6__sinout_kernel i a1 h1 a2 h2 a3 h3 a4 h4 a5 h5 a6 h6 a7 h7) K := by
  simp only [cc6__sinout_kernel_eq_skeleton]; unfold cc6__sinout_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  iexists _; isplitr
  swap; · iexact H7
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg6 c) (hA : dat.A 0 = V c (Pipeline.arrRef spec6 0))
    (hafter : ∀ t, dat.after 0 t = blk V c 0 t) (t : Fin cfg6.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg6 c) (hA : dat.A 1 = V c (Pipeline.arrRef spec6 1))
    (hafter : ∀ t, dat.after 1 t = blk V c 1 t) (t : Fin cfg6.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg6 c) (hA : dat.A 2 = V c (Pipeline.arrRef spec6 2))
    (hafter : ∀ t, dat.after 2 t = blk V c 2 t) (t : Fin cfg6.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg6 c) (hA : dat.A 3 = V c (Pipeline.arrRef spec6 3))
    (hafter : ∀ t, dat.after 3 t = blk V c 3 t) (t : Fin cfg6.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg6 c) (hA : dat.A 4 = V c (Pipeline.arrRef spec6 4))
    (hafter : ∀ t, dat.after 4 t = blk V c 4 t) (t : Fin cfg6.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and each result's at the message block of the input blocks; the invariant is the
    scoped rest and the generator register, untouched; nothing owed; full shares. -/
def dat (c : Dev nD) : Dat τ (Elt F) Unit ℕ (UR sig nD τ) ℕ cfg6 c where
  A w := V c (Pipeline.arrRef spec6 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sIn (blk V c 0 t) (blk V c 1 t) (blk V c 2 t)
    | ⟨6, _⟩ => sOut (blk V c 0 t) (blk V c 3 t) (blk V c 4 t)
  Φ _ := Pipeline.ΦA spec6 c
  q _ := fullShare
  owed _ := 0

theorem dat_A (c : Dev nD) (w : Fin cfg6.W) : (dat V c).A w = V c (Pipeline.arrRef spec6 w) := by
  dsimp only [dat]

theorem after0 (c : Dev nD) (t : Fin cfg6.N) : (dat V c).after 0 t = blk V c 0 t := by dsimp only [dat]
theorem after1 (c : Dev nD) (t : Fin cfg6.N) : (dat V c).after 1 t = blk V c 1 t := by dsimp only [dat]
theorem after2 (c : Dev nD) (t : Fin cfg6.N) : (dat V c).after 2 t = blk V c 2 t := by dsimp only [dat]
theorem after3 (c : Dev nD) (t : Fin cfg6.N) : (dat V c).after 3 t = blk V c 3 t := by dsimp only [dat]
theorem after4 (c : Dev nD) (t : Fin cfg6.N) : (dat V c).after 4 t = blk V c 4 t := by dsimp only [dat]
theorem after5 (c : Dev nD) (t : Fin cfg6.N) : (dat V c).after 5 t = sIn (blk V c 0 t) (blk V c 1 t) (blk V c 2 t) := by dsimp only [dat]
theorem after6 (c : Dev nD) (t : Fin cfg6.N) : (dat V c).after 6 t = sOut (blk V c 0 t) (blk V c 3 t) (blk V c 4 t) := by dsimp only [dat]

theorem before0 (c : Dev nD) (t : Fin cfg6.N) (d) : (dat V c).before 0 t d = blk V c 0 t :=
  before0_of V (dat V c) (dat_A V c 0) (after0 V c) t d
theorem before1 (c : Dev nD) (t : Fin cfg6.N) (d) : (dat V c).before 1 t d = blk V c 1 t :=
  before1_of V (dat V c) (dat_A V c 1) (after1 V c) t d
theorem before2 (c : Dev nD) (t : Fin cfg6.N) (d) : (dat V c).before 2 t d = blk V c 2 t :=
  before2_of V (dat V c) (dat_A V c 2) (after2 V c) t d
theorem before3 (c : Dev nD) (t : Fin cfg6.N) (d) : (dat V c).before 3 t d = blk V c 3 t :=
  before3_of V (dat V c) (dat_A V c 3) (after3 V c) t d
theorem before4 (c : Dev nD) (t : Fin cfg6.N) (d) : (dat V c).before 4 t d = blk V c 4 t :=
  before4_of V (dat V c) (dat_A V c 4) (after4 V c) t d

/-! ## The body obligation -/

/-- What the body is called with at point `t`: the invariant, the core's dues, and each window's current staging buffer
    at what the pipeline put there. -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d))
    ∗ (∃ d, owns (c : Thread nD τ) (st6_6 t) fullShare ((dat V c).before 6 t d)))

/-- What it returns. -/
def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t)
    ∗ owns (c : Thread nD τ) (st6_4 t) fullShare ((dat V c).after 4 t)
    ∗ owns (c : Thread nD τ) (st6_5 t) fullShare ((dat V c).after 5 t)
    ∗ owns (c : Thread nD τ) (st6_6 t) fullShare ((dat V c).after 6 t))

/-- The body at any point: the inputs' buffers hold their blocks, so `body_runs` applies; the invariant and the core's
    dues pass through unread. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs (grid6.coords t) c Set.univ _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation (c : Dev nD) : BodyObligation (dat (F := F) V c) (defs₀ (F := F)) Variants.none () Set.univ := fun t => by
  rw [bigSep_W6, bigSep_W6]
  exact sound_body V c t

end Cert.Kernel.Messages6

end
-- ==== Proof.BitsGated7Runs.lean ====
/-
  Region 7 of the program: the gated update of one block of 512 nodes, accumulated over the eight blocks of 512
  neighbours. At grid point (m, k) the body adds to two running sums kept in scratch between points,
      acc_in  += A[m-block, k-block] · s_in[k-block]        acc_out += A[k-block, m-block]ᵀ · s_out[k-block],
  after setting both to zero when k = 0; when k = 7 it reads the finished sums, forms the reset and update gates and
  the candidate state from them and the node block's own state, and stores the new state. At the other points the
  result block is left alone.
  Here: the body's run in each of the three situations the grid meets — k = 0 (start), 0 < k < 7 (middle), k = 7
  (finish) — on whole staging buffers; what each stored buffer ends with is given as the list of stored pieces the
  run itself produces.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gated7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- "This is the first neighbour block": the test the body makes before zeroing the running sums. -/
abbrev atStart (i : grid7.Coords) : Prop :=
  (Scalar.cmpi .ne (Scalar.extui (Scalar.cmpi .eq (BitVec.ofNat 32 (i 1).val) 0#32)) 0#32) = 1#1
/-- "This is the last neighbour block": the test the body makes before finishing the node block. -/
abbrev atFinish (i : grid7.Coords) : Prop := k7_cond2 i = 1#1

/-- The first test holds exactly at the points whose position is a multiple of 8 (k = 0). -/
theorem atStart_iff : ∀ t : Fin cfg7.N, atStart (grid7.coords t) ↔ t.val % 8 = 0 :=
  (by decide +kernel : ∀ t : Fin grid7.N, atStart (grid7.coords t) ↔ t.val % 8 = 0)
/-- The second holds exactly at the points whose position is 7 modulo 8 (k = 7). -/
theorem atFinish_iff : ∀ t : Fin cfg7.N, atFinish (grid7.coords t) ↔ t.val % 8 = 7 :=
  (by decide +kernel : ∀ t : Fin grid7.N, atFinish (grid7.coords t) ↔ t.val % 8 = 7)

/-! ## The body's run, situation by situation -/

set_option maxHeartbeats 4000000 in
/-- START (k = 0): the running sums are zeroed and the first products added; the result block `xo` is handed back
    untouched. The scratch buffers may hold anything on entry. -/
noncomputable def runStart (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc7__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc7__ggnn_kernel_eq_skeleton, k7_part1_eq_skeleton]; unfold cc7__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 4000000 in
/-- MIDDLE (0 < k < 7): the products are added to the running sums `s0`, `s1` the point before left; the result
    block `xo` is handed back untouched. -/
noncomputable def runMiddle (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc7__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc7__ggnn_kernel_eq_skeleton, k7_part1_eq_skeleton]; unfold cc7__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 8000000 in
/-- FINISH (k = 7): the last products are added to the running sums `s0`, `s1`, and the new state of the node block
    is computed from the finished sums and stored over whatever the result block held. -/
noncomputable def runFinish (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LO : List (View.Piece (Elt F) S512x512 .f32)) (LS0 : List (View.Piece (Elt F) S512x512 .f32)), { LS1 : List (View.Piece (Elt F) S512x512 .f32) //
      ∀ (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f LO) ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc7__ggnn_kernel i a2 h2 a3 h3 a4 h4 a5 h5 a6 h6 a7 h7 a8 h8 a9 h9 a10 h10 a11 h11 a12 h12 a13 h13 a14 h14 a15 h15) Kont } := by
  refine ⟨?_, ?_, ?_, fun E Kont => ?run⟩
  case run =>
    simp only [cc7__ggnn_kernel_eq_skeleton, k7_part1_eq_skeleton]; unfold cc7__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

end Cert.Kernel.Gated7

end
-- ==== Proof.BitsGated7.lean ====
/-
  Region 7 of the program, continued: what the two running sums and the result block hold after each of the 64 grid
  points, by recursion on the point's position n = 8·m + k — at k = 0 the sums restart from zero, at 0 < k < 7 they
  grow from what the point before left, at k = 7 they are finished and the new node state is stored —; the region's
  invariant, which carries the two sums from one point to the next; the proof data; and the body obligation.
-/
import proofs.«121501_j55087250538634_2_alg».proof.Proof.BitsGated7Runs
import Idealize.ShloMosaic.Lib.Ring

set_option maxRecDepth 16384

noncomputable section

namespace Cert.Kernel.Gated7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-! ## The buffers the body runs on at a point -/

abbrev mw0 (t : Fin cfg7.N) := win7_0.stage (cfg7.slots t 0)
abbrev hw0 (t : Fin cfg7.N) : (mw0 t).IsWhole := hstage7_0 ((cfg7.slots t 0).cast nbuf7_0)
abbrev mw1 (t : Fin cfg7.N) := win7_1.stage (cfg7.slots t 1)
abbrev hw1 (t : Fin cfg7.N) : (mw1 t).IsWhole := hstage7_1 ((cfg7.slots t 1).cast nbuf7_1)
abbrev mw2 (t : Fin cfg7.N) := win7_2.stage (cfg7.slots t 2)
abbrev hw2 (t : Fin cfg7.N) : (mw2 t).IsWhole := hstage7_2 ((cfg7.slots t 2).cast nbuf7_2)
abbrev mw3 (t : Fin cfg7.N) := win7_3.stage (cfg7.slots t 3)
abbrev hw3 (t : Fin cfg7.N) : (mw3 t).IsWhole := hstage7_3 ((cfg7.slots t 3).cast nbuf7_3)
abbrev mw4 (t : Fin cfg7.N) := win7_4.stage (cfg7.slots t 4)
abbrev hw4 (t : Fin cfg7.N) : (mw4 t).IsWhole := hstage7_4 ((cfg7.slots t 4).cast nbuf7_4)
abbrev mw5 (t : Fin cfg7.N) := win7_5.stage (cfg7.slots t 5)
abbrev hw5 (t : Fin cfg7.N) : (mw5 t).IsWhole := hstage7_5 ((cfg7.slots t 5).cast nbuf7_5)
abbrev mw6 (t : Fin cfg7.N) := win7_6.stage (cfg7.slots t 6)
abbrev hw6 (t : Fin cfg7.N) : (mw6 t).IsWhole := hstage7_6 ((cfg7.slots t 6).cast nbuf7_6)
abbrev mw7 (t : Fin cfg7.N) := win7_7.stage (cfg7.slots t 7)
abbrev hw7 (t : Fin cfg7.N) : (mw7 t).IsWhole := hstage7_7 ((cfg7.slots t 7).cast nbuf7_7)
abbrev mw8 (t : Fin cfg7.N) := win7_8.stage (cfg7.slots t 8)
abbrev hw8 (t : Fin cfg7.N) : (mw8 t).IsWhole := hstage7_8 ((cfg7.slots t 8).cast nbuf7_8)
abbrev mw9 (t : Fin cfg7.N) := win7_9.stage (cfg7.slots t 9)
abbrev hw9 (t : Fin cfg7.N) : (mw9 t).IsWhole := hstage7_9 ((cfg7.slots t 9).cast nbuf7_9)
abbrev mw10 (t : Fin cfg7.N) := win7_10.stage (cfg7.slots t 10)
abbrev hw10 (t : Fin cfg7.N) : (mw10 t).IsWhole := hstage7_10 ((cfg7.slots t 10).cast nbuf7_10)
abbrev mw11 (t : Fin cfg7.N) := win7_11.stage (cfg7.slots t 11)
abbrev hw11 (t : Fin cfg7.N) : (mw11 t).IsWhole := hstage7_11 ((cfg7.slots t 11).cast nbuf7_11)
/-- The two scratch buffers holding the running sums. -/
abbrev sc0 : Memref sig .tc .vmem S512x512 .f32 := Memref.whole cc7_scratch0
abbrev sc1 : Memref sig .tc .vmem S512x512 .f32 := Memref.whole cc7_scratch1
/-- The views through which stored pieces are read back as contents. -/
abbrev vS0 : View sig .tc .vmem S512x512 .f32 := sc0.view
abbrev vS1 : View sig .tc .vmem S512x512 .f32 := sc1.view
abbrev vOut : View sig .tc .vmem S512x512 .f32 := (Memref.whole cc7_stg11_0 : Memref sig .tc .vmem S512x512 .f32).view

/-! ## Where the result window rests -/

theorem out_idle : ∀ t : Fin cfg7.N, ¬atFinish (grid7.coords t) → cfg7.idle 11 (grid7.coords t) = true :=
  (by decide +kernel : ∀ t : Fin grid7.N, ¬atFinish (grid7.coords t) → cfg7.idle 11 (grid7.coords t) = true)
theorem out_noFlush : ∀ t : Fin cfg7.N, ¬atFinish (grid7.coords t) → (cfg7.win 11).flush t = false :=
  (by decide +kernel : ∀ t : Fin grid7.N, ¬atFinish (grid7.coords t) → win7_11.flush t = false)
theorem out_live : ∀ t : Fin cfg7.N, atFinish (grid7.coords t) → cfg7.idle 11 (grid7.coords t) = false :=
  (by decide +kernel : ∀ t : Fin grid7.N, atFinish (grid7.coords t) → cfg7.idle 11 (grid7.coords t) = false)

/-! ## What each situation leaves: the stored pieces read back -/

/-- The result block's placeholder at the points where nothing is stored into it (never consulted: the window rests
    there and is not written back). -/
def restOut : Vec F S512x512 .f32 := vOut.read (Elt F) (vOut.writes (Elt F) vOut.junk [])

/-- After a START point: (the resting result block, the first sum, the second sum). -/
def startTriple (c : Dev nD) (t : Fin cfg7.N) (hs : atStart (grid7.coords t)) (hf : ¬atFinish (grid7.coords t)) : Vec F S512x512 .f32 × Vec F S512x512 .f32 × Vec F S512x512 .f32 :=
  (restOut,
   vS0.read (Elt F) (vS0.writes (Elt F) vS0.junk (runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1),
   vS1.read (Elt F) (vS1.writes (Elt F) vS1.junk (runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1))

/-- After a MIDDLE point, from the sums `s0`, `s1` the point before left. -/
def middleTriple (c : Dev nD) (t : Fin cfg7.N) (hs : ¬atStart (grid7.coords t)) (hf : ¬atFinish (grid7.coords t)) (s0 s1 : Vec F S512x512 .f32) : Vec F S512x512 .f32 × Vec F S512x512 .f32 × Vec F S512x512 .f32 :=
  (restOut,
   vS0.read (Elt F) (vS0.writes (Elt F) vS0.junk (runMiddle c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS1.read (Elt F) (vS1.writes (Elt F) vS1.junk (runMiddle c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1))

/-- After a FINISH point, from the sums `s0`, `s1` the point before left: (the new node state, the finished sums). -/
def finishTriple (c : Dev nD) (t : Fin cfg7.N) (hs : ¬atStart (grid7.coords t)) (hf : atFinish (grid7.coords t)) (s0 s1 : Vec F S512x512 .f32) : Vec F S512x512 .f32 × Vec F S512x512 .f32 × Vec F S512x512 .f32 :=
  (vOut.read (Elt F) (vOut.writes (Elt F) vOut.junk (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS0.read (Elt F) (vS0.writes (Elt F) vS0.junk (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1),
   vS1.read (Elt F) (vS1.writes (Elt F) vS1.junk (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1))

/-! ## The stored pieces cover their buffers -/

theorem start_cover0 (c : Dev nD) (t : Fin cfg7.N) (hs : atStart (grid7.coords t)) (hf : ¬atFinish (grid7.coords t)) (y : S512x512.Idx) :
    ∃ pc ∈ (runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1, y ∈ pc.1.set :=
  View.cover_of_tiledL _ S512x512.size (by sl_kernel_rfl) y
theorem start_cover1 (c : Dev nD) (t : Fin cfg7.N) (hs : atStart (grid7.coords t)) (hf : ¬atFinish (grid7.coords t)) (y : S512x512.Idx) :
    ∃ pc ∈ (runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1, y ∈ pc.1.set :=
  View.cover_of_tiledL _ S512x512.size (by sl_kernel_rfl) y
theorem middle_cover0 (c : Dev nD) (t : Fin cfg7.N) (hs : ¬atStart (grid7.coords t)) (hf : ¬atFinish (grid7.coords t)) (s0 s1 : Vec F S512x512 .f32) (y : S512x512.Idx) :
    ∃ pc ∈ (runMiddle c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem middle_cover1 (c : Dev nD) (t : Fin cfg7.N) (hs : ¬atStart (grid7.coords t)) (hf : ¬atFinish (grid7.coords t)) (s0 s1 : Vec F S512x512 .f32) (y : S512x512.Idx) :
    ∃ pc ∈ (runMiddle c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_coverO (c : Dev nD) (t : Fin cfg7.N) (hs : ¬atStart (grid7.coords t)) (hf : atFinish (grid7.coords t)) (s0 s1 : Vec F S512x512 .f32) (y : S512x512.Idx) :
    ∃ pc ∈ (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem finish_cover0 (c : Dev nD) (t : Fin cfg7.N) (hs : ¬atStart (grid7.coords t)) (hf : atFinish (grid7.coords t)) (s0 s1 : Vec F S512x512 .f32) (y : S512x512.Idx) :
    ∃ pc ∈ (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_cover1 (c : Dev nD) (t : Fin cfg7.N) (hs : ¬atStart (grid7.coords t)) (hf : atFinish (grid7.coords t)) (s0 s1 : Vec F S512x512 .f32) (y : S512x512.Idx) :
    ∃ pc ∈ (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1, y ∈ pc.1.set :=
  View.cover_of_tiledL _ S512x512.size (by sl_kernel_rfl) y

/-! ## The accumulation over the grid -/

/-- After the point at position `n`: (the result block's buffer, the first running sum, the second). -/
def sums (c : Dev nD) : (n : ℕ) → n < cfg7.N → Vec F S512x512 .f32 × Vec F S512x512 .f32 × Vec F S512x512 .f32
  | 0, hn => startTriple V c ⟨0, hn⟩ ((atStart_iff ⟨0, hn⟩).mpr (Nat.zero_mod _))
      (fun h => (fun h => by (try dsimp only at h); omega) ((atFinish_iff ⟨0, hn⟩).mp h))
  | n + 1, hn =>
    if h0 : (n + 1) % 8 = 0 then
      if h7 : (n + 1) % 8 = 7 then False.elim (by omega)
      else startTriple V c ⟨n + 1, hn⟩ ((atStart_iff ⟨n + 1, hn⟩).mpr h0) (fun h => h7 ((atFinish_iff ⟨n + 1, hn⟩).mp h))
    else
      if h7 : (n + 1) % 8 = 7 then
        finishTriple V c ⟨n + 1, hn⟩ (fun h => h0 ((atStart_iff ⟨n + 1, hn⟩).mp h)) ((atFinish_iff ⟨n + 1, hn⟩).mpr h7)
          (sums c n (Nat.lt_of_succ_lt hn)).2.1 (sums c n (Nat.lt_of_succ_lt hn)).2.2
      else
        middleTriple V c ⟨n + 1, hn⟩ (fun h => h0 ((atStart_iff ⟨n + 1, hn⟩).mp h)) (fun h => h7 ((atFinish_iff ⟨n + 1, hn⟩).mp h))
          (sums c n (Nat.lt_of_succ_lt hn)).2.1 (sums c n (Nat.lt_of_succ_lt hn)).2.2

theorem sums_start (c : Dev nD) (t : Fin cfg7.N) (h0 : t.val % 8 = 0) (h7 : ¬t.val % 8 = 7) :
    sums V c t.val t.isLt = startTriple V c t ((atStart_iff t).mpr h0) (fun h => h7 ((atFinish_iff t).mp h)) := by
  obtain ⟨n, hn⟩ := t
  cases n with
  | zero => exact rfl
  | succ n => exact (dif_pos h0).trans ((dif_neg h7).trans rfl)

theorem sums_middle (c : Dev nD) (t : Fin cfg7.N) (h0 : ¬t.val % 8 = 0) (h7 : ¬t.val % 8 = 7) :
    sums V c t.val t.isLt = middleTriple V c t (fun h => h0 ((atStart_iff t).mp h)) (fun h => h7 ((atFinish_iff t).mp h))
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h7).trans rfl)

theorem sums_finish (c : Dev nD) (t : Fin cfg7.N) (h0 : ¬t.val % 8 = 0) (h7 : t.val % 8 = 7) :
    sums V c t.val t.isLt = finishTriple V c t (fun h => h0 ((atStart_iff t).mp h)) ((atFinish_iff t).mpr h7)
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- The other scoped buffers of the core, unopened. -/
abbrev others (c : Dev nD) : sProp 𝕄 :=
  Pipeline.scopedRestBut (Ix := Unit) (Name := ℕ) (U := UR sig nD τ) (Lvl := ℕ) (Val := Elt F) spec7 c [cc7_scratch0, cc7_scratch1]

/-- Before the point at position `n`: at the first point every scratch buffer at anything; afterwards the two running
    sums at what the point before left, the other scoped buffers and the generator register untouched. -/
def carried (c : Dev nD) : (n : ℕ) → n ≤ cfg7.N → sProp 𝕄
  | 0, _ => Pipeline.ΦA spec7 c
  | n + 1, hn => iprop(iprop(iprop(owns (c : Thread nD τ) sc0 fullShare (sums V c n hn).2.1 ∗ owns (c : Thread nD τ) sc1 fullShare (sums V c n hn).2.2)
      ∗ others c) ∗ (∃ r, prngReg c r))

theorem carried_zero (c : Dev nD) (n : ℕ) (h : n ≤ cfg7.N) (hz : n = 0) : carried V c n h = Pipeline.ΦA spec7 c := by
  subst hz; rfl

theorem carried_succ (c : Dev nD) (n : ℕ) (hn : n < cfg7.N) :
    carried V c (n + 1) hn = iprop(iprop(iprop(owns (c : Thread nD τ) sc0 fullShare (sums V c n hn).2.1 ∗ owns (c : Thread nD τ) sc1 fullShare (sums V c n hn).2.2)
      ∗ others c) ∗ (∃ r, prngReg c r)) := rfl

theorem carried_pos (c : Dev nD) (n : ℕ) (h : n ≤ cfg7.N) (hz : n ≠ 0) :
    carried V c n h = iprop(iprop(iprop(owns (c : Thread nD τ) sc0 fullShare (sums V c (n - 1) (by omega)).2.1
      ∗ owns (c : Thread nD τ) sc1 fullShare (sums V c (n - 1) (by omega)).2.2) ∗ others c) ∗ (∃ r, prngReg c r)) := by
  cases n with
  | zero => exact absurd rfl hz
  | succ n => rfl

/-- The invariant handed in at the first point, with the two scratch buffers named. -/
theorem entry_eq (c : Dev nD) :
    (Pipeline.ΦA spec7 c : sProp 𝕄)
      = iprop(iprop(iprop((∃ d, owns (c : Thread nD τ) sc0 fullShare d) ∗ (∃ d, owns (c : Thread nD τ) sc1 fullShare d)) ∗ others c) ∗ (∃ r, prngReg c r)) := by
  unfold Pipeline.ΦA; rw [scopedRest7_split]; simp only [sc0, sc1, owns_whole]; try rfl

/-! ## The proof data -/

theorem before0_of {c : Dev nD} (dat : Dat τ (Elt F) Unit ℕ (UR sig nD τ) ℕ cfg7 c) (hA : dat.A 0 = V c (Pipeline.arrRef spec7 0))
    (hafter : ∀ t, dat.after 0 t = blk V c 0 t) (t : Fin cfg7.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg7 c) (hA : dat.A 1 = V c (Pipeline.arrRef spec7 1))
    (hafter : ∀ t, dat.after 1 t = blk V c 1 t) (t : Fin cfg7.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg7 c) (hA : dat.A 2 = V c (Pipeline.arrRef spec7 2))
    (hafter : ∀ t, dat.after 2 t = blk V c 2 t) (t : Fin cfg7.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg7 c) (hA : dat.A 3 = V c (Pipeline.arrRef spec7 3))
    (hafter : ∀ t, dat.after 3 t = blk V c 3 t) (t : Fin cfg7.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg7 c) (hA : dat.A 4 = V c (Pipeline.arrRef spec7 4))
    (hafter : ∀ t, dat.after 4 t = blk V c 4 t) (t : Fin cfg7.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before5_of {c : Dev nD} (dat : Dat τ (Elt F) Unit ℕ (UR sig nD τ) ℕ cfg7 c) (hA : dat.A 5 = V c (Pipeline.arrRef spec7 5))
    (hafter : ∀ t, dat.after 5 t = blk V c 5 t) (t : Fin cfg7.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before6_of {c : Dev nD} (dat : Dat τ (Elt F) Unit ℕ (UR sig nD τ) ℕ cfg7 c) (hA : dat.A 6 = V c (Pipeline.arrRef spec7 6))
    (hafter : ∀ t, dat.after 6 t = blk V c 6 t) (t : Fin cfg7.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before7_of {c : Dev nD} (dat : Dat τ (Elt F) Unit ℕ (UR sig nD τ) ℕ cfg7 c) (hA : dat.A 7 = V c (Pipeline.arrRef spec7 7))
    (hafter : ∀ t, dat.after 7 t = blk V c 7 t) (t : Fin cfg7.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
theorem before8_of {c : Dev nD} (dat : Dat τ (Elt F) Unit ℕ (UR sig nD τ) ℕ cfg7 c) (hA : dat.A 8 = V c (Pipeline.arrRef spec7 8))
    (hafter : ∀ t, dat.after 8 t = blk V c 8 t) (t : Fin cfg7.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
theorem before9_of {c : Dev nD} (dat : Dat τ (Elt F) Unit ℕ (UR sig nD τ) ℕ cfg7 c) (hA : dat.A 9 = V c (Pipeline.arrRef spec7 9))
    (hafter : ∀ t, dat.after 9 t = blk V c 9 t) (t : Fin cfg7.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
theorem before10_of {c : Dev nD} (dat : Dat τ (Elt F) Unit ℕ (UR sig nD τ) ℕ cfg7 c) (hA : dat.A 10 = V c (Pipeline.arrRef spec7 10))
    (hafter : ∀ t, dat.after 10 t = blk V c 10 t) (t : Fin cfg7.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`. The adjacency array is read through two windows (a block and the
    mirrored block): each holds half of the read permission. -/
def dat (c : Dev nD) : Dat τ (Elt F) Unit ℕ (UR sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (sums V c t.val t.isLt).1
  Φ t := carried V c t.val (Nat.le_of_lt_succ t.isLt)
  q w := match w with
    | ⟨0, _⟩ => fullShare.left
    | ⟨1, _⟩ => fullShare.right
    | _ => fullShare
  owed _ := 0

theorem dat_A (c : Dev nD) (w : Fin cfg7.W) : (dat V c).A w = V c (Pipeline.arrRef spec7 w) := by
  dsimp only [dat]

theorem carried_castSucc (c : Dev nD) (t : Fin cfg7.N) :
    (dat V c).Φ t.castSucc = carried V c t.val (Nat.le_of_lt t.isLt) := by
  dsimp only [dat]; simp only [Fin.coe_castSucc]

theorem after0 (c : Dev nD) (t : Fin cfg7.N) : (dat V c).after 0 t = blk V c 0 t := by dsimp only [dat]
theorem after1 (c : Dev nD) (t : Fin cfg7.N) : (dat V c).after 1 t = blk V c 1 t := by dsimp only [dat]
theorem after2 (c : Dev nD) (t : Fin cfg7.N) : (dat V c).after 2 t = blk V c 2 t := by dsimp only [dat]
theorem after3 (c : Dev nD) (t : Fin cfg7.N) : (dat V c).after 3 t = blk V c 3 t := by dsimp only [dat]
theorem after4 (c : Dev nD) (t : Fin cfg7.N) : (dat V c).after 4 t = blk V c 4 t := by dsimp only [dat]
theorem after5 (c : Dev nD) (t : Fin cfg7.N) : (dat V c).after 5 t = blk V c 5 t := by dsimp only [dat]
theorem after6 (c : Dev nD) (t : Fin cfg7.N) : (dat V c).after 6 t = blk V c 6 t := by dsimp only [dat]
theorem after7 (c : Dev nD) (t : Fin cfg7.N) : (dat V c).after 7 t = blk V c 7 t := by dsimp only [dat]
theorem after8 (c : Dev nD) (t : Fin cfg7.N) : (dat V c).after 8 t = blk V c 8 t := by dsimp only [dat]
theorem after9 (c : Dev nD) (t : Fin cfg7.N) : (dat V c).after 9 t = blk V c 9 t := by dsimp only [dat]
theorem after10 (c : Dev nD) (t : Fin cfg7.N) : (dat V c).after 10 t = blk V c 10 t := by dsimp only [dat]
theorem after11 (c : Dev nD) (t : Fin cfg7.N) : (dat V c).after 11 t = (sums V c t.val t.isLt).1 := by dsimp only [dat]

theorem before0 (c : Dev nD) (t : Fin cfg7.N) (d) : (dat V c).before 0 t d = blk V c 0 t :=
  before0_of V (dat V c) (dat_A V c 0) (after0 V c) t d
theorem before1 (c : Dev nD) (t : Fin cfg7.N) (d) : (dat V c).before 1 t d = blk V c 1 t :=
  before1_of V (dat V c) (dat_A V c 1) (after1 V c) t d
theorem before2 (c : Dev nD) (t : Fin cfg7.N) (d) : (dat V c).before 2 t d = blk V c 2 t :=
  before2_of V (dat V c) (dat_A V c 2) (after2 V c) t d
theorem before3 (c : Dev nD) (t : Fin cfg7.N) (d) : (dat V c).before 3 t d = blk V c 3 t :=
  before3_of V (dat V c) (dat_A V c 3) (after3 V c) t d
theorem before4 (c : Dev nD) (t : Fin cfg7.N) (d) : (dat V c).before 4 t d = blk V c 4 t :=
  before4_of V (dat V c) (dat_A V c 4) (after4 V c) t d
theorem before5 (c : Dev nD) (t : Fin cfg7.N) (d) : (dat V c).before 5 t d = blk V c 5 t :=
  before5_of V (dat V c) (dat_A V c 5) (after5 V c) t d
theorem before6 (c : Dev nD) (t : Fin cfg7.N) (d) : (dat V c).before 6 t d = blk V c 6 t :=
  before6_of V (dat V c) (dat_A V c 6) (after6 V c) t d
theorem before7 (c : Dev nD) (t : Fin cfg7.N) (d) : (dat V c).before 7 t d = blk V c 7 t :=
  before7_of V (dat V c) (dat_A V c 7) (after7 V c) t d
theorem before8 (c : Dev nD) (t : Fin cfg7.N) (d) : (dat V c).before 8 t d = blk V c 8 t :=
  before8_of V (dat V c) (dat_A V c 8) (after8 V c) t d
theorem before9 (c : Dev nD) (t : Fin cfg7.N) (d) : (dat V c).before 9 t d = blk V c 9 t :=
  before9_of V (dat V c) (dat_A V c 9) (after9 V c) t d
theorem before10 (c : Dev nD) (t : Fin cfg7.N) (d) : (dat V c).before 10 t d = blk V c 10 t :=
  before10_of V (dat V c) (dat_A V c 10) (after10 V c) t d

theorem leaves0 (c : Dev nD) (t : Fin cfg7.N) :
    (dat V c).leavesExact 0 t = owns (c : Thread nD τ) (mw0 t) fullShare (blk V c 0 t) := by
  unfold Dat.leavesExact; rw [show cfg7.idle 0 (cfg7.grid.coords t) = false from rfl, after0]; try rfl
theorem leaves1 (c : Dev nD) (t : Fin cfg7.N) :
    (dat V c).leavesExact 1 t = owns (c : Thread nD τ) (mw1 t) fullShare (blk V c 1 t) := by
  unfold Dat.leavesExact; rw [show cfg7.idle 1 (cfg7.grid.coords t) = false from rfl, after1]; try rfl
theorem leaves2 (c : Dev nD) (t : Fin cfg7.N) :
    (dat V c).leavesExact 2 t = owns (c : Thread nD τ) (mw2 t) fullShare (blk V c 2 t) := by
  unfold Dat.leavesExact; rw [show cfg7.idle 2 (cfg7.grid.coords t) = false from rfl, after2]; try rfl
theorem leaves3 (c : Dev nD) (t : Fin cfg7.N) :
    (dat V c).leavesExact 3 t = owns (c : Thread nD τ) (mw3 t) fullShare (blk V c 3 t) := by
  unfold Dat.leavesExact; rw [show cfg7.idle 3 (cfg7.grid.coords t) = false from rfl, after3]; try rfl
theorem leaves4 (c : Dev nD) (t : Fin cfg7.N) :
    (dat V c).leavesExact 4 t = owns (c : Thread nD τ) (mw4 t) fullShare (blk V c 4 t) := by
  unfold Dat.leavesExact; rw [show cfg7.idle 4 (cfg7.grid.coords t) = false from rfl, after4]; try rfl
theorem leaves5 (c : Dev nD) (t : Fin cfg7.N) :
    (dat V c).leavesExact 5 t = owns (c : Thread nD τ) (mw5 t) fullShare (blk V c 5 t) := by
  unfold Dat.leavesExact; rw [show cfg7.idle 5 (cfg7.grid.coords t) = false from rfl, after5]; try rfl
theorem leaves6 (c : Dev nD) (t : Fin cfg7.N) :
    (dat V c).leavesExact 6 t = owns (c : Thread nD τ) (mw6 t) fullShare (blk V c 6 t) := by
  unfold Dat.leavesExact; rw [show cfg7.idle 6 (cfg7.grid.coords t) = false from rfl, after6]; try rfl
theorem leaves7 (c : Dev nD) (t : Fin cfg7.N) :
    (dat V c).leavesExact 7 t = owns (c : Thread nD τ) (mw7 t) fullShare (blk V c 7 t) := by
  unfold Dat.leavesExact; rw [show cfg7.idle 7 (cfg7.grid.coords t) = false from rfl, after7]; try rfl
theorem leaves8 (c : Dev nD) (t : Fin cfg7.N) :
    (dat V c).leavesExact 8 t = owns (c : Thread nD τ) (mw8 t) fullShare (blk V c 8 t) := by
  unfold Dat.leavesExact; rw [show cfg7.idle 8 (cfg7.grid.coords t) = false from rfl, after8]; try rfl
theorem leaves9 (c : Dev nD) (t : Fin cfg7.N) :
    (dat V c).leavesExact 9 t = owns (c : Thread nD τ) (mw9 t) fullShare (blk V c 9 t) := by
  unfold Dat.leavesExact; rw [show cfg7.idle 9 (cfg7.grid.coords t) = false from rfl, after9]; try rfl
theorem leaves10 (c : Dev nD) (t : Fin cfg7.N) :
    (dat V c).leavesExact 10 t = owns (c : Thread nD τ) (mw10 t) fullShare (blk V c 10 t) := by
  unfold Dat.leavesExact; rw [show cfg7.idle 10 (cfg7.grid.coords t) = false from rfl, after10]; try rfl

/-! ## The body obligation -/

def bodyPre (c : Dev nD) (t : Fin cfg7.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d))
    ∗ (∃ d, owns (c : Thread nD τ) (mw5 t) fullShare ((dat V c).before 5 t d))
    ∗ (∃ d, owns (c : Thread nD τ) (mw6 t) fullShare ((dat V c).before 6 t d))
    ∗ (∃ d, owns (c : Thread nD τ) (mw7 t) fullShare ((dat V c).before 7 t d))
    ∗ (∃ d, owns (c : Thread nD τ) (mw8 t) fullShare ((dat V c).before 8 t d))
    ∗ (∃ d, owns (c : Thread nD τ) (mw9 t) fullShare ((dat V c).before 9 t d))
    ∗ (∃ d, owns (c : Thread nD τ) (mw10 t) fullShare ((dat V c).before 10 t d))
    ∗ (∃ d, owns (c : Thread nD τ) (mw11 t) fullShare ((dat V c).before 11 t d)))

def bodyPost (c : Dev nD) (t : Fin cfg7.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

end Cert.Kernel.Gated7

end
-- ==== Proof.BitsGated7Body.lean ====
/-
  Region 7 of the program, concluded: the body obligation at every grid point — the point's position decides
  which of the three situations applies, the invariant hands the body the two running sums (at anything at the very
  first point, at what the point before left afterwards) and takes them back at this point's contents — and how
  the invariant is entered and left.
-/
import proofs.«121501_j55087250538634_2_alg».proof.Proof.BitsGated7

set_option maxRecDepth 16384

noncomputable section

namespace Cert.Kernel.Gated7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before0, before1, before2, before3, before4, before5, before6, before7, before8, before9, before10]
  rw [show (dat V c).owesAt () t.succ = (dat V c).owesAt () t.castSucc from rfl]
  rw [show (dat V c).Φ t.succ = carried V c (t.val + 1) t.isLt from rfl, carried_succ]
  rw [leaves0, leaves1, leaves2, leaves3, leaves4, leaves5, leaves6, leaves7, leaves8, leaves9, leaves10]
  have hN : t.val < 64 := lt_of_lt_of_eq t.isLt (show cfg7.N = 64 from N_7)
  by_cases h0 : t.val % 8 = 0
  · by_cases h7 : t.val % 8 = 7
    · exfalso; omega
    · rw [Dat.leavesExact_idle (dat V c) 11 t (out_idle t (fun h => h7 ((atFinish_iff t).mp h))) (out_noFlush t (fun h => h7 ((atFinish_iff t).mp h)))]
      rw [sums_start V c t h0 h7]
      unfold startTriple; (try dsimp only)
      by_cases hz : t.val = 0
      · rw [carried_castSucc V c t, carried_zero V c _ _ hz, entry_eq]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [carried_castSucc V c t, carried_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun h => h0 (by rw [h])
    by_cases h7 : t.val % 8 = 7
    · rw [show (dat V c).leavesExact 11 t = owns (c : Thread nD τ) (mw11 t) fullShare ((dat V c).after 11 t) from by
        unfold Dat.leavesExact; rw [out_live t ((atFinish_iff t).mpr h7)], after11]
      rw [sums_finish V c t h0 h7]
      unfold finishTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) ((atFinish_iff t).mpr h7) (blk V c 0 t) (blk V c 1 t) (blk V c 2 t) (blk V c 3 t) (blk V c 4 t) (blk V c 5 t) (blk V c 6 t) (blk V c 7 t) (blk V c 8 t) (blk V c 9 t) (blk V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (finish_cover0 V c t _ _ _ _)
            unfold owns; iexists _; isplitr
            swap; · iexact HS1
            ipureintro; exact View.read_writes_of_cover _ _ _ _ _ (finish_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (finish_coverO V c t _ _ _ _)
    · rw [Dat.leavesExact_idle (dat V c) 11 t (out_idle t (fun h => h7 ((atFinish_iff t).mp h))) (out_noFlush t (fun h => h7 ((atFinish_iff t).mp h)))]
      rw [sums_middle V c t h0 h7]
      unfold middleTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (middle_cover0 V c t _ _ _ _)
            unfold owns; iexists _; isplitr
            swap; · iexact HS1
            ipureintro; exact View.read_writes_of_cover _ _ _ _ _ (middle_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation of the region, at every point. -/
theorem body_obligation (c : Dev nD) : BodyObligation (dat (F := F) V c) (defs₀ (F := F)) Variants.none () Set.univ := fun t => by
  rw [bigSep_W7, bigSep_W7]
  exact sound_body V c t

/-- What the launch hands the region is the invariant before the first point. -/
theorem enter (c : Dev nD) : Pipeline.ΦA spec7 c ⊢ (dat V c).Φ 0 := by
  rw [show (dat V c).Φ 0 = carried V c 0 (Nat.zero_le _) from rfl, carried_zero V c 0 _ rfl]
  try exact Idealize.SL.BI.Entails.refl _

/-- After the last point the invariant gives the scoped buffers back: the sums' contents are forgotten. -/
theorem leave (c : Dev nD) : (dat V c).Φ (Fin.last cfg7.N) ⊢ Pipeline.ΦA spec7 c := by
  have hne : (Fin.last cfg7.N).val ≠ 0 := by rw [Fin.val_last]; have : cfg7.N = 64 := N_7; omega
  rw [show (dat V c).Φ (Fin.last cfg7.N) = carried V c (Fin.last cfg7.N).val (Nat.le_of_lt_succ (Fin.last cfg7.N).isLt) from rfl,
    carried_pos V c _ _ hne, entry_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Cert.Kernel.Gated7

end
-- ==== Proof.BitsGated7Arrays.lean ====
/-
  Region 7 of the program: its windows' arrays against the buffers behind them. The adjacency array is read
  through two windows; the read permission on its buffer is cut in two halves, one per window, when the region
  is entered, and the halves are joined again when it is left. Every other array has a buffer of its own.
-/
import proofs.«121501_j55087250538634_2_alg».proof.Proof.BitsGated7

set_option maxRecDepth 16384

noncomputable section

namespace Cert.Kernel.Gated7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows. -/
abbrev bufs : List (Ref sig .tc) := [main_v1, main_v29_0, main_v29_1, main_v28, main_v7, main_v18, main_v9, main_v19, main_v11, main_v20, main_v30]

theorem bufs_eq : Finset.univ.image (Pipeline.arrRef spec7) = bufs.toFinset := by decide

/-- A conjunction over those buffers, one by one. -/
theorem bufs_chain (Φ : Ref sig .tc → sProp 𝕄) :
    bigSep (Finset.univ.image (Pipeline.arrRef spec7)) Φ = iprop(Φ main_v1 ∗ Φ main_v29_0 ∗ Φ main_v29_1 ∗ Φ main_v28 ∗ Φ main_v7 ∗ Φ main_v18 ∗ Φ main_v9 ∗ Φ main_v19 ∗ Φ main_v11 ∗ Φ main_v20 ∗ Φ main_v30) :=
  bigSep_eq_bigSepL_of_eq bufs bufs_eq (by decide) Φ

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl
theorem share11 (c : Dev nD) : (dat V c).share 11 = fullShare := rfl

/-- ENTRY: the buffers whole at contents `G` make the windows' arrays at `G`, the adjacency buffer's permission halved. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec7 c G : sProp 𝕄)
      ⊢ (dat V c).arrays (fun w => G (Pipeline.arrRef spec7 w)) := by
  unfold Pipeline.arrBufs Dat.arrays
  rw [bufs_chain, bigSep_W7]
  simp only [share0, share1, share2, share3, share4, share5, share6, share7, share8, share9, share10, share11, View.set_whole]
  iintro ⟨HA, H2, H3, H4, H5, H6, H7, H8, H9, H10, H11⟩
  ihave HA' := (pointsTo_share (PosShare.mem_left_op_right fullShare)).1 $$ HA
  icases HA' with ⟨HA0, HA1⟩
  isplitl [HA0]; · iexact HA0
  isplitl [HA1]; · iexact HA1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `G`, the two halves of the adjacency buffer's permission joined, are the
    buffers whole at `G`. -/
theorem bufs_of_arrays (c : Dev nD) (G : (b : Ref sig .tc) → Buf (Elt F) ((c : Thread nD τ).loc b)) :
    (dat V c).arrays (fun w => G (Pipeline.arrRef spec7 w))
      ⊢ (Pipeline.arrBufs (Ix := Unit) (Name := ℕ) (U := UR sig nD τ) (Lvl := ℕ) spec7 c G : sProp 𝕄) := by
  unfold Pipeline.arrBufs Dat.arrays
  rw [bufs_chain, bigSep_W7]
  simp only [share0, share1, share2, share3, share4, share5, share6, share7, share8, share9, share10, share11, View.set_whole]
  iintro ⟨HA0, HA1, H2, H3, H4, H5, H6, H7, H8, H9, H10, H11⟩
  ihave HA := (pointsTo_share (PosShare.mem_left_op_right fullShare)).2 $$ [HA0 HA1]
  · isplitl [HA0]; · iexact HA0
    iexact HA1
  isplitl [HA]; · iexact HA
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY, from all the core's unscoped buffers: the windows' arrays and the buffers that are no window's array. -/
theorem enter_arrays (c : Dev nD) (G : (b : Ref sig .tc) → Buf (Elt F) ((c : Thread nD τ).loc b)) :
    (unscopedBufs c G : sProp 𝕄)
      ⊢ iprop((dat V c).arrays (fun w => G (Pipeline.arrRef spec7 w))
          ∗ Pipeline.unscopedRest (Ix := Unit) (Name := ℕ) (U := UR sig nD τ) (Lvl := ℕ) spec7 c G) := by
  rw [Pipeline.unscopedBufs_split₀ cfgs 7 winFacts₀7.arr_unscoped c G]
  exact BIClass.sep_mono (arrays_of_bufs V c G) .rfl

/-- EXIT, back to all the core's unscoped buffers at contents `G'` that agree with the arrays' final contents on the
    arrays and with the entry contents `G` elsewhere. -/
theorem leave_arrays (c : Dev nD) (G G' : (b : Ref sig .tc) → Buf (Elt F) ((c : Thread nD τ).loc b))
    (Fa : (w : Fin cfg7.W) → Buf (Elt F) ((cfg7.win w).arr.view.loc (c : Thread nD τ)))
    (hF : ∀ w, Fa w = G' (Pipeline.arrRef spec7 w))
    (hrest : ∀ b, b ∉ Finset.univ.image (Pipeline.arrRef spec7) → G' b = G b) :
    iprop((dat V c).arrays Fa ∗ Pipeline.unscopedRest (Ix := Unit) (Name := ℕ) (U := UR sig nD τ) (Lvl := ℕ) spec7 c G)
      ⊢ (unscopedBufs c G' : sProp 𝕄) := by
  rw [Pipeline.unscopedBufs_split₀ cfgs 7 winFacts₀7.arr_unscoped c G', show Fa = fun w => G' (Pipeline.arrRef spec7 w) from funext hF]
  refine BIClass.sep_mono (bufs_of_arrays V c G') ?_
  unfold Pipeline.unscopedRest
  exact Entails.of_eq (bigSep_congr fun b hb => by rw [hrest b (Finset.mem_sdiff.mp hb).2])

end Cert.Kernel.Gated7

end
-- ==== Proof.BitsMessages8.lean ====
/-
  Region 8 of the program: the two edge messages of one GGNN step. For a block of 1024 rows of the node state
  `x` (window 0), the kernel forms  s_in = x · W_in + b_in  (windows 1, 2 -> window 5) and
  s_out = x · W_out + b_out  (windows 3, 4 -> window 6): each a 1024x512 by 512x512 product into the zero
  accumulator plus a bias row broadcast down the rows. The weights and biases are the same block at every point
  (constant index maps); the state block and the two result blocks move with the point.
  Here: what each result buffer holds after the body as a function of the five input blocks, the body's run on
  whole staging buffers, the region's proof data over entry contents `V`, and the body obligation at every point.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Messages8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the two result buffers -/

/-- The incoming-edge message block: the state block times `W_in` plus the bias row, as one stored piece. -/
def sIn (x : Vec F S1024x512 .f32) (w : Vec F S512x512 .bf16) (b : Vec F S1x512 .f32) : Vec F S1024x512 .bf16 :=
  View.canon [⟨rRows, k8_pay2 (View.ld x rRows) (View.ld w rWeight) (View.ld b rBias)⟩]

/-- The outgoing-edge message block: the state block times `W_out` plus the bias row. -/
def sOut (x : Vec F S1024x512 .f32) (w : Vec F S512x512 .bf16) (b : Vec F S1x512 .f32) : Vec F S1024x512 .bf16 :=
  View.canon [⟨rRows, k8_pay3 (View.ld x rRows) (View.ld w rWeight) (View.ld b rBias)⟩]

/-- One store through the whole-buffer rectangle covers the buffer. -/
theorem covers (p : Vec F S1024x512 .bf16) (y : S1024x512.Idx) :
    ∃ pc ∈ ([⟨rRows, p⟩] : List (View.Piece (Elt F) S1024x512 .bf16)), y ∈ pc.1.set :=
  View.cover_of_tiled [⟨rRows, p⟩] S1024x512.size (by rfl) y

/-! ## The body's run -/

set_option maxHeartbeats 1000000 in
/-- On whole staging buffers, the five inputs at contents `x, wi, bi, wo, bo` and the two results at anything, the
    body runs to its end with the inputs as they were and the results at `sIn`, `sOut` of the inputs. -/
theorem body_runs (i : grid8.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .bf16) (h6 : a6.IsWhole)
    (a7 : Memref sig .tc .vmem S1024x512 .bf16) (h7 : a7.IsWhole)
    (x : Vec F S1024x512 .f32) (wi : Vec F S512x512 .bf16) (bi : Vec F S1x512 .f32) (wo : Vec F S512x512 .bf16) (bo : Vec F S1x512 .f32)
    (K : PUnit → sProp 𝕄) :
    iprop(owns (c : Thread nD τ) a1 fullShare x ∗ owns (c : Thread nD τ) a2 fullShare wi ∗ owns (c : Thread nD τ) a3 fullShare bi
        ∗ owns (c : Thread nD τ) a4 fullShare wo ∗ owns (c : Thread nD τ) a5 fullShare bo
        ∗ (∃ d, owns (c : Thread nD τ) a6 fullShare d) ∗ (∃ d, owns (c : Thread nD τ) a7 fullShare d)
        ∗ (iprop(owns (c : Thread nD τ) a1 fullShare x ∗ owns (c : Thread nD τ) a2 fullShare wi ∗ owns (c : Thread nD τ) a3 fullShare bi
            ∗ owns (c : Thread nD τ) a4 fullShare wo ∗ owns (c : Thread nD τ) a5 fullShare bo
            ∗ owns (c : Thread nD τ) a6 fullShare (sIn x wi bi) ∗ owns (c : Thread nD τ) a7 fullShare (sOut x wo bo)) -∗ K ⟨⟩))
      ⊢ wp frame (wpE (defs₀ (F := F)) Variants.none c none) E (cc8__sinout_kernel i a1 h1 a2 h2 a3 h3 a4 h4 a5 h5 a6 h6 a7 h7) K := by
  simp only [cc8__sinout_kernel_eq_skeleton]; unfold cc8__sinout_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  iexists _; isplitr
  swap; · iexact H7
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg8 c) (hA : dat.A 0 = V c (Pipeline.arrRef spec8 0))
    (hafter : ∀ t, dat.after 0 t = blk V c 0 t) (t : Fin cfg8.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg8 c) (hA : dat.A 1 = V c (Pipeline.arrRef spec8 1))
    (hafter : ∀ t, dat.after 1 t = blk V c 1 t) (t : Fin cfg8.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg8 c) (hA : dat.A 2 = V c (Pipeline.arrRef spec8 2))
    (hafter : ∀ t, dat.after 2 t = blk V c 2 t) (t : Fin cfg8.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg8 c) (hA : dat.A 3 = V c (Pipeline.arrRef spec8 3))
    (hafter : ∀ t, dat.after 3 t = blk V c 3 t) (t : Fin cfg8.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg8 c) (hA : dat.A 4 = V c (Pipeline.arrRef spec8 4))
    (hafter : ∀ t, dat.after 4 t = blk V c 4 t) (t : Fin cfg8.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and each result's at the message block of the input blocks; the invariant is the
    scoped rest and the generator register, untouched; nothing owed; full shares. -/
def dat (c : Dev nD) : Dat τ (Elt F) Unit ℕ (UR sig nD τ) ℕ cfg8 c where
  A w := V c (Pipeline.arrRef spec8 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sIn (blk V c 0 t) (blk V c 1 t) (blk V c 2 t)
    | ⟨6, _⟩ => sOut (blk V c 0 t) (blk V c 3 t) (blk V c 4 t)
  Φ _ := Pipeline.ΦA spec8 c
  q _ := fullShare
  owed _ := 0

theorem dat_A (c : Dev nD) (w : Fin cfg8.W) : (dat V c).A w = V c (Pipeline.arrRef spec8 w) := by
  dsimp only [dat]

theorem after0 (c : Dev nD) (t : Fin cfg8.N) : (dat V c).after 0 t = blk V c 0 t := by dsimp only [dat]
theorem after1 (c : Dev nD) (t : Fin cfg8.N) : (dat V c).after 1 t = blk V c 1 t := by dsimp only [dat]
theorem after2 (c : Dev nD) (t : Fin cfg8.N) : (dat V c).after 2 t = blk V c 2 t := by dsimp only [dat]
theorem after3 (c : Dev nD) (t : Fin cfg8.N) : (dat V c).after 3 t = blk V c 3 t := by dsimp only [dat]
theorem after4 (c : Dev nD) (t : Fin cfg8.N) : (dat V c).after 4 t = blk V c 4 t := by dsimp only [dat]
theorem after5 (c : Dev nD) (t : Fin cfg8.N) : (dat V c).after 5 t = sIn (blk V c 0 t) (blk V c 1 t) (blk V c 2 t) := by dsimp only [dat]
theorem after6 (c : Dev nD) (t : Fin cfg8.N) : (dat V c).after 6 t = sOut (blk V c 0 t) (blk V c 3 t) (blk V c 4 t) := by dsimp only [dat]

theorem before0 (c : Dev nD) (t : Fin cfg8.N) (d) : (dat V c).before 0 t d = blk V c 0 t :=
  before0_of V (dat V c) (dat_A V c 0) (after0 V c) t d
theorem before1 (c : Dev nD) (t : Fin cfg8.N) (d) : (dat V c).before 1 t d = blk V c 1 t :=
  before1_of V (dat V c) (dat_A V c 1) (after1 V c) t d
theorem before2 (c : Dev nD) (t : Fin cfg8.N) (d) : (dat V c).before 2 t d = blk V c 2 t :=
  before2_of V (dat V c) (dat_A V c 2) (after2 V c) t d
theorem before3 (c : Dev nD) (t : Fin cfg8.N) (d) : (dat V c).before 3 t d = blk V c 3 t :=
  before3_of V (dat V c) (dat_A V c 3) (after3 V c) t d
theorem before4 (c : Dev nD) (t : Fin cfg8.N) (d) : (dat V c).before 4 t d = blk V c 4 t :=
  before4_of V (dat V c) (dat_A V c 4) (after4 V c) t d

/-! ## The body obligation -/

/-- What the body is called with at point `t`: the invariant, the core's dues, and each window's current staging buffer
    at what the pipeline put there. -/
def bodyPre (c : Dev nD) (t : Fin cfg8.N) : sProp 𝕄 :=
  iprop((dat V c).Φ t.castSucc ∗ (dat V c).owesAt () t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d))
    ∗ (∃ d, owns (c : Thread nD τ) (st8_3 t) fullShare ((dat V c).before 3 t d))
    ∗ (∃ d, owns (c : Thread nD τ) (st8_4 t) fullShare ((dat V c).before 4 t d))
    ∗ (∃ d, owns (c : Thread nD τ) (st8_5 t) fullShare ((dat V c).before 5 t d))
    ∗ (∃ d, owns (c : Thread nD τ) (st8_6 t) fullShare ((dat V c).before 6 t d)))

/-- What it returns. -/
def bodyPost (c : Dev nD) (t : Fin cfg8.N) : sProp 𝕄 :=
  iprop((dat V c).Φ t.succ ∗ (dat V c).owesAt () t.succ
    ∗ owns (c : Thread nD τ) (st8_0 t) fullShare ((dat V c).after 0 t)
    ∗ owns (c : Thread nD τ) (st8_1 t) fullShare ((dat V c).after 1 t)
    ∗ owns (c : Thread nD τ) (st8_2 t) fullShare ((dat V c).after 2 t)
    ∗ owns (c : Thread nD τ) (st8_3 t) fullShare ((dat V c).after 3 t)
    ∗ owns (c : Thread nD τ) (st8_4 t) fullShare ((dat V c).after 4 t)
    ∗ owns (c : Thread nD τ) (st8_5 t) fullShare ((dat V c).after 5 t)
    ∗ owns (c : Thread nD τ) (st8_6 t) fullShare ((dat V c).after 6 t))

/-- The body at any point: the inputs' buffers hold their blocks, so `body_runs` applies; the invariant and the core's
    dues pass through unread. -/
theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs (grid8.coords t) c Set.univ _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation (c : Dev nD) : BodyObligation (dat (F := F) V c) (defs₀ (F := F)) Variants.none () Set.univ := fun t => by
  rw [bigSep_W8, bigSep_W8]
  exact sound_body V c t

end Cert.Kernel.Messages8

end
-- ==== Proof.BitsGated9Runs.lean ====
/-
  Region 9 of the program: the gated update of one block of 512 nodes, accumulated over the eight blocks of 512
  neighbours. At grid point (m, k) the body adds to two running sums kept in scratch between points,
      acc_in  += A[m-block, k-block] · s_in[k-block]        acc_out += A[k-block, m-block]ᵀ · s_out[k-block],
  after setting both to zero when k = 0; when k = 7 it reads the finished sums, forms the reset and update gates and
  the candidate state from them and the node block's own state, and stores the new state. At the other points the
  result block is left alone.
  Here: the body's run in each of the three situations the grid meets — k = 0 (start), 0 < k < 7 (middle), k = 7
  (finish) — on whole staging buffers; what each stored buffer ends with is given as the list of stored pieces the
  run itself produces.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gated9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- "This is the first neighbour block": the test the body makes before zeroing the running sums. -/
abbrev atStart (i : grid9.Coords) : Prop :=
  (Scalar.cmpi .ne (Scalar.extui (Scalar.cmpi .eq (BitVec.ofNat 32 (i 1).val) 0#32)) 0#32) = 1#1
/-- "This is the last neighbour block": the test the body makes before finishing the node block. -/
abbrev atFinish (i : grid9.Coords) : Prop := k9_cond2 i = 1#1

/-- The first test holds exactly at the points whose position is a multiple of 8 (k = 0). -/
theorem atStart_iff : ∀ t : Fin cfg9.N, atStart (grid9.coords t) ↔ t.val % 8 = 0 :=
  (by decide +kernel : ∀ t : Fin grid9.N, atStart (grid9.coords t) ↔ t.val % 8 = 0)
/-- The second holds exactly at the points whose position is 7 modulo 8 (k = 7). -/
theorem atFinish_iff : ∀ t : Fin cfg9.N, atFinish (grid9.coords t) ↔ t.val % 8 = 7 :=
  (by decide +kernel : ∀ t : Fin grid9.N, atFinish (grid9.coords t) ↔ t.val % 8 = 7)

/-! ## The body's run, situation by situation -/

set_option maxHeartbeats 4000000 in
/-- START (k = 0): the running sums are zeroed and the first products added; the result block `xo` is handed back
    untouched. The scratch buffers may hold anything on entry. -/
noncomputable def runStart (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc9__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc9__ggnn_kernel_eq_skeleton, k9_part1_eq_skeleton]; unfold cc9__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 4000000 in
/-- MIDDLE (0 < k < 7): the products are added to the running sums `s0`, `s1` the point before left; the result
    block `xo` is handed back untouched. -/
noncomputable def runMiddle (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc9__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc9__ggnn_kernel_eq_skeleton, k9_part1_eq_skeleton]; unfold cc9__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 8000000 in
/-- FINISH (k = 7): the last products are added to the running sums `s0`, `s1`, and the new state of the node block
    is computed from the finished sums and stored over whatever the result block held. -/
noncomputable def runFinish (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LO : List (View.Piece (Elt F) S512x512 .f32)) (LS0 : List (View.Piece (Elt F) S512x512 .f32)), { LS1 : List (View.Piece (Elt F) S512x512 .f32) //
      ∀ (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f LO) ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc9__ggnn_kernel i a2 h2 a3 h3 a4 h4 a5 h5 a6 h6 a7 h7 a8 h8 a9 h9 a10 h10 a11 h11 a12 h12 a13 h13 a14 h14 a15 h15) Kont } := by
  refine ⟨?_, ?_, ?_, fun E Kont => ?run⟩
  case run =>
    simp only [cc9__ggnn_kernel_eq_skeleton, k9_part1_eq_skeleton]; unfold cc9__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

end Cert.Kernel.Gated9

end
-- ==== Proof.BitsGated9.lean ====
/-
  Region 9 of the program, continued: what the two running sums and the result block hold after each of the 64 grid
  points, by recursion on the point's position n = 8·m + k — at k = 0 the sums restart from zero, at 0 < k < 7 they
  grow from what the point before left, at k = 7 they are finished and the new node state is stored —; the region's
  invariant, which carries the two sums from one point to the next; the proof data; and the body obligation.
-/
import proofs.«121501_j55087250538634_2_alg».proof.Proof.BitsGated9Runs
import Idealize.ShloMosaic.Lib.Ring

set_option maxRecDepth 16384

noncomputable section

namespace Cert.Kernel.Gated9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg9.W) (t : Fin cfg9.N) :
    ((cfg9.win w).xblock (cfg9.grid.coords t)).Idx → Elt F (cfg9.win w).elt :=
  ((cfg9.win w).blk t).view.read (Elt F) (V c (Pipeline.arrRef spec9 w))

/-! ## The buffers the body runs on at a point -/

abbrev mw0 (t : Fin cfg9.N) := win9_0.stage (cfg9.slots t 0)
abbrev hw0 (t : Fin cfg9.N) : (mw0 t).IsWhole := hstage9_0 ((cfg9.slots t 0).cast nbuf9_0)
abbrev mw1 (t : Fin cfg9.N) := win9_1.stage (cfg9.slots t 1)
abbrev hw1 (t : Fin cfg9.N) : (mw1 t).IsWhole := hstage9_1 ((cfg9.slots t 1).cast nbuf9_1)
abbrev mw2 (t : Fin cfg9.N) := win9_2.stage (cfg9.slots t 2)
abbrev hw2 (t : Fin cfg9.N) : (mw2 t).IsWhole := hstage9_2 ((cfg9.slots t 2).cast nbuf9_2)
abbrev mw3 (t : Fin cfg9.N) := win9_3.stage (cfg9.slots t 3)
abbrev hw3 (t : Fin cfg9.N) : (mw3 t).IsWhole := hstage9_3 ((cfg9.slots t 3).cast nbuf9_3)
abbrev mw4 (t : Fin cfg9.N) := win9_4.stage (cfg9.slots t 4)
abbrev hw4 (t : Fin cfg9.N) : (mw4 t).IsWhole := hstage9_4 ((cfg9.slots t 4).cast nbuf9_4)
abbrev mw5 (t : Fin cfg9.N) := win9_5.stage (cfg9.slots t 5)
abbrev hw5 (t : Fin cfg9.N) : (mw5 t).IsWhole := hstage9_5 ((cfg9.slots t 5).cast nbuf9_5)
abbrev mw6 (t : Fin cfg9.N) := win9_6.stage (cfg9.slots t 6)
abbrev hw6 (t : Fin cfg9.N) : (mw6 t).IsWhole := hstage9_6 ((cfg9.slots t 6).cast nbuf9_6)
abbrev mw7 (t : Fin cfg9.N) := win9_7.stage (cfg9.slots t 7)
abbrev hw7 (t : Fin cfg9.N) : (mw7 t).IsWhole := hstage9_7 ((cfg9.slots t 7).cast nbuf9_7)
abbrev mw8 (t : Fin cfg9.N) := win9_8.stage (cfg9.slots t 8)
abbrev hw8 (t : Fin cfg9.N) : (mw8 t).IsWhole := hstage9_8 ((cfg9.slots t 8).cast nbuf9_8)
abbrev mw9 (t : Fin cfg9.N) := win9_9.stage (cfg9.slots t 9)
abbrev hw9 (t : Fin cfg9.N) : (mw9 t).IsWhole := hstage9_9 ((cfg9.slots t 9).cast nbuf9_9)
abbrev mw10 (t : Fin cfg9.N) := win9_10.stage (cfg9.slots t 10)
abbrev hw10 (t : Fin cfg9.N) : (mw10 t).IsWhole := hstage9_10 ((cfg9.slots t 10).cast nbuf9_10)
abbrev mw11 (t : Fin cfg9.N) := win9_11.stage (cfg9.slots t 11)
abbrev hw11 (t : Fin cfg9.N) : (mw11 t).IsWhole := hstage9_11 ((cfg9.slots t 11).cast nbuf9_11)
/-- The two scratch buffers holding the running sums. -/
abbrev sc0 : Memref sig .tc .vmem S512x512 .f32 := Memref.whole cc9_scratch0
abbrev sc1 : Memref sig .tc .vmem S512x512 .f32 := Memref.whole cc9_scratch1
/-- The views through which stored pieces are read back as contents. -/
abbrev vS0 : View sig .tc .vmem S512x512 .f32 := sc0.view
abbrev vS1 : View sig .tc .vmem S512x512 .f32 := sc1.view
abbrev vOut : View sig .tc .vmem S512x512 .f32 := (Memref.whole cc9_stg11_0 : Memref sig .tc .vmem S512x512 .f32).view

/-! ## Where the result window rests -/

theorem out_idle : ∀ t : Fin cfg9.N, ¬atFinish (grid9.coords t) → cfg9.idle 11 (grid9.coords t) = true :=
  (by decide +kernel : ∀ t : Fin grid9.N, ¬atFinish (grid9.coords t) → cfg9.idle 11 (grid9.coords t) = true)
theorem out_noFlush : ∀ t : Fin cfg9.N, ¬atFinish (grid9.coords t) → (cfg9.win 11).flush t = false :=
  (by decide +kernel : ∀ t : Fin grid9.N, ¬atFinish (grid9.coords t) → win9_11.flush t = false)
theorem out_live : ∀ t : Fin cfg9.N, atFinish (grid9.coords t) → cfg9.idle 11 (grid9.coords t) = false :=
  (by decide +kernel : ∀ t : Fin grid9.N, atFinish (grid9.coords t) → cfg9.idle 11 (grid9.coords t) = false)

/-! ## What each situation leaves: the stored pieces read back -/

/-- The result block's placeholder at the points where nothing is stored into it (never consulted: the window rests
    there and is not written back). -/
def restOut : Vec F S512x512 .f32 := vOut.read (Elt F) (vOut.writes (Elt F) vOut.junk [])

/-- After a START point: (the resting result block, the first sum, the second sum). -/
def startTriple (c : Dev nD) (t : Fin cfg9.N) (hs : atStart (grid9.coords t)) (hf : ¬atFinish (grid9.coords t)) : Vec F S512x512 .f32 × Vec F S512x512 .f32 × Vec F S512x512 .f32 :=
  (restOut,
   vS0.read (Elt F) (vS0.writes (Elt F) vS0.junk (runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1),
   vS1.read (Elt F) (vS1.writes (Elt F) vS1.junk (runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1))

/-- After a MIDDLE point, from the sums `s0`, `s1` the point before left. -/
def middleTriple (c : Dev nD) (t : Fin cfg9.N) (hs : ¬atStart (grid9.coords t)) (hf : ¬atFinish (grid9.coords t)) (s0 s1 : Vec F S512x512 .f32) : Vec F S512x512 .f32 × Vec F S512x512 .f32 × Vec F S512x512 .f32 :=
  (restOut,
   vS0.read (Elt F) (vS0.writes (Elt F) vS0.junk (runMiddle c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS1.read (Elt F) (vS1.writes (Elt F) vS1.junk (runMiddle c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1))

/-- After a FINISH point, from the sums `s0`, `s1` the point before left: (the new node state, the finished sums). -/
def finishTriple (c : Dev nD) (t : Fin cfg9.N) (hs : ¬atStart (grid9.coords t)) (hf : atFinish (grid9.coords t)) (s0 s1 : Vec F S512x512 .f32) : Vec F S512x512 .f32 × Vec F S512x512 .f32 × Vec F S512x512 .f32 :=
  (vOut.read (Elt F) (vOut.writes (Elt F) vOut.junk (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS0.read (Elt F) (vS0.writes (Elt F) vS0.junk (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1),
   vS1.read (Elt F) (vS1.writes (Elt F) vS1.junk (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1))

/-! ## The stored pieces cover their buffers -/

theorem start_cover0 (c : Dev nD) (t : Fin cfg9.N) (hs : atStart (grid9.coords t)) (hf : ¬atFinish (grid9.coords t)) (y : S512x512.Idx) :
    ∃ pc ∈ (runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1, y ∈ pc.1.set :=
  View.cover_of_tiledL _ S512x512.size (by sl_kernel_rfl) y
theorem start_cover1 (c : Dev nD) (t : Fin cfg9.N) (hs : atStart (grid9.coords t)) (hf : ¬atFinish (grid9.coords t)) (y : S512x512.Idx) :
    ∃ pc ∈ (runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1, y ∈ pc.1.set :=
  View.cover_of_tiledL _ S512x512.size (by sl_kernel_rfl) y
theorem middle_cover0 (c : Dev nD) (t : Fin cfg9.N) (hs : ¬atStart (grid9.coords t)) (hf : ¬atFinish (grid9.coords t)) (s0 s1 : Vec F S512x512 .f32) (y : S512x512.Idx) :
    ∃ pc ∈ (runMiddle c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem middle_cover1 (c : Dev nD) (t : Fin cfg9.N) (hs : ¬atStart (grid9.coords t)) (hf : ¬atFinish (grid9.coords t)) (s0 s1 : Vec F S512x512 .f32) (y : S512x512.Idx) :
    ∃ pc ∈ (runMiddle c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_coverO (c : Dev nD) (t : Fin cfg9.N) (hs : ¬atStart (grid9.coords t)) (hf : atFinish (grid9.coords t)) (s0 s1 : Vec F S512x512 .f32) (y : S512x512.Idx) :
    ∃ pc ∈ (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem finish_cover0 (c : Dev nD) (t : Fin cfg9.N) (hs : ¬atStart (grid9.coords t)) (hf : atFinish (grid9.coords t)) (s0 s1 : Vec F S512x512 .f32) (y : S512x512.Idx) :
    ∃ pc ∈ (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_cover1 (c : Dev nD) (t : Fin cfg9.N) (hs : ¬atStart (grid9.coords t)) (hf : atFinish (grid9.coords t)) (s0 s1 : Vec F S512x512 .f32) (y : S512x512.Idx) :
    ∃ pc ∈ (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1, y ∈ pc.1.set :=
  View.cover_of_tiledL _ S512x512.size (by sl_kernel_rfl) y

/-! ## The accumulation over the grid -/

/-- After the point at position `n`: (the result block's buffer, the first running sum, the second). -/
def sums (c : Dev nD) : (n : ℕ) → n < cfg9.N → Vec F S512x512 .f32 × Vec F S512x512 .f32 × Vec F S512x512 .f32
  | 0, hn => startTriple V c ⟨0, hn⟩ ((atStart_iff ⟨0, hn⟩).mpr (Nat.zero_mod _))
      (fun h => (fun h => by (try dsimp only at h); omega) ((atFinish_iff ⟨0, hn⟩).mp h))
  | n + 1, hn =>
    if h0 : (n + 1) % 8 = 0 then
      if h7 : (n + 1) % 8 = 7 then False.elim (by omega)
      else startTriple V c ⟨n + 1, hn⟩ ((atStart_iff ⟨n + 1, hn⟩).mpr h0) (fun h => h7 ((atFinish_iff ⟨n + 1, hn⟩).mp h))
    else
      if h7 : (n + 1) % 8 = 7 then
        finishTriple V c ⟨n + 1, hn⟩ (fun h => h0 ((atStart_iff ⟨n + 1, hn⟩).mp h)) ((atFinish_iff ⟨n + 1, hn⟩).mpr h7)
          (sums c n (Nat.lt_of_succ_lt hn)).2.1 (sums c n (Nat.lt_of_succ_lt hn)).2.2
      else
        middleTriple V c ⟨n + 1, hn⟩ (fun h => h0 ((atStart_iff ⟨n + 1, hn⟩).mp h)) (fun h => h7 ((atFinish_iff ⟨n + 1, hn⟩).mp h))
          (sums c n (Nat.lt_of_succ_lt hn)).2.1 (sums c n (Nat.lt_of_succ_lt hn)).2.2

theorem sums_start (c : Dev nD) (t : Fin cfg9.N) (h0 : t.val % 8 = 0) (h7 : ¬t.val % 8 = 7) :
    sums V c t.val t.isLt = startTriple V c t ((atStart_iff t).mpr h0) (fun h => h7 ((atFinish_iff t).mp h)) := by
  obtain ⟨n, hn⟩ := t
  cases n with
  | zero => exact rfl
  | succ n => exact (dif_pos h0).trans ((dif_neg h7).trans rfl)

theorem sums_middle (c : Dev nD) (t : Fin cfg9.N) (h0 : ¬t.val % 8 = 0) (h7 : ¬t.val % 8 = 7) :
    sums V c t.val t.isLt = middleTriple V c t (fun h => h0 ((atStart_iff t).mp h)) (fun h => h7 ((atFinish_iff t).mp h))
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h7).trans rfl)

theorem sums_finish (c : Dev nD) (t : Fin cfg9.N) (h0 : ¬t.val % 8 = 0) (h7 : t.val % 8 = 7) :
    sums V c t.val t.isLt = finishTriple V c t (fun h => h0 ((atStart_iff t).mp h)) ((atFinish_iff t).mpr h7)
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- The other scoped buffers of the core, unopened. -/
abbrev others (c : Dev nD) : sProp 𝕄 :=
  Pipeline.scopedRestBut (Ix := Unit) (Name := ℕ) (U := UR sig nD τ) (Lvl := ℕ) (Val := Elt F) spec9 c [cc9_scratch0, cc9_scratch1]

/-- Before the point at position `n`: at the first point every scratch buffer at anything; afterwards the two running
    sums at what the point before left, the other scoped buffers and the generator register untouched. -/
def carried (c : Dev nD) : (n : ℕ) → n ≤ cfg9.N → sProp 𝕄
  | 0, _ => Pipeline.ΦA spec9 c
  | n + 1, hn => iprop(iprop(iprop(owns (c : Thread nD τ) sc0 fullShare (sums V c n hn).2.1 ∗ owns (c : Thread nD τ) sc1 fullShare (sums V c n hn).2.2)
      ∗ others c) ∗ (∃ r, prngReg c r))

theorem carried_zero (c : Dev nD) (n : ℕ) (h : n ≤ cfg9.N) (hz : n = 0) : carried V c n h = Pipeline.ΦA spec9 c := by
  subst hz; rfl

theorem carried_succ (c : Dev nD) (n : ℕ) (hn : n < cfg9.N) :
    carried V c (n + 1) hn = iprop(iprop(iprop(owns (c : Thread nD τ) sc0 fullShare (sums V c n hn).2.1 ∗ owns (c : Thread nD τ) sc1 fullShare (sums V c n hn).2.2)
      ∗ others c) ∗ (∃ r, prngReg c r)) := rfl

theorem carried_pos (c : Dev nD) (n : ℕ) (h : n ≤ cfg9.N) (hz : n ≠ 0) :
    carried V c n h = iprop(iprop(iprop(owns (c : Thread nD τ) sc0 fullShare (sums V c (n - 1) (by omega)).2.1
      ∗ owns (c : Thread nD τ) sc1 fullShare (sums V c (n - 1) (by omega)).2.2) ∗ others c) ∗ (∃ r, prngReg c r)) := by
  cases n with
  | zero => exact absurd rfl hz
  | succ n => rfl

/-- The invariant handed in at the first point, with the two scratch buffers named. -/
theorem entry_eq (c : Dev nD) :
    (Pipeline.ΦA spec9 c : sProp 𝕄)
      = iprop(iprop(iprop((∃ d, owns (c : Thread nD τ) sc0 fullShare d) ∗ (∃ d, owns (c : Thread nD τ) sc1 fullShare d)) ∗ others c) ∗ (∃ r, prngReg c r)) := by
  unfold Pipeline.ΦA; rw [scopedRest9_split]; simp only [sc0, sc1, owns_whole]; try rfl

/-! ## The proof data -/

theorem before0_of {c : Dev nD} (dat : Dat τ (Elt F) Unit ℕ (UR sig nD τ) ℕ cfg9 c) (hA : dat.A 0 = V c (Pipeline.arrRef spec9 0))
    (hafter : ∀ t, dat.after 0 t = blk V c 0 t) (t : Fin cfg9.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg9 c) (hA : dat.A 1 = V c (Pipeline.arrRef spec9 1))
    (hafter : ∀ t, dat.after 1 t = blk V c 1 t) (t : Fin cfg9.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg9 c) (hA : dat.A 2 = V c (Pipeline.arrRef spec9 2))
    (hafter : ∀ t, dat.after 2 t = blk V c 2 t) (t : Fin cfg9.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg9 c) (hA : dat.A 3 = V c (Pipeline.arrRef spec9 3))
    (hafter : ∀ t, dat.after 3 t = blk V c 3 t) (t : Fin cfg9.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg9 c) (hA : dat.A 4 = V c (Pipeline.arrRef spec9 4))
    (hafter : ∀ t, dat.after 4 t = blk V c 4 t) (t : Fin cfg9.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before5_of {c : Dev nD} (dat : Dat τ (Elt F) Unit ℕ (UR sig nD τ) ℕ cfg9 c) (hA : dat.A 5 = V c (Pipeline.arrRef spec9 5))
    (hafter : ∀ t, dat.after 5 t = blk V c 5 t) (t : Fin cfg9.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before6_of {c : Dev nD} (dat : Dat τ (Elt F) Unit ℕ (UR sig nD τ) ℕ cfg9 c) (hA : dat.A 6 = V c (Pipeline.arrRef spec9 6))
    (hafter : ∀ t, dat.after 6 t = blk V c 6 t) (t : Fin cfg9.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before7_of {c : Dev nD} (dat : Dat τ (Elt F) Unit ℕ (UR sig nD τ) ℕ cfg9 c) (hA : dat.A 7 = V c (Pipeline.arrRef spec9 7))
    (hafter : ∀ t, dat.after 7 t = blk V c 7 t) (t : Fin cfg9.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
theorem before8_of {c : Dev nD} (dat : Dat τ (Elt F) Unit ℕ (UR sig nD τ) ℕ cfg9 c) (hA : dat.A 8 = V c (Pipeline.arrRef spec9 8))
    (hafter : ∀ t, dat.after 8 t = blk V c 8 t) (t : Fin cfg9.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
theorem before9_of {c : Dev nD} (dat : Dat τ (Elt F) Unit ℕ (UR sig nD τ) ℕ cfg9 c) (hA : dat.A 9 = V c (Pipeline.arrRef spec9 9))
    (hafter : ∀ t, dat.after 9 t = blk V c 9 t) (t : Fin cfg9.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
theorem before10_of {c : Dev nD} (dat : Dat τ (Elt F) Unit ℕ (UR sig nD τ) ℕ cfg9 c) (hA : dat.A 10 = V c (Pipeline.arrRef spec9 10))
    (hafter : ∀ t, dat.after 10 t = blk V c 10 t) (t : Fin cfg9.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`. The adjacency array is read through two windows (a block and the
    mirrored block): each holds half of the read permission. -/
def dat (c : Dev nD) : Dat τ (Elt F) Unit ℕ (UR sig nD τ) ℕ cfg9 c where
  A w := V c (Pipeline.arrRef spec9 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (sums V c t.val t.isLt).1
  Φ t := carried V c t.val (Nat.le_of_lt_succ t.isLt)
  q w := match w with
    | ⟨0, _⟩ => fullShare.left
    | ⟨1, _⟩ => fullShare.right
    | _ => fullShare
  owed _ := 0

theorem dat_A (c : Dev nD) (w : Fin cfg9.W) : (dat V c).A w = V c (Pipeline.arrRef spec9 w) := by
  dsimp only [dat]

theorem carried_castSucc (c : Dev nD) (t : Fin cfg9.N) :
    (dat V c).Φ t.castSucc = carried V c t.val (Nat.le_of_lt t.isLt) := by
  dsimp only [dat]; simp only [Fin.coe_castSucc]

theorem after0 (c : Dev nD) (t : Fin cfg9.N) : (dat V c).after 0 t = blk V c 0 t := by dsimp only [dat]
theorem after1 (c : Dev nD) (t : Fin cfg9.N) : (dat V c).after 1 t = blk V c 1 t := by dsimp only [dat]
theorem after2 (c : Dev nD) (t : Fin cfg9.N) : (dat V c).after 2 t = blk V c 2 t := by dsimp only [dat]
theorem after3 (c : Dev nD) (t : Fin cfg9.N) : (dat V c).after 3 t = blk V c 3 t := by dsimp only [dat]
theorem after4 (c : Dev nD) (t : Fin cfg9.N) : (dat V c).after 4 t = blk V c 4 t := by dsimp only [dat]
theorem after5 (c : Dev nD) (t : Fin cfg9.N) : (dat V c).after 5 t = blk V c 5 t := by dsimp only [dat]
theorem after6 (c : Dev nD) (t : Fin cfg9.N) : (dat V c).after 6 t = blk V c 6 t := by dsimp only [dat]
theorem after7 (c : Dev nD) (t : Fin cfg9.N) : (dat V c).after 7 t = blk V c 7 t := by dsimp only [dat]
theorem after8 (c : Dev nD) (t : Fin cfg9.N) : (dat V c).after 8 t = blk V c 8 t := by dsimp only [dat]
theorem after9 (c : Dev nD) (t : Fin cfg9.N) : (dat V c).after 9 t = blk V c 9 t := by dsimp only [dat]
theorem after10 (c : Dev nD) (t : Fin cfg9.N) : (dat V c).after 10 t = blk V c 10 t := by dsimp only [dat]
theorem after11 (c : Dev nD) (t : Fin cfg9.N) : (dat V c).after 11 t = (sums V c t.val t.isLt).1 := by dsimp only [dat]

theorem before0 (c : Dev nD) (t : Fin cfg9.N) (d) : (dat V c).before 0 t d = blk V c 0 t :=
  before0_of V (dat V c) (dat_A V c 0) (after0 V c) t d
theorem before1 (c : Dev nD) (t : Fin cfg9.N) (d) : (dat V c).before 1 t d = blk V c 1 t :=
  before1_of V (dat V c) (dat_A V c 1) (after1 V c) t d
theorem before2 (c : Dev nD) (t : Fin cfg9.N) (d) : (dat V c).before 2 t d = blk V c 2 t :=
  before2_of V (dat V c) (dat_A V c 2) (after2 V c) t d
theorem before3 (c : Dev nD) (t : Fin cfg9.N) (d) : (dat V c).before 3 t d = blk V c 3 t :=
  before3_of V (dat V c) (dat_A V c 3) (after3 V c) t d
theorem before4 (c : Dev nD) (t : Fin cfg9.N) (d) : (dat V c).before 4 t d = blk V c 4 t :=
  before4_of V (dat V c) (dat_A V c 4) (after4 V c) t d
theorem before5 (c : Dev nD) (t : Fin cfg9.N) (d) : (dat V c).before 5 t d = blk V c 5 t :=
  before5_of V (dat V c) (dat_A V c 5) (after5 V c) t d
theorem before6 (c : Dev nD) (t : Fin cfg9.N) (d) : (dat V c).before 6 t d = blk V c 6 t :=
  before6_of V (dat V c) (dat_A V c 6) (after6 V c) t d
theorem before7 (c : Dev nD) (t : Fin cfg9.N) (d) : (dat V c).before 7 t d = blk V c 7 t :=
  before7_of V (dat V c) (dat_A V c 7) (after7 V c) t d
theorem before8 (c : Dev nD) (t : Fin cfg9.N) (d) : (dat V c).before 8 t d = blk V c 8 t :=
  before8_of V (dat V c) (dat_A V c 8) (after8 V c) t d
theorem before9 (c : Dev nD) (t : Fin cfg9.N) (d) : (dat V c).before 9 t d = blk V c 9 t :=
  before9_of V (dat V c) (dat_A V c 9) (after9 V c) t d
theorem before10 (c : Dev nD) (t : Fin cfg9.N) (d) : (dat V c).before 10 t d = blk V c 10 t :=
  before10_of V (dat V c) (dat_A V c 10) (after10 V c) t d

theorem leaves0 (c : Dev nD) (t : Fin cfg9.N) :
    (dat V c).leavesExact 0 t = owns (c : Thread nD τ) (mw0 t) fullShare (blk V c 0 t) := by
  unfold Dat.leavesExact; rw [show cfg9.idle 0 (cfg9.grid.coords t) = false from rfl, after0]; try rfl
theorem leaves1 (c : Dev nD) (t : Fin cfg9.N) :
    (dat V c).leavesExact 1 t = owns (c : Thread nD τ) (mw1 t) fullShare (blk V c 1 t) := by
  unfold Dat.leavesExact; rw [show cfg9.idle 1 (cfg9.grid.coords t) = false from rfl, after1]; try rfl
theorem leaves2 (c : Dev nD) (t : Fin cfg9.N) :
    (dat V c).leavesExact 2 t = owns (c : Thread nD τ) (mw2 t) fullShare (blk V c 2 t) := by
  unfold Dat.leavesExact; rw [show cfg9.idle 2 (cfg9.grid.coords t) = false from rfl, after2]; try rfl
theorem leaves3 (c : Dev nD) (t : Fin cfg9.N) :
    (dat V c).leavesExact 3 t = owns (c : Thread nD τ) (mw3 t) fullShare (blk V c 3 t) := by
  unfold Dat.leavesExact; rw [show cfg9.idle 3 (cfg9.grid.coords t) = false from rfl, after3]; try rfl
theorem leaves4 (c : Dev nD) (t : Fin cfg9.N) :
    (dat V c).leavesExact 4 t = owns (c : Thread nD τ) (mw4 t) fullShare (blk V c 4 t) := by
  unfold Dat.leavesExact; rw [show cfg9.idle 4 (cfg9.grid.coords t) = false from rfl, after4]; try rfl
theorem leaves5 (c : Dev nD) (t : Fin cfg9.N) :
    (dat V c).leavesExact 5 t = owns (c : Thread nD τ) (mw5 t) fullShare (blk V c 5 t) := by
  unfold Dat.leavesExact; rw [show cfg9.idle 5 (cfg9.grid.coords t) = false from rfl, after5]; try rfl
theorem leaves6 (c : Dev nD) (t : Fin cfg9.N) :
    (dat V c).leavesExact 6 t = owns (c : Thread nD τ) (mw6 t) fullShare (blk V c 6 t) := by
  unfold Dat.leavesExact; rw [show cfg9.idle 6 (cfg9.grid.coords t) = false from rfl, after6]; try rfl
theorem leaves7 (c : Dev nD) (t : Fin cfg9.N) :
    (dat V c).leavesExact 7 t = owns (c : Thread nD τ) (mw7 t) fullShare (blk V c 7 t) := by
  unfold Dat.leavesExact; rw [show cfg9.idle 7 (cfg9.grid.coords t) = false from rfl, after7]; try rfl
theorem leaves8 (c : Dev nD) (t : Fin cfg9.N) :
    (dat V c).leavesExact 8 t = owns (c : Thread nD τ) (mw8 t) fullShare (blk V c 8 t) := by
  unfold Dat.leavesExact; rw [show cfg9.idle 8 (cfg9.grid.coords t) = false from rfl, after8]; try rfl
theorem leaves9 (c : Dev nD) (t : Fin cfg9.N) :
    (dat V c).leavesExact 9 t = owns (c : Thread nD τ) (mw9 t) fullShare (blk V c 9 t) := by
  unfold Dat.leavesExact; rw [show cfg9.idle 9 (cfg9.grid.coords t) = false from rfl, after9]; try rfl
theorem leaves10 (c : Dev nD) (t : Fin cfg9.N) :
    (dat V c).leavesExact 10 t = owns (c : Thread nD τ) (mw10 t) fullShare (blk V c 10 t) := by
  unfold Dat.leavesExact; rw [show cfg9.idle 10 (cfg9.grid.coords t) = false from rfl, after10]; try rfl

/-! ## The body obligation -/

def bodyPre (c : Dev nD) (t : Fin cfg9.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d))
    ∗ (∃ d, owns (c : Thread nD τ) (mw5 t) fullShare ((dat V c).before 5 t d))
    ∗ (∃ d, owns (c : Thread nD τ) (mw6 t) fullShare ((dat V c).before 6 t d))
    ∗ (∃ d, owns (c : Thread nD τ) (mw7 t) fullShare ((dat V c).before 7 t d))
    ∗ (∃ d, owns (c : Thread nD τ) (mw8 t) fullShare ((dat V c).before 8 t d))
    ∗ (∃ d, owns (c : Thread nD τ) (mw9 t) fullShare ((dat V c).before 9 t d))
    ∗ (∃ d, owns (c : Thread nD τ) (mw10 t) fullShare ((dat V c).before 10 t d))
    ∗ (∃ d, owns (c : Thread nD τ) (mw11 t) fullShare ((dat V c).before 11 t d)))

def bodyPost (c : Dev nD) (t : Fin cfg9.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

end Cert.Kernel.Gated9

end
-- ==== Proof.BitsGated9Body.lean ====
/-
  Region 9 of the program, concluded: the body obligation at every grid point — the point's position decides
  which of the three situations applies, the invariant hands the body the two running sums (at anything at the very
  first point, at what the point before left afterwards) and takes them back at this point's contents — and how
  the invariant is entered and left.
-/
import proofs.«121501_j55087250538634_2_alg».proof.Proof.BitsGated9

set_option maxRecDepth 16384

noncomputable section

namespace Cert.Kernel.Gated9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. -/
theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before0, before1, before2, before3, before4, before5, before6, before7, before8, before9, before10]
  rw [show (dat V c).owesAt () t.succ = (dat V c).owesAt () t.castSucc from rfl]
  rw [show (dat V c).Φ t.succ = carried V c (t.val + 1) t.isLt from rfl, carried_succ]
  rw [leaves0, leaves1, leaves2, leaves3, leaves4, leaves5, leaves6, leaves7, leaves8, leaves9, leaves10]
  have hN : t.val < 64 := lt_of_lt_of_eq t.isLt (show cfg9.N = 64 from N_9)
  by_cases h0 : t.val % 8 = 0
  · by_cases h7 : t.val % 8 = 7
    · exfalso; omega
    · rw [Dat.leavesExact_idle (dat V c) 11 t (out_idle t (fun h => h7 ((atFinish_iff t).mp h))) (out_noFlush t (fun h => h7 ((atFinish_iff t).mp h)))]
      rw [sums_start V c t h0 h7]
      unfold startTriple; (try dsimp only)
      by_cases hz : t.val = 0
      · rw [carried_castSucc V c t, carried_zero V c _ _ hz, entry_eq]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [carried_castSucc V c t, carried_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun h => h0 (by rw [h])
    by_cases h7 : t.val % 8 = 7
    · rw [show (dat V c).leavesExact 11 t = owns (c : Thread nD τ) (mw11 t) fullShare ((dat V c).after 11 t) from by
        unfold Dat.leavesExact; rw [out_live t ((atFinish_iff t).mpr h7)], after11]
      rw [sums_finish V c t h0 h7]
      unfold finishTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) ((atFinish_iff t).mpr h7) (blk V c 0 t) (blk V c 1 t) (blk V c 2 t) (blk V c 3 t) (blk V c 4 t) (blk V c 5 t) (blk V c 6 t) (blk V c 7 t) (blk V c 8 t) (blk V c 9 t) (blk V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (finish_cover0 V c t _ _ _ _)
            unfold owns; iexists _; isplitr
            swap; · iexact HS1
            ipureintro; exact View.read_writes_of_cover _ _ _ _ _ (finish_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (finish_coverO V c t _ _ _ _)
    · rw [Dat.leavesExact_idle (dat V c) 11 t (out_idle t (fun h => h7 ((atFinish_iff t).mp h))) (out_noFlush t (fun h => h7 ((atFinish_iff t).mp h)))]
      rw [sums_middle V c t h0 h7]
      unfold middleTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (middle_cover0 V c t _ _ _ _)
            unfold owns; iexists _; isplitr
            swap; · iexact HS1
            ipureintro; exact View.read_writes_of_cover _ _ _ _ _ (middle_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation of the region, at every point. -/
theorem body_obligation (c : Dev nD) : BodyObligation (dat (F := F) V c) (defs₀ (F := F)) Variants.none () Set.univ := fun t => by
  rw [bigSep_W9, bigSep_W9]
  exact sound_body V c t

/-- What the launch hands the region is the invariant before the first point. -/
theorem enter (c : Dev nD) : Pipeline.ΦA spec9 c ⊢ (dat V c).Φ 0 := by
  rw [show (dat V c).Φ 0 = carried V c 0 (Nat.zero_le _) from rfl, carried_zero V c 0 _ rfl]
  try exact Idealize.SL.BI.Entails.refl _

/-- After the last point the invariant gives the scoped buffers back: the sums' contents are forgotten. -/
theorem leave (c : Dev nD) : (dat V c).Φ (Fin.last cfg9.N) ⊢ Pipeline.ΦA spec9 c := by
  have hne : (Fin.last cfg9.N).val ≠ 0 := by rw [Fin.val_last]; have : cfg9.N = 64 := N_9; omega
  rw [show (dat V c).Φ (Fin.last cfg9.N) = carried V c (Fin.last cfg9.N).val (Nat.le_of_lt_succ (Fin.last cfg9.N).isLt) from rfl,
    carried_pos V c _ _ hne, entry_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Cert.Kernel.Gated9

end
-- ==== Proof.BitsGated9Arrays.lean ====
/-
  Region 9 of the program: its windows' arrays against the buffers behind them. The adjacency array is read
  through two windows; the read permission on its buffer is cut in two halves, one per window, when the region
  is entered, and the halves are joined again when it is left. Every other array has a buffer of its own.
-/
import proofs.«121501_j55087250538634_2_alg».proof.Proof.BitsGated9

set_option maxRecDepth 16384

noncomputable section

namespace Cert.Kernel.Gated9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows. -/
abbrev bufs : List (Ref sig .tc) := [main_v1, main_v31_0, main_v31_1, main_v30, main_v7, main_v18, main_v9, main_v19, main_v11, main_v20, main_v32]

theorem bufs_eq : Finset.univ.image (Pipeline.arrRef spec9) = bufs.toFinset := by decide

/-- A conjunction over those buffers, one by one. -/
theorem bufs_chain (Φ : Ref sig .tc → sProp 𝕄) :
    bigSep (Finset.univ.image (Pipeline.arrRef spec9)) Φ = iprop(Φ main_v1 ∗ Φ main_v31_0 ∗ Φ main_v31_1 ∗ Φ main_v30 ∗ Φ main_v7 ∗ Φ main_v18 ∗ Φ main_v9 ∗ Φ main_v19 ∗ Φ main_v11 ∗ Φ main_v20 ∗ Φ main_v32) :=
  bigSep_eq_bigSepL_of_eq bufs bufs_eq (by decide) Φ

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl
theorem share11 (c : Dev nD) : (dat V c).share 11 = fullShare := rfl

/-- ENTRY: the buffers whole at contents `G` make the windows' arrays at `G`, the adjacency buffer's permission halved. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec9 c G : sProp 𝕄)
      ⊢ (dat V c).arrays (fun w => G (Pipeline.arrRef spec9 w)) := by
  unfold Pipeline.arrBufs Dat.arrays
  rw [bufs_chain, bigSep_W9]
  simp only [share0, share1, share2, share3, share4, share5, share6, share7, share8, share9, share10, share11, View.set_whole]
  iintro ⟨HA, H2, H3, H4, H5, H6, H7, H8, H9, H10, H11⟩
  ihave HA' := (pointsTo_share (PosShare.mem_left_op_right fullShare)).1 $$ HA
  icases HA' with ⟨HA0, HA1⟩
  isplitl [HA0]; · iexact HA0
  isplitl [HA1]; · iexact HA1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `G`, the two halves of the adjacency buffer's permission joined, are the
    buffers whole at `G`. -/
theorem bufs_of_arrays (c : Dev nD) (G : (b : Ref sig .tc) → Buf (Elt F) ((c : Thread nD τ).loc b)) :
    (dat V c).arrays (fun w => G (Pipeline.arrRef spec9 w))
      ⊢ (Pipeline.arrBufs (Ix := Unit) (Name := ℕ) (U := UR sig nD τ) (Lvl := ℕ) spec9 c G : sProp 𝕄) := by
  unfold Pipeline.arrBufs Dat.arrays
  rw [bufs_chain, bigSep_W9]
  simp only [share0, share1, share2, share3, share4, share5, share6, share7, share8, share9, share10, share11, View.set_whole]
  iintro ⟨HA0, HA1, H2, H3, H4, H5, H6, H7, H8, H9, H10, H11⟩
  ihave HA := (pointsTo_share (PosShare.mem_left_op_right fullShare)).2 $$ [HA0 HA1]
  · isplitl [HA0]; · iexact HA0
    iexact HA1
  isplitl [HA]; · iexact HA
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY, from all the core's unscoped buffers: the windows' arrays and the buffers that are no window's array. -/
theorem enter_arrays (c : Dev nD) (G : (b : Ref sig .tc) → Buf (Elt F) ((c : Thread nD τ).loc b)) :
    (unscopedBufs c G : sProp 𝕄)
      ⊢ iprop((dat V c).arrays (fun w => G (Pipeline.arrRef spec9 w))
          ∗ Pipeline.unscopedRest (Ix := Unit) (Name := ℕ) (U := UR sig nD τ) (Lvl := ℕ) spec9 c G) := by
  rw [Pipeline.unscopedBufs_split₀ cfgs 9 winFacts₀9.arr_unscoped c G]
  exact BIClass.sep_mono (arrays_of_bufs V c G) .rfl

/-- EXIT, back to all the core's unscoped buffers at contents `G'` that agree with the arrays' final contents on the
    arrays and with the entry contents `G` elsewhere. -/
theorem leave_arrays (c : Dev nD) (G G' : (b : Ref sig .tc) → Buf (Elt F) ((c : Thread nD τ).loc b))
    (Fa : (w : Fin cfg9.W) → Buf (Elt F) ((cfg9.win w).arr.view.loc (c : Thread nD τ)))
    (hF : ∀ w, Fa w = G' (Pipeline.arrRef spec9 w))
    (hrest : ∀ b, b ∉ Finset.univ.image (Pipeline.arrRef spec9) → G' b = G b) :
    iprop((dat V c).arrays Fa ∗ Pipeline.unscopedRest (Ix := Unit) (Name := ℕ) (U := UR sig nD τ) (Lvl := ℕ) spec9 c G)
      ⊢ (unscopedBufs c G' : sProp 𝕄) := by
  rw [Pipeline.unscopedBufs_split₀ cfgs 9 winFacts₀9.arr_unscoped c G', show Fa = fun w => G' (Pipeline.arrRef spec9 w) from funext hF]
  refine BIClass.sep_mono (bufs_of_arrays V c G') ?_
  unfold Pipeline.unscopedRest
  exact Entails.of_eq (bigSep_congr fun b hb => by rw [hrest b (Finset.mem_sdiff.mp hb).2])

end Cert.Kernel.Gated9

end
-- ==== Proof.BitsOutput10.lean ====
/-
  The last region of the program: the output network on one block of 1024 rows of the final node state `x`
  (window 0):  out = tanh(x · W₁ + b₁) · W₂ + b₂  (windows 1, 2, 3, 4 -> window 5), two 1024x512 by 512x512 products
  into the zero accumulator, each followed by its bias row broadcast down the rows, the hyperbolic tangent in
  between. The weights and biases are the same block at every point; the state block and the result block move
  with the point.
  Here: what the result buffer holds after the body as a function of the five input blocks, the body's run on
  whole staging buffers, the region's proof data over entry contents `V`, and the body obligation at every point.
-/
import proofs.«121501_j55087250538634_2_alg».proof.Proof.Gen.Kernel.Launch
import proofs.«121501_j55087250538634_2_alg».proof.Proof.Gen.Kernel.Skeleton
import proofs.«121501_j55087250538634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Output10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg10.W) (t : Fin cfg10.N) :
    ((cfg10.win w).xblock (cfg10.grid.coords t)).Idx → Elt F (cfg10.win w).elt :=
  ((cfg10.win w).blk t).view.read (Elt F) (V c (Pipeline.arrRef spec10 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the result buffer -/

/-- The output block: the two-layer network of the state block, as one stored piece. -/
def outBlock (x : Vec F S1024x512 .f32) (w1 : Vec F S512x512 .bf16) (b1 : Vec F S1x512 .f32)
    (w2 : Vec F S512x512 .bf16) (b2 : Vec F S1x512 .f32) : Vec F S1024x512 .f32 :=
  View.canon [⟨rRows, k10_pay1 (View.ld x rRows) (View.ld w1 rWeight) (View.ld b1 rBias) (View.ld w2 rWeight) (View.ld b2 rBias)⟩]

/-- One store through the whole-buffer rectangle covers the buffer. -/
theorem covers (p : Vec F S1024x512 .f32) (y : S1024x512.Idx) :
    ∃ pc ∈ ([⟨rRows, p⟩] : List (View.Piece (Elt F) S1024x512 .f32)), y ∈ pc.1.set :=
  View.cover_of_tiled [⟨rRows, p⟩] S1024x512.size (by rfl) y

/-! ## The body's run -/

set_option maxHeartbeats 1000000 in
/-- On whole staging buffers, the five inputs at contents `x, w1, b1, w2, b2` and the result at anything, the body
    runs to its end with the inputs as they were and the result at `outBlock` of the inputs. -/
theorem body_runs (i : grid10.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .f32) (h6 : a6.IsWhole)
    (x : Vec F S1024x512 .f32) (w1 : Vec F S512x512 .bf16) (b1 : Vec F S1x512 .f32) (w2 : Vec F S512x512 .bf16) (b2 : Vec F S1x512 .f32)
    (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2
        ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (outBlock x w1 b1 w2 b2)) -∗ K ⟨⟩))
      ⊢ wp frame (wpE (defs₀ (F := F)) Variants.none c none) E (cc10__outmlp_kernel i a1 h1 a2 h2 a3 h3 a4 h4 a5 h5 a6 h6) K := by
  simp only [cc10__outmlp_kernel_eq_skeleton]; unfold cc10__outmlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg10 c) (hA : dat.A 0 = V c (Pipeline.arrRef spec10 0))
    (hafter : ∀ t, dat.after 0 t = blk V c 0 t) (t : Fin cfg10.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg10 c) (hA : dat.A 1 = V c (Pipeline.arrRef spec10 1))
    (hafter : ∀ t, dat.after 1 t = blk V c 1 t) (t : Fin cfg10.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg10 c) (hA : dat.A 2 = V c (Pipeline.arrRef spec10 2))
    (hafter : ∀ t, dat.after 2 t = blk V c 2 t) (t : Fin cfg10.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg10 c) (hA : dat.A 3 = V c (Pipeline.arrRef spec10 3))
    (hafter : ∀ t, dat.after 3 t = blk V c 3 t) (t : Fin cfg10.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg10 c) (hA : dat.A 4 = V c (Pipeline.arrRef spec10 4))
    (hafter : ∀ t, dat.after 4 t = blk V c 4 t) (t : Fin cfg10.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and the result's at the output block of the input blocks; the invariant is the
    scoped rest and the generator register, untouched; nothing owed; full shares. -/
def dat (c : Dev nD) : Dat τ (Elt F) Unit ℕ (UR sig nD τ) ℕ cfg10 c where
  A w := V c (Pipeline.arrRef spec10 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outBlock (blk V c 0 t) (blk V c 1 t) (blk V c 2 t) (blk V c 3 t) (blk V c 4 t)
  Φ _ := Pipeline.ΦA spec10 c
  q _ := fullShare
  owed _ := 0

theorem dat_A (c : Dev nD) (w : Fin cfg10.W) : (dat V c).A w = V c (Pipeline.arrRef spec10 w) := by
  dsimp only [dat]

theorem after0 (c : Dev nD) (t : Fin cfg10.N) : (dat V c).after 0 t = blk V c 0 t := by dsimp only [dat]
theorem after1 (c : Dev nD) (t : Fin cfg10.N) : (dat V c).after 1 t = blk V c 1 t := by dsimp only [dat]
theorem after2 (c : Dev nD) (t : Fin cfg10.N) : (dat V c).after 2 t = blk V c 2 t := by dsimp only [dat]
theorem after3 (c : Dev nD) (t : Fin cfg10.N) : (dat V c).after 3 t = blk V c 3 t := by dsimp only [dat]
theorem after4 (c : Dev nD) (t : Fin cfg10.N) : (dat V c).after 4 t = blk V c 4 t := by dsimp only [dat]
theorem after5 (c : Dev nD) (t : Fin cfg10.N) :
    (dat V c).after 5 t = outBlock (blk V c 0 t) (blk V c 1 t) (blk V c 2 t) (blk V c 3 t) (blk V c 4 t) := by dsimp only [dat]

theorem before0 (c : Dev nD) (t : Fin cfg10.N) (d) : (dat V c).before 0 t d = blk V c 0 t :=
  before0_of V (dat V c) (dat_A V c 0) (after0 V c) t d
theorem before1 (c : Dev nD) (t : Fin cfg10.N) (d) : (dat V c).before 1 t d = blk V c 1 t :=
  before1_of V (dat V c) (dat_A V c 1) (after1 V c) t d
theorem before2 (c : Dev nD) (t : Fin cfg10.N) (d) : (dat V c).before 2 t d = blk V c 2 t :=
  before2_of V (dat V c) (dat_A V c 2) (after2 V c) t d
theorem before3 (c : Dev nD) (t : Fin cfg10.N) (d) : (dat V c).before 3 t d = blk V c 3 t :=
  before3_of V (dat V c) (dat_A V c 3) (after3 V c) t d
theorem before4 (c : Dev nD) (t : Fin cfg10.N) (d) : (dat V c).before 4 t d = blk V c 4 t :=
  before4_of V (dat V c) (dat_A V c 4) (after4 V c) t d

/-! ## The body obligation -/

/-- What the body is called with at point `t`. -/
def bodyPre (c : Dev nD) (t : Fin cfg10.N) : sProp 𝕄 :=
  iprop((dat V c).Φ t.castSucc ∗ (dat V c).owesAt () t.castSucc
    ∗ (∃ d, owns (c : Thread nD τ) (st10_0 t) fullShare ((dat V c).before 0 t d))
    ∗ (∃ d, owns (c : Thread nD τ) (st10_1 t) fullShare ((dat V c).before 1 t d))
    ∗ (∃ d, owns (c : Thread nD τ) (st10_2 t) fullShare ((dat V c).before 2 t d))
    ∗ (∃ d, owns (c : Thread nD τ) (st10_3 t) fullShare ((dat V c).before 3 t d))
    ∗ (∃ d, owns (c : Thread nD τ) (st10_4 t) fullShare ((dat V c).before 4 t d))
    ∗ (∃ d, owns (c : Thread nD τ) (st10_5 t) fullShare ((dat V c).before 5 t d)))

/-- What it returns. -/
def bodyPost (c : Dev nD) (t : Fin cfg10.N) : sProp 𝕄 :=
  iprop((dat V c).Φ t.succ ∗ (dat V c).owesAt () t.succ
    ∗ owns (c : Thread nD τ) (st10_0 t) fullShare ((dat V c).after 0 t)
    ∗ owns (c : Thread nD τ) (st10_1 t) fullShare ((dat V c).after 1 t)
    ∗ owns (c : Thread nD τ) (st10_2 t) fullShare ((dat V c).after 2 t)
    ∗ owns (c : Thread nD τ) (st10_3 t) fullShare ((dat V c).after 3 t)
    ∗ owns (c : Thread nD τ) (st10_4 t) fullShare ((dat V c).after 4 t)
    ∗ owns (c : Thread nD τ) (st10_5 t) fullShare ((dat V c).after 5 t))

/-- The body at any point: the inputs' buffers hold their blocks, so `body_runs` applies; the invariant and the core's
    dues pass through unread. -/
theorem sound_body (c : Dev nD) (t : Fin cfg10.N) :
    bodyPre V c t ⊢ wp frame (wpE (defs₀ (F := F)) Variants.none c none) Set.univ (bodyAt10 t) (fun _ => bodyPost V c t) := by
  unfold bodyPre bodyPost bodyAt10
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs (grid10.coords t) c Set.univ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation (c : Dev nD) : BodyObligation (dat (F := F) V c) (defs₀ (F := F)) Variants.none () Set.univ := fun t => by
  rw [bigSep_W10, bigSep_W10]
  exact sound_body V c t

end Cert.Kernel.Output10

end
-- ==== Proof.BitsWholeFold.lean ====
/-
  The contents of the core's buffers at the boundary of each step of the program: at launch, after the opening host
  operations (the casts, transposes and reshapes of the arguments), and after each of the eleven kernel regions — a
  message region or the output region leaves its result arrays at what its grid points wrote back and everything
  else as it found it; a gated-update region changes only its new-state array.
-/
import proofs.«121501_j55087250538634_2_alg».proof.Proof.BitsMessages0
import proofs.«121501_j55087250538634_2_alg».proof.Proof.BitsGated1Body
import proofs.«121501_j55087250538634_2_alg».proof.Proof.BitsGated1Arrays
import proofs.«121501_j55087250538634_2_alg».proof.Proof.BitsMessages2
import proofs.«121501_j55087250538634_2_alg».proof.Proof.BitsGated3Body
import proofs.«121501_j55087250538634_2_alg».proof.Proof.BitsGated3Arrays
import proofs.«121501_j55087250538634_2_alg».proof.Proof.BitsMessages4
import proofs.«121501_j55087250538634_2_alg».proof.Proof.BitsGated5Body
import proofs.«121501_j55087250538634_2_alg».proof.Proof.BitsGated5Arrays
import proofs.«121501_j55087250538634_2_alg».proof.Proof.BitsMessages6
import proofs.«121501_j55087250538634_2_alg».proof.Proof.BitsGated7Body
import proofs.«121501_j55087250538634_2_alg».proof.Proof.BitsGated7Arrays
import proofs.«121501_j55087250538634_2_alg».proof.Proof.BitsMessages8
import proofs.«121501_j55087250538634_2_alg».proof.Proof.BitsGated9Body
import proofs.«121501_j55087250538634_2_alg».proof.Proof.BitsGated9Arrays
import proofs.«121501_j55087250538634_2_alg».proof.Proof.BitsOutput10

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the opening host operations: what region 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the pipeline leaves, every other buffer as entered. -/
def W2 (c : Dev nD) : Valuation τ sig (Elt F) :=
  Pipeline.withArrays spec0 c (W1 m ρ c) fun w => (Messages0.dat (V1 m ρ) c).arrAt w cfg0.N
theorem W2_arr (c : Dev nD) (w : Fin cfg0.W) :
    W2 m ρ c (Proc.devRef .tc (Pipeline.arrRef spec0 w)) = (Messages0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0 (c : Dev nD) (w : Fin cfg0.W) : (Messages0.dat (V1 m ρ) c).arrAt w cfg0.N = V2 m ρ c (Pipeline.arrRef spec0 w) :=
  (W2_arr m ρ c w).symm
theorem rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: the new node state in `main_v24`, every other buffer as entered. -/
def W3 (c : Dev nD) : Valuation τ sig (Elt F) :=
  Function.update (W2 m ρ c) (Proc.devRef .tc main_v24) ((Gated1.dat (V2 m ρ) c).arrAt 11 cfg1.N)
theorem W3_out (c : Dev nD) : W3 m ρ c (Proc.devRef .tc main_v24) = (Gated1.dat (V2 m ρ) c).arrAt 11 cfg1.N := by
  unfold W3; exact Function.update_self ..
theorem W3_of_ne (c : Dev nD) (b : Ref sig .tc) (hb : b ≠ main_v24) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
theorem exit1_w0 (c : Dev nD) : (Gated1.dat (V2 m ρ) c).arrAt 0 cfg1.N = V3 m ρ c (Pipeline.arrRef spec1 0) :=
  (((Gated1.dat (V2 m ρ) c).arrAt_in 0 rfl _).trans (Gated1.dat_A (V2 m ρ) c 0)).trans (W3_of_ne m ρ c main_v1 (by decide)).symm
theorem exit1_w1 (c : Dev nD) : (Gated1.dat (V2 m ρ) c).arrAt 1 cfg1.N = V3 m ρ c (Pipeline.arrRef spec1 1) :=
  (((Gated1.dat (V2 m ρ) c).arrAt_in 1 rfl _).trans (Gated1.dat_A (V2 m ρ) c 1)).trans (W3_of_ne m ρ c main_v1 (by decide)).symm
theorem exit1_w2 (c : Dev nD) : (Gated1.dat (V2 m ρ) c).arrAt 2 cfg1.N = V3 m ρ c (Pipeline.arrRef spec1 2) :=
  (((Gated1.dat (V2 m ρ) c).arrAt_in 2 rfl _).trans (Gated1.dat_A (V2 m ρ) c 2)).trans (W3_of_ne m ρ c main_v23_0 (by decide)).symm
theorem exit1_w3 (c : Dev nD) : (Gated1.dat (V2 m ρ) c).arrAt 3 cfg1.N = V3 m ρ c (Pipeline.arrRef spec1 3) :=
  (((Gated1.dat (V2 m ρ) c).arrAt_in 3 rfl _).trans (Gated1.dat_A (V2 m ρ) c 3)).trans (W3_of_ne m ρ c main_v23_1 (by decide)).symm
theorem exit1_w4 (c : Dev nD) : (Gated1.dat (V2 m ρ) c).arrAt 4 cfg1.N = V3 m ρ c (Pipeline.arrRef spec1 4) :=
  (((Gated1.dat (V2 m ρ) c).arrAt_in 4 rfl _).trans (Gated1.dat_A (V2 m ρ) c 4)).trans (W3_of_ne m ρ c main_arg0 (by decide)).symm
theorem exit1_w5 (c : Dev nD) : (Gated1.dat (V2 m ρ) c).arrAt 5 cfg1.N = V3 m ρ c (Pipeline.arrRef spec1 5) :=
  (((Gated1.dat (V2 m ρ) c).arrAt_in 5 rfl _).trans (Gated1.dat_A (V2 m ρ) c 5)).trans (W3_of_ne m ρ c main_v7 (by decide)).symm
theorem exit1_w6 (c : Dev nD) : (Gated1.dat (V2 m ρ) c).arrAt 6 cfg1.N = V3 m ρ c (Pipeline.arrRef spec1 6) :=
  (((Gated1.dat (V2 m ρ) c).arrAt_in 6 rfl _).trans (Gated1.dat_A (V2 m ρ) c 6)).trans (W3_of_ne m ρ c main_v18 (by decide)).symm
theorem exit1_w7 (c : Dev nD) : (Gated1.dat (V2 m ρ) c).arrAt 7 cfg1.N = V3 m ρ c (Pipeline.arrRef spec1 7) :=
  (((Gated1.dat (V2 m ρ) c).arrAt_in 7 rfl _).trans (Gated1.dat_A (V2 m ρ) c 7)).trans (W3_of_ne m ρ c main_v9 (by decide)).symm
theorem exit1_w8 (c : Dev nD) : (Gated1.dat (V2 m ρ) c).arrAt 8 cfg1.N = V3 m ρ c (Pipeline.arrRef spec1 8) :=
  (((Gated1.dat (V2 m ρ) c).arrAt_in 8 rfl _).trans (Gated1.dat_A (V2 m ρ) c 8)).trans (W3_of_ne m ρ c main_v19 (by decide)).symm
theorem exit1_w9 (c : Dev nD) : (Gated1.dat (V2 m ρ) c).arrAt 9 cfg1.N = V3 m ρ c (Pipeline.arrRef spec1 9) :=
  (((Gated1.dat (V2 m ρ) c).arrAt_in 9 rfl _).trans (Gated1.dat_A (V2 m ρ) c 9)).trans (W3_of_ne m ρ c main_v11 (by decide)).symm
theorem exit1_w10 (c : Dev nD) : (Gated1.dat (V2 m ρ) c).arrAt 10 cfg1.N = V3 m ρ c (Pipeline.arrRef spec1 10) :=
  (((Gated1.dat (V2 m ρ) c).arrAt_in 10 rfl _).trans (Gated1.dat_A (V2 m ρ) c 10)).trans (W3_of_ne m ρ c main_v20 (by decide)).symm
theorem exit1_w11 (c : Dev nD) : (Gated1.dat (V2 m ρ) c).arrAt 11 cfg1.N = V3 m ρ c (Pipeline.arrRef spec1 11) := (W3_out m ρ c).symm
theorem exit1 (c : Dev nD) : ∀ w : Fin cfg1.W, (Gated1.dat (V2 m ρ) c).arrAt w cfg1.N = V3 m ρ c (Pipeline.arrRef spec1 w) := fun
  | 0 => exit1_w0 m ρ c
  | 1 => exit1_w1 m ρ c
  | 2 => exit1_w2 m ρ c
  | 3 => exit1_w3 m ρ c
  | 4 => exit1_w4 m ρ c
  | 5 => exit1_w5 m ρ c
  | 6 => exit1_w6 m ρ c
  | 7 => exit1_w7 m ρ c
  | 8 => exit1_w8 m ρ c
  | 9 => exit1_w9 m ρ c
  | 10 => exit1_w10 m ρ c
  | 11 => exit1_w11 m ρ c
  | ⟨_ + 12, h⟩ => absurd h (Nat.not_lt.2 (Nat.le_add_left _ _))
theorem rest1 (c : Dev nD) : ∀ b, b ∉ Finset.univ.image (Pipeline.arrRef spec1) → V3 m ρ c b = V2 m ρ c b :=
  fun b hb => W3_of_ne m ρ c b fun e => hb (Finset.mem_image.mpr ⟨11, Finset.mem_univ _, e.symm⟩)

/-- After region 2: its arrays at what the pipeline leaves, every other buffer as entered. -/
def W4 (c : Dev nD) : Valuation τ sig (Elt F) :=
  Pipeline.withArrays spec2 c (W3 m ρ c) fun w => (Messages2.dat (V3 m ρ) c).arrAt w cfg2.N
theorem W4_arr (c : Dev nD) (w : Fin cfg2.W) :
    W4 m ρ c (Proc.devRef .tc (Pipeline.arrRef spec2 w)) = (Messages2.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem exit2 (c : Dev nD) (w : Fin cfg2.W) : (Messages2.dat (V3 m ρ) c).arrAt w cfg2.N = V4 m ρ c (Pipeline.arrRef spec2 w) :=
  (W4_arr m ρ c w).symm
theorem rest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After region 3: the new node state in `main_v26`, every other buffer as entered. -/
def W5 (c : Dev nD) : Valuation τ sig (Elt F) :=
  Function.update (W4 m ρ c) (Proc.devRef .tc main_v26) ((Gated3.dat (V4 m ρ) c).arrAt 11 cfg3.N)
theorem W5_out (c : Dev nD) : W5 m ρ c (Proc.devRef .tc main_v26) = (Gated3.dat (V4 m ρ) c).arrAt 11 cfg3.N := by
  unfold W5; exact Function.update_self ..
theorem W5_of_ne (c : Dev nD) (b : Ref sig .tc) (hb : b ≠ main_v26) :
    W5 m ρ c (Proc.devRef .tc b) = W4 m ρ c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m ρ c b
theorem exit3_w0 (c : Dev nD) : (Gated3.dat (V4 m ρ) c).arrAt 0 cfg3.N = V5 m ρ c (Pipeline.arrRef spec3 0) :=
  (((Gated3.dat (V4 m ρ) c).arrAt_in 0 rfl _).trans (Gated3.dat_A (V4 m ρ) c 0)).trans (W5_of_ne m ρ c main_v1 (by decide)).symm
theorem exit3_w1 (c : Dev nD) : (Gated3.dat (V4 m ρ) c).arrAt 1 cfg3.N = V5 m ρ c (Pipeline.arrRef spec3 1) :=
  (((Gated3.dat (V4 m ρ) c).arrAt_in 1 rfl _).trans (Gated3.dat_A (V4 m ρ) c 1)).trans (W5_of_ne m ρ c main_v1 (by decide)).symm
theorem exit3_w2 (c : Dev nD) : (Gated3.dat (V4 m ρ) c).arrAt 2 cfg3.N = V5 m ρ c (Pipeline.arrRef spec3 2) :=
  (((Gated3.dat (V4 m ρ) c).arrAt_in 2 rfl _).trans (Gated3.dat_A (V4 m ρ) c 2)).trans (W5_of_ne m ρ c main_v25_0 (by decide)).symm
theorem exit3_w3 (c : Dev nD) : (Gated3.dat (V4 m ρ) c).arrAt 3 cfg3.N = V5 m ρ c (Pipeline.arrRef spec3 3) :=
  (((Gated3.dat (V4 m ρ) c).arrAt_in 3 rfl _).trans (Gated3.dat_A (V4 m ρ) c 3)).trans (W5_of_ne m ρ c main_v25_1 (by decide)).symm
theorem exit3_w4 (c : Dev nD) : (Gated3.dat (V4 m ρ) c).arrAt 4 cfg3.N = V5 m ρ c (Pipeline.arrRef spec3 4) :=
  (((Gated3.dat (V4 m ρ) c).arrAt_in 4 rfl _).trans (Gated3.dat_A (V4 m ρ) c 4)).trans (W5_of_ne m ρ c main_v24 (by decide)).symm
theorem exit3_w5 (c : Dev nD) : (Gated3.dat (V4 m ρ) c).arrAt 5 cfg3.N = V5 m ρ c (Pipeline.arrRef spec3 5) :=
  (((Gated3.dat (V4 m ρ) c).arrAt_in 5 rfl _).trans (Gated3.dat_A (V4 m ρ) c 5)).trans (W5_of_ne m ρ c main_v7 (by decide)).symm
theorem exit3_w6 (c : Dev nD) : (Gated3.dat (V4 m ρ) c).arrAt 6 cfg3.N = V5 m ρ c (Pipeline.arrRef spec3 6) :=
  (((Gated3.dat (V4 m ρ) c).arrAt_in 6 rfl _).trans (Gated3.dat_A (V4 m ρ) c 6)).trans (W5_of_ne m ρ c main_v18 (by decide)).symm
theorem exit3_w7 (c : Dev nD) : (Gated3.dat (V4 m ρ) c).arrAt 7 cfg3.N = V5 m ρ c (Pipeline.arrRef spec3 7) :=
  (((Gated3.dat (V4 m ρ) c).arrAt_in 7 rfl _).trans (Gated3.dat_A (V4 m ρ) c 7)).trans (W5_of_ne m ρ c main_v9 (by decide)).symm
theorem exit3_w8 (c : Dev nD) : (Gated3.dat (V4 m ρ) c).arrAt 8 cfg3.N = V5 m ρ c (Pipeline.arrRef spec3 8) :=
  (((Gated3.dat (V4 m ρ) c).arrAt_in 8 rfl _).trans (Gated3.dat_A (V4 m ρ) c 8)).trans (W5_of_ne m ρ c main_v19 (by decide)).symm
theorem exit3_w9 (c : Dev nD) : (Gated3.dat (V4 m ρ) c).arrAt 9 cfg3.N = V5 m ρ c (Pipeline.arrRef spec3 9) :=
  (((Gated3.dat (V4 m ρ) c).arrAt_in 9 rfl _).trans (Gated3.dat_A (V4 m ρ) c 9)).trans (W5_of_ne m ρ c main_v11 (by decide)).symm
theorem exit3_w10 (c : Dev nD) : (Gated3.dat (V4 m ρ) c).arrAt 10 cfg3.N = V5 m ρ c (Pipeline.arrRef spec3 10) :=
  (((Gated3.dat (V4 m ρ) c).arrAt_in 10 rfl _).trans (Gated3.dat_A (V4 m ρ) c 10)).trans (W5_of_ne m ρ c main_v20 (by decide)).symm
theorem exit3_w11 (c : Dev nD) : (Gated3.dat (V4 m ρ) c).arrAt 11 cfg3.N = V5 m ρ c (Pipeline.arrRef spec3 11) := (W5_out m ρ c).symm
theorem exit3 (c : Dev nD) : ∀ w : Fin cfg3.W, (Gated3.dat (V4 m ρ) c).arrAt w cfg3.N = V5 m ρ c (Pipeline.arrRef spec3 w) := fun
  | 0 => exit3_w0 m ρ c
  | 1 => exit3_w1 m ρ c
  | 2 => exit3_w2 m ρ c
  | 3 => exit3_w3 m ρ c
  | 4 => exit3_w4 m ρ c
  | 5 => exit3_w5 m ρ c
  | 6 => exit3_w6 m ρ c
  | 7 => exit3_w7 m ρ c
  | 8 => exit3_w8 m ρ c
  | 9 => exit3_w9 m ρ c
  | 10 => exit3_w10 m ρ c
  | 11 => exit3_w11 m ρ c
  | ⟨_ + 12, h⟩ => absurd h (Nat.not_lt.2 (Nat.le_add_left _ _))
theorem rest3 (c : Dev nD) : ∀ b, b ∉ Finset.univ.image (Pipeline.arrRef spec3) → V5 m ρ c b = V4 m ρ c b :=
  fun b hb => W5_of_ne m ρ c b fun e => hb (Finset.mem_image.mpr ⟨11, Finset.mem_univ _, e.symm⟩)

/-- After region 4: its arrays at what the pipeline leaves, every other buffer as entered. -/
def W6 (c : Dev nD) : Valuation τ sig (Elt F) :=
  Pipeline.withArrays spec4 c (W5 m ρ c) fun w => (Messages4.dat (V5 m ρ) c).arrAt w cfg4.N
theorem W6_arr (c : Dev nD) (w : Fin cfg4.W) :
    W6 m ρ c (Proc.devRef .tc (Pipeline.arrRef spec4 w)) = (Messages4.dat (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem exit4 (c : Dev nD) (w : Fin cfg4.W) : (Messages4.dat (V5 m ρ) c).arrAt w cfg4.N = V6 m ρ c (Pipeline.arrRef spec4 w) :=
  (W6_arr m ρ c w).symm
theorem rest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After region 5: the new node state in `main_v28`, every other buffer as entered. -/
def W7 (c : Dev nD) : Valuation τ sig (Elt F) :=
  Function.update (W6 m ρ c) (Proc.devRef .tc main_v28) ((Gated5.dat (V6 m ρ) c).arrAt 11 cfg5.N)
theorem W7_out (c : Dev nD) : W7 m ρ c (Proc.devRef .tc main_v28) = (Gated5.dat (V6 m ρ) c).arrAt 11 cfg5.N := by
  unfold W7; exact Function.update_self ..
theorem W7_of_ne (c : Dev nD) (b : Ref sig .tc) (hb : b ≠ main_v28) :
    W7 m ρ c (Proc.devRef .tc b) = W6 m ρ c (Proc.devRef .tc b) := by
  unfold W7; exact Function.update_of_ne (StableHlo.devRef_ne_of_ne hb) ..
abbrev V7 : (c : Dev nD) → (b : Ref sig .tc) → Buf (Elt F) ((c : Thread nD τ).loc b) := fun c b => W7 m ρ c b
theorem exit5_w0 (c : Dev nD) : (Gated5.dat (V6 m ρ) c).arrAt 0 cfg5.N = V7 m ρ c (Pipeline.arrRef spec5 0) :=
  (((Gated5.dat (V6 m ρ) c).arrAt_in 0 rfl _).trans (Gated5.dat_A (V6 m ρ) c 0)).trans (W7_of_ne m ρ c main_v1 (by decide)).symm
theorem exit5_w1 (c : Dev nD) : (Gated5.dat (V6 m ρ) c).arrAt 1 cfg5.N = V7 m ρ c (Pipeline.arrRef spec5 1) :=
  (((Gated5.dat (V6 m ρ) c).arrAt_in 1 rfl _).trans (Gated5.dat_A (V6 m ρ) c 1)).trans (W7_of_ne m ρ c main_v1 (by decide)).symm
theorem exit5_w2 (c : Dev nD) : (Gated5.dat (V6 m ρ) c).arrAt 2 cfg5.N = V7 m ρ c (Pipeline.arrRef spec5 2) :=
  (((Gated5.dat (V6 m ρ) c).arrAt_in 2 rfl _).trans (Gated5.dat_A (V6 m ρ) c 2)).trans (W7_of_ne m ρ c main_v27_0 (by decide)).symm
theorem exit5_w3 (c : Dev nD) : (Gated5.dat (V6 m ρ) c).arrAt 3 cfg5.N = V7 m ρ c (Pipeline.arrRef spec5 3) :=
  (((Gated5.dat (V6 m ρ) c).arrAt_in 3 rfl _).trans (Gated5.dat_A (V6 m ρ) c 3)).trans (W7_of_ne m ρ c main_v27_1 (by decide)).symm
theorem exit5_w4 (c : Dev nD) : (Gated5.dat (V6 m ρ) c).arrAt 4 cfg5.N = V7 m ρ c (Pipeline.arrRef spec5 4) :=
  (((Gated5.dat (V6 m ρ) c).arrAt_in 4 rfl _).trans (Gated5.dat_A (V6 m ρ) c 4)).trans (W7_of_ne m ρ c main_v26 (by decide)).symm
theorem exit5_w5 (c : Dev nD) : (Gated5.dat (V6 m ρ) c).arrAt 5 cfg5.N = V7 m ρ c (Pipeline.arrRef spec5 5) :=
  (((Gated5.dat (V6 m ρ) c).arrAt_in 5 rfl _).trans (Gated5.dat_A (V6 m ρ) c 5)).trans (W7_of_ne m ρ c main_v7 (by decide)).symm
theorem exit5_w6 (c : Dev nD) : (Gated5.dat (V6 m ρ) c).arrAt 6 cfg5.N = V7 m ρ c (Pipeline.arrRef spec5 6) :=
  (((Gated5.dat (V6 m ρ) c).arrAt_in 6 rfl _).trans (Gated5.dat_A (V6 m ρ) c 6)).trans (W7_of_ne m ρ c main_v18 (by decide)).symm
theorem exit5_w7 (c : Dev nD) : (Gated5.dat (V6 m ρ) c).arrAt 7 cfg5.N = V7 m ρ c (Pipeline.arrRef spec5 7) :=
  (((Gated5.dat (V6 m ρ) c).arrAt_in 7 rfl _).trans (Gated5.dat_A (V6 m ρ) c 7)).trans (W7_of_ne m ρ c main_v9 (by decide)).symm
theorem exit5_w8 (c : Dev nD) : (Gated5.dat (V6 m ρ) c).arrAt 8 cfg5.N = V7 m ρ c (Pipeline.arrRef spec5 8) :=
  (((Gated5.dat (V6 m ρ) c).arrAt_in 8 rfl _).trans (Gated5.dat_A (V6 m ρ) c 8)).trans (W7_of_ne m ρ c main_v19 (by decide)).symm
theorem exit5_w9 (c : Dev nD) : (Gated5.dat (V6 m ρ) c).arrAt 9 cfg5.N = V7 m ρ c (Pipeline.arrRef spec5 9) :=
  (((Gated5.dat (V6 m ρ) c).arrAt_in 9 rfl _).trans (Gated5.dat_A (V6 m ρ) c 9)).trans (W7_of_ne m ρ c main_v11 (by decide)).symm
theorem exit5_w10 (c : Dev nD) : (Gated5.dat (V6 m ρ) c).arrAt 10 cfg5.N = V7 m ρ c (Pipeline.arrRef spec5 10) :=
  (((Gated5.dat (V6 m ρ) c).arrAt_in 10 rfl _).trans (Gated5.dat_A (V6 m ρ) c 10)).trans (W7_of_ne m ρ c main_v20 (by decide)).symm
theorem exit5_w11 (c : Dev nD) : (Gated5.dat (V6 m ρ) c).arrAt 11 cfg5.N = V7 m ρ c (Pipeline.arrRef spec5 11) := (W7_out m ρ c).symm
theorem exit5 (c : Dev nD) : ∀ w : Fin cfg5.W, (Gated5.dat (V6 m ρ) c).arrAt w cfg5.N = V7 m ρ c (Pipeline.arrRef spec5 w) := fun
  | 0 => exit5_w0 m ρ c
  | 1 => exit5_w1 m ρ c
  | 2 => exit5_w2 m ρ c
  | 3 => exit5_w3 m ρ c
  | 4 => exit5_w4 m ρ c
  | 5 => exit5_w5 m ρ c
  | 6 => exit5_w6 m ρ c
  | 7 => exit5_w7 m ρ c
  | 8 => exit5_w8 m ρ c
  | 9 => exit5_w9 m ρ c
  | 10 => exit5_w10 m ρ c
  | 11 => exit5_w11 m ρ c
  | ⟨_ + 12, h⟩ => absurd h (Nat.not_lt.2 (Nat.le_add_left _ _))
theorem rest5 (c : Dev nD) : ∀ b, b ∉ Finset.univ.image (Pipeline.arrRef spec5) → V7 m ρ c b = V6 m ρ c b :=
  fun b hb => W7_of_ne m ρ c b fun e => hb (Finset.mem_image.mpr ⟨11, Finset.mem_univ _, e.symm⟩)

/-- After region 6: its arrays at what the pipeline leaves, every other buffer as entered. -/
def W8 (c : Dev nD) : Valuation τ sig (Elt F) :=
  Pipeline.withArrays spec6 c (W7 m ρ c) fun w => (Messages6.dat (V7 m ρ) c).arrAt w cfg6.N
theorem W8_arr (c : Dev nD) (w : Fin cfg6.W) :
    W8 m ρ c (Proc.devRef .tc (Pipeline.arrRef spec6 w)) = (Messages6.dat (V7 m ρ) c).arrAt w cfg6.N := by
  unfold W8; exact Pipeline.withArrays_arr spec6 launch6.win.arr_inj c _ _ w
theorem W8_of_ne (c : Dev nD) (b : Ref sig .tc) (hb : ∀ w, Pipeline.arrRef spec6 w ≠ b) :
    W8 m ρ c (Proc.devRef .tc b) = W7 m ρ c (Proc.devRef .tc b) := by
  unfold W8; exact Pipeline.withArrays_of_ne spec6 c _ _ b hb
abbrev V8 : (c : Dev nD) → (b : Ref sig .tc) → Buf (Elt F) ((c : Thread nD τ).loc b) := fun c b => W8 m ρ c b
theorem exit6 (c : Dev nD) (w : Fin cfg6.W) : (Messages6.dat (V7 m ρ) c).arrAt w cfg6.N = V8 m ρ c (Pipeline.arrRef spec6 w) :=
  (W8_arr m ρ c w).symm
theorem rest6 (c : Dev nD) : ∀ b, b ∉ Finset.univ.image (Pipeline.arrRef spec6) → V8 m ρ c b = V7 m ρ c b :=
  fun b hb => W8_of_ne m ρ c b fun w e => hb (Finset.mem_image.mpr ⟨w, Finset.mem_univ _, e⟩)

/-- After region 7: the new node state in `main_v30`, every other buffer as entered. -/
def W9 (c : Dev nD) : Valuation τ sig (Elt F) :=
  Function.update (W8 m ρ c) (Proc.devRef .tc main_v30) ((Gated7.dat (V8 m ρ) c).arrAt 11 cfg7.N)
theorem W9_out (c : Dev nD) : W9 m ρ c (Proc.devRef .tc main_v30) = (Gated7.dat (V8 m ρ) c).arrAt 11 cfg7.N := by
  unfold W9; exact Function.update_self ..
theorem W9_of_ne (c : Dev nD) (b : Ref sig .tc) (hb : b ≠ main_v30) :
    W9 m ρ c (Proc.devRef .tc b) = W8 m ρ c (Proc.devRef .tc b) := by
  unfold W9; exact Function.update_of_ne (StableHlo.devRef_ne_of_ne hb) ..
abbrev V9 : (c : Dev nD) → (b : Ref sig .tc) → Buf (Elt F) ((c : Thread nD τ).loc b) := fun c b => W9 m ρ c b
theorem exit7_w0 (c : Dev nD) : (Gated7.dat (V8 m ρ) c).arrAt 0 cfg7.N = V9 m ρ c (Pipeline.arrRef spec7 0) :=
  (((Gated7.dat (V8 m ρ) c).arrAt_in 0 rfl _).trans (Gated7.dat_A (V8 m ρ) c 0)).trans (W9_of_ne m ρ c main_v1 (by decide)).symm
theorem exit7_w1 (c : Dev nD) : (Gated7.dat (V8 m ρ) c).arrAt 1 cfg7.N = V9 m ρ c (Pipeline.arrRef spec7 1) :=
  (((Gated7.dat (V8 m ρ) c).arrAt_in 1 rfl _).trans (Gated7.dat_A (V8 m ρ) c 1)).trans (W9_of_ne m ρ c main_v1 (by decide)).symm
theorem exit7_w2 (c : Dev nD) : (Gated7.dat (V8 m ρ) c).arrAt 2 cfg7.N = V9 m ρ c (Pipeline.arrRef spec7 2) :=
  (((Gated7.dat (V8 m ρ) c).arrAt_in 2 rfl _).trans (Gated7.dat_A (V8 m ρ) c 2)).trans (W9_of_ne m ρ c main_v29_0 (by decide)).symm
theorem exit7_w3 (c : Dev nD) : (Gated7.dat (V8 m ρ) c).arrAt 3 cfg7.N = V9 m ρ c (Pipeline.arrRef spec7 3) :=
  (((Gated7.dat (V8 m ρ) c).arrAt_in 3 rfl _).trans (Gated7.dat_A (V8 m ρ) c 3)).trans (W9_of_ne m ρ c main_v29_1 (by decide)).symm
theorem exit7_w4 (c : Dev nD) : (Gated7.dat (V8 m ρ) c).arrAt 4 cfg7.N = V9 m ρ c (Pipeline.arrRef spec7 4) :=
  (((Gated7.dat (V8 m ρ) c).arrAt_in 4 rfl _).trans (Gated7.dat_A (V8 m ρ) c 4)).trans (W9_of_ne m ρ c main_v28 (by decide)).symm
theorem exit7_w5 (c : Dev nD) : (Gated7.dat (V8 m ρ) c).arrAt 5 cfg7.N = V9 m ρ c (Pipeline.arrRef spec7 5) :=
  (((Gated7.dat (V8 m ρ) c).arrAt_in 5 rfl _).trans (Gated7.dat_A (V8 m ρ) c 5)).trans (W9_of_ne m ρ c main_v7 (by decide)).symm
theorem exit7_w6 (c : Dev nD) : (Gated7.dat (V8 m ρ) c).arrAt 6 cfg7.N = V9 m ρ c (Pipeline.arrRef spec7 6) :=
  (((Gated7.dat (V8 m ρ) c).arrAt_in 6 rfl _).trans (Gated7.dat_A (V8 m ρ) c 6)).trans (W9_of_ne m ρ c main_v18 (by decide)).symm
theorem exit7_w7 (c : Dev nD) : (Gated7.dat (V8 m ρ) c).arrAt 7 cfg7.N = V9 m ρ c (Pipeline.arrRef spec7 7) :=
  (((Gated7.dat (V8 m ρ) c).arrAt_in 7 rfl _).trans (Gated7.dat_A (V8 m ρ) c 7)).trans (W9_of_ne m ρ c main_v9 (by decide)).symm
theorem exit7_w8 (c : Dev nD) : (Gated7.dat (V8 m ρ) c).arrAt 8 cfg7.N = V9 m ρ c (Pipeline.arrRef spec7 8) :=
  (((Gated7.dat (V8 m ρ) c).arrAt_in 8 rfl _).trans (Gated7.dat_A (V8 m ρ) c 8)).trans (W9_of_ne m ρ c main_v19 (by decide)).symm
theorem exit7_w9 (c : Dev nD) : (Gated7.dat (V8 m ρ) c).arrAt 9 cfg7.N = V9 m ρ c (Pipeline.arrRef spec7 9) :=
  (((Gated7.dat (V8 m ρ) c).arrAt_in 9 rfl _).trans (Gated7.dat_A (V8 m ρ) c 9)).trans (W9_of_ne m ρ c main_v11 (by decide)).symm
theorem exit7_w10 (c : Dev nD) : (Gated7.dat (V8 m ρ) c).arrAt 10 cfg7.N = V9 m ρ c (Pipeline.arrRef spec7 10) :=
  (((Gated7.dat (V8 m ρ) c).arrAt_in 10 rfl _).trans (Gated7.dat_A (V8 m ρ) c 10)).trans (W9_of_ne m ρ c main_v20 (by decide)).symm
theorem exit7_w11 (c : Dev nD) : (Gated7.dat (V8 m ρ) c).arrAt 11 cfg7.N = V9 m ρ c (Pipeline.arrRef spec7 11) := (W9_out m ρ c).symm
theorem exit7 (c : Dev nD) : ∀ w : Fin cfg7.W, (Gated7.dat (V8 m ρ) c).arrAt w cfg7.N = V9 m ρ c (Pipeline.arrRef spec7 w) := fun
  | 0 => exit7_w0 m ρ c
  | 1 => exit7_w1 m ρ c
  | 2 => exit7_w2 m ρ c
  | 3 => exit7_w3 m ρ c
  | 4 => exit7_w4 m ρ c
  | 5 => exit7_w5 m ρ c
  | 6 => exit7_w6 m ρ c
  | 7 => exit7_w7 m ρ c
  | 8 => exit7_w8 m ρ c
  | 9 => exit7_w9 m ρ c
  | 10 => exit7_w10 m ρ c
  | 11 => exit7_w11 m ρ c
  | ⟨_ + 12, h⟩ => absurd h (Nat.not_lt.2 (Nat.le_add_left _ _))
theorem rest7 (c : Dev nD) : ∀ b, b ∉ Finset.univ.image (Pipeline.arrRef spec7) → V9 m ρ c b = V8 m ρ c b :=
  fun b hb => W9_of_ne m ρ c b fun e => hb (Finset.mem_image.mpr ⟨11, Finset.mem_univ _, e.symm⟩)

/-- After region 8: its arrays at what the pipeline leaves, every other buffer as entered. -/
def W10 (c : Dev nD) : Valuation τ sig (Elt F) :=
  Pipeline.withArrays spec8 c (W9 m ρ c) fun w => (Messages8.dat (V9 m ρ) c).arrAt w cfg8.N
theorem W10_arr (c : Dev nD) (w : Fin cfg8.W) :
    W10 m ρ c (Proc.devRef .tc (Pipeline.arrRef spec8 w)) = (Messages8.dat (V9 m ρ) c).arrAt w cfg8.N := by
  unfold W10; exact Pipeline.withArrays_arr spec8 launch8.win.arr_inj c _ _ w
theorem W10_of_ne (c : Dev nD) (b : Ref sig .tc) (hb : ∀ w, Pipeline.arrRef spec8 w ≠ b) :
    W10 m ρ c (Proc.devRef .tc b) = W9 m ρ c (Proc.devRef .tc b) := by
  unfold W10; exact Pipeline.withArrays_of_ne spec8 c _ _ b hb
abbrev V10 : (c : Dev nD) → (b : Ref sig .tc) → Buf (Elt F) ((c : Thread nD τ).loc b) := fun c b => W10 m ρ c b
theorem exit8 (c : Dev nD) (w : Fin cfg8.W) : (Messages8.dat (V9 m ρ) c).arrAt w cfg8.N = V10 m ρ c (Pipeline.arrRef spec8 w) :=
  (W10_arr m ρ c w).symm
theorem rest8 (c : Dev nD) : ∀ b, b ∉ Finset.univ.image (Pipeline.arrRef spec8) → V10 m ρ c b = V9 m ρ c b :=
  fun b hb => W10_of_ne m ρ c b fun w e => hb (Finset.mem_image.mpr ⟨w, Finset.mem_univ _, e⟩)

/-- After region 9: the new node state in `main_v32`, every other buffer as entered. -/
def W11 (c : Dev nD) : Valuation τ sig (Elt F) :=
  Function.update (W10 m ρ c) (Proc.devRef .tc main_v32) ((Gated9.dat (V10 m ρ) c).arrAt 11 cfg9.N)
theorem W11_out (c : Dev nD) : W11 m ρ c (Proc.devRef .tc main_v32) = (Gated9.dat (V10 m ρ) c).arrAt 11 cfg9.N := by
  unfold W11; exact Function.update_self ..
theorem W11_of_ne (c : Dev nD) (b : Ref sig .tc) (hb : b ≠ main_v32) :
    W11 m ρ c (Proc.devRef .tc b) = W10 m ρ c (Proc.devRef .tc b) := by
  unfold W11; exact Function.update_of_ne (StableHlo.devRef_ne_of_ne hb) ..
abbrev V11 : (c : Dev nD) → (b : Ref sig .tc) → Buf (Elt F) ((c : Thread nD τ).loc b) := fun c b => W11 m ρ c b
theorem exit9_w0 (c : Dev nD) : (Gated9.dat (V10 m ρ) c).arrAt 0 cfg9.N = V11 m ρ c (Pipeline.arrRef spec9 0) :=
  (((Gated9.dat (V10 m ρ) c).arrAt_in 0 rfl _).trans (Gated9.dat_A (V10 m ρ) c 0)).trans (W11_of_ne m ρ c main_v1 (by decide)).symm
theorem exit9_w1 (c : Dev nD) : (Gated9.dat (V10 m ρ) c).arrAt 1 cfg9.N = V11 m ρ c (Pipeline.arrRef spec9 1) :=
  (((Gated9.dat (V10 m ρ) c).arrAt_in 1 rfl _).trans (Gated9.dat_A (V10 m ρ) c 1)).trans (W11_of_ne m ρ c main_v1 (by decide)).symm
theorem exit9_w2 (c : Dev nD) : (Gated9.dat (V10 m ρ) c).arrAt 2 cfg9.N = V11 m ρ c (Pipeline.arrRef spec9 2) :=
  (((Gated9.dat (V10 m ρ) c).arrAt_in 2 rfl _).trans (Gated9.dat_A (V10 m ρ) c 2)).trans (W11_of_ne m ρ c main_v31_0 (by decide)).symm
theorem exit9_w3 (c : Dev nD) : (Gated9.dat (V10 m ρ) c).arrAt 3 cfg9.N = V11 m ρ c (Pipeline.arrRef spec9 3) :=
  (((Gated9.dat (V10 m ρ) c).arrAt_in 3 rfl _).trans (Gated9.dat_A (V10 m ρ) c 3)).trans (W11_of_ne m ρ c main_v31_1 (by decide)).symm
theorem exit9_w4 (c : Dev nD) : (Gated9.dat (V10 m ρ) c).arrAt 4 cfg9.N = V11 m ρ c (Pipeline.arrRef spec9 4) :=
  (((Gated9.dat (V10 m ρ) c).arrAt_in 4 rfl _).trans (Gated9.dat_A (V10 m ρ) c 4)).trans (W11_of_ne m ρ c main_v30 (by decide)).symm
theorem exit9_w5 (c : Dev nD) : (Gated9.dat (V10 m ρ) c).arrAt 5 cfg9.N = V11 m ρ c (Pipeline.arrRef spec9 5) :=
  (((Gated9.dat (V10 m ρ) c).arrAt_in 5 rfl _).trans (Gated9.dat_A (V10 m ρ) c 5)).trans (W11_of_ne m ρ c main_v7 (by decide)).symm
theorem exit9_w6 (c : Dev nD) : (Gated9.dat (V10 m ρ) c).arrAt 6 cfg9.N = V11 m ρ c (Pipeline.arrRef spec9 6) :=
  (((Gated9.dat (V10 m ρ) c).arrAt_in 6 rfl _).trans (Gated9.dat_A (V10 m ρ) c 6)).trans (W11_of_ne m ρ c main_v18 (by decide)).symm
theorem exit9_w7 (c : Dev nD) : (Gated9.dat (V10 m ρ) c).arrAt 7 cfg9.N = V11 m ρ c (Pipeline.arrRef spec9 7) :=
  (((Gated9.dat (V10 m ρ) c).arrAt_in 7 rfl _).trans (Gated9.dat_A (V10 m ρ) c 7)).trans (W11_of_ne m ρ c main_v9 (by decide)).symm
theorem exit9_w8 (c : Dev nD) : (Gated9.dat (V10 m ρ) c).arrAt 8 cfg9.N = V11 m ρ c (Pipeline.arrRef spec9 8) :=
  (((Gated9.dat (V10 m ρ) c).arrAt_in 8 rfl _).trans (Gated9.dat_A (V10 m ρ) c 8)).trans (W11_of_ne m ρ c main_v19 (by decide)).symm
theorem exit9_w9 (c : Dev nD) : (Gated9.dat (V10 m ρ) c).arrAt 9 cfg9.N = V11 m ρ c (Pipeline.arrRef spec9 9) :=
  (((Gated9.dat (V10 m ρ) c).arrAt_in 9 rfl _).trans (Gated9.dat_A (V10 m ρ) c 9)).trans (W11_of_ne m ρ c main_v11 (by decide)).symm
theorem exit9_w10 (c : Dev nD) : (Gated9.dat (V10 m ρ) c).arrAt 10 cfg9.N = V11 m ρ c (Pipeline.arrRef spec9 10) :=
  (((Gated9.dat (V10 m ρ) c).arrAt_in 10 rfl _).trans (Gated9.dat_A (V10 m ρ) c 10)).trans (W11_of_ne m ρ c main_v20 (by decide)).symm
theorem exit9_w11 (c : Dev nD) : (Gated9.dat (V10 m ρ) c).arrAt 11 cfg9.N = V11 m ρ c (Pipeline.arrRef spec9 11) := (W11_out m ρ c).symm
theorem exit9 (c : Dev nD) : ∀ w : Fin cfg9.W, (Gated9.dat (V10 m ρ) c).arrAt w cfg9.N = V11 m ρ c (Pipeline.arrRef spec9 w) := fun
  | 0 => exit9_w0 m ρ c
  | 1 => exit9_w1 m ρ c
  | 2 => exit9_w2 m ρ c
  | 3 => exit9_w3 m ρ c
  | 4 => exit9_w4 m ρ c
  | 5 => exit9_w5 m ρ c
  | 6 => exit9_w6 m ρ c
  | 7 => exit9_w7 m ρ c
  | 8 => exit9_w8 m ρ c
  | 9 => exit9_w9 m ρ c
  | 10 => exit9_w10 m ρ c
  | 11 => exit9_w11 m ρ c
  | ⟨_ + 12, h⟩ => absurd h (Nat.not_lt.2 (Nat.le_add_left _ _))
theorem rest9 (c : Dev nD) : ∀ b, b ∉ Finset.univ.image (Pipeline.arrRef spec9) → V11 m ρ c b = V10 m ρ c b :=
  fun b hb => W11_of_ne m ρ c b fun e => hb (Finset.mem_image.mpr ⟨11, Finset.mem_univ _, e.symm⟩)

/-- After region 10: its arrays at what the pipeline leaves, every other buffer as entered. -/
def W12 (c : Dev nD) : Valuation τ sig (Elt F) :=
  Pipeline.withArrays spec10 c (W11 m ρ c) fun w => (Output10.dat (V11 m ρ) c).arrAt w cfg10.N
theorem W12_arr (c : Dev nD) (w : Fin cfg10.W) :
    W12 m ρ c (Proc.devRef .tc (Pipeline.arrRef spec10 w)) = (Output10.dat (V11 m ρ) c).arrAt w cfg10.N := by
  unfold W12; exact Pipeline.withArrays_arr spec10 launch10.win.arr_inj c _ _ w
theorem W12_of_ne (c : Dev nD) (b : Ref sig .tc) (hb : ∀ w, Pipeline.arrRef spec10 w ≠ b) :
    W12 m ρ c (Proc.devRef .tc b) = W11 m ρ c (Proc.devRef .tc b) := by
  unfold W12; exact Pipeline.withArrays_of_ne spec10 c _ _ b hb
abbrev V12 : (c : Dev nD) → (b : Ref sig .tc) → Buf (Elt F) ((c : Thread nD τ).loc b) := fun c b => W12 m ρ c b
theorem exit10 (c : Dev nD) (w : Fin cfg10.W) : (Output10.dat (V11 m ρ) c).arrAt w cfg10.N = V12 m ρ c (Pipeline.arrRef spec10 w) :=
  (W12_arr m ρ c w).symm
theorem rest10 (c : Dev nD) : ∀ b, b ∉ Finset.univ.image (Pipeline.arrRef spec10) → V12 m ρ c b = V11 m ρ c b :=
  fun b hb => W12_of_ne m ρ c b fun w e => hb (Finset.mem_image.mpr ⟨w, Finset.mem_univ _, e⟩)

end Cert.Kernel.Whole

end
-- ==== Proof.BitsWholeRegs.lean ====
/-
  The eleven kernel regions as steps of the program's run, each entered from the buffer contents the step before
  left and left at the next boundary's contents.
-/
import proofs.«121501_j55087250538634_2_alg».proof.Proof.BitsWholeFold

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No region reads a table. -/
abbrev adm : (p : Fin 11) → (pcfgs (F := F) p).Adm := fun p => (cfgs p).toPCfg_adm
/-- Every region's proof data, each at its region's entry contents. -/
def pdats : (p : Fin 11) → (c : Dev nD) → Dat τ (Elt F) Unit ℕ (UR sig nD τ) ℕ (Pipeline.pin (pcfgs (F := F)) adm p) c
  | ⟨0, _⟩ => fun c => Messages0.dat (V1 m ρ) c
  | ⟨1, _⟩ => fun c => Gated1.dat (V2 m ρ) c
  | ⟨2, _⟩ => fun c => Messages2.dat (V3 m ρ) c
  | ⟨3, _⟩ => fun c => Gated3.dat (V4 m ρ) c
  | ⟨4, _⟩ => fun c => Messages4.dat (V5 m ρ) c
  | ⟨5, _⟩ => fun c => Gated5.dat (V6 m ρ) c
  | ⟨6, _⟩ => fun c => Messages6.dat (V7 m ρ) c
  | ⟨7, _⟩ => fun c => Gated7.dat (V8 m ρ) c
  | ⟨8, _⟩ => fun c => Messages8.dat (V9 m ρ) c
  | ⟨9, _⟩ => fun c => Gated9.dat (V10 m ρ) c
  | ⟨10, _⟩ => fun c => Output10.dat (V11 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every step: the generator register at some state, nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state "every unscoped buffer at the boundary's contents, the generator register at some
    state, nothing owed": its arrays are split out of the unscoped buffers at entry and put back at the exit contents;
    the generator register goes into the region's invariant and comes back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Messages0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers at entry and put back at the exit contents;
    the generator register goes into the region's invariant and comes back; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Messages2.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (exit2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state "every unscoped buffer at the boundary's contents, the generator register at some
    state, nothing owed": its arrays are split out of the unscoped buffers at entry and put back at the exit contents;
    the generator register goes into the region's invariant and comes back; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Messages4.body_obligation (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (exit4 m ρ c) (rest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state "every unscoped buffer at the boundary's contents, the generator register at some
    state, nothing owed": its arrays are split out of the unscoped buffers at entry and put back at the exit contents;
    the generator register goes into the region's invariant and comes back; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (Messages6.body_obligation (V7 m ρ) c).loose
  hwaits := Pipeline.hwaits_of_owed_zero _ _ _ _ L lv 6 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec6 c (V7 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V7 m ρ c) (V8 m ρ c) ((pdats m ρ 6 c).arrAt · cfg6.N) (exit6 m ρ c) (rest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state "every unscoped buffer at the boundary's contents, the generator register at some
    state, nothing owed": its arrays are split out of the unscoped buffers at entry and put back at the exit contents;
    the generator register goes into the region's invariant and comes back; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (Messages8.body_obligation (V9 m ρ) c).loose
  hwaits := Pipeline.hwaits_of_owed_zero _ _ _ _ L lv 8 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec8 c (V9 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V9 m ρ c) (V10 m ρ c) ((pdats m ρ 8 c).arrAt · cfg8.N) (exit8 m ρ c) (rest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state "every unscoped buffer at the boundary's contents, the generator register at some
    state, nothing owed": its arrays are split out of the unscoped buffers at entry and put back at the exit contents;
    the generator register goes into the region's invariant and comes back; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (Output10.body_obligation (V11 m ρ) c).loose
  hwaits := Pipeline.hwaits_of_owed_zero _ _ _ _ L lv 10 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec10 c (V11 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V11 m ρ c) (V12 m ρ c) ((pdats m ρ 10 c).arrAt · cfg10.N) (exit10 m ρ c) (rest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (a gated update) over the same thread state. The adjacency array's buffer is shared by two of its
    windows: at entry its read permission is halved between them, at exit the halves are joined; only the new-state
    array changes. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Gated1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V2 m ρ c)) := by
      rw [← Pipeline.unscopedBufs_held]
      exact Gated1.enter_arrays (V2 m ρ) c (V2 m ρ c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄)
        ⊢ iprop((∃ r, prngReg c r) ∗ (BI.emp : sProp 𝕄)
          ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (Gated1.leave (V2 m ρ) c).trans h
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := by
      rw [← Pipeline.unscopedBufs_held]
      exact Gated1.leave_arrays (V2 m ρ) c (V2 m ρ c) (V3 m ρ c) ((pdats m ρ 1 c).arrAt · cfg1.N) (exit1 m ρ c) (rest1 m ρ c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 3 (a gated update) over the same thread state. The adjacency array's buffer is shared by two of its
    windows: at entry its read permission is halved between them, at exit the halves are joined; only the new-state
    array changes. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (Gated3.body_obligation (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit : (StableHlo.held (c : Thread nD τ) (Pipeline.ucRefs τ sig) (W4 m ρ c) : sProp 𝕄)
        ⊢ iprop((pdats m ρ 3 c).arrays ((pdats m ρ 3 c).arrAt · 0)
          ∗ Pipeline.unscopedRest (Ix := Unit) (Name := ℕ) (U := UR sig nD τ) (Lvl := ℕ) spec3 c (V4 m ρ c)) := by
      rw [← Pipeline.unscopedBufs_held]
      exact Gated3.enter_arrays (V4 m ρ) c (V4 m ρ c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    have h : (Pipeline.ΦA spec3 c : sProp 𝕄)
        ⊢ iprop((∃ r, prngReg c r) ∗ (BI.emp : sProp 𝕄)
          ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (Gated3.leave (V4 m ρ) c).trans h
  hexit c := by
    have hjoin : iprop((pdats m ρ 3 c).arrays ((pdats m ρ 3 c).arrAt · cfg3.N)
          ∗ Pipeline.unscopedRest (Ix := Unit) (Name := ℕ) (U := UR sig nD τ) (Lvl := ℕ) spec3 c (V4 m ρ c))
        ⊢ (StableHlo.held (c : Thread nD τ) (Pipeline.ucRefs τ sig) (W5 m ρ c) : sProp 𝕄) := by
      rw [← Pipeline.unscopedBufs_held]
      exact Gated3.leave_arrays (V4 m ρ) c (V4 m ρ c) (V5 m ρ c) ((pdats m ρ 3 c).arrAt · cfg3.N) (exit3 m ρ c) (rest3 m ρ c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 5 (a gated update) over the same thread state. The adjacency array's buffer is shared by two of its
    windows: at entry its read permission is halved between them, at exit the halves are joined; only the new-state
    array changes. -/
def reg5 : Pipeline.RegionSeg (pcfgs (F := F)) adm (pdats m ρ) () defs₀ 𝒱₀ L lv 5 where
  win := winFacts₀5
  block_pos := block_pos5
  stage_whole := stage_whole5
  K := PEmpty
  osem k := k.elim
  ho := Pipeline.OwnSemFacts.none _
  hbody c := (Gated5.body_obligation (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec5 c (V6 m ρ c)
  hentry c := by
    rw [Pipeline.ownSems0_none]
    have hsplit : (StableHlo.held (c : Thread nD τ) (Pipeline.ucRefs τ sig) (W6 m ρ c) : sProp 𝕄)
        ⊢ iprop((pdats m ρ 5 c).arrays ((pdats m ρ 5 c).arrAt · 0)
          ∗ Pipeline.unscopedRest (Ix := Unit) (Name := ℕ) (U := UR sig nD τ) (Lvl := ℕ) spec5 c (V6 m ρ c)) := by
      rw [← Pipeline.unscopedBufs_held]
      exact Gated5.enter_arrays (V6 m ρ) c (V6 m ρ c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    have h : (Pipeline.ΦA spec5 c : sProp 𝕄)
        ⊢ iprop((∃ r, prngReg c r) ∗ (BI.emp : sProp 𝕄)
          ∗ Pipeline.scopedRest (Ix := Unit) (Name := ℕ) (U := UR sig nD τ) (Lvl := ℕ) (Val := Elt F) spec5 c) := by
      unfold Pipeline.ΦA
      iintro ⟨Hr, Hp⟩
      isplitl [Hp]; · iexact Hp
      isplitr; · iempintro
      iexact Hr
    exact (Gated5.leave (V6 m ρ) c).trans h
  hexit c := by
    have hjoin : iprop((pdats m ρ 5 c).arrays ((pdats m ρ 5 c).arrAt · cfg5.N)
          ∗ Pipeline.unscopedRest (Ix := Unit) (Name := ℕ) (U := UR sig nD τ) (Lvl := ℕ) spec5 c (V6 m ρ c))
        ⊢ (StableHlo.held (c : Thread nD τ) (Pipeline.ucRefs τ sig) (W7 m ρ c) : sProp 𝕄) := by
      rw [← Pipeline.unscopedBufs_held]
      exact Gated5.leave_arrays (V6 m ρ) c (V6 m ρ c) (V7 m ρ c) ((pdats m ρ 5 c).arrAt · cfg5.N) (exit5 m ρ c) (rest5 m ρ c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 7 (a gated update) over the same thread state. The adjacency array's buffer is shared by two of its
    windows: at entry its read permission is halved between them, at exit the halves are joined; only the new-state
    array changes. -/
def reg7 : Pipeline.RegionSeg (pcfgs (F := F)) adm (pdats m ρ) () defs₀ 𝒱₀ L lv 7 where
  win := winFacts₀7
  block_pos := block_pos7
  stage_whole := stage_whole7
  K := PEmpty
  osem k := k.elim
  ho := Pipeline.OwnSemFacts.none _
  hbody c := (Gated7.body_obligation (V8 m ρ) c).loose
  hwaits := Pipeline.hwaits_of_owed_zero _ _ _ _ L lv 7 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec7 c (V8 m ρ c)
  hentry c := by
    rw [Pipeline.ownSems0_none]
    have hsplit : (StableHlo.held (c : Thread nD τ) (Pipeline.ucRefs τ sig) (W8 m ρ c) : sProp 𝕄)
        ⊢ iprop((pdats m ρ 7 c).arrays ((pdats m ρ 7 c).arrAt · 0)
          ∗ Pipeline.unscopedRest (Ix := Unit) (Name := ℕ) (U := UR sig nD τ) (Lvl := ℕ) spec7 c (V8 m ρ c)) := by
      rw [← Pipeline.unscopedBufs_held]
      exact Gated7.enter_arrays (V8 m ρ) c (V8 m ρ c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none]
    have h : (Pipeline.ΦA spec7 c : sProp 𝕄)
        ⊢ iprop((∃ r, prngReg c r) ∗ (BI.emp : sProp 𝕄)
          ∗ Pipeline.scopedRest (Ix := Unit) (Name := ℕ) (U := UR sig nD τ) (Lvl := ℕ) (Val := Elt F) spec7 c) := by
      unfold Pipeline.ΦA
      iintro ⟨Hr, Hp⟩
      isplitl [Hp]; · iexact Hp
      isplitr; · iempintro
      iexact Hr
    exact (Gated7.leave (V8 m ρ) c).trans h
  hexit c := by
    have hjoin : iprop((pdats m ρ 7 c).arrays ((pdats m ρ 7 c).arrAt · cfg7.N)
          ∗ Pipeline.unscopedRest (Ix := Unit) (Name := ℕ) (U := UR sig nD τ) (Lvl := ℕ) spec7 c (V8 m ρ c))
        ⊢ (StableHlo.held (c : Thread nD τ) (Pipeline.ucRefs τ sig) (W9 m ρ c) : sProp 𝕄) := by
      rw [← Pipeline.unscopedBufs_held]
      exact Gated7.leave_arrays (V8 m ρ) c (V8 m ρ c) (V9 m ρ c) ((pdats m ρ 7 c).arrAt · cfg7.N) (exit7 m ρ c) (rest7 m ρ c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 9 (a gated update) over the same thread state. The adjacency array's buffer is shared by two of its
    windows: at entry its read permission is halved between them, at exit the halves are joined; only the new-state
    array changes. -/
def reg9 : Pipeline.RegionSeg (pcfgs (F := F)) adm (pdats m ρ) () defs₀ 𝒱₀ L lv 9 where
  win := winFacts₀9
  block_pos := block_pos9
  stage_whole := stage_whole9
  K := PEmpty
  osem k := k.elim
  ho := Pipeline.OwnSemFacts.none _
  hbody c := (Gated9.body_obligation (V10 m ρ) c).loose
  hwaits := Pipeline.hwaits_of_owed_zero _ _ _ _ L lv 9 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec9 c (V10 m ρ c)
  hentry c := by
    rw [Pipeline.ownSems0_none]
    have hsplit : (StableHlo.held (c : Thread nD τ) (Pipeline.ucRefs τ sig) (W10 m ρ c) : sProp 𝕄)
        ⊢ iprop((pdats m ρ 9 c).arrays ((pdats m ρ 9 c).arrAt · 0)
          ∗ Pipeline.unscopedRest (Ix := Unit) (Name := ℕ) (U := UR sig nD τ) (Lvl := ℕ) spec9 c (V10 m ρ c)) := by
      rw [← Pipeline.unscopedBufs_held]
      exact Gated9.enter_arrays (V10 m ρ) c (V10 m ρ c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none]
    have h : (Pipeline.ΦA spec9 c : sProp 𝕄)
        ⊢ iprop((∃ r, prngReg c r) ∗ (BI.emp : sProp 𝕄)
          ∗ Pipeline.scopedRest (Ix := Unit) (Name := ℕ) (U := UR sig nD τ) (Lvl := ℕ) (Val := Elt F) spec9 c) := by
      unfold Pipeline.ΦA
      iintro ⟨Hr, Hp⟩
      isplitl [Hp]; · iexact Hp
      isplitr; · iempintro
      iexact Hr
    exact (Gated9.leave (V10 m ρ) c).trans h
  hexit c := by
    have hjoin : iprop((pdats m ρ 9 c).arrays ((pdats m ρ 9 c).arrAt · cfg9.N)
          ∗ Pipeline.unscopedRest (Ix := Unit) (Name := ℕ) (U := UR sig nD τ) (Lvl := ℕ) spec9 c (V10 m ρ c))
        ⊢ (StableHlo.held (c : Thread nD τ) (Pipeline.ucRefs τ sig) (W11 m ρ c) : sProp 𝕄) := by
      rw [← Pipeline.unscopedBufs_held]
      exact Gated9.leave_arrays (V10 m ρ) c (V10 m ρ c) (V11 m ρ c) ((pdats m ρ 9 c).arrAt · cfg9.N) (exit9 m ρ c) (rest9 m ρ c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

end Cert.Kernel.Whole

end
-- ==== Proof.BitsWholeRun.lean ====
/-
  The program's run: the opening host operations followed by the eleven kernel regions, composed in order from the
  launch to the return. Every execution terminates without a fault, and at the end every unscoped buffer of every
  core holds the contents the last boundary names.
-/
import proofs.«121501_j55087250538634_2_alg».proof.Proof.BitsWholeRegs

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No opening host operation allocates a buffer. -/
theorem hostOps0_fresh : (hostOps0 : List (HloOp τ sig (Elt F))).Forall fun op => op.fresh = ∅ := by
  simp only [List.Forall]; repeat' constructor

/-- The opening host operations as a step of the run, from the launch contents. -/
abbrev hostStep : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, the dues apart. -/
abbrev lastState (c : Dev nD) : sProp 𝕄 := iprop(StableHlo.held (c : Thread nD τ) (Pipeline.ucRefs τ sig) (W12 m ρ c) ∗ ∃ r, prngReg c r)

/-- The program's steps in order. -/
abbrev steps : List (Pipeline.Seg (pcfgs (F := F)) adm (pdats m ρ) () defs₀ 𝒱₀ L lv) :=
  [ .host (hostStep m ρ),
    .region (reg0 m ρ),
    .region (reg1 m ρ),
    .region (reg2 m ρ),
    .region (reg3 m ρ),
    .region (reg4 m ρ),
    .region (reg5 m ρ),
    .region (reg6 m ρ),
    .region (reg7 m ρ),
    .region (reg8 m ρ),
    .region (reg9 m ρ),
    .region (reg10 m ρ) ]

/-- The printed program is the run of these steps. -/
theorem main_is_steps (c : Dev nD) : main (F := F) c = Pipeline.Seg.run (steps m ρ) := (main_chain c).trans (by chain_rfl)

set_option backward.isDefEq.respectTransparency.types false in
/-- THE RUN, at any float instance: from any memory with zero counters every weakly fair execution of the program
    terminates, nothing faulting, and in every final state each unscoped buffer of each core holds the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (steps m ρ)
    (fun c Q => by rw [main_is_steps m ρ c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W12 m ρ c) ∗ (∃ r, prngReg c r) ∗ ∃ W, owes (c : Thread nD τ) (0 : CellTallies nD τ sig Unit) W)
        ⊢ iprop(iprop(StableHlo.held (c : Thread nD τ) (Pipeline.ucRefs τ sig) (W12 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Whole

end
-- ==== Proof.BitsHostKeeps.lean ====
/-
  The opening host operations write only their own result buffers: every other buffer — each argument among them —
  holds after them what it held before.
-/
import proofs.«121501_j55087250538634_2_alg».proof.Proof.Gen.Kernel.Regions

set_option maxRecDepth 16384

noncomputable section

namespace Cert.Kernel.HostKeeps

open Cert.Kernel
open Idealize.ShloMosaic Idealize.ShloMosaic.TcCoe
open Idealize.SL Idealize.SL.Sem

variable {F : FTy → Type} [FloatOps F]

/-- A buffer that is no result of an opening host operation is left as it was. -/
theorem keeps (W : Valuation τ sig (Elt F)) (r : Ref sig .tc) (h : r ∉ Gen.hostOps0_W) :
    StableHlo.after Gen.hostOps0 W r = W r :=
  StableHlo.after_of_writes_sub Gen.hostOps0 _ Gen.hostOps0_writes h

end Cert.Kernel.HostKeeps

end
-- ==== Proof.BitsWholeFrame.lean ====
/-
  Every argument's buffer ends as launched: no opening host operation writes an argument, and no region changes one
  (a region reads an argument through an input window, whose array it leaves as found, or does not touch it). So the
  last boundary's contents at an argument walk back, boundary by boundary, to the launch memory — and the run gives the
  program's frame.
-/
import proofs.«121501_j55087250538634_2_alg».proof.Proof.BitsWholeRun
import proofs.«121501_j55087250538634_2_alg».proof.Proof.BitsHostKeeps

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem kept_arg0 (c : Dev nD) : W12 m ρ c (Proc.devRef .tc main_arg0) = m ((c : Thread nD τ).loc main_arg0) :=
    (W12_of_ne m ρ c main_arg0 (by decide)).trans <|
    (W11_of_ne m ρ c main_arg0 (by decide)).trans <|
    (W10_of_ne m ρ c main_arg0 (by decide)).trans <|
    (W9_of_ne m ρ c main_arg0 (by decide)).trans <|
    (W8_of_ne m ρ c main_arg0 (by decide)).trans <|
    (W7_of_ne m ρ c main_arg0 (by decide)).trans <|
    (W6_of_ne m ρ c main_arg0 (by decide)).trans <|
    (W5_of_ne m ρ c main_arg0 (by decide)).trans <|
    (W4_of_ne m ρ c main_arg0 (by decide)).trans <|
    (W3_of_ne m ρ c main_arg0 (by decide)).trans <|
    ((W2_arr m ρ c 0).trans (((Messages0.dat (V1 m ρ) c).arrAt_in 0 rfl _).trans (Messages0.dat_A (V1 m ρ) c 0))).trans <|
    (HostKeeps.keeps (W0 m ρ c) main_arg0 (by decide)).trans <| rfl
theorem kept_arg1 (c : Dev nD) : W12 m ρ c (Proc.devRef .tc main_arg1) = m ((c : Thread nD τ).loc main_arg1) :=
    (W12_of_ne m ρ c main_arg1 (by decide)).trans <|
    (W11_of_ne m ρ c main_arg1 (by decide)).trans <|
    (W10_of_ne m ρ c main_arg1 (by decide)).trans <|
    (W9_of_ne m ρ c main_arg1 (by decide)).trans <|
    (W8_of_ne m ρ c main_arg1 (by decide)).trans <|
    (W7_of_ne m ρ c main_arg1 (by decide)).trans <|
    (W6_of_ne m ρ c main_arg1 (by decide)).trans <|
    (W5_of_ne m ρ c main_arg1 (by decide)).trans <|
    (W4_of_ne m ρ c main_arg1 (by decide)).trans <|
    (W3_of_ne m ρ c main_arg1 (by decide)).trans <|
    (W2_of_ne m ρ c main_arg1 (by decide)).trans <|
    (HostKeeps.keeps (W0 m ρ c) main_arg1 (by decide)).trans <| rfl
theorem kept_arg2 (c : Dev nD) : W12 m ρ c (Proc.devRef .tc main_arg2) = m ((c : Thread nD τ).loc main_arg2) :=
    (W12_of_ne m ρ c main_arg2 (by decide)).trans <|
    (W11_of_ne m ρ c main_arg2 (by decide)).trans <|
    (W10_of_ne m ρ c main_arg2 (by decide)).trans <|
    (W9_of_ne m ρ c main_arg2 (by decide)).trans <|
    (W8_of_ne m ρ c main_arg2 (by decide)).trans <|
    (W7_of_ne m ρ c main_arg2 (by decide)).trans <|
    (W6_of_ne m ρ c main_arg2 (by decide)).trans <|
    (W5_of_ne m ρ c main_arg2 (by decide)).trans <|
    (W4_of_ne m ρ c main_arg2 (by decide)).trans <|
    (W3_of_ne m ρ c main_arg2 (by decide)).trans <|
    (W2_of_ne m ρ c main_arg2 (by decide)).trans <|
    (HostKeeps.keeps (W0 m ρ c) main_arg2 (by decide)).trans <| rfl
theorem kept_arg3 (c : Dev nD) : W12 m ρ c (Proc.devRef .tc main_arg3) = m ((c : Thread nD τ).loc main_arg3) :=
    (W12_of_ne m ρ c main_arg3 (by decide)).trans <|
    (W11_of_ne m ρ c main_arg3 (by decide)).trans <|
    (W10_of_ne m ρ c main_arg3 (by decide)).trans <|
    (W9_of_ne m ρ c main_arg3 (by decide)).trans <|
    (W8_of_ne m ρ c main_arg3 (by decide)).trans <|
    (W7_of_ne m ρ c main_arg3 (by decide)).trans <|
    (W6_of_ne m ρ c main_arg3 (by decide)).trans <|
    (W5_of_ne m ρ c main_arg3 (by decide)).trans <|
    (W4_of_ne m ρ c main_arg3 (by decide)).trans <|
    (W3_of_ne m ρ c main_arg3 (by decide)).trans <|
    (W2_of_ne m ρ c main_arg3 (by decide)).trans <|
    (HostKeeps.keeps (W0 m ρ c) main_arg3 (by decide)).trans <| rfl
theorem kept_arg4 (c : Dev nD) : W12 m ρ c (Proc.devRef .tc main_arg4) = m ((c : Thread nD τ).loc main_arg4) :=
    (W12_of_ne m ρ c main_arg4 (by decide)).trans <|
    (W11_of_ne m ρ c main_arg4 (by decide)).trans <|
    (W10_of_ne m ρ c main_arg4 (by decide)).trans <|
    (W9_of_ne m ρ c main_arg4 (by decide)).trans <|
    (W8_of_ne m ρ c main_arg4 (by decide)).trans <|
    (W7_of_ne m ρ c main_arg4 (by decide)).trans <|
    (W6_of_ne m ρ c main_arg4 (by decide)).trans <|
    (W5_of_ne m ρ c main_arg4 (by decide)).trans <|
    (W4_of_ne m ρ c main_arg4 (by decide)).trans <|
    (W3_of_ne m ρ c main_arg4 (by decide)).trans <|
    (W2_of_ne m ρ c main_arg4 (by decide)).trans <|
    (HostKeeps.keeps (W0 m ρ c) main_arg4 (by decide)).trans <| rfl
theorem kept_arg5 (c : Dev nD) : W12 m ρ c (Proc.devRef .tc main_arg5) = m ((c : Thread nD τ).loc main_arg5) :=
    (W12_of_ne m ρ c main_arg5 (by decide)).trans <|
    (W11_of_ne m ρ c main_arg5 (by decide)).trans <|
    (W10_of_ne m ρ c main_arg5 (by decide)).trans <|
    (W9_of_ne m ρ c main_arg5 (by decide)).trans <|
    (W8_of_ne m ρ c main_arg5 (by decide)).trans <|
    (W7_of_ne m ρ c main_arg5 (by decide)).trans <|
    (W6_of_ne m ρ c main_arg5 (by decide)).trans <|
    (W5_of_ne m ρ c main_arg5 (by decide)).trans <|
    (W4_of_ne m ρ c main_arg5 (by decide)).trans <|
    (W3_of_ne m ρ c main_arg5 (by decide)).trans <|
    (W2_of_ne m ρ c main_arg5 (by decide)).trans <|
    (HostKeeps.keeps (W0 m ρ c) main_arg5 (by decide)).trans <| rfl
theorem kept_arg6 (c : Dev nD) : W12 m ρ c (Proc.devRef .tc main_arg6) = m ((c : Thread nD τ).loc main_arg6) :=
    (W12_of_ne m ρ c main_arg6 (by decide)).trans <|
    (W11_of_ne m ρ c main_arg6 (by decide)).trans <|
    (W10_of_ne m ρ c main_arg6 (by decide)).trans <|
    (W9_of_ne m ρ c main_arg6 (by decide)).trans <|
    (W8_of_ne m ρ c main_arg6 (by decide)).trans <|
    (W7_of_ne m ρ c main_arg6 (by decide)).trans <|
    (W6_of_ne m ρ c main_arg6 (by decide)).trans <|
    (W5_of_ne m ρ c main_arg6 (by decide)).trans <|
    (W4_of_ne m ρ c main_arg6 (by decide)).trans <|
    (W3_of_ne m ρ c main_arg6 (by decide)).trans <|
    (W2_of_ne m ρ c main_arg6 (by decide)).trans <|
    (HostKeeps.keeps (W0 m ρ c) main_arg6 (by decide)).trans <| rfl
theorem kept_arg7 (c : Dev nD) : W12 m ρ c (Proc.devRef .tc main_arg7) = m ((c : Thread nD τ).loc main_arg7) :=
    (W12_of_ne m ρ c main_arg7 (by decide)).trans <|
    (W11_of_ne m ρ c main_arg7 (by decide)).trans <|
    (W10_of_ne m ρ c main_arg7 (by decide)).trans <|
    (W9_of_ne m ρ c main_arg7 (by decide)).trans <|
    (W8_of_ne m ρ c main_arg7 (by decide)).trans <|
    (W7_of_ne m ρ c main_arg7 (by decide)).trans <|
    (W6_of_ne m ρ c main_arg7 (by decide)).trans <|
    (W5_of_ne m ρ c main_arg7 (by decide)).trans <|
    (W4_of_ne m ρ c main_arg7 (by decide)).trans <|
    (W3_of_ne m ρ c main_arg7 (by decide)).trans <|
    (W2_of_ne m ρ c main_arg7 (by decide)).trans <|
    (HostKeeps.keeps (W0 m ρ c) main_arg7 (by decide)).trans <| rfl
theorem kept_arg8 (c : Dev nD) : W12 m ρ c (Proc.devRef .tc main_arg8) = m ((c : Thread nD τ).loc main_arg8) :=
    (W12_of_ne m ρ c main_arg8 (by decide)).trans <|
    (W11_of_ne m ρ c main_arg8 (by decide)).trans <|
    (W10_of_ne m ρ c main_arg8 (by decide)).trans <|
    (W9_of_ne m ρ c main_arg8 (by decide)).trans <|
    (W8_of_ne m ρ c main_arg8 (by decide)).trans <|
    (W7_of_ne m ρ c main_arg8 (by decide)).trans <|
    (W6_of_ne m ρ c main_arg8 (by decide)).trans <|
    (W5_of_ne m ρ c main_arg8 (by decide)).trans <|
    (W4_of_ne m ρ c main_arg8 (by decide)).trans <|
    (W3_of_ne m ρ c main_arg8 (by decide)).trans <|
    (W2_of_ne m ρ c main_arg8 (by decide)).trans <|
    (HostKeeps.keeps (W0 m ρ c) main_arg8 (by decide)).trans <| rfl
theorem kept_arg9 (c : Dev nD) : W12 m ρ c (Proc.devRef .tc main_arg9) = m ((c : Thread nD τ).loc main_arg9) :=
    (W12_of_ne m ρ c main_arg9 (by decide)).trans <|
    (W11_of_ne m ρ c main_arg9 (by decide)).trans <|
    (W10_of_ne m ρ c main_arg9 (by decide)).trans <|
    (W9_of_ne m ρ c main_arg9 (by decide)).trans <|
    (W8_of_ne m ρ c main_arg9 (by decide)).trans <|
    (W7_of_ne m ρ c main_arg9 (by decide)).trans <|
    (W6_of_ne m ρ c main_arg9 (by decide)).trans <|
    (W5_of_ne m ρ c main_arg9 (by decide)).trans <|
    (W4_of_ne m ρ c main_arg9 (by decide)).trans <|
    (W3_of_ne m ρ c main_arg9 (by decide)).trans <|
    (W2_of_ne m ρ c main_arg9 (by decide)).trans <|
    (HostKeeps.keeps (W0 m ρ c) main_arg9 (by decide)).trans <| rfl
theorem kept_arg10 (c : Dev nD) : W12 m ρ c (Proc.devRef .tc main_arg10) = m ((c : Thread nD τ).loc main_arg10) :=
    (W12_of_ne m ρ c main_arg10 (by decide)).trans <|
    (W11_of_ne m ρ c main_arg10 (by decide)).trans <|
    (W10_of_ne m ρ c main_arg10 (by decide)).trans <|
    (W9_of_ne m ρ c main_arg10 (by decide)).trans <|
    (W8_of_ne m ρ c main_arg10 (by decide)).trans <|
    (W7_of_ne m ρ c main_arg10 (by decide)).trans <|
    (W6_of_ne m ρ c main_arg10 (by decide)).trans <|
    (W5_of_ne m ρ c main_arg10 (by decide)).trans <|
    (W4_of_ne m ρ c main_arg10 (by decide)).trans <|
    (W3_of_ne m ρ c main_arg10 (by decide)).trans <|
    (W2_of_ne m ρ c main_arg10 (by decide)).trans <|
    (HostKeeps.keeps (W0 m ρ c) main_arg10 (by decide)).trans <| rfl
theorem kept_arg11 (c : Dev nD) : W12 m ρ c (Proc.devRef .tc main_arg11) = m ((c : Thread nD τ).loc main_arg11) :=
    (W12_of_ne m ρ c main_arg11 (by decide)).trans <|
    (W11_of_ne m ρ c main_arg11 (by decide)).trans <|
    (W10_of_ne m ρ c main_arg11 (by decide)).trans <|
    (W9_of_ne m ρ c main_arg11 (by decide)).trans <|
    (W8_of_ne m ρ c main_arg11 (by decide)).trans <|
    (W7_of_ne m ρ c main_arg11 (by decide)).trans <|
    (W6_of_ne m ρ c main_arg11 (by decide)).trans <|
    (W5_of_ne m ρ c main_arg11 (by decide)).trans <|
    (W4_of_ne m ρ c main_arg11 (by decide)).trans <|
    (W3_of_ne m ρ c main_arg11 (by decide)).trans <|
    (W2_of_ne m ρ c main_arg11 (by decide)).trans <|
    (HostKeeps.keeps (W0 m ρ c) main_arg11 (by decide)).trans <| rfl
theorem kept_arg12 (c : Dev nD) : W12 m ρ c (Proc.devRef .tc main_arg12) = m ((c : Thread nD τ).loc main_arg12) :=
    (W12_of_ne m ρ c main_arg12 (by decide)).trans <|
    (W11_of_ne m ρ c main_arg12 (by decide)).trans <|
    (W10_of_ne m ρ c main_arg12 (by decide)).trans <|
    (W9_of_ne m ρ c main_arg12 (by decide)).trans <|
    (W8_of_ne m ρ c main_arg12 (by decide)).trans <|
    (W7_of_ne m ρ c main_arg12 (by decide)).trans <|
    (W6_of_ne m ρ c main_arg12 (by decide)).trans <|
    (W5_of_ne m ρ c main_arg12 (by decide)).trans <|
    (W4_of_ne m ρ c main_arg12 (by decide)).trans <|
    (W3_of_ne m ρ c main_arg12 (by decide)).trans <|
    (W2_of_ne m ρ c main_arg12 (by decide)).trans <|
    (HostKeeps.keeps (W0 m ρ c) main_arg12 (by decide)).trans <| rfl
theorem kept_arg13 (c : Dev nD) : W12 m ρ c (Proc.devRef .tc main_arg13) = m ((c : Thread nD τ).loc main_arg13) :=
    (W12_of_ne m ρ c main_arg13 (by decide)).trans <|
    (W11_of_ne m ρ c main_arg13 (by decide)).trans <|
    (W10_of_ne m ρ c main_arg13 (by decide)).trans <|
    (W9_of_ne m ρ c main_arg13 (by decide)).trans <|
    (W8_of_ne m ρ c main_arg13 (by decide)).trans <|
    (W7_of_ne m ρ c main_arg13 (by decide)).trans <|
    (W6_of_ne m ρ c main_arg13 (by decide)).trans <|
    (W5_of_ne m ρ c main_arg13 (by decide)).trans <|
    (W4_of_ne m ρ c main_arg13 (by decide)).trans <|
    (W3_of_ne m ρ c main_arg13 (by decide)).trans <|
    (W2_of_ne m ρ c main_arg13 (by decide)).trans <|
    (HostKeeps.keeps (W0 m ρ c) main_arg13 (by decide)).trans <| rfl
theorem kept_arg14 (c : Dev nD) : W12 m ρ c (Proc.devRef .tc main_arg14) = m ((c : Thread nD τ).loc main_arg14) :=
    (W12_of_ne m ρ c main_arg14 (by decide)).trans <|
    (W11_of_ne m ρ c main_arg14 (by decide)).trans <|
    (W10_of_ne m ρ c main_arg14 (by decide)).trans <|
    (W9_of_ne m ρ c main_arg14 (by decide)).trans <|
    (W8_of_ne m ρ c main_arg14 (by decide)).trans <|
    (W7_of_ne m ρ c main_arg14 (by decide)).trans <|
    (W6_of_ne m ρ c main_arg14 (by decide)).trans <|
    (W5_of_ne m ρ c main_arg14 (by decide)).trans <|
    (W4_of_ne m ρ c main_arg14 (by decide)).trans <|
    (W3_of_ne m ρ c main_arg14 (by decide)).trans <|
    (W2_of_ne m ρ c main_arg14 (by decide)).trans <|
    (HostKeeps.keeps (W0 m ρ c) main_arg14 (by decide)).trans <| rfl
theorem kept_arg15 (c : Dev nD) : W12 m ρ c (Proc.devRef .tc main_arg15) = m ((c : Thread nD τ).loc main_arg15) :=
    (W12_of_ne m ρ c main_arg15 (by decide)).trans <|
    (W11_of_ne m ρ c main_arg15 (by decide)).trans <|
    (W10_of_ne m ρ c main_arg15 (by decide)).trans <|
    (W9_of_ne m ρ c main_arg15 (by decide)).trans <|
    (W8_of_ne m ρ c main_arg15 (by decide)).trans <|
    (W7_of_ne m ρ c main_arg15 (by decide)).trans <|
    (W6_of_ne m ρ c main_arg15 (by decide)).trans <|
    (W5_of_ne m ρ c main_arg15 (by decide)).trans <|
    (W4_of_ne m ρ c main_arg15 (by decide)).trans <|
    (W3_of_ne m ρ c main_arg15 (by decide)).trans <|
    (W2_of_ne m ρ c main_arg15 (by decide)).trans <|
    (HostKeeps.keeps (W0 m ρ c) main_arg15 (by decide)).trans <| rfl

/-- THE FRAME, at any float instance: every execution terminates, nothing faulting, with every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c),
     (h c _ (mem_uc main_arg6 (by decide))).trans (kept_arg6 m ρ c),
     (h c _ (mem_uc main_arg7 (by decide))).trans (kept_arg7 m ρ c),
     (h c _ (mem_uc main_arg8 (by decide))).trans (kept_arg8 m ρ c),
     (h c _ (mem_uc main_arg9 (by decide))).trans (kept_arg9 m ρ c),
     (h c _ (mem_uc main_arg10 (by decide))).trans (kept_arg10 m ρ c),
     (h c _ (mem_uc main_arg11 (by decide))).trans (kept_arg11 m ρ c),
     (h c _ (mem_uc main_arg12 (by decide))).trans (kept_arg12 m ρ c),
     (h c _ (mem_uc main_arg13 (by decide))).trans (kept_arg13 m ρ c),
     (h c _ (mem_uc main_arg14 (by decide))).trans (kept_arg14 m ρ c),
     (h c _ (mem_uc main_arg15 (by decide))).trans (kept_arg15 m ρ c)⟩) (run_all m ρ)

/-- The same run with the result buffer named: it ends at the last boundary's contents, the arguments as launched. -/
theorem run_result : θ_run defs (onTc (τ := τ) (main (F := F))) ⟨m, fun _ => 0, ρ⟩ (fun r => ∀ c : Dev nD,
      r.2.mem ((c.tc : Thread nD τ).loc main_v33) = W12 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v33 (by decide)),
     (h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c),
     (h c _ (mem_uc main_arg6 (by decide))).trans (kept_arg6 m ρ c),
     (h c _ (mem_uc main_arg7 (by decide))).trans (kept_arg7 m ρ c),
     (h c _ (mem_uc main_arg8 (by decide))).trans (kept_arg8 m ρ c),
     (h c _ (mem_uc main_arg9 (by decide))).trans (kept_arg9 m ρ c),
     (h c _ (mem_uc main_arg10 (by decide))).trans (kept_arg10 m ρ c),
     (h c _ (mem_uc main_arg11 (by decide))).trans (kept_arg11 m ρ c),
     (h c _ (mem_uc main_arg12 (by decide))).trans (kept_arg12 m ρ c),
     (h c _ (mem_uc main_arg13 (by decide))).trans (kept_arg13 m ρ c),
     (h c _ (mem_uc main_arg14 (by decide))).trans (kept_arg14 m ρ c),
     (h c _ (mem_uc main_arg15 (by decide))).trans (kept_arg15 m ρ c)⟩) (run_all m ρ)

end Cert.Kernel.Whole

end
-- ==== Proof.IdealMessages0.lean ====
/-
  Region 0 of the program: the two edge messages of one GGNN step. For a block of 1024 rows of the node state
  `x` (window 0), the kernel forms  s_in = x · W_in + b_in  (windows 1, 2 -> window 5) and
  s_out = x · W_out + b_out  (windows 3, 4 -> window 6): each a 1024x512 by 512x512 product into the zero
  accumulator plus a bias row broadcast down the rows. The weights and biases are the same block at every point
  (constant index maps); the state block and the two result blocks move with the point.
  Here: what each result buffer holds after the body as a function of the five input blocks, the body's run on
  whole staging buffers, the region's proof data over entry contents `V`, and the body obligation at every point.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Messages0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the two result buffers -/

/-- The incoming-edge message block: the state block times `W_in` plus the bias row, as one stored piece. -/
def sIn (x : Vec F S1024x512 .f32) (w : Vec F S512x512 .bf16) (b : Vec F S1x512 .f32) : Vec F S1024x512 .bf16 :=
  View.canon [⟨rRows, k0_pay2 (View.ld x rRows) (View.ld w rWeight) (View.ld b rBias)⟩]

/-- The outgoing-edge message block: the state block times `W_out` plus the bias row. -/
def sOut (x : Vec F S1024x512 .f32) (w : Vec F S512x512 .bf16) (b : Vec F S1x512 .f32) : Vec F S1024x512 .bf16 :=
  View.canon [⟨rRows, k0_pay3 (View.ld x rRows) (View.ld w rWeight) (View.ld b rBias)⟩]

/-- One store through the whole-buffer rectangle covers the buffer. -/
theorem covers (p : Vec F S1024x512 .bf16) (y : S1024x512.Idx) :
    ∃ pc ∈ ([⟨rRows, p⟩] : List (View.Piece (Elt F) S1024x512 .bf16)), y ∈ pc.1.set :=
  View.cover_of_tiled [⟨rRows, p⟩] S1024x512.size (by rfl) y

/-! ## The body's run -/

set_option maxHeartbeats 1000000 in
/-- On whole staging buffers, the five inputs at contents `x, wi, bi, wo, bo` and the two results at anything, the
    body runs to its end with the inputs as they were and the results at `sIn`, `sOut` of the inputs. -/
theorem body_runs (i : grid0.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .bf16) (h6 : a6.IsWhole)
    (a7 : Memref sig .tc .vmem S1024x512 .bf16) (h7 : a7.IsWhole)
    (x : Vec F S1024x512 .f32) (wi : Vec F S512x512 .bf16) (bi : Vec F S1x512 .f32) (wo : Vec F S512x512 .bf16) (bo : Vec F S1x512 .f32)
    (K : PUnit → sProp 𝕄) :
    iprop(owns (c : Thread nD τ) a1 fullShare x ∗ owns (c : Thread nD τ) a2 fullShare wi ∗ owns (c : Thread nD τ) a3 fullShare bi
        ∗ owns (c : Thread nD τ) a4 fullShare wo ∗ owns (c : Thread nD τ) a5 fullShare bo
        ∗ (∃ d, owns (c : Thread nD τ) a6 fullShare d) ∗ (∃ d, owns (c : Thread nD τ) a7 fullShare d)
        ∗ (iprop(owns (c : Thread nD τ) a1 fullShare x ∗ owns (c : Thread nD τ) a2 fullShare wi ∗ owns (c : Thread nD τ) a3 fullShare bi
            ∗ owns (c : Thread nD τ) a4 fullShare wo ∗ owns (c : Thread nD τ) a5 fullShare bo
            ∗ owns (c : Thread nD τ) a6 fullShare (sIn x wi bi) ∗ owns (c : Thread nD τ) a7 fullShare (sOut x wo bo)) -∗ K ⟨⟩))
      ⊢ wp frame (wpE (defs₀ (F := F)) Variants.none c none) E (cc0__sinout_kernel i a1 h1 a2 h2 a3 h3 a4 h4 a5 h5 a6 h6 a7 h7) K := by
  simp only [cc0__sinout_kernel_eq_skeleton]; unfold cc0__sinout_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  iexists _; isplitr
  swap; · iexact H7
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and each result's at the message block of the input blocks; the invariant is the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sIn (blk V c 0 t) (blk V c 1 t) (blk V c 2 t)
    | ⟨6, _⟩ => sOut (blk V c 0 t) (blk V c 3 t) (blk V c 4 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = sIn (blk V c 0 t) (blk V c 1 t) (blk V c 2 t) := by dsimp only [dat]
theorem after6 (c : Dev nD) (t : Fin cfg0.N) : (dat V c).after 6 t = sOut (blk V c 0 t) (blk V c 3 t) (blk V c 4 t) := by dsimp only [dat]

theorem before0 (c : Dev nD) (t : Fin cfg0.N) (d) : (dat V c).before 0 t d = blk V c 0 t :=
  before0_of V (dat V c) (dat_A V c 0) (after0 V c) t d
theorem before1 (c : Dev nD) (t : Fin cfg0.N) (d) : (dat V c).before 1 t d = blk V c 1 t :=
  before1_of V (dat V c) (dat_A V c 1) (after1 V c) t d
theorem before2 (c : Dev nD) (t : Fin cfg0.N) (d) : (dat V c).before 2 t d = blk V c 2 t :=
  before2_of V (dat V c) (dat_A V c 2) (after2 V c) t d
theorem before3 (c : Dev nD) (t : Fin cfg0.N) (d) : (dat V c).before 3 t d = blk V c 3 t :=
  before3_of V (dat V c) (dat_A V c 3) (after3 V c) t d
theorem before4 (c : Dev nD) (t : Fin cfg0.N) (d) : (dat V c).before 4 t d = blk V c 4 t :=
  before4_of V (dat V c) (dat_A V c 4) (after4 V c) t d

/-! ## The body obligation -/

/-- What the body is called with at point `t`: the invariant, the core's dues, and each window's current staging buffer
    at what the pipeline put there. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so `body_runs` applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs (grid0.coords t) c Set.univ _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation (c : Dev nD) : BodyObligation (dat (F := F) V c) (defs₀ (F := F)) Variants.none () Set.univ := fun t => by
  rw [bigSep_W0, bigSep_W0]
  exact sound_body V c t

end Cert.KernelIdeal.Messages0

end
-- ==== Proof.IdealGated1Runs.lean ====
/-
  Region 1 of the program: the gated update of one block of 512 nodes, accumulated over the eight blocks of 512
  neighbours. At grid point (m, k) the body adds to two running sums kept in scratch between points,
      acc_in  += A[m-block, k-block] · s_in[k-block]        acc_out += A[k-block, m-block]ᵀ · s_out[k-block],
  after setting both to zero when k = 0; when k = 7 it reads the finished sums, forms the reset and update gates and
  the candidate state from them and the node block's own state, and stores the new state. At the other points the
  result block is left alone.
  Here: the body's run in each of the three situations the grid meets — k = 0 (start), 0 < k < 7 (middle), k = 7
  (finish) — on whole staging buffers; what each stored buffer ends with is given as the list of stored pieces the
  run itself produces.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gated1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- "This is the first neighbour block": the test the body makes before zeroing the running sums. -/
abbrev atStart (i : grid1.Coords) : Prop :=
  (Scalar.cmpi .ne (Scalar.extui (Scalar.cmpi .eq (BitVec.ofNat 32 (i 1).val) 0#32)) 0#32) = 1#1
/-- "This is the last neighbour block": the test the body makes before finishing the node block. -/
abbrev atFinish (i : grid1.Coords) : Prop := k1_cond2 i = 1#1

/-- The first test holds exactly at the points whose position is a multiple of 8 (k = 0). -/
theorem atStart_iff : ∀ t : Fin cfg1.N, atStart (grid1.coords t) ↔ t.val % 8 = 0 :=
  (by decide +kernel : ∀ t : Fin grid1.N, atStart (grid1.coords t) ↔ t.val % 8 = 0)
/-- The second holds exactly at the points whose position is 7 modulo 8 (k = 7). -/
theorem atFinish_iff : ∀ t : Fin cfg1.N, atFinish (grid1.coords t) ↔ t.val % 8 = 7 :=
  (by decide +kernel : ∀ t : Fin grid1.N, atFinish (grid1.coords t) ↔ t.val % 8 = 7)

/-! ## The body's run, situation by situation -/

set_option maxHeartbeats 4000000 in
/-- START (k = 0): the running sums are zeroed and the first products added; the result block `xo` is handed back
    untouched. The scratch buffers may hold anything on entry. -/
noncomputable def runStart (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc1__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc1__ggnn_kernel_eq_skeleton, k1_part1_eq_skeleton]; unfold cc1__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 4000000 in
/-- MIDDLE (0 < k < 7): the products are added to the running sums `s0`, `s1` the point before left; the result
    block `xo` is handed back untouched. -/
noncomputable def runMiddle (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc1__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc1__ggnn_kernel_eq_skeleton, k1_part1_eq_skeleton]; unfold cc1__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 8000000 in
/-- FINISH (k = 7): the last products are added to the running sums `s0`, `s1`, and the new state of the node block
    is computed from the finished sums and stored over whatever the result block held. -/
noncomputable def runFinish (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LO : List (View.Piece (Elt F) S512x512 .f32)) (LS0 : List (View.Piece (Elt F) S512x512 .f32)), { LS1 : List (View.Piece (Elt F) S512x512 .f32) //
      ∀ (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f LO) ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc1__ggnn_kernel i a2 h2 a3 h3 a4 h4 a5 h5 a6 h6 a7 h7 a8 h8 a9 h9 a10 h10 a11 h11 a12 h12 a13 h13 a14 h14 a15 h15) Kont } := by
  refine ⟨?_, ?_, ?_, fun E Kont => ?run⟩
  case run =>
    simp only [cc1__ggnn_kernel_eq_skeleton, k1_part1_eq_skeleton]; unfold cc1__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

end Cert.KernelIdeal.Gated1

end
-- ==== Proof.IdealGated1.lean ====
/-
  Region 1 of the program, continued: what the two running sums and the result block hold after each of the 64 grid
  points, by recursion on the point's position n = 8·m + k — at k = 0 the sums restart from zero, at 0 < k < 7 they
  grow from what the point before left, at k = 7 they are finished and the new node state is stored —; the region's
  invariant, which carries the two sums from one point to the next; the proof data; and the body obligation.
-/
import proofs.«121501_j55087250538634_2_alg».proof.Proof.IdealGated1Runs
import Idealize.ShloMosaic.Lib.Ring

set_option maxRecDepth 16384

noncomputable section

namespace Cert.KernelIdeal.Gated1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The buffers the body runs on at a point -/

abbrev mw0 (t : Fin cfg1.N) := win1_0.stage (cfg1.slots t 0)
abbrev hw0 (t : Fin cfg1.N) : (mw0 t).IsWhole := hstage1_0 ((cfg1.slots t 0).cast nbuf1_0)
abbrev mw1 (t : Fin cfg1.N) := win1_1.stage (cfg1.slots t 1)
abbrev hw1 (t : Fin cfg1.N) : (mw1 t).IsWhole := hstage1_1 ((cfg1.slots t 1).cast nbuf1_1)
abbrev mw2 (t : Fin cfg1.N) := win1_2.stage (cfg1.slots t 2)
abbrev hw2 (t : Fin cfg1.N) : (mw2 t).IsWhole := hstage1_2 ((cfg1.slots t 2).cast nbuf1_2)
abbrev mw3 (t : Fin cfg1.N) := win1_3.stage (cfg1.slots t 3)
abbrev hw3 (t : Fin cfg1.N) : (mw3 t).IsWhole := hstage1_3 ((cfg1.slots t 3).cast nbuf1_3)
abbrev mw4 (t : Fin cfg1.N) := win1_4.stage (cfg1.slots t 4)
abbrev hw4 (t : Fin cfg1.N) : (mw4 t).IsWhole := hstage1_4 ((cfg1.slots t 4).cast nbuf1_4)
abbrev mw5 (t : Fin cfg1.N) := win1_5.stage (cfg1.slots t 5)
abbrev hw5 (t : Fin cfg1.N) : (mw5 t).IsWhole := hstage1_5 ((cfg1.slots t 5).cast nbuf1_5)
abbrev mw6 (t : Fin cfg1.N) := win1_6.stage (cfg1.slots t 6)
abbrev hw6 (t : Fin cfg1.N) : (mw6 t).IsWhole := hstage1_6 ((cfg1.slots t 6).cast nbuf1_6)
abbrev mw7 (t : Fin cfg1.N) := win1_7.stage (cfg1.slots t 7)
abbrev hw7 (t : Fin cfg1.N) : (mw7 t).IsWhole := hstage1_7 ((cfg1.slots t 7).cast nbuf1_7)
abbrev mw8 (t : Fin cfg1.N) := win1_8.stage (cfg1.slots t 8)
abbrev hw8 (t : Fin cfg1.N) : (mw8 t).IsWhole := hstage1_8 ((cfg1.slots t 8).cast nbuf1_8)
abbrev mw9 (t : Fin cfg1.N) := win1_9.stage (cfg1.slots t 9)
abbrev hw9 (t : Fin cfg1.N) : (mw9 t).IsWhole := hstage1_9 ((cfg1.slots t 9).cast nbuf1_9)
abbrev mw10 (t : Fin cfg1.N) := win1_10.stage (cfg1.slots t 10)
abbrev hw10 (t : Fin cfg1.N) : (mw10 t).IsWhole := hstage1_10 ((cfg1.slots t 10).cast nbuf1_10)
abbrev mw11 (t : Fin cfg1.N) := win1_11.stage (cfg1.slots t 11)
abbrev hw11 (t : Fin cfg1.N) : (mw11 t).IsWhole := hstage1_11 ((cfg1.slots t 11).cast nbuf1_11)
/-- The two scratch buffers holding the running sums. -/
abbrev sc0 : Memref sig .tc .vmem S512x512 .f32 := Memref.whole cc1_scratch0
abbrev sc1 : Memref sig .tc .vmem S512x512 .f32 := Memref.whole cc1_scratch1
/-- The views through which stored pieces are read back as contents. -/
abbrev vS0 : View sig .tc .vmem S512x512 .f32 := sc0.view
abbrev vS1 : View sig .tc .vmem S512x512 .f32 := sc1.view
abbrev vOut : View sig .tc .vmem S512x512 .f32 := (Memref.whole cc1_stg11_0 : Memref sig .tc .vmem S512x512 .f32).view

/-! ## Where the result window rests -/

theorem out_idle : ∀ t : Fin cfg1.N, ¬atFinish (grid1.coords t) → cfg1.idle 11 (grid1.coords t) = true :=
  (by decide +kernel : ∀ t : Fin grid1.N, ¬atFinish (grid1.coords t) → cfg1.idle 11 (grid1.coords t) = true)
theorem out_noFlush : ∀ t : Fin cfg1.N, ¬atFinish (grid1.coords t) → (cfg1.win 11).flush t = false :=
  (by decide +kernel : ∀ t : Fin grid1.N, ¬atFinish (grid1.coords t) → win1_11.flush t = false)
theorem out_live : ∀ t : Fin cfg1.N, atFinish (grid1.coords t) → cfg1.idle 11 (grid1.coords t) = false :=
  (by decide +kernel : ∀ t : Fin grid1.N, atFinish (grid1.coords t) → cfg1.idle 11 (grid1.coords t) = false)

/-! ## What each situation leaves: the stored pieces read back -/

/-- The result block's placeholder at the points where nothing is stored into it (never consulted: the window rests
    there and is not written back). -/
def restOut : Vec F S512x512 .f32 := vOut.read (Elt F) (vOut.writes (Elt F) vOut.junk [])

/-- After a START point: (the resting result block, the first sum, the second sum). -/
def startTriple (c : Dev nD) (t : Fin cfg1.N) (hs : atStart (grid1.coords t)) (hf : ¬atFinish (grid1.coords t)) : Vec F S512x512 .f32 × Vec F S512x512 .f32 × Vec F S512x512 .f32 :=
  (restOut,
   vS0.read (Elt F) (vS0.writes (Elt F) vS0.junk (runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1),
   vS1.read (Elt F) (vS1.writes (Elt F) vS1.junk (runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1))

/-- After a MIDDLE point, from the sums `s0`, `s1` the point before left. -/
def middleTriple (c : Dev nD) (t : Fin cfg1.N) (hs : ¬atStart (grid1.coords t)) (hf : ¬atFinish (grid1.coords t)) (s0 s1 : Vec F S512x512 .f32) : Vec F S512x512 .f32 × Vec F S512x512 .f32 × Vec F S512x512 .f32 :=
  (restOut,
   vS0.read (Elt F) (vS0.writes (Elt F) vS0.junk (runMiddle c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS1.read (Elt F) (vS1.writes (Elt F) vS1.junk (runMiddle c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1))

/-- After a FINISH point, from the sums `s0`, `s1` the point before left: (the new node state, the finished sums). -/
def finishTriple (c : Dev nD) (t : Fin cfg1.N) (hs : ¬atStart (grid1.coords t)) (hf : atFinish (grid1.coords t)) (s0 s1 : Vec F S512x512 .f32) : Vec F S512x512 .f32 × Vec F S512x512 .f32 × Vec F S512x512 .f32 :=
  (vOut.read (Elt F) (vOut.writes (Elt F) vOut.junk (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS0.read (Elt F) (vS0.writes (Elt F) vS0.junk (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1),
   vS1.read (Elt F) (vS1.writes (Elt F) vS1.junk (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1))

/-! ## The stored pieces cover their buffers -/

theorem start_cover0 (c : Dev nD) (t : Fin cfg1.N) (hs : atStart (grid1.coords t)) (hf : ¬atFinish (grid1.coords t)) (y : S512x512.Idx) :
    ∃ pc ∈ (runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1, y ∈ pc.1.set :=
  View.cover_of_tiledL _ S512x512.size (by sl_kernel_rfl) y
theorem start_cover1 (c : Dev nD) (t : Fin cfg1.N) (hs : atStart (grid1.coords t)) (hf : ¬atFinish (grid1.coords t)) (y : S512x512.Idx) :
    ∃ pc ∈ (runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1, y ∈ pc.1.set :=
  View.cover_of_tiledL _ S512x512.size (by sl_kernel_rfl) y
theorem middle_cover0 (c : Dev nD) (t : Fin cfg1.N) (hs : ¬atStart (grid1.coords t)) (hf : ¬atFinish (grid1.coords t)) (s0 s1 : Vec F S512x512 .f32) (y : S512x512.Idx) :
    ∃ pc ∈ (runMiddle c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem middle_cover1 (c : Dev nD) (t : Fin cfg1.N) (hs : ¬atStart (grid1.coords t)) (hf : ¬atFinish (grid1.coords t)) (s0 s1 : Vec F S512x512 .f32) (y : S512x512.Idx) :
    ∃ pc ∈ (runMiddle c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_coverO (c : Dev nD) (t : Fin cfg1.N) (hs : ¬atStart (grid1.coords t)) (hf : atFinish (grid1.coords t)) (s0 s1 : Vec F S512x512 .f32) (y : S512x512.Idx) :
    ∃ pc ∈ (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem finish_cover0 (c : Dev nD) (t : Fin cfg1.N) (hs : ¬atStart (grid1.coords t)) (hf : atFinish (grid1.coords t)) (s0 s1 : Vec F S512x512 .f32) (y : S512x512.Idx) :
    ∃ pc ∈ (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_cover1 (c : Dev nD) (t : Fin cfg1.N) (hs : ¬atStart (grid1.coords t)) (hf : atFinish (grid1.coords t)) (s0 s1 : Vec F S512x512 .f32) (y : S512x512.Idx) :
    ∃ pc ∈ (runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1, y ∈ pc.1.set :=
  View.cover_of_tiledL _ S512x512.size (by sl_kernel_rfl) y

/-! ## The accumulation over the grid -/

/-- After the point at position `n`: (the result block's buffer, the first running sum, the second). -/
def sums (c : Dev nD) : (n : ℕ) → n < cfg1.N → Vec F S512x512 .f32 × Vec F S512x512 .f32 × Vec F S512x512 .f32
  | 0, hn => startTriple V c ⟨0, hn⟩ ((atStart_iff ⟨0, hn⟩).mpr (Nat.zero_mod _))
      (fun h => (fun h => by (try dsimp only at h); omega) ((atFinish_iff ⟨0, hn⟩).mp h))
  | n + 1, hn =>
    if h0 : (n + 1) % 8 = 0 then
      if h7 : (n + 1) % 8 = 7 then False.elim (by omega)
      else startTriple V c ⟨n + 1, hn⟩ ((atStart_iff ⟨n + 1, hn⟩).mpr h0) (fun h => h7 ((atFinish_iff ⟨n + 1, hn⟩).mp h))
    else
      if h7 : (n + 1) % 8 = 7 then
        finishTriple V c ⟨n + 1, hn⟩ (fun h => h0 ((atStart_iff ⟨n + 1, hn⟩).mp h)) ((atFinish_iff ⟨n + 1, hn⟩).mpr h7)
          (sums c n (Nat.lt_of_succ_lt hn)).2.1 (sums c n (Nat.lt_of_succ_lt hn)).2.2
      else
        middleTriple V c ⟨n + 1, hn⟩ (fun h => h0 ((atStart_iff ⟨n + 1, hn⟩).mp h)) (fun h => h7 ((atFinish_iff ⟨n + 1, hn⟩).mp h))
          (sums c n (Nat.lt_of_succ_lt hn)).2.1 (sums c n (Nat.lt_of_succ_lt hn)).2.2

theorem sums_start (c : Dev nD) (t : Fin cfg1.N) (h0 : t.val % 8 = 0) (h7 : ¬t.val % 8 = 7) :
    sums V c t.val t.isLt = startTriple V c t ((atStart_iff t).mpr h0) (fun h => h7 ((atFinish_iff t).mp h)) := by
  obtain ⟨n, hn⟩ := t
  cases n with
  | zero => exact rfl
  | succ n => exact (dif_pos h0).trans ((dif_neg h7).trans rfl)

theorem sums_middle (c : Dev nD) (t : Fin cfg1.N) (h0 : ¬t.val % 8 = 0) (h7 : ¬t.val % 8 = 7) :
    sums V c t.val t.isLt = middleTriple V c t (fun h => h0 ((atStart_iff t).mp h)) (fun h => h7 ((atFinish_iff t).mp h))
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h7).trans rfl)

theorem sums_finish (c : Dev nD) (t : Fin cfg1.N) (h0 : ¬t.val % 8 = 0) (h7 : t.val % 8 = 7) :
    sums V c t.val t.isLt = finishTriple V c t (fun h => h0 ((atStart_iff t).mp h)) ((atFinish_iff t).mpr h7)
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- The other scoped buffers of the core, unopened. -/
abbrev others (c : Dev nD) : sProp 𝕄 :=
  Pipeline.scopedRestBut (Ix := Unit) (Name := ℕ) (U := UR sig nD τ) (Lvl := ℕ) (Val := Elt F) spec1 c [cc1_scratch0, cc1_scratch1]

/-- Before the point at position `n`: at the first point every scratch buffer at anything; afterwards the two running
    sums at what the point before left, the other scoped buffers and the generator register untouched. -/
def carried (c : Dev nD) : (n : ℕ) → n ≤ cfg1.N → sProp 𝕄
  | 0, _ => Pipeline.ΦA spec1 c
  | n + 1, hn => iprop(iprop(iprop(owns (c : Thread nD τ) sc0 fullShare (sums V c n hn).2.1 ∗ owns (c : Thread nD τ) sc1 fullShare (sums V c n hn).2.2)
      ∗ others c) ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop(iprop(iprop(owns (c : Thread nD τ) sc0 fullShare (sums V c n hn).2.1 ∗ owns (c : Thread nD τ) sc1 fullShare (sums V c n hn).2.2)
      ∗ others c) ∗ (∃ r, prngReg c r)) := rfl

theorem carried_pos (c : Dev nD) (n : ℕ) (h : n ≤ cfg1.N) (hz : n ≠ 0) :
    carried V c n h = iprop(iprop(iprop(owns (c : Thread nD τ) sc0 fullShare (sums V c (n - 1) (by omega)).2.1
      ∗ owns (c : Thread nD τ) sc1 fullShare (sums V c (n - 1) (by omega)).2.2) ∗ others c) ∗ (∃ r, prngReg c r)) := by
  cases n with
  | zero => exact absurd rfl hz
  | succ n => rfl

/-- The invariant handed in at the first point, with the two scratch buffers named. -/
theorem entry_eq (c : Dev nD) :
    (Pipeline.ΦA spec1 c : sProp 𝕄)
      = iprop(iprop(iprop((∃ d, owns (c : Thread nD τ) sc0 fullShare d) ∗ (∃ d, owns (c : Thread nD τ) sc1 fullShare d)) ∗ others c) ∗ (∃ r, prngReg c r)) := by
  unfold Pipeline.ΦA; rw [scopedRest1_split]; simp only [sc0, sc1, owns_whole]; try rfl

/-! ## The proof data -/

theorem before0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before5_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before6_of {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before7_of {c : Dev nD} (dat : Dat τ (Elt F) Unit ℕ (UR sig nD τ) ℕ cfg1 c) (hA : dat.A 7 = V c (Pipeline.arrRef spec1 7))
    (hafter : ∀ t, dat.after 7 t = blk V c 7 t) (t : Fin cfg1.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
theorem before8_of {c : Dev nD} (dat : Dat τ (Elt F) Unit ℕ (UR sig nD τ) ℕ cfg1 c) (hA : dat.A 8 = V c (Pipeline.arrRef spec1 8))
    (hafter : ∀ t, dat.after 8 t = blk V c 8 t) (t : Fin cfg1.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
theorem before9_of {c : Dev nD} (dat : Dat τ (Elt F) Unit ℕ (UR sig nD τ) ℕ cfg1 c) (hA : dat.A 9 = V c (Pipeline.arrRef spec1 9))
    (hafter : ∀ t, dat.after 9 t = blk V c 9 t) (t : Fin cfg1.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
theorem before10_of {c : Dev nD} (dat : Dat τ (Elt F) Unit ℕ (UR sig nD τ) ℕ cfg1 c) (hA : dat.A 10 = V c (Pipeline.arrRef spec1 10))
    (hafter : ∀ t, dat.after 10 t = blk V c 10 t) (t : Fin cfg1.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`. The adjacency array is read through two windows (a block and the
    mirrored block): each holds half of the read permission. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (sums V c t.val t.isLt).1
  Φ t := carried V c t.val (Nat.le_of_lt_succ t.isLt)
  q w := match w with
    | ⟨0, _⟩ => fullShare.left
    | ⟨1, _⟩ => fullShare.right
    | _ => fullShare
  owed _ := 0

theorem dat_A (c : Dev nD) (w : Fin cfg1.W) : (dat V c).A w = V c (Pipeline.arrRef spec1 w) := by
  dsimp only [dat]

theorem carried_castSucc (c : Dev nD) (t : Fin cfg1.N) :
    (dat V c).Φ t.castSucc = carried V c t.val (Nat.le_of_lt t.isLt) := by
  dsimp only [dat]; simp only [Fin.coe_castSucc]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = blk V c 6 t := by dsimp only [dat]
theorem after7 (c : Dev nD) (t : Fin cfg1.N) : (dat V c).after 7 t = blk V c 7 t := by dsimp only [dat]
theorem after8 (c : Dev nD) (t : Fin cfg1.N) : (dat V c).after 8 t = blk V c 8 t := by dsimp only [dat]
theorem after9 (c : Dev nD) (t : Fin cfg1.N) : (dat V c).after 9 t = blk V c 9 t := by dsimp only [dat]
theorem after10 (c : Dev nD) (t : Fin cfg1.N) : (dat V c).after 10 t = blk V c 10 t := by dsimp only [dat]
theorem after11 (c : Dev nD) (t : Fin cfg1.N) : (dat V c).after 11 t = (sums V c t.val t.isLt).1 := by dsimp only [dat]

theorem before0 (c : Dev nD) (t : Fin cfg1.N) (d) : (dat V c).before 0 t d = blk V c 0 t :=
  before0_of V (dat V c) (dat_A V c 0) (after0 V c) t d
theorem before1 (c : Dev nD) (t : Fin cfg1.N) (d) : (dat V c).before 1 t d = blk V c 1 t :=
  before1_of V (dat V c) (dat_A V c 1) (after1 V c) t d
theorem before2 (c : Dev nD) (t : Fin cfg1.N) (d) : (dat V c).before 2 t d = blk V c 2 t :=
  before2_of V (dat V c) (dat_A V c 2) (after2 V c) t d
theorem before3 (c : Dev nD) (t : Fin cfg1.N) (d) : (dat V c).before 3 t d = blk V c 3 t :=
  before3_of V (dat V c) (dat_A V c 3) (after3 V c) t d
theorem before4 (c : Dev nD) (t : Fin cfg1.N) (d) : (dat V c).before 4 t d = blk V c 4 t :=
  before4_of V (dat V c) (dat_A V c 4) (after4 V c) t d
theorem before5 (c : Dev nD) (t : Fin cfg1.N) (d) : (dat V c).before 5 t d = blk V c 5 t :=
  before5_of V (dat V c) (dat_A V c 5) (after5 V c) t d
theorem before6 (c : Dev nD) (t : Fin cfg1.N) (d) : (dat V c).before 6 t d = blk V c 6 t :=
  before6_of V (dat V c) (dat_A V c 6) (after6 V c) t d
theorem before7 (c : Dev nD) (t : Fin cfg1.N) (d) : (dat V c).before 7 t d = blk V c 7 t :=
  before7_of V (dat V c) (dat_A V c 7) (after7 V c) t d
theorem before8 (c : Dev nD) (t : Fin cfg1.N) (d) : (dat V c).before 8 t d = blk V c 8 t :=
  before8_of V (dat V c) (dat_A V c 8) (after8 V c) t d
theorem before9 (c : Dev nD) (t : Fin cfg1.N) (d) : (dat V c).before 9 t d = blk V c 9 t :=
  before9_of V (dat V c) (dat_A V c 9) (after9 V c) t d
theorem before10 (c : Dev nD) (t : Fin cfg1.N) (d) : (dat V c).before 10 t d = blk V c 10 t :=
  before10_of V (dat V c) (dat_A V c 10) (after10 V c) t d

theorem leaves0 (c : Dev nD) (t : Fin cfg1.N) :
    (dat V c).leavesExact 0 t = owns (c : Thread nD τ) (mw0 t) fullShare (blk V c 0 t) := by
  unfold Dat.leavesExact; rw [show cfg1.idle 0 (cfg1.grid.coords t) = false from rfl, after0]; try rfl
theorem leaves1 (c : Dev nD) (t : Fin cfg1.N) :
    (dat V c).leavesExact 1 t = owns (c : Thread nD τ) (mw1 t) fullShare (blk V c 1 t) := by
  unfold Dat.leavesExact; rw [show cfg1.idle 1 (cfg1.grid.coords t) = false from rfl, after1]; try rfl
theorem leaves2 (c : Dev nD) (t : Fin cfg1.N) :
    (dat V c).leavesExact 2 t = owns (c : Thread nD τ) (mw2 t) fullShare (blk V c 2 t) := by
  unfold Dat.leavesExact; rw [show cfg1.idle 2 (cfg1.grid.coords t) = false from rfl, after2]; try rfl
theorem leaves3 (c : Dev nD) (t : Fin cfg1.N) :
    (dat V c).leavesExact 3 t = owns (c : Thread nD τ) (mw3 t) fullShare (blk V c 3 t) := by
  unfold Dat.leavesExact; rw [show cfg1.idle 3 (cfg1.grid.coords t) = false from rfl, after3]; try rfl
theorem leaves4 (c : Dev nD) (t : Fin cfg1.N) :
    (dat V c).leavesExact 4 t = owns (c : Thread nD τ) (mw4 t) fullShare (blk V c 4 t) := by
  unfold Dat.leavesExact; rw [show cfg1.idle 4 (cfg1.grid.coords t) = false from rfl, after4]; try rfl
theorem leaves5 (c : Dev nD) (t : Fin cfg1.N) :
    (dat V c).leavesExact 5 t = owns (c : Thread nD τ) (mw5 t) fullShare (blk V c 5 t) := by
  unfold Dat.leavesExact; rw [show cfg1.idle 5 (cfg1.grid.coords t) = false from rfl, after5]; try rfl
theorem leaves6 (c : Dev nD) (t : Fin cfg1.N) :
    (dat V c).leavesExact 6 t = owns (c : Thread nD τ) (mw6 t) fullShare (blk V c 6 t) := by
  unfold Dat.leavesExact; rw [show cfg1.idle 6 (cfg1.grid.coords t) = false from rfl, after6]; try rfl
theorem leaves7 (c : Dev nD) (t : Fin cfg1.N) :
    (dat V c).leavesExact 7 t = owns (c : Thread nD τ) (mw7 t) fullShare (blk V c 7 t) := by
  unfold Dat.leavesExact; rw [show cfg1.idle 7 (cfg1.grid.coords t) = false from rfl, after7]; try rfl
theorem leaves8 (c : Dev nD) (t : Fin cfg1.N) :
    (dat V c).leavesExact 8 t = owns (c : Thread nD τ) (mw8 t) fullShare (blk V c 8 t) := by
  unfold Dat.leavesExact; rw [show cfg1.idle 8 (cfg1.grid.coords t) = false from rfl, after8]; try rfl
theorem leaves9 (c : Dev nD) (t : Fin cfg1.N) :
    (dat V c).leavesExact 9 t = owns (c : Thread nD τ) (mw9 t) fullShare (blk V c 9 t) := by
  unfold Dat.leavesExact; rw [show cfg1.idle 9 (cfg1.grid.coords t) = false from rfl, after9]; try rfl
theorem leaves10 (c : Dev nD) (t : Fin cfg1.N) :
    (dat V c).leavesExact 10 t = owns (c : Thread nD τ) (mw10 t) fullShare (blk V c 10 t) := by
  unfold Dat.leavesExact; rw [show cfg1.idle 10 (cfg1.grid.coords t) = false from rfl, after10]; try rfl

/-! ## The body obligation -/

def bodyPre (c : Dev nD) (t : Fin cfg1.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d))
    ∗ (∃ d, owns (c : Thread nD τ) (mw5 t) fullShare ((dat V c).before 5 t d))
    ∗ (∃ d, owns (c : Thread nD τ) (mw6 t) fullShare ((dat V c).before 6 t d))
    ∗ (∃ d, owns (c : Thread nD τ) (mw7 t) fullShare ((dat V c).before 7 t d))
    ∗ (∃ d, owns (c : Thread nD τ) (mw8 t) fullShare ((dat V c).before 8 t d))
    ∗ (∃ d, owns (c : Thread nD τ) (mw9 t) fullShare ((dat V c).before 9 t d))
    ∗ (∃ d, owns (c : Thread nD τ) (mw10 t) fullShare ((dat V c).before 10 t d))
    ∗ (∃ d, owns (c : Thread nD τ) (mw11 t) fullShare ((dat V c).before 11 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

end Cert.KernelIdeal.Gated1

end
-- ==== Proof.IdealGated1Body.lean ====
/-
  Region 1 of the program, concluded: the body obligation at every grid point — the point's position decides
  which of the three situations applies, the invariant hands the body the two running sums (at anything at the very
  first point, at what the point before left afterwards) and takes them back at this point's contents — and how
  the invariant is entered and left.
-/
import proofs.«121501_j55087250538634_2_alg».proof.Proof.IdealGated1

set_option maxRecDepth 16384

noncomputable section

namespace Cert.KernelIdeal.Gated1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8, before9, before10]
  rw [show (dat V c).owesAt () t.succ = (dat V c).owesAt () t.castSucc from rfl]
  rw [show (dat V c).Φ t.succ = carried V c (t.val + 1) t.isLt from rfl, carried_succ]
  rw [leaves0, leaves1, leaves2, leaves3, leaves4, leaves5, leaves6, leaves7, leaves8, leaves9, leaves10]
  have hN : t.val < 64 := lt_of_lt_of_eq t.isLt (show cfg1.N = 64 from N_1)
  by_cases h0 : t.val % 8 = 0
  · by_cases h7 : t.val % 8 = 7
    · exfalso; omega
    · rw [Dat.leavesExact_idle (dat V c) 11 t (out_idle t (fun h => h7 ((atFinish_iff t).mp h))) (out_noFlush t (fun h => h7 ((atFinish_iff t).mp h)))]
      rw [sums_start V c t h0 h7]
      unfold startTriple; (try dsimp only)
      by_cases hz : t.val = 0
      · rw [carried_castSucc V c t, carried_zero V c _ _ hz, entry_eq]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [carried_castSucc V c t, carried_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun h => h0 (by rw [h])
    by_cases h7 : t.val % 8 = 7
    · rw [show (dat V c).leavesExact 11 t = owns (c : Thread nD τ) (mw11 t) fullShare ((dat V c).after 11 t) from by
        unfold Dat.leavesExact; rw [out_live t ((atFinish_iff t).mpr h7)], after11]
      rw [sums_finish V c t h0 h7]
      unfold finishTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFinish c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) ((atFinish_iff t).mpr h7) (blk V c 0 t) (blk V c 1 t) (blk V c 2 t) (blk V c 3 t) (blk V c 4 t) (blk V c 5 t) (blk V c 6 t) (blk V c 7 t) (blk V c 8 t) (blk V c 9 t) (blk V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (finish_cover0 V c t _ _ _ _)
            unfold owns; iexists _; isplitr
            swap; · iexact HS1
            ipureintro; exact View.read_writes_of_cover _ _ _ _ _ (finish_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (finish_coverO V c t _ _ _ _)
    · rw [Dat.leavesExact_idle (dat V c) 11 t (out_idle t (fun h => h7 ((atFinish_iff t).mp h))) (out_noFlush t (fun h => h7 ((atFinish_iff t).mp h)))]
      rw [sums_middle V c t h0 h7]
      unfold middleTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (middle_cover0 V c t _ _ _ _)
            unfold owns; iexists _; isplitr
            swap; · iexact HS1
            ipureintro; exact View.read_writes_of_cover _ _ _ _ _ (middle_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation of the region, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem enter (c : Dev nD) : Pipeline.ΦA spec1 c ⊢ (dat V c).Φ 0 := by
  rw [show (dat V c).Φ 0 = carried V c 0 (Nat.zero_le _) from rfl, carried_zero V c 0 _ rfl]
  try exact Idealize.SL.BI.Entails.refl _

/-- After the last point the invariant gives the scoped buffers back: the sums' contents are forgotten. -/
theorem leave (c : Dev nD) : (dat V c).Φ (Fin.last cfg1.N) ⊢ Pipeline.ΦA spec1 c := by
  have hne : (Fin.last cfg1.N).val ≠ 0 := by rw [Fin.val_last]; have : cfg1.N = 64 := N_1; omega
  rw [show (dat V c).Φ (Fin.last cfg1.N) = carried V c (Fin.last cfg1.N).val (Nat.le_of_lt_succ (Fin.last cfg1.N).isLt) from rfl,
    carried_pos V c _ _ hne, entry_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Cert.KernelIdeal.Gated1

end
-- ==== Proof.IdealGated1Arrays.lean ====
/-
  Region 1 of the program: its windows' arrays against the buffers behind them. The adjacency array is read
  through two windows; the read permission on its buffer is cut in two halves, one per window, when the region
  is entered, and the halves are joined again when it is left. Every other array has a buffer of its own.
-/
import proofs.«121501_j55087250538634_2_alg».proof.Proof.IdealGated1

set_option maxRecDepth 16384

noncomputable section

namespace Cert.KernelIdeal.Gated1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows. -/
abbrev bufs : List (Ref sig .tc) := [main_v1, main_v23_0, main_v23_1, main_arg0, main_v7, main_v18, main_v9, main_v19, main_v11, main_v20, main_v24]

theorem bufs_eq : Finset.univ.image (Pipeline.arrRef spec1) = bufs.toFinset := by decide

/-- A conjunction over those buffers, one by one. -/
theorem bufs_chain (Φ : Ref sig .tc → sProp 𝕄) :
    bigSep (Finset.univ.image (Pipeline.arrRef spec1)) Φ = iprop(Φ main_v1 ∗ Φ main_v23_0 ∗ Φ main_v23_1 ∗ Φ main_arg0 ∗ Φ main_v7 ∗ Φ main_v18 ∗ Φ main_v9 ∗ Φ main_v19 ∗ Φ main_v11 ∗ Φ main_v20 ∗ Φ main_v24) :=
  bigSep_eq_bigSepL_of_eq bufs bufs_eq (by decide) Φ

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl
theorem share11 (c : Dev nD) : (dat V c).share 11 = fullShare := rfl

/-- ENTRY: the buffers whole at contents `G` make the windows' arrays at `G`, the adjacency buffer's permission halved. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      ⊢ (dat V c).arrays (fun w => G (Pipeline.arrRef spec1 w)) := by
  unfold Pipeline.arrBufs Dat.arrays
  rw [bufs_chain, bigSep_W1]
  simp only [share0, share1, share2, share3, share4, share5, share6, share7, share8, share9, share10, share11, View.set_whole]
  iintro ⟨HA, H2, H3, H4, H5, H6, H7, H8, H9, H10, H11⟩
  ihave HA' := (pointsTo_share (PosShare.mem_left_op_right fullShare)).1 $$ HA
  icases HA' with ⟨HA0, HA1⟩
  isplitl [HA0]; · iexact HA0
  isplitl [HA1]; · iexact HA1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `G`, the two halves of the adjacency buffer's permission joined, are the
    buffers whole at `G`. -/
theorem bufs_of_arrays (c : Dev nD) (G : (b : Ref sig .tc) → Buf (Elt F) ((c : Thread nD τ).loc b)) :
    (dat V c).arrays (fun w => G (Pipeline.arrRef spec1 w))
      ⊢ (Pipeline.arrBufs (Ix := Unit) (Name := ℕ) (U := UR sig nD τ) (Lvl := ℕ) spec1 c G : sProp 𝕄) := by
  unfold Pipeline.arrBufs Dat.arrays
  rw [bufs_chain, bigSep_W1]
  simp only [share0, share1, share2, share3, share4, share5, share6, share7, share8, share9, share10, share11, View.set_whole]
  iintro ⟨HA0, HA1, H2, H3, H4, H5, H6, H7, H8, H9, H10, H11⟩
  ihave HA := (pointsTo_share (PosShare.mem_left_op_right fullShare)).2 $$ [HA0 HA1]
  · isplitl [HA0]; · iexact HA0
    iexact HA1
  isplitl [HA]; · iexact HA
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY, from all the core's unscoped buffers: the windows' arrays and the buffers that are no window's array. -/
theorem enter_arrays (c : Dev nD) (G : (b : Ref sig .tc) → Buf (Elt F) ((c : Thread nD τ).loc b)) :
    (unscopedBufs c G : sProp 𝕄)
      ⊢ iprop((dat V c).arrays (fun w => G (Pipeline.arrRef spec1 w))
          ∗ Pipeline.unscopedRest (Ix := Unit) (Name := ℕ) (U := UR sig nD τ) (Lvl := ℕ) spec1 c G) := by
  rw [Pipeline.unscopedBufs_split₀ cfgs 1 winFacts₀1.arr_unscoped c G]
  exact BIClass.sep_mono (arrays_of_bufs V c G) .rfl

/-- EXIT, back to all the core's unscoped buffers at contents `G'` that agree with the arrays' final contents on the
    arrays and with the entry contents `G` elsewhere. -/
theorem leave_arrays (c : Dev nD) (G G' : (b : Ref sig .tc) → Buf (Elt F) ((c : Thread nD τ).loc b))
    (Fa : (w : Fin cfg1.W) → Buf (Elt F) ((cfg1.win w).arr.view.loc (c : Thread nD τ)))
    (hF : ∀ w, Fa w = G' (Pipeline.arrRef spec1 w))
    (hrest : ∀ b, b ∉ Finset.univ.image (Pipeline.arrRef spec1) → G' b = G b) :
    iprop((dat V c).arrays Fa ∗ Pipeline.unscopedRest (Ix := Unit) (Name := ℕ) (U := UR sig nD τ) (Lvl := ℕ) spec1 c G)
      ⊢ (unscopedBufs c G' : sProp 𝕄) := by
  rw [Pipeline.unscopedBufs_split₀ cfgs 1 winFacts₀1.arr_unscoped c G', show Fa = fun w => G' (Pipeline.arrRef spec1 w) from funext hF]
  refine BIClass.sep_mono (bufs_of_arrays V c G') ?_
  unfold Pipeline.unscopedRest
  exact Entails.of_eq (bigSep_congr fun b hb => by rw [hrest b (Finset.mem_sdiff.mp hb).2])

end Cert.KernelIdeal.Gated1

end
-- ==== Proof.IdealMessages2.lean ====
/-
  Region 2 of the program: the two edge messages of one GGNN step. For a block of 1024 rows of the node state
  `x` (window 0), the kernel forms  s_in = x · W_in + b_in  (windows 1, 2 -> window 5) and
  s_out = x · W_out + b_out  (windows 3, 4 -> window 6): each a 1024x512 by 512x512 product into the zero
  accumulator plus a bias row broadcast down the rows. The weights and biases are the same block at every point
  (constant index maps); the state block and the two result blocks move with the point.
  Here: what each result buffer holds after the body as a function of the five input blocks, the body's run on
  whole staging buffers, the region's proof data over entry contents `V`, and the body obligation at every point.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Messages2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the two result buffers -/

/-- The incoming-edge message block: the state block times `W_in` plus the bias row, as one stored piece. -/
def sIn (x : Vec F S1024x512 .f32) (w : Vec F S512x512 .bf16) (b : Vec F S1x512 .f32) : Vec F S1024x512 .bf16 :=
  View.canon [⟨rRows, k2_pay2 (View.ld x rRows) (View.ld w rWeight) (View.ld b rBias)⟩]

/-- The outgoing-edge message block: the state block times `W_out` plus the bias row. -/
def sOut (x : Vec F S1024x512 .f32) (w : Vec F S512x512 .bf16) (b : Vec F S1x512 .f32) : Vec F S1024x512 .bf16 :=
  View.canon [⟨rRows, k2_pay3 (View.ld x rRows) (View.ld w rWeight) (View.ld b rBias)⟩]

/-- One store through the whole-buffer rectangle covers the buffer. -/
theorem covers (p : Vec F S1024x512 .bf16) (y : S1024x512.Idx) :
    ∃ pc ∈ ([⟨rRows, p⟩] : List (View.Piece (Elt F) S1024x512 .bf16)), y ∈ pc.1.set :=
  View.cover_of_tiled [⟨rRows, p⟩] S1024x512.size (by rfl) y

/-! ## The body's run -/

set_option maxHeartbeats 1000000 in
/-- On whole staging buffers, the five inputs at contents `x, wi, bi, wo, bo` and the two results at anything, the
    body runs to its end with the inputs as they were and the results at `sIn`, `sOut` of the inputs. -/
theorem body_runs (i : grid2.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .bf16) (h6 : a6.IsWhole)
    (a7 : Memref sig .tc .vmem S1024x512 .bf16) (h7 : a7.IsWhole)
    (x : Vec F S1024x512 .f32) (wi : Vec F S512x512 .bf16) (bi : Vec F S1x512 .f32) (wo : Vec F S512x512 .bf16) (bo : Vec F S1x512 .f32)
    (K : PUnit → sProp 𝕄) :
    iprop(owns (c : Thread nD τ) a1 fullShare x ∗ owns (c : Thread nD τ) a2 fullShare wi ∗ owns (c : Thread nD τ) a3 fullShare bi
        ∗ owns (c : Thread nD τ) a4 fullShare wo ∗ owns (c : Thread nD τ) a5 fullShare bo
        ∗ (∃ d, owns (c : Thread nD τ) a6 fullShare d) ∗ (∃ d, owns (c : Thread nD τ) a7 fullShare d)
        ∗ (iprop(owns (c : Thread nD τ) a1 fullShare x ∗ owns (c : Thread nD τ) a2 fullShare wi ∗ owns (c : Thread nD τ) a3 fullShare bi
            ∗ owns (c : Thread nD τ) a4 fullShare wo ∗ owns (c : Thread nD τ) a5 fullShare bo
            ∗ owns (c : Thread nD τ) a6 fullShare (sIn x wi bi) ∗ owns (c : Thread nD τ) a7 fullShare (sOut x wo bo)) -∗ K ⟨⟩))
      ⊢ wp frame (wpE (defs₀ (F := F)) Variants.none c none) E (cc2__sinout_kernel i a1 h1 a2 h2 a3 h3 a4 h4 a5 h5 a6 h6 a7 h7) K := by
  simp only [cc2__sinout_kernel_eq_skeleton]; unfold cc2__sinout_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  iexists _; isplitr
  swap; · iexact H7
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and each result's at the message block of the input blocks; the invariant is the
    scoped rest and the generator register, untouched; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sIn (blk V c 0 t) (blk V c 1 t) (blk V c 2 t)
    | ⟨6, _⟩ => sOut (blk V c 0 t) (blk V c 3 t) (blk V c 4 t)
  Φ _ := Pipeline.ΦA spec2 c
  q _ := fullShare
  owed _ := 0

theorem dat_A (c : Dev nD) (w : Fin cfg2.W) : (dat V c).A w = V c (Pipeline.arrRef spec2 w) := by
  dsimp only [dat]

theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after5 (c : Dev nD) (t : Fin cfg2.N) : (dat V c).after 5 t = sIn (blk V c 0 t) (blk V c 1 t) (blk V c 2 t) := by dsimp only [dat]
theorem after6 (c : Dev nD) (t : Fin cfg2.N) : (dat V c).after 6 t = sOut (blk V c 0 t) (blk V c 3 t) (blk V c 4 t) := by dsimp only [dat]

theorem before0 (c : Dev nD) (t : Fin cfg2.N) (d) : (dat V c).before 0 t d = blk V c 0 t :=
  before0_of V (dat V c) (dat_A V c 0) (after0 V c) t d
theorem before1 (c : Dev nD) (t : Fin cfg2.N) (d) : (dat V c).before 1 t d = blk V c 1 t :=
  before1_of V (dat V c) (dat_A V c 1) (after1 V c) t d
theorem before2 (c : Dev nD) (t : Fin cfg2.N) (d) : (dat V c).before 2 t d = blk V c 2 t :=
  before2_of V (dat V c) (dat_A V c 2) (after2 V c) t d
theorem before3 (c : Dev nD) (t : Fin cfg2.N) (d) : (dat V c).before 3 t d = blk V c 3 t :=
  before3_of V (dat V c) (dat_A V c 3) (after3 V c) t d
theorem before4 (c : Dev nD) (t : Fin cfg2.N) (d) : (dat V c).before 4 t d = blk V c 4 t :=
  before4_of V (dat V c) (dat_A V c 4) (after4 V c) t d

/-! ## The body obligation -/

/-- What the body is called with at point `t`: the invariant, the core's dues, and each window's current staging buffer
    at what the pipeline put there. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- What it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the inputs' buffers hold their blocks, so `body_runs` applies; the invariant and the core's
    dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs (grid2.coords t) c Set.univ _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation (c : Dev nD) : BodyObligation (dat (F := F) V c) (defs₀ (F := F)) Variants.none () Set.univ := fun t => by
  rw [bigSep_W2, bigSep_W2]
  exact sound_body V c t

end Cert.KernelIdeal.Messages2

end
-- ==== Proof.IdealGated3Runs.lean ====
/-
  Region 3 of the program: the gated update of one block of 512 nodes, accumulated over the eight blocks of 512
  neighbours. At grid point (m, k) the body adds to two running sums kept in scratch between points,
      acc_in  += A[m-block, k-block] · s_in[k-block]        acc_out += A[k-block, m-block]ᵀ · s_out[k-block],
  after setting both to zero when k = 0; when k = 7 it reads the finished sums, forms the reset and update gates and
  the candidate state from them and the node block's own state, and stores the new state. At the other points the
  result block is left alone.
  Here: the body's run in each of the three situations the grid meets — k = 0 (start), 0 < k < 7 (middle), k = 7
  (finish) — on whole staging buffers; what each stored buffer ends with is given as the list of stored pieces the
  run itself produces.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gated3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- "This is the first neighbour block": the test the body makes before zeroing the running sums. -/
abbrev atStart (i : grid3.Coords) : Prop :=
  (Scalar.cmpi .ne (Scalar.extui (Scalar.cmpi .eq (BitVec.ofNat 32 (i 1).val) 0#32)) 0#32) = 1#1
/-- "This is the last neighbour block": the test the body makes before finishing the node block. -/
abbrev atFinish (i : grid3.Coords) : Prop := k3_cond2 i = 1#1

/-- The first test holds exactly at the points whose position is a multiple of 8 (k = 0). -/
theorem atStart_iff : ∀ t : Fin cfg3.N, atStart (grid3.coords t) ↔ t.val % 8 = 0 :=
  (by decide +kernel : ∀ t : Fin grid3.N, atStart (grid3.coords t) ↔ t.val % 8 = 0)
/-- The second holds exactly at the points whose position is 7 modulo 8 (k = 7). -/
theorem atFinish_iff : ∀ t : Fin cfg3.N, atFinish (grid3.coords t) ↔ t.val % 8 = 7 :=
  (by decide +kernel : ∀ t : Fin grid3.N, atFinish (grid3.coords t) ↔ t.val % 8 = 7)

/-! ## The body's run, situation by situation -/

set_option maxHeartbeats 4000000 in
/-- START (k = 0): the running sums are zeroed and the first products added; the result block `xo` is handed back
    untouched. The scratch buffers may hold anything on entry. -/
noncomputable def runStart (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc3__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc3__ggnn_kernel_eq_skeleton, k3_part1_eq_skeleton]; unfold cc3__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 4000000 in
/-- MIDDLE (0 < k < 7): the products are added to the running sums `s0`, `s1` the point before left; the result
    block `xo` is handed back untouched. -/
noncomputable def runMiddle (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc3__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc3__ggnn_kernel_eq_skeleton, k3_part1_eq_skeleton]; unfold cc3__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 8000000 in
/-- FINISH (k = 7): the last products are added to the running sums `s0`, `s1`, and the new state of the node block
    is computed from the finished sums and stored over whatever the result block held. -/
noncomputable def runFinish (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LO : List (View.Piece (Elt F) S512x512 .f32)) (LS0 : List (View.Piece (Elt F) S512x512 .f32)), { LS1 : List (View.Piece (Elt F) S512x512 .f32) //
      ∀ (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f LO) ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc3__ggnn_kernel i a2 h2 a3 h3 a4 h4 a5 h5 a6 h6 a7 h7 a8 h8 a9 h9 a10 h10 a11 h11 a12 h12 a13 h13 a14 h14 a15 h15) Kont } := by
  refine ⟨?_, ?_, ?_, fun E Kont => ?run⟩
  case run =>
    simp only [cc3__ggnn_kernel_eq_skeleton, k3_part1_eq_skeleton]; unfold cc3__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

end Cert.KernelIdeal.Gated3

end
-- ==== Proof.IdealGated3.lean ====
/-
  Region 3 of the program, continued: what the two running sums and the result block hold after each of the 64 grid
  points, by recursion on the point's position n = 8·m + k — at k = 0 the sums restart from zero, at 0 < k < 7 they
  grow from what the point before left, at k = 7 they are finished and the new node state is stored —; the region's
  invariant, which carries the two sums from one point to the next; the proof data; and the body obligation.
-/
import proofs.«121501_j55087250538634_2_alg».proof.Proof.IdealGated3Runs
import Idealize.ShloMosaic.Lib.Ring

set_option maxRecDepth 16384

noncomputable section

namespace Cert.KernelIdeal.Gated3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## The buffers the body runs on at a point -/

abbrev mw0 (t : Fin cfg3.N) := win3_0.stage (cfg3.slots t 0)
abbrev hw0 (t : Fin cfg3.N) : (mw0 t).IsWhole := hstage3_0 ((cfg3.slots t 0).cast nbuf3_0)
abbrev mw1 (t : Fin cfg3.N) := win3_1.stage (cfg3.slots t 1)
abbrev hw1 (t : Fin cfg3.N) : (mw1 t).IsWhole := hstage3_1 ((cfg3.slots t 1).cast nbuf3_1)
abbrev mw2 (t : Fin cfg3.N) := win3_2.stage (cfg3.slots t 2)
abbrev hw2 (t : Fin cfg3.N) : (mw2 t).IsWhole := hstage3_2 ((cfg3.slots t 2).cast nbuf3_2)
abbrev mw3 (t : Fin cfg3.N) := win3_3.stage (cfg3.slots t 3)
abbrev hw3 (t : Fin cfg3.N) : (mw3 t).IsWhole := hstage3_3 ((cfg3.slots t 3).cast nbuf3_3)
abbrev mw4 (t : Fin cfg3.N) := win3_4.stage (cfg3.slots t 4)
abbrev hw4 (t : Fin cfg3.N) : (mw4 t).IsWhole := hstage3_4 ((cfg3.slots t 4).cast nbuf3_4)
abbrev mw5 (t : Fin cfg3.N) := win3_5.stage (cfg3.slots t 5)
abbrev hw5 (t : Fin cfg3.N) : (mw5 t).IsWhole := hstage3_5 ((cfg3.slots t 5).cast nbuf3_5)
abbrev mw6 (t : Fin cfg3.N) := win3_6.stage (cfg3.slots t 6)
abbrev hw6 (t : Fin cfg3.N) : (mw6 t).IsWhole := hstage3_6 ((cfg3.slots t 6).cast nbuf3_6)
abbrev mw7 (t : Fin cfg3.N) := win3_7.stage (cfg3.slots t 7)
abbrev hw7 (t : Fin cfg3.N) : (mw7 t).IsWhole := hstage3_7 ((cfg3.slots t 7).cast nbuf3_7)
abbrev mw8 (t : Fin cfg3.N) := win3_8.stage (cfg3.slots t 8)
abbrev hw8 (t : Fin cfg3.N) : (mw8 t).IsWhole := hstage3_8 ((cfg3.slots t 8).cast nbuf3_8)
abbrev mw9 (t : Fin cfg3.N) := win3_9.stage (cfg3.slots t 9)
abbrev hw9 (t : Fin cfg3.N) : (mw9 t).IsWhole := hstage3_9 ((cfg3.slots t 9).cast nbuf3_9)
abbrev mw10 (t : Fin cfg3.N) := win3_10.stage (cfg3.slots t 10)
abbrev hw10 (t : Fin cfg3.N) : (mw10 t).IsWhole := hstage3_10 ((cfg3.slots t 10).cast nbuf3_10)
abbrev mw11 (t : Fin cfg3.N) := win3_11.stage (cfg3.slots t 11)
abbrev hw11 (t : Fin cfg3.N) : (mw11 t).IsWhole := hstage3_11 ((cfg3.slots t 11).cast nbuf3_11)
/-- The two scratch buffers holding the running sums. -/
abbrev sc0 : Memref sig .tc .vmem S512x512 .f32 := Memref.whole cc3_scratch0
abbrev sc1 : Memref sig .tc .vmem S512x512 .f32 := Memref.whole cc3_scratch1
/-- The views through which stored pieces are read back as contents. -/
abbrev vS0 : View sig .tc .vmem S512x512 .f32 := sc0.view
abbrev vS1 : View sig .tc .vmem S512x512 .f32 := sc1.view
abbrev vOut : View sig .tc .vmem S512x512 .f32 := (Memref.whole cc3_stg11_0 : Memref sig .tc .vmem S512x512 .f32).view

/-! ## Where the result window rests -/

theorem out_idle : ∀ t : Fin cfg3.N, ¬atFinish (grid3.coords t) → cfg3.idle 11 (grid3.coords t) = true :=
  (by decide +kernel : ∀ t : Fin grid3.N, ¬atFinish (grid3.coords t) → cfg3.idle 11 (grid3.coords t) = true)
theorem out_noFlush : ∀ t : Fin cfg3.N, ¬atFinish (grid3.coords t) → (cfg3.win 11).flush t = false :=
  (by decide +kernel : ∀ t : Fin grid3.N, ¬atFinish (grid3.coords t) → win3_11.flush t = false)
theorem out_live : ∀ t : Fin cfg3.N, atFinish (grid3.coords t) → cfg3.idle 11 (grid3.coords t) = false :=
  (by decide +kernel : ∀ t : Fin grid3.N, atFinish (grid3.coords t) → cfg3.idle 11 (grid3.coords t) = false)

/-! ## What each situation leaves: the stored pieces read back -/

/-- The result block's placeholder at the points where nothing is stored into it (never consulted: the window rests
    there and is not written back). -/
def restOut : Vec F S512x512 .f32 := vOut.read (Elt F) (vOut.writes (Elt F) vOut.junk [])

/-- After a START point: (the resting result block, the first sum, the second sum). -/
def startTriple (c : Dev nD) (t : Fin cfg3.N) (hs : atStart (grid3.coords t)) (hf : ¬atFinish (grid3.coords t)) : Vec F S512x512 .f32 × Vec F S512x512 .f32 × Vec F S512x512 .f32 :=
  (restOut,
   vS0.read (Elt F) (vS0.writes (Elt F) vS0.junk (runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1),
   vS1.read (Elt F) (vS1.writes (Elt F) vS1.junk (runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1))

/-- After a MIDDLE point, from the sums `s0`, `s1` the point before left. -/
def middleTriple (c : Dev nD) (t : Fin cfg3.N) (hs : ¬atStart (grid3.coords t)) (hf : ¬atFinish (grid3.coords t)) (s0 s1 : Vec F S512x512 .f32) : Vec F S512x512 .f32 × Vec F S512x512 .f32 × Vec F S512x512 .f32 :=
  (restOut,
   vS0.read (Elt F) (vS0.writes (Elt F) vS0.junk (runMiddle c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS1.read (Elt F) (vS1.writes (Elt F) vS1.junk (runMiddle c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1))

/-- After a FINISH point, from the sums `s0`, `s1` the point before left: (the new node state, the finished sums). -/
def finishTriple (c : Dev nD) (t : Fin cfg3.N) (hs : ¬atStart (grid3.coords t)) (hf : atFinish (grid3.coords t)) (s0 s1 : Vec F S512x512 .f32) : Vec F S512x512 .f32 × Vec F S512x512 .f32 × Vec F S512x512 .f32 :=
  (vOut.read (Elt F) (vOut.writes (Elt F) vOut.junk (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS0.read (Elt F) (vS0.writes (Elt F) vS0.junk (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1),
   vS1.read (Elt F) (vS1.writes (Elt F) vS1.junk (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1))

/-! ## The stored pieces cover their buffers -/

theorem start_cover0 (c : Dev nD) (t : Fin cfg3.N) (hs : atStart (grid3.coords t)) (hf : ¬atFinish (grid3.coords t)) (y : S512x512.Idx) :
    ∃ pc ∈ (runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1, y ∈ pc.1.set :=
  View.cover_of_tiledL _ S512x512.size (by sl_kernel_rfl) y
theorem start_cover1 (c : Dev nD) (t : Fin cfg3.N) (hs : atStart (grid3.coords t)) (hf : ¬atFinish (grid3.coords t)) (y : S512x512.Idx) :
    ∃ pc ∈ (runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1, y ∈ pc.1.set :=
  View.cover_of_tiledL _ S512x512.size (by sl_kernel_rfl) y
theorem middle_cover0 (c : Dev nD) (t : Fin cfg3.N) (hs : ¬atStart (grid3.coords t)) (hf : ¬atFinish (grid3.coords t)) (s0 s1 : Vec F S512x512 .f32) (y : S512x512.Idx) :
    ∃ pc ∈ (runMiddle c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem middle_cover1 (c : Dev nD) (t : Fin cfg3.N) (hs : ¬atStart (grid3.coords t)) (hf : ¬atFinish (grid3.coords t)) (s0 s1 : Vec F S512x512 .f32) (y : S512x512.Idx) :
    ∃ pc ∈ (runMiddle c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_coverO (c : Dev nD) (t : Fin cfg3.N) (hs : ¬atStart (grid3.coords t)) (hf : atFinish (grid3.coords t)) (s0 s1 : Vec F S512x512 .f32) (y : S512x512.Idx) :
    ∃ pc ∈ (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem finish_cover0 (c : Dev nD) (t : Fin cfg3.N) (hs : ¬atStart (grid3.coords t)) (hf : atFinish (grid3.coords t)) (s0 s1 : Vec F S512x512 .f32) (y : S512x512.Idx) :
    ∃ pc ∈ (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_cover1 (c : Dev nD) (t : Fin cfg3.N) (hs : ¬atStart (grid3.coords t)) (hf : atFinish (grid3.coords t)) (s0 s1 : Vec F S512x512 .f32) (y : S512x512.Idx) :
    ∃ pc ∈ (runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1, y ∈ pc.1.set :=
  View.cover_of_tiledL _ S512x512.size (by sl_kernel_rfl) y

/-! ## The accumulation over the grid -/

/-- After the point at position `n`: (the result block's buffer, the first running sum, the second). -/
def sums (c : Dev nD) : (n : ℕ) → n < cfg3.N → Vec F S512x512 .f32 × Vec F S512x512 .f32 × Vec F S512x512 .f32
  | 0, hn => startTriple V c ⟨0, hn⟩ ((atStart_iff ⟨0, hn⟩).mpr (Nat.zero_mod _))
      (fun h => (fun h => by (try dsimp only at h); omega) ((atFinish_iff ⟨0, hn⟩).mp h))
  | n + 1, hn =>
    if h0 : (n + 1) % 8 = 0 then
      if h7 : (n + 1) % 8 = 7 then False.elim (by omega)
      else startTriple V c ⟨n + 1, hn⟩ ((atStart_iff ⟨n + 1, hn⟩).mpr h0) (fun h => h7 ((atFinish_iff ⟨n + 1, hn⟩).mp h))
    else
      if h7 : (n + 1) % 8 = 7 then
        finishTriple V c ⟨n + 1, hn⟩ (fun h => h0 ((atStart_iff ⟨n + 1, hn⟩).mp h)) ((atFinish_iff ⟨n + 1, hn⟩).mpr h7)
          (sums c n (Nat.lt_of_succ_lt hn)).2.1 (sums c n (Nat.lt_of_succ_lt hn)).2.2
      else
        middleTriple V c ⟨n + 1, hn⟩ (fun h => h0 ((atStart_iff ⟨n + 1, hn⟩).mp h)) (fun h => h7 ((atFinish_iff ⟨n + 1, hn⟩).mp h))
          (sums c n (Nat.lt_of_succ_lt hn)).2.1 (sums c n (Nat.lt_of_succ_lt hn)).2.2

theorem sums_start (c : Dev nD) (t : Fin cfg3.N) (h0 : t.val % 8 = 0) (h7 : ¬t.val % 8 = 7) :
    sums V c t.val t.isLt = startTriple V c t ((atStart_iff t).mpr h0) (fun h => h7 ((atFinish_iff t).mp h)) := by
  obtain ⟨n, hn⟩ := t
  cases n with
  | zero => exact rfl
  | succ n => exact (dif_pos h0).trans ((dif_neg h7).trans rfl)

theorem sums_middle (c : Dev nD) (t : Fin cfg3.N) (h0 : ¬t.val % 8 = 0) (h7 : ¬t.val % 8 = 7) :
    sums V c t.val t.isLt = middleTriple V c t (fun h => h0 ((atStart_iff t).mp h)) (fun h => h7 ((atFinish_iff t).mp h))
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h7).trans rfl)

theorem sums_finish (c : Dev nD) (t : Fin cfg3.N) (h0 : ¬t.val % 8 = 0) (h7 : t.val % 8 = 7) :
    sums V c t.val t.isLt = finishTriple V c t (fun h => h0 ((atStart_iff t).mp h)) ((atFinish_iff t).mpr h7)
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- The other scoped buffers of the core, unopened. -/
abbrev others (c : Dev nD) : sProp 𝕄 :=
  Pipeline.scopedRestBut (Ix := Unit) (Name := ℕ) (U := UR sig nD τ) (Lvl := ℕ) (Val := Elt F) spec3 c [cc3_scratch0, cc3_scratch1]

/-- Before the point at position `n`: at the first point every scratch buffer at anything; afterwards the two running
    sums at what the point before left, the other scoped buffers and the generator register untouched. -/
def carried (c : Dev nD) : (n : ℕ) → n ≤ cfg3.N → sProp 𝕄
  | 0, _ => Pipeline.ΦA spec3 c
  | n + 1, hn => iprop(iprop(iprop(owns (c : Thread nD τ) sc0 fullShare (sums V c n hn).2.1 ∗ owns (c : Thread nD τ) sc1 fullShare (sums V c n hn).2.2)
      ∗ others c) ∗ (∃ r, prngReg c r))

theorem carried_zero (c : Dev nD) (n : ℕ) (h : n ≤ cfg3.N) (hz : n = 0) : carried V c n h = Pipeline.ΦA spec3 c := by
  subst hz; rfl

theorem carried_succ (c : Dev nD) (n : ℕ) (hn : n < cfg3.N) :
    carried V c (n + 1) hn = iprop(iprop(iprop(owns (c : Thread nD τ) sc0 fullShare (sums V c n hn).2.1 ∗ owns (c : Thread nD τ) sc1 fullShare (sums V c n hn).2.2)
      ∗ others c) ∗ (∃ r, prngReg c r)) := rfl

theorem carried_pos (c : Dev nD) (n : ℕ) (h : n ≤ cfg3.N) (hz : n ≠ 0) :
    carried V c n h = iprop(iprop(iprop(owns (c : Thread nD τ) sc0 fullShare (sums V c (n - 1) (by omega)).2.1
      ∗ owns (c : Thread nD τ) sc1 fullShare (sums V c (n - 1) (by omega)).2.2) ∗ others c) ∗ (∃ r, prngReg c r)) := by
  cases n with
  | zero => exact absurd rfl hz
  | succ n => rfl

/-- The invariant handed in at the first point, with the two scratch buffers named. -/
theorem entry_eq (c : Dev nD) :
    (Pipeline.ΦA spec3 c : sProp 𝕄)
      = iprop(iprop(iprop((∃ d, owns (c : Thread nD τ) sc0 fullShare d) ∗ (∃ d, owns (c : Thread nD τ) sc1 fullShare d)) ∗ others c) ∗ (∃ r, prngReg c r)) := by
  unfold Pipeline.ΦA; rw [scopedRest3_split]; simp only [sc0, sc1, owns_whole]; try rfl

/-! ## The proof data -/

theorem before0_of {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before5_of {c : Dev nD} (dat : Dat τ (Elt F) Unit ℕ (UR sig nD τ) ℕ cfg3 c) (hA : dat.A 5 = V c (Pipeline.arrRef spec3 5))
    (hafter : ∀ t, dat.after 5 t = blk V c 5 t) (t : Fin cfg3.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before6_of {c : Dev nD} (dat : Dat τ (Elt F) Unit ℕ (UR sig nD τ) ℕ cfg3 c) (hA : dat.A 6 = V c (Pipeline.arrRef spec3 6))
    (hafter : ∀ t, dat.after 6 t = blk V c 6 t) (t : Fin cfg3.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before7_of {c : Dev nD} (dat : Dat τ (Elt F) Unit ℕ (UR sig nD τ) ℕ cfg3 c) (hA : dat.A 7 = V c (Pipeline.arrRef spec3 7))
    (hafter : ∀ t, dat.after 7 t = blk V c 7 t) (t : Fin cfg3.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
theorem before8_of {c : Dev nD} (dat : Dat τ (Elt F) Unit ℕ (UR sig nD τ) ℕ cfg3 c) (hA : dat.A 8 = V c (Pipeline.arrRef spec3 8))
    (hafter : ∀ t, dat.after 8 t = blk V c 8 t) (t : Fin cfg3.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
theorem before9_of {c : Dev nD} (dat : Dat τ (Elt F) Unit ℕ (UR sig nD τ) ℕ cfg3 c) (hA : dat.A 9 = V c (Pipeline.arrRef spec3 9))
    (hafter : ∀ t, dat.after 9 t = blk V c 9 t) (t : Fin cfg3.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
theorem before10_of {c : Dev nD} (dat : Dat τ (Elt F) Unit ℕ (UR sig nD τ) ℕ cfg3 c) (hA : dat.A 10 = V c (Pipeline.arrRef spec3 10))
    (hafter : ∀ t, dat.after 10 t = blk V c 10 t) (t : Fin cfg3.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`. The adjacency array is read through two windows (a block and the
    mirrored block): each holds half of the read permission. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (sums V c t.val t.isLt).1
  Φ t := carried V c t.val (Nat.le_of_lt_succ t.isLt)
  q w := match w with
    | ⟨0, _⟩ => fullShare.left
    | ⟨1, _⟩ => fullShare.right
    | _ => fullShare
  owed _ := 0

theorem dat_A (c : Dev nD) (w : Fin cfg3.W) : (dat V c).A w = V c (Pipeline.arrRef spec3 w) := by
  dsimp only [dat]

theorem carried_castSucc (c : Dev nD) (t : Fin cfg3.N) :
    (dat V c).Φ t.castSucc = carried V c t.val (Nat.le_of_lt t.isLt) := by
  dsimp only [dat]; simp only [Fin.coe_castSucc]

theorem after0 (c : Dev nD) (t : Fin cfg3.N) : (dat V c).after 0 t = blk V c 0 t := by dsimp only [dat]
theorem after1 (c : Dev nD) (t : Fin cfg3.N) : (dat V c).after 1 t = blk V c 1 t := by dsimp only [dat]
theorem after2 (c : Dev nD) (t : Fin cfg3.N) : (dat V c).after 2 t = blk V c 2 t := by dsimp only [dat]
theorem after3 (c : Dev nD) (t : Fin cfg3.N) : (dat V c).after 3 t = blk V c 3 t := by dsimp only [dat]
theorem after4 (c : Dev nD) (t : Fin cfg3.N) : (dat V c).after 4 t = blk V c 4 t := by dsimp only [dat]
theorem after5 (c : Dev nD) (t : Fin cfg3.N) : (dat V c).after 5 t = blk V c 5 t := by dsimp only [dat]
theorem after6 (c : Dev nD) (t : Fin cfg3.N) : (dat V c).after 6 t = blk V c 6 t := by dsimp only [dat]
theorem after7 (c : Dev nD) (t : Fin cfg3.N) : (dat V c).after 7 t = blk V c 7 t := by dsimp only [dat]
theorem after8 (c : Dev nD) (t : Fin cfg3.N) : (dat V c).after 8 t = blk V c 8 t := by dsimp only [dat]
theorem after9 (c : Dev nD) (t : Fin cfg3.N) : (dat V c).after 9 t = blk V c 9 t := by dsimp only [dat]
theorem after10 (c : Dev nD) (t : Fin cfg3.N) : (dat V c).after 10 t = blk V c 10 t := by dsimp only [dat]
theorem after11 (c : Dev nD) (t : Fin cfg3.N) : (dat V c).after 11 t = (sums V c t.val t.isLt).1 := by dsimp only [dat]

theorem before0 (c : Dev nD) (t : Fin cfg3.N) (d) : (dat V c).before 0 t d = blk V c 0 t :=
  before0_of V (dat V c) (dat_A V c 0) (after0 V c) t d
theorem before1 (c : Dev nD) (t : Fin cfg3.N) (d) : (dat V c).before 1 t d = blk V c 1 t :=
  before1_of V (dat V c) (dat_A V c 1) (after1 V c) t d
theorem before2 (c : Dev nD) (t : Fin cfg3.N) (d) : (dat V c).before 2 t d = blk V c 2 t :=
  before2_of V (dat V c) (dat_A V c 2) (after2 V c) t d
theorem before3 (c : Dev nD) (t : Fin cfg3.N) (d) : (dat V c).before 3 t d = blk V c 3 t :=
  before3_of V (dat V c) (dat_A V c 3) (after3 V c) t d
theorem before4 (c : Dev nD) (t : Fin cfg3.N) (d) : (dat V c).before 4 t d = blk V c 4 t :=
  before4_of V (dat V c) (dat_A V c 4) (after4 V c) t d
theorem before5 (c : Dev nD) (t : Fin cfg3.N) (d) : (dat V c).before 5 t d = blk V c 5 t :=
  before5_of V (dat V c) (dat_A V c 5) (after5 V c) t d
theorem before6 (c : Dev nD) (t : Fin cfg3.N) (d) : (dat V c).before 6 t d = blk V c 6 t :=
  before6_of V (dat V c) (dat_A V c 6) (after6 V c) t d
theorem before7 (c : Dev nD) (t : Fin cfg3.N) (d) : (dat V c).before 7 t d = blk V c 7 t :=
  before7_of V (dat V c) (dat_A V c 7) (after7 V c) t d
theorem before8 (c : Dev nD) (t : Fin cfg3.N) (d) : (dat V c).before 8 t d = blk V c 8 t :=
  before8_of V (dat V c) (dat_A V c 8) (after8 V c) t d
theorem before9 (c : Dev nD) (t : Fin cfg3.N) (d) : (dat V c).before 9 t d = blk V c 9 t :=
  before9_of V (dat V c) (dat_A V c 9) (after9 V c) t d
theorem before10 (c : Dev nD) (t : Fin cfg3.N) (d) : (dat V c).before 10 t d = blk V c 10 t :=
  before10_of V (dat V c) (dat_A V c 10) (after10 V c) t d

theorem leaves0 (c : Dev nD) (t : Fin cfg3.N) :
    (dat V c).leavesExact 0 t = owns (c : Thread nD τ) (mw0 t) fullShare (blk V c 0 t) := by
  unfold Dat.leavesExact; rw [show cfg3.idle 0 (cfg3.grid.coords t) = false from rfl, after0]; try rfl
theorem leaves1 (c : Dev nD) (t : Fin cfg3.N) :
    (dat V c).leavesExact 1 t = owns (c : Thread nD τ) (mw1 t) fullShare (blk V c 1 t) := by
  unfold Dat.leavesExact; rw [show cfg3.idle 1 (cfg3.grid.coords t) = false from rfl, after1]; try rfl
theorem leaves2 (c : Dev nD) (t : Fin cfg3.N) :
    (dat V c).leavesExact 2 t = owns (c : Thread nD τ) (mw2 t) fullShare (blk V c 2 t) := by
  unfold Dat.leavesExact; rw [show cfg3.idle 2 (cfg3.grid.coords t) = false from rfl, after2]; try rfl
theorem leaves3 (c : Dev nD) (t : Fin cfg3.N) :
    (dat V c).leavesExact 3 t = owns (c : Thread nD τ) (mw3 t) fullShare (blk V c 3 t) := by
  unfold Dat.leavesExact; rw [show cfg3.idle 3 (cfg3.grid.coords t) = false from rfl, after3]; try rfl
theorem leaves4 (c : Dev nD) (t : Fin cfg3.N) :
    (dat V c).leavesExact 4 t = owns (c : Thread nD τ) (mw4 t) fullShare (blk V c 4 t) := by
  unfold Dat.leavesExact; rw [show cfg3.idle 4 (cfg3.grid.coords t) = false from rfl, after4]; try rfl
theorem leaves5 (c : Dev nD) (t : Fin cfg3.N) :
    (dat V c).leavesExact 5 t = owns (c : Thread nD τ) (mw5 t) fullShare (blk V c 5 t) := by
  unfold Dat.leavesExact; rw [show cfg3.idle 5 (cfg3.grid.coords t) = false from rfl, after5]; try rfl
theorem leaves6 (c : Dev nD) (t : Fin cfg3.N) :
    (dat V c).leavesExact 6 t = owns (c : Thread nD τ) (mw6 t) fullShare (blk V c 6 t) := by
  unfold Dat.leavesExact; rw [show cfg3.idle 6 (cfg3.grid.coords t) = false from rfl, after6]; try rfl
theorem leaves7 (c : Dev nD) (t : Fin cfg3.N) :
    (dat V c).leavesExact 7 t = owns (c : Thread nD τ) (mw7 t) fullShare (blk V c 7 t) := by
  unfold Dat.leavesExact; rw [show cfg3.idle 7 (cfg3.grid.coords t) = false from rfl, after7]; try rfl
theorem leaves8 (c : Dev nD) (t : Fin cfg3.N) :
    (dat V c).leavesExact 8 t = owns (c : Thread nD τ) (mw8 t) fullShare (blk V c 8 t) := by
  unfold Dat.leavesExact; rw [show cfg3.idle 8 (cfg3.grid.coords t) = false from rfl, after8]; try rfl
theorem leaves9 (c : Dev nD) (t : Fin cfg3.N) :
    (dat V c).leavesExact 9 t = owns (c : Thread nD τ) (mw9 t) fullShare (blk V c 9 t) := by
  unfold Dat.leavesExact; rw [show cfg3.idle 9 (cfg3.grid.coords t) = false from rfl, after9]; try rfl
theorem leaves10 (c : Dev nD) (t : Fin cfg3.N) :
    (dat V c).leavesExact 10 t = owns (c : Thread nD τ) (mw10 t) fullShare (blk V c 10 t) := by
  unfold Dat.leavesExact; rw [show cfg3.idle 10 (cfg3.grid.coords t) = false from rfl, after10]; try rfl

/-! ## The body obligation -/

def bodyPre (c : Dev nD) (t : Fin cfg3.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d))
    ∗ (∃ d, owns (c : Thread nD τ) (mw5 t) fullShare ((dat V c).before 5 t d))
    ∗ (∃ d, owns (c : Thread nD τ) (mw6 t) fullShare ((dat V c).before 6 t d))
    ∗ (∃ d, owns (c : Thread nD τ) (mw7 t) fullShare ((dat V c).before 7 t d))
    ∗ (∃ d, owns (c : Thread nD τ) (mw8 t) fullShare ((dat V c).before 8 t d))
    ∗ (∃ d, owns (c : Thread nD τ) (mw9 t) fullShare ((dat V c).before 9 t d))
    ∗ (∃ d, owns (c : Thread nD τ) (mw10 t) fullShare ((dat V c).before 10 t d))
    ∗ (∃ d, owns (c : Thread nD τ) (mw11 t) fullShare ((dat V c).before 11 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

end Cert.KernelIdeal.Gated3

end
-- ==== Proof.IdealGated3Body.lean ====
/-
  Region 3 of the program, concluded: the body obligation at every grid point — the point's position decides
  which of the three situations applies, the invariant hands the body the two running sums (at anything at the very
  first point, at what the point before left afterwards) and takes them back at this point's contents — and how
  the invariant is entered and left.
-/
import proofs.«121501_j55087250538634_2_alg».proof.Proof.IdealGated3

set_option maxRecDepth 16384

noncomputable section

namespace Cert.KernelIdeal.Gated3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5, before6, before7, before8, before9, before10]
  rw [show (dat V c).owesAt () t.succ = (dat V c).owesAt () t.castSucc from rfl]
  rw [show (dat V c).Φ t.succ = carried V c (t.val + 1) t.isLt from rfl, carried_succ]
  rw [leaves0, leaves1, leaves2, leaves3, leaves4, leaves5, leaves6, leaves7, leaves8, leaves9, leaves10]
  have hN : t.val < 64 := lt_of_lt_of_eq t.isLt (show cfg3.N = 64 from N_3)
  by_cases h0 : t.val % 8 = 0
  · by_cases h7 : t.val % 8 = 7
    · exfalso; omega
    · rw [Dat.leavesExact_idle (dat V c) 11 t (out_idle t (fun h => h7 ((atFinish_iff t).mp h))) (out_noFlush t (fun h => h7 ((atFinish_iff t).mp h)))]
      rw [sums_start V c t h0 h7]
      unfold startTriple; (try dsimp only)
      by_cases hz : t.val = 0
      · rw [carried_castSucc V c t, carried_zero V c _ _ hz, entry_eq]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [carried_castSucc V c t, carried_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun h => h0 (by rw [h])
    by_cases h7 : t.val % 8 = 7
    · rw [show (dat V c).leavesExact 11 t = owns (c : Thread nD τ) (mw11 t) fullShare ((dat V c).after 11 t) from by
        unfold Dat.leavesExact; rw [out_live t ((atFinish_iff t).mpr h7)], after11]
      rw [sums_finish V c t h0 h7]
      unfold finishTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFinish c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) ((atFinish_iff t).mpr h7) (blk V c 0 t) (blk V c 1 t) (blk V c 2 t) (blk V c 3 t) (blk V c 4 t) (blk V c 5 t) (blk V c 6 t) (blk V c 7 t) (blk V c 8 t) (blk V c 9 t) (blk V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (finish_cover0 V c t _ _ _ _)
            unfold owns; iexists _; isplitr
            swap; · iexact HS1
            ipureintro; exact View.read_writes_of_cover _ _ _ _ _ (finish_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (finish_coverO V c t _ _ _ _)
    · rw [Dat.leavesExact_idle (dat V c) 11 t (out_idle t (fun h => h7 ((atFinish_iff t).mp h))) (out_noFlush t (fun h => h7 ((atFinish_iff t).mp h)))]
      rw [sums_middle V c t h0 h7]
      unfold middleTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (middle_cover0 V c t _ _ _ _)
            unfold owns; iexists _; isplitr
            swap; · iexact HS1
            ipureintro; exact View.read_writes_of_cover _ _ _ _ _ (middle_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation of the region, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem enter (c : Dev nD) : Pipeline.ΦA spec3 c ⊢ (dat V c).Φ 0 := by
  rw [show (dat V c).Φ 0 = carried V c 0 (Nat.zero_le _) from rfl, carried_zero V c 0 _ rfl]
  try exact Idealize.SL.BI.Entails.refl _

/-- After the last point the invariant gives the scoped buffers back: the sums' contents are forgotten. -/
theorem leave (c : Dev nD) : (dat V c).Φ (Fin.last cfg3.N) ⊢ Pipeline.ΦA spec3 c := by
  have hne : (Fin.last cfg3.N).val ≠ 0 := by rw [Fin.val_last]; have : cfg3.N = 64 := N_3; omega
  rw [show (dat V c).Φ (Fin.last cfg3.N) = carried V c (Fin.last cfg3.N).val (Nat.le_of_lt_succ (Fin.last cfg3.N).isLt) from rfl,
    carried_pos V c _ _ hne, entry_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Cert.KernelIdeal.Gated3

end
-- ==== Proof.IdealGated3Arrays.lean ====
/-
  Region 3 of the program: its windows' arrays against the buffers behind them. The adjacency array is read
  through two windows; the read permission on its buffer is cut in two halves, one per window, when the region
  is entered, and the halves are joined again when it is left. Every other array has a buffer of its own.
-/
import proofs.«121501_j55087250538634_2_alg».proof.Proof.IdealGated3

set_option maxRecDepth 16384

noncomputable section

namespace Cert.KernelIdeal.Gated3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows. -/
abbrev bufs : List (Ref sig .tc) := [main_v1, main_v25_0, main_v25_1, main_v24, main_v7, main_v18, main_v9, main_v19, main_v11, main_v20, main_v26]

theorem bufs_eq : Finset.univ.image (Pipeline.arrRef spec3) = bufs.toFinset := by decide

/-- A conjunction over those buffers, one by one. -/
theorem bufs_chain (Φ : Ref sig .tc → sProp 𝕄) :
    bigSep (Finset.univ.image (Pipeline.arrRef spec3)) Φ = iprop(Φ main_v1 ∗ Φ main_v25_0 ∗ Φ main_v25_1 ∗ Φ main_v24 ∗ Φ main_v7 ∗ Φ main_v18 ∗ Φ main_v9 ∗ Φ main_v19 ∗ Φ main_v11 ∗ Φ main_v20 ∗ Φ main_v26) :=
  bigSep_eq_bigSepL_of_eq bufs bufs_eq (by decide) Φ

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl
theorem share11 (c : Dev nD) : (dat V c).share 11 = fullShare := rfl

/-- ENTRY: the buffers whole at contents `G` make the windows' arrays at `G`, the adjacency buffer's permission halved. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec3 c G : sProp 𝕄)
      ⊢ (dat V c).arrays (fun w => G (Pipeline.arrRef spec3 w)) := by
  unfold Pipeline.arrBufs Dat.arrays
  rw [bufs_chain, bigSep_W3]
  simp only [share0, share1, share2, share3, share4, share5, share6, share7, share8, share9, share10, share11, View.set_whole]
  iintro ⟨HA, H2, H3, H4, H5, H6, H7, H8, H9, H10, H11⟩
  ihave HA' := (pointsTo_share (PosShare.mem_left_op_right fullShare)).1 $$ HA
  icases HA' with ⟨HA0, HA1⟩
  isplitl [HA0]; · iexact HA0
  isplitl [HA1]; · iexact HA1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `G`, the two halves of the adjacency buffer's permission joined, are the
    buffers whole at `G`. -/
theorem bufs_of_arrays (c : Dev nD) (G : (b : Ref sig .tc) → Buf (Elt F) ((c : Thread nD τ).loc b)) :
    (dat V c).arrays (fun w => G (Pipeline.arrRef spec3 w))
      ⊢ (Pipeline.arrBufs (Ix := Unit) (Name := ℕ) (U := UR sig nD τ) (Lvl := ℕ) spec3 c G : sProp 𝕄) := by
  unfold Pipeline.arrBufs Dat.arrays
  rw [bufs_chain, bigSep_W3]
  simp only [share0, share1, share2, share3, share4, share5, share6, share7, share8, share9, share10, share11, View.set_whole]
  iintro ⟨HA0, HA1, H2, H3, H4, H5, H6, H7, H8, H9, H10, H11⟩
  ihave HA := (pointsTo_share (PosShare.mem_left_op_right fullShare)).2 $$ [HA0 HA1]
  · isplitl [HA0]; · iexact HA0
    iexact HA1
  isplitl [HA]; · iexact HA
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY, from all the core's unscoped buffers: the windows' arrays and the buffers that are no window's array. -/
theorem enter_arrays (c : Dev nD) (G : (b : Ref sig .tc) → Buf (Elt F) ((c : Thread nD τ).loc b)) :
    (unscopedBufs c G : sProp 𝕄)
      ⊢ iprop((dat V c).arrays (fun w => G (Pipeline.arrRef spec3 w))
          ∗ Pipeline.unscopedRest (Ix := Unit) (Name := ℕ) (U := UR sig nD τ) (Lvl := ℕ) spec3 c G) := by
  rw [Pipeline.unscopedBufs_split₀ cfgs 3 winFacts₀3.arr_unscoped c G]
  exact BIClass.sep_mono (arrays_of_bufs V c G) .rfl

/-- EXIT, back to all the core's unscoped buffers at contents `G'` that agree with the arrays' final contents on the
    arrays and with the entry contents `G` elsewhere. -/
theorem leave_arrays (c : Dev nD) (G G' : (b : Ref sig .tc) → Buf (Elt F) ((c : Thread nD τ).loc b))
    (Fa : (w : Fin cfg3.W) → Buf (Elt F) ((cfg3.win w).arr.view.loc (c : Thread nD τ)))
    (hF : ∀ w, Fa w = G' (Pipeline.arrRef spec3 w))
    (hrest : ∀ b, b ∉ Finset.univ.image (Pipeline.arrRef spec3) → G' b = G b) :
    iprop((dat V c).arrays Fa ∗ Pipeline.unscopedRest (Ix := Unit) (Name := ℕ) (U := UR sig nD τ) (Lvl := ℕ) spec3 c G)
      ⊢ (unscopedBufs c G' : sProp 𝕄) := by
  rw [Pipeline.unscopedBufs_split₀ cfgs 3 winFacts₀3.arr_unscoped c G', show Fa = fun w => G' (Pipeline.arrRef spec3 w) from funext hF]
  refine BIClass.sep_mono (bufs_of_arrays V c G') ?_
  unfold Pipeline.unscopedRest
  exact Entails.of_eq (bigSep_congr fun b hb => by rw [hrest b (Finset.mem_sdiff.mp hb).2])

end Cert.KernelIdeal.Gated3

end
-- ==== Proof.IdealMessages4.lean ====
/-
  Region 4 of the program: the two edge messages of one GGNN step. For a block of 1024 rows of the node state
  `x` (window 0), the kernel forms  s_in = x · W_in + b_in  (windows 1, 2 -> window 5) and
  s_out = x · W_out + b_out  (windows 3, 4 -> window 6): each a 1024x512 by 512x512 product into the zero
  accumulator plus a bias row broadcast down the rows. The weights and biases are the same block at every point
  (constant index maps); the state block and the two result blocks move with the point.
  Here: what each result buffer holds after the body as a function of the five input blocks, the body's run on
  whole staging buffers, the region's proof data over entry contents `V`, and the body obligation at every point.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Messages4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the two result buffers -/

/-- The incoming-edge message block: the state block times `W_in` plus the bias row, as one stored piece. -/
def sIn (x : Vec F S1024x512 .f32) (w : Vec F S512x512 .bf16) (b : Vec F S1x512 .f32) : Vec F S1024x512 .bf16 :=
  View.canon [⟨rRows, k4_pay2 (View.ld x rRows) (View.ld w rWeight) (View.ld b rBias)⟩]

/-- The outgoing-edge message block: the state block times `W_out` plus the bias row. -/
def sOut (x : Vec F S1024x512 .f32) (w : Vec F S512x512 .bf16) (b : Vec F S1x512 .f32) : Vec F S1024x512 .bf16 :=
  View.canon [⟨rRows, k4_pay3 (View.ld x rRows) (View.ld w rWeight) (View.ld b rBias)⟩]

/-- One store through the whole-buffer rectangle covers the buffer. -/
theorem covers (p : Vec F S1024x512 .bf16) (y : S1024x512.Idx) :
    ∃ pc ∈ ([⟨rRows, p⟩] : List (View.Piece (Elt F) S1024x512 .bf16)), y ∈ pc.1.set :=
  View.cover_of_tiled [⟨rRows, p⟩] S1024x512.size (by rfl) y

/-! ## The body's run -/

set_option maxHeartbeats 1000000 in
/-- On whole staging buffers, the five inputs at contents `x, wi, bi, wo, bo` and the two results at anything, the
    body runs to its end with the inputs as they were and the results at `sIn`, `sOut` of the inputs. -/
theorem body_runs (i : grid4.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .bf16) (h6 : a6.IsWhole)
    (a7 : Memref sig .tc .vmem S1024x512 .bf16) (h7 : a7.IsWhole)
    (x : Vec F S1024x512 .f32) (wi : Vec F S512x512 .bf16) (bi : Vec F S1x512 .f32) (wo : Vec F S512x512 .bf16) (bo : Vec F S1x512 .f32)
    (K : PUnit → sProp 𝕄) :
    iprop(owns (c : Thread nD τ) a1 fullShare x ∗ owns (c : Thread nD τ) a2 fullShare wi ∗ owns (c : Thread nD τ) a3 fullShare bi
        ∗ owns (c : Thread nD τ) a4 fullShare wo ∗ owns (c : Thread nD τ) a5 fullShare bo
        ∗ (∃ d, owns (c : Thread nD τ) a6 fullShare d) ∗ (∃ d, owns (c : Thread nD τ) a7 fullShare d)
        ∗ (iprop(owns (c : Thread nD τ) a1 fullShare x ∗ owns (c : Thread nD τ) a2 fullShare wi ∗ owns (c : Thread nD τ) a3 fullShare bi
            ∗ owns (c : Thread nD τ) a4 fullShare wo ∗ owns (c : Thread nD τ) a5 fullShare bo
            ∗ owns (c : Thread nD τ) a6 fullShare (sIn x wi bi) ∗ owns (c : Thread nD τ) a7 fullShare (sOut x wo bo)) -∗ K ⟨⟩))
      ⊢ wp frame (wpE (defs₀ (F := F)) Variants.none c none) E (cc4__sinout_kernel i a1 h1 a2 h2 a3 h3 a4 h4 a5 h5 a6 h6 a7 h7) K := by
  simp only [cc4__sinout_kernel_eq_skeleton]; unfold cc4__sinout_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  iexists _; isplitr
  swap; · iexact H7
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg4 c) (hA : dat.A 0 = V c (Pipeline.arrRef spec4 0))
    (hafter : ∀ t, dat.after 0 t = blk V c 0 t) (t : Fin cfg4.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg4 c) (hA : dat.A 1 = V c (Pipeline.arrRef spec4 1))
    (hafter : ∀ t, dat.after 1 t = blk V c 1 t) (t : Fin cfg4.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg4 c) (hA : dat.A 2 = V c (Pipeline.arrRef spec4 2))
    (hafter : ∀ t, dat.after 2 t = blk V c 2 t) (t : Fin cfg4.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg4 c) (hA : dat.A 3 = V c (Pipeline.arrRef spec4 3))
    (hafter : ∀ t, dat.after 3 t = blk V c 3 t) (t : Fin cfg4.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg4 c) (hA : dat.A 4 = V c (Pipeline.arrRef spec4 4))
    (hafter : ∀ t, dat.after 4 t = blk V c 4 t) (t : Fin cfg4.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and each result's at the message block of the input blocks; the invariant is the
    scoped rest and the generator register, untouched; nothing owed; full shares. -/
def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sIn (blk V c 0 t) (blk V c 1 t) (blk V c 2 t)
    | ⟨6, _⟩ => sOut (blk V c 0 t) (blk V c 3 t) (blk V c 4 t)
  Φ _ := Pipeline.ΦA spec4 c
  q _ := fullShare
  owed _ := 0

theorem dat_A (c : Dev nD) (w : Fin cfg4.W) : (dat V c).A w = V c (Pipeline.arrRef spec4 w) := by
  dsimp only [dat]

theorem after0 (c : Dev nD) (t : Fin cfg4.N) : (dat V c).after 0 t = blk V c 0 t := by dsimp only [dat]
theorem after1 (c : Dev nD) (t : Fin cfg4.N) : (dat V c).after 1 t = blk V c 1 t := by dsimp only [dat]
theorem after2 (c : Dev nD) (t : Fin cfg4.N) : (dat V c).after 2 t = blk V c 2 t := by dsimp only [dat]
theorem after3 (c : Dev nD) (t : Fin cfg4.N) : (dat V c).after 3 t = blk V c 3 t := by dsimp only [dat]
theorem after4 (c : Dev nD) (t : Fin cfg4.N) : (dat V c).after 4 t = blk V c 4 t := by dsimp only [dat]
theorem after5 (c : Dev nD) (t : Fin cfg4.N) : (dat V c).after 5 t = sIn (blk V c 0 t) (blk V c 1 t) (blk V c 2 t) := by dsimp only [dat]
theorem after6 (c : Dev nD) (t : Fin cfg4.N) : (dat V c).after 6 t = sOut (blk V c 0 t) (blk V c 3 t) (blk V c 4 t) := by dsimp only [dat]

theorem before0 (c : Dev nD) (t : Fin cfg4.N) (d) : (dat V c).before 0 t d = blk V c 0 t :=
  before0_of V (dat V c) (dat_A V c 0) (after0 V c) t d
theorem before1 (c : Dev nD) (t : Fin cfg4.N) (d) : (dat V c).before 1 t d = blk V c 1 t :=
  before1_of V (dat V c) (dat_A V c 1) (after1 V c) t d
theorem before2 (c : Dev nD) (t : Fin cfg4.N) (d) : (dat V c).before 2 t d = blk V c 2 t :=
  before2_of V (dat V c) (dat_A V c 2) (after2 V c) t d
theorem before3 (c : Dev nD) (t : Fin cfg4.N) (d) : (dat V c).before 3 t d = blk V c 3 t :=
  before3_of V (dat V c) (dat_A V c 3) (after3 V c) t d
theorem before4 (c : Dev nD) (t : Fin cfg4.N) (d) : (dat V c).before 4 t d = blk V c 4 t :=
  before4_of V (dat V c) (dat_A V c 4) (after4 V c) t d

/-! ## The body obligation -/

/-- What the body is called with at point `t`: the invariant, the core's dues, and each window's current staging buffer
    at what the pipeline put there. -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d)))

/-- What it returns. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t)
    ∗ owns (c : Thread nD τ) (st4_6 t) fullShare ((dat V c).after 6 t))

/-- The body at any point: the inputs' buffers hold their blocks, so `body_runs` applies; the invariant and the core's
    dues pass through unread. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs (grid4.coords t) c Set.univ _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation (c : Dev nD) : BodyObligation (dat (F := F) V c) (defs₀ (F := F)) Variants.none () Set.univ := fun t => by
  rw [bigSep_W4, bigSep_W4]
  exact sound_body V c t

end Cert.KernelIdeal.Messages4

end
-- ==== Proof.IdealGated5Runs.lean ====
/-
  Region 5 of the program: the gated update of one block of 512 nodes, accumulated over the eight blocks of 512
  neighbours. At grid point (m, k) the body adds to two running sums kept in scratch between points,
      acc_in  += A[m-block, k-block] · s_in[k-block]        acc_out += A[k-block, m-block]ᵀ · s_out[k-block],
  after setting both to zero when k = 0; when k = 7 it reads the finished sums, forms the reset and update gates and
  the candidate state from them and the node block's own state, and stores the new state. At the other points the
  result block is left alone.
  Here: the body's run in each of the three situations the grid meets — k = 0 (start), 0 < k < 7 (middle), k = 7
  (finish) — on whole staging buffers; what each stored buffer ends with is given as the list of stored pieces the
  run itself produces.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gated5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- "This is the first neighbour block": the test the body makes before zeroing the running sums. -/
abbrev atStart (i : grid5.Coords) : Prop :=
  (Scalar.cmpi .ne (Scalar.extui (Scalar.cmpi .eq (BitVec.ofNat 32 (i 1).val) 0#32)) 0#32) = 1#1
/-- "This is the last neighbour block": the test the body makes before finishing the node block. -/
abbrev atFinish (i : grid5.Coords) : Prop := k5_cond2 i = 1#1

/-- The first test holds exactly at the points whose position is a multiple of 8 (k = 0). -/
theorem atStart_iff : ∀ t : Fin cfg5.N, atStart (grid5.coords t) ↔ t.val % 8 = 0 :=
  (by decide +kernel : ∀ t : Fin grid5.N, atStart (grid5.coords t) ↔ t.val % 8 = 0)
/-- The second holds exactly at the points whose position is 7 modulo 8 (k = 7). -/
theorem atFinish_iff : ∀ t : Fin cfg5.N, atFinish (grid5.coords t) ↔ t.val % 8 = 7 :=
  (by decide +kernel : ∀ t : Fin grid5.N, atFinish (grid5.coords t) ↔ t.val % 8 = 7)

/-! ## The body's run, situation by situation -/

set_option maxHeartbeats 4000000 in
/-- START (k = 0): the running sums are zeroed and the first products added; the result block `xo` is handed back
    untouched. The scratch buffers may hold anything on entry. -/
noncomputable def runStart (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc5__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc5__ggnn_kernel_eq_skeleton, k5_part1_eq_skeleton]; unfold cc5__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 4000000 in
/-- MIDDLE (0 < k < 7): the products are added to the running sums `s0`, `s1` the point before left; the result
    block `xo` is handed back untouched. -/
noncomputable def runMiddle (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc5__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc5__ggnn_kernel_eq_skeleton, k5_part1_eq_skeleton]; unfold cc5__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 8000000 in
/-- FINISH (k = 7): the last products are added to the running sums `s0`, `s1`, and the new state of the node block
    is computed from the finished sums and stored over whatever the result block held. -/
noncomputable def runFinish (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LO : List (View.Piece (Elt F) S512x512 .f32)) (LS0 : List (View.Piece (Elt F) S512x512 .f32)), { LS1 : List (View.Piece (Elt F) S512x512 .f32) //
      ∀ (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f LO) ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc5__ggnn_kernel i a2 h2 a3 h3 a4 h4 a5 h5 a6 h6 a7 h7 a8 h8 a9 h9 a10 h10 a11 h11 a12 h12 a13 h13 a14 h14 a15 h15) Kont } := by
  refine ⟨?_, ?_, ?_, fun E Kont => ?run⟩
  case run =>
    simp only [cc5__ggnn_kernel_eq_skeleton, k5_part1_eq_skeleton]; unfold cc5__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

end Cert.KernelIdeal.Gated5

end
-- ==== Proof.IdealGated5.lean ====
/-
  Region 5 of the program, continued: what the two running sums and the result block hold after each of the 64 grid
  points, by recursion on the point's position n = 8·m + k — at k = 0 the sums restart from zero, at 0 < k < 7 they
  grow from what the point before left, at k = 7 they are finished and the new node state is stored —; the region's
  invariant, which carries the two sums from one point to the next; the proof data; and the body obligation.
-/
import proofs.«121501_j55087250538634_2_alg».proof.Proof.IdealGated5Runs
import Idealize.ShloMosaic.Lib.Ring

set_option maxRecDepth 16384

noncomputable section

namespace Cert.KernelIdeal.Gated5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## The buffers the body runs on at a point -/

abbrev mw0 (t : Fin cfg5.N) := win5_0.stage (cfg5.slots t 0)
abbrev hw0 (t : Fin cfg5.N) : (mw0 t).IsWhole := hstage5_0 ((cfg5.slots t 0).cast nbuf5_0)
abbrev mw1 (t : Fin cfg5.N) := win5_1.stage (cfg5.slots t 1)
abbrev hw1 (t : Fin cfg5.N) : (mw1 t).IsWhole := hstage5_1 ((cfg5.slots t 1).cast nbuf5_1)
abbrev mw2 (t : Fin cfg5.N) := win5_2.stage (cfg5.slots t 2)
abbrev hw2 (t : Fin cfg5.N) : (mw2 t).IsWhole := hstage5_2 ((cfg5.slots t 2).cast nbuf5_2)
abbrev mw3 (t : Fin cfg5.N) := win5_3.stage (cfg5.slots t 3)
abbrev hw3 (t : Fin cfg5.N) : (mw3 t).IsWhole := hstage5_3 ((cfg5.slots t 3).cast nbuf5_3)
abbrev mw4 (t : Fin cfg5.N) := win5_4.stage (cfg5.slots t 4)
abbrev hw4 (t : Fin cfg5.N) : (mw4 t).IsWhole := hstage5_4 ((cfg5.slots t 4).cast nbuf5_4)
abbrev mw5 (t : Fin cfg5.N) := win5_5.stage (cfg5.slots t 5)
abbrev hw5 (t : Fin cfg5.N) : (mw5 t).IsWhole := hstage5_5 ((cfg5.slots t 5).cast nbuf5_5)
abbrev mw6 (t : Fin cfg5.N) := win5_6.stage (cfg5.slots t 6)
abbrev hw6 (t : Fin cfg5.N) : (mw6 t).IsWhole := hstage5_6 ((cfg5.slots t 6).cast nbuf5_6)
abbrev mw7 (t : Fin cfg5.N) := win5_7.stage (cfg5.slots t 7)
abbrev hw7 (t : Fin cfg5.N) : (mw7 t).IsWhole := hstage5_7 ((cfg5.slots t 7).cast nbuf5_7)
abbrev mw8 (t : Fin cfg5.N) := win5_8.stage (cfg5.slots t 8)
abbrev hw8 (t : Fin cfg5.N) : (mw8 t).IsWhole := hstage5_8 ((cfg5.slots t 8).cast nbuf5_8)
abbrev mw9 (t : Fin cfg5.N) := win5_9.stage (cfg5.slots t 9)
abbrev hw9 (t : Fin cfg5.N) : (mw9 t).IsWhole := hstage5_9 ((cfg5.slots t 9).cast nbuf5_9)
abbrev mw10 (t : Fin cfg5.N) := win5_10.stage (cfg5.slots t 10)
abbrev hw10 (t : Fin cfg5.N) : (mw10 t).IsWhole := hstage5_10 ((cfg5.slots t 10).cast nbuf5_10)
abbrev mw11 (t : Fin cfg5.N) := win5_11.stage (cfg5.slots t 11)
abbrev hw11 (t : Fin cfg5.N) : (mw11 t).IsWhole := hstage5_11 ((cfg5.slots t 11).cast nbuf5_11)
/-- The two scratch buffers holding the running sums. -/
abbrev sc0 : Memref sig .tc .vmem S512x512 .f32 := Memref.whole cc5_scratch0
abbrev sc1 : Memref sig .tc .vmem S512x512 .f32 := Memref.whole cc5_scratch1
/-- The views through which stored pieces are read back as contents. -/
abbrev vS0 : View sig .tc .vmem S512x512 .f32 := sc0.view
abbrev vS1 : View sig .tc .vmem S512x512 .f32 := sc1.view
abbrev vOut : View sig .tc .vmem S512x512 .f32 := (Memref.whole cc5_stg11_0 : Memref sig .tc .vmem S512x512 .f32).view

/-! ## Where the result window rests -/

theorem out_idle : ∀ t : Fin cfg5.N, ¬atFinish (grid5.coords t) → cfg5.idle 11 (grid5.coords t) = true :=
  (by decide +kernel : ∀ t : Fin grid5.N, ¬atFinish (grid5.coords t) → cfg5.idle 11 (grid5.coords t) = true)
theorem out_noFlush : ∀ t : Fin cfg5.N, ¬atFinish (grid5.coords t) → (cfg5.win 11).flush t = false :=
  (by decide +kernel : ∀ t : Fin grid5.N, ¬atFinish (grid5.coords t) → win5_11.flush t = false)
theorem out_live : ∀ t : Fin cfg5.N, atFinish (grid5.coords t) → cfg5.idle 11 (grid5.coords t) = false :=
  (by decide +kernel : ∀ t : Fin grid5.N, atFinish (grid5.coords t) → cfg5.idle 11 (grid5.coords t) = false)

/-! ## What each situation leaves: the stored pieces read back -/

/-- The result block's placeholder at the points where nothing is stored into it (never consulted: the window rests
    there and is not written back). -/
def restOut : Vec F S512x512 .f32 := vOut.read (Elt F) (vOut.writes (Elt F) vOut.junk [])

/-- After a START point: (the resting result block, the first sum, the second sum). -/
def startTriple (c : Dev nD) (t : Fin cfg5.N) (hs : atStart (grid5.coords t)) (hf : ¬atFinish (grid5.coords t)) : Vec F S512x512 .f32 × Vec F S512x512 .f32 × Vec F S512x512 .f32 :=
  (restOut,
   vS0.read (Elt F) (vS0.writes (Elt F) vS0.junk (runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1),
   vS1.read (Elt F) (vS1.writes (Elt F) vS1.junk (runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1))

/-- After a MIDDLE point, from the sums `s0`, `s1` the point before left. -/
def middleTriple (c : Dev nD) (t : Fin cfg5.N) (hs : ¬atStart (grid5.coords t)) (hf : ¬atFinish (grid5.coords t)) (s0 s1 : Vec F S512x512 .f32) : Vec F S512x512 .f32 × Vec F S512x512 .f32 × Vec F S512x512 .f32 :=
  (restOut,
   vS0.read (Elt F) (vS0.writes (Elt F) vS0.junk (runMiddle c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS1.read (Elt F) (vS1.writes (Elt F) vS1.junk (runMiddle c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1))

/-- After a FINISH point, from the sums `s0`, `s1` the point before left: (the new node state, the finished sums). -/
def finishTriple (c : Dev nD) (t : Fin cfg5.N) (hs : ¬atStart (grid5.coords t)) (hf : atFinish (grid5.coords t)) (s0 s1 : Vec F S512x512 .f32) : Vec F S512x512 .f32 × Vec F S512x512 .f32 × Vec F S512x512 .f32 :=
  (vOut.read (Elt F) (vOut.writes (Elt F) vOut.junk (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS0.read (Elt F) (vS0.writes (Elt F) vS0.junk (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1),
   vS1.read (Elt F) (vS1.writes (Elt F) vS1.junk (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1))

/-! ## The stored pieces cover their buffers -/

theorem start_cover0 (c : Dev nD) (t : Fin cfg5.N) (hs : atStart (grid5.coords t)) (hf : ¬atFinish (grid5.coords t)) (y : S512x512.Idx) :
    ∃ pc ∈ (runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1, y ∈ pc.1.set :=
  View.cover_of_tiledL _ S512x512.size (by sl_kernel_rfl) y
theorem start_cover1 (c : Dev nD) (t : Fin cfg5.N) (hs : atStart (grid5.coords t)) (hf : ¬atFinish (grid5.coords t)) (y : S512x512.Idx) :
    ∃ pc ∈ (runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1, y ∈ pc.1.set :=
  View.cover_of_tiledL _ S512x512.size (by sl_kernel_rfl) y
theorem middle_cover0 (c : Dev nD) (t : Fin cfg5.N) (hs : ¬atStart (grid5.coords t)) (hf : ¬atFinish (grid5.coords t)) (s0 s1 : Vec F S512x512 .f32) (y : S512x512.Idx) :
    ∃ pc ∈ (runMiddle c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem middle_cover1 (c : Dev nD) (t : Fin cfg5.N) (hs : ¬atStart (grid5.coords t)) (hf : ¬atFinish (grid5.coords t)) (s0 s1 : Vec F S512x512 .f32) (y : S512x512.Idx) :
    ∃ pc ∈ (runMiddle c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_coverO (c : Dev nD) (t : Fin cfg5.N) (hs : ¬atStart (grid5.coords t)) (hf : atFinish (grid5.coords t)) (s0 s1 : Vec F S512x512 .f32) (y : S512x512.Idx) :
    ∃ pc ∈ (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem finish_cover0 (c : Dev nD) (t : Fin cfg5.N) (hs : ¬atStart (grid5.coords t)) (hf : atFinish (grid5.coords t)) (s0 s1 : Vec F S512x512 .f32) (y : S512x512.Idx) :
    ∃ pc ∈ (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_cover1 (c : Dev nD) (t : Fin cfg5.N) (hs : ¬atStart (grid5.coords t)) (hf : atFinish (grid5.coords t)) (s0 s1 : Vec F S512x512 .f32) (y : S512x512.Idx) :
    ∃ pc ∈ (runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1, y ∈ pc.1.set :=
  View.cover_of_tiledL _ S512x512.size (by sl_kernel_rfl) y

/-! ## The accumulation over the grid -/

/-- After the point at position `n`: (the result block's buffer, the first running sum, the second). -/
def sums (c : Dev nD) : (n : ℕ) → n < cfg5.N → Vec F S512x512 .f32 × Vec F S512x512 .f32 × Vec F S512x512 .f32
  | 0, hn => startTriple V c ⟨0, hn⟩ ((atStart_iff ⟨0, hn⟩).mpr (Nat.zero_mod _))
      (fun h => (fun h => by (try dsimp only at h); omega) ((atFinish_iff ⟨0, hn⟩).mp h))
  | n + 1, hn =>
    if h0 : (n + 1) % 8 = 0 then
      if h7 : (n + 1) % 8 = 7 then False.elim (by omega)
      else startTriple V c ⟨n + 1, hn⟩ ((atStart_iff ⟨n + 1, hn⟩).mpr h0) (fun h => h7 ((atFinish_iff ⟨n + 1, hn⟩).mp h))
    else
      if h7 : (n + 1) % 8 = 7 then
        finishTriple V c ⟨n + 1, hn⟩ (fun h => h0 ((atStart_iff ⟨n + 1, hn⟩).mp h)) ((atFinish_iff ⟨n + 1, hn⟩).mpr h7)
          (sums c n (Nat.lt_of_succ_lt hn)).2.1 (sums c n (Nat.lt_of_succ_lt hn)).2.2
      else
        middleTriple V c ⟨n + 1, hn⟩ (fun h => h0 ((atStart_iff ⟨n + 1, hn⟩).mp h)) (fun h => h7 ((atFinish_iff ⟨n + 1, hn⟩).mp h))
          (sums c n (Nat.lt_of_succ_lt hn)).2.1 (sums c n (Nat.lt_of_succ_lt hn)).2.2

theorem sums_start (c : Dev nD) (t : Fin cfg5.N) (h0 : t.val % 8 = 0) (h7 : ¬t.val % 8 = 7) :
    sums V c t.val t.isLt = startTriple V c t ((atStart_iff t).mpr h0) (fun h => h7 ((atFinish_iff t).mp h)) := by
  obtain ⟨n, hn⟩ := t
  cases n with
  | zero => exact rfl
  | succ n => exact (dif_pos h0).trans ((dif_neg h7).trans rfl)

theorem sums_middle (c : Dev nD) (t : Fin cfg5.N) (h0 : ¬t.val % 8 = 0) (h7 : ¬t.val % 8 = 7) :
    sums V c t.val t.isLt = middleTriple V c t (fun h => h0 ((atStart_iff t).mp h)) (fun h => h7 ((atFinish_iff t).mp h))
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h7).trans rfl)

theorem sums_finish (c : Dev nD) (t : Fin cfg5.N) (h0 : ¬t.val % 8 = 0) (h7 : t.val % 8 = 7) :
    sums V c t.val t.isLt = finishTriple V c t (fun h => h0 ((atStart_iff t).mp h)) ((atFinish_iff t).mpr h7)
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- The other scoped buffers of the core, unopened. -/
abbrev others (c : Dev nD) : sProp 𝕄 :=
  Pipeline.scopedRestBut (Ix := Unit) (Name := ℕ) (U := UR sig nD τ) (Lvl := ℕ) (Val := Elt F) spec5 c [cc5_scratch0, cc5_scratch1]

/-- Before the point at position `n`: at the first point every scratch buffer at anything; afterwards the two running
    sums at what the point before left, the other scoped buffers and the generator register untouched. -/
def carried (c : Dev nD) : (n : ℕ) → n ≤ cfg5.N → sProp 𝕄
  | 0, _ => Pipeline.ΦA spec5 c
  | n + 1, hn => iprop(iprop(iprop(owns (c : Thread nD τ) sc0 fullShare (sums V c n hn).2.1 ∗ owns (c : Thread nD τ) sc1 fullShare (sums V c n hn).2.2)
      ∗ others c) ∗ (∃ r, prngReg c r))

theorem carried_zero (c : Dev nD) (n : ℕ) (h : n ≤ cfg5.N) (hz : n = 0) : carried V c n h = Pipeline.ΦA spec5 c := by
  subst hz; rfl

theorem carried_succ (c : Dev nD) (n : ℕ) (hn : n < cfg5.N) :
    carried V c (n + 1) hn = iprop(iprop(iprop(owns (c : Thread nD τ) sc0 fullShare (sums V c n hn).2.1 ∗ owns (c : Thread nD τ) sc1 fullShare (sums V c n hn).2.2)
      ∗ others c) ∗ (∃ r, prngReg c r)) := rfl

theorem carried_pos (c : Dev nD) (n : ℕ) (h : n ≤ cfg5.N) (hz : n ≠ 0) :
    carried V c n h = iprop(iprop(iprop(owns (c : Thread nD τ) sc0 fullShare (sums V c (n - 1) (by omega)).2.1
      ∗ owns (c : Thread nD τ) sc1 fullShare (sums V c (n - 1) (by omega)).2.2) ∗ others c) ∗ (∃ r, prngReg c r)) := by
  cases n with
  | zero => exact absurd rfl hz
  | succ n => rfl

/-- The invariant handed in at the first point, with the two scratch buffers named. -/
theorem entry_eq (c : Dev nD) :
    (Pipeline.ΦA spec5 c : sProp 𝕄)
      = iprop(iprop(iprop((∃ d, owns (c : Thread nD τ) sc0 fullShare d) ∗ (∃ d, owns (c : Thread nD τ) sc1 fullShare d)) ∗ others c) ∗ (∃ r, prngReg c r)) := by
  unfold Pipeline.ΦA; rw [scopedRest5_split]; simp only [sc0, sc1, owns_whole]; try rfl

/-! ## The proof data -/

theorem before0_of {c : Dev nD} (dat : Dat τ (Elt F) Unit ℕ (UR sig nD τ) ℕ cfg5 c) (hA : dat.A 0 = V c (Pipeline.arrRef spec5 0))
    (hafter : ∀ t, dat.after 0 t = blk V c 0 t) (t : Fin cfg5.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg5 c) (hA : dat.A 1 = V c (Pipeline.arrRef spec5 1))
    (hafter : ∀ t, dat.after 1 t = blk V c 1 t) (t : Fin cfg5.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg5 c) (hA : dat.A 2 = V c (Pipeline.arrRef spec5 2))
    (hafter : ∀ t, dat.after 2 t = blk V c 2 t) (t : Fin cfg5.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg5 c) (hA : dat.A 3 = V c (Pipeline.arrRef spec5 3))
    (hafter : ∀ t, dat.after 3 t = blk V c 3 t) (t : Fin cfg5.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg5 c) (hA : dat.A 4 = V c (Pipeline.arrRef spec5 4))
    (hafter : ∀ t, dat.after 4 t = blk V c 4 t) (t : Fin cfg5.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before5_of {c : Dev nD} (dat : Dat τ (Elt F) Unit ℕ (UR sig nD τ) ℕ cfg5 c) (hA : dat.A 5 = V c (Pipeline.arrRef spec5 5))
    (hafter : ∀ t, dat.after 5 t = blk V c 5 t) (t : Fin cfg5.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before6_of {c : Dev nD} (dat : Dat τ (Elt F) Unit ℕ (UR sig nD τ) ℕ cfg5 c) (hA : dat.A 6 = V c (Pipeline.arrRef spec5 6))
    (hafter : ∀ t, dat.after 6 t = blk V c 6 t) (t : Fin cfg5.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before7_of {c : Dev nD} (dat : Dat τ (Elt F) Unit ℕ (UR sig nD τ) ℕ cfg5 c) (hA : dat.A 7 = V c (Pipeline.arrRef spec5 7))
    (hafter : ∀ t, dat.after 7 t = blk V c 7 t) (t : Fin cfg5.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
theorem before8_of {c : Dev nD} (dat : Dat τ (Elt F) Unit ℕ (UR sig nD τ) ℕ cfg5 c) (hA : dat.A 8 = V c (Pipeline.arrRef spec5 8))
    (hafter : ∀ t, dat.after 8 t = blk V c 8 t) (t : Fin cfg5.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
theorem before9_of {c : Dev nD} (dat : Dat τ (Elt F) Unit ℕ (UR sig nD τ) ℕ cfg5 c) (hA : dat.A 9 = V c (Pipeline.arrRef spec5 9))
    (hafter : ∀ t, dat.after 9 t = blk V c 9 t) (t : Fin cfg5.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
theorem before10_of {c : Dev nD} (dat : Dat τ (Elt F) Unit ℕ (UR sig nD τ) ℕ cfg5 c) (hA : dat.A 10 = V c (Pipeline.arrRef spec5 10))
    (hafter : ∀ t, dat.after 10 t = blk V c 10 t) (t : Fin cfg5.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`. The adjacency array is read through two windows (a block and the
    mirrored block): each holds half of the read permission. -/
def dat (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (sums V c t.val t.isLt).1
  Φ t := carried V c t.val (Nat.le_of_lt_succ t.isLt)
  q w := match w with
    | ⟨0, _⟩ => fullShare.left
    | ⟨1, _⟩ => fullShare.right
    | _ => fullShare
  owed _ := 0

theorem dat_A (c : Dev nD) (w : Fin cfg5.W) : (dat V c).A w = V c (Pipeline.arrRef spec5 w) := by
  dsimp only [dat]

theorem carried_castSucc (c : Dev nD) (t : Fin cfg5.N) :
    (dat V c).Φ t.castSucc = carried V c t.val (Nat.le_of_lt t.isLt) := by
  dsimp only [dat]; simp only [Fin.coe_castSucc]

theorem after0 (c : Dev nD) (t : Fin cfg5.N) : (dat V c).after 0 t = blk V c 0 t := by dsimp only [dat]
theorem after1 (c : Dev nD) (t : Fin cfg5.N) : (dat V c).after 1 t = blk V c 1 t := by dsimp only [dat]
theorem after2 (c : Dev nD) (t : Fin cfg5.N) : (dat V c).after 2 t = blk V c 2 t := by dsimp only [dat]
theorem after3 (c : Dev nD) (t : Fin cfg5.N) : (dat V c).after 3 t = blk V c 3 t := by dsimp only [dat]
theorem after4 (c : Dev nD) (t : Fin cfg5.N) : (dat V c).after 4 t = blk V c 4 t := by dsimp only [dat]
theorem after5 (c : Dev nD) (t : Fin cfg5.N) : (dat V c).after 5 t = blk V c 5 t := by dsimp only [dat]
theorem after6 (c : Dev nD) (t : Fin cfg5.N) : (dat V c).after 6 t = blk V c 6 t := by dsimp only [dat]
theorem after7 (c : Dev nD) (t : Fin cfg5.N) : (dat V c).after 7 t = blk V c 7 t := by dsimp only [dat]
theorem after8 (c : Dev nD) (t : Fin cfg5.N) : (dat V c).after 8 t = blk V c 8 t := by dsimp only [dat]
theorem after9 (c : Dev nD) (t : Fin cfg5.N) : (dat V c).after 9 t = blk V c 9 t := by dsimp only [dat]
theorem after10 (c : Dev nD) (t : Fin cfg5.N) : (dat V c).after 10 t = blk V c 10 t := by dsimp only [dat]
theorem after11 (c : Dev nD) (t : Fin cfg5.N) : (dat V c).after 11 t = (sums V c t.val t.isLt).1 := by dsimp only [dat]

theorem before0 (c : Dev nD) (t : Fin cfg5.N) (d) : (dat V c).before 0 t d = blk V c 0 t :=
  before0_of V (dat V c) (dat_A V c 0) (after0 V c) t d
theorem before1 (c : Dev nD) (t : Fin cfg5.N) (d) : (dat V c).before 1 t d = blk V c 1 t :=
  before1_of V (dat V c) (dat_A V c 1) (after1 V c) t d
theorem before2 (c : Dev nD) (t : Fin cfg5.N) (d) : (dat V c).before 2 t d = blk V c 2 t :=
  before2_of V (dat V c) (dat_A V c 2) (after2 V c) t d
theorem before3 (c : Dev nD) (t : Fin cfg5.N) (d) : (dat V c).before 3 t d = blk V c 3 t :=
  before3_of V (dat V c) (dat_A V c 3) (after3 V c) t d
theorem before4 (c : Dev nD) (t : Fin cfg5.N) (d) : (dat V c).before 4 t d = blk V c 4 t :=
  before4_of V (dat V c) (dat_A V c 4) (after4 V c) t d
theorem before5 (c : Dev nD) (t : Fin cfg5.N) (d) : (dat V c).before 5 t d = blk V c 5 t :=
  before5_of V (dat V c) (dat_A V c 5) (after5 V c) t d
theorem before6 (c : Dev nD) (t : Fin cfg5.N) (d) : (dat V c).before 6 t d = blk V c 6 t :=
  before6_of V (dat V c) (dat_A V c 6) (after6 V c) t d
theorem before7 (c : Dev nD) (t : Fin cfg5.N) (d) : (dat V c).before 7 t d = blk V c 7 t :=
  before7_of V (dat V c) (dat_A V c 7) (after7 V c) t d
theorem before8 (c : Dev nD) (t : Fin cfg5.N) (d) : (dat V c).before 8 t d = blk V c 8 t :=
  before8_of V (dat V c) (dat_A V c 8) (after8 V c) t d
theorem before9 (c : Dev nD) (t : Fin cfg5.N) (d) : (dat V c).before 9 t d = blk V c 9 t :=
  before9_of V (dat V c) (dat_A V c 9) (after9 V c) t d
theorem before10 (c : Dev nD) (t : Fin cfg5.N) (d) : (dat V c).before 10 t d = blk V c 10 t :=
  before10_of V (dat V c) (dat_A V c 10) (after10 V c) t d

theorem leaves0 (c : Dev nD) (t : Fin cfg5.N) :
    (dat V c).leavesExact 0 t = owns (c : Thread nD τ) (mw0 t) fullShare (blk V c 0 t) := by
  unfold Dat.leavesExact; rw [show cfg5.idle 0 (cfg5.grid.coords t) = false from rfl, after0]; try rfl
theorem leaves1 (c : Dev nD) (t : Fin cfg5.N) :
    (dat V c).leavesExact 1 t = owns (c : Thread nD τ) (mw1 t) fullShare (blk V c 1 t) := by
  unfold Dat.leavesExact; rw [show cfg5.idle 1 (cfg5.grid.coords t) = false from rfl, after1]; try rfl
theorem leaves2 (c : Dev nD) (t : Fin cfg5.N) :
    (dat V c).leavesExact 2 t = owns (c : Thread nD τ) (mw2 t) fullShare (blk V c 2 t) := by
  unfold Dat.leavesExact; rw [show cfg5.idle 2 (cfg5.grid.coords t) = false from rfl, after2]; try rfl
theorem leaves3 (c : Dev nD) (t : Fin cfg5.N) :
    (dat V c).leavesExact 3 t = owns (c : Thread nD τ) (mw3 t) fullShare (blk V c 3 t) := by
  unfold Dat.leavesExact; rw [show cfg5.idle 3 (cfg5.grid.coords t) = false from rfl, after3]; try rfl
theorem leaves4 (c : Dev nD) (t : Fin cfg5.N) :
    (dat V c).leavesExact 4 t = owns (c : Thread nD τ) (mw4 t) fullShare (blk V c 4 t) := by
  unfold Dat.leavesExact; rw [show cfg5.idle 4 (cfg5.grid.coords t) = false from rfl, after4]; try rfl
theorem leaves5 (c : Dev nD) (t : Fin cfg5.N) :
    (dat V c).leavesExact 5 t = owns (c : Thread nD τ) (mw5 t) fullShare (blk V c 5 t) := by
  unfold Dat.leavesExact; rw [show cfg5.idle 5 (cfg5.grid.coords t) = false from rfl, after5]; try rfl
theorem leaves6 (c : Dev nD) (t : Fin cfg5.N) :
    (dat V c).leavesExact 6 t = owns (c : Thread nD τ) (mw6 t) fullShare (blk V c 6 t) := by
  unfold Dat.leavesExact; rw [show cfg5.idle 6 (cfg5.grid.coords t) = false from rfl, after6]; try rfl
theorem leaves7 (c : Dev nD) (t : Fin cfg5.N) :
    (dat V c).leavesExact 7 t = owns (c : Thread nD τ) (mw7 t) fullShare (blk V c 7 t) := by
  unfold Dat.leavesExact; rw [show cfg5.idle 7 (cfg5.grid.coords t) = false from rfl, after7]; try rfl
theorem leaves8 (c : Dev nD) (t : Fin cfg5.N) :
    (dat V c).leavesExact 8 t = owns (c : Thread nD τ) (mw8 t) fullShare (blk V c 8 t) := by
  unfold Dat.leavesExact; rw [show cfg5.idle 8 (cfg5.grid.coords t) = false from rfl, after8]; try rfl
theorem leaves9 (c : Dev nD) (t : Fin cfg5.N) :
    (dat V c).leavesExact 9 t = owns (c : Thread nD τ) (mw9 t) fullShare (blk V c 9 t) := by
  unfold Dat.leavesExact; rw [show cfg5.idle 9 (cfg5.grid.coords t) = false from rfl, after9]; try rfl
theorem leaves10 (c : Dev nD) (t : Fin cfg5.N) :
    (dat V c).leavesExact 10 t = owns (c : Thread nD τ) (mw10 t) fullShare (blk V c 10 t) := by
  unfold Dat.leavesExact; rw [show cfg5.idle 10 (cfg5.grid.coords t) = false from rfl, after10]; try rfl

/-! ## The body obligation -/

def bodyPre (c : Dev nD) (t : Fin cfg5.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d))
    ∗ (∃ d, owns (c : Thread nD τ) (mw5 t) fullShare ((dat V c).before 5 t d))
    ∗ (∃ d, owns (c : Thread nD τ) (mw6 t) fullShare ((dat V c).before 6 t d))
    ∗ (∃ d, owns (c : Thread nD τ) (mw7 t) fullShare ((dat V c).before 7 t d))
    ∗ (∃ d, owns (c : Thread nD τ) (mw8 t) fullShare ((dat V c).before 8 t d))
    ∗ (∃ d, owns (c : Thread nD τ) (mw9 t) fullShare ((dat V c).before 9 t d))
    ∗ (∃ d, owns (c : Thread nD τ) (mw10 t) fullShare ((dat V c).before 10 t d))
    ∗ (∃ d, owns (c : Thread nD τ) (mw11 t) fullShare ((dat V c).before 11 t d)))

def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

end Cert.KernelIdeal.Gated5

end
-- ==== Proof.IdealGated5Body.lean ====
/-
  Region 5 of the program, concluded: the body obligation at every grid point — the point's position decides
  which of the three situations applies, the invariant hands the body the two running sums (at anything at the very
  first point, at what the point before left afterwards) and takes them back at this point's contents — and how
  the invariant is entered and left.
-/
import proofs.«121501_j55087250538634_2_alg».proof.Proof.IdealGated5

set_option maxRecDepth 16384

noncomputable section

namespace Cert.KernelIdeal.Gated5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before0, before1, before2, before3, before4, before5, before6, before7, before8, before9, before10]
  rw [show (dat V c).owesAt () t.succ = (dat V c).owesAt () t.castSucc from rfl]
  rw [show (dat V c).Φ t.succ = carried V c (t.val + 1) t.isLt from rfl, carried_succ]
  rw [leaves0, leaves1, leaves2, leaves3, leaves4, leaves5, leaves6, leaves7, leaves8, leaves9, leaves10]
  have hN : t.val < 64 := lt_of_lt_of_eq t.isLt (show cfg5.N = 64 from N_5)
  by_cases h0 : t.val % 8 = 0
  · by_cases h7 : t.val % 8 = 7
    · exfalso; omega
    · rw [Dat.leavesExact_idle (dat V c) 11 t (out_idle t (fun h => h7 ((atFinish_iff t).mp h))) (out_noFlush t (fun h => h7 ((atFinish_iff t).mp h)))]
      rw [sums_start V c t h0 h7]
      unfold startTriple; (try dsimp only)
      by_cases hz : t.val = 0
      · rw [carried_castSucc V c t, carried_zero V c _ _ hz, entry_eq]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [carried_castSucc V c t, carried_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun h => h0 (by rw [h])
    by_cases h7 : t.val % 8 = 7
    · rw [show (dat V c).leavesExact 11 t = owns (c : Thread nD τ) (mw11 t) fullShare ((dat V c).after 11 t) from by
        unfold Dat.leavesExact; rw [out_live t ((atFinish_iff t).mpr h7)], after11]
      rw [sums_finish V c t h0 h7]
      unfold finishTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFinish c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) ((atFinish_iff t).mpr h7) (blk V c 0 t) (blk V c 1 t) (blk V c 2 t) (blk V c 3 t) (blk V c 4 t) (blk V c 5 t) (blk V c 6 t) (blk V c 7 t) (blk V c 8 t) (blk V c 9 t) (blk V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (finish_cover0 V c t _ _ _ _)
            unfold owns; iexists _; isplitr
            swap; · iexact HS1
            ipureintro; exact View.read_writes_of_cover _ _ _ _ _ (finish_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (finish_coverO V c t _ _ _ _)
    · rw [Dat.leavesExact_idle (dat V c) 11 t (out_idle t (fun h => h7 ((atFinish_iff t).mp h))) (out_noFlush t (fun h => h7 ((atFinish_iff t).mp h)))]
      rw [sums_middle V c t h0 h7]
      unfold middleTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (middle_cover0 V c t _ _ _ _)
            unfold owns; iexists _; isplitr
            swap; · iexact HS1
            ipureintro; exact View.read_writes_of_cover _ _ _ _ _ (middle_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation of the region, at every point. -/
theorem body_obligation (c : Dev nD) : BodyObligation (dat (F := F) V c) (defs₀ (F := F)) Variants.none () Set.univ := fun t => by
  rw [bigSep_W5, bigSep_W5]
  exact sound_body V c t

/-- What the launch hands the region is the invariant before the first point. -/
theorem enter (c : Dev nD) : Pipeline.ΦA spec5 c ⊢ (dat V c).Φ 0 := by
  rw [show (dat V c).Φ 0 = carried V c 0 (Nat.zero_le _) from rfl, carried_zero V c 0 _ rfl]
  try exact Idealize.SL.BI.Entails.refl _

/-- After the last point the invariant gives the scoped buffers back: the sums' contents are forgotten. -/
theorem leave (c : Dev nD) : (dat V c).Φ (Fin.last cfg5.N) ⊢ Pipeline.ΦA spec5 c := by
  have hne : (Fin.last cfg5.N).val ≠ 0 := by rw [Fin.val_last]; have : cfg5.N = 64 := N_5; omega
  rw [show (dat V c).Φ (Fin.last cfg5.N) = carried V c (Fin.last cfg5.N).val (Nat.le_of_lt_succ (Fin.last cfg5.N).isLt) from rfl,
    carried_pos V c _ _ hne, entry_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Cert.KernelIdeal.Gated5

end
-- ==== Proof.IdealGated5Arrays.lean ====
/-
  Region 5 of the program: its windows' arrays against the buffers behind them. The adjacency array is read
  through two windows; the read permission on its buffer is cut in two halves, one per window, when the region
  is entered, and the halves are joined again when it is left. Every other array has a buffer of its own.
-/
import proofs.«121501_j55087250538634_2_alg».proof.Proof.IdealGated5

set_option maxRecDepth 16384

noncomputable section

namespace Cert.KernelIdeal.Gated5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows. -/
abbrev bufs : List (Ref sig .tc) := [main_v1, main_v27_0, main_v27_1, main_v26, main_v7, main_v18, main_v9, main_v19, main_v11, main_v20, main_v28]

theorem bufs_eq : Finset.univ.image (Pipeline.arrRef spec5) = bufs.toFinset := by decide

/-- A conjunction over those buffers, one by one. -/
theorem bufs_chain (Φ : Ref sig .tc → sProp 𝕄) :
    bigSep (Finset.univ.image (Pipeline.arrRef spec5)) Φ = iprop(Φ main_v1 ∗ Φ main_v27_0 ∗ Φ main_v27_1 ∗ Φ main_v26 ∗ Φ main_v7 ∗ Φ main_v18 ∗ Φ main_v9 ∗ Φ main_v19 ∗ Φ main_v11 ∗ Φ main_v20 ∗ Φ main_v28) :=
  bigSep_eq_bigSepL_of_eq bufs bufs_eq (by decide) Φ

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl
theorem share11 (c : Dev nD) : (dat V c).share 11 = fullShare := rfl

/-- ENTRY: the buffers whole at contents `G` make the windows' arrays at `G`, the adjacency buffer's permission halved. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec5 c G : sProp 𝕄)
      ⊢ (dat V c).arrays (fun w => G (Pipeline.arrRef spec5 w)) := by
  unfold Pipeline.arrBufs Dat.arrays
  rw [bufs_chain, bigSep_W5]
  simp only [share0, share1, share2, share3, share4, share5, share6, share7, share8, share9, share10, share11, View.set_whole]
  iintro ⟨HA, H2, H3, H4, H5, H6, H7, H8, H9, H10, H11⟩
  ihave HA' := (pointsTo_share (PosShare.mem_left_op_right fullShare)).1 $$ HA
  icases HA' with ⟨HA0, HA1⟩
  isplitl [HA0]; · iexact HA0
  isplitl [HA1]; · iexact HA1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `G`, the two halves of the adjacency buffer's permission joined, are the
    buffers whole at `G`. -/
theorem bufs_of_arrays (c : Dev nD) (G : (b : Ref sig .tc) → Buf (Elt F) ((c : Thread nD τ).loc b)) :
    (dat V c).arrays (fun w => G (Pipeline.arrRef spec5 w))
      ⊢ (Pipeline.arrBufs (Ix := Unit) (Name := ℕ) (U := UR sig nD τ) (Lvl := ℕ) spec5 c G : sProp 𝕄) := by
  unfold Pipeline.arrBufs Dat.arrays
  rw [bufs_chain, bigSep_W5]
  simp only [share0, share1, share2, share3, share4, share5, share6, share7, share8, share9, share10, share11, View.set_whole]
  iintro ⟨HA0, HA1, H2, H3, H4, H5, H6, H7, H8, H9, H10, H11⟩
  ihave HA := (pointsTo_share (PosShare.mem_left_op_right fullShare)).2 $$ [HA0 HA1]
  · isplitl [HA0]; · iexact HA0
    iexact HA1
  isplitl [HA]; · iexact HA
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY, from all the core's unscoped buffers: the windows' arrays and the buffers that are no window's array. -/
theorem enter_arrays (c : Dev nD) (G : (b : Ref sig .tc) → Buf (Elt F) ((c : Thread nD τ).loc b)) :
    (unscopedBufs c G : sProp 𝕄)
      ⊢ iprop((dat V c).arrays (fun w => G (Pipeline.arrRef spec5 w))
          ∗ Pipeline.unscopedRest (Ix := Unit) (Name := ℕ) (U := UR sig nD τ) (Lvl := ℕ) spec5 c G) := by
  rw [Pipeline.unscopedBufs_split₀ cfgs 5 winFacts₀5.arr_unscoped c G]
  exact BIClass.sep_mono (arrays_of_bufs V c G) .rfl

/-- EXIT, back to all the core's unscoped buffers at contents `G'` that agree with the arrays' final contents on the
    arrays and with the entry contents `G` elsewhere. -/
theorem leave_arrays (c : Dev nD) (G G' : (b : Ref sig .tc) → Buf (Elt F) ((c : Thread nD τ).loc b))
    (Fa : (w : Fin cfg5.W) → Buf (Elt F) ((cfg5.win w).arr.view.loc (c : Thread nD τ)))
    (hF : ∀ w, Fa w = G' (Pipeline.arrRef spec5 w))
    (hrest : ∀ b, b ∉ Finset.univ.image (Pipeline.arrRef spec5) → G' b = G b) :
    iprop((dat V c).arrays Fa ∗ Pipeline.unscopedRest (Ix := Unit) (Name := ℕ) (U := UR sig nD τ) (Lvl := ℕ) spec5 c G)
      ⊢ (unscopedBufs c G' : sProp 𝕄) := by
  rw [Pipeline.unscopedBufs_split₀ cfgs 5 winFacts₀5.arr_unscoped c G', show Fa = fun w => G' (Pipeline.arrRef spec5 w) from funext hF]
  refine BIClass.sep_mono (bufs_of_arrays V c G') ?_
  unfold Pipeline.unscopedRest
  exact Entails.of_eq (bigSep_congr fun b hb => by rw [hrest b (Finset.mem_sdiff.mp hb).2])

end Cert.KernelIdeal.Gated5

end
-- ==== Proof.IdealMessages6.lean ====
/-
  Region 6 of the program: the two edge messages of one GGNN step. For a block of 1024 rows of the node state
  `x` (window 0), the kernel forms  s_in = x · W_in + b_in  (windows 1, 2 -> window 5) and
  s_out = x · W_out + b_out  (windows 3, 4 -> window 6): each a 1024x512 by 512x512 product into the zero
  accumulator plus a bias row broadcast down the rows. The weights and biases are the same block at every point
  (constant index maps); the state block and the two result blocks move with the point.
  Here: what each result buffer holds after the body as a function of the five input blocks, the body's run on
  whole staging buffers, the region's proof data over entry contents `V`, and the body obligation at every point.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Messages6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the two result buffers -/

/-- The incoming-edge message block: the state block times `W_in` plus the bias row, as one stored piece. -/
def sIn (x : Vec F S1024x512 .f32) (w : Vec F S512x512 .bf16) (b : Vec F S1x512 .f32) : Vec F S1024x512 .bf16 :=
  View.canon [⟨rRows, k6_pay2 (View.ld x rRows) (View.ld w rWeight) (View.ld b rBias)⟩]

/-- The outgoing-edge message block: the state block times `W_out` plus the bias row. -/
def sOut (x : Vec F S1024x512 .f32) (w : Vec F S512x512 .bf16) (b : Vec F S1x512 .f32) : Vec F S1024x512 .bf16 :=
  View.canon [⟨rRows, k6_pay3 (View.ld x rRows) (View.ld w rWeight) (View.ld b rBias)⟩]

/-- One store through the whole-buffer rectangle covers the buffer. -/
theorem covers (p : Vec F S1024x512 .bf16) (y : S1024x512.Idx) :
    ∃ pc ∈ ([⟨rRows, p⟩] : List (View.Piece (Elt F) S1024x512 .bf16)), y ∈ pc.1.set :=
  View.cover_of_tiled [⟨rRows, p⟩] S1024x512.size (by rfl) y

/-! ## The body's run -/

set_option maxHeartbeats 1000000 in
/-- On whole staging buffers, the five inputs at contents `x, wi, bi, wo, bo` and the two results at anything, the
    body runs to its end with the inputs as they were and the results at `sIn`, `sOut` of the inputs. -/
theorem body_runs (i : grid6.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .bf16) (h6 : a6.IsWhole)
    (a7 : Memref sig .tc .vmem S1024x512 .bf16) (h7 : a7.IsWhole)
    (x : Vec F S1024x512 .f32) (wi : Vec F S512x512 .bf16) (bi : Vec F S1x512 .f32) (wo : Vec F S512x512 .bf16) (bo : Vec F S1x512 .f32)
    (K : PUnit → sProp 𝕄) :
    iprop(owns (c : Thread nD τ) a1 fullShare x ∗ owns (c : Thread nD τ) a2 fullShare wi ∗ owns (c : Thread nD τ) a3 fullShare bi
        ∗ owns (c : Thread nD τ) a4 fullShare wo ∗ owns (c : Thread nD τ) a5 fullShare bo
        ∗ (∃ d, owns (c : Thread nD τ) a6 fullShare d) ∗ (∃ d, owns (c : Thread nD τ) a7 fullShare d)
        ∗ (iprop(owns (c : Thread nD τ) a1 fullShare x ∗ owns (c : Thread nD τ) a2 fullShare wi ∗ owns (c : Thread nD τ) a3 fullShare bi
            ∗ owns (c : Thread nD τ) a4 fullShare wo ∗ owns (c : Thread nD τ) a5 fullShare bo
            ∗ owns (c : Thread nD τ) a6 fullShare (sIn x wi bi) ∗ owns (c : Thread nD τ) a7 fullShare (sOut x wo bo)) -∗ K ⟨⟩))
      ⊢ wp frame (wpE (defs₀ (F := F)) Variants.none c none) E (cc6__sinout_kernel i a1 h1 a2 h2 a3 h3 a4 h4 a5 h5 a6 h6 a7 h7) K := by
  simp only [cc6__sinout_kernel_eq_skeleton]; unfold cc6__sinout_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  iexists _; isplitr
  swap; · iexact H7
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg6 c) (hA : dat.A 0 = V c (Pipeline.arrRef spec6 0))
    (hafter : ∀ t, dat.after 0 t = blk V c 0 t) (t : Fin cfg6.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg6 c) (hA : dat.A 1 = V c (Pipeline.arrRef spec6 1))
    (hafter : ∀ t, dat.after 1 t = blk V c 1 t) (t : Fin cfg6.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg6 c) (hA : dat.A 2 = V c (Pipeline.arrRef spec6 2))
    (hafter : ∀ t, dat.after 2 t = blk V c 2 t) (t : Fin cfg6.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg6 c) (hA : dat.A 3 = V c (Pipeline.arrRef spec6 3))
    (hafter : ∀ t, dat.after 3 t = blk V c 3 t) (t : Fin cfg6.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg6 c) (hA : dat.A 4 = V c (Pipeline.arrRef spec6 4))
    (hafter : ∀ t, dat.after 4 t = blk V c 4 t) (t : Fin cfg6.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and each result's at the message block of the input blocks; the invariant is the
    scoped rest and the generator register, untouched; nothing owed; full shares. -/
def dat (c : Dev nD) : Dat τ (Elt F) Unit ℕ (UR sig nD τ) ℕ cfg6 c where
  A w := V c (Pipeline.arrRef spec6 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sIn (blk V c 0 t) (blk V c 1 t) (blk V c 2 t)
    | ⟨6, _⟩ => sOut (blk V c 0 t) (blk V c 3 t) (blk V c 4 t)
  Φ _ := Pipeline.ΦA spec6 c
  q _ := fullShare
  owed _ := 0

theorem dat_A (c : Dev nD) (w : Fin cfg6.W) : (dat V c).A w = V c (Pipeline.arrRef spec6 w) := by
  dsimp only [dat]

theorem after0 (c : Dev nD) (t : Fin cfg6.N) : (dat V c).after 0 t = blk V c 0 t := by dsimp only [dat]
theorem after1 (c : Dev nD) (t : Fin cfg6.N) : (dat V c).after 1 t = blk V c 1 t := by dsimp only [dat]
theorem after2 (c : Dev nD) (t : Fin cfg6.N) : (dat V c).after 2 t = blk V c 2 t := by dsimp only [dat]
theorem after3 (c : Dev nD) (t : Fin cfg6.N) : (dat V c).after 3 t = blk V c 3 t := by dsimp only [dat]
theorem after4 (c : Dev nD) (t : Fin cfg6.N) : (dat V c).after 4 t = blk V c 4 t := by dsimp only [dat]
theorem after5 (c : Dev nD) (t : Fin cfg6.N) : (dat V c).after 5 t = sIn (blk V c 0 t) (blk V c 1 t) (blk V c 2 t) := by dsimp only [dat]
theorem after6 (c : Dev nD) (t : Fin cfg6.N) : (dat V c).after 6 t = sOut (blk V c 0 t) (blk V c 3 t) (blk V c 4 t) := by dsimp only [dat]

theorem before0 (c : Dev nD) (t : Fin cfg6.N) (d) : (dat V c).before 0 t d = blk V c 0 t :=
  before0_of V (dat V c) (dat_A V c 0) (after0 V c) t d
theorem before1 (c : Dev nD) (t : Fin cfg6.N) (d) : (dat V c).before 1 t d = blk V c 1 t :=
  before1_of V (dat V c) (dat_A V c 1) (after1 V c) t d
theorem before2 (c : Dev nD) (t : Fin cfg6.N) (d) : (dat V c).before 2 t d = blk V c 2 t :=
  before2_of V (dat V c) (dat_A V c 2) (after2 V c) t d
theorem before3 (c : Dev nD) (t : Fin cfg6.N) (d) : (dat V c).before 3 t d = blk V c 3 t :=
  before3_of V (dat V c) (dat_A V c 3) (after3 V c) t d
theorem before4 (c : Dev nD) (t : Fin cfg6.N) (d) : (dat V c).before 4 t d = blk V c 4 t :=
  before4_of V (dat V c) (dat_A V c 4) (after4 V c) t d

/-! ## The body obligation -/

/-- What the body is called with at point `t`: the invariant, the core's dues, and each window's current staging buffer
    at what the pipeline put there. -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d))
    ∗ (∃ d, owns (c : Thread nD τ) (st6_6 t) fullShare ((dat V c).before 6 t d)))

/-- What it returns. -/
def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t)
    ∗ owns (c : Thread nD τ) (st6_4 t) fullShare ((dat V c).after 4 t)
    ∗ owns (c : Thread nD τ) (st6_5 t) fullShare ((dat V c).after 5 t)
    ∗ owns (c : Thread nD τ) (st6_6 t) fullShare ((dat V c).after 6 t))

/-- The body at any point: the inputs' buffers hold their blocks, so `body_runs` applies; the invariant and the core's
    dues pass through unread. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs (grid6.coords t) c Set.univ _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation (c : Dev nD) : BodyObligation (dat (F := F) V c) (defs₀ (F := F)) Variants.none () Set.univ := fun t => by
  rw [bigSep_W6, bigSep_W6]
  exact sound_body V c t

end Cert.KernelIdeal.Messages6

end
-- ==== Proof.IdealGated7Runs.lean ====
/-
  Region 7 of the program: the gated update of one block of 512 nodes, accumulated over the eight blocks of 512
  neighbours. At grid point (m, k) the body adds to two running sums kept in scratch between points,
      acc_in  += A[m-block, k-block] · s_in[k-block]        acc_out += A[k-block, m-block]ᵀ · s_out[k-block],
  after setting both to zero when k = 0; when k = 7 it reads the finished sums, forms the reset and update gates and
  the candidate state from them and the node block's own state, and stores the new state. At the other points the
  result block is left alone.
  Here: the body's run in each of the three situations the grid meets — k = 0 (start), 0 < k < 7 (middle), k = 7
  (finish) — on whole staging buffers; what each stored buffer ends with is given as the list of stored pieces the
  run itself produces.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gated7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- "This is the first neighbour block": the test the body makes before zeroing the running sums. -/
abbrev atStart (i : grid7.Coords) : Prop :=
  (Scalar.cmpi .ne (Scalar.extui (Scalar.cmpi .eq (BitVec.ofNat 32 (i 1).val) 0#32)) 0#32) = 1#1
/-- "This is the last neighbour block": the test the body makes before finishing the node block. -/
abbrev atFinish (i : grid7.Coords) : Prop := k7_cond2 i = 1#1

/-- The first test holds exactly at the points whose position is a multiple of 8 (k = 0). -/
theorem atStart_iff : ∀ t : Fin cfg7.N, atStart (grid7.coords t) ↔ t.val % 8 = 0 :=
  (by decide +kernel : ∀ t : Fin grid7.N, atStart (grid7.coords t) ↔ t.val % 8 = 0)
/-- The second holds exactly at the points whose position is 7 modulo 8 (k = 7). -/
theorem atFinish_iff : ∀ t : Fin cfg7.N, atFinish (grid7.coords t) ↔ t.val % 8 = 7 :=
  (by decide +kernel : ∀ t : Fin grid7.N, atFinish (grid7.coords t) ↔ t.val % 8 = 7)

/-! ## The body's run, situation by situation -/

set_option maxHeartbeats 4000000 in
/-- START (k = 0): the running sums are zeroed and the first products added; the result block `xo` is handed back
    untouched. The scratch buffers may hold anything on entry. -/
noncomputable def runStart (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc7__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc7__ggnn_kernel_eq_skeleton, k7_part1_eq_skeleton]; unfold cc7__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 4000000 in
/-- MIDDLE (0 < k < 7): the products are added to the running sums `s0`, `s1` the point before left; the result
    block `xo` is handed back untouched. -/
noncomputable def runMiddle (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc7__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc7__ggnn_kernel_eq_skeleton, k7_part1_eq_skeleton]; unfold cc7__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 8000000 in
/-- FINISH (k = 7): the last products are added to the running sums `s0`, `s1`, and the new state of the node block
    is computed from the finished sums and stored over whatever the result block held. -/
noncomputable def runFinish (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LO : List (View.Piece (Elt F) S512x512 .f32)) (LS0 : List (View.Piece (Elt F) S512x512 .f32)), { LS1 : List (View.Piece (Elt F) S512x512 .f32) //
      ∀ (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f LO) ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc7__ggnn_kernel i a2 h2 a3 h3 a4 h4 a5 h5 a6 h6 a7 h7 a8 h8 a9 h9 a10 h10 a11 h11 a12 h12 a13 h13 a14 h14 a15 h15) Kont } := by
  refine ⟨?_, ?_, ?_, fun E Kont => ?run⟩
  case run =>
    simp only [cc7__ggnn_kernel_eq_skeleton, k7_part1_eq_skeleton]; unfold cc7__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

end Cert.KernelIdeal.Gated7

end
-- ==== Proof.IdealGated7.lean ====
/-
  Region 7 of the program, continued: what the two running sums and the result block hold after each of the 64 grid
  points, by recursion on the point's position n = 8·m + k — at k = 0 the sums restart from zero, at 0 < k < 7 they
  grow from what the point before left, at k = 7 they are finished and the new node state is stored —; the region's
  invariant, which carries the two sums from one point to the next; the proof data; and the body obligation.
-/
import proofs.«121501_j55087250538634_2_alg».proof.Proof.IdealGated7Runs
import Idealize.ShloMosaic.Lib.Ring

set_option maxRecDepth 16384

noncomputable section

namespace Cert.KernelIdeal.Gated7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-! ## The buffers the body runs on at a point -/

abbrev mw0 (t : Fin cfg7.N) := win7_0.stage (cfg7.slots t 0)
abbrev hw0 (t : Fin cfg7.N) : (mw0 t).IsWhole := hstage7_0 ((cfg7.slots t 0).cast nbuf7_0)
abbrev mw1 (t : Fin cfg7.N) := win7_1.stage (cfg7.slots t 1)
abbrev hw1 (t : Fin cfg7.N) : (mw1 t).IsWhole := hstage7_1 ((cfg7.slots t 1).cast nbuf7_1)
abbrev mw2 (t : Fin cfg7.N) := win7_2.stage (cfg7.slots t 2)
abbrev hw2 (t : Fin cfg7.N) : (mw2 t).IsWhole := hstage7_2 ((cfg7.slots t 2).cast nbuf7_2)
abbrev mw3 (t : Fin cfg7.N) := win7_3.stage (cfg7.slots t 3)
abbrev hw3 (t : Fin cfg7.N) : (mw3 t).IsWhole := hstage7_3 ((cfg7.slots t 3).cast nbuf7_3)
abbrev mw4 (t : Fin cfg7.N) := win7_4.stage (cfg7.slots t 4)
abbrev hw4 (t : Fin cfg7.N) : (mw4 t).IsWhole := hstage7_4 ((cfg7.slots t 4).cast nbuf7_4)
abbrev mw5 (t : Fin cfg7.N) := win7_5.stage (cfg7.slots t 5)
abbrev hw5 (t : Fin cfg7.N) : (mw5 t).IsWhole := hstage7_5 ((cfg7.slots t 5).cast nbuf7_5)
abbrev mw6 (t : Fin cfg7.N) := win7_6.stage (cfg7.slots t 6)
abbrev hw6 (t : Fin cfg7.N) : (mw6 t).IsWhole := hstage7_6 ((cfg7.slots t 6).cast nbuf7_6)
abbrev mw7 (t : Fin cfg7.N) := win7_7.stage (cfg7.slots t 7)
abbrev hw7 (t : Fin cfg7.N) : (mw7 t).IsWhole := hstage7_7 ((cfg7.slots t 7).cast nbuf7_7)
abbrev mw8 (t : Fin cfg7.N) := win7_8.stage (cfg7.slots t 8)
abbrev hw8 (t : Fin cfg7.N) : (mw8 t).IsWhole := hstage7_8 ((cfg7.slots t 8).cast nbuf7_8)
abbrev mw9 (t : Fin cfg7.N) := win7_9.stage (cfg7.slots t 9)
abbrev hw9 (t : Fin cfg7.N) : (mw9 t).IsWhole := hstage7_9 ((cfg7.slots t 9).cast nbuf7_9)
abbrev mw10 (t : Fin cfg7.N) := win7_10.stage (cfg7.slots t 10)
abbrev hw10 (t : Fin cfg7.N) : (mw10 t).IsWhole := hstage7_10 ((cfg7.slots t 10).cast nbuf7_10)
abbrev mw11 (t : Fin cfg7.N) := win7_11.stage (cfg7.slots t 11)
abbrev hw11 (t : Fin cfg7.N) : (mw11 t).IsWhole := hstage7_11 ((cfg7.slots t 11).cast nbuf7_11)
/-- The two scratch buffers holding the running sums. -/
abbrev sc0 : Memref sig .tc .vmem S512x512 .f32 := Memref.whole cc7_scratch0
abbrev sc1 : Memref sig .tc .vmem S512x512 .f32 := Memref.whole cc7_scratch1
/-- The views through which stored pieces are read back as contents. -/
abbrev vS0 : View sig .tc .vmem S512x512 .f32 := sc0.view
abbrev vS1 : View sig .tc .vmem S512x512 .f32 := sc1.view
abbrev vOut : View sig .tc .vmem S512x512 .f32 := (Memref.whole cc7_stg11_0 : Memref sig .tc .vmem S512x512 .f32).view

/-! ## Where the result window rests -/

theorem out_idle : ∀ t : Fin cfg7.N, ¬atFinish (grid7.coords t) → cfg7.idle 11 (grid7.coords t) = true :=
  (by decide +kernel : ∀ t : Fin grid7.N, ¬atFinish (grid7.coords t) → cfg7.idle 11 (grid7.coords t) = true)
theorem out_noFlush : ∀ t : Fin cfg7.N, ¬atFinish (grid7.coords t) → (cfg7.win 11).flush t = false :=
  (by decide +kernel : ∀ t : Fin grid7.N, ¬atFinish (grid7.coords t) → win7_11.flush t = false)
theorem out_live : ∀ t : Fin cfg7.N, atFinish (grid7.coords t) → cfg7.idle 11 (grid7.coords t) = false :=
  (by decide +kernel : ∀ t : Fin grid7.N, atFinish (grid7.coords t) → cfg7.idle 11 (grid7.coords t) = false)

/-! ## What each situation leaves: the stored pieces read back -/

/-- The result block's placeholder at the points where nothing is stored into it (never consulted: the window rests
    there and is not written back). -/
def restOut : Vec F S512x512 .f32 := vOut.read (Elt F) (vOut.writes (Elt F) vOut.junk [])

/-- After a START point: (the resting result block, the first sum, the second sum). -/
def startTriple (c : Dev nD) (t : Fin cfg7.N) (hs : atStart (grid7.coords t)) (hf : ¬atFinish (grid7.coords t)) : Vec F S512x512 .f32 × Vec F S512x512 .f32 × Vec F S512x512 .f32 :=
  (restOut,
   vS0.read (Elt F) (vS0.writes (Elt F) vS0.junk (runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1),
   vS1.read (Elt F) (vS1.writes (Elt F) vS1.junk (runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1))

/-- After a MIDDLE point, from the sums `s0`, `s1` the point before left. -/
def middleTriple (c : Dev nD) (t : Fin cfg7.N) (hs : ¬atStart (grid7.coords t)) (hf : ¬atFinish (grid7.coords t)) (s0 s1 : Vec F S512x512 .f32) : Vec F S512x512 .f32 × Vec F S512x512 .f32 × Vec F S512x512 .f32 :=
  (restOut,
   vS0.read (Elt F) (vS0.writes (Elt F) vS0.junk (runMiddle c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS1.read (Elt F) (vS1.writes (Elt F) vS1.junk (runMiddle c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1))

/-- After a FINISH point, from the sums `s0`, `s1` the point before left: (the new node state, the finished sums). -/
def finishTriple (c : Dev nD) (t : Fin cfg7.N) (hs : ¬atStart (grid7.coords t)) (hf : atFinish (grid7.coords t)) (s0 s1 : Vec F S512x512 .f32) : Vec F S512x512 .f32 × Vec F S512x512 .f32 × Vec F S512x512 .f32 :=
  (vOut.read (Elt F) (vOut.writes (Elt F) vOut.junk (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS0.read (Elt F) (vS0.writes (Elt F) vS0.junk (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1),
   vS1.read (Elt F) (vS1.writes (Elt F) vS1.junk (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1))

/-! ## The stored pieces cover their buffers -/

theorem start_cover0 (c : Dev nD) (t : Fin cfg7.N) (hs : atStart (grid7.coords t)) (hf : ¬atFinish (grid7.coords t)) (y : S512x512.Idx) :
    ∃ pc ∈ (runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1, y ∈ pc.1.set :=
  View.cover_of_tiledL _ S512x512.size (by sl_kernel_rfl) y
theorem start_cover1 (c : Dev nD) (t : Fin cfg7.N) (hs : atStart (grid7.coords t)) (hf : ¬atFinish (grid7.coords t)) (y : S512x512.Idx) :
    ∃ pc ∈ (runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1, y ∈ pc.1.set :=
  View.cover_of_tiledL _ S512x512.size (by sl_kernel_rfl) y
theorem middle_cover0 (c : Dev nD) (t : Fin cfg7.N) (hs : ¬atStart (grid7.coords t)) (hf : ¬atFinish (grid7.coords t)) (s0 s1 : Vec F S512x512 .f32) (y : S512x512.Idx) :
    ∃ pc ∈ (runMiddle c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem middle_cover1 (c : Dev nD) (t : Fin cfg7.N) (hs : ¬atStart (grid7.coords t)) (hf : ¬atFinish (grid7.coords t)) (s0 s1 : Vec F S512x512 .f32) (y : S512x512.Idx) :
    ∃ pc ∈ (runMiddle c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_coverO (c : Dev nD) (t : Fin cfg7.N) (hs : ¬atStart (grid7.coords t)) (hf : atFinish (grid7.coords t)) (s0 s1 : Vec F S512x512 .f32) (y : S512x512.Idx) :
    ∃ pc ∈ (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem finish_cover0 (c : Dev nD) (t : Fin cfg7.N) (hs : ¬atStart (grid7.coords t)) (hf : atFinish (grid7.coords t)) (s0 s1 : Vec F S512x512 .f32) (y : S512x512.Idx) :
    ∃ pc ∈ (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_cover1 (c : Dev nD) (t : Fin cfg7.N) (hs : ¬atStart (grid7.coords t)) (hf : atFinish (grid7.coords t)) (s0 s1 : Vec F S512x512 .f32) (y : S512x512.Idx) :
    ∃ pc ∈ (runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1, y ∈ pc.1.set :=
  View.cover_of_tiledL _ S512x512.size (by sl_kernel_rfl) y

/-! ## The accumulation over the grid -/

/-- After the point at position `n`: (the result block's buffer, the first running sum, the second). -/
def sums (c : Dev nD) : (n : ℕ) → n < cfg7.N → Vec F S512x512 .f32 × Vec F S512x512 .f32 × Vec F S512x512 .f32
  | 0, hn => startTriple V c ⟨0, hn⟩ ((atStart_iff ⟨0, hn⟩).mpr (Nat.zero_mod _))
      (fun h => (fun h => by (try dsimp only at h); omega) ((atFinish_iff ⟨0, hn⟩).mp h))
  | n + 1, hn =>
    if h0 : (n + 1) % 8 = 0 then
      if h7 : (n + 1) % 8 = 7 then False.elim (by omega)
      else startTriple V c ⟨n + 1, hn⟩ ((atStart_iff ⟨n + 1, hn⟩).mpr h0) (fun h => h7 ((atFinish_iff ⟨n + 1, hn⟩).mp h))
    else
      if h7 : (n + 1) % 8 = 7 then
        finishTriple V c ⟨n + 1, hn⟩ (fun h => h0 ((atStart_iff ⟨n + 1, hn⟩).mp h)) ((atFinish_iff ⟨n + 1, hn⟩).mpr h7)
          (sums c n (Nat.lt_of_succ_lt hn)).2.1 (sums c n (Nat.lt_of_succ_lt hn)).2.2
      else
        middleTriple V c ⟨n + 1, hn⟩ (fun h => h0 ((atStart_iff ⟨n + 1, hn⟩).mp h)) (fun h => h7 ((atFinish_iff ⟨n + 1, hn⟩).mp h))
          (sums c n (Nat.lt_of_succ_lt hn)).2.1 (sums c n (Nat.lt_of_succ_lt hn)).2.2

theorem sums_start (c : Dev nD) (t : Fin cfg7.N) (h0 : t.val % 8 = 0) (h7 : ¬t.val % 8 = 7) :
    sums V c t.val t.isLt = startTriple V c t ((atStart_iff t).mpr h0) (fun h => h7 ((atFinish_iff t).mp h)) := by
  obtain ⟨n, hn⟩ := t
  cases n with
  | zero => exact rfl
  | succ n => exact (dif_pos h0).trans ((dif_neg h7).trans rfl)

theorem sums_middle (c : Dev nD) (t : Fin cfg7.N) (h0 : ¬t.val % 8 = 0) (h7 : ¬t.val % 8 = 7) :
    sums V c t.val t.isLt = middleTriple V c t (fun h => h0 ((atStart_iff t).mp h)) (fun h => h7 ((atFinish_iff t).mp h))
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h7).trans rfl)

theorem sums_finish (c : Dev nD) (t : Fin cfg7.N) (h0 : ¬t.val % 8 = 0) (h7 : t.val % 8 = 7) :
    sums V c t.val t.isLt = finishTriple V c t (fun h => h0 ((atStart_iff t).mp h)) ((atFinish_iff t).mpr h7)
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- The other scoped buffers of the core, unopened. -/
abbrev others (c : Dev nD) : sProp 𝕄 :=
  Pipeline.scopedRestBut (Ix := Unit) (Name := ℕ) (U := UR sig nD τ) (Lvl := ℕ) (Val := Elt F) spec7 c [cc7_scratch0, cc7_scratch1]

/-- Before the point at position `n`: at the first point every scratch buffer at anything; afterwards the two running
    sums at what the point before left, the other scoped buffers and the generator register untouched. -/
def carried (c : Dev nD) : (n : ℕ) → n ≤ cfg7.N → sProp 𝕄
  | 0, _ => Pipeline.ΦA spec7 c
  | n + 1, hn => iprop(iprop(iprop(owns (c : Thread nD τ) sc0 fullShare (sums V c n hn).2.1 ∗ owns (c : Thread nD τ) sc1 fullShare (sums V c n hn).2.2)
      ∗ others c) ∗ (∃ r, prngReg c r))

theorem carried_zero (c : Dev nD) (n : ℕ) (h : n ≤ cfg7.N) (hz : n = 0) : carried V c n h = Pipeline.ΦA spec7 c := by
  subst hz; rfl

theorem carried_succ (c : Dev nD) (n : ℕ) (hn : n < cfg7.N) :
    carried V c (n + 1) hn = iprop(iprop(iprop(owns (c : Thread nD τ) sc0 fullShare (sums V c n hn).2.1 ∗ owns (c : Thread nD τ) sc1 fullShare (sums V c n hn).2.2)
      ∗ others c) ∗ (∃ r, prngReg c r)) := rfl

theorem carried_pos (c : Dev nD) (n : ℕ) (h : n ≤ cfg7.N) (hz : n ≠ 0) :
    carried V c n h = iprop(iprop(iprop(owns (c : Thread nD τ) sc0 fullShare (sums V c (n - 1) (by omega)).2.1
      ∗ owns (c : Thread nD τ) sc1 fullShare (sums V c (n - 1) (by omega)).2.2) ∗ others c) ∗ (∃ r, prngReg c r)) := by
  cases n with
  | zero => exact absurd rfl hz
  | succ n => rfl

/-- The invariant handed in at the first point, with the two scratch buffers named. -/
theorem entry_eq (c : Dev nD) :
    (Pipeline.ΦA spec7 c : sProp 𝕄)
      = iprop(iprop(iprop((∃ d, owns (c : Thread nD τ) sc0 fullShare d) ∗ (∃ d, owns (c : Thread nD τ) sc1 fullShare d)) ∗ others c) ∗ (∃ r, prngReg c r)) := by
  unfold Pipeline.ΦA; rw [scopedRest7_split]; simp only [sc0, sc1, owns_whole]; try rfl

/-! ## The proof data -/

theorem before0_of {c : Dev nD} (dat : Dat τ (Elt F) Unit ℕ (UR sig nD τ) ℕ cfg7 c) (hA : dat.A 0 = V c (Pipeline.arrRef spec7 0))
    (hafter : ∀ t, dat.after 0 t = blk V c 0 t) (t : Fin cfg7.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg7 c) (hA : dat.A 1 = V c (Pipeline.arrRef spec7 1))
    (hafter : ∀ t, dat.after 1 t = blk V c 1 t) (t : Fin cfg7.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg7 c) (hA : dat.A 2 = V c (Pipeline.arrRef spec7 2))
    (hafter : ∀ t, dat.after 2 t = blk V c 2 t) (t : Fin cfg7.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg7 c) (hA : dat.A 3 = V c (Pipeline.arrRef spec7 3))
    (hafter : ∀ t, dat.after 3 t = blk V c 3 t) (t : Fin cfg7.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg7 c) (hA : dat.A 4 = V c (Pipeline.arrRef spec7 4))
    (hafter : ∀ t, dat.after 4 t = blk V c 4 t) (t : Fin cfg7.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before5_of {c : Dev nD} (dat : Dat τ (Elt F) Unit ℕ (UR sig nD τ) ℕ cfg7 c) (hA : dat.A 5 = V c (Pipeline.arrRef spec7 5))
    (hafter : ∀ t, dat.after 5 t = blk V c 5 t) (t : Fin cfg7.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before6_of {c : Dev nD} (dat : Dat τ (Elt F) Unit ℕ (UR sig nD τ) ℕ cfg7 c) (hA : dat.A 6 = V c (Pipeline.arrRef spec7 6))
    (hafter : ∀ t, dat.after 6 t = blk V c 6 t) (t : Fin cfg7.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before7_of {c : Dev nD} (dat : Dat τ (Elt F) Unit ℕ (UR sig nD τ) ℕ cfg7 c) (hA : dat.A 7 = V c (Pipeline.arrRef spec7 7))
    (hafter : ∀ t, dat.after 7 t = blk V c 7 t) (t : Fin cfg7.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
theorem before8_of {c : Dev nD} (dat : Dat τ (Elt F) Unit ℕ (UR sig nD τ) ℕ cfg7 c) (hA : dat.A 8 = V c (Pipeline.arrRef spec7 8))
    (hafter : ∀ t, dat.after 8 t = blk V c 8 t) (t : Fin cfg7.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
theorem before9_of {c : Dev nD} (dat : Dat τ (Elt F) Unit ℕ (UR sig nD τ) ℕ cfg7 c) (hA : dat.A 9 = V c (Pipeline.arrRef spec7 9))
    (hafter : ∀ t, dat.after 9 t = blk V c 9 t) (t : Fin cfg7.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
theorem before10_of {c : Dev nD} (dat : Dat τ (Elt F) Unit ℕ (UR sig nD τ) ℕ cfg7 c) (hA : dat.A 10 = V c (Pipeline.arrRef spec7 10))
    (hafter : ∀ t, dat.after 10 t = blk V c 10 t) (t : Fin cfg7.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`. The adjacency array is read through two windows (a block and the
    mirrored block): each holds half of the read permission. -/
def dat (c : Dev nD) : Dat τ (Elt F) Unit ℕ (UR sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (sums V c t.val t.isLt).1
  Φ t := carried V c t.val (Nat.le_of_lt_succ t.isLt)
  q w := match w with
    | ⟨0, _⟩ => fullShare.left
    | ⟨1, _⟩ => fullShare.right
    | _ => fullShare
  owed _ := 0

theorem dat_A (c : Dev nD) (w : Fin cfg7.W) : (dat V c).A w = V c (Pipeline.arrRef spec7 w) := by
  dsimp only [dat]

theorem carried_castSucc (c : Dev nD) (t : Fin cfg7.N) :
    (dat V c).Φ t.castSucc = carried V c t.val (Nat.le_of_lt t.isLt) := by
  dsimp only [dat]; simp only [Fin.coe_castSucc]

theorem after0 (c : Dev nD) (t : Fin cfg7.N) : (dat V c).after 0 t = blk V c 0 t := by dsimp only [dat]
theorem after1 (c : Dev nD) (t : Fin cfg7.N) : (dat V c).after 1 t = blk V c 1 t := by dsimp only [dat]
theorem after2 (c : Dev nD) (t : Fin cfg7.N) : (dat V c).after 2 t = blk V c 2 t := by dsimp only [dat]
theorem after3 (c : Dev nD) (t : Fin cfg7.N) : (dat V c).after 3 t = blk V c 3 t := by dsimp only [dat]
theorem after4 (c : Dev nD) (t : Fin cfg7.N) : (dat V c).after 4 t = blk V c 4 t := by dsimp only [dat]
theorem after5 (c : Dev nD) (t : Fin cfg7.N) : (dat V c).after 5 t = blk V c 5 t := by dsimp only [dat]
theorem after6 (c : Dev nD) (t : Fin cfg7.N) : (dat V c).after 6 t = blk V c 6 t := by dsimp only [dat]
theorem after7 (c : Dev nD) (t : Fin cfg7.N) : (dat V c).after 7 t = blk V c 7 t := by dsimp only [dat]
theorem after8 (c : Dev nD) (t : Fin cfg7.N) : (dat V c).after 8 t = blk V c 8 t := by dsimp only [dat]
theorem after9 (c : Dev nD) (t : Fin cfg7.N) : (dat V c).after 9 t = blk V c 9 t := by dsimp only [dat]
theorem after10 (c : Dev nD) (t : Fin cfg7.N) : (dat V c).after 10 t = blk V c 10 t := by dsimp only [dat]
theorem after11 (c : Dev nD) (t : Fin cfg7.N) : (dat V c).after 11 t = (sums V c t.val t.isLt).1 := by dsimp only [dat]

theorem before0 (c : Dev nD) (t : Fin cfg7.N) (d) : (dat V c).before 0 t d = blk V c 0 t :=
  before0_of V (dat V c) (dat_A V c 0) (after0 V c) t d
theorem before1 (c : Dev nD) (t : Fin cfg7.N) (d) : (dat V c).before 1 t d = blk V c 1 t :=
  before1_of V (dat V c) (dat_A V c 1) (after1 V c) t d
theorem before2 (c : Dev nD) (t : Fin cfg7.N) (d) : (dat V c).before 2 t d = blk V c 2 t :=
  before2_of V (dat V c) (dat_A V c 2) (after2 V c) t d
theorem before3 (c : Dev nD) (t : Fin cfg7.N) (d) : (dat V c).before 3 t d = blk V c 3 t :=
  before3_of V (dat V c) (dat_A V c 3) (after3 V c) t d
theorem before4 (c : Dev nD) (t : Fin cfg7.N) (d) : (dat V c).before 4 t d = blk V c 4 t :=
  before4_of V (dat V c) (dat_A V c 4) (after4 V c) t d
theorem before5 (c : Dev nD) (t : Fin cfg7.N) (d) : (dat V c).before 5 t d = blk V c 5 t :=
  before5_of V (dat V c) (dat_A V c 5) (after5 V c) t d
theorem before6 (c : Dev nD) (t : Fin cfg7.N) (d) : (dat V c).before 6 t d = blk V c 6 t :=
  before6_of V (dat V c) (dat_A V c 6) (after6 V c) t d
theorem before7 (c : Dev nD) (t : Fin cfg7.N) (d) : (dat V c).before 7 t d = blk V c 7 t :=
  before7_of V (dat V c) (dat_A V c 7) (after7 V c) t d
theorem before8 (c : Dev nD) (t : Fin cfg7.N) (d) : (dat V c).before 8 t d = blk V c 8 t :=
  before8_of V (dat V c) (dat_A V c 8) (after8 V c) t d
theorem before9 (c : Dev nD) (t : Fin cfg7.N) (d) : (dat V c).before 9 t d = blk V c 9 t :=
  before9_of V (dat V c) (dat_A V c 9) (after9 V c) t d
theorem before10 (c : Dev nD) (t : Fin cfg7.N) (d) : (dat V c).before 10 t d = blk V c 10 t :=
  before10_of V (dat V c) (dat_A V c 10) (after10 V c) t d

theorem leaves0 (c : Dev nD) (t : Fin cfg7.N) :
    (dat V c).leavesExact 0 t = owns (c : Thread nD τ) (mw0 t) fullShare (blk V c 0 t) := by
  unfold Dat.leavesExact; rw [show cfg7.idle 0 (cfg7.grid.coords t) = false from rfl, after0]; try rfl
theorem leaves1 (c : Dev nD) (t : Fin cfg7.N) :
    (dat V c).leavesExact 1 t = owns (c : Thread nD τ) (mw1 t) fullShare (blk V c 1 t) := by
  unfold Dat.leavesExact; rw [show cfg7.idle 1 (cfg7.grid.coords t) = false from rfl, after1]; try rfl
theorem leaves2 (c : Dev nD) (t : Fin cfg7.N) :
    (dat V c).leavesExact 2 t = owns (c : Thread nD τ) (mw2 t) fullShare (blk V c 2 t) := by
  unfold Dat.leavesExact; rw [show cfg7.idle 2 (cfg7.grid.coords t) = false from rfl, after2]; try rfl
theorem leaves3 (c : Dev nD) (t : Fin cfg7.N) :
    (dat V c).leavesExact 3 t = owns (c : Thread nD τ) (mw3 t) fullShare (blk V c 3 t) := by
  unfold Dat.leavesExact; rw [show cfg7.idle 3 (cfg7.grid.coords t) = false from rfl, after3]; try rfl
theorem leaves4 (c : Dev nD) (t : Fin cfg7.N) :
    (dat V c).leavesExact 4 t = owns (c : Thread nD τ) (mw4 t) fullShare (blk V c 4 t) := by
  unfold Dat.leavesExact; rw [show cfg7.idle 4 (cfg7.grid.coords t) = false from rfl, after4]; try rfl
theorem leaves5 (c : Dev nD) (t : Fin cfg7.N) :
    (dat V c).leavesExact 5 t = owns (c : Thread nD τ) (mw5 t) fullShare (blk V c 5 t) := by
  unfold Dat.leavesExact; rw [show cfg7.idle 5 (cfg7.grid.coords t) = false from rfl, after5]; try rfl
theorem leaves6 (c : Dev nD) (t : Fin cfg7.N) :
    (dat V c).leavesExact 6 t = owns (c : Thread nD τ) (mw6 t) fullShare (blk V c 6 t) := by
  unfold Dat.leavesExact; rw [show cfg7.idle 6 (cfg7.grid.coords t) = false from rfl, after6]; try rfl
theorem leaves7 (c : Dev nD) (t : Fin cfg7.N) :
    (dat V c).leavesExact 7 t = owns (c : Thread nD τ) (mw7 t) fullShare (blk V c 7 t) := by
  unfold Dat.leavesExact; rw [show cfg7.idle 7 (cfg7.grid.coords t) = false from rfl, after7]; try rfl
theorem leaves8 (c : Dev nD) (t : Fin cfg7.N) :
    (dat V c).leavesExact 8 t = owns (c : Thread nD τ) (mw8 t) fullShare (blk V c 8 t) := by
  unfold Dat.leavesExact; rw [show cfg7.idle 8 (cfg7.grid.coords t) = false from rfl, after8]; try rfl
theorem leaves9 (c : Dev nD) (t : Fin cfg7.N) :
    (dat V c).leavesExact 9 t = owns (c : Thread nD τ) (mw9 t) fullShare (blk V c 9 t) := by
  unfold Dat.leavesExact; rw [show cfg7.idle 9 (cfg7.grid.coords t) = false from rfl, after9]; try rfl
theorem leaves10 (c : Dev nD) (t : Fin cfg7.N) :
    (dat V c).leavesExact 10 t = owns (c : Thread nD τ) (mw10 t) fullShare (blk V c 10 t) := by
  unfold Dat.leavesExact; rw [show cfg7.idle 10 (cfg7.grid.coords t) = false from rfl, after10]; try rfl

/-! ## The body obligation -/

def bodyPre (c : Dev nD) (t : Fin cfg7.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d))
    ∗ (∃ d, owns (c : Thread nD τ) (mw5 t) fullShare ((dat V c).before 5 t d))
    ∗ (∃ d, owns (c : Thread nD τ) (mw6 t) fullShare ((dat V c).before 6 t d))
    ∗ (∃ d, owns (c : Thread nD τ) (mw7 t) fullShare ((dat V c).before 7 t d))
    ∗ (∃ d, owns (c : Thread nD τ) (mw8 t) fullShare ((dat V c).before 8 t d))
    ∗ (∃ d, owns (c : Thread nD τ) (mw9 t) fullShare ((dat V c).before 9 t d))
    ∗ (∃ d, owns (c : Thread nD τ) (mw10 t) fullShare ((dat V c).before 10 t d))
    ∗ (∃ d, owns (c : Thread nD τ) (mw11 t) fullShare ((dat V c).before 11 t d)))

def bodyPost (c : Dev nD) (t : Fin cfg7.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

end Cert.KernelIdeal.Gated7

end
-- ==== Proof.IdealGated7Body.lean ====
/-
  Region 7 of the program, concluded: the body obligation at every grid point — the point's position decides
  which of the three situations applies, the invariant hands the body the two running sums (at anything at the very
  first point, at what the point before left afterwards) and takes them back at this point's contents — and how
  the invariant is entered and left.
-/
import proofs.«121501_j55087250538634_2_alg».proof.Proof.IdealGated7

set_option maxRecDepth 16384

noncomputable section

namespace Cert.KernelIdeal.Gated7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before0, before1, before2, before3, before4, before5, before6, before7, before8, before9, before10]
  rw [show (dat V c).owesAt () t.succ = (dat V c).owesAt () t.castSucc from rfl]
  rw [show (dat V c).Φ t.succ = carried V c (t.val + 1) t.isLt from rfl, carried_succ]
  rw [leaves0, leaves1, leaves2, leaves3, leaves4, leaves5, leaves6, leaves7, leaves8, leaves9, leaves10]
  have hN : t.val < 64 := lt_of_lt_of_eq t.isLt (show cfg7.N = 64 from N_7)
  by_cases h0 : t.val % 8 = 0
  · by_cases h7 : t.val % 8 = 7
    · exfalso; omega
    · rw [Dat.leavesExact_idle (dat V c) 11 t (out_idle t (fun h => h7 ((atFinish_iff t).mp h))) (out_noFlush t (fun h => h7 ((atFinish_iff t).mp h)))]
      rw [sums_start V c t h0 h7]
      unfold startTriple; (try dsimp only)
      by_cases hz : t.val = 0
      · rw [carried_castSucc V c t, carried_zero V c _ _ hz, entry_eq]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [carried_castSucc V c t, carried_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun h => h0 (by rw [h])
    by_cases h7 : t.val % 8 = 7
    · rw [show (dat V c).leavesExact 11 t = owns (c : Thread nD τ) (mw11 t) fullShare ((dat V c).after 11 t) from by
        unfold Dat.leavesExact; rw [out_live t ((atFinish_iff t).mpr h7)], after11]
      rw [sums_finish V c t h0 h7]
      unfold finishTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFinish c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) ((atFinish_iff t).mpr h7) (blk V c 0 t) (blk V c 1 t) (blk V c 2 t) (blk V c 3 t) (blk V c 4 t) (blk V c 5 t) (blk V c 6 t) (blk V c 7 t) (blk V c 8 t) (blk V c 9 t) (blk V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (finish_cover0 V c t _ _ _ _)
            unfold owns; iexists _; isplitr
            swap; · iexact HS1
            ipureintro; exact View.read_writes_of_cover _ _ _ _ _ (finish_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (finish_coverO V c t _ _ _ _)
    · rw [Dat.leavesExact_idle (dat V c) 11 t (out_idle t (fun h => h7 ((atFinish_iff t).mp h))) (out_noFlush t (fun h => h7 ((atFinish_iff t).mp h)))]
      rw [sums_middle V c t h0 h7]
      unfold middleTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (middle_cover0 V c t _ _ _ _)
            unfold owns; iexists _; isplitr
            swap; · iexact HS1
            ipureintro; exact View.read_writes_of_cover _ _ _ _ _ (middle_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation of the region, at every point. -/
theorem body_obligation (c : Dev nD) : BodyObligation (dat (F := F) V c) (defs₀ (F := F)) Variants.none () Set.univ := fun t => by
  rw [bigSep_W7, bigSep_W7]
  exact sound_body V c t

/-- What the launch hands the region is the invariant before the first point. -/
theorem enter (c : Dev nD) : Pipeline.ΦA spec7 c ⊢ (dat V c).Φ 0 := by
  rw [show (dat V c).Φ 0 = carried V c 0 (Nat.zero_le _) from rfl, carried_zero V c 0 _ rfl]
  try exact Idealize.SL.BI.Entails.refl _

/-- After the last point the invariant gives the scoped buffers back: the sums' contents are forgotten. -/
theorem leave (c : Dev nD) : (dat V c).Φ (Fin.last cfg7.N) ⊢ Pipeline.ΦA spec7 c := by
  have hne : (Fin.last cfg7.N).val ≠ 0 := by rw [Fin.val_last]; have : cfg7.N = 64 := N_7; omega
  rw [show (dat V c).Φ (Fin.last cfg7.N) = carried V c (Fin.last cfg7.N).val (Nat.le_of_lt_succ (Fin.last cfg7.N).isLt) from rfl,
    carried_pos V c _ _ hne, entry_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Cert.KernelIdeal.Gated7

end
-- ==== Proof.IdealGated7Arrays.lean ====
/-
  Region 7 of the program: its windows' arrays against the buffers behind them. The adjacency array is read
  through two windows; the read permission on its buffer is cut in two halves, one per window, when the region
  is entered, and the halves are joined again when it is left. Every other array has a buffer of its own.
-/
import proofs.«121501_j55087250538634_2_alg».proof.Proof.IdealGated7

set_option maxRecDepth 16384

noncomputable section

namespace Cert.KernelIdeal.Gated7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows. -/
abbrev bufs : List (Ref sig .tc) := [main_v1, main_v29_0, main_v29_1, main_v28, main_v7, main_v18, main_v9, main_v19, main_v11, main_v20, main_v30]

theorem bufs_eq : Finset.univ.image (Pipeline.arrRef spec7) = bufs.toFinset := by decide

/-- A conjunction over those buffers, one by one. -/
theorem bufs_chain (Φ : Ref sig .tc → sProp 𝕄) :
    bigSep (Finset.univ.image (Pipeline.arrRef spec7)) Φ = iprop(Φ main_v1 ∗ Φ main_v29_0 ∗ Φ main_v29_1 ∗ Φ main_v28 ∗ Φ main_v7 ∗ Φ main_v18 ∗ Φ main_v9 ∗ Φ main_v19 ∗ Φ main_v11 ∗ Φ main_v20 ∗ Φ main_v30) :=
  bigSep_eq_bigSepL_of_eq bufs bufs_eq (by decide) Φ

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl
theorem share11 (c : Dev nD) : (dat V c).share 11 = fullShare := rfl

/-- ENTRY: the buffers whole at contents `G` make the windows' arrays at `G`, the adjacency buffer's permission halved. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec7 c G : sProp 𝕄)
      ⊢ (dat V c).arrays (fun w => G (Pipeline.arrRef spec7 w)) := by
  unfold Pipeline.arrBufs Dat.arrays
  rw [bufs_chain, bigSep_W7]
  simp only [share0, share1, share2, share3, share4, share5, share6, share7, share8, share9, share10, share11, View.set_whole]
  iintro ⟨HA, H2, H3, H4, H5, H6, H7, H8, H9, H10, H11⟩
  ihave HA' := (pointsTo_share (PosShare.mem_left_op_right fullShare)).1 $$ HA
  icases HA' with ⟨HA0, HA1⟩
  isplitl [HA0]; · iexact HA0
  isplitl [HA1]; · iexact HA1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `G`, the two halves of the adjacency buffer's permission joined, are the
    buffers whole at `G`. -/
theorem bufs_of_arrays (c : Dev nD) (G : (b : Ref sig .tc) → Buf (Elt F) ((c : Thread nD τ).loc b)) :
    (dat V c).arrays (fun w => G (Pipeline.arrRef spec7 w))
      ⊢ (Pipeline.arrBufs (Ix := Unit) (Name := ℕ) (U := UR sig nD τ) (Lvl := ℕ) spec7 c G : sProp 𝕄) := by
  unfold Pipeline.arrBufs Dat.arrays
  rw [bufs_chain, bigSep_W7]
  simp only [share0, share1, share2, share3, share4, share5, share6, share7, share8, share9, share10, share11, View.set_whole]
  iintro ⟨HA0, HA1, H2, H3, H4, H5, H6, H7, H8, H9, H10, H11⟩
  ihave HA := (pointsTo_share (PosShare.mem_left_op_right fullShare)).2 $$ [HA0 HA1]
  · isplitl [HA0]; · iexact HA0
    iexact HA1
  isplitl [HA]; · iexact HA
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY, from all the core's unscoped buffers: the windows' arrays and the buffers that are no window's array. -/
theorem enter_arrays (c : Dev nD) (G : (b : Ref sig .tc) → Buf (Elt F) ((c : Thread nD τ).loc b)) :
    (unscopedBufs c G : sProp 𝕄)
      ⊢ iprop((dat V c).arrays (fun w => G (Pipeline.arrRef spec7 w))
          ∗ Pipeline.unscopedRest (Ix := Unit) (Name := ℕ) (U := UR sig nD τ) (Lvl := ℕ) spec7 c G) := by
  rw [Pipeline.unscopedBufs_split₀ cfgs 7 winFacts₀7.arr_unscoped c G]
  exact BIClass.sep_mono (arrays_of_bufs V c G) .rfl

/-- EXIT, back to all the core's unscoped buffers at contents `G'` that agree with the arrays' final contents on the
    arrays and with the entry contents `G` elsewhere. -/
theorem leave_arrays (c : Dev nD) (G G' : (b : Ref sig .tc) → Buf (Elt F) ((c : Thread nD τ).loc b))
    (Fa : (w : Fin cfg7.W) → Buf (Elt F) ((cfg7.win w).arr.view.loc (c : Thread nD τ)))
    (hF : ∀ w, Fa w = G' (Pipeline.arrRef spec7 w))
    (hrest : ∀ b, b ∉ Finset.univ.image (Pipeline.arrRef spec7) → G' b = G b) :
    iprop((dat V c).arrays Fa ∗ Pipeline.unscopedRest (Ix := Unit) (Name := ℕ) (U := UR sig nD τ) (Lvl := ℕ) spec7 c G)
      ⊢ (unscopedBufs c G' : sProp 𝕄) := by
  rw [Pipeline.unscopedBufs_split₀ cfgs 7 winFacts₀7.arr_unscoped c G', show Fa = fun w => G' (Pipeline.arrRef spec7 w) from funext hF]
  refine BIClass.sep_mono (bufs_of_arrays V c G') ?_
  unfold Pipeline.unscopedRest
  exact Entails.of_eq (bigSep_congr fun b hb => by rw [hrest b (Finset.mem_sdiff.mp hb).2])

end Cert.KernelIdeal.Gated7

end
-- ==== Proof.IdealMessages8.lean ====
/-
  Region 8 of the program: the two edge messages of one GGNN step. For a block of 1024 rows of the node state
  `x` (window 0), the kernel forms  s_in = x · W_in + b_in  (windows 1, 2 -> window 5) and
  s_out = x · W_out + b_out  (windows 3, 4 -> window 6): each a 1024x512 by 512x512 product into the zero
  accumulator plus a bias row broadcast down the rows. The weights and biases are the same block at every point
  (constant index maps); the state block and the two result blocks move with the point.
  Here: what each result buffer holds after the body as a function of the five input blocks, the body's run on
  whole staging buffers, the region's proof data over entry contents `V`, and the body obligation at every point.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Messages8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the two result buffers -/

/-- The incoming-edge message block: the state block times `W_in` plus the bias row, as one stored piece. -/
def sIn (x : Vec F S1024x512 .f32) (w : Vec F S512x512 .bf16) (b : Vec F S1x512 .f32) : Vec F S1024x512 .bf16 :=
  View.canon [⟨rRows, k8_pay2 (View.ld x rRows) (View.ld w rWeight) (View.ld b rBias)⟩]

/-- The outgoing-edge message block: the state block times `W_out` plus the bias row. -/
def sOut (x : Vec F S1024x512 .f32) (w : Vec F S512x512 .bf16) (b : Vec F S1x512 .f32) : Vec F S1024x512 .bf16 :=
  View.canon [⟨rRows, k8_pay3 (View.ld x rRows) (View.ld w rWeight) (View.ld b rBias)⟩]

/-- One store through the whole-buffer rectangle covers the buffer. -/
theorem covers (p : Vec F S1024x512 .bf16) (y : S1024x512.Idx) :
    ∃ pc ∈ ([⟨rRows, p⟩] : List (View.Piece (Elt F) S1024x512 .bf16)), y ∈ pc.1.set :=
  View.cover_of_tiled [⟨rRows, p⟩] S1024x512.size (by rfl) y

/-! ## The body's run -/

set_option maxHeartbeats 1000000 in
/-- On whole staging buffers, the five inputs at contents `x, wi, bi, wo, bo` and the two results at anything, the
    body runs to its end with the inputs as they were and the results at `sIn`, `sOut` of the inputs. -/
theorem body_runs (i : grid8.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .bf16) (h6 : a6.IsWhole)
    (a7 : Memref sig .tc .vmem S1024x512 .bf16) (h7 : a7.IsWhole)
    (x : Vec F S1024x512 .f32) (wi : Vec F S512x512 .bf16) (bi : Vec F S1x512 .f32) (wo : Vec F S512x512 .bf16) (bo : Vec F S1x512 .f32)
    (K : PUnit → sProp 𝕄) :
    iprop(owns (c : Thread nD τ) a1 fullShare x ∗ owns (c : Thread nD τ) a2 fullShare wi ∗ owns (c : Thread nD τ) a3 fullShare bi
        ∗ owns (c : Thread nD τ) a4 fullShare wo ∗ owns (c : Thread nD τ) a5 fullShare bo
        ∗ (∃ d, owns (c : Thread nD τ) a6 fullShare d) ∗ (∃ d, owns (c : Thread nD τ) a7 fullShare d)
        ∗ (iprop(owns (c : Thread nD τ) a1 fullShare x ∗ owns (c : Thread nD τ) a2 fullShare wi ∗ owns (c : Thread nD τ) a3 fullShare bi
            ∗ owns (c : Thread nD τ) a4 fullShare wo ∗ owns (c : Thread nD τ) a5 fullShare bo
            ∗ owns (c : Thread nD τ) a6 fullShare (sIn x wi bi) ∗ owns (c : Thread nD τ) a7 fullShare (sOut x wo bo)) -∗ K ⟨⟩))
      ⊢ wp frame (wpE (defs₀ (F := F)) Variants.none c none) E (cc8__sinout_kernel i a1 h1 a2 h2 a3 h3 a4 h4 a5 h5 a6 h6 a7 h7) K := by
  simp only [cc8__sinout_kernel_eq_skeleton]; unfold cc8__sinout_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  iexists _; isplitr
  swap; · iexact H7
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg8 c) (hA : dat.A 0 = V c (Pipeline.arrRef spec8 0))
    (hafter : ∀ t, dat.after 0 t = blk V c 0 t) (t : Fin cfg8.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg8 c) (hA : dat.A 1 = V c (Pipeline.arrRef spec8 1))
    (hafter : ∀ t, dat.after 1 t = blk V c 1 t) (t : Fin cfg8.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg8 c) (hA : dat.A 2 = V c (Pipeline.arrRef spec8 2))
    (hafter : ∀ t, dat.after 2 t = blk V c 2 t) (t : Fin cfg8.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg8 c) (hA : dat.A 3 = V c (Pipeline.arrRef spec8 3))
    (hafter : ∀ t, dat.after 3 t = blk V c 3 t) (t : Fin cfg8.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg8 c) (hA : dat.A 4 = V c (Pipeline.arrRef spec8 4))
    (hafter : ∀ t, dat.after 4 t = blk V c 4 t) (t : Fin cfg8.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and each result's at the message block of the input blocks; the invariant is the
    scoped rest and the generator register, untouched; nothing owed; full shares. -/
def dat (c : Dev nD) : Dat τ (Elt F) Unit ℕ (UR sig nD τ) ℕ cfg8 c where
  A w := V c (Pipeline.arrRef spec8 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sIn (blk V c 0 t) (blk V c 1 t) (blk V c 2 t)
    | ⟨6, _⟩ => sOut (blk V c 0 t) (blk V c 3 t) (blk V c 4 t)
  Φ _ := Pipeline.ΦA spec8 c
  q _ := fullShare
  owed _ := 0

theorem dat_A (c : Dev nD) (w : Fin cfg8.W) : (dat V c).A w = V c (Pipeline.arrRef spec8 w) := by
  dsimp only [dat]

theorem after0 (c : Dev nD) (t : Fin cfg8.N) : (dat V c).after 0 t = blk V c 0 t := by dsimp only [dat]
theorem after1 (c : Dev nD) (t : Fin cfg8.N) : (dat V c).after 1 t = blk V c 1 t := by dsimp only [dat]
theorem after2 (c : Dev nD) (t : Fin cfg8.N) : (dat V c).after 2 t = blk V c 2 t := by dsimp only [dat]
theorem after3 (c : Dev nD) (t : Fin cfg8.N) : (dat V c).after 3 t = blk V c 3 t := by dsimp only [dat]
theorem after4 (c : Dev nD) (t : Fin cfg8.N) : (dat V c).after 4 t = blk V c 4 t := by dsimp only [dat]
theorem after5 (c : Dev nD) (t : Fin cfg8.N) : (dat V c).after 5 t = sIn (blk V c 0 t) (blk V c 1 t) (blk V c 2 t) := by dsimp only [dat]
theorem after6 (c : Dev nD) (t : Fin cfg8.N) : (dat V c).after 6 t = sOut (blk V c 0 t) (blk V c 3 t) (blk V c 4 t) := by dsimp only [dat]

theorem before0 (c : Dev nD) (t : Fin cfg8.N) (d) : (dat V c).before 0 t d = blk V c 0 t :=
  before0_of V (dat V c) (dat_A V c 0) (after0 V c) t d
theorem before1 (c : Dev nD) (t : Fin cfg8.N) (d) : (dat V c).before 1 t d = blk V c 1 t :=
  before1_of V (dat V c) (dat_A V c 1) (after1 V c) t d
theorem before2 (c : Dev nD) (t : Fin cfg8.N) (d) : (dat V c).before 2 t d = blk V c 2 t :=
  before2_of V (dat V c) (dat_A V c 2) (after2 V c) t d
theorem before3 (c : Dev nD) (t : Fin cfg8.N) (d) : (dat V c).before 3 t d = blk V c 3 t :=
  before3_of V (dat V c) (dat_A V c 3) (after3 V c) t d
theorem before4 (c : Dev nD) (t : Fin cfg8.N) (d) : (dat V c).before 4 t d = blk V c 4 t :=
  before4_of V (dat V c) (dat_A V c 4) (after4 V c) t d

/-! ## The body obligation -/

/-- What the body is called with at point `t`: the invariant, the core's dues, and each window's current staging buffer
    at what the pipeline put there. -/
def bodyPre (c : Dev nD) (t : Fin cfg8.N) : sProp 𝕄 :=
  iprop((dat V c).Φ t.castSucc ∗ (dat V c).owesAt () t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d))
    ∗ (∃ d, owns (c : Thread nD τ) (st8_3 t) fullShare ((dat V c).before 3 t d))
    ∗ (∃ d, owns (c : Thread nD τ) (st8_4 t) fullShare ((dat V c).before 4 t d))
    ∗ (∃ d, owns (c : Thread nD τ) (st8_5 t) fullShare ((dat V c).before 5 t d))
    ∗ (∃ d, owns (c : Thread nD τ) (st8_6 t) fullShare ((dat V c).before 6 t d)))

/-- What it returns. -/
def bodyPost (c : Dev nD) (t : Fin cfg8.N) : sProp 𝕄 :=
  iprop((dat V c).Φ t.succ ∗ (dat V c).owesAt () t.succ
    ∗ owns (c : Thread nD τ) (st8_0 t) fullShare ((dat V c).after 0 t)
    ∗ owns (c : Thread nD τ) (st8_1 t) fullShare ((dat V c).after 1 t)
    ∗ owns (c : Thread nD τ) (st8_2 t) fullShare ((dat V c).after 2 t)
    ∗ owns (c : Thread nD τ) (st8_3 t) fullShare ((dat V c).after 3 t)
    ∗ owns (c : Thread nD τ) (st8_4 t) fullShare ((dat V c).after 4 t)
    ∗ owns (c : Thread nD τ) (st8_5 t) fullShare ((dat V c).after 5 t)
    ∗ owns (c : Thread nD τ) (st8_6 t) fullShare ((dat V c).after 6 t))

/-- The body at any point: the inputs' buffers hold their blocks, so `body_runs` applies; the invariant and the core's
    dues pass through unread. -/
theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs (grid8.coords t) c Set.univ _ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation (c : Dev nD) : BodyObligation (dat (F := F) V c) (defs₀ (F := F)) Variants.none () Set.univ := fun t => by
  rw [bigSep_W8, bigSep_W8]
  exact sound_body V c t

end Cert.KernelIdeal.Messages8

end
-- ==== Proof.IdealGated9Runs.lean ====
/-
  Region 9 of the program: the gated update of one block of 512 nodes, accumulated over the eight blocks of 512
  neighbours. At grid point (m, k) the body adds to two running sums kept in scratch between points,
      acc_in  += A[m-block, k-block] · s_in[k-block]        acc_out += A[k-block, m-block]ᵀ · s_out[k-block],
  after setting both to zero when k = 0; when k = 7 it reads the finished sums, forms the reset and update gates and
  the candidate state from them and the node block's own state, and stores the new state. At the other points the
  result block is left alone.
  Here: the body's run in each of the three situations the grid meets — k = 0 (start), 0 < k < 7 (middle), k = 7
  (finish) — on whole staging buffers; what each stored buffer ends with is given as the list of stored pieces the
  run itself produces.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gated9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- "This is the first neighbour block": the test the body makes before zeroing the running sums. -/
abbrev atStart (i : grid9.Coords) : Prop :=
  (Scalar.cmpi .ne (Scalar.extui (Scalar.cmpi .eq (BitVec.ofNat 32 (i 1).val) 0#32)) 0#32) = 1#1
/-- "This is the last neighbour block": the test the body makes before finishing the node block. -/
abbrev atFinish (i : grid9.Coords) : Prop := k9_cond2 i = 1#1

/-- The first test holds exactly at the points whose position is a multiple of 8 (k = 0). -/
theorem atStart_iff : ∀ t : Fin cfg9.N, atStart (grid9.coords t) ↔ t.val % 8 = 0 :=
  (by decide +kernel : ∀ t : Fin grid9.N, atStart (grid9.coords t) ↔ t.val % 8 = 0)
/-- The second holds exactly at the points whose position is 7 modulo 8 (k = 7). -/
theorem atFinish_iff : ∀ t : Fin cfg9.N, atFinish (grid9.coords t) ↔ t.val % 8 = 7 :=
  (by decide +kernel : ∀ t : Fin grid9.N, atFinish (grid9.coords t) ↔ t.val % 8 = 7)

/-! ## The body's run, situation by situation -/

set_option maxHeartbeats 4000000 in
/-- START (k = 0): the running sums are zeroed and the first products added; the result block `xo` is handed back
    untouched. The scratch buffers may hold anything on entry. -/
noncomputable def runStart (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc9__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc9__ggnn_kernel_eq_skeleton, k9_part1_eq_skeleton]; unfold cc9__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 4000000 in
/-- MIDDLE (0 < k < 7): the products are added to the running sums `s0`, `s1` the point before left; the result
    block `xo` is handed back untouched. -/
noncomputable def runMiddle (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LS0 : List (View.Piece (Elt F) S512x512 .f32)), { LS1 : List (View.Piece (Elt F) S512x512 .f32) //
      ∀ (xo : Vec F S512x512 .f32) (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare xo ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc9__ggnn_kernel i a2 h2 a3 h3 a4 h4 a5 h5 a6 h6 a7 h7 a8 h8 a9 h9 a10 h10 a11 h11 a12 h12 a13 h13 a14 h14 a15 h15) Kont } := by
  refine ⟨?_, ?_, fun xo E Kont => ?run⟩
  case run =>
    simp only [cc9__ggnn_kernel_eq_skeleton, k9_part1_eq_skeleton]; unfold cc9__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    iexists _; iexact H15

set_option maxHeartbeats 8000000 in
/-- FINISH (k = 7): the last products are added to the running sums `s0`, `s1`, and the new state of the node block
    is computed from the finished sums and stored over whatever the result block held. -/
noncomputable def runFinish (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    Σ' (LO : List (View.Piece (Elt F) S512x512 .f32)) (LS0 : List (View.Piece (Elt F) S512x512 .f32)), { LS1 : List (View.Piece (Elt F) S512x512 .f32) //
      ∀ (E : Set ℕ) (Kont : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
            ∗ owns (c : Thread nD τ) a14 fullShare s0 ∗ owns (c : Thread nD τ) a15 fullShare s1
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f LO) ∗ (∃ f, a14.view.loc (c : Thread nD τ) ↦[a14.view.set]{fullShare} a14.view.writes (Elt F) f LS0) ∗ (∃ f, a15.view.loc (c : Thread nD τ) ↦[a15.view.set]{fullShare} a15.view.writes (Elt F) f LS1)) -∗ Kont ⟨⟩))
          ⊢ wp frame (wpE (defs₀ (F := F)) Variants.none c none) E (cc9__ggnn_kernel i a2 h2 a3 h3 a4 h4 a5 h5 a6 h6 a7 h7 a8 h8 a9 h9 a10 h10 a11 h11 a12 h12 a13 h13 a14 h14 a15 h15) Kont } := by
  refine ⟨?_, ?_, ?_, fun E Kont => ?run⟩
  case run =>
    simp only [cc9__ggnn_kernel_eq_skeleton, k9_part1_eq_skeleton]; unfold cc9__ggnn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h14.eq_unread hf14; obtain rfl := h15.eq_unread hf15
    sl_exec (disch := first | exact hs | exact hf)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

end Cert.KernelIdeal.Gated9

end
-- ==== Proof.IdealGated9.lean ====
/-
  Region 9 of the program, continued: what the two running sums and the result block hold after each of the 64 grid
  points, by recursion on the point's position n = 8·m + k — at k = 0 the sums restart from zero, at 0 < k < 7 they
  grow from what the point before left, at k = 7 they are finished and the new node state is stored —; the region's
  invariant, which carries the two sums from one point to the next; the proof data; and the body obligation.
-/
import proofs.«121501_j55087250538634_2_alg».proof.Proof.IdealGated9Runs
import Idealize.ShloMosaic.Lib.Ring

set_option maxRecDepth 16384

noncomputable section

namespace Cert.KernelIdeal.Gated9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg9.W) (t : Fin cfg9.N) :
    ((cfg9.win w).xblock (cfg9.grid.coords t)).Idx → Elt F (cfg9.win w).elt :=
  ((cfg9.win w).blk t).view.read (Elt F) (V c (Pipeline.arrRef spec9 w))

/-! ## The buffers the body runs on at a point -/

abbrev mw0 (t : Fin cfg9.N) := win9_0.stage (cfg9.slots t 0)
abbrev hw0 (t : Fin cfg9.N) : (mw0 t).IsWhole := hstage9_0 ((cfg9.slots t 0).cast nbuf9_0)
abbrev mw1 (t : Fin cfg9.N) := win9_1.stage (cfg9.slots t 1)
abbrev hw1 (t : Fin cfg9.N) : (mw1 t).IsWhole := hstage9_1 ((cfg9.slots t 1).cast nbuf9_1)
abbrev mw2 (t : Fin cfg9.N) := win9_2.stage (cfg9.slots t 2)
abbrev hw2 (t : Fin cfg9.N) : (mw2 t).IsWhole := hstage9_2 ((cfg9.slots t 2).cast nbuf9_2)
abbrev mw3 (t : Fin cfg9.N) := win9_3.stage (cfg9.slots t 3)
abbrev hw3 (t : Fin cfg9.N) : (mw3 t).IsWhole := hstage9_3 ((cfg9.slots t 3).cast nbuf9_3)
abbrev mw4 (t : Fin cfg9.N) := win9_4.stage (cfg9.slots t 4)
abbrev hw4 (t : Fin cfg9.N) : (mw4 t).IsWhole := hstage9_4 ((cfg9.slots t 4).cast nbuf9_4)
abbrev mw5 (t : Fin cfg9.N) := win9_5.stage (cfg9.slots t 5)
abbrev hw5 (t : Fin cfg9.N) : (mw5 t).IsWhole := hstage9_5 ((cfg9.slots t 5).cast nbuf9_5)
abbrev mw6 (t : Fin cfg9.N) := win9_6.stage (cfg9.slots t 6)
abbrev hw6 (t : Fin cfg9.N) : (mw6 t).IsWhole := hstage9_6 ((cfg9.slots t 6).cast nbuf9_6)
abbrev mw7 (t : Fin cfg9.N) := win9_7.stage (cfg9.slots t 7)
abbrev hw7 (t : Fin cfg9.N) : (mw7 t).IsWhole := hstage9_7 ((cfg9.slots t 7).cast nbuf9_7)
abbrev mw8 (t : Fin cfg9.N) := win9_8.stage (cfg9.slots t 8)
abbrev hw8 (t : Fin cfg9.N) : (mw8 t).IsWhole := hstage9_8 ((cfg9.slots t 8).cast nbuf9_8)
abbrev mw9 (t : Fin cfg9.N) := win9_9.stage (cfg9.slots t 9)
abbrev hw9 (t : Fin cfg9.N) : (mw9 t).IsWhole := hstage9_9 ((cfg9.slots t 9).cast nbuf9_9)
abbrev mw10 (t : Fin cfg9.N) := win9_10.stage (cfg9.slots t 10)
abbrev hw10 (t : Fin cfg9.N) : (mw10 t).IsWhole := hstage9_10 ((cfg9.slots t 10).cast nbuf9_10)
abbrev mw11 (t : Fin cfg9.N) := win9_11.stage (cfg9.slots t 11)
abbrev hw11 (t : Fin cfg9.N) : (mw11 t).IsWhole := hstage9_11 ((cfg9.slots t 11).cast nbuf9_11)
/-- The two scratch buffers holding the running sums. -/
abbrev sc0 : Memref sig .tc .vmem S512x512 .f32 := Memref.whole cc9_scratch0
abbrev sc1 : Memref sig .tc .vmem S512x512 .f32 := Memref.whole cc9_scratch1
/-- The views through which stored pieces are read back as contents. -/
abbrev vS0 : View sig .tc .vmem S512x512 .f32 := sc0.view
abbrev vS1 : View sig .tc .vmem S512x512 .f32 := sc1.view
abbrev vOut : View sig .tc .vmem S512x512 .f32 := (Memref.whole cc9_stg11_0 : Memref sig .tc .vmem S512x512 .f32).view

/-! ## Where the result window rests -/

theorem out_idle : ∀ t : Fin cfg9.N, ¬atFinish (grid9.coords t) → cfg9.idle 11 (grid9.coords t) = true :=
  (by decide +kernel : ∀ t : Fin grid9.N, ¬atFinish (grid9.coords t) → cfg9.idle 11 (grid9.coords t) = true)
theorem out_noFlush : ∀ t : Fin cfg9.N, ¬atFinish (grid9.coords t) → (cfg9.win 11).flush t = false :=
  (by decide +kernel : ∀ t : Fin grid9.N, ¬atFinish (grid9.coords t) → win9_11.flush t = false)
theorem out_live : ∀ t : Fin cfg9.N, atFinish (grid9.coords t) → cfg9.idle 11 (grid9.coords t) = false :=
  (by decide +kernel : ∀ t : Fin grid9.N, atFinish (grid9.coords t) → cfg9.idle 11 (grid9.coords t) = false)

/-! ## What each situation leaves: the stored pieces read back -/

/-- The result block's placeholder at the points where nothing is stored into it (never consulted: the window rests
    there and is not written back). -/
def restOut : Vec F S512x512 .f32 := vOut.read (Elt F) (vOut.writes (Elt F) vOut.junk [])

/-- After a START point: (the resting result block, the first sum, the second sum). -/
def startTriple (c : Dev nD) (t : Fin cfg9.N) (hs : atStart (grid9.coords t)) (hf : ¬atFinish (grid9.coords t)) : Vec F S512x512 .f32 × Vec F S512x512 .f32 × Vec F S512x512 .f32 :=
  (restOut,
   vS0.read (Elt F) (vS0.writes (Elt F) vS0.junk (runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1),
   vS1.read (Elt F) (vS1.writes (Elt F) vS1.junk (runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1))

/-- After a MIDDLE point, from the sums `s0`, `s1` the point before left. -/
def middleTriple (c : Dev nD) (t : Fin cfg9.N) (hs : ¬atStart (grid9.coords t)) (hf : ¬atFinish (grid9.coords t)) (s0 s1 : Vec F S512x512 .f32) : Vec F S512x512 .f32 × Vec F S512x512 .f32 × Vec F S512x512 .f32 :=
  (restOut,
   vS0.read (Elt F) (vS0.writes (Elt F) vS0.junk (runMiddle c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS1.read (Elt F) (vS1.writes (Elt F) vS1.junk (runMiddle c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1))

/-- After a FINISH point, from the sums `s0`, `s1` the point before left: (the new node state, the finished sums). -/
def finishTriple (c : Dev nD) (t : Fin cfg9.N) (hs : ¬atStart (grid9.coords t)) (hf : atFinish (grid9.coords t)) (s0 s1 : Vec F S512x512 .f32) : Vec F S512x512 .f32 × Vec F S512x512 .f32 × Vec F S512x512 .f32 :=
  (vOut.read (Elt F) (vOut.writes (Elt F) vOut.junk (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1),
   vS0.read (Elt F) (vS0.writes (Elt F) vS0.junk (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1),
   vS1.read (Elt F) (vS1.writes (Elt F) vS1.junk (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1))

/-! ## The stored pieces cover their buffers -/

theorem start_cover0 (c : Dev nD) (t : Fin cfg9.N) (hs : atStart (grid9.coords t)) (hf : ¬atFinish (grid9.coords t)) (y : S512x512.Idx) :
    ∃ pc ∈ (runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).1, y ∈ pc.1.set :=
  View.cover_of_tiledL _ S512x512.size (by sl_kernel_rfl) y
theorem start_cover1 (c : Dev nD) (t : Fin cfg9.N) (hs : atStart (grid9.coords t)) (hf : ¬atFinish (grid9.coords t)) (y : S512x512.Idx) :
    ∃ pc ∈ (runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)).2.1, y ∈ pc.1.set :=
  View.cover_of_tiledL _ S512x512.size (by sl_kernel_rfl) y
theorem middle_cover0 (c : Dev nD) (t : Fin cfg9.N) (hs : ¬atStart (grid9.coords t)) (hf : ¬atFinish (grid9.coords t)) (s0 s1 : Vec F S512x512 .f32) (y : S512x512.Idx) :
    ∃ pc ∈ (runMiddle c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem middle_cover1 (c : Dev nD) (t : Fin cfg9.N) (hs : ¬atStart (grid9.coords t)) (hf : ¬atFinish (grid9.coords t)) (s0 s1 : Vec F S512x512 .f32) (y : S512x512.Idx) :
    ∃ pc ∈ (runMiddle c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_coverO (c : Dev nD) (t : Fin cfg9.N) (hs : ¬atStart (grid9.coords t)) (hf : atFinish (grid9.coords t)) (s0 s1 : Vec F S512x512 .f32) (y : S512x512.Idx) :
    ∃ pc ∈ (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).1, y ∈ pc.1.set :=
  View.cover_of_tiledL _ S512x512.size (by sl_kernel_rfl) y
theorem finish_cover0 (c : Dev nD) (t : Fin cfg9.N) (hs : ¬atStart (grid9.coords t)) (hf : atFinish (grid9.coords t)) (s0 s1 : Vec F S512x512 .f32) (y : S512x512.Idx) :
    ∃ pc ∈ (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.1, y ∈ pc.1.set :=
  View.cover_of_tiledL _ S512x512.size (by sl_kernel_rfl) y
theorem finish_cover1 (c : Dev nD) (t : Fin cfg9.N) (hs : ¬atStart (grid9.coords t)) (hf : atFinish (grid9.coords t)) (s0 s1 : Vec F S512x512 .f32) (y : S512x512.Idx) :
    ∃ pc ∈ (runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1).2.2.1, y ∈ pc.1.set :=
  View.cover_of_tiledL _ S512x512.size (by sl_kernel_rfl) y

/-! ## The accumulation over the grid -/

/-- After the point at position `n`: (the result block's buffer, the first running sum, the second). -/
def sums (c : Dev nD) : (n : ℕ) → n < cfg9.N → Vec F S512x512 .f32 × Vec F S512x512 .f32 × Vec F S512x512 .f32
  | 0, hn => startTriple V c ⟨0, hn⟩ ((atStart_iff ⟨0, hn⟩).mpr (Nat.zero_mod _))
      (fun h => (fun h => by (try dsimp only at h); omega) ((atFinish_iff ⟨0, hn⟩).mp h))
  | n + 1, hn =>
    if h0 : (n + 1) % 8 = 0 then
      if h7 : (n + 1) % 8 = 7 then False.elim (by omega)
      else startTriple V c ⟨n + 1, hn⟩ ((atStart_iff ⟨n + 1, hn⟩).mpr h0) (fun h => h7 ((atFinish_iff ⟨n + 1, hn⟩).mp h))
    else
      if h7 : (n + 1) % 8 = 7 then
        finishTriple V c ⟨n + 1, hn⟩ (fun h => h0 ((atStart_iff ⟨n + 1, hn⟩).mp h)) ((atFinish_iff ⟨n + 1, hn⟩).mpr h7)
          (sums c n (Nat.lt_of_succ_lt hn)).2.1 (sums c n (Nat.lt_of_succ_lt hn)).2.2
      else
        middleTriple V c ⟨n + 1, hn⟩ (fun h => h0 ((atStart_iff ⟨n + 1, hn⟩).mp h)) (fun h => h7 ((atFinish_iff ⟨n + 1, hn⟩).mp h))
          (sums c n (Nat.lt_of_succ_lt hn)).2.1 (sums c n (Nat.lt_of_succ_lt hn)).2.2

theorem sums_start (c : Dev nD) (t : Fin cfg9.N) (h0 : t.val % 8 = 0) (h7 : ¬t.val % 8 = 7) :
    sums V c t.val t.isLt = startTriple V c t ((atStart_iff t).mpr h0) (fun h => h7 ((atFinish_iff t).mp h)) := by
  obtain ⟨n, hn⟩ := t
  cases n with
  | zero => exact rfl
  | succ n => exact (dif_pos h0).trans ((dif_neg h7).trans rfl)

theorem sums_middle (c : Dev nD) (t : Fin cfg9.N) (h0 : ¬t.val % 8 = 0) (h7 : ¬t.val % 8 = 7) :
    sums V c t.val t.isLt = middleTriple V c t (fun h => h0 ((atStart_iff t).mp h)) (fun h => h7 ((atFinish_iff t).mp h))
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h7).trans rfl)

theorem sums_finish (c : Dev nD) (t : Fin cfg9.N) (h0 : ¬t.val % 8 = 0) (h7 : t.val % 8 = 7) :
    sums V c t.val t.isLt = finishTriple V c t (fun h => h0 ((atStart_iff t).mp h)) ((atFinish_iff t).mpr h7)
      (sums V c (t.val - 1) (Nat.lt_of_le_of_lt (Nat.sub_le _ _) t.isLt)).2.1 (sums V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- The other scoped buffers of the core, unopened. -/
abbrev others (c : Dev nD) : sProp 𝕄 :=
  Pipeline.scopedRestBut (Ix := Unit) (Name := ℕ) (U := UR sig nD τ) (Lvl := ℕ) (Val := Elt F) spec9 c [cc9_scratch0, cc9_scratch1]

/-- Before the point at position `n`: at the first point every scratch buffer at anything; afterwards the two running
    sums at what the point before left, the other scoped buffers and the generator register untouched. -/
def carried (c : Dev nD) : (n : ℕ) → n ≤ cfg9.N → sProp 𝕄
  | 0, _ => Pipeline.ΦA spec9 c
  | n + 1, hn => iprop(iprop(iprop(owns (c : Thread nD τ) sc0 fullShare (sums V c n hn).2.1 ∗ owns (c : Thread nD τ) sc1 fullShare (sums V c n hn).2.2)
      ∗ others c) ∗ (∃ r, prngReg c r))

theorem carried_zero (c : Dev nD) (n : ℕ) (h : n ≤ cfg9.N) (hz : n = 0) : carried V c n h = Pipeline.ΦA spec9 c := by
  subst hz; rfl

theorem carried_succ (c : Dev nD) (n : ℕ) (hn : n < cfg9.N) :
    carried V c (n + 1) hn = iprop(iprop(iprop(owns (c : Thread nD τ) sc0 fullShare (sums V c n hn).2.1 ∗ owns (c : Thread nD τ) sc1 fullShare (sums V c n hn).2.2)
      ∗ others c) ∗ (∃ r, prngReg c r)) := rfl

theorem carried_pos (c : Dev nD) (n : ℕ) (h : n ≤ cfg9.N) (hz : n ≠ 0) :
    carried V c n h = iprop(iprop(iprop(owns (c : Thread nD τ) sc0 fullShare (sums V c (n - 1) (by omega)).2.1
      ∗ owns (c : Thread nD τ) sc1 fullShare (sums V c (n - 1) (by omega)).2.2) ∗ others c) ∗ (∃ r, prngReg c r)) := by
  cases n with
  | zero => exact absurd rfl hz
  | succ n => rfl

/-- The invariant handed in at the first point, with the two scratch buffers named. -/
theorem entry_eq (c : Dev nD) :
    (Pipeline.ΦA spec9 c : sProp 𝕄)
      = iprop(iprop(iprop((∃ d, owns (c : Thread nD τ) sc0 fullShare d) ∗ (∃ d, owns (c : Thread nD τ) sc1 fullShare d)) ∗ others c) ∗ (∃ r, prngReg c r)) := by
  unfold Pipeline.ΦA; rw [scopedRest9_split]; simp only [sc0, sc1, owns_whole]; try rfl

/-! ## The proof data -/

theorem before0_of {c : Dev nD} (dat : Dat τ (Elt F) Unit ℕ (UR sig nD τ) ℕ cfg9 c) (hA : dat.A 0 = V c (Pipeline.arrRef spec9 0))
    (hafter : ∀ t, dat.after 0 t = blk V c 0 t) (t : Fin cfg9.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ cfg9 c) (hA : dat.A 1 = V c (Pipeline.arrRef spec9 1))
    (hafter : ∀ t, dat.after 1 t = blk V c 1 t) (t : Fin cfg9.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ cfg9 c) (hA : dat.A 2 = V c (Pipeline.arrRef spec9 2))
    (hafter : ∀ t, dat.after 2 t = blk V c 2 t) (t : Fin cfg9.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ cfg9 c) (hA : dat.A 3 = V c (Pipeline.arrRef spec9 3))
    (hafter : ∀ t, dat.after 3 t = blk V c 3 t) (t : Fin cfg9.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before4_of {c : Dev nD} (dat : Dat τ (Elt F) Unit ℕ (UR sig nD τ) ℕ cfg9 c) (hA : dat.A 4 = V c (Pipeline.arrRef spec9 4))
    (hafter : ∀ t, dat.after 4 t = blk V c 4 t) (t : Fin cfg9.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before5_of {c : Dev nD} (dat : Dat τ (Elt F) Unit ℕ (UR sig nD τ) ℕ cfg9 c) (hA : dat.A 5 = V c (Pipeline.arrRef spec9 5))
    (hafter : ∀ t, dat.after 5 t = blk V c 5 t) (t : Fin cfg9.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before6_of {c : Dev nD} (dat : Dat τ (Elt F) Unit ℕ (UR sig nD τ) ℕ cfg9 c) (hA : dat.A 6 = V c (Pipeline.arrRef spec9 6))
    (hafter : ∀ t, dat.after 6 t = blk V c 6 t) (t : Fin cfg9.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
theorem before7_of {c : Dev nD} (dat : Dat τ (Elt F) Unit ℕ (UR sig nD τ) ℕ cfg9 c) (hA : dat.A 7 = V c (Pipeline.arrRef spec9 7))
    (hafter : ∀ t, dat.after 7 t = blk V c 7 t) (t : Fin cfg9.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
theorem before8_of {c : Dev nD} (dat : Dat τ (Elt F) Unit ℕ (UR sig nD τ) ℕ cfg9 c) (hA : dat.A 8 = V c (Pipeline.arrRef spec9 8))
    (hafter : ∀ t, dat.after 8 t = blk V c 8 t) (t : Fin cfg9.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
theorem before9_of {c : Dev nD} (dat : Dat τ (Elt F) Unit ℕ (UR sig nD τ) ℕ cfg9 c) (hA : dat.A 9 = V c (Pipeline.arrRef spec9 9))
    (hafter : ∀ t, dat.after 9 t = blk V c 9 t) (t : Fin cfg9.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
theorem before10_of {c : Dev nD} (dat : Dat τ (Elt F) Unit ℕ (UR sig nD τ) ℕ cfg9 c) (hA : dat.A 10 = V c (Pipeline.arrRef spec9 10))
    (hafter : ∀ t, dat.after 10 t = blk V c 10 t) (t : Fin cfg9.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`. The adjacency array is read through two windows (a block and the
    mirrored block): each holds half of the read permission. -/
def dat (c : Dev nD) : Dat τ (Elt F) Unit ℕ (UR sig nD τ) ℕ cfg9 c where
  A w := V c (Pipeline.arrRef spec9 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (sums V c t.val t.isLt).1
  Φ t := carried V c t.val (Nat.le_of_lt_succ t.isLt)
  q w := match w with
    | ⟨0, _⟩ => fullShare.left
    | ⟨1, _⟩ => fullShare.right
    | _ => fullShare
  owed _ := 0

theorem dat_A (c : Dev nD) (w : Fin cfg9.W) : (dat V c).A w = V c (Pipeline.arrRef spec9 w) := by
  dsimp only [dat]

theorem carried_castSucc (c : Dev nD) (t : Fin cfg9.N) :
    (dat V c).Φ t.castSucc = carried V c t.val (Nat.le_of_lt t.isLt) := by
  dsimp only [dat]; simp only [Fin.coe_castSucc]

theorem after0 (c : Dev nD) (t : Fin cfg9.N) : (dat V c).after 0 t = blk V c 0 t := by dsimp only [dat]
theorem after1 (c : Dev nD) (t : Fin cfg9.N) : (dat V c).after 1 t = blk V c 1 t := by dsimp only [dat]
theorem after2 (c : Dev nD) (t : Fin cfg9.N) : (dat V c).after 2 t = blk V c 2 t := by dsimp only [dat]
theorem after3 (c : Dev nD) (t : Fin cfg9.N) : (dat V c).after 3 t = blk V c 3 t := by dsimp only [dat]
theorem after4 (c : Dev nD) (t : Fin cfg9.N) : (dat V c).after 4 t = blk V c 4 t := by dsimp only [dat]
theorem after5 (c : Dev nD) (t : Fin cfg9.N) : (dat V c).after 5 t = blk V c 5 t := by dsimp only [dat]
theorem after6 (c : Dev nD) (t : Fin cfg9.N) : (dat V c).after 6 t = blk V c 6 t := by dsimp only [dat]
theorem after7 (c : Dev nD) (t : Fin cfg9.N) : (dat V c).after 7 t = blk V c 7 t := by dsimp only [dat]
theorem after8 (c : Dev nD) (t : Fin cfg9.N) : (dat V c).after 8 t = blk V c 8 t := by dsimp only [dat]
theorem after9 (c : Dev nD) (t : Fin cfg9.N) : (dat V c).after 9 t = blk V c 9 t := by dsimp only [dat]
theorem after10 (c : Dev nD) (t : Fin cfg9.N) : (dat V c).after 10 t = blk V c 10 t := by dsimp only [dat]
theorem after11 (c : Dev nD) (t : Fin cfg9.N) : (dat V c).after 11 t = (sums V c t.val t.isLt).1 := by dsimp only [dat]

theorem before0 (c : Dev nD) (t : Fin cfg9.N) (d) : (dat V c).before 0 t d = blk V c 0 t :=
  before0_of V (dat V c) (dat_A V c 0) (after0 V c) t d
theorem before1 (c : Dev nD) (t : Fin cfg9.N) (d) : (dat V c).before 1 t d = blk V c 1 t :=
  before1_of V (dat V c) (dat_A V c 1) (after1 V c) t d
theorem before2 (c : Dev nD) (t : Fin cfg9.N) (d) : (dat V c).before 2 t d = blk V c 2 t :=
  before2_of V (dat V c) (dat_A V c 2) (after2 V c) t d
theorem before3 (c : Dev nD) (t : Fin cfg9.N) (d) : (dat V c).before 3 t d = blk V c 3 t :=
  before3_of V (dat V c) (dat_A V c 3) (after3 V c) t d
theorem before4 (c : Dev nD) (t : Fin cfg9.N) (d) : (dat V c).before 4 t d = blk V c 4 t :=
  before4_of V (dat V c) (dat_A V c 4) (after4 V c) t d
theorem before5 (c : Dev nD) (t : Fin cfg9.N) (d) : (dat V c).before 5 t d = blk V c 5 t :=
  before5_of V (dat V c) (dat_A V c 5) (after5 V c) t d
theorem before6 (c : Dev nD) (t : Fin cfg9.N) (d) : (dat V c).before 6 t d = blk V c 6 t :=
  before6_of V (dat V c) (dat_A V c 6) (after6 V c) t d
theorem before7 (c : Dev nD) (t : Fin cfg9.N) (d) : (dat V c).before 7 t d = blk V c 7 t :=
  before7_of V (dat V c) (dat_A V c 7) (after7 V c) t d
theorem before8 (c : Dev nD) (t : Fin cfg9.N) (d) : (dat V c).before 8 t d = blk V c 8 t :=
  before8_of V (dat V c) (dat_A V c 8) (after8 V c) t d
theorem before9 (c : Dev nD) (t : Fin cfg9.N) (d) : (dat V c).before 9 t d = blk V c 9 t :=
  before9_of V (dat V c) (dat_A V c 9) (after9 V c) t d
theorem before10 (c : Dev nD) (t : Fin cfg9.N) (d) : (dat V c).before 10 t d = blk V c 10 t :=
  before10_of V (dat V c) (dat_A V c 10) (after10 V c) t d

theorem leaves0 (c : Dev nD) (t : Fin cfg9.N) :
    (dat V c).leavesExact 0 t = owns (c : Thread nD τ) (mw0 t) fullShare (blk V c 0 t) := by
  unfold Dat.leavesExact; rw [show cfg9.idle 0 (cfg9.grid.coords t) = false from rfl, after0]; try rfl
theorem leaves1 (c : Dev nD) (t : Fin cfg9.N) :
    (dat V c).leavesExact 1 t = owns (c : Thread nD τ) (mw1 t) fullShare (blk V c 1 t) := by
  unfold Dat.leavesExact; rw [show cfg9.idle 1 (cfg9.grid.coords t) = false from rfl, after1]; try rfl
theorem leaves2 (c : Dev nD) (t : Fin cfg9.N) :
    (dat V c).leavesExact 2 t = owns (c : Thread nD τ) (mw2 t) fullShare (blk V c 2 t) := by
  unfold Dat.leavesExact; rw [show cfg9.idle 2 (cfg9.grid.coords t) = false from rfl, after2]; try rfl
theorem leaves3 (c : Dev nD) (t : Fin cfg9.N) :
    (dat V c).leavesExact 3 t = owns (c : Thread nD τ) (mw3 t) fullShare (blk V c 3 t) := by
  unfold Dat.leavesExact; rw [show cfg9.idle 3 (cfg9.grid.coords t) = false from rfl, after3]; try rfl
theorem leaves4 (c : Dev nD) (t : Fin cfg9.N) :
    (dat V c).leavesExact 4 t = owns (c : Thread nD τ) (mw4 t) fullShare (blk V c 4 t) := by
  unfold Dat.leavesExact; rw [show cfg9.idle 4 (cfg9.grid.coords t) = false from rfl, after4]; try rfl
theorem leaves5 (c : Dev nD) (t : Fin cfg9.N) :
    (dat V c).leavesExact 5 t = owns (c : Thread nD τ) (mw5 t) fullShare (blk V c 5 t) := by
  unfold Dat.leavesExact; rw [show cfg9.idle 5 (cfg9.grid.coords t) = false from rfl, after5]; try rfl
theorem leaves6 (c : Dev nD) (t : Fin cfg9.N) :
    (dat V c).leavesExact 6 t = owns (c : Thread nD τ) (mw6 t) fullShare (blk V c 6 t) := by
  unfold Dat.leavesExact; rw [show cfg9.idle 6 (cfg9.grid.coords t) = false from rfl, after6]; try rfl
theorem leaves7 (c : Dev nD) (t : Fin cfg9.N) :
    (dat V c).leavesExact 7 t = owns (c : Thread nD τ) (mw7 t) fullShare (blk V c 7 t) := by
  unfold Dat.leavesExact; rw [show cfg9.idle 7 (cfg9.grid.coords t) = false from rfl, after7]; try rfl
theorem leaves8 (c : Dev nD) (t : Fin cfg9.N) :
    (dat V c).leavesExact 8 t = owns (c : Thread nD τ) (mw8 t) fullShare (blk V c 8 t) := by
  unfold Dat.leavesExact; rw [show cfg9.idle 8 (cfg9.grid.coords t) = false from rfl, after8]; try rfl
theorem leaves9 (c : Dev nD) (t : Fin cfg9.N) :
    (dat V c).leavesExact 9 t = owns (c : Thread nD τ) (mw9 t) fullShare (blk V c 9 t) := by
  unfold Dat.leavesExact; rw [show cfg9.idle 9 (cfg9.grid.coords t) = false from rfl, after9]; try rfl
theorem leaves10 (c : Dev nD) (t : Fin cfg9.N) :
    (dat V c).leavesExact 10 t = owns (c : Thread nD τ) (mw10 t) fullShare (blk V c 10 t) := by
  unfold Dat.leavesExact; rw [show cfg9.idle 10 (cfg9.grid.coords t) = false from rfl, after10]; try rfl

/-! ## The body obligation -/

def bodyPre (c : Dev nD) (t : Fin cfg9.N) : sProp 𝕄 :=
  iprop((dat V c).Φ t.castSucc ∗ (dat V c).owesAt () t.castSucc
    ∗ (∃ d, owns (c : Thread nD τ) (mw0 t) fullShare ((dat V c).before 0 t d))
    ∗ (∃ d, owns (c : Thread nD τ) (mw1 t) fullShare ((dat V c).before 1 t d))
    ∗ (∃ d, owns (c : Thread nD τ) (mw2 t) fullShare ((dat V c).before 2 t d))
    ∗ (∃ d, owns (c : Thread nD τ) (mw3 t) fullShare ((dat V c).before 3 t d))
    ∗ (∃ d, owns (c : Thread nD τ) (mw4 t) fullShare ((dat V c).before 4 t d))
    ∗ (∃ d, owns (c : Thread nD τ) (mw5 t) fullShare ((dat V c).before 5 t d))
    ∗ (∃ d, owns (c : Thread nD τ) (mw6 t) fullShare ((dat V c).before 6 t d))
    ∗ (∃ d, owns (c : Thread nD τ) (mw7 t) fullShare ((dat V c).before 7 t d))
    ∗ (∃ d, owns (c : Thread nD τ) (mw8 t) fullShare ((dat V c).before 8 t d))
    ∗ (∃ d, owns (c : Thread nD τ) (mw9 t) fullShare ((dat V c).before 9 t d))
    ∗ (∃ d, owns (c : Thread nD τ) (mw10 t) fullShare ((dat V c).before 10 t d))
    ∗ (∃ d, owns (c : Thread nD τ) (mw11 t) fullShare ((dat V c).before 11 t d)))

def bodyPost (c : Dev nD) (t : Fin cfg9.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

end Cert.KernelIdeal.Gated9

end
-- ==== Proof.IdealGated9Body.lean ====
/-
  Region 9 of the program, concluded: the body obligation at every grid point — the point's position decides
  which of the three situations applies, the invariant hands the body the two running sums (at anything at the very
  first point, at what the point before left afterwards) and takes them back at this point's contents — and how
  the invariant is entered and left.
-/
import proofs.«121501_j55087250538634_2_alg».proof.Proof.IdealGated9

set_option maxRecDepth 16384

noncomputable section

namespace Cert.KernelIdeal.Gated9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. -/
theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before0, before1, before2, before3, before4, before5, before6, before7, before8, before9, before10]
  rw [show (dat V c).owesAt () t.succ = (dat V c).owesAt () t.castSucc from rfl]
  rw [show (dat V c).Φ t.succ = carried V c (t.val + 1) t.isLt from rfl, carried_succ]
  rw [leaves0, leaves1, leaves2, leaves3, leaves4, leaves5, leaves6, leaves7, leaves8, leaves9, leaves10]
  have hN : t.val < 64 := lt_of_lt_of_eq t.isLt (show cfg9.N = 64 from N_9)
  by_cases h0 : t.val % 8 = 0
  · by_cases h7 : t.val % 8 = 7
    · exfalso; omega
    · rw [Dat.leavesExact_idle (dat V c) 11 t (out_idle t (fun h => h7 ((atFinish_iff t).mp h))) (out_noFlush t (fun h => h7 ((atFinish_iff t).mp h)))]
      rw [sums_start V c t h0 h7]
      unfold startTriple; (try dsimp only)
      by_cases hz : t.val = 0
      · rw [carried_castSucc V c t, carried_zero V c _ _ hz, entry_eq]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [carried_castSucc V c t, carried_pos V c _ _ hz]
        iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runStart c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) ((atStart_iff t).mpr h0) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%e0, HS0⟩, ⟨%e1, HS1⟩⟩
        isplitl [HS0 HS1 Hoth Hg]
        · isplitl [HS0 HS1 Hoth]
          · isplitl [HS0 HS1]
            · isplitl [HS0]
              · unfold owns; iexists _; isplitr
                swap; · iexact HS0
                ipureintro; exact View.read_writes_of_cover _ _ _ _ _ (start_cover0 V c t _ _)
              unfold owns; iexists _; isplitr
              swap; · iexact HS1
              ipureintro; exact View.read_writes_of_cover _ _ _ _ _ (start_cover1 V c t _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun h => h0 (by rw [h])
    by_cases h7 : t.val % 8 = 7
    · rw [show (dat V c).leavesExact 11 t = owns (c : Thread nD τ) (mw11 t) fullShare ((dat V c).after 11 t) from by
        unfold Dat.leavesExact; rw [out_live t ((atFinish_iff t).mpr h7)], after11]
      rw [sums_finish V c t h0 h7]
      unfold finishTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFinish c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) ((atFinish_iff t).mpr h7) (blk V c 0 t) (blk V c 1 t) (blk V c 2 t) (blk V c 3 t) (blk V c 4 t) (blk V c 5 t) (blk V c 6 t) (blk V c 7 t) (blk V c 8 t) (blk V c 9 t) (blk V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (finish_cover0 V c t _ _ _ _)
            unfold owns; iexists _; isplitr
            swap; · iexact HS1
            ipureintro; exact View.read_writes_of_cover _ _ _ _ _ (finish_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (finish_coverO V c t _ _ _ _)
    · rw [Dat.leavesExact_idle (dat V c) 11 t (out_idle t (fun h => h7 ((atFinish_iff t).mp h))) (out_noFlush t (fun h => h7 ((atFinish_iff t).mp h)))]
      rw [sums_middle V c t h0 h7]
      unfold middleTriple; (try dsimp only)
      rw [carried_castSucc V c t, carried_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) (fun h => h0 ((atStart_iff t).mp h)) (fun h => h7 ((atFinish_iff t).mp h)) (blk V c 0 t) (blk V c 1 t) (blk V c 2 t) (blk V c 3 t) (blk V c 4 t) (blk V c 5 t) (blk V c 6 t) (blk V c 7 t) (blk V c 8 t) (blk V c 9 t) (blk V c 10 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%e0, HS0⟩, ⟨%e1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (middle_cover0 V c t _ _ _ _)
            unfold owns; iexists _; isplitr
            swap; · iexact HS1
            ipureintro; exact View.read_writes_of_cover _ _ _ _ _ (middle_cover1 V c t _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation of the region, at every point. -/
theorem body_obligation (c : Dev nD) : BodyObligation (dat (F := F) V c) (defs₀ (F := F)) Variants.none () Set.univ := fun t => by
  rw [bigSep_W9, bigSep_W9]
  exact sound_body V c t

/-- What the launch hands the region is the invariant before the first point. -/
theorem enter (c : Dev nD) : Pipeline.ΦA spec9 c ⊢ (dat V c).Φ 0 := by
  rw [show (dat V c).Φ 0 = carried V c 0 (Nat.zero_le _) from rfl, carried_zero V c 0 _ rfl]
  try exact Idealize.SL.BI.Entails.refl _

/-- After the last point the invariant gives the scoped buffers back: the sums' contents are forgotten. -/
theorem leave (c : Dev nD) : (dat V c).Φ (Fin.last cfg9.N) ⊢ Pipeline.ΦA spec9 c := by
  have hne : (Fin.last cfg9.N).val ≠ 0 := by rw [Fin.val_last]; have : cfg9.N = 64 := N_9; omega
  rw [show (dat V c).Φ (Fin.last cfg9.N) = carried V c (Fin.last cfg9.N).val (Nat.le_of_lt_succ (Fin.last cfg9.N).isLt) from rfl,
    carried_pos V c _ _ hne, entry_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Cert.KernelIdeal.Gated9

end
-- ==== Proof.IdealGated9Arrays.lean ====
/-
  Region 9 of the program: its windows' arrays against the buffers behind them. The adjacency array is read
  through two windows; the read permission on its buffer is cut in two halves, one per window, when the region
  is entered, and the halves are joined again when it is left. Every other array has a buffer of its own.
-/
import proofs.«121501_j55087250538634_2_alg».proof.Proof.IdealGated9

set_option maxRecDepth 16384

noncomputable section

namespace Cert.KernelIdeal.Gated9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows. -/
abbrev bufs : List (Ref sig .tc) := [main_v1, main_v31_0, main_v31_1, main_v30, main_v7, main_v18, main_v9, main_v19, main_v11, main_v20, main_v32]

theorem bufs_eq : Finset.univ.image (Pipeline.arrRef spec9) = bufs.toFinset := by decide

/-- A conjunction over those buffers, one by one. -/
theorem bufs_chain (Φ : Ref sig .tc → sProp 𝕄) :
    bigSep (Finset.univ.image (Pipeline.arrRef spec9)) Φ = iprop(Φ main_v1 ∗ Φ main_v31_0 ∗ Φ main_v31_1 ∗ Φ main_v30 ∗ Φ main_v7 ∗ Φ main_v18 ∗ Φ main_v9 ∗ Φ main_v19 ∗ Φ main_v11 ∗ Φ main_v20 ∗ Φ main_v32) :=
  bigSep_eq_bigSepL_of_eq bufs bufs_eq (by decide) Φ

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl
theorem share11 (c : Dev nD) : (dat V c).share 11 = fullShare := rfl

/-- ENTRY: the buffers whole at contents `G` make the windows' arrays at `G`, the adjacency buffer's permission halved. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec9 c G : sProp 𝕄)
      ⊢ (dat V c).arrays (fun w => G (Pipeline.arrRef spec9 w)) := by
  unfold Pipeline.arrBufs Dat.arrays
  rw [bufs_chain, bigSep_W9]
  simp only [share0, share1, share2, share3, share4, share5, share6, share7, share8, share9, share10, share11, View.set_whole]
  iintro ⟨HA, H2, H3, H4, H5, H6, H7, H8, H9, H10, H11⟩
  ihave HA' := (pointsTo_share (PosShare.mem_left_op_right fullShare)).1 $$ HA
  icases HA' with ⟨HA0, HA1⟩
  isplitl [HA0]; · iexact HA0
  isplitl [HA1]; · iexact HA1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: the windows' arrays at contents `G`, the two halves of the adjacency buffer's permission joined, are the
    buffers whole at `G`. -/
theorem bufs_of_arrays (c : Dev nD) (G : (b : Ref sig .tc) → Buf (Elt F) ((c : Thread nD τ).loc b)) :
    (dat V c).arrays (fun w => G (Pipeline.arrRef spec9 w))
      ⊢ (Pipeline.arrBufs (Ix := Unit) (Name := ℕ) (U := UR sig nD τ) (Lvl := ℕ) spec9 c G : sProp 𝕄) := by
  unfold Pipeline.arrBufs Dat.arrays
  rw [bufs_chain, bigSep_W9]
  simp only [share0, share1, share2, share3, share4, share5, share6, share7, share8, share9, share10, share11, View.set_whole]
  iintro ⟨HA0, HA1, H2, H3, H4, H5, H6, H7, H8, H9, H10, H11⟩
  ihave HA := (pointsTo_share (PosShare.mem_left_op_right fullShare)).2 $$ [HA0 HA1]
  · isplitl [HA0]; · iexact HA0
    iexact HA1
  isplitl [HA]; · iexact HA
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY, from all the core's unscoped buffers: the windows' arrays and the buffers that are no window's array. -/
theorem enter_arrays (c : Dev nD) (G : (b : Ref sig .tc) → Buf (Elt F) ((c : Thread nD τ).loc b)) :
    (unscopedBufs c G : sProp 𝕄)
      ⊢ iprop((dat V c).arrays (fun w => G (Pipeline.arrRef spec9 w))
          ∗ Pipeline.unscopedRest (Ix := Unit) (Name := ℕ) (U := UR sig nD τ) (Lvl := ℕ) spec9 c G) := by
  rw [Pipeline.unscopedBufs_split₀ cfgs 9 winFacts₀9.arr_unscoped c G]
  exact BIClass.sep_mono (arrays_of_bufs V c G) .rfl

/-- EXIT, back to all the core's unscoped buffers at contents `G'` that agree with the arrays' final contents on the
    arrays and with the entry contents `G` elsewhere. -/
theorem leave_arrays (c : Dev nD) (G G' : (b : Ref sig .tc) → Buf (Elt F) ((c : Thread nD τ).loc b))
    (Fa : (w : Fin cfg9.W) → Buf (Elt F) ((cfg9.win w).arr.view.loc (c : Thread nD τ)))
    (hF : ∀ w, Fa w = G' (Pipeline.arrRef spec9 w))
    (hrest : ∀ b, b ∉ Finset.univ.image (Pipeline.arrRef spec9) → G' b = G b) :
    iprop((dat V c).arrays Fa ∗ Pipeline.unscopedRest (Ix := Unit) (Name := ℕ) (U := UR sig nD τ) (Lvl := ℕ) spec9 c G)
      ⊢ (unscopedBufs c G' : sProp 𝕄) := by
  rw [Pipeline.unscopedBufs_split₀ cfgs 9 winFacts₀9.arr_unscoped c G', show Fa = fun w => G' (Pipeline.arrRef spec9 w) from funext hF]
  refine BIClass.sep_mono (bufs_of_arrays V c G') ?_
  unfold Pipeline.unscopedRest
  exact Entails.of_eq (bigSep_congr fun b hb => by rw [hrest b (Finset.mem_sdiff.mp hb).2])

end Cert.KernelIdeal.Gated9

end
-- ==== Proof.IdealOutput10.lean ====
/-
  The last region of the program: the output network on one block of 1024 rows of the final node state `x`
  (window 0):  out = tanh(x · W₁ + b₁) · W₂ + b₂  (windows 1, 2, 3, 4 -> window 5), two 1024x512 by 512x512 products
  into the zero accumulator, each followed by its bias row broadcast down the rows, the hyperbolic tangent in
  between. The weights and biases are the same block at every point; the state block and the result block move
  with the point.
  Here: what the result buffer holds after the body as a function of the five input blocks, the body's run on
  whole staging buffers, the region's proof data over entry contents `V`, and the body obligation at every point.
-/
import proofs.«121501_j55087250538634_2_alg».proof.Proof.Gen.KernelIdeal.Launch
import proofs.«121501_j55087250538634_2_alg».proof.Proof.Gen.KernelIdeal.Skeleton
import proofs.«121501_j55087250538634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Output10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, cut out of its array as the region finds it. -/
def blk (c : Dev nD) (w : Fin cfg10.W) (t : Fin cfg10.N) :
    ((cfg10.win w).xblock (cfg10.grid.coords t)).Idx → Elt F (cfg10.win w).elt :=
  ((cfg10.win w).blk t).view.read (Elt F) (V c (Pipeline.arrRef spec10 w))

/-! ## The whole-buffer rectangles the body loads and stores through -/

abbrev rRows : Rect S1024x512 := Rect.unit (s := S1024x512) ![0, 0] S1024x512.size inb_S1024x512_S1024x512_0_0
abbrev rWeight : Rect S512x512 := Rect.unit (s := S512x512) ![0, 0] S512x512.size inb_S512x512_S512x512_0_0
abbrev rBias : Rect S1x512 := Rect.unit (s := S1x512) ![0, 0] S1x512.size inb_S1x512_S1x512_0_0

/-! ## What the body leaves in the result buffer -/

/-- The output block: the two-layer network of the state block, as one stored piece. -/
def outBlock (x : Vec F S1024x512 .f32) (w1 : Vec F S512x512 .bf16) (b1 : Vec F S1x512 .f32)
    (w2 : Vec F S512x512 .bf16) (b2 : Vec F S1x512 .f32) : Vec F S1024x512 .f32 :=
  View.canon [⟨rRows, k10_pay1 (View.ld x rRows) (View.ld w1 rWeight) (View.ld b1 rBias) (View.ld w2 rWeight) (View.ld b2 rBias)⟩]

/-- One store through the whole-buffer rectangle covers the buffer. -/
theorem covers (p : Vec F S1024x512 .f32) (y : S1024x512.Idx) :
    ∃ pc ∈ ([⟨rRows, p⟩] : List (View.Piece (Elt F) S1024x512 .f32)), y ∈ pc.1.set :=
  View.cover_of_tiled [⟨rRows, p⟩] S1024x512.size (by rfl) y

/-! ## The body's run -/

set_option maxHeartbeats 1000000 in
/-- On whole staging buffers, the five inputs at contents `x, w1, b1, w2, b2` and the result at anything, the body
    runs to its end with the inputs as they were and the result at `outBlock` of the inputs. -/
theorem body_runs (i : grid10.Coords) (c : Dev nD) (E : Set ℕ)
    (a1 : Memref sig .tc .vmem S1024x512 .f32) (h1 : a1.IsWhole) (a2 : Memref sig .tc .vmem S512x512 .bf16) (h2 : a2.IsWhole)
    (a3 : Memref sig .tc .vmem S1x512 .f32) (h3 : a3.IsWhole) (a4 : Memref sig .tc .vmem S512x512 .bf16) (h4 : a4.IsWhole)
    (a5 : Memref sig .tc .vmem S1x512 .f32) (h5 : a5.IsWhole) (a6 : Memref sig .tc .vmem S1024x512 .f32) (h6 : a6.IsWhole)
    (x : Vec F S1024x512 .f32) (w1 : Vec F S512x512 .bf16) (b1 : Vec F S1x512 .f32) (w2 : Vec F S512x512 .bf16) (b2 : Vec F S1x512 .f32)
    (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2
        ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (outBlock x w1 b1 w2 b2)) -∗ K ⟨⟩))
      ⊢ wp frame (wpE (defs₀ (F := F)) Variants.none c none) E (cc10__outmlp_kernel i a1 h1 a2 h2 a3 h3 a4 h4 a5 h5 a6 h6) K := by
  simp only [cc10__outmlp_kernel_eq_skeleton]; unfold cc10__outmlp_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covers _)

/-! ## The region's proof data -/

/-- Input window 0's staging buffer holds its block at every point, fetched there or not: where the pipeline does
    not fetch, the block index has not moved, and the body leaves inputs in place. -/
theorem before0_of {c : Dev nD} (dat : Dat τ (Elt F) Unit ℕ (UR sig nD τ) ℕ cfg10 c) (hA : dat.A 0 = V c (Pipeline.arrRef spec10 0))
    (hafter : ∀ t, dat.after 0 t = blk V c 0 t) (t : Fin cfg10.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's staging buffer holds its block at every point, fetched there or not: where the pipeline does
    not fetch, the block index has not moved, and the body leaves inputs in place. -/
theorem before1_of {c : Dev nD} (dat : Dat τ (Elt F) Unit ℕ (UR sig nD τ) ℕ cfg10 c) (hA : dat.A 1 = V c (Pipeline.arrRef spec10 1))
    (hafter : ∀ t, dat.after 1 t = blk V c 1 t) (t : Fin cfg10.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's staging buffer holds its block at every point, fetched there or not: where the pipeline does
    not fetch, the block index has not moved, and the body leaves inputs in place. -/
theorem before2_of {c : Dev nD} (dat : Dat τ (Elt F) Unit ℕ (UR sig nD τ) ℕ cfg10 c) (hA : dat.A 2 = V c (Pipeline.arrRef spec10 2))
    (hafter : ∀ t, dat.after 2 t = blk V c 2 t) (t : Fin cfg10.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's staging buffer holds its block at every point, fetched there or not: where the pipeline does
    not fetch, the block index has not moved, and the body leaves inputs in place. -/
theorem before3_of {c : Dev nD} (dat : Dat τ (Elt F) Unit ℕ (UR sig nD τ) ℕ cfg10 c) (hA : dat.A 3 = V c (Pipeline.arrRef spec10 3))
    (hafter : ∀ t, dat.after 3 t = blk V c 3 t) (t : Fin cfg10.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's staging buffer holds its block at every point, fetched there or not: where the pipeline does
    not fetch, the block index has not moved, and the body leaves inputs in place. -/
theorem before4_of {c : Dev nD} (dat : Dat τ (Elt F) Unit ℕ (UR sig nD τ) ℕ cfg10 c) (hA : dat.A 4 = V c (Pipeline.arrRef spec10 4))
    (hafter : ∀ t, dat.after 4 t = blk V c 4 t) (t : Fin cfg10.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The proof data of this region on core `c`: the arrays as the region finds them; after the body at point `t` each
    input's buffer at its block and the result's at the output block of the input blocks; the invariant is the
    scoped rest and the generator register, untouched; nothing owed; full shares. -/
def dat (c : Dev nD) : Dat τ (Elt F) Unit ℕ (UR sig nD τ) ℕ cfg10 c where
  A w := V c (Pipeline.arrRef spec10 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outBlock (blk V c 0 t) (blk V c 1 t) (blk V c 2 t) (blk V c 3 t) (blk V c 4 t)
  Φ _ := Pipeline.ΦA spec10 c
  q _ := fullShare
  owed _ := 0

theorem dat_A (c : Dev nD) (w : Fin cfg10.W) : (dat V c).A w = V c (Pipeline.arrRef spec10 w) := by
  dsimp only [dat]

theorem after0 (c : Dev nD) (t : Fin cfg10.N) : (dat V c).after 0 t = blk V c 0 t := by dsimp only [dat]
theorem after1 (c : Dev nD) (t : Fin cfg10.N) : (dat V c).after 1 t = blk V c 1 t := by dsimp only [dat]
theorem after2 (c : Dev nD) (t : Fin cfg10.N) : (dat V c).after 2 t = blk V c 2 t := by dsimp only [dat]
theorem after3 (c : Dev nD) (t : Fin cfg10.N) : (dat V c).after 3 t = blk V c 3 t := by dsimp only [dat]
theorem after4 (c : Dev nD) (t : Fin cfg10.N) : (dat V c).after 4 t = blk V c 4 t := by dsimp only [dat]
theorem after5 (c : Dev nD) (t : Fin cfg10.N) :
    (dat V c).after 5 t = outBlock (blk V c 0 t) (blk V c 1 t) (blk V c 2 t) (blk V c 3 t) (blk V c 4 t) := by dsimp only [dat]

theorem before0 (c : Dev nD) (t : Fin cfg10.N) (d) : (dat V c).before 0 t d = blk V c 0 t :=
  before0_of V (dat V c) (dat_A V c 0) (after0 V c) t d
theorem before1 (c : Dev nD) (t : Fin cfg10.N) (d) : (dat V c).before 1 t d = blk V c 1 t :=
  before1_of V (dat V c) (dat_A V c 1) (after1 V c) t d
theorem before2 (c : Dev nD) (t : Fin cfg10.N) (d) : (dat V c).before 2 t d = blk V c 2 t :=
  before2_of V (dat V c) (dat_A V c 2) (after2 V c) t d
theorem before3 (c : Dev nD) (t : Fin cfg10.N) (d) : (dat V c).before 3 t d = blk V c 3 t :=
  before3_of V (dat V c) (dat_A V c 3) (after3 V c) t d
theorem before4 (c : Dev nD) (t : Fin cfg10.N) (d) : (dat V c).before 4 t d = blk V c 4 t :=
  before4_of V (dat V c) (dat_A V c 4) (after4 V c) t d

/-! ## The body obligation -/

/-- What the body is called with at point `t`. -/
def bodyPre (c : Dev nD) (t : Fin cfg10.N) : sProp 𝕄 :=
  iprop((dat V c).Φ t.castSucc ∗ (dat V c).owesAt () t.castSucc
    ∗ (∃ d, owns (c : Thread nD τ) (st10_0 t) fullShare ((dat V c).before 0 t d))
    ∗ (∃ d, owns (c : Thread nD τ) (st10_1 t) fullShare ((dat V c).before 1 t d))
    ∗ (∃ d, owns (c : Thread nD τ) (st10_2 t) fullShare ((dat V c).before 2 t d))
    ∗ (∃ d, owns (c : Thread nD τ) (st10_3 t) fullShare ((dat V c).before 3 t d))
    ∗ (∃ d, owns (c : Thread nD τ) (st10_4 t) fullShare ((dat V c).before 4 t d))
    ∗ (∃ d, owns (c : Thread nD τ) (st10_5 t) fullShare ((dat V c).before 5 t d)))

/-- What it returns. -/
def bodyPost (c : Dev nD) (t : Fin cfg10.N) : sProp 𝕄 :=
  iprop((dat V c).Φ t.succ ∗ (dat V c).owesAt () t.succ
    ∗ owns (c : Thread nD τ) (st10_0 t) fullShare ((dat V c).after 0 t)
    ∗ owns (c : Thread nD τ) (st10_1 t) fullShare ((dat V c).after 1 t)
    ∗ owns (c : Thread nD τ) (st10_2 t) fullShare ((dat V c).after 2 t)
    ∗ owns (c : Thread nD τ) (st10_3 t) fullShare ((dat V c).after 3 t)
    ∗ owns (c : Thread nD τ) (st10_4 t) fullShare ((dat V c).after 4 t)
    ∗ owns (c : Thread nD τ) (st10_5 t) fullShare ((dat V c).after 5 t))

/-- The body at any point: the inputs' buffers hold their blocks, so `body_runs` applies; the invariant and the core's
    dues pass through unread. -/
theorem sound_body (c : Dev nD) (t : Fin cfg10.N) :
    bodyPre V c t ⊢ wp frame (wpE (defs₀ (F := F)) Variants.none c none) Set.univ (bodyAt10 t) (fun _ => bodyPost V c t) := by
  unfold bodyPre bodyPost bodyAt10
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs (grid10.coords t) c Set.univ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation (c : Dev nD) : BodyObligation (dat (F := F) V c) (defs₀ (F := F)) Variants.none () Set.univ := fun t => by
  rw [bigSep_W10, bigSep_W10]
  exact sound_body V c t

end Cert.KernelIdeal.Output10

end
-- ==== Proof.IdealWholeFold.lean ====
/-
  The contents of the core's buffers at the boundary of each step of the program: at launch, after the opening host
  operations (the casts, transposes and reshapes of the arguments), and after each of the eleven kernel regions — a
  message region or the output region leaves its result arrays at what its grid points wrote back and everything
  else as it found it; a gated-update region changes only its new-state array.
-/
import proofs.«121501_j55087250538634_2_alg».proof.Proof.IdealMessages0
import proofs.«121501_j55087250538634_2_alg».proof.Proof.IdealGated1Body
import proofs.«121501_j55087250538634_2_alg».proof.Proof.IdealGated1Arrays
import proofs.«121501_j55087250538634_2_alg».proof.Proof.IdealMessages2
import proofs.«121501_j55087250538634_2_alg».proof.Proof.IdealGated3Body
import proofs.«121501_j55087250538634_2_alg».proof.Proof.IdealGated3Arrays
import proofs.«121501_j55087250538634_2_alg».proof.Proof.IdealMessages4
import proofs.«121501_j55087250538634_2_alg».proof.Proof.IdealGated5Body
import proofs.«121501_j55087250538634_2_alg».proof.Proof.IdealGated5Arrays
import proofs.«121501_j55087250538634_2_alg».proof.Proof.IdealMessages6
import proofs.«121501_j55087250538634_2_alg».proof.Proof.IdealGated7Body
import proofs.«121501_j55087250538634_2_alg».proof.Proof.IdealGated7Arrays
import proofs.«121501_j55087250538634_2_alg».proof.Proof.IdealMessages8
import proofs.«121501_j55087250538634_2_alg».proof.Proof.IdealGated9Body
import proofs.«121501_j55087250538634_2_alg».proof.Proof.IdealGated9Arrays
import proofs.«121501_j55087250538634_2_alg».proof.Proof.IdealOutput10

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the opening host operations: what region 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the pipeline leaves, every other buffer as entered. -/
def W2 (c : Dev nD) : Valuation τ sig (Elt F) :=
  Pipeline.withArrays spec0 c (W1 m ρ c) fun w => (Messages0.dat (V1 m ρ) c).arrAt w cfg0.N
theorem W2_arr (c : Dev nD) (w : Fin cfg0.W) :
    W2 m ρ c (Proc.devRef .tc (Pipeline.arrRef spec0 w)) = (Messages0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0 (c : Dev nD) (w : Fin cfg0.W) : (Messages0.dat (V1 m ρ) c).arrAt w cfg0.N = V2 m ρ c (Pipeline.arrRef spec0 w) :=
  (W2_arr m ρ c w).symm
theorem rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: the new node state in `main_v24`, every other buffer as entered. -/
def W3 (c : Dev nD) : Valuation τ sig (Elt F) :=
  Function.update (W2 m ρ c) (Proc.devRef .tc main_v24) ((Gated1.dat (V2 m ρ) c).arrAt 11 cfg1.N)
theorem W3_out (c : Dev nD) : W3 m ρ c (Proc.devRef .tc main_v24) = (Gated1.dat (V2 m ρ) c).arrAt 11 cfg1.N := by
  unfold W3; exact Function.update_self ..
theorem W3_of_ne (c : Dev nD) (b : Ref sig .tc) (hb : b ≠ main_v24) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
theorem exit1_w0 (c : Dev nD) : (Gated1.dat (V2 m ρ) c).arrAt 0 cfg1.N = V3 m ρ c (Pipeline.arrRef spec1 0) :=
  (((Gated1.dat (V2 m ρ) c).arrAt_in 0 rfl _).trans (Gated1.dat_A (V2 m ρ) c 0)).trans (W3_of_ne m ρ c main_v1 (by decide)).symm
theorem exit1_w1 (c : Dev nD) : (Gated1.dat (V2 m ρ) c).arrAt 1 cfg1.N = V3 m ρ c (Pipeline.arrRef spec1 1) :=
  (((Gated1.dat (V2 m ρ) c).arrAt_in 1 rfl _).trans (Gated1.dat_A (V2 m ρ) c 1)).trans (W3_of_ne m ρ c main_v1 (by decide)).symm
theorem exit1_w2 (c : Dev nD) : (Gated1.dat (V2 m ρ) c).arrAt 2 cfg1.N = V3 m ρ c (Pipeline.arrRef spec1 2) :=
  (((Gated1.dat (V2 m ρ) c).arrAt_in 2 rfl _).trans (Gated1.dat_A (V2 m ρ) c 2)).trans (W3_of_ne m ρ c main_v23_0 (by decide)).symm
theorem exit1_w3 (c : Dev nD) : (Gated1.dat (V2 m ρ) c).arrAt 3 cfg1.N = V3 m ρ c (Pipeline.arrRef spec1 3) :=
  (((Gated1.dat (V2 m ρ) c).arrAt_in 3 rfl _).trans (Gated1.dat_A (V2 m ρ) c 3)).trans (W3_of_ne m ρ c main_v23_1 (by decide)).symm
theorem exit1_w4 (c : Dev nD) : (Gated1.dat (V2 m ρ) c).arrAt 4 cfg1.N = V3 m ρ c (Pipeline.arrRef spec1 4) :=
  (((Gated1.dat (V2 m ρ) c).arrAt_in 4 rfl _).trans (Gated1.dat_A (V2 m ρ) c 4)).trans (W3_of_ne m ρ c main_arg0 (by decide)).symm
theorem exit1_w5 (c : Dev nD) : (Gated1.dat (V2 m ρ) c).arrAt 5 cfg1.N = V3 m ρ c (Pipeline.arrRef spec1 5) :=
  (((Gated1.dat (V2 m ρ) c).arrAt_in 5 rfl _).trans (Gated1.dat_A (V2 m ρ) c 5)).trans (W3_of_ne m ρ c main_v7 (by decide)).symm
theorem exit1_w6 (c : Dev nD) : (Gated1.dat (V2 m ρ) c).arrAt 6 cfg1.N = V3 m ρ c (Pipeline.arrRef spec1 6) :=
  (((Gated1.dat (V2 m ρ) c).arrAt_in 6 rfl _).trans (Gated1.dat_A (V2 m ρ) c 6)).trans (W3_of_ne m ρ c main_v18 (by decide)).symm
theorem exit1_w7 (c : Dev nD) : (Gated1.dat (V2 m ρ) c).arrAt 7 cfg1.N = V3 m ρ c (Pipeline.arrRef spec1 7) :=
  (((Gated1.dat (V2 m ρ) c).arrAt_in 7 rfl _).trans (Gated1.dat_A (V2 m ρ) c 7)).trans (W3_of_ne m ρ c main_v9 (by decide)).symm
theorem exit1_w8 (c : Dev nD) : (Gated1.dat (V2 m ρ) c).arrAt 8 cfg1.N = V3 m ρ c (Pipeline.arrRef spec1 8) :=
  (((Gated1.dat (V2 m ρ) c).arrAt_in 8 rfl _).trans (Gated1.dat_A (V2 m ρ) c 8)).trans (W3_of_ne m ρ c main_v19 (by decide)).symm
theorem exit1_w9 (c : Dev nD) : (Gated1.dat (V2 m ρ) c).arrAt 9 cfg1.N = V3 m ρ c (Pipeline.arrRef spec1 9) :=
  (((Gated1.dat (V2 m ρ) c).arrAt_in 9 rfl _).trans (Gated1.dat_A (V2 m ρ) c 9)).trans (W3_of_ne m ρ c main_v11 (by decide)).symm
theorem exit1_w10 (c : Dev nD) : (Gated1.dat (V2 m ρ) c).arrAt 10 cfg1.N = V3 m ρ c (Pipeline.arrRef spec1 10) :=
  (((Gated1.dat (V2 m ρ) c).arrAt_in 10 rfl _).trans (Gated1.dat_A (V2 m ρ) c 10)).trans (W3_of_ne m ρ c main_v20 (by decide)).symm
theorem exit1_w11 (c : Dev nD) : (Gated1.dat (V2 m ρ) c).arrAt 11 cfg1.N = V3 m ρ c (Pipeline.arrRef spec1 11) := (W3_out m ρ c).symm
theorem exit1 (c : Dev nD) : ∀ w : Fin cfg1.W, (Gated1.dat (V2 m ρ) c).arrAt w cfg1.N = V3 m ρ c (Pipeline.arrRef spec1 w) := fun
  | 0 => exit1_w0 m ρ c
  | 1 => exit1_w1 m ρ c
  | 2 => exit1_w2 m ρ c
  | 3 => exit1_w3 m ρ c
  | 4 => exit1_w4 m ρ c
  | 5 => exit1_w5 m ρ c
  | 6 => exit1_w6 m ρ c
  | 7 => exit1_w7 m ρ c
  | 8 => exit1_w8 m ρ c
  | 9 => exit1_w9 m ρ c
  | 10 => exit1_w10 m ρ c
  | 11 => exit1_w11 m ρ c
  | ⟨_ + 12, h⟩ => absurd h (Nat.not_lt.2 (Nat.le_add_left _ _))
theorem rest1 (c : Dev nD) : ∀ b, b ∉ Finset.univ.image (Pipeline.arrRef spec1) → V3 m ρ c b = V2 m ρ c b :=
  fun b hb => W3_of_ne m ρ c b fun e => hb (Finset.mem_image.mpr ⟨11, Finset.mem_univ _, e.symm⟩)

/-- After region 2: its arrays at what the pipeline leaves, every other buffer as entered. -/
def W4 (c : Dev nD) : Valuation τ sig (Elt F) :=
  Pipeline.withArrays spec2 c (W3 m ρ c) fun w => (Messages2.dat (V3 m ρ) c).arrAt w cfg2.N
theorem W4_arr (c : Dev nD) (w : Fin cfg2.W) :
    W4 m ρ c (Proc.devRef .tc (Pipeline.arrRef spec2 w)) = (Messages2.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem exit2 (c : Dev nD) (w : Fin cfg2.W) : (Messages2.dat (V3 m ρ) c).arrAt w cfg2.N = V4 m ρ c (Pipeline.arrRef spec2 w) :=
  (W4_arr m ρ c w).symm
theorem rest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After region 3: the new node state in `main_v26`, every other buffer as entered. -/
def W5 (c : Dev nD) : Valuation τ sig (Elt F) :=
  Function.update (W4 m ρ c) (Proc.devRef .tc main_v26) ((Gated3.dat (V4 m ρ) c).arrAt 11 cfg3.N)
theorem W5_out (c : Dev nD) : W5 m ρ c (Proc.devRef .tc main_v26) = (Gated3.dat (V4 m ρ) c).arrAt 11 cfg3.N := by
  unfold W5; exact Function.update_self ..
theorem W5_of_ne (c : Dev nD) (b : Ref sig .tc) (hb : b ≠ main_v26) :
    W5 m ρ c (Proc.devRef .tc b) = W4 m ρ c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m ρ c b
theorem exit3_w0 (c : Dev nD) : (Gated3.dat (V4 m ρ) c).arrAt 0 cfg3.N = V5 m ρ c (Pipeline.arrRef spec3 0) :=
  (((Gated3.dat (V4 m ρ) c).arrAt_in 0 rfl _).trans (Gated3.dat_A (V4 m ρ) c 0)).trans (W5_of_ne m ρ c main_v1 (by decide)).symm
theorem exit3_w1 (c : Dev nD) : (Gated3.dat (V4 m ρ) c).arrAt 1 cfg3.N = V5 m ρ c (Pipeline.arrRef spec3 1) :=
  (((Gated3.dat (V4 m ρ) c).arrAt_in 1 rfl _).trans (Gated3.dat_A (V4 m ρ) c 1)).trans (W5_of_ne m ρ c main_v1 (by decide)).symm
theorem exit3_w2 (c : Dev nD) : (Gated3.dat (V4 m ρ) c).arrAt 2 cfg3.N = V5 m ρ c (Pipeline.arrRef spec3 2) :=
  (((Gated3.dat (V4 m ρ) c).arrAt_in 2 rfl _).trans (Gated3.dat_A (V4 m ρ) c 2)).trans (W5_of_ne m ρ c main_v25_0 (by decide)).symm
theorem exit3_w3 (c : Dev nD) : (Gated3.dat (V4 m ρ) c).arrAt 3 cfg3.N = V5 m ρ c (Pipeline.arrRef spec3 3) :=
  (((Gated3.dat (V4 m ρ) c).arrAt_in 3 rfl _).trans (Gated3.dat_A (V4 m ρ) c 3)).trans (W5_of_ne m ρ c main_v25_1 (by decide)).symm
theorem exit3_w4 (c : Dev nD) : (Gated3.dat (V4 m ρ) c).arrAt 4 cfg3.N = V5 m ρ c (Pipeline.arrRef spec3 4) :=
  (((Gated3.dat (V4 m ρ) c).arrAt_in 4 rfl _).trans (Gated3.dat_A (V4 m ρ) c 4)).trans (W5_of_ne m ρ c main_v24 (by decide)).symm
theorem exit3_w5 (c : Dev nD) : (Gated3.dat (V4 m ρ) c).arrAt 5 cfg3.N = V5 m ρ c (Pipeline.arrRef spec3 5) :=
  (((Gated3.dat (V4 m ρ) c).arrAt_in 5 rfl _).trans (Gated3.dat_A (V4 m ρ) c 5)).trans (W5_of_ne m ρ c main_v7 (by decide)).symm
theorem exit3_w6 (c : Dev nD) : (Gated3.dat (V4 m ρ) c).arrAt 6 cfg3.N = V5 m ρ c (Pipeline.arrRef spec3 6) :=
  (((Gated3.dat (V4 m ρ) c).arrAt_in 6 rfl _).trans (Gated3.dat_A (V4 m ρ) c 6)).trans (W5_of_ne m ρ c main_v18 (by decide)).symm
theorem exit3_w7 (c : Dev nD) : (Gated3.dat (V4 m ρ) c).arrAt 7 cfg3.N = V5 m ρ c (Pipeline.arrRef spec3 7) :=
  (((Gated3.dat (V4 m ρ) c).arrAt_in 7 rfl _).trans (Gated3.dat_A (V4 m ρ) c 7)).trans (W5_of_ne m ρ c main_v9 (by decide)).symm
theorem exit3_w8 (c : Dev nD) : (Gated3.dat (V4 m ρ) c).arrAt 8 cfg3.N = V5 m ρ c (Pipeline.arrRef spec3 8) :=
  (((Gated3.dat (V4 m ρ) c).arrAt_in 8 rfl _).trans (Gated3.dat_A (V4 m ρ) c 8)).trans (W5_of_ne m ρ c main_v19 (by decide)).symm
theorem exit3_w9 (c : Dev nD) : (Gated3.dat (V4 m ρ) c).arrAt 9 cfg3.N = V5 m ρ c (Pipeline.arrRef spec3 9) :=
  (((Gated3.dat (V4 m ρ) c).arrAt_in 9 rfl _).trans (Gated3.dat_A (V4 m ρ) c 9)).trans (W5_of_ne m ρ c main_v11 (by decide)).symm
theorem exit3_w10 (c : Dev nD) : (Gated3.dat (V4 m ρ) c).arrAt 10 cfg3.N = V5 m ρ c (Pipeline.arrRef spec3 10) :=
  (((Gated3.dat (V4 m ρ) c).arrAt_in 10 rfl _).trans (Gated3.dat_A (V4 m ρ) c 10)).trans (W5_of_ne m ρ c main_v20 (by decide)).symm
theorem exit3_w11 (c : Dev nD) : (Gated3.dat (V4 m ρ) c).arrAt 11 cfg3.N = V5 m ρ c (Pipeline.arrRef spec3 11) := (W5_out m ρ c).symm
theorem exit3 (c : Dev nD) : ∀ w : Fin cfg3.W, (Gated3.dat (V4 m ρ) c).arrAt w cfg3.N = V5 m ρ c (Pipeline.arrRef spec3 w) := fun
  | 0 => exit3_w0 m ρ c
  | 1 => exit3_w1 m ρ c
  | 2 => exit3_w2 m ρ c
  | 3 => exit3_w3 m ρ c
  | 4 => exit3_w4 m ρ c
  | 5 => exit3_w5 m ρ c
  | 6 => exit3_w6 m ρ c
  | 7 => exit3_w7 m ρ c
  | 8 => exit3_w8 m ρ c
  | 9 => exit3_w9 m ρ c
  | 10 => exit3_w10 m ρ c
  | 11 => exit3_w11 m ρ c
  | ⟨_ + 12, h⟩ => absurd h (Nat.not_lt.2 (Nat.le_add_left _ _))
theorem rest3 (c : Dev nD) : ∀ b, b ∉ Finset.univ.image (Pipeline.arrRef spec3) → V5 m ρ c b = V4 m ρ c b :=
  fun b hb => W5_of_ne m ρ c b fun e => hb (Finset.mem_image.mpr ⟨11, Finset.mem_univ _, e.symm⟩)

/-- After region 4: its arrays at what the pipeline leaves, every other buffer as entered. -/
def W6 (c : Dev nD) : Valuation τ sig (Elt F) :=
  Pipeline.withArrays spec4 c (W5 m ρ c) fun w => (Messages4.dat (V5 m ρ) c).arrAt w cfg4.N
theorem W6_arr (c : Dev nD) (w : Fin cfg4.W) :
    W6 m ρ c (Proc.devRef .tc (Pipeline.arrRef spec4 w)) = (Messages4.dat (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem exit4 (c : Dev nD) (w : Fin cfg4.W) : (Messages4.dat (V5 m ρ) c).arrAt w cfg4.N = V6 m ρ c (Pipeline.arrRef spec4 w) :=
  (W6_arr m ρ c w).symm
theorem rest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After region 5: the new node state in `main_v28`, every other buffer as entered. -/
def W7 (c : Dev nD) : Valuation τ sig (Elt F) :=
  Function.update (W6 m ρ c) (Proc.devRef .tc main_v28) ((Gated5.dat (V6 m ρ) c).arrAt 11 cfg5.N)
theorem W7_out (c : Dev nD) : W7 m ρ c (Proc.devRef .tc main_v28) = (Gated5.dat (V6 m ρ) c).arrAt 11 cfg5.N := by
  unfold W7; exact Function.update_self ..
theorem W7_of_ne (c : Dev nD) (b : Ref sig .tc) (hb : b ≠ main_v28) :
    W7 m ρ c (Proc.devRef .tc b) = W6 m ρ c (Proc.devRef .tc b) := by
  unfold W7; exact Function.update_of_ne (StableHlo.devRef_ne_of_ne hb) ..
abbrev V7 : (c : Dev nD) → (b : Ref sig .tc) → Buf (Elt F) ((c : Thread nD τ).loc b) := fun c b => W7 m ρ c b
theorem exit5_w0 (c : Dev nD) : (Gated5.dat (V6 m ρ) c).arrAt 0 cfg5.N = V7 m ρ c (Pipeline.arrRef spec5 0) :=
  (((Gated5.dat (V6 m ρ) c).arrAt_in 0 rfl _).trans (Gated5.dat_A (V6 m ρ) c 0)).trans (W7_of_ne m ρ c main_v1 (by decide)).symm
theorem exit5_w1 (c : Dev nD) : (Gated5.dat (V6 m ρ) c).arrAt 1 cfg5.N = V7 m ρ c (Pipeline.arrRef spec5 1) :=
  (((Gated5.dat (V6 m ρ) c).arrAt_in 1 rfl _).trans (Gated5.dat_A (V6 m ρ) c 1)).trans (W7_of_ne m ρ c main_v1 (by decide)).symm
theorem exit5_w2 (c : Dev nD) : (Gated5.dat (V6 m ρ) c).arrAt 2 cfg5.N = V7 m ρ c (Pipeline.arrRef spec5 2) :=
  (((Gated5.dat (V6 m ρ) c).arrAt_in 2 rfl _).trans (Gated5.dat_A (V6 m ρ) c 2)).trans (W7_of_ne m ρ c main_v27_0 (by decide)).symm
theorem exit5_w3 (c : Dev nD) : (Gated5.dat (V6 m ρ) c).arrAt 3 cfg5.N = V7 m ρ c (Pipeline.arrRef spec5 3) :=
  (((Gated5.dat (V6 m ρ) c).arrAt_in 3 rfl _).trans (Gated5.dat_A (V6 m ρ) c 3)).trans (W7_of_ne m ρ c main_v27_1 (by decide)).symm
theorem exit5_w4 (c : Dev nD) : (Gated5.dat (V6 m ρ) c).arrAt 4 cfg5.N = V7 m ρ c (Pipeline.arrRef spec5 4) :=
  (((Gated5.dat (V6 m ρ) c).arrAt_in 4 rfl _).trans (Gated5.dat_A (V6 m ρ) c 4)).trans (W7_of_ne m ρ c main_v26 (by decide)).symm
theorem exit5_w5 (c : Dev nD) : (Gated5.dat (V6 m ρ) c).arrAt 5 cfg5.N = V7 m ρ c (Pipeline.arrRef spec5 5) :=
  (((Gated5.dat (V6 m ρ) c).arrAt_in 5 rfl _).trans (Gated5.dat_A (V6 m ρ) c 5)).trans (W7_of_ne m ρ c main_v7 (by decide)).symm
theorem exit5_w6 (c : Dev nD) : (Gated5.dat (V6 m ρ) c).arrAt 6 cfg5.N = V7 m ρ c (Pipeline.arrRef spec5 6) :=
  (((Gated5.dat (V6 m ρ) c).arrAt_in 6 rfl _).trans (Gated5.dat_A (V6 m ρ) c 6)).trans (W7_of_ne m ρ c main_v18 (by decide)).symm
theorem exit5_w7 (c : Dev nD) : (Gated5.dat (V6 m ρ) c).arrAt 7 cfg5.N = V7 m ρ c (Pipeline.arrRef spec5 7) :=
  (((Gated5.dat (V6 m ρ) c).arrAt_in 7 rfl _).trans (Gated5.dat_A (V6 m ρ) c 7)).trans (W7_of_ne m ρ c main_v9 (by decide)).symm
theorem exit5_w8 (c : Dev nD) : (Gated5.dat (V6 m ρ) c).arrAt 8 cfg5.N = V7 m ρ c (Pipeline.arrRef spec5 8) :=
  (((Gated5.dat (V6 m ρ) c).arrAt_in 8 rfl _).trans (Gated5.dat_A (V6 m ρ) c 8)).trans (W7_of_ne m ρ c main_v19 (by decide)).symm
theorem exit5_w9 (c : Dev nD) : (Gated5.dat (V6 m ρ) c).arrAt 9 cfg5.N = V7 m ρ c (Pipeline.arrRef spec5 9) :=
  (((Gated5.dat (V6 m ρ) c).arrAt_in 9 rfl _).trans (Gated5.dat_A (V6 m ρ) c 9)).trans (W7_of_ne m ρ c main_v11 (by decide)).symm
theorem exit5_w10 (c : Dev nD) : (Gated5.dat (V6 m ρ) c).arrAt 10 cfg5.N = V7 m ρ c (Pipeline.arrRef spec5 10) :=
  (((Gated5.dat (V6 m ρ) c).arrAt_in 10 rfl _).trans (Gated5.dat_A (V6 m ρ) c 10)).trans (W7_of_ne m ρ c main_v20 (by decide)).symm
theorem exit5_w11 (c : Dev nD) : (Gated5.dat (V6 m ρ) c).arrAt 11 cfg5.N = V7 m ρ c (Pipeline.arrRef spec5 11) := (W7_out m ρ c).symm
theorem exit5 (c : Dev nD) : ∀ w : Fin cfg5.W, (Gated5.dat (V6 m ρ) c).arrAt w cfg5.N = V7 m ρ c (Pipeline.arrRef spec5 w) := fun
  | 0 => exit5_w0 m ρ c
  | 1 => exit5_w1 m ρ c
  | 2 => exit5_w2 m ρ c
  | 3 => exit5_w3 m ρ c
  | 4 => exit5_w4 m ρ c
  | 5 => exit5_w5 m ρ c
  | 6 => exit5_w6 m ρ c
  | 7 => exit5_w7 m ρ c
  | 8 => exit5_w8 m ρ c
  | 9 => exit5_w9 m ρ c
  | 10 => exit5_w10 m ρ c
  | 11 => exit5_w11 m ρ c
  | ⟨_ + 12, h⟩ => absurd h (Nat.not_lt.2 (Nat.le_add_left _ _))
theorem rest5 (c : Dev nD) : ∀ b, b ∉ Finset.univ.image (Pipeline.arrRef spec5) → V7 m ρ c b = V6 m ρ c b :=
  fun b hb => W7_of_ne m ρ c b fun e => hb (Finset.mem_image.mpr ⟨11, Finset.mem_univ _, e.symm⟩)

/-- After region 6: its arrays at what the pipeline leaves, every other buffer as entered. -/
def W8 (c : Dev nD) : Valuation τ sig (Elt F) :=
  Pipeline.withArrays spec6 c (W7 m ρ c) fun w => (Messages6.dat (V7 m ρ) c).arrAt w cfg6.N
theorem W8_arr (c : Dev nD) (w : Fin cfg6.W) :
    W8 m ρ c (Proc.devRef .tc (Pipeline.arrRef spec6 w)) = (Messages6.dat (V7 m ρ) c).arrAt w cfg6.N := by
  unfold W8; exact Pipeline.withArrays_arr spec6 launch6.win.arr_inj c _ _ w
theorem W8_of_ne (c : Dev nD) (b : Ref sig .tc) (hb : ∀ w, Pipeline.arrRef spec6 w ≠ b) :
    W8 m ρ c (Proc.devRef .tc b) = W7 m ρ c (Proc.devRef .tc b) := by
  unfold W8; exact Pipeline.withArrays_of_ne spec6 c _ _ b hb
abbrev V8 : (c : Dev nD) → (b : Ref sig .tc) → Buf (Elt F) ((c : Thread nD τ).loc b) := fun c b => W8 m ρ c b
theorem exit6 (c : Dev nD) (w : Fin cfg6.W) : (Messages6.dat (V7 m ρ) c).arrAt w cfg6.N = V8 m ρ c (Pipeline.arrRef spec6 w) :=
  (W8_arr m ρ c w).symm
theorem rest6 (c : Dev nD) : ∀ b, b ∉ Finset.univ.image (Pipeline.arrRef spec6) → V8 m ρ c b = V7 m ρ c b :=
  fun b hb => W8_of_ne m ρ c b fun w e => hb (Finset.mem_image.mpr ⟨w, Finset.mem_univ _, e⟩)

/-- After region 7: the new node state in `main_v30`, every other buffer as entered. -/
def W9 (c : Dev nD) : Valuation τ sig (Elt F) :=
  Function.update (W8 m ρ c) (Proc.devRef .tc main_v30) ((Gated7.dat (V8 m ρ) c).arrAt 11 cfg7.N)
theorem W9_out (c : Dev nD) : W9 m ρ c (Proc.devRef .tc main_v30) = (Gated7.dat (V8 m ρ) c).arrAt 11 cfg7.N := by
  unfold W9; exact Function.update_self ..
theorem W9_of_ne (c : Dev nD) (b : Ref sig .tc) (hb : b ≠ main_v30) :
    W9 m ρ c (Proc.devRef .tc b) = W8 m ρ c (Proc.devRef .tc b) := by
  unfold W9; exact Function.update_of_ne (StableHlo.devRef_ne_of_ne hb) ..
abbrev V9 : (c : Dev nD) → (b : Ref sig .tc) → Buf (Elt F) ((c : Thread nD τ).loc b) := fun c b => W9 m ρ c b
theorem exit7_w0 (c : Dev nD) : (Gated7.dat (V8 m ρ) c).arrAt 0 cfg7.N = V9 m ρ c (Pipeline.arrRef spec7 0) :=
  (((Gated7.dat (V8 m ρ) c).arrAt_in 0 rfl _).trans (Gated7.dat_A (V8 m ρ) c 0)).trans (W9_of_ne m ρ c main_v1 (by decide)).symm
theorem exit7_w1 (c : Dev nD) : (Gated7.dat (V8 m ρ) c).arrAt 1 cfg7.N = V9 m ρ c (Pipeline.arrRef spec7 1) :=
  (((Gated7.dat (V8 m ρ) c).arrAt_in 1 rfl _).trans (Gated7.dat_A (V8 m ρ) c 1)).trans (W9_of_ne m ρ c main_v1 (by decide)).symm
theorem exit7_w2 (c : Dev nD) : (Gated7.dat (V8 m ρ) c).arrAt 2 cfg7.N = V9 m ρ c (Pipeline.arrRef spec7 2) :=
  (((Gated7.dat (V8 m ρ) c).arrAt_in 2 rfl _).trans (Gated7.dat_A (V8 m ρ) c 2)).trans (W9_of_ne m ρ c main_v29_0 (by decide)).symm
theorem exit7_w3 (c : Dev nD) : (Gated7.dat (V8 m ρ) c).arrAt 3 cfg7.N = V9 m ρ c (Pipeline.arrRef spec7 3) :=
  (((Gated7.dat (V8 m ρ) c).arrAt_in 3 rfl _).trans (Gated7.dat_A (V8 m ρ) c 3)).trans (W9_of_ne m ρ c main_v29_1 (by decide)).symm
theorem exit7_w4 (c : Dev nD) : (Gated7.dat (V8 m ρ) c).arrAt 4 cfg7.N = V9 m ρ c (Pipeline.arrRef spec7 4) :=
  (((Gated7.dat (V8 m ρ) c).arrAt_in 4 rfl _).trans (Gated7.dat_A (V8 m ρ) c 4)).trans (W9_of_ne m ρ c main_v28 (by decide)).symm
theorem exit7_w5 (c : Dev nD) : (Gated7.dat (V8 m ρ) c).arrAt 5 cfg7.N = V9 m ρ c (Pipeline.arrRef spec7 5) :=
  (((Gated7.dat (V8 m ρ) c).arrAt_in 5 rfl _).trans (Gated7.dat_A (V8 m ρ) c 5)).trans (W9_of_ne m ρ c main_v7 (by decide)).symm
theorem exit7_w6 (c : Dev nD) : (Gated7.dat (V8 m ρ) c).arrAt 6 cfg7.N = V9 m ρ c (Pipeline.arrRef spec7 6) :=
  (((Gated7.dat (V8 m ρ) c).arrAt_in 6 rfl _).trans (Gated7.dat_A (V8 m ρ) c 6)).trans (W9_of_ne m ρ c main_v18 (by decide)).symm
theorem exit7_w7 (c : Dev nD) : (Gated7.dat (V8 m ρ) c).arrAt 7 cfg7.N = V9 m ρ c (Pipeline.arrRef spec7 7) :=
  (((Gated7.dat (V8 m ρ) c).arrAt_in 7 rfl _).trans (Gated7.dat_A (V8 m ρ) c 7)).trans (W9_of_ne m ρ c main_v9 (by decide)).symm
theorem exit7_w8 (c : Dev nD) : (Gated7.dat (V8 m ρ) c).arrAt 8 cfg7.N = V9 m ρ c (Pipeline.arrRef spec7 8) :=
  (((Gated7.dat (V8 m ρ) c).arrAt_in 8 rfl _).trans (Gated7.dat_A (V8 m ρ) c 8)).trans (W9_of_ne m ρ c main_v19 (by decide)).symm
theorem exit7_w9 (c : Dev nD) : (Gated7.dat (V8 m ρ) c).arrAt 9 cfg7.N = V9 m ρ c (Pipeline.arrRef spec7 9) :=
  (((Gated7.dat (V8 m ρ) c).arrAt_in 9 rfl _).trans (Gated7.dat_A (V8 m ρ) c 9)).trans (W9_of_ne m ρ c main_v11 (by decide)).symm
theorem exit7_w10 (c : Dev nD) : (Gated7.dat (V8 m ρ) c).arrAt 10 cfg7.N = V9 m ρ c (Pipeline.arrRef spec7 10) :=
  (((Gated7.dat (V8 m ρ) c).arrAt_in 10 rfl _).trans (Gated7.dat_A (V8 m ρ) c 10)).trans (W9_of_ne m ρ c main_v20 (by decide)).symm
theorem exit7_w11 (c : Dev nD) : (Gated7.dat (V8 m ρ) c).arrAt 11 cfg7.N = V9 m ρ c (Pipeline.arrRef spec7 11) := (W9_out m ρ c).symm
theorem exit7 (c : Dev nD) : ∀ w : Fin cfg7.W, (Gated7.dat (V8 m ρ) c).arrAt w cfg7.N = V9 m ρ c (Pipeline.arrRef spec7 w) := fun
  | 0 => exit7_w0 m ρ c
  | 1 => exit7_w1 m ρ c
  | 2 => exit7_w2 m ρ c
  | 3 => exit7_w3 m ρ c
  | 4 => exit7_w4 m ρ c
  | 5 => exit7_w5 m ρ c
  | 6 => exit7_w6 m ρ c
  | 7 => exit7_w7 m ρ c
  | 8 => exit7_w8 m ρ c
  | 9 => exit7_w9 m ρ c
  | 10 => exit7_w10 m ρ c
  | 11 => exit7_w11 m ρ c
  | ⟨_ + 12, h⟩ => absurd h (Nat.not_lt.2 (Nat.le_add_left _ _))
theorem rest7 (c : Dev nD) : ∀ b, b ∉ Finset.univ.image (Pipeline.arrRef spec7) → V9 m ρ c b = V8 m ρ c b :=
  fun b hb => W9_of_ne m ρ c b fun e => hb (Finset.mem_image.mpr ⟨11, Finset.mem_univ _, e.symm⟩)

/-- After region 8: its arrays at what the pipeline leaves, every other buffer as entered. -/
def W10 (c : Dev nD) : Valuation τ sig (Elt F) :=
  Pipeline.withArrays spec8 c (W9 m ρ c) fun w => (Messages8.dat (V9 m ρ) c).arrAt w cfg8.N
theorem W10_arr (c : Dev nD) (w : Fin cfg8.W) :
    W10 m ρ c (Proc.devRef .tc (Pipeline.arrRef spec8 w)) = (Messages8.dat (V9 m ρ) c).arrAt w cfg8.N := by
  unfold W10; exact Pipeline.withArrays_arr spec8 launch8.win.arr_inj c _ _ w
theorem W10_of_ne (c : Dev nD) (b : Ref sig .tc) (hb : ∀ w, Pipeline.arrRef spec8 w ≠ b) :
    W10 m ρ c (Proc.devRef .tc b) = W9 m ρ c (Proc.devRef .tc b) := by
  unfold W10; exact Pipeline.withArrays_of_ne spec8 c _ _ b hb
abbrev V10 : (c : Dev nD) → (b : Ref sig .tc) → Buf (Elt F) ((c : Thread nD τ).loc b) := fun c b => W10 m ρ c b
theorem exit8 (c : Dev nD) (w : Fin cfg8.W) : (Messages8.dat (V9 m ρ) c).arrAt w cfg8.N = V10 m ρ c (Pipeline.arrRef spec8 w) :=
  (W10_arr m ρ c w).symm
theorem rest8 (c : Dev nD) : ∀ b, b ∉ Finset.univ.image (Pipeline.arrRef spec8) → V10 m ρ c b = V9 m ρ c b :=
  fun b hb => W10_of_ne m ρ c b fun w e => hb (Finset.mem_image.mpr ⟨w, Finset.mem_univ _, e⟩)

/-- After region 9: the new node state in `main_v32`, every other buffer as entered. -/
def W11 (c : Dev nD) : Valuation τ sig (Elt F) :=
  Function.update (W10 m ρ c) (Proc.devRef .tc main_v32) ((Gated9.dat (V10 m ρ) c).arrAt 11 cfg9.N)
theorem W11_out (c : Dev nD) : W11 m ρ c (Proc.devRef .tc main_v32) = (Gated9.dat (V10 m ρ) c).arrAt 11 cfg9.N := by
  unfold W11; exact Function.update_self ..
theorem W11_of_ne (c : Dev nD) (b : Ref sig .tc) (hb : b ≠ main_v32) :
    W11 m ρ c (Proc.devRef .tc b) = W10 m ρ c (Proc.devRef .tc b) := by
  unfold W11; exact Function.update_of_ne (StableHlo.devRef_ne_of_ne hb) ..
abbrev V11 : (c : Dev nD) → (b : Ref sig .tc) → Buf (Elt F) ((c : Thread nD τ).loc b) := fun c b => W11 m ρ c b
theorem exit9_w0 (c : Dev nD) : (Gated9.dat (V10 m ρ) c).arrAt 0 cfg9.N = V11 m ρ c (Pipeline.arrRef spec9 0) :=
  (((Gated9.dat (V10 m ρ) c).arrAt_in 0 rfl _).trans (Gated9.dat_A (V10 m ρ) c 0)).trans (W11_of_ne m ρ c main_v1 (by decide)).symm
theorem exit9_w1 (c : Dev nD) : (Gated9.dat (V10 m ρ) c).arrAt 1 cfg9.N = V11 m ρ c (Pipeline.arrRef spec9 1) :=
  (((Gated9.dat (V10 m ρ) c).arrAt_in 1 rfl _).trans (Gated9.dat_A (V10 m ρ) c 1)).trans (W11_of_ne m ρ c main_v1 (by decide)).symm
theorem exit9_w2 (c : Dev nD) : (Gated9.dat (V10 m ρ) c).arrAt 2 cfg9.N = V11 m ρ c (Pipeline.arrRef spec9 2) :=
  (((Gated9.dat (V10 m ρ) c).arrAt_in 2 rfl _).trans (Gated9.dat_A (V10 m ρ) c 2)).trans (W11_of_ne m ρ c main_v31_0 (by decide)).symm
theorem exit9_w3 (c : Dev nD) : (Gated9.dat (V10 m ρ) c).arrAt 3 cfg9.N = V11 m ρ c (Pipeline.arrRef spec9 3) :=
  (((Gated9.dat (V10 m ρ) c).arrAt_in 3 rfl _).trans (Gated9.dat_A (V10 m ρ) c 3)).trans (W11_of_ne m ρ c main_v31_1 (by decide)).symm
theorem exit9_w4 (c : Dev nD) : (Gated9.dat (V10 m ρ) c).arrAt 4 cfg9.N = V11 m ρ c (Pipeline.arrRef spec9 4) :=
  (((Gated9.dat (V10 m ρ) c).arrAt_in 4 rfl _).trans (Gated9.dat_A (V10 m ρ) c 4)).trans (W11_of_ne m ρ c main_v30 (by decide)).symm
theorem exit9_w5 (c : Dev nD) : (Gated9.dat (V10 m ρ) c).arrAt 5 cfg9.N = V11 m ρ c (Pipeline.arrRef spec9 5) :=
  (((Gated9.dat (V10 m ρ) c).arrAt_in 5 rfl _).trans (Gated9.dat_A (V10 m ρ) c 5)).trans (W11_of_ne m ρ c main_v7 (by decide)).symm
theorem exit9_w6 (c : Dev nD) : (Gated9.dat (V10 m ρ) c).arrAt 6 cfg9.N = V11 m ρ c (Pipeline.arrRef spec9 6) :=
  (((Gated9.dat (V10 m ρ) c).arrAt_in 6 rfl _).trans (Gated9.dat_A (V10 m ρ) c 6)).trans (W11_of_ne m ρ c main_v18 (by decide)).symm
theorem exit9_w7 (c : Dev nD) : (Gated9.dat (V10 m ρ) c).arrAt 7 cfg9.N = V11 m ρ c (Pipeline.arrRef spec9 7) :=
  (((Gated9.dat (V10 m ρ) c).arrAt_in 7 rfl _).trans (Gated9.dat_A (V10 m ρ) c 7)).trans (W11_of_ne m ρ c main_v9 (by decide)).symm
theorem exit9_w8 (c : Dev nD) : (Gated9.dat (V10 m ρ) c).arrAt 8 cfg9.N = V11 m ρ c (Pipeline.arrRef spec9 8) :=
  (((Gated9.dat (V10 m ρ) c).arrAt_in 8 rfl _).trans (Gated9.dat_A (V10 m ρ) c 8)).trans (W11_of_ne m ρ c main_v19 (by decide)).symm
theorem exit9_w9 (c : Dev nD) : (Gated9.dat (V10 m ρ) c).arrAt 9 cfg9.N = V11 m ρ c (Pipeline.arrRef spec9 9) :=
  (((Gated9.dat (V10 m ρ) c).arrAt_in 9 rfl _).trans (Gated9.dat_A (V10 m ρ) c 9)).trans (W11_of_ne m ρ c main_v11 (by decide)).symm
theorem exit9_w10 (c : Dev nD) : (Gated9.dat (V10 m ρ) c).arrAt 10 cfg9.N = V11 m ρ c (Pipeline.arrRef spec9 10) :=
  (((Gated9.dat (V10 m ρ) c).arrAt_in 10 rfl _).trans (Gated9.dat_A (V10 m ρ) c 10)).trans (W11_of_ne m ρ c main_v20 (by decide)).symm
theorem exit9_w11 (c : Dev nD) : (Gated9.dat (V10 m ρ) c).arrAt 11 cfg9.N = V11 m ρ c (Pipeline.arrRef spec9 11) := (W11_out m ρ c).symm
theorem exit9 (c : Dev nD) : ∀ w : Fin cfg9.W, (Gated9.dat (V10 m ρ) c).arrAt w cfg9.N = V11 m ρ c (Pipeline.arrRef spec9 w) := fun
  | 0 => exit9_w0 m ρ c
  | 1 => exit9_w1 m ρ c
  | 2 => exit9_w2 m ρ c
  | 3 => exit9_w3 m ρ c
  | 4 => exit9_w4 m ρ c
  | 5 => exit9_w5 m ρ c
  | 6 => exit9_w6 m ρ c
  | 7 => exit9_w7 m ρ c
  | 8 => exit9_w8 m ρ c
  | 9 => exit9_w9 m ρ c
  | 10 => exit9_w10 m ρ c
  | 11 => exit9_w11 m ρ c
  | ⟨_ + 12, h⟩ => absurd h (Nat.not_lt.2 (Nat.le_add_left _ _))
theorem rest9 (c : Dev nD) : ∀ b, b ∉ Finset.univ.image (Pipeline.arrRef spec9) → V11 m ρ c b = V10 m ρ c b :=
  fun b hb => W11_of_ne m ρ c b fun e => hb (Finset.mem_image.mpr ⟨11, Finset.mem_univ _, e.symm⟩)

/-- After region 10: its arrays at what the pipeline leaves, every other buffer as entered. -/
def W12 (c : Dev nD) : Valuation τ sig (Elt F) :=
  Pipeline.withArrays spec10 c (W11 m ρ c) fun w => (Output10.dat (V11 m ρ) c).arrAt w cfg10.N
theorem W12_arr (c : Dev nD) (w : Fin cfg10.W) :
    W12 m ρ c (Proc.devRef .tc (Pipeline.arrRef spec10 w)) = (Output10.dat (V11 m ρ) c).arrAt w cfg10.N := by
  unfold W12; exact Pipeline.withArrays_arr spec10 launch10.win.arr_inj c _ _ w
theorem W12_of_ne (c : Dev nD) (b : Ref sig .tc) (hb : ∀ w, Pipeline.arrRef spec10 w ≠ b) :
    W12 m ρ c (Proc.devRef .tc b) = W11 m ρ c (Proc.devRef .tc b) := by
  unfold W12; exact Pipeline.withArrays_of_ne spec10 c _ _ b hb
abbrev V12 : (c : Dev nD) → (b : Ref sig .tc) → Buf (Elt F) ((c : Thread nD τ).loc b) := fun c b => W12 m ρ c b
theorem exit10 (c : Dev nD) (w : Fin cfg10.W) : (Output10.dat (V11 m ρ) c).arrAt w cfg10.N = V12 m ρ c (Pipeline.arrRef spec10 w) :=
  (W12_arr m ρ c w).symm
theorem rest10 (c : Dev nD) : ∀ b, b ∉ Finset.univ.image (Pipeline.arrRef spec10) → V12 m ρ c b = V11 m ρ c b :=
  fun b hb => W12_of_ne m ρ c b fun w e => hb (Finset.mem_image.mpr ⟨w, Finset.mem_univ _, e⟩)

end Cert.KernelIdeal.Whole

end
-- ==== Proof.IdealWholeRegs.lean ====
/-
  The eleven kernel regions as steps of the program's run, each entered from the buffer contents the step before
  left and left at the next boundary's contents.
-/
import proofs.«121501_j55087250538634_2_alg».proof.Proof.IdealWholeFold

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No region reads a table. -/
abbrev adm : (p : Fin 11) → (pcfgs (F := F) p).Adm := fun p => (cfgs p).toPCfg_adm
/-- Every region's proof data, each at its region's entry contents. -/
def pdats : (p : Fin 11) → (c : Dev nD) → Dat τ (Elt F) Unit ℕ (UR sig nD τ) ℕ (Pipeline.pin (pcfgs (F := F)) adm p) c
  | ⟨0, _⟩ => fun c => Messages0.dat (V1 m ρ) c
  | ⟨1, _⟩ => fun c => Gated1.dat (V2 m ρ) c
  | ⟨2, _⟩ => fun c => Messages2.dat (V3 m ρ) c
  | ⟨3, _⟩ => fun c => Gated3.dat (V4 m ρ) c
  | ⟨4, _⟩ => fun c => Messages4.dat (V5 m ρ) c
  | ⟨5, _⟩ => fun c => Gated5.dat (V6 m ρ) c
  | ⟨6, _⟩ => fun c => Messages6.dat (V7 m ρ) c
  | ⟨7, _⟩ => fun c => Gated7.dat (V8 m ρ) c
  | ⟨8, _⟩ => fun c => Messages8.dat (V9 m ρ) c
  | ⟨9, _⟩ => fun c => Gated9.dat (V10 m ρ) c
  | ⟨10, _⟩ => fun c => Output10.dat (V11 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every step: the generator register at some state, nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state "every unscoped buffer at the boundary's contents, the generator register at some
    state, nothing owed": its arrays are split out of the unscoped buffers at entry and put back at the exit contents;
    the generator register goes into the region's invariant and comes back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Messages0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers at entry and put back at the exit contents;
    the generator register goes into the region's invariant and comes back; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Messages2.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (exit2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state "every unscoped buffer at the boundary's contents, the generator register at some
    state, nothing owed": its arrays are split out of the unscoped buffers at entry and put back at the exit contents;
    the generator register goes into the region's invariant and comes back; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Messages4.body_obligation (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (exit4 m ρ c) (rest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state "every unscoped buffer at the boundary's contents, the generator register at some
    state, nothing owed": its arrays are split out of the unscoped buffers at entry and put back at the exit contents;
    the generator register goes into the region's invariant and comes back; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (Messages6.body_obligation (V7 m ρ) c).loose
  hwaits := Pipeline.hwaits_of_owed_zero _ _ _ _ L lv 6 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec6 c (V7 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V7 m ρ c) (V8 m ρ c) ((pdats m ρ 6 c).arrAt · cfg6.N) (exit6 m ρ c) (rest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state "every unscoped buffer at the boundary's contents, the generator register at some
    state, nothing owed": its arrays are split out of the unscoped buffers at entry and put back at the exit contents;
    the generator register goes into the region's invariant and comes back; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (Messages8.body_obligation (V9 m ρ) c).loose
  hwaits := Pipeline.hwaits_of_owed_zero _ _ _ _ L lv 8 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec8 c (V9 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V9 m ρ c) (V10 m ρ c) ((pdats m ρ 8 c).arrAt · cfg8.N) (exit8 m ρ c) (rest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state "every unscoped buffer at the boundary's contents, the generator register at some
    state, nothing owed": its arrays are split out of the unscoped buffers at entry and put back at the exit contents;
    the generator register goes into the region's invariant and comes back; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (Output10.body_obligation (V11 m ρ) c).loose
  hwaits := Pipeline.hwaits_of_owed_zero _ _ _ _ L lv 10 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec10 c (V11 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V11 m ρ c) (V12 m ρ c) ((pdats m ρ 10 c).arrAt · cfg10.N) (exit10 m ρ c) (rest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (a gated update) over the same thread state. The adjacency array's buffer is shared by two of its
    windows: at entry its read permission is halved between them, at exit the halves are joined; only the new-state
    array changes. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Gated1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V2 m ρ c)) := by
      rw [← Pipeline.unscopedBufs_held]
      exact Gated1.enter_arrays (V2 m ρ) c (V2 m ρ c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄)
        ⊢ iprop((∃ r, prngReg c r) ∗ (BI.emp : sProp 𝕄)
          ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (Gated1.leave (V2 m ρ) c).trans h
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := by
      rw [← Pipeline.unscopedBufs_held]
      exact Gated1.leave_arrays (V2 m ρ) c (V2 m ρ c) (V3 m ρ c) ((pdats m ρ 1 c).arrAt · cfg1.N) (exit1 m ρ c) (rest1 m ρ c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 3 (a gated update) over the same thread state. The adjacency array's buffer is shared by two of its
    windows: at entry its read permission is halved between them, at exit the halves are joined; only the new-state
    array changes. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (Gated3.body_obligation (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit : (StableHlo.held (c : Thread nD τ) (Pipeline.ucRefs τ sig) (W4 m ρ c) : sProp 𝕄)
        ⊢ iprop((pdats m ρ 3 c).arrays ((pdats m ρ 3 c).arrAt · 0)
          ∗ Pipeline.unscopedRest (Ix := Unit) (Name := ℕ) (U := UR sig nD τ) (Lvl := ℕ) spec3 c (V4 m ρ c)) := by
      rw [← Pipeline.unscopedBufs_held]
      exact Gated3.enter_arrays (V4 m ρ) c (V4 m ρ c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    have h : (Pipeline.ΦA spec3 c : sProp 𝕄)
        ⊢ iprop((∃ r, prngReg c r) ∗ (BI.emp : sProp 𝕄)
          ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (Gated3.leave (V4 m ρ) c).trans h
  hexit c := by
    have hjoin : iprop((pdats m ρ 3 c).arrays ((pdats m ρ 3 c).arrAt · cfg3.N)
          ∗ Pipeline.unscopedRest (Ix := Unit) (Name := ℕ) (U := UR sig nD τ) (Lvl := ℕ) spec3 c (V4 m ρ c))
        ⊢ (StableHlo.held (c : Thread nD τ) (Pipeline.ucRefs τ sig) (W5 m ρ c) : sProp 𝕄) := by
      rw [← Pipeline.unscopedBufs_held]
      exact Gated3.leave_arrays (V4 m ρ) c (V4 m ρ c) (V5 m ρ c) ((pdats m ρ 3 c).arrAt · cfg3.N) (exit3 m ρ c) (rest3 m ρ c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 5 (a gated update) over the same thread state. The adjacency array's buffer is shared by two of its
    windows: at entry its read permission is halved between them, at exit the halves are joined; only the new-state
    array changes. -/
def reg5 : Pipeline.RegionSeg (pcfgs (F := F)) adm (pdats m ρ) () defs₀ 𝒱₀ L lv 5 where
  win := winFacts₀5
  block_pos := block_pos5
  stage_whole := stage_whole5
  K := PEmpty
  osem k := k.elim
  ho := Pipeline.OwnSemFacts.none _
  hbody c := (Gated5.body_obligation (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec5 c (V6 m ρ c)
  hentry c := by
    rw [Pipeline.ownSems0_none]
    have hsplit : (StableHlo.held (c : Thread nD τ) (Pipeline.ucRefs τ sig) (W6 m ρ c) : sProp 𝕄)
        ⊢ iprop((pdats m ρ 5 c).arrays ((pdats m ρ 5 c).arrAt · 0)
          ∗ Pipeline.unscopedRest (Ix := Unit) (Name := ℕ) (U := UR sig nD τ) (Lvl := ℕ) spec5 c (V6 m ρ c)) := by
      rw [← Pipeline.unscopedBufs_held]
      exact Gated5.enter_arrays (V6 m ρ) c (V6 m ρ c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    have h : (Pipeline.ΦA spec5 c : sProp 𝕄)
        ⊢ iprop((∃ r, prngReg c r) ∗ (BI.emp : sProp 𝕄)
          ∗ Pipeline.scopedRest (Ix := Unit) (Name := ℕ) (U := UR sig nD τ) (Lvl := ℕ) (Val := Elt F) spec5 c) := by
      unfold Pipeline.ΦA
      iintro ⟨Hr, Hp⟩
      isplitl [Hp]; · iexact Hp
      isplitr; · iempintro
      iexact Hr
    exact (Gated5.leave (V6 m ρ) c).trans h
  hexit c := by
    have hjoin : iprop((pdats m ρ 5 c).arrays ((pdats m ρ 5 c).arrAt · cfg5.N)
          ∗ Pipeline.unscopedRest (Ix := Unit) (Name := ℕ) (U := UR sig nD τ) (Lvl := ℕ) spec5 c (V6 m ρ c))
        ⊢ (StableHlo.held (c : Thread nD τ) (Pipeline.ucRefs τ sig) (W7 m ρ c) : sProp 𝕄) := by
      rw [← Pipeline.unscopedBufs_held]
      exact Gated5.leave_arrays (V6 m ρ) c (V6 m ρ c) (V7 m ρ c) ((pdats m ρ 5 c).arrAt · cfg5.N) (exit5 m ρ c) (rest5 m ρ c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 7 (a gated update) over the same thread state. The adjacency array's buffer is shared by two of its
    windows: at entry its read permission is halved between them, at exit the halves are joined; only the new-state
    array changes. -/
def reg7 : Pipeline.RegionSeg (pcfgs (F := F)) adm (pdats m ρ) () defs₀ 𝒱₀ L lv 7 where
  win := winFacts₀7
  block_pos := block_pos7
  stage_whole := stage_whole7
  K := PEmpty
  osem k := k.elim
  ho := Pipeline.OwnSemFacts.none _
  hbody c := (Gated7.body_obligation (V8 m ρ) c).loose
  hwaits := Pipeline.hwaits_of_owed_zero _ _ _ _ L lv 7 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec7 c (V8 m ρ c)
  hentry c := by
    rw [Pipeline.ownSems0_none]
    have hsplit : (StableHlo.held (c : Thread nD τ) (Pipeline.ucRefs τ sig) (W8 m ρ c) : sProp 𝕄)
        ⊢ iprop((pdats m ρ 7 c).arrays ((pdats m ρ 7 c).arrAt · 0)
          ∗ Pipeline.unscopedRest (Ix := Unit) (Name := ℕ) (U := UR sig nD τ) (Lvl := ℕ) spec7 c (V8 m ρ c)) := by
      rw [← Pipeline.unscopedBufs_held]
      exact Gated7.enter_arrays (V8 m ρ) c (V8 m ρ c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none]
    have h : (Pipeline.ΦA spec7 c : sProp 𝕄)
        ⊢ iprop((∃ r, prngReg c r) ∗ (BI.emp : sProp 𝕄)
          ∗ Pipeline.scopedRest (Ix := Unit) (Name := ℕ) (U := UR sig nD τ) (Lvl := ℕ) (Val := Elt F) spec7 c) := by
      unfold Pipeline.ΦA
      iintro ⟨Hr, Hp⟩
      isplitl [Hp]; · iexact Hp
      isplitr; · iempintro
      iexact Hr
    exact (Gated7.leave (V8 m ρ) c).trans h
  hexit c := by
    have hjoin : iprop((pdats m ρ 7 c).arrays ((pdats m ρ 7 c).arrAt · cfg7.N)
          ∗ Pipeline.unscopedRest (Ix := Unit) (Name := ℕ) (U := UR sig nD τ) (Lvl := ℕ) spec7 c (V8 m ρ c))
        ⊢ (StableHlo.held (c : Thread nD τ) (Pipeline.ucRefs τ sig) (W9 m ρ c) : sProp 𝕄) := by
      rw [← Pipeline.unscopedBufs_held]
      exact Gated7.leave_arrays (V8 m ρ) c (V8 m ρ c) (V9 m ρ c) ((pdats m ρ 7 c).arrAt · cfg7.N) (exit7 m ρ c) (rest7 m ρ c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 9 (a gated update) over the same thread state. The adjacency array's buffer is shared by two of its
    windows: at entry its read permission is halved between them, at exit the halves are joined; only the new-state
    array changes. -/
def reg9 : Pipeline.RegionSeg (pcfgs (F := F)) adm (pdats m ρ) () defs₀ 𝒱₀ L lv 9 where
  win := winFacts₀9
  block_pos := block_pos9
  stage_whole := stage_whole9
  K := PEmpty
  osem k := k.elim
  ho := Pipeline.OwnSemFacts.none _
  hbody c := (Gated9.body_obligation (V10 m ρ) c).loose
  hwaits := Pipeline.hwaits_of_owed_zero _ _ _ _ L lv 9 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec9 c (V10 m ρ c)
  hentry c := by
    rw [Pipeline.ownSems0_none]
    have hsplit : (StableHlo.held (c : Thread nD τ) (Pipeline.ucRefs τ sig) (W10 m ρ c) : sProp 𝕄)
        ⊢ iprop((pdats m ρ 9 c).arrays ((pdats m ρ 9 c).arrAt · 0)
          ∗ Pipeline.unscopedRest (Ix := Unit) (Name := ℕ) (U := UR sig nD τ) (Lvl := ℕ) spec9 c (V10 m ρ c)) := by
      rw [← Pipeline.unscopedBufs_held]
      exact Gated9.enter_arrays (V10 m ρ) c (V10 m ρ c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none]
    have h : (Pipeline.ΦA spec9 c : sProp 𝕄)
        ⊢ iprop((∃ r, prngReg c r) ∗ (BI.emp : sProp 𝕄)
          ∗ Pipeline.scopedRest (Ix := Unit) (Name := ℕ) (U := UR sig nD τ) (Lvl := ℕ) (Val := Elt F) spec9 c) := by
      unfold Pipeline.ΦA
      iintro ⟨Hr, Hp⟩
      isplitl [Hp]; · iexact Hp
      isplitr; · iempintro
      iexact Hr
    exact (Gated9.leave (V10 m ρ) c).trans h
  hexit c := by
    have hjoin : iprop((pdats m ρ 9 c).arrays ((pdats m ρ 9 c).arrAt · cfg9.N)
          ∗ Pipeline.unscopedRest (Ix := Unit) (Name := ℕ) (U := UR sig nD τ) (Lvl := ℕ) spec9 c (V10 m ρ c))
        ⊢ (StableHlo.held (c : Thread nD τ) (Pipeline.ucRefs τ sig) (W11 m ρ c) : sProp 𝕄) := by
      rw [← Pipeline.unscopedBufs_held]
      exact Gated9.leave_arrays (V10 m ρ) c (V10 m ρ c) (V11 m ρ c) ((pdats m ρ 9 c).arrAt · cfg9.N) (exit9 m ρ c) (rest9 m ρ c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

end Cert.KernelIdeal.Whole

end
-- ==== Proof.IdealWholeRun.lean ====
/-
  The program's run: the opening host operations followed by the eleven kernel regions, composed in order from the
  launch to the return. Every execution terminates without a fault, and at the end every unscoped buffer of every
  core holds the contents the last boundary names.
-/
import proofs.«121501_j55087250538634_2_alg».proof.Proof.IdealWholeRegs

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No opening host operation allocates a buffer. -/
theorem hostOps0_fresh : (hostOps0 : List (HloOp τ sig (Elt F))).Forall fun op => op.fresh = ∅ := by
  simp only [List.Forall]; repeat' constructor

/-- The opening host operations as a step of the run, from the launch contents. -/
abbrev hostStep : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, the dues apart. -/
abbrev lastState (c : Dev nD) : sProp 𝕄 := iprop(StableHlo.held (c : Thread nD τ) (Pipeline.ucRefs τ sig) (W12 m ρ c) ∗ ∃ r, prngReg c r)

/-- The program's steps in order. -/
abbrev steps : List (Pipeline.Seg (pcfgs (F := F)) adm (pdats m ρ) () defs₀ 𝒱₀ L lv) :=
  [ .host (hostStep m ρ),
    .region (reg0 m ρ),
    .region (reg1 m ρ),
    .region (reg2 m ρ),
    .region (reg3 m ρ),
    .region (reg4 m ρ),
    .region (reg5 m ρ),
    .region (reg6 m ρ),
    .region (reg7 m ρ),
    .region (reg8 m ρ),
    .region (reg9 m ρ),
    .region (reg10 m ρ) ]

/-- The printed program is the run of these steps. -/
theorem main_is_steps (c : Dev nD) : main (F := F) c = Pipeline.Seg.run (steps m ρ) := (main_chain c).trans (by chain_rfl)

set_option backward.isDefEq.respectTransparency.types false in
/-- THE RUN, at any float instance: from any memory with zero counters every weakly fair execution of the program
    terminates, nothing faulting, and in every final state each unscoped buffer of each core holds the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (steps m ρ)
    (fun c Q => by rw [main_is_steps m ρ c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W12 m ρ c) ∗ (∃ r, prngReg c r) ∗ ∃ W, owes (c : Thread nD τ) (0 : CellTallies nD τ sig Unit) W)
        ⊢ iprop(iprop(StableHlo.held (c : Thread nD τ) (Pipeline.ucRefs τ sig) (W12 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Whole

end
-- ==== Proof.IdealHostKeeps.lean ====
/-
  The opening host operations write only their own result buffers: every other buffer — each argument among them —
  holds after them what it held before.
-/
import proofs.«121501_j55087250538634_2_alg».proof.Proof.Gen.KernelIdeal.Regions

set_option maxRecDepth 16384

noncomputable section

namespace Cert.KernelIdeal.HostKeeps

open Cert.KernelIdeal
open Idealize.ShloMosaic Idealize.ShloMosaic.TcCoe
open Idealize.SL Idealize.SL.Sem

variable {F : FTy → Type} [FloatOps F]

/-- A buffer that is no result of an opening host operation is left as it was. -/
theorem keeps (W : Valuation τ sig (Elt F)) (r : Ref sig .tc) (h : r ∉ Gen.hostOps0_W) :
    StableHlo.after Gen.hostOps0 W r = W r :=
  StableHlo.after_of_writes_sub Gen.hostOps0 _ Gen.hostOps0_writes h

end Cert.KernelIdeal.HostKeeps

end
-- ==== Proof.IdealWholeFrame.lean ====
/-
  Every argument's buffer ends as launched: no opening host operation writes an argument, and no region changes one
  (a region reads an argument through an input window, whose array it leaves as found, or does not touch it). So the
  last boundary's contents at an argument walk back, boundary by boundary, to the launch memory — and the run gives the
  program's frame.
-/
import proofs.«121501_j55087250538634_2_alg».proof.Proof.IdealWholeRun
import proofs.«121501_j55087250538634_2_alg».proof.Proof.IdealHostKeeps

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem kept_arg0 (c : Dev nD) : W12 m ρ c (Proc.devRef .tc main_arg0) = m ((c : Thread nD τ).loc main_arg0) :=
    (W12_of_ne m ρ c main_arg0 (by decide)).trans <|
    (W11_of_ne m ρ c main_arg0 (by decide)).trans <|
    (W10_of_ne m ρ c main_arg0 (by decide)).trans <|
    (W9_of_ne m ρ c main_arg0 (by decide)).trans <|
    (W8_of_ne m ρ c main_arg0 (by decide)).trans <|
    (W7_of_ne m ρ c main_arg0 (by decide)).trans <|
    (W6_of_ne m ρ c main_arg0 (by decide)).trans <|
    (W5_of_ne m ρ c main_arg0 (by decide)).trans <|
    (W4_of_ne m ρ c main_arg0 (by decide)).trans <|
    (W3_of_ne m ρ c main_arg0 (by decide)).trans <|
    ((W2_arr m ρ c 0).trans (((Messages0.dat (V1 m ρ) c).arrAt_in 0 rfl _).trans (Messages0.dat_A (V1 m ρ) c 0))).trans <|
    (HostKeeps.keeps (W0 m ρ c) main_arg0 (by decide)).trans <| rfl
theorem kept_arg1 (c : Dev nD) : W12 m ρ c (Proc.devRef .tc main_arg1) = m ((c : Thread nD τ).loc main_arg1) :=
    (W12_of_ne m ρ c main_arg1 (by decide)).trans <|
    (W11_of_ne m ρ c main_arg1 (by decide)).trans <|
    (W10_of_ne m ρ c main_arg1 (by decide)).trans <|
    (W9_of_ne m ρ c main_arg1 (by decide)).trans <|
    (W8_of_ne m ρ c main_arg1 (by decide)).trans <|
    (W7_of_ne m ρ c main_arg1 (by decide)).trans <|
    (W6_of_ne m ρ c main_arg1 (by decide)).trans <|
    (W5_of_ne m ρ c main_arg1 (by decide)).trans <|
    (W4_of_ne m ρ c main_arg1 (by decide)).trans <|
    (W3_of_ne m ρ c main_arg1 (by decide)).trans <|
    (W2_of_ne m ρ c main_arg1 (by decide)).trans <|
    (HostKeeps.keeps (W0 m ρ c) main_arg1 (by decide)).trans <| rfl
theorem kept_arg2 (c : Dev nD) : W12 m ρ c (Proc.devRef .tc main_arg2) = m ((c : Thread nD τ).loc main_arg2) :=
    (W12_of_ne m ρ c main_arg2 (by decide)).trans <|
    (W11_of_ne m ρ c main_arg2 (by decide)).trans <|
    (W10_of_ne m ρ c main_arg2 (by decide)).trans <|
    (W9_of_ne m ρ c main_arg2 (by decide)).trans <|
    (W8_of_ne m ρ c main_arg2 (by decide)).trans <|
    (W7_of_ne m ρ c main_arg2 (by decide)).trans <|
    (W6_of_ne m ρ c main_arg2 (by decide)).trans <|
    (W5_of_ne m ρ c main_arg2 (by decide)).trans <|
    (W4_of_ne m ρ c main_arg2 (by decide)).trans <|
    (W3_of_ne m ρ c main_arg2 (by decide)).trans <|
    (W2_of_ne m ρ c main_arg2 (by decide)).trans <|
    (HostKeeps.keeps (W0 m ρ c) main_arg2 (by decide)).trans <| rfl
theorem kept_arg3 (c : Dev nD) : W12 m ρ c (Proc.devRef .tc main_arg3) = m ((c : Thread nD τ).loc main_arg3) :=
    (W12_of_ne m ρ c main_arg3 (by decide)).trans <|
    (W11_of_ne m ρ c main_arg3 (by decide)).trans <|
    (W10_of_ne m ρ c main_arg3 (by decide)).trans <|
    (W9_of_ne m ρ c main_arg3 (by decide)).trans <|
    (W8_of_ne m ρ c main_arg3 (by decide)).trans <|
    (W7_of_ne m ρ c main_arg3 (by decide)).trans <|
    (W6_of_ne m ρ c main_arg3 (by decide)).trans <|
    (W5_of_ne m ρ c main_arg3 (by decide)).trans <|
    (W4_of_ne m ρ c main_arg3 (by decide)).trans <|
    (W3_of_ne m ρ c main_arg3 (by decide)).trans <|
    (W2_of_ne m ρ c main_arg3 (by decide)).trans <|
    (HostKeeps.keeps (W0 m ρ c) main_arg3 (by decide)).trans <| rfl
theorem kept_arg4 (c : Dev nD) : W12 m ρ c (Proc.devRef .tc main_arg4) = m ((c : Thread nD τ).loc main_arg4) :=
    (W12_of_ne m ρ c main_arg4 (by decide)).trans <|
    (W11_of_ne m ρ c main_arg4 (by decide)).trans <|
    (W10_of_ne m ρ c main_arg4 (by decide)).trans <|
    (W9_of_ne m ρ c main_arg4 (by decide)).trans <|
    (W8_of_ne m ρ c main_arg4 (by decide)).trans <|
    (W7_of_ne m ρ c main_arg4 (by decide)).trans <|
    (W6_of_ne m ρ c main_arg4 (by decide)).trans <|
    (W5_of_ne m ρ c main_arg4 (by decide)).trans <|
    (W4_of_ne m ρ c main_arg4 (by decide)).trans <|
    (W3_of_ne m ρ c main_arg4 (by decide)).trans <|
    (W2_of_ne m ρ c main_arg4 (by decide)).trans <|
    (HostKeeps.keeps (W0 m ρ c) main_arg4 (by decide)).trans <| rfl
theorem kept_arg5 (c : Dev nD) : W12 m ρ c (Proc.devRef .tc main_arg5) = m ((c : Thread nD τ).loc main_arg5) :=
    (W12_of_ne m ρ c main_arg5 (by decide)).trans <|
    (W11_of_ne m ρ c main_arg5 (by decide)).trans <|
    (W10_of_ne m ρ c main_arg5 (by decide)).trans <|
    (W9_of_ne m ρ c main_arg5 (by decide)).trans <|
    (W8_of_ne m ρ c main_arg5 (by decide)).trans <|
    (W7_of_ne m ρ c main_arg5 (by decide)).trans <|
    (W6_of_ne m ρ c main_arg5 (by decide)).trans <|
    (W5_of_ne m ρ c main_arg5 (by decide)).trans <|
    (W4_of_ne m ρ c main_arg5 (by decide)).trans <|
    (W3_of_ne m ρ c main_arg5 (by decide)).trans <|
    (W2_of_ne m ρ c main_arg5 (by decide)).trans <|
    (HostKeeps.keeps (W0 m ρ c) main_arg5 (by decide)).trans <| rfl
theorem kept_arg6 (c : Dev nD) : W12 m ρ c (Proc.devRef .tc main_arg6) = m ((c : Thread nD τ).loc main_arg6) :=
    (W12_of_ne m ρ c main_arg6 (by decide)).trans <|
    (W11_of_ne m ρ c main_arg6 (by decide)).trans <|
    (W10_of_ne m ρ c main_arg6 (by decide)).trans <|
    (W9_of_ne m ρ c main_arg6 (by decide)).trans <|
    (W8_of_ne m ρ c main_arg6 (by decide)).trans <|
    (W7_of_ne m ρ c main_arg6 (by decide)).trans <|
    (W6_of_ne m ρ c main_arg6 (by decide)).trans <|
    (W5_of_ne m ρ c main_arg6 (by decide)).trans <|
    (W4_of_ne m ρ c main_arg6 (by decide)).trans <|
    (W3_of_ne m ρ c main_arg6 (by decide)).trans <|
    (W2_of_ne m ρ c main_arg6 (by decide)).trans <|
    (HostKeeps.keeps (W0 m ρ c) main_arg6 (by decide)).trans <| rfl
theorem kept_arg7 (c : Dev nD) : W12 m ρ c (Proc.devRef .tc main_arg7) = m ((c : Thread nD τ).loc main_arg7) :=
    (W12_of_ne m ρ c main_arg7 (by decide)).trans <|
    (W11_of_ne m ρ c main_arg7 (by decide)).trans <|
    (W10_of_ne m ρ c main_arg7 (by decide)).trans <|
    (W9_of_ne m ρ c main_arg7 (by decide)).trans <|
    (W8_of_ne m ρ c main_arg7 (by decide)).trans <|
    (W7_of_ne m ρ c main_arg7 (by decide)).trans <|
    (W6_of_ne m ρ c main_arg7 (by decide)).trans <|
    (W5_of_ne m ρ c main_arg7 (by decide)).trans <|
    (W4_of_ne m ρ c main_arg7 (by decide)).trans <|
    (W3_of_ne m ρ c main_arg7 (by decide)).trans <|
    (W2_of_ne m ρ c main_arg7 (by decide)).trans <|
    (HostKeeps.keeps (W0 m ρ c) main_arg7 (by decide)).trans <| rfl
theorem kept_arg8 (c : Dev nD) : W12 m ρ c (Proc.devRef .tc main_arg8) = m ((c : Thread nD τ).loc main_arg8) :=
    (W12_of_ne m ρ c main_arg8 (by decide)).trans <|
    (W11_of_ne m ρ c main_arg8 (by decide)).trans <|
    (W10_of_ne m ρ c main_arg8 (by decide)).trans <|
    (W9_of_ne m ρ c main_arg8 (by decide)).trans <|
    (W8_of_ne m ρ c main_arg8 (by decide)).trans <|
    (W7_of_ne m ρ c main_arg8 (by decide)).trans <|
    (W6_of_ne m ρ c main_arg8 (by decide)).trans <|
    (W5_of_ne m ρ c main_arg8 (by decide)).trans <|
    (W4_of_ne m ρ c main_arg8 (by decide)).trans <|
    (W3_of_ne m ρ c main_arg8 (by decide)).trans <|
    (W2_of_ne m ρ c main_arg8 (by decide)).trans <|
    (HostKeeps.keeps (W0 m ρ c) main_arg8 (by decide)).trans <| rfl
theorem kept_arg9 (c : Dev nD) : W12 m ρ c (Proc.devRef .tc main_arg9) = m ((c : Thread nD τ).loc main_arg9) :=
    (W12_of_ne m ρ c main_arg9 (by decide)).trans <|
    (W11_of_ne m ρ c main_arg9 (by decide)).trans <|
    (W10_of_ne m ρ c main_arg9 (by decide)).trans <|
    (W9_of_ne m ρ c main_arg9 (by decide)).trans <|
    (W8_of_ne m ρ c main_arg9 (by decide)).trans <|
    (W7_of_ne m ρ c main_arg9 (by decide)).trans <|
    (W6_of_ne m ρ c main_arg9 (by decide)).trans <|
    (W5_of_ne m ρ c main_arg9 (by decide)).trans <|
    (W4_of_ne m ρ c main_arg9 (by decide)).trans <|
    (W3_of_ne m ρ c main_arg9 (by decide)).trans <|
    (W2_of_ne m ρ c main_arg9 (by decide)).trans <|
    (HostKeeps.keeps (W0 m ρ c) main_arg9 (by decide)).trans <| rfl
theorem kept_arg10 (c : Dev nD) : W12 m ρ c (Proc.devRef .tc main_arg10) = m ((c : Thread nD τ).loc main_arg10) :=
    (W12_of_ne m ρ c main_arg10 (by decide)).trans <|
    (W11_of_ne m ρ c main_arg10 (by decide)).trans <|
    (W10_of_ne m ρ c main_arg10 (by decide)).trans <|
    (W9_of_ne m ρ c main_arg10 (by decide)).trans <|
    (W8_of_ne m ρ c main_arg10 (by decide)).trans <|
    (W7_of_ne m ρ c main_arg10 (by decide)).trans <|
    (W6_of_ne m ρ c main_arg10 (by decide)).trans <|
    (W5_of_ne m ρ c main_arg10 (by decide)).trans <|
    (W4_of_ne m ρ c main_arg10 (by decide)).trans <|
    (W3_of_ne m ρ c main_arg10 (by decide)).trans <|
    (W2_of_ne m ρ c main_arg10 (by decide)).trans <|
    (HostKeeps.keeps (W0 m ρ c) main_arg10 (by decide)).trans <| rfl
theorem kept_arg11 (c : Dev nD) : W12 m ρ c (Proc.devRef .tc main_arg11) = m ((c : Thread nD τ).loc main_arg11) :=
    (W12_of_ne m ρ c main_arg11 (by decide)).trans <|
    (W11_of_ne m ρ c main_arg11 (by decide)).trans <|
    (W10_of_ne m ρ c main_arg11 (by decide)).trans <|
    (W9_of_ne m ρ c main_arg11 (by decide)).trans <|
    (W8_of_ne m ρ c main_arg11 (by decide)).trans <|
    (W7_of_ne m ρ c main_arg11 (by decide)).trans <|
    (W6_of_ne m ρ c main_arg11 (by decide)).trans <|
    (W5_of_ne m ρ c main_arg11 (by decide)).trans <|
    (W4_of_ne m ρ c main_arg11 (by decide)).trans <|
    (W3_of_ne m ρ c main_arg11 (by decide)).trans <|
    (W2_of_ne m ρ c main_arg11 (by decide)).trans <|
    (HostKeeps.keeps (W0 m ρ c) main_arg11 (by decide)).trans <| rfl
theorem kept_arg12 (c : Dev nD) : W12 m ρ c (Proc.devRef .tc main_arg12) = m ((c : Thread nD τ).loc main_arg12) :=
    (W12_of_ne m ρ c main_arg12 (by decide)).trans <|
    (W11_of_ne m ρ c main_arg12 (by decide)).trans <|
    (W10_of_ne m ρ c main_arg12 (by decide)).trans <|
    (W9_of_ne m ρ c main_arg12 (by decide)).trans <|
    (W8_of_ne m ρ c main_arg12 (by decide)).trans <|
    (W7_of_ne m ρ c main_arg12 (by decide)).trans <|
    (W6_of_ne m ρ c main_arg12 (by decide)).trans <|
    (W5_of_ne m ρ c main_arg12 (by decide)).trans <|
    (W4_of_ne m ρ c main_arg12 (by decide)).trans <|
    (W3_of_ne m ρ c main_arg12 (by decide)).trans <|
    (W2_of_ne m ρ c main_arg12 (by decide)).trans <|
    (HostKeeps.keeps (W0 m ρ c) main_arg12 (by decide)).trans <| rfl
theorem kept_arg13 (c : Dev nD) : W12 m ρ c (Proc.devRef .tc main_arg13) = m ((c : Thread nD τ).loc main_arg13) :=
    (W12_of_ne m ρ c main_arg13 (by decide)).trans <|
    (W11_of_ne m ρ c main_arg13 (by decide)).trans <|
    (W10_of_ne m ρ c main_arg13 (by decide)).trans <|
    (W9_of_ne m ρ c main_arg13 (by decide)).trans <|
    (W8_of_ne m ρ c main_arg13 (by decide)).trans <|
    (W7_of_ne m ρ c main_arg13 (by decide)).trans <|
    (W6_of_ne m ρ c main_arg13 (by decide)).trans <|
    (W5_of_ne m ρ c main_arg13 (by decide)).trans <|
    (W4_of_ne m ρ c main_arg13 (by decide)).trans <|
    (W3_of_ne m ρ c main_arg13 (by decide)).trans <|
    (W2_of_ne m ρ c main_arg13 (by decide)).trans <|
    (HostKeeps.keeps (W0 m ρ c) main_arg13 (by decide)).trans <| rfl
theorem kept_arg14 (c : Dev nD) : W12 m ρ c (Proc.devRef .tc main_arg14) = m ((c : Thread nD τ).loc main_arg14) :=
    (W12_of_ne m ρ c main_arg14 (by decide)).trans <|
    (W11_of_ne m ρ c main_arg14 (by decide)).trans <|
    (W10_of_ne m ρ c main_arg14 (by decide)).trans <|
    (W9_of_ne m ρ c main_arg14 (by decide)).trans <|
    (W8_of_ne m ρ c main_arg14 (by decide)).trans <|
    (W7_of_ne m ρ c main_arg14 (by decide)).trans <|
    (W6_of_ne m ρ c main_arg14 (by decide)).trans <|
    (W5_of_ne m ρ c main_arg14 (by decide)).trans <|
    (W4_of_ne m ρ c main_arg14 (by decide)).trans <|
    (W3_of_ne m ρ c main_arg14 (by decide)).trans <|
    (W2_of_ne m ρ c main_arg14 (by decide)).trans <|
    (HostKeeps.keeps (W0 m ρ c) main_arg14 (by decide)).trans <| rfl
theorem kept_arg15 (c : Dev nD) : W12 m ρ c (Proc.devRef .tc main_arg15) = m ((c : Thread nD τ).loc main_arg15) :=
    (W12_of_ne m ρ c main_arg15 (by decide)).trans <|
    (W11_of_ne m ρ c main_arg15 (by decide)).trans <|
    (W10_of_ne m ρ c main_arg15 (by decide)).trans <|
    (W9_of_ne m ρ c main_arg15 (by decide)).trans <|
    (W8_of_ne m ρ c main_arg15 (by decide)).trans <|
    (W7_of_ne m ρ c main_arg15 (by decide)).trans <|
    (W6_of_ne m ρ c main_arg15 (by decide)).trans <|
    (W5_of_ne m ρ c main_arg15 (by decide)).trans <|
    (W4_of_ne m ρ c main_arg15 (by decide)).trans <|
    (W3_of_ne m ρ c main_arg15 (by decide)).trans <|
    (W2_of_ne m ρ c main_arg15 (by decide)).trans <|
    (HostKeeps.keeps (W0 m ρ c) main_arg15 (by decide)).trans <| rfl

/-- THE FRAME, at any float instance: every execution terminates, nothing faulting, with every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c),
     (h c _ (mem_uc main_arg6 (by decide))).trans (kept_arg6 m ρ c),
     (h c _ (mem_uc main_arg7 (by decide))).trans (kept_arg7 m ρ c),
     (h c _ (mem_uc main_arg8 (by decide))).trans (kept_arg8 m ρ c),
     (h c _ (mem_uc main_arg9 (by decide))).trans (kept_arg9 m ρ c),
     (h c _ (mem_uc main_arg10 (by decide))).trans (kept_arg10 m ρ c),
     (h c _ (mem_uc main_arg11 (by decide))).trans (kept_arg11 m ρ c),
     (h c _ (mem_uc main_arg12 (by decide))).trans (kept_arg12 m ρ c),
     (h c _ (mem_uc main_arg13 (by decide))).trans (kept_arg13 m ρ c),
     (h c _ (mem_uc main_arg14 (by decide))).trans (kept_arg14 m ρ c),
     (h c _ (mem_uc main_arg15 (by decide))).trans (kept_arg15 m ρ c)⟩) (run_all m ρ)

/-- The same run with the result buffer named: it ends at the last boundary's contents, the arguments as launched. -/
theorem run_result : θ_run defs (onTc (τ := τ) (main (F := F))) ⟨m, fun _ => 0, ρ⟩ (fun r => ∀ c : Dev nD,
      r.2.mem ((c.tc : Thread nD τ).loc main_v33) = W12 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v33 (by decide)),
     (h c _ (mem_uc main_arg0 (by decide))).trans (kept_arg0 m ρ c),
     (h c _ (mem_uc main_arg1 (by decide))).trans (kept_arg1 m ρ c),
     (h c _ (mem_uc main_arg2 (by decide))).trans (kept_arg2 m ρ c),
     (h c _ (mem_uc main_arg3 (by decide))).trans (kept_arg3 m ρ c),
     (h c _ (mem_uc main_arg4 (by decide))).trans (kept_arg4 m ρ c),
     (h c _ (mem_uc main_arg5 (by decide))).trans (kept_arg5 m ρ c),
     (h c _ (mem_uc main_arg6 (by decide))).trans (kept_arg6 m ρ c),
     (h c _ (mem_uc main_arg7 (by decide))).trans (kept_arg7 m ρ c),
     (h c _ (mem_uc main_arg8 (by decide))).trans (kept_arg8 m ρ c),
     (h c _ (mem_uc main_arg9 (by decide))).trans (kept_arg9 m ρ c),
     (h c _ (mem_uc main_arg10 (by decide))).trans (kept_arg10 m ρ c),
     (h c _ (mem_uc main_arg11 (by decide))).trans (kept_arg11 m ρ c),
     (h c _ (mem_uc main_arg12 (by decide))).trans (kept_arg12 m ρ c),
     (h c _ (mem_uc main_arg13 (by decide))).trans (kept_arg13 m ρ c),
     (h c _ (mem_uc main_arg14 (by decide))).trans (kept_arg14 m ρ c),
     (h c _ (mem_uc main_arg15 (by decide))).trans (kept_arg15 m ρ c)⟩) (run_all m ρ)

end Cert.KernelIdeal.Whole

end
-- ==== Proof.GgnnMath.lean ====
/-
  The gated graph network's arithmetic, index by index over the extended reals.

  A state matrix `x` has 4096 rows (graph nodes) and 512 columns (features); `Af` is the 4096 × 4096 adjacency
  matrix as extended reals. One propagation step computes, with `W` a weight matrix stored row-per-output-feature
  (so that a product with its transpose at `(p, q)` sums `x p k * W q k` over `k`):

    s_in  = x · W_inᵀ + b_in,      s_out = x · W_outᵀ + b_out,
    a_in  = Af · s_in,             a_out = Afᵀ · s_out,
    r     = σ([a_in, a_out, x] · W_rᵀ + b_r),     z = σ([a_in, a_out, x] · W_zᵀ + b_z),
    h     = tanh([a_in, a_out, r ∘ x] · W_hᵀ + b_h),
    x'    = (1 − z) ∘ x + z ∘ h,

  and after the last step the output layer is `tanh(x · W_o1ᵀ + b_o1) · W_o2ᵀ + b_o2`.

  The product of a row-wise concatenation `[u, v, w]` (three blocks of 512 columns) with a 512 × 1536 weight is
  written as the three partial sums over the weight's three column blocks, added left to right, then the bias.
  Every sum is a finite sum in the extended reals, whose addition is commutative and associative; no product is
  distributed over a sum anywhere.
-/
import Mathlib.Algebra.BigOperators.Fin
import Mathlib.Algebra.BigOperators.Group.Finset.Basic
import Idealize.ShloMosaic.PureOps.Ideal

noncomputable section

namespace Cert.GgnnMath

open scoped BigOperators
open Idealize.ShloMosaic

/-- Column `k` of the first block of 512 columns of a 1536-column weight. -/
def part0 (k : Fin 512) : Fin 1536 := ⟨k.val, by omega⟩
/-- Column `k` of the second block: position `512 + k`. -/
def part1 (k : Fin 512) : Fin 1536 := ⟨512 + k.val, by omega⟩
/-- Column `k` of the third block: position `1024 + k`. -/
def part2 (k : Fin 512) : Fin 1536 := ⟨1024 + k.val, by omega⟩

@[simp] theorem part0_val (k : Fin 512) : (part0 k).val = k.val := rfl
@[simp] theorem part1_val (k : Fin 512) : (part1 k).val = 512 + k.val := rfl
@[simp] theorem part2_val (k : Fin 512) : (part2 k).val = 1024 + k.val := rfl

/-- A linear layer `x · Wᵀ + b`: at `(p, q)` the sum over `k` of `x p k * W q k`, then the bias `b q`. -/
def affine (x : Fin 4096 → Fin 512 → EReal) (W : Fin 512 → Fin 512 → EReal) (b : Fin 512 → EReal) :
    Fin 4096 → Fin 512 → EReal :=
  fun p q => (∑ k : Fin 512, x p k * W q k) + b q

/-- Aggregation over incoming edges, `Af · s`: at `(p, q)` the sum over nodes `k` of `Af p k * s k q`. -/
def aggIn (Af : Fin 4096 → Fin 4096 → EReal) (s : Fin 4096 → Fin 512 → EReal) : Fin 4096 → Fin 512 → EReal :=
  fun p q => ∑ k : Fin 4096, Af p k * s k q

/-- Aggregation over outgoing edges, `Afᵀ · s`: at `(p, q)` the sum over nodes `k` of `Af k p * s k q`. -/
def aggOut (Af : Fin 4096 → Fin 4096 → EReal) (s : Fin 4096 → Fin 512 → EReal) : Fin 4096 → Fin 512 → EReal :=
  fun p q => ∑ k : Fin 4096, Af k p * s k q

/-- A gate's pre-activation `[u, v, w] · Wᵀ + b`: the three partial sums over the weight's three column blocks,
    added in the order `((u-part + v-part) + w-part) + b q`. -/
def gate (u v w : Fin 4096 → Fin 512 → EReal) (W : Fin 512 → Fin 1536 → EReal) (b : Fin 512 → EReal) :
    Fin 4096 → Fin 512 → EReal :=
  fun p q => ((∑ k : Fin 512, u p k * W q (part0 k)) + (∑ k : Fin 512, v p k * W q (part1 k))
      + (∑ k : Fin 512, w p k * W q (part2 k))) + b q

/-- The candidate state `tanh([a_in, a_out, r ∘ x] · W_hᵀ + b_h)`. -/
def candidate (aIn aOut r x : Fin 4096 → Fin 512 → EReal) (Wh : Fin 512 → Fin 1536 → EReal) (bh : Fin 512 → EReal) :
    Fin 4096 → Fin 512 → EReal :=
  fun p q => Ideal.tanh (gate aIn aOut (fun p k => r p k * x p k) Wh bh p q)

/-- The convex update `(1 − z) ∘ x + z ∘ h`. -/
def update (z x h : Fin 4096 → Fin 512 → EReal) : Fin 4096 → Fin 512 → EReal :=
  fun p q => (1 - z p q) * x p q + z p q * h p q

/-- One propagation step. -/
def step (Af : Fin 4096 → Fin 4096 → EReal)
    (Win : Fin 512 → Fin 512 → EReal) (bin : Fin 512 → EReal)
    (Wout : Fin 512 → Fin 512 → EReal) (bout : Fin 512 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal)
    (x : Fin 4096 → Fin 512 → EReal) : Fin 4096 → Fin 512 → EReal :=
  let aIn := aggIn Af (affine x Win bin)
  let aOut := aggOut Af (affine x Wout bout)
  let r : Fin 4096 → Fin 512 → EReal := fun p q => Ideal.logistic (gate aIn aOut x Wr br p q)
  let z : Fin 4096 → Fin 512 → EReal := fun p q => Ideal.logistic (gate aIn aOut x Wz bz p q)
  update z x (candidate aIn aOut r x Wh bh)

/-- The output layer `tanh(x · W_o1ᵀ + b_o1) · W_o2ᵀ + b_o2`. -/
def outMlp (W1 : Fin 512 → Fin 512 → EReal) (b1 : Fin 512 → EReal)
    (W2 : Fin 512 → Fin 512 → EReal) (b2 : Fin 512 → EReal)
    (x : Fin 4096 → Fin 512 → EReal) : Fin 4096 → Fin 512 → EReal :=
  affine (fun p q => Ideal.tanh (affine x W1 b1 p q)) W2 b2

end Cert.GgnnMath

end
-- ==== Proof.IdealMessagesValue0.lean ====
/-
  The values of the two edge-message arrays of region 0, read over the extended reals.

  At every grid point the body multiplies a block of 1024 rows of the node state by a 512 x 512 weight (rows of the
  state against columns of the weight, into a zero accumulator) and adds a bias row to every row of the product; a change
  of float format is the identity on the extended reals. So an entry of a result block is a finite sum of products plus one
  bias entry. The four points' result blocks are the four consecutive groups of 1024 rows of the result array, and the row
  r of the array lies in the block of point r / 1024; the weight and the bias row are the same whole arrays at every
  point. Hence, after the region, entry (r, q) of a message array is

      (sum over k of  X (r, k) * W (k, q))  +  B (0, q)

  of the state array X, the weight W and the bias row B as the region finds them, and the five input arrays are as the
  region finds them.
-/
import proofs.«121501_j55087250538634_2_alg».proof.Proof.IdealMessages0
import proofs.«121501_j55087250538634_2_alg».proof.Proof.GgnnMath
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MessagesValue0

open Cert.KernelIdeal Cert.KernelIdeal.Gen Cert.KernelIdeal.Messages0
open Idealize.ShloMosaic Idealize.ShloMosaic.TcCoe Idealize.SL.Sem
open Idealize.ShloMosaic.ValueIdx
open Idealize.ShloMosaic.Pipeline (Dat)

/-! ## The product's operand indices, one coordinate at a time -/

/-- The dimension numbers of the block product: rows of the left operand against columns of the right, contracting the
    left's axis 1 with the right's axis 0. -/
abbrev dotRC : DotDims S1024x512 S512x512 S1024x512 := dot_S1024x512_S512x512_S1024x512_1_0_0_1_n_n

/-- The left operand is read at the result's row … -/
theorem lhs_row (i : S1024x512.Idx) (q : dotRC.contr.Idx) : (dotRC.lhsIdx i q 0).val = (i 0).val := by
  unfold DotDims.lhsIdx
  rw [dif_neg (show ¬(0 : Fin S1024x512.rank) ∈ dotRC.lhsBatch by decide),
    dif_pos (show (0 : Fin S1024x512.rank) ∈ dotRC.lhsNonContracting by decide)]
  rfl

/-- … and at the contracted coordinate as its column; -/
theorem lhs_col (i : S1024x512.Idx) (q : dotRC.contr.Idx) : (dotRC.lhsIdx i q 1).val = (q ⟨0, by decide⟩).val :=
  dotRC.lhsIdx_val_of_single rfl i q

/-- the right operand at the contracted coordinate as its row … -/
theorem rhs_row (i : S1024x512.Idx) (q : dotRC.contr.Idx) : (dotRC.rhsIdx i q 0).val = (q ⟨0, by decide⟩).val :=
  dotRC.rhsIdx_val_of_single rfl i q

/-- … and at the result's column. -/
theorem rhs_col (i : S1024x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

/-- The block product into the zero accumulator, at row `p` and column `q`: the sum over the contracted coordinate of
    the left operand's row entry times the right operand's column entry. -/
theorem product_apply (l : FVec Ideal S1024x512 .bf16) (r : FVec Ideal S512x512 .bf16) (p : Fin 1024) (q : Fin 512) :
    matmul dotRC none l r (constant (F := Ideal) S1024x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact lhs_row _ _
    | ⟨1, _⟩ => exact (lhs_col _ _).trans hk)
  have er : dotRC.rhsIdx (ix2 p q) ((contrEquiv1 dotRC 512 rfl rfl).symm k) = ix2 k q := funext fun a => Fin.ext (by
    match a with
    | ⟨0, _⟩ => exact (rhs_row _ _).trans hk
    | ⟨1, _⟩ => exact rhs_col _ _)
  rw [el, er]

/-- The bias row broadcast down the rows, at row `p` and column `q`, is the row's entry at column `q`. -/
theorem bias_apply (b : FVec Ideal S1x512 .f32) (p : Fin 1024) (q : Fin 512) :
    broadcastTo S1024x512 b broadcasts_S1x512_S1024x512 (ix2 p q) = b (ix2 0 q) := by
  refine broadcastTo_apply b _ (ix2 p q) (ix2 0 q) fun a => ?_
  match a with
  | ⟨0, _⟩ => rfl
  | ⟨1, _⟩ => rfl

/-! ## The payloads at an index -/

/-- The incoming-message payload at row `p`, column `q`: the state row against the weight column, plus the bias. -/
theorem pay_in_apply (x : Vec Ideal S1024x512 .f32) (w : Vec Ideal S512x512 .bf16) (b : Vec Ideal S1x512 .f32)
    (p : Fin 1024) (q : Fin 512) :
    k0_pay2 x w b (ix2 p q) = (∑ k : Fin 512, x (ix2 p k) * w (ix2 k q)) + b (ix2 0 q) := by
  unfold k0_pay2 k0_pay1
  simp only [shapeCast_self]
  rw [truncf_apply, addf_apply, bias_apply]
  exact congrArg (· + b (ix2 0 q)) (product_apply _ _ p q)

/-- The outgoing-message payload likewise. -/
theorem pay_out_apply (x : Vec Ideal S1024x512 .f32) (w : Vec Ideal S512x512 .bf16) (b : Vec Ideal S1x512 .f32)
    (p : Fin 1024) (q : Fin 512) :
    k0_pay3 x w b (ix2 p q) = (∑ k : Fin 512, x (ix2 p k) * w (ix2 k q)) + b (ix2 0 q) := by
  unfold k0_pay3 k0_pay1
  simp only [shapeCast_self]
  rw [truncf_apply, addf_apply, bias_apply]
  exact congrArg (· + b (ix2 0 q)) (product_apply _ _ p q)

/-! ## What a result buffer holds after the body, at an index -/

/-- The zero offsets of a whole-buffer rectangle, as the constant function. -/
theorem zeroOffsets : (![0, 0] : Fin 2 → Nat) = fun _ => 0 := funext fun a => by fin_cases a <;> rfl

/-- The incoming-message block of a state block, a weight and a bias row, at an entry: the one stored piece covers the
    buffer, so the entry is the payload's. -/
theorem sIn_apply (x : Vec Ideal S1024x512 .f32) (w : Vec Ideal S512x512 .bf16) (b : Vec Ideal S1x512 .f32) (j : S1024x512.Idx) :
    sIn x w b j = (∑ k : Fin 512, x (ix2 (j 0) k) * w (ix2 k (j 1))) + b (ix2 0 (j 1)) := by
  obtain ⟨p, q, rfl⟩ : ∃ (p : Fin 1024) (q : Fin 512), j = ix2 p q := ⟨j 0, j 1, eq_ix2 j⟩
  unfold sIn
  rw [View.canon_unit_zero zeroOffsets]
  simp only [View.ld_unit_zero (S := S1024x512) zeroOffsets, View.ld_unit_zero (S := S512x512) zeroOffsets,
    View.ld_unit_zero (S := S1x512) zeroOffsets]
  exact pay_in_apply x w b p q

/-- The outgoing-message block likewise. -/
theorem sOut_apply (x : Vec Ideal S1024x512 .f32) (w : Vec Ideal S512x512 .bf16) (b : Vec Ideal S1x512 .f32) (j : S1024x512.Idx) :
    sOut x w b j = (∑ k : Fin 512, x (ix2 (j 0) k) * w (ix2 k (j 1))) + b (ix2 0 (j 1)) := by
  obtain ⟨p, q, rfl⟩ : ∃ (p : Fin 1024) (q : Fin 512), j = ix2 p q := ⟨j 0, j 1, eq_ix2 j⟩
  unfold sOut
  rw [View.canon_unit_zero zeroOffsets]
  simp only [View.ld_unit_zero (S := S1024x512) zeroOffsets, View.ld_unit_zero (S := S512x512) zeroOffsets,
    View.ld_unit_zero (S := S1x512) zeroOffsets]
  exact pay_out_apply x w b p q

/-! ## The whole message array -/

/-- The edge-message array of a state array `X`, a weight `W` and a bias row `B`: entry (r, q) is row r of `X` against
    column q of `W`, plus `B` at column q. -/
def msg (X : S4096x512.Idx → EReal) (W : S512x512.Idx → EReal) (B : S1x512.Idx → EReal) : S4096x512.Idx → EReal :=
  fun i => (∑ k : Fin 512, X (ix2 (i 0) k) * W (ix2 k (i 1))) + B (ix2 0 (i 1))

theorem msg_apply (X : S4096x512.Idx → EReal) (W : S512x512.Idx → EReal) (B : S1x512.Idx → EReal) (i : S4096x512.Idx) :
    msg X W B i = (∑ k : Fin 512, X (ix2 (i 0) k) * W (ix2 k (i 1))) + B (ix2 0 (i 1)) := rfl

/-- The message array is the linear layer `x · Mᵀ + b` whose matrix `M` is the weight operand transposed
    (`M q k = W (k, q)`): the same sum of the same products, entry by entry. -/
theorem msg_eq_affine (X : S4096x512.Idx → EReal) (W : S512x512.Idx → EReal) (B : S1x512.Idx → EReal) (i : S4096x512.Idx) :
    msg X W B i = Cert.GgnnMath.affine (fun p k => X (ix2 p k)) (fun q k => W (ix2 k q)) (fun q => B (ix2 0 q)) (i 0) (i 1) := rfl

variable (V : (c : Dev nD) → (b : Ref sig .tc) → Buf (Elt Ideal) ((c : Thread nD τ).loc b))

/-- The printed index maps over the grid: the state window and the two result windows sit at block row `t` at point `t`,
    the weights and bias rows at block (0, 0) at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as parts of their arrays -/

/-- The state block at point `t` is rows `1024 t … 1024 t + 1023` of the state array. -/
theorem blk0_apply (c : Dev nD) (t : Fin cfg0.N) (y : S1024x512.Idx) (i : S4096x512.Idx)
    (h0 : (i 0).val = t.val * 1024 + (y 0).val) (h1 : (i 1).val = (y 1).val) :
    blk V c 0 t y = (V c (Pipeline.arrRef spec0 0) : S4096x512.Idx → EReal) i := by
  obtain ⟨e0, e1, -⟩ := index_facts t
  unfold blk
  show V c (Pipeline.arrRef spec0 0) (((cfg0.win 0).blk t).view.emb y) = _
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 512 + 1 * (y 1).val = (i 1).val; omega

/-- The first weight's block is the whole weight at every point. -/
theorem blk1_apply (c : Dev nD) (t : Fin cfg0.N) (y i : S512x512.Idx)
    (h0 : (i 0).val = (y 0).val) (h1 : (i 1).val = (y 1).val) :
    blk V c 1 t y = (V c (Pipeline.arrRef spec0 1) : S512x512.Idx → EReal) i := by
  obtain ⟨-, -, e0, e1, -⟩ := index_facts t
  unfold blk
  show V c (Pipeline.arrRef spec0 1) (((cfg0.win 1).blk t).view.emb y) = _
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 512 + 1 * (y 1).val = (i 1).val; omega

/-- The first bias row's block is the whole row at every point. -/
theorem blk2_apply (c : Dev nD) (t : Fin cfg0.N) (y i : S1x512.Idx)
    (h0 : (i 0).val = (y 0).val) (h1 : (i 1).val = (y 1).val) :
    blk V c 2 t y = (V c (Pipeline.arrRef spec0 2) : S1x512.Idx → EReal) i := by
  obtain ⟨-, -, -, -, e0, e1, -⟩ := index_facts t
  unfold blk
  show V c (Pipeline.arrRef spec0 2) (((cfg0.win 2).blk t).view.emb y) = _
  refine congrArg _ (funext fun a => Fin.ext ?_)
  match a with
  | ⟨0, _⟩ => show win0_2.index t (0 : Fin 2) * 1 + 1 * (y 0).val = (i 0).val; omega
  | ⟨1, _⟩ => show win0_2.index t (1 : Fin 2) * 512 + 1 * (y 1).val = (i 1).val; omega

/-- The second weight's block is the whole weight at every point. -/
theorem blk3_apply (c : Dev nD) (t : Fin cfg0.N) (y i : S512x512.Idx)
    (h0 : (i 0).val = (y 0).val) (h1 : (i 1).val = (y 1).val) :
    blk V c 3 t y = (V c (Pipeline.arrRef spec0 3) : S512x512.Idx → EReal) i := by
  obtain ⟨-, -, -, -, -, -, e0, e1, -⟩ := index_facts t
  unfold blk
  show V c (Pipeline.arrRef spec0 3) (((cfg0.win 3).blk t).view.emb y) = _
  refine congrArg _ (funext fun a => Fin.ext ?_)
  match a with
  | ⟨0, _⟩ => show win0_3.index t (0 : Fin 2) * 512 + 1 * (y 0).val = (i 0).val; omega
  | ⟨1, _⟩ => show win0_3.index t (1 : Fin 2) * 512 + 1 * (y 1).val = (i 1).val; omega

/-- The second bias row's block is the whole row at every point. -/
theorem blk4_apply (c : Dev nD) (t : Fin cfg0.N) (y i : S1x512.Idx)
    (h0 : (i 0).val = (y 0).val) (h1 : (i 1).val = (y 1).val) :
    blk V c 4 t y = (V c (Pipeline.arrRef spec0 4) : S1x512.Idx → EReal) i := by
  obtain ⟨-, -, -, -, -, -, -, -, e0, e1, -⟩ := index_facts t
  unfold blk
  show V c (Pipeline.arrRef spec0 4) (((cfg0.win 4).blk t).view.emb y) = _
  refine congrArg _ (funext fun a => Fin.ext ?_)
  match a with
  | ⟨0, _⟩ => show win0_4.index t (0 : Fin 2) * 1 + 1 * (y 0).val = (i 0).val; omega
  | ⟨1, _⟩ => show win0_4.index t (1 : Fin 2) * 512 + 1 * (y 1).val = (i 1).val; omega

/-! ## What each point writes back, and the arrays after the region -/

/-- Point `t` writes back, into the incoming-message array, block `t` of the message array of the state, the first
    weight and the first bias row as the region finds them. -/
theorem flushed5_eq (c : Dev nD) (t : Fin cfg0.N) :
    (dat V c).flushed 5 t = ((cfg0.win 5).blk t).view.read (Elt Ideal)
      (msg (V c (Pipeline.arrRef spec0 0)) (V c (Pipeline.arrRef spec0 1)) (V c (Pipeline.arrRef spec0 2))) := by
  show (cfg0.win 5).cut (grid0.coords t) ((dat V c).after 5 t) = _
  rw [after5]
  funext j
  obtain ⟨-, -, -, -, -, -, -, -, -, -, e50, e51, -⟩ := index_facts t
  show sIn (blk V c 0 t) (blk V c 1 t) (blk V c 2 t) j
    = msg (V c (Pipeline.arrRef spec0 0)) (V c (Pipeline.arrRef spec0 1)) (V c (Pipeline.arrRef spec0 2)) (((cfg0.win 5).blk t).view.emb j)
  refine (sIn_apply (blk V c 0 t) (blk V c 1 t) (blk V c 2 t) j).trans ?_
  unfold msg
  have hr : ((((cfg0.win 5).blk t).view.emb j) 0).val = win0_5.index t (0 : Fin 2) * 1024 + 1 * (j 0).val := rfl
  have hq : ((((cfg0.win 5).blk t).view.emb j) 1).val = win0_5.index t (1 : Fin 2) * 512 + 1 * (j 1).val := rfl
  refine congrArg₂ (· + ·) (Finset.sum_congr rfl fun k _ => congrArg₂ (· * ·) ?_ ?_) ?_
  · exact blk0_apply V c t _ _ (by show ((((cfg0.win 5).blk t).view.emb j) 0).val = t.val * 1024 + (j 0).val; omega) rfl
  · exact blk1_apply V c t _ _ rfl (by show ((((cfg0.win 5).blk t).view.emb j) 1).val = (j 1).val; omega)
  · exact blk2_apply V c t _ _ rfl (by show ((((cfg0.win 5).blk t).view.emb j) 1).val = (j 1).val; omega)

/-- Point `t` writes back, into the outgoing-message array, block `t` of the message array of the state, the second
    weight and the second bias row as the region finds them. -/
theorem flushed6_eq (c : Dev nD) (t : Fin cfg0.N) :
    (dat V c).flushed 6 t = ((cfg0.win 6).blk t).view.read (Elt Ideal)
      (msg (V c (Pipeline.arrRef spec0 0)) (V c (Pipeline.arrRef spec0 3)) (V c (Pipeline.arrRef spec0 4))) := by
  show (cfg0.win 6).cut (grid0.coords t) ((dat V c).after 6 t) = _
  rw [after6]
  funext j
  obtain ⟨-, -, -, -, -, -, -, -, -, -, -, -, e60, e61⟩ := index_facts t
  show sOut (blk V c 0 t) (blk V c 3 t) (blk V c 4 t) j
    = msg (V c (Pipeline.arrRef spec0 0)) (V c (Pipeline.arrRef spec0 3)) (V c (Pipeline.arrRef spec0 4)) (((cfg0.win 6).blk t).view.emb j)
  refine (sOut_apply (blk V c 0 t) (blk V c 3 t) (blk V c 4 t) j).trans ?_
  unfold msg
  have hr : ((((cfg0.win 6).blk t).view.emb j) 0).val = win0_6.index t (0 : Fin 2) * 1024 + 1 * (j 0).val := rfl
  have hq : ((((cfg0.win 6).blk t).view.emb j) 1).val = win0_6.index t (1 : Fin 2) * 512 + 1 * (j 1).val := rfl
  refine congrArg₂ (· + ·) (Finset.sum_congr rfl fun k _ => congrArg₂ (· * ·) ?_ ?_) ?_
  · exact blk0_apply V c t _ _ (by show ((((cfg0.win 6).blk t).view.emb j) 0).val = t.val * 1024 + (j 0).val; omega) rfl
  · exact blk3_apply V c t _ _ rfl (by show ((((cfg0.win 6).blk t).view.emb j) 1).val = (j 1).val; omega)
  · exact blk4_apply V c t _ _ rfl (by show ((((cfg0.win 6).blk t).view.emb j) 1).val = (j 1).val; omega)

/-- An index of a message array is in point `t`'s block iff each coordinate is in the block's range on its axis. -/
theorem mem_blk5 (t : Fin cfg0.N) (i : S4096x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole (Pipeline.arrRef spec0 5)).slice (win0_5.rect t)).set ↔ _
  rw [View.set_slice_whole, Rect.mem_set_unit]
  exact Iff.rfl

/-- The same for the outgoing-message window. -/
theorem mem_blk6 (t : Fin cfg0.N) (i : S4096x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole (Pipeline.arrRef spec0 6)).slice (win0_6.rect t)).set ↔ _
  rw [View.set_slice_whole, Rect.mem_set_unit]
  exact Iff.rfl

/-- The point whose block holds row `r` is `r / 1024`. -/
def pointOf (i : S4096x512.Idx) : Fin cfg0.N :=
  ⟨(i 0).val / 1024, by have h : (i 0).val < 4096 := (i 0).isLt; rw [show cfg0.N = 4 from N_0]; omega⟩

/-- The blocks of the incoming-message window tile its array: every entry is in the block of the point of its row. -/
theorem cover5 (i : S4096x512.Idx) :
    ∃ t : Fin cfg0.N, (cfg0.win 5).flush t = true ∧ i ∈ ((cfg0.win 5).blk t).view.set := by
  have hi0 : (i 0).val < 4096 := (i 0).isLt
  have hi1 : (i 1).val < 512 := (i 1).isLt
  have ht : (pointOf i).val = (i 0).val / 1024 := rfl
  obtain ⟨-, -, -, -, -, -, -, -, -, -, e0, e1, -⟩ := index_facts (pointOf i)
  refine ⟨pointOf i, flush0_5 (pointOf i), ?_⟩
  rw [mem_blk5]
  intro a
  match a with
  | ⟨0, _⟩ => show win0_5.index (pointOf i) (0 : Fin 2) * 1024 ≤ (i 0).val
                ∧ (i 0).val < win0_5.index (pointOf i) (0 : Fin 2) * 1024 + 1024; omega
  | ⟨1, _⟩ => show win0_5.index (pointOf i) (1 : Fin 2) * 512 ≤ (i 1).val
                ∧ (i 1).val < win0_5.index (pointOf i) (1 : Fin 2) * 512 + 512; omega

/-- The blocks of the outgoing-message window tile its array likewise. -/
theorem cover6 (i : S4096x512.Idx) :
    ∃ t : Fin cfg0.N, (cfg0.win 6).flush t = true ∧ i ∈ ((cfg0.win 6).blk t).view.set := by
  have hi0 : (i 0).val < 4096 := (i 0).isLt
  have hi1 : (i 1).val < 512 := (i 1).isLt
  have ht : (pointOf i).val = (i 0).val / 1024 := rfl
  obtain ⟨-, -, -, -, -, -, -, -, -, -, -, -, e0, e1⟩ := index_facts (pointOf i)
  refine ⟨pointOf i, flush0_6 (pointOf i), ?_⟩
  rw [mem_blk6]
  intro a
  match a with
  | ⟨0, _⟩ => show win0_6.index (pointOf i) (0 : Fin 2) * 1024 ≤ (i 0).val
                ∧ (i 0).val < win0_6.index (pointOf i) (0 : Fin 2) * 1024 + 1024; omega
  | ⟨1, _⟩ => show win0_6.index (pointOf i) (1 : Fin 2) * 512 ≤ (i 1).val
                ∧ (i 1).val < win0_6.index (pointOf i) (1 : Fin 2) * 512 + 512; omega

/-- THE INCOMING-MESSAGE ARRAY after the region: entry (r, q) is row r of the state array against column q of the first
    weight, plus the first bias row at column q — all as the region finds them. -/
theorem arr5 (c : Dev nD) :
    (dat V c).arrAt 5 cfg0.N
      = msg (V c (Pipeline.arrRef spec0 0)) (V c (Pipeline.arrRef spec0 1)) (V c (Pipeline.arrRef spec0 2)) := by
  have hG : ∀ t, (cfg0.win 5).flush t = true → (dat V c).flushed 5 t = ((cfg0.win 5).blk t).view.read (Elt Ideal)
      (msg (V c (Pipeline.arrRef spec0 0)) (V c (Pipeline.arrRef spec0 1)) (V c (Pipeline.arrRef spec0 2))) :=
    fun t _ => flushed5_eq V c t
  exact Dat.arrAt_eq_of_cover (dat V c) 5 _ hG cover5

/-- THE OUTGOING-MESSAGE ARRAY after the region: the same with the second weight and the second bias row. -/
theorem arr6 (c : Dev nD) :
    (dat V c).arrAt 6 cfg0.N
      = msg (V c (Pipeline.arrRef spec0 0)) (V c (Pipeline.arrRef spec0 3)) (V c (Pipeline.arrRef spec0 4)) := by
  have hG : ∀ t, (cfg0.win 6).flush t = true → (dat V c).flushed 6 t = ((cfg0.win 6).blk t).view.read (Elt Ideal)
      (msg (V c (Pipeline.arrRef spec0 0)) (V c (Pipeline.arrRef spec0 3)) (V c (Pipeline.arrRef spec0 4))) :=
    fun t _ => flushed6_eq V c t
  exact Dat.arrAt_eq_of_cover (dat V c) 6 _ hG cover6
/-! ## The input arrays are never written -/

/-- Each of the five input windows' arrays — the state, the two weights, the two bias rows — ends as the region finds it. -/
theorem arr0 (c : Dev nD) : (dat V c).arrAt 0 cfg0.N = V c (Pipeline.arrRef spec0 0) :=
  ((dat V c).arrAt_in 0 rfl cfg0.N).trans (dat_A V c 0)
theorem arr1 (c : Dev nD) : (dat V c).arrAt 1 cfg0.N = V c (Pipeline.arrRef spec0 1) :=
  ((dat V c).arrAt_in 1 rfl cfg0.N).trans (dat_A V c 1)
theorem arr2 (c : Dev nD) : (dat V c).arrAt 2 cfg0.N = V c (Pipeline.arrRef spec0 2) :=
  ((dat V c).arrAt_in 2 rfl cfg0.N).trans (dat_A V c 2)
theorem arr3 (c : Dev nD) : (dat V c).arrAt 3 cfg0.N = V c (Pipeline.arrRef spec0 3) :=
  ((dat V c).arrAt_in 3 rfl cfg0.N).trans (dat_A V c 3)
theorem arr4 (c : Dev nD) : (dat V c).arrAt 4 cfg0.N = V c (Pipeline.arrRef spec0 4) :=
  ((dat V c).arrAt_in 4 rfl cfg0.N).trans (dat_A V c 4)

end Cert.KernelIdeal.MessagesValue0

end
-- ==== Proof.IdealMessagesValue2.lean ====
/-
  The values of the two edge-message arrays of region 0, read over the extended reals.

  At every grid point the body multiplies a block of 1024 rows of the node state by a 512 x 512 weight (rows of the
  state against columns of the weight, into a zero accumulator) and adds a bias row to every row of the product; a change
  of float format is the identity on the extended reals. So an entry of a result block is a finite sum of products plus one
  bias entry. The four points' result blocks are the four consecutive groups of 1024 rows of the result array, and the row
  r of the array lies in the block of point r / 1024; the weight and the bias row are the same whole arrays at every
  point. Hence, after the region, entry (r, q) of a message array is

      (sum over k of  X (r, k) * W (k, q))  +  B (0, q)

  of the state array X, the weight W and the bias row B as the region finds them, and the five input arrays are as the
  region finds them.
-/
import proofs.«121501_j55087250538634_2_alg».proof.Proof.IdealMessages2
import proofs.«121501_j55087250538634_2_alg».proof.Proof.GgnnMath
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MessagesValue2

open Cert.KernelIdeal Cert.KernelIdeal.Gen Cert.KernelIdeal.Messages2
open Idealize.ShloMosaic Idealize.ShloMosaic.TcCoe Idealize.SL.Sem
open Idealize.ShloMosaic.ValueIdx
open Idealize.ShloMosaic.Pipeline (Dat)

/-! ## The product's operand indices, one coordinate at a time -/

/-- The dimension numbers of the block product: rows of the left operand against columns of the right, contracting the
    left's axis 1 with the right's axis 0. -/
abbrev dotRC : DotDims S1024x512 S512x512 S1024x512 := dot_S1024x512_S512x512_S1024x512_1_0_0_1_n_n

/-- The left operand is read at the result's row … -/
theorem lhs_row (i : S1024x512.Idx) (q : dotRC.contr.Idx) : (dotRC.lhsIdx i q 0).val = (i 0).val := by
  unfold DotDims.lhsIdx
  rw [dif_neg (show ¬(0 : Fin S1024x512.rank) ∈ dotRC.lhsBatch by decide),
    dif_pos (show (0 : Fin S1024x512.rank) ∈ dotRC.lhsNonContracting by decide)]
  rfl

/-- … and at the contracted coordinate as its column; -/
theorem lhs_col (i : S1024x512.Idx) (q : dotRC.contr.Idx) : (dotRC.lhsIdx i q 1).val = (q ⟨0, by decide⟩).val :=
  dotRC.lhsIdx_val_of_single rfl i q

/-- the right operand at the contracted coordinate as its row … -/
theorem rhs_row (i : S1024x512.Idx) (q : dotRC.contr.Idx) : (dotRC.rhsIdx i q 0).val = (q ⟨0, by decide⟩).val :=
  dotRC.rhsIdx_val_of_single rfl i q

/-- … and at the result's column. -/
theorem rhs_col (i : S1024x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

/-- The block product into the zero accumulator, at row `p` and column `q`: the sum over the contracted coordinate of
    the left operand's row entry times the right operand's column entry. -/
theorem product_apply (l : FVec Ideal S1024x512 .bf16) (r : FVec Ideal S512x512 .bf16) (p : Fin 1024) (q : Fin 512) :
    matmul dotRC none l r (constant (F := Ideal) S1024x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact lhs_row _ _
    | ⟨1, _⟩ => exact (lhs_col _ _).trans hk)
  have er : dotRC.rhsIdx (ix2 p q) ((contrEquiv1 dotRC 512 rfl rfl).symm k) = ix2 k q := funext fun a => Fin.ext (by
    match a with
    | ⟨0, _⟩ => exact (rhs_row _ _).trans hk
    | ⟨1, _⟩ => exact rhs_col _ _)
  rw [el, er]

/-- The bias row broadcast down the rows, at row `p` and column `q`, is the row's entry at column `q`. -/
theorem bias_apply (b : FVec Ideal S1x512 .f32) (p : Fin 1024) (q : Fin 512) :
    broadcastTo S1024x512 b broadcasts_S1x512_S1024x512 (ix2 p q) = b (ix2 0 q) := by
  refine broadcastTo_apply b _ (ix2 p q) (ix2 0 q) fun a => ?_
  match a with
  | ⟨0, _⟩ => rfl
  | ⟨1, _⟩ => rfl

/-! ## The payloads at an index -/

/-- The incoming-message payload at row `p`, column `q`: the state row against the weight column, plus the bias. -/
theorem pay_in_apply (x : Vec Ideal S1024x512 .f32) (w : Vec Ideal S512x512 .bf16) (b : Vec Ideal S1x512 .f32)
    (p : Fin 1024) (q : Fin 512) :
    k2_pay2 x w b (ix2 p q) = (∑ k : Fin 512, x (ix2 p k) * w (ix2 k q)) + b (ix2 0 q) := by
  unfold k2_pay2 k2_pay1
  simp only [shapeCast_self]
  rw [truncf_apply, addf_apply, bias_apply]
  exact congrArg (· + b (ix2 0 q)) (product_apply _ _ p q)

/-- The outgoing-message payload likewise. -/
theorem pay_out_apply (x : Vec Ideal S1024x512 .f32) (w : Vec Ideal S512x512 .bf16) (b : Vec Ideal S1x512 .f32)
    (p : Fin 1024) (q : Fin 512) :
    k2_pay3 x w b (ix2 p q) = (∑ k : Fin 512, x (ix2 p k) * w (ix2 k q)) + b (ix2 0 q) := by
  unfold k2_pay3 k2_pay1
  simp only [shapeCast_self]
  rw [truncf_apply, addf_apply, bias_apply]
  exact congrArg (· + b (ix2 0 q)) (product_apply _ _ p q)

/-! ## What a result buffer holds after the body, at an index -/

/-- The zero offsets of a whole-buffer rectangle, as the constant function. -/
theorem zeroOffsets : (![0, 0] : Fin 2 → Nat) = fun _ => 0 := funext fun a => by fin_cases a <;> rfl

/-- The incoming-message block of a state block, a weight and a bias row, at an entry: the one stored piece covers the
    buffer, so the entry is the payload's. -/
theorem sIn_apply (x : Vec Ideal S1024x512 .f32) (w : Vec Ideal S512x512 .bf16) (b : Vec Ideal S1x512 .f32) (j : S1024x512.Idx) :
    sIn x w b j = (∑ k : Fin 512, x (ix2 (j 0) k) * w (ix2 k (j 1))) + b (ix2 0 (j 1)) := by
  obtain ⟨p, q, rfl⟩ : ∃ (p : Fin 1024) (q : Fin 512), j = ix2 p q := ⟨j 0, j 1, eq_ix2 j⟩
  unfold sIn
  rw [View.canon_unit_zero zeroOffsets]
  simp only [View.ld_unit_zero (S := S1024x512) zeroOffsets, View.ld_unit_zero (S := S512x512) zeroOffsets,
    View.ld_unit_zero (S := S1x512) zeroOffsets]
  exact pay_in_apply x w b p q

/-- The outgoing-message block likewise. -/
theorem sOut_apply (x : Vec Ideal S1024x512 .f32) (w : Vec Ideal S512x512 .bf16) (b : Vec Ideal S1x512 .f32) (j : S1024x512.Idx) :
    sOut x w b j = (∑ k : Fin 512, x (ix2 (j 0) k) * w (ix2 k (j 1))) + b (ix2 0 (j 1)) := by
  obtain ⟨p, q, rfl⟩ : ∃ (p : Fin 1024) (q : Fin 512), j = ix2 p q := ⟨j 0, j 1, eq_ix2 j⟩
  unfold sOut
  rw [View.canon_unit_zero zeroOffsets]
  simp only [View.ld_unit_zero (S := S1024x512) zeroOffsets, View.ld_unit_zero (S := S512x512) zeroOffsets,
    View.ld_unit_zero (S := S1x512) zeroOffsets]
  exact pay_out_apply x w b p q

/-! ## The whole message array -/

/-- The edge-message array of a state array `X`, a weight `W` and a bias row `B`: entry (r, q) is row r of `X` against
    column q of `W`, plus `B` at column q. -/
def msg (X : S4096x512.Idx → EReal) (W : S512x512.Idx → EReal) (B : S1x512.Idx → EReal) : S4096x512.Idx → EReal :=
  fun i => (∑ k : Fin 512, X (ix2 (i 0) k) * W (ix2 k (i 1))) + B (ix2 0 (i 1))

theorem msg_apply (X : S4096x512.Idx → EReal) (W : S512x512.Idx → EReal) (B : S1x512.Idx → EReal) (i : S4096x512.Idx) :
    msg X W B i = (∑ k : Fin 512, X (ix2 (i 0) k) * W (ix2 k (i 1))) + B (ix2 0 (i 1)) := rfl

/-- The message array is the linear layer `x · Mᵀ + b` whose matrix `M` is the weight operand transposed
    (`M q k = W (k, q)`): the same sum of the same products, entry by entry. -/
theorem msg_eq_affine (X : S4096x512.Idx → EReal) (W : S512x512.Idx → EReal) (B : S1x512.Idx → EReal) (i : S4096x512.Idx) :
    msg X W B i = Cert.GgnnMath.affine (fun p k => X (ix2 p k)) (fun q k => W (ix2 k q)) (fun q => B (ix2 0 q)) (i 0) (i 1) := rfl

variable (V : (c : Dev nD) → (b : Ref sig .tc) → Buf (Elt Ideal) ((c : Thread nD τ).loc b))

/-- The printed index maps over the grid: the state window and the two result windows sit at block row `t` at point `t`,
    the weights and bias rows at block (0, 0) at every point. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-! ## The input blocks as parts of their arrays -/

/-- The state block at point `t` is rows `1024 t … 1024 t + 1023` of the state array. -/
theorem blk0_apply (c : Dev nD) (t : Fin cfg2.N) (y : S1024x512.Idx) (i : S4096x512.Idx)
    (h0 : (i 0).val = t.val * 1024 + (y 0).val) (h1 : (i 1).val = (y 1).val) :
    blk V c 0 t y = (V c (Pipeline.arrRef spec2 0) : S4096x512.Idx → EReal) i := by
  obtain ⟨e0, e1, -⟩ := index_facts t
  unfold blk
  show V c (Pipeline.arrRef spec2 0) (((cfg2.win 0).blk t).view.emb y) = _
  refine congrArg _ (funext fun a => Fin.ext ?_)
  match a with
  | ⟨0, _⟩ => show win2_0.index t (0 : Fin 2) * 1024 + 1 * (y 0).val = (i 0).val; omega
  | ⟨1, _⟩ => show win2_0.index t (1 : Fin 2) * 512 + 1 * (y 1).val = (i 1).val; omega

/-- The first weight's block is the whole weight at every point. -/
theorem blk1_apply (c : Dev nD) (t : Fin cfg2.N) (y i : S512x512.Idx)
    (h0 : (i 0).val = (y 0).val) (h1 : (i 1).val = (y 1).val) :
    blk V c 1 t y = (V c (Pipeline.arrRef spec2 1) : S512x512.Idx → EReal) i := by
  obtain ⟨-, -, e0, e1, -⟩ := index_facts t
  unfold blk
  show V c (Pipeline.arrRef spec2 1) (((cfg2.win 1).blk t).view.emb y) = _
  refine congrArg _ (funext fun a => Fin.ext ?_)
  match a with
  | ⟨0, _⟩ => show win2_1.index t (0 : Fin 2) * 512 + 1 * (y 0).val = (i 0).val; omega
  | ⟨1, _⟩ => show win2_1.index t (1 : Fin 2) * 512 + 1 * (y 1).val = (i 1).val; omega

/-- The first bias row's block is the whole row at every point. -/
theorem blk2_apply (c : Dev nD) (t : Fin cfg2.N) (y i : S1x512.Idx)
    (h0 : (i 0).val = (y 0).val) (h1 : (i 1).val = (y 1).val) :
    blk V c 2 t y = (V c (Pipeline.arrRef spec2 2) : S1x512.Idx → EReal) i := by
  obtain ⟨-, -, -, -, e0, e1, -⟩ := index_facts t
  unfold blk
  show V c (Pipeline.arrRef spec2 2) (((cfg2.win 2).blk t).view.emb y) = _
  refine congrArg _ (funext fun a => Fin.ext ?_)
  match a with
  | ⟨0, _⟩ => show win2_2.index t (0 : Fin 2) * 1 + 1 * (y 0).val = (i 0).val; omega
  | ⟨1, _⟩ => show win2_2.index t (1 : Fin 2) * 512 + 1 * (y 1).val = (i 1).val; omega

/-- The second weight's block is the whole weight at every point. -/
theorem blk3_apply (c : Dev nD) (t : Fin cfg2.N) (y i : S512x512.Idx)
    (h0 : (i 0).val = (y 0).val) (h1 : (i 1).val = (y 1).val) :
    blk V c 3 t y = (V c (Pipeline.arrRef spec2 3) : S512x512.Idx → EReal) i := by
  obtain ⟨-, -, -, -, -, -, e0, e1, -⟩ := index_facts t
  unfold blk
  show V c (Pipeline.arrRef spec2 3) (((cfg2.win 3).blk t).view.emb y) = _
  refine congrArg _ (funext fun a => Fin.ext ?_)
  match a with
  | ⟨0, _⟩ => show win2_3.index t (0 : Fin 2) * 512 + 1 * (y 0).val = (i 0).val; omega
  | ⟨1, _⟩ => show win2_3.index t (1 : Fin 2) * 512 + 1 * (y 1).val = (i 1).val; omega

/-- The second bias row's block is the whole row at every point. -/
theorem blk4_apply (c : Dev nD) (t : Fin cfg2.N) (y i : S1x512.Idx)
    (h0 : (i 0).val = (y 0).val) (h1 : (i 1).val = (y 1).val) :
    blk V c 4 t y = (V c (Pipeline.arrRef spec2 4) : S1x512.Idx → EReal) i := by
  obtain ⟨-, -, -, -, -, -, -, -, e0, e1, -⟩ := index_facts t
  unfold blk
  show V c (Pipeline.arrRef spec2 4) (((cfg2.win 4).blk t).view.emb y) = _
  refine congrArg _ (funext fun a => Fin.ext ?_)
  match a with
  | ⟨0, _⟩ => show win2_4.index t (0 : Fin 2) * 1 + 1 * (y 0).val = (i 0).val; omega
  | ⟨1, _⟩ => show win2_4.index t (1 : Fin 2) * 512 + 1 * (y 1).val = (i 1).val; omega

/-! ## What each point writes back, and the arrays after the region -/

/-- Point `t` writes back, into the incoming-message array, block `t` of the message array of the state, the first
    weight and the first bias row as the region finds them. -/
theorem flushed5_eq (c : Dev nD) (t : Fin cfg2.N) :
    (dat V c).flushed 5 t = ((cfg2.win 5).blk t).view.read (Elt Ideal)
      (msg (V c (Pipeline.arrRef spec2 0)) (V c (Pipeline.arrRef spec2 1)) (V c (Pipeline.arrRef spec2 2))) := by
  show (cfg2.win 5).cut (grid2.coords t) ((dat V c).after 5 t) = _
  rw [after5]
  funext j
  obtain ⟨-, -, -, -, -, -, -, -, -, -, e50, e51, -⟩ := index_facts t
  show sIn (blk V c 0 t) (blk V c 1 t) (blk V c 2 t) j
    = msg (V c (Pipeline.arrRef spec2 0)) (V c (Pipeline.arrRef spec2 1)) (V c (Pipeline.arrRef spec2 2)) (((cfg2.win 5).blk t).view.emb j)
  refine (sIn_apply (blk V c 0 t) (blk V c 1 t) (blk V c 2 t) j).trans ?_
  unfold msg
  have hr : ((((cfg2.win 5).blk t).view.emb j) 0).val = win2_5.index t (0 : Fin 2) * 1024 + 1 * (j 0).val := rfl
  have hq : ((((cfg2.win 5).blk t).view.emb j) 1).val = win2_5.index t (1 : Fin 2) * 512 + 1 * (j 1).val := rfl
  refine congrArg₂ (· + ·) (Finset.sum_congr rfl fun k _ => congrArg₂ (· * ·) ?_ ?_) ?_
  · exact blk0_apply V c t _ _ (by show ((((cfg2.win 5).blk t).view.emb j) 0).val = t.val * 1024 + (j 0).val; omega) rfl
  · exact blk1_apply V c t _ _ rfl (by show ((((cfg2.win 5).blk t).view.emb j) 1).val = (j 1).val; omega)
  · exact blk2_apply V c t _ _ rfl (by show ((((cfg2.win 5).blk t).view.emb j) 1).val = (j 1).val; omega)

/-- Point `t` writes back, into the outgoing-message array, block `t` of the message array of the state, the second
    weight and the second bias row as the region finds them. -/
theorem flushed6_eq (c : Dev nD) (t : Fin cfg2.N) :
    (dat V c).flushed 6 t = ((cfg2.win 6).blk t).view.read (Elt Ideal)
      (msg (V c (Pipeline.arrRef spec2 0)) (V c (Pipeline.arrRef spec2 3)) (V c (Pipeline.arrRef spec2 4))) := by
  show (cfg2.win 6).cut (grid2.coords t) ((dat V c).after 6 t) = _
  rw [after6]
  funext j
  obtain ⟨-, -, -, -, -, -, -, -, -, -, -, -, e60, e61⟩ := index_facts t
  show sOut (blk V c 0 t) (blk V c 3 t) (blk V c 4 t) j
    = msg (V c (Pipeline.arrRef spec2 0)) (V c (Pipeline.arrRef spec2 3)) (V c (Pipeline.arrRef spec2 4)) (((cfg2.win 6).blk t).view.emb j)
  refine (sOut_apply (blk V c 0 t) (blk V c 3 t) (blk V c 4 t) j).trans ?_
  unfold msg
  have hr : ((((cfg2.win 6).blk t).view.emb j) 0).val = win2_6.index t (0 : Fin 2) * 1024 + 1 * (j 0).val := rfl
  have hq : ((((cfg2.win 6).blk t).view.emb j) 1).val = win2_6.index t (1 : Fin 2) * 512 + 1 * (j 1).val := rfl
  refine congrArg₂ (· + ·) (Finset.sum_congr rfl fun k _ => congrArg₂ (· * ·) ?_ ?_) ?_
  · exact blk0_apply V c t _ _ (by show ((((cfg2.win 6).blk t).view.emb j) 0).val = t.val * 1024 + (j 0).val; omega) rfl
  · exact blk3_apply V c t _ _ rfl (by show ((((cfg2.win 6).blk t).view.emb j) 1).val = (j 1).val; omega)
  · exact blk4_apply V c t _ _ rfl (by show ((((cfg2.win 6).blk t).view.emb j) 1).val = (j 1).val; omega)

/-- An index of a message array is in point `t`'s block iff each coordinate is in the block's range on its axis. -/
theorem mem_blk5 (t : Fin cfg2.N) (i : S4096x512.Idx) :
    i ∈ ((cfg2.win 5).blk t).view.set ↔ ∀ a : Fin 2, win2_5.index t a * S1024x512.size a ≤ (i a).val
      ∧ (i a).val < win2_5.index t a * S1024x512.size a + S1024x512.size a := by
  show i ∈ ((View.whole (Pipeline.arrRef spec2 5)).slice (win2_5.rect t)).set ↔ _
  rw [View.set_slice_whole, Rect.mem_set_unit]
  exact Iff.rfl

/-- The same for the outgoing-message window. -/
theorem mem_blk6 (t : Fin cfg2.N) (i : S4096x512.Idx) :
    i ∈ ((cfg2.win 6).blk t).view.set ↔ ∀ a : Fin 2, win2_6.index t a * S1024x512.size a ≤ (i a).val
      ∧ (i a).val < win2_6.index t a * S1024x512.size a + S1024x512.size a := by
  show i ∈ ((View.whole (Pipeline.arrRef spec2 6)).slice (win2_6.rect t)).set ↔ _
  rw [View.set_slice_whole, Rect.mem_set_unit]
  exact Iff.rfl

/-- The point whose block holds row `r` is `r / 1024`. -/
def pointOf (i : S4096x512.Idx) : Fin cfg2.N :=
  ⟨(i 0).val / 1024, by have h : (i 0).val < 4096 := (i 0).isLt; rw [show cfg2.N = 4 from N_2]; omega⟩

/-- The blocks of the incoming-message window tile its array: every entry is in the block of the point of its row. -/
theorem cover5 (i : S4096x512.Idx) :
    ∃ t : Fin cfg2.N, (cfg2.win 5).flush t = true ∧ i ∈ ((cfg2.win 5).blk t).view.set := by
  have hi0 : (i 0).val < 4096 := (i 0).isLt
  have hi1 : (i 1).val < 512 := (i 1).isLt
  have ht : (pointOf i).val = (i 0).val / 1024 := rfl
  obtain ⟨-, -, -, -, -, -, -, -, -, -, e0, e1, -⟩ := index_facts (pointOf i)
  refine ⟨pointOf i, flush2_5 (pointOf i), ?_⟩
  rw [mem_blk5]
  intro a
  match a with
  | ⟨0, _⟩ => show win2_5.index (pointOf i) (0 : Fin 2) * 1024 ≤ (i 0).val
                ∧ (i 0).val < win2_5.index (pointOf i) (0 : Fin 2) * 1024 + 1024; omega
  | ⟨1, _⟩ => show win2_5.index (pointOf i) (1 : Fin 2) * 512 ≤ (i 1).val
                ∧ (i 1).val < win2_5.index (pointOf i) (1 : Fin 2) * 512 + 512; omega

/-- The blocks of the outgoing-message window tile its array likewise. -/
theorem cover6 (i : S4096x512.Idx) :
    ∃ t : Fin cfg2.N, (cfg2.win 6).flush t = true ∧ i ∈ ((cfg2.win 6).blk t).view.set := by
  have hi0 : (i 0).val < 4096 := (i 0).isLt
  have hi1 : (i 1).val < 512 := (i 1).isLt
  have ht : (pointOf i).val = (i 0).val / 1024 := rfl
  obtain ⟨-, -, -, -, -, -, -, -, -, -, -, -, e0, e1⟩ := index_facts (pointOf i)
  refine ⟨pointOf i, flush2_6 (pointOf i), ?_⟩
  rw [mem_blk6]
  intro a
  match a with
  | ⟨0, _⟩ => show win2_6.index (pointOf i) (0 : Fin 2) * 1024 ≤ (i 0).val
                ∧ (i 0).val < win2_6.index (pointOf i) (0 : Fin 2) * 1024 + 1024; omega
  | ⟨1, _⟩ => show win2_6.index (pointOf i) (1 : Fin 2) * 512 ≤ (i 1).val
                ∧ (i 1).val < win2_6.index (pointOf i) (1 : Fin 2) * 512 + 512; omega

/-- THE INCOMING-MESSAGE ARRAY after the region: entry (r, q) is row r of the state array against column q of the first
    weight, plus the first bias row at column q — all as the region finds them. -/
theorem arr5 (c : Dev nD) :
    (dat V c).arrAt 5 cfg2.N
      = msg (V c (Pipeline.arrRef spec2 0)) (V c (Pipeline.arrRef spec2 1)) (V c (Pipeline.arrRef spec2 2)) := by
  have hG : ∀ t, (cfg2.win 5).flush t = true → (dat V c).flushed 5 t = ((cfg2.win 5).blk t).view.read (Elt Ideal)
      (msg (V c (Pipeline.arrRef spec2 0)) (V c (Pipeline.arrRef spec2 1)) (V c (Pipeline.arrRef spec2 2))) :=
    fun t _ => flushed5_eq V c t
  exact Dat.arrAt_eq_of_cover (dat V c) 5 _ hG cover5

/-- THE OUTGOING-MESSAGE ARRAY after the region: the same with the second weight and the second bias row. -/
theorem arr6 (c : Dev nD) :
    (dat V c).arrAt 6 cfg2.N
      = msg (V c (Pipeline.arrRef spec2 0)) (V c (Pipeline.arrRef spec2 3)) (V c (Pipeline.arrRef spec2 4)) := by
  have hG : ∀ t, (cfg2.win 6).flush t = true → (dat V c).flushed 6 t = ((cfg2.win 6).blk t).view.read (Elt Ideal)
      (msg (V c (Pipeline.arrRef spec2 0)) (V c (Pipeline.arrRef spec2 3)) (V c (Pipeline.arrRef spec2 4))) :=
    fun t _ => flushed6_eq V c t
  exact Dat.arrAt_eq_of_cover (dat V c) 6 _ hG cover6
/-! ## The input arrays are never written -/

/-- Each of the five input windows' arrays — the state, the two weights, the two bias rows — ends as the region finds it. -/
theorem arr0 (c : Dev nD) : (dat V c).arrAt 0 cfg2.N = V c (Pipeline.arrRef spec2 0) :=
  ((dat V c).arrAt_in 0 rfl cfg2.N).trans (dat_A V c 0)
theorem arr1 (c : Dev nD) : (dat V c).arrAt 1 cfg2.N = V c (Pipeline.arrRef spec2 1) :=
  ((dat V c).arrAt_in 1 rfl cfg2.N).trans (dat_A V c 1)
theorem arr2 (c : Dev nD) : (dat V c).arrAt 2 cfg2.N = V c (Pipeline.arrRef spec2 2) :=
  ((dat V c).arrAt_in 2 rfl cfg2.N).trans (dat_A V c 2)
theorem arr3 (c : Dev nD) : (dat V c).arrAt 3 cfg2.N = V c (Pipeline.arrRef spec2 3) :=
  ((dat V c).arrAt_in 3 rfl cfg2.N).trans (dat_A V c 3)
theorem arr4 (c : Dev nD) : (dat V c).arrAt 4 cfg2.N = V c (Pipeline.arrRef spec2 4) :=
  ((dat V c).arrAt_in 4 rfl cfg2.N).trans (dat_A V c 4)

end Cert.KernelIdeal.MessagesValue2

end
-- ==== Proof.IdealMessagesValue4.lean ====
/-
  The values of the two edge-message arrays of region 0, read over the extended reals.

  At every grid point the body multiplies a block of 1024 rows of the node state by a 512 x 512 weight (rows of the
  state against columns of the weight, into a zero accumulator) and adds a bias row to every row of the product; a change
  of float format is the identity on the extended reals. So an entry of a result block is a finite sum of products plus one
  bias entry. The four points' result blocks are the four consecutive groups of 1024 rows of the result array, and the row
  r of the array lies in the block of point r / 1024; the weight and the bias row are the same whole arrays at every
  point. Hence, after the region, entry (r, q) of a message array is

      (sum over k of  X (r, k) * W (k, q))  +  B (0, q)

  of the state array X, the weight W and the bias row B as the region finds them, and the five input arrays are as the
  region finds them.
-/
import proofs.«121501_j55087250538634_2_alg».proof.Proof.IdealMessages4
import proofs.«121501_j55087250538634_2_alg».proof.Proof.GgnnMath
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MessagesValue4

open Cert.KernelIdeal Cert.KernelIdeal.Gen Cert.KernelIdeal.Messages4
open Idealize.ShloMosaic Idealize.ShloMosaic.TcCoe Idealize.SL.Sem
open Idealize.ShloMosaic.ValueIdx
open Idealize.ShloMosaic.Pipeline (Dat)

/-! ## The product's operand indices, one coordinate at a time -/

/-- The dimension numbers of the block product: rows of the left operand against columns of the right, contracting the
    left's axis 1 with the right's axis 0. -/
abbrev dotRC : DotDims S1024x512 S512x512 S1024x512 := dot_S1024x512_S512x512_S1024x512_1_0_0_1_n_n

/-- The left operand is read at the result's row … -/
theorem lhs_row (i : S1024x512.Idx) (q : dotRC.contr.Idx) : (dotRC.lhsIdx i q 0).val = (i 0).val := by
  unfold DotDims.lhsIdx
  rw [dif_neg (show ¬(0 : Fin S1024x512.rank) ∈ dotRC.lhsBatch by decide),
    dif_pos (show (0 : Fin S1024x512.rank) ∈ dotRC.lhsNonContracting by decide)]
  rfl

/-- … and at the contracted coordinate as its column; -/
theorem lhs_col (i : S1024x512.Idx) (q : dotRC.contr.Idx) : (dotRC.lhsIdx i q 1).val = (q ⟨0, by decide⟩).val :=
  dotRC.lhsIdx_val_of_single rfl i q

/-- the right operand at the contracted coordinate as its row … -/
theorem rhs_row (i : S1024x512.Idx) (q : dotRC.contr.Idx) : (dotRC.rhsIdx i q 0).val = (q ⟨0, by decide⟩).val :=
  dotRC.rhsIdx_val_of_single rfl i q

/-- … and at the result's column. -/
theorem rhs_col (i : S1024x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

/-- The block product into the zero accumulator, at row `p` and column `q`: the sum over the contracted coordinate of
    the left operand's row entry times the right operand's column entry. -/
theorem product_apply (l : FVec Ideal S1024x512 .bf16) (r : FVec Ideal S512x512 .bf16) (p : Fin 1024) (q : Fin 512) :
    matmul dotRC none l r (constant (F := Ideal) S1024x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact lhs_row _ _
    | ⟨1, _⟩ => exact (lhs_col _ _).trans hk)
  have er : dotRC.rhsIdx (ix2 p q) ((contrEquiv1 dotRC 512 rfl rfl).symm k) = ix2 k q := funext fun a => Fin.ext (by
    match a with
    | ⟨0, _⟩ => exact (rhs_row _ _).trans hk
    | ⟨1, _⟩ => exact rhs_col _ _)
  rw [el, er]

/-- The bias row broadcast down the rows, at row `p` and column `q`, is the row's entry at column `q`. -/
theorem bias_apply (b : FVec Ideal S1x512 .f32) (p : Fin 1024) (q : Fin 512) :
    broadcastTo S1024x512 b broadcasts_S1x512_S1024x512 (ix2 p q) = b (ix2 0 q) := by
  refine broadcastTo_apply b _ (ix2 p q) (ix2 0 q) fun a => ?_
  match a with
  | ⟨0, _⟩ => rfl
  | ⟨1, _⟩ => rfl

/-! ## The payloads at an index -/

/-- The incoming-message payload at row `p`, column `q`: the state row against the weight column, plus the bias. -/
theorem pay_in_apply (x : Vec Ideal S1024x512 .f32) (w : Vec Ideal S512x512 .bf16) (b : Vec Ideal S1x512 .f32)
    (p : Fin 1024) (q : Fin 512) :
    k4_pay2 x w b (ix2 p q) = (∑ k : Fin 512, x (ix2 p k) * w (ix2 k q)) + b (ix2 0 q) := by
  unfold k4_pay2 k4_pay1
  simp only [shapeCast_self]
  rw [truncf_apply, addf_apply, bias_apply]
  exact congrArg (· + b (ix2 0 q)) (product_apply _ _ p q)

/-- The outgoing-message payload likewise. -/
theorem pay_out_apply (x : Vec Ideal S1024x512 .f32) (w : Vec Ideal S512x512 .bf16) (b : Vec Ideal S1x512 .f32)
    (p : Fin 1024) (q : Fin 512) :
    k4_pay3 x w b (ix2 p q) = (∑ k : Fin 512, x (ix2 p k) * w (ix2 k q)) + b (ix2 0 q) := by
  unfold k4_pay3 k4_pay1
  simp only [shapeCast_self]
  rw [truncf_apply, addf_apply, bias_apply]
  exact congrArg (· + b (ix2 0 q)) (product_apply _ _ p q)

/-! ## What a result buffer holds after the body, at an index -/

/-- The zero offsets of a whole-buffer rectangle, as the constant function. -/
theorem zeroOffsets : (![0, 0] : Fin 2 → Nat) = fun _ => 0 := funext fun a => by fin_cases a <;> rfl

/-- The incoming-message block of a state block, a weight and a bias row, at an entry: the one stored piece covers the
    buffer, so the entry is the payload's. -/
theorem sIn_apply (x : Vec Ideal S1024x512 .f32) (w : Vec Ideal S512x512 .bf16) (b : Vec Ideal S1x512 .f32) (j : S1024x512.Idx) :
    sIn x w b j = (∑ k : Fin 512, x (ix2 (j 0) k) * w (ix2 k (j 1))) + b (ix2 0 (j 1)) := by
  obtain ⟨p, q, rfl⟩ : ∃ (p : Fin 1024) (q : Fin 512), j = ix2 p q := ⟨j 0, j 1, eq_ix2 j⟩
  unfold sIn
  rw [View.canon_unit_zero zeroOffsets]
  simp only [View.ld_unit_zero (S := S1024x512) zeroOffsets, View.ld_unit_zero (S := S512x512) zeroOffsets,
    View.ld_unit_zero (S := S1x512) zeroOffsets]
  exact pay_in_apply x w b p q

/-- The outgoing-message block likewise. -/
theorem sOut_apply (x : Vec Ideal S1024x512 .f32) (w : Vec Ideal S512x512 .bf16) (b : Vec Ideal S1x512 .f32) (j : S1024x512.Idx) :
    sOut x w b j = (∑ k : Fin 512, x (ix2 (j 0) k) * w (ix2 k (j 1))) + b (ix2 0 (j 1)) := by
  obtain ⟨p, q, rfl⟩ : ∃ (p : Fin 1024) (q : Fin 512), j = ix2 p q := ⟨j 0, j 1, eq_ix2 j⟩
  unfold sOut
  rw [View.canon_unit_zero zeroOffsets]
  simp only [View.ld_unit_zero (S := S1024x512) zeroOffsets, View.ld_unit_zero (S := S512x512) zeroOffsets,
    View.ld_unit_zero (S := S1x512) zeroOffsets]
  exact pay_out_apply x w b p q

/-! ## The whole message array -/

/-- The edge-message array of a state array `X`, a weight `W` and a bias row `B`: entry (r, q) is row r of `X` against
    column q of `W`, plus `B` at column q. -/
def msg (X : S4096x512.Idx → EReal) (W : S512x512.Idx → EReal) (B : S1x512.Idx → EReal) : S4096x512.Idx → EReal :=
  fun i => (∑ k : Fin 512, X (ix2 (i 0) k) * W (ix2 k (i 1))) + B (ix2 0 (i 1))

theorem msg_apply (X : S4096x512.Idx → EReal) (W : S512x512.Idx → EReal) (B : S1x512.Idx → EReal) (i : S4096x512.Idx) :
    msg X W B i = (∑ k : Fin 512, X (ix2 (i 0) k) * W (ix2 k (i 1))) + B (ix2 0 (i 1)) := rfl

/-- The message array is the linear layer `x · Mᵀ + b` whose matrix `M` is the weight operand transposed
    (`M q k = W (k, q)`): the same sum of the same products, entry by entry. -/
theorem msg_eq_affine (X : S4096x512.Idx → EReal) (W : S512x512.Idx → EReal) (B : S1x512.Idx → EReal) (i : S4096x512.Idx) :
    msg X W B i = Cert.GgnnMath.affine (fun p k => X (ix2 p k)) (fun q k => W (ix2 k q)) (fun q => B (ix2 0 q)) (i 0) (i 1) := rfl

variable (V : (c : Dev nD) → (b : Ref sig .tc) → Buf (Elt Ideal) ((c : Thread nD τ).loc b))

/-- The printed index maps over the grid: the state window and the two result windows sit at block row `t` at point `t`,
    the weights and bias rows at block (0, 0) at every point. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-! ## The input blocks as parts of their arrays -/

/-- The state block at point `t` is rows `1024 t … 1024 t + 1023` of the state array. -/
theorem blk0_apply (c : Dev nD) (t : Fin cfg4.N) (y : S1024x512.Idx) (i : S4096x512.Idx)
    (h0 : (i 0).val = t.val * 1024 + (y 0).val) (h1 : (i 1).val = (y 1).val) :
    blk V c 0 t y = (V c (Pipeline.arrRef spec4 0) : S4096x512.Idx → EReal) i := by
  obtain ⟨e0, e1, -⟩ := index_facts t
  unfold blk
  show V c (Pipeline.arrRef spec4 0) (((cfg4.win 0).blk t).view.emb y) = _
  refine congrArg _ (funext fun a => Fin.ext ?_)
  match a with
  | ⟨0, _⟩ => show win4_0.index t (0 : Fin 2) * 1024 + 1 * (y 0).val = (i 0).val; omega
  | ⟨1, _⟩ => show win4_0.index t (1 : Fin 2) * 512 + 1 * (y 1).val = (i 1).val; omega

/-- The first weight's block is the whole weight at every point. -/
theorem blk1_apply (c : Dev nD) (t : Fin cfg4.N) (y i : S512x512.Idx)
    (h0 : (i 0).val = (y 0).val) (h1 : (i 1).val = (y 1).val) :
    blk V c 1 t y = (V c (Pipeline.arrRef spec4 1) : S512x512.Idx → EReal) i := by
  obtain ⟨-, -, e0, e1, -⟩ := index_facts t
  unfold blk
  show V c (Pipeline.arrRef spec4 1) (((cfg4.win 1).blk t).view.emb y) = _
  refine congrArg _ (funext fun a => Fin.ext ?_)
  match a with
  | ⟨0, _⟩ => show win4_1.index t (0 : Fin 2) * 512 + 1 * (y 0).val = (i 0).val; omega
  | ⟨1, _⟩ => show win4_1.index t (1 : Fin 2) * 512 + 1 * (y 1).val = (i 1).val; omega

/-- The first bias row's block is the whole row at every point. -/
theorem blk2_apply (c : Dev nD) (t : Fin cfg4.N) (y i : S1x512.Idx)
    (h0 : (i 0).val = (y 0).val) (h1 : (i 1).val = (y 1).val) :
    blk V c 2 t y = (V c (Pipeline.arrRef spec4 2) : S1x512.Idx → EReal) i := by
  obtain ⟨-, -, -, -, e0, e1, -⟩ := index_facts t
  unfold blk
  show V c (Pipeline.arrRef spec4 2) (((cfg4.win 2).blk t).view.emb y) = _
  refine congrArg _ (funext fun a => Fin.ext ?_)
  match a with
  | ⟨0, _⟩ => show win4_2.index t (0 : Fin 2) * 1 + 1 * (y 0).val = (i 0).val; omega
  | ⟨1, _⟩ => show win4_2.index t (1 : Fin 2) * 512 + 1 * (y 1).val = (i 1).val; omega

/-- The second weight's block is the whole weight at every point. -/
theorem blk3_apply (c : Dev nD) (t : Fin cfg4.N) (y i : S512x512.Idx)
    (h0 : (i 0).val = (y 0).val) (h1 : (i 1).val = (y 1).val) :
    blk V c 3 t y = (V c (Pipeline.arrRef spec4 3) : S512x512.Idx → EReal) i := by
  obtain ⟨-, -, -, -, -, -, e0, e1, -⟩ := index_facts t
  unfold blk
  show V c (Pipeline.arrRef spec4 3) (((cfg4.win 3).blk t).view.emb y) = _
  refine congrArg _ (funext fun a => Fin.ext ?_)
  match a with
  | ⟨0, _⟩ => show win4_3.index t (0 : Fin 2) * 512 + 1 * (y 0).val = (i 0).val; omega
  | ⟨1, _⟩ => show win4_3.index t (1 : Fin 2) * 512 + 1 * (y 1).val = (i 1).val; omega

/-- The second bias row's block is the whole row at every point. -/
theorem blk4_apply (c : Dev nD) (t : Fin cfg4.N) (y i : S1x512.Idx)
    (h0 : (i 0).val = (y 0).val) (h1 : (i 1).val = (y 1).val) :
    blk V c 4 t y = (V c (Pipeline.arrRef spec4 4) : S1x512.Idx → EReal) i := by
  obtain ⟨-, -, -, -, -, -, -, -, e0, e1, -⟩ := index_facts t
  unfold blk
  show V c (Pipeline.arrRef spec4 4) (((cfg4.win 4).blk t).view.emb y) = _
  refine congrArg _ (funext fun a => Fin.ext ?_)
  match a with
  | ⟨0, _⟩ => show win4_4.index t (0 : Fin 2) * 1 + 1 * (y 0).val = (i 0).val; omega
  | ⟨1, _⟩ => show win4_4.index t (1 : Fin 2) * 512 + 1 * (y 1).val = (i 1).val; omega

/-! ## What each point writes back, and the arrays after the region -/

/-- Point `t` writes back, into the incoming-message array, block `t` of the message array of the state, the first
    weight and the first bias row as the region finds them. -/
theorem flushed5_eq (c : Dev nD) (t : Fin cfg4.N) :
    (dat V c).flushed 5 t = ((cfg4.win 5).blk t).view.read (Elt Ideal)
      (msg (V c (Pipeline.arrRef spec4 0)) (V c (Pipeline.arrRef spec4 1)) (V c (Pipeline.arrRef spec4 2))) := by
  show (cfg4.win 5).cut (grid4.coords t) ((dat V c).after 5 t) = _
  rw [after5]
  funext j
  obtain ⟨-, -, -, -, -, -, -, -, -, -, e50, e51, -⟩ := index_facts t
  show sIn (blk V c 0 t) (blk V c 1 t) (blk V c 2 t) j
    = msg (V c (Pipeline.arrRef spec4 0)) (V c (Pipeline.arrRef spec4 1)) (V c (Pipeline.arrRef spec4 2)) (((cfg4.win 5).blk t).view.emb j)
  refine (sIn_apply (blk V c 0 t) (blk V c 1 t) (blk V c 2 t) j).trans ?_
  unfold msg
  have hr : ((((cfg4.win 5).blk t).view.emb j) 0).val = win4_5.index t (0 : Fin 2) * 1024 + 1 * (j 0).val := rfl
  have hq : ((((cfg4.win 5).blk t).view.emb j) 1).val = win4_5.index t (1 : Fin 2) * 512 + 1 * (j 1).val := rfl
  refine congrArg₂ (· + ·) (Finset.sum_congr rfl fun k _ => congrArg₂ (· * ·) ?_ ?_) ?_
  · exact blk0_apply V c t _ _ (by show ((((cfg4.win 5).blk t).view.emb j) 0).val = t.val * 1024 + (j 0).val; omega) rfl
  · exact blk1_apply V c t _ _ rfl (by show ((((cfg4.win 5).blk t).view.emb j) 1).val = (j 1).val; omega)
  · exact blk2_apply V c t _ _ rfl (by show ((((cfg4.win 5).blk t).view.emb j) 1).val = (j 1).val; omega)

/-- Point `t` writes back, into the outgoing-message array, block `t` of the message array of the state, the second
    weight and the second bias row as the region finds them. -/
theorem flushed6_eq (c : Dev nD) (t : Fin cfg4.N) :
    (dat V c).flushed 6 t = ((cfg4.win 6).blk t).view.read (Elt Ideal)
      (msg (V c (Pipeline.arrRef spec4 0)) (V c (Pipeline.arrRef spec4 3)) (V c (Pipeline.arrRef spec4 4))) := by
  show (cfg4.win 6).cut (grid4.coords t) ((dat V c).after 6 t) = _
  rw [after6]
  funext j
  obtain ⟨-, -, -, -, -, -, -, -, -, -, -, -, e60, e61⟩ := index_facts t
  show sOut (blk V c 0 t) (blk V c 3 t) (blk V c 4 t) j
    = msg (V c (Pipeline.arrRef spec4 0)) (V c (Pipeline.arrRef spec4 3)) (V c (Pipeline.arrRef spec4 4)) (((cfg4.win 6).blk t).view.emb j)
  refine (sOut_apply (blk V c 0 t) (blk V c 3 t) (blk V c 4 t) j).trans ?_
  unfold msg
  have hr : ((((cfg4.win 6).blk t).view.emb j) 0).val = win4_6.index t (0 : Fin 2) * 1024 + 1 * (j 0).val := rfl
  have hq : ((((cfg4.win 6).blk t).view.emb j) 1).val = win4_6.index t (1 : Fin 2) * 512 + 1 * (j 1).val := rfl
  refine congrArg₂ (· + ·) (Finset.sum_congr rfl fun k _ => congrArg₂ (· * ·) ?_ ?_) ?_
  · exact blk0_apply V c t _ _ (by show ((((cfg4.win 6).blk t).view.emb j) 0).val = t.val * 1024 + (j 0).val; omega) rfl
  · exact blk3_apply V c t _ _ rfl (by show ((((cfg4.win 6).blk t).view.emb j) 1).val = (j 1).val; omega)
  · exact blk4_apply V c t _ _ rfl (by show ((((cfg4.win 6).blk t).view.emb j) 1).val = (j 1).val; omega)

/-- An index of a message array is in point `t`'s block iff each coordinate is in the block's range on its axis. -/
theorem mem_blk5 (t : Fin cfg4.N) (i : S4096x512.Idx) :
    i ∈ ((cfg4.win 5).blk t).view.set ↔ ∀ a : Fin 2, win4_5.index t a * S1024x512.size a ≤ (i a).val
      ∧ (i a).val < win4_5.index t a * S1024x512.size a + S1024x512.size a := by
  show i ∈ ((View.whole (Pipeline.arrRef spec4 5)).slice (win4_5.rect t)).set ↔ _
  rw [View.set_slice_whole, Rect.mem_set_unit]
  exact Iff.rfl

/-- The same for the outgoing-message window. -/
theorem mem_blk6 (t : Fin cfg4.N) (i : S4096x512.Idx) :
    i ∈ ((cfg4.win 6).blk t).view.set ↔ ∀ a : Fin 2, win4_6.index t a * S1024x512.size a ≤ (i a).val
      ∧ (i a).val < win4_6.index t a * S1024x512.size a + S1024x512.size a := by
  show i ∈ ((View.whole (Pipeline.arrRef spec4 6)).slice (win4_6.rect t)).set ↔ _
  rw [View.set_slice_whole, Rect.mem_set_unit]
  exact Iff.rfl

/-- The point whose block holds row `r` is `r / 1024`. -/
def pointOf (i : S4096x512.Idx) : Fin cfg4.N :=
  ⟨(i 0).val / 1024, by have h : (i 0).val < 4096 := (i 0).isLt; rw [show cfg4.N = 4 from N_4]; omega⟩

/-- The blocks of the incoming-message window tile its array: every entry is in the block of the point of its row. -/
theorem cover5 (i : S4096x512.Idx) :
    ∃ t : Fin cfg4.N, (cfg4.win 5).flush t = true ∧ i ∈ ((cfg4.win 5).blk t).view.set := by
  have hi0 : (i 0).val < 4096 := (i 0).isLt
  have hi1 : (i 1).val < 512 := (i 1).isLt
  have ht : (pointOf i).val = (i 0).val / 1024 := rfl
  obtain ⟨-, -, -, -, -, -, -, -, -, -, e0, e1, -⟩ := index_facts (pointOf i)
  refine ⟨pointOf i, flush4_5 (pointOf i), ?_⟩
  rw [mem_blk5]
  intro a
  match a with
  | ⟨0, _⟩ => show win4_5.index (pointOf i) (0 : Fin 2) * 1024 ≤ (i 0).val
                ∧ (i 0).val < win4_5.index (pointOf i) (0 : Fin 2) * 1024 + 1024; omega
  | ⟨1, _⟩ => show win4_5.index (pointOf i) (1 : Fin 2) * 512 ≤ (i 1).val
                ∧ (i 1).val < win4_5.index (pointOf i) (1 : Fin 2) * 512 + 512; omega

/-- The blocks of the outgoing-message window tile its array likewise. -/
theorem cover6 (i : S4096x512.Idx) :
    ∃ t : Fin cfg4.N, (cfg4.win 6).flush t = true ∧ i ∈ ((cfg4.win 6).blk t).view.set := by
  have hi0 : (i 0).val < 4096 := (i 0).isLt
  have hi1 : (i 1).val < 512 := (i 1).isLt
  have ht : (pointOf i).val = (i 0).val / 1024 := rfl
  obtain ⟨-, -, -, -, -, -, -, -, -, -, -, -, e0, e1⟩ := index_facts (pointOf i)
  refine ⟨pointOf i, flush4_6 (pointOf i), ?_⟩
  rw [mem_blk6]
  intro a
  match a with
  | ⟨0, _⟩ => show win4_6.index (pointOf i) (0 : Fin 2) * 1024 ≤ (i 0).val
                ∧ (i 0).val < win4_6.index (pointOf i) (0 : Fin 2) * 1024 + 1024; omega
  | ⟨1, _⟩ => show win4_6.index (pointOf i) (1 : Fin 2) * 512 ≤ (i 1).val
                ∧ (i 1).val < win4_6.index (pointOf i) (1 : Fin 2) * 512 + 512; omega

/-- THE INCOMING-MESSAGE ARRAY after the region: entry (r, q) is row r of the state array against column q of the first
    weight, plus the first bias row at column q — all as the region finds them. -/
theorem arr5 (c : Dev nD) :
    (dat V c).arrAt 5 cfg4.N
      = msg (V c (Pipeline.arrRef spec4 0)) (V c (Pipeline.arrRef spec4 1)) (V c (Pipeline.arrRef spec4 2)) := by
  have hG : ∀ t, (cfg4.win 5).flush t = true → (dat V c).flushed 5 t = ((cfg4.win 5).blk t).view.read (Elt Ideal)
      (msg (V c (Pipeline.arrRef spec4 0)) (V c (Pipeline.arrRef spec4 1)) (V c (Pipeline.arrRef spec4 2))) :=
    fun t _ => flushed5_eq V c t
  exact Dat.arrAt_eq_of_cover (dat V c) 5 _ hG cover5

/-- THE OUTGOING-MESSAGE ARRAY after the region: the same with the second weight and the second bias row. -/
theorem arr6 (c : Dev nD) :
    (dat V c).arrAt 6 cfg4.N
      = msg (V c (Pipeline.arrRef spec4 0)) (V c (Pipeline.arrRef spec4 3)) (V c (Pipeline.arrRef spec4 4)) := by
  have hG : ∀ t, (cfg4.win 6).flush t = true → (dat V c).flushed 6 t = ((cfg4.win 6).blk t).view.read (Elt Ideal)
      (msg (V c (Pipeline.arrRef spec4 0)) (V c (Pipeline.arrRef spec4 3)) (V c (Pipeline.arrRef spec4 4))) :=
    fun t _ => flushed6_eq V c t
  exact Dat.arrAt_eq_of_cover (dat V c) 6 _ hG cover6
/-! ## The input arrays are never written -/

/-- Each of the five input windows' arrays — the state, the two weights, the two bias rows — ends as the region finds it. -/
theorem arr0 (c : Dev nD) : (dat V c).arrAt 0 cfg4.N = V c (Pipeline.arrRef spec4 0) :=
  ((dat V c).arrAt_in 0 rfl cfg4.N).trans (dat_A V c 0)
theorem arr1 (c : Dev nD) : (dat V c).arrAt 1 cfg4.N = V c (Pipeline.arrRef spec4 1) :=
  ((dat V c).arrAt_in 1 rfl cfg4.N).trans (dat_A V c 1)
theorem arr2 (c : Dev nD) : (dat V c).arrAt 2 cfg4.N = V c (Pipeline.arrRef spec4 2) :=
  ((dat V c).arrAt_in 2 rfl cfg4.N).trans (dat_A V c 2)
theorem arr3 (c : Dev nD) : (dat V c).arrAt 3 cfg4.N = V c (Pipeline.arrRef spec4 3) :=
  ((dat V c).arrAt_in 3 rfl cfg4.N).trans (dat_A V c 3)
theorem arr4 (c : Dev nD) : (dat V c).arrAt 4 cfg4.N = V c (Pipeline.arrRef spec4 4) :=
  ((dat V c).arrAt_in 4 rfl cfg4.N).trans (dat_A V c 4)

end Cert.KernelIdeal.MessagesValue4

end
-- ==== Proof.IdealMessagesValue6.lean ====
/-
  The values of the two edge-message arrays of region 0, read over the extended reals.

  At every grid point the body multiplies a block of 1024 rows of the node state by a 512 x 512 weight (rows of the
  state against columns of the weight, into a zero accumulator) and adds a bias row to every row of the product; a change
  of float format is the identity on the extended reals. So an entry of a result block is a finite sum of products plus one
  bias entry. The four points' result blocks are the four consecutive groups of 1024 rows of the result array, and the row
  r of the array lies in the block of point r / 1024; the weight and the bias row are the same whole arrays at every
  point. Hence, after the region, entry (r, q) of a message array is

      (sum over k of  X (r, k) * W (k, q))  +  B (0, q)

  of the state array X, the weight W and the bias row B as the region finds them, and the five input arrays are as the
  region finds them.
-/
import proofs.«121501_j55087250538634_2_alg».proof.Proof.IdealMessages6
import proofs.«121501_j55087250538634_2_alg».proof.Proof.GgnnMath
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MessagesValue6

open Cert.KernelIdeal Cert.KernelIdeal.Gen Cert.KernelIdeal.Messages6
open Idealize.ShloMosaic Idealize.ShloMosaic.TcCoe Idealize.SL.Sem
open Idealize.ShloMosaic.ValueIdx
open Idealize.ShloMosaic.Pipeline (Dat)

/-! ## The product's operand indices, one coordinate at a time -/

/-- The dimension numbers of the block product: rows of the left operand against columns of the right, contracting the
    left's axis 1 with the right's axis 0. -/
abbrev dotRC : DotDims S1024x512 S512x512 S1024x512 := dot_S1024x512_S512x512_S1024x512_1_0_0_1_n_n

/-- The left operand is read at the result's row … -/
theorem lhs_row (i : S1024x512.Idx) (q : dotRC.contr.Idx) : (dotRC.lhsIdx i q 0).val = (i 0).val := by
  unfold DotDims.lhsIdx
  rw [dif_neg (show ¬(0 : Fin S1024x512.rank) ∈ dotRC.lhsBatch by decide),
    dif_pos (show (0 : Fin S1024x512.rank) ∈ dotRC.lhsNonContracting by decide)]
  rfl

/-- … and at the contracted coordinate as its column; -/
theorem lhs_col (i : S1024x512.Idx) (q : dotRC.contr.Idx) : (dotRC.lhsIdx i q 1).val = (q ⟨0, by decide⟩).val :=
  dotRC.lhsIdx_val_of_single rfl i q

/-- the right operand at the contracted coordinate as its row … -/
theorem rhs_row (i : S1024x512.Idx) (q : dotRC.contr.Idx) : (dotRC.rhsIdx i q 0).val = (q ⟨0, by decide⟩).val :=
  dotRC.rhsIdx_val_of_single rfl i q

/-- … and at the result's column. -/
theorem rhs_col (i : S1024x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

/-- The block product into the zero accumulator, at row `p` and column `q`: the sum over the contracted coordinate of
    the left operand's row entry times the right operand's column entry. -/
theorem product_apply (l : FVec Ideal S1024x512 .bf16) (r : FVec Ideal S512x512 .bf16) (p : Fin 1024) (q : Fin 512) :
    matmul dotRC none l r (constant (F := Ideal) S1024x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact lhs_row _ _
    | ⟨1, _⟩ => exact (lhs_col _ _).trans hk)
  have er : dotRC.rhsIdx (ix2 p q) ((contrEquiv1 dotRC 512 rfl rfl).symm k) = ix2 k q := funext fun a => Fin.ext (by
    match a with
    | ⟨0, _⟩ => exact (rhs_row _ _).trans hk
    | ⟨1, _⟩ => exact rhs_col _ _)
  rw [el, er]

/-- The bias row broadcast down the rows, at row `p` and column `q`, is the row's entry at column `q`. -/
theorem bias_apply (b : FVec Ideal S1x512 .f32) (p : Fin 1024) (q : Fin 512) :
    broadcastTo S1024x512 b broadcasts_S1x512_S1024x512 (ix2 p q) = b (ix2 0 q) := by
  refine broadcastTo_apply b _ (ix2 p q) (ix2 0 q) fun a => ?_
  match a with
  | ⟨0, _⟩ => rfl
  | ⟨1, _⟩ => rfl

/-! ## The payloads at an index -/

/-- The incoming-message payload at row `p`, column `q`: the state row against the weight column, plus the bias. -/
theorem pay_in_apply (x : Vec Ideal S1024x512 .f32) (w : Vec Ideal S512x512 .bf16) (b : Vec Ideal S1x512 .f32)
    (p : Fin 1024) (q : Fin 512) :
    k6_pay2 x w b (ix2 p q) = (∑ k : Fin 512, x (ix2 p k) * w (ix2 k q)) + b (ix2 0 q) := by
  unfold k6_pay2 k6_pay1
  simp only [shapeCast_self]
  rw [truncf_apply, addf_apply, bias_apply]
  exact congrArg (· + b (ix2 0 q)) (product_apply _ _ p q)

/-- The outgoing-message payload likewise. -/
theorem pay_out_apply (x : Vec Ideal S1024x512 .f32) (w : Vec Ideal S512x512 .bf16) (b : Vec Ideal S1x512 .f32)
    (p : Fin 1024) (q : Fin 512) :
    k6_pay3 x w b (ix2 p q) = (∑ k : Fin 512, x (ix2 p k) * w (ix2 k q)) + b (ix2 0 q) := by
  unfold k6_pay3 k6_pay1
  simp only [shapeCast_self]
  rw [truncf_apply, addf_apply, bias_apply]
  exact congrArg (· + b (ix2 0 q)) (product_apply _ _ p q)

/-! ## What a result buffer holds after the body, at an index -/

/-- The zero offsets of a whole-buffer rectangle, as the constant function. -/
theorem zeroOffsets : (![0, 0] : Fin 2 → Nat) = fun _ => 0 := funext fun a => by fin_cases a <;> rfl

/-- The incoming-message block of a state block, a weight and a bias row, at an entry: the one stored piece covers the
    buffer, so the entry is the payload's. -/
theorem sIn_apply (x : Vec Ideal S1024x512 .f32) (w : Vec Ideal S512x512 .bf16) (b : Vec Ideal S1x512 .f32) (j : S1024x512.Idx) :
    sIn x w b j = (∑ k : Fin 512, x (ix2 (j 0) k) * w (ix2 k (j 1))) + b (ix2 0 (j 1)) := by
  obtain ⟨p, q, rfl⟩ : ∃ (p : Fin 1024) (q : Fin 512), j = ix2 p q := ⟨j 0, j 1, eq_ix2 j⟩
  unfold sIn
  rw [View.canon_unit_zero zeroOffsets]
  simp only [View.ld_unit_zero (S := S1024x512) zeroOffsets, View.ld_unit_zero (S := S512x512) zeroOffsets,
    View.ld_unit_zero (S := S1x512) zeroOffsets]
  exact pay_in_apply x w b p q

/-- The outgoing-message block likewise. -/
theorem sOut_apply (x : Vec Ideal S1024x512 .f32) (w : Vec Ideal S512x512 .bf16) (b : Vec Ideal S1x512 .f32) (j : S1024x512.Idx) :
    sOut x w b j = (∑ k : Fin 512, x (ix2 (j 0) k) * w (ix2 k (j 1))) + b (ix2 0 (j 1)) := by
  obtain ⟨p, q, rfl⟩ : ∃ (p : Fin 1024) (q : Fin 512), j = ix2 p q := ⟨j 0, j 1, eq_ix2 j⟩
  unfold sOut
  rw [View.canon_unit_zero zeroOffsets]
  simp only [View.ld_unit_zero (S := S1024x512) zeroOffsets, View.ld_unit_zero (S := S512x512) zeroOffsets,
    View.ld_unit_zero (S := S1x512) zeroOffsets]
  exact pay_out_apply x w b p q

/-! ## The whole message array -/

/-- The edge-message array of a state array `X`, a weight `W` and a bias row `B`: entry (r, q) is row r of `X` against
    column q of `W`, plus `B` at column q. -/
def msg (X : S4096x512.Idx → EReal) (W : S512x512.Idx → EReal) (B : S1x512.Idx → EReal) : S4096x512.Idx → EReal :=
  fun i => (∑ k : Fin 512, X (ix2 (i 0) k) * W (ix2 k (i 1))) + B (ix2 0 (i 1))

theorem msg_apply (X : S4096x512.Idx → EReal) (W : S512x512.Idx → EReal) (B : S1x512.Idx → EReal) (i : S4096x512.Idx) :
    msg X W B i = (∑ k : Fin 512, X (ix2 (i 0) k) * W (ix2 k (i 1))) + B (ix2 0 (i 1)) := rfl

/-- The message array is the linear layer `x · Mᵀ + b` whose matrix `M` is the weight operand transposed
    (`M q k = W (k, q)`): the same sum of the same products, entry by entry. -/
theorem msg_eq_affine (X : S4096x512.Idx → EReal) (W : S512x512.Idx → EReal) (B : S1x512.Idx → EReal) (i : S4096x512.Idx) :
    msg X W B i = Cert.GgnnMath.affine (fun p k => X (ix2 p k)) (fun q k => W (ix2 k q)) (fun q => B (ix2 0 q)) (i 0) (i 1) := rfl

variable (V : (c : Dev nD) → (b : Ref sig .tc) → Buf (Elt Ideal) ((c : Thread nD τ).loc b))

/-- The printed index maps over the grid: the state window and the two result windows sit at block row `t` at point `t`,
    the weights and bias rows at block (0, 0) at every point. -/
theorem index_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-! ## The input blocks as parts of their arrays -/

/-- The state block at point `t` is rows `1024 t … 1024 t + 1023` of the state array. -/
theorem blk0_apply (c : Dev nD) (t : Fin cfg6.N) (y : S1024x512.Idx) (i : S4096x512.Idx)
    (h0 : (i 0).val = t.val * 1024 + (y 0).val) (h1 : (i 1).val = (y 1).val) :
    blk V c 0 t y = (V c (Pipeline.arrRef spec6 0) : S4096x512.Idx → EReal) i := by
  obtain ⟨e0, e1, -⟩ := index_facts t
  unfold blk
  show V c (Pipeline.arrRef spec6 0) (((cfg6.win 0).blk t).view.emb y) = _
  refine congrArg _ (funext fun a => Fin.ext ?_)
  match a with
  | ⟨0, _⟩ => show win6_0.index t (0 : Fin 2) * 1024 + 1 * (y 0).val = (i 0).val; omega
  | ⟨1, _⟩ => show win6_0.index t (1 : Fin 2) * 512 + 1 * (y 1).val = (i 1).val; omega

/-- The first weight's block is the whole weight at every point. -/
theorem blk1_apply (c : Dev nD) (t : Fin cfg6.N) (y i : S512x512.Idx)
    (h0 : (i 0).val = (y 0).val) (h1 : (i 1).val = (y 1).val) :
    blk V c 1 t y = (V c (Pipeline.arrRef spec6 1) : S512x512.Idx → EReal) i := by
  obtain ⟨-, -, e0, e1, -⟩ := index_facts t
  unfold blk
  show V c (Pipeline.arrRef spec6 1) (((cfg6.win 1).blk t).view.emb y) = _
  refine congrArg _ (funext fun a => Fin.ext ?_)
  match a with
  | ⟨0, _⟩ => show win6_1.index t (0 : Fin 2) * 512 + 1 * (y 0).val = (i 0).val; omega
  | ⟨1, _⟩ => show win6_1.index t (1 : Fin 2) * 512 + 1 * (y 1).val = (i 1).val; omega

/-- The first bias row's block is the whole row at every point. -/
theorem blk2_apply (c : Dev nD) (t : Fin cfg6.N) (y i : S1x512.Idx)
    (h0 : (i 0).val = (y 0).val) (h1 : (i 1).val = (y 1).val) :
    blk V c 2 t y = (V c (Pipeline.arrRef spec6 2) : S1x512.Idx → EReal) i := by
  obtain ⟨-, -, -, -, e0, e1, -⟩ := index_facts t
  unfold blk
  show V c (Pipeline.arrRef spec6 2) (((cfg6.win 2).blk t).view.emb y) = _
  refine congrArg _ (funext fun a => Fin.ext ?_)
  match a with
  | ⟨0, _⟩ => show win6_2.index t (0 : Fin 2) * 1 + 1 * (y 0).val = (i 0).val; omega
  | ⟨1, _⟩ => show win6_2.index t (1 : Fin 2) * 512 + 1 * (y 1).val = (i 1).val; omega

/-- The second weight's block is the whole weight at every point. -/
theorem blk3_apply (c : Dev nD) (t : Fin cfg6.N) (y i : S512x512.Idx)
    (h0 : (i 0).val = (y 0).val) (h1 : (i 1).val = (y 1).val) :
    blk V c 3 t y = (V c (Pipeline.arrRef spec6 3) : S512x512.Idx → EReal) i := by
  obtain ⟨-, -, -, -, -, -, e0, e1, -⟩ := index_facts t
  unfold blk
  show V c (Pipeline.arrRef spec6 3) (((cfg6.win 3).blk t).view.emb y) = _
  refine congrArg _ (funext fun a => Fin.ext ?_)
  match a with
  | ⟨0, _⟩ => show win6_3.index t (0 : Fin 2) * 512 + 1 * (y 0).val = (i 0).val; omega
  | ⟨1, _⟩ => show win6_3.index t (1 : Fin 2) * 512 + 1 * (y 1).val = (i 1).val; omega

/-- The second bias row's block is the whole row at every point. -/
theorem blk4_apply (c : Dev nD) (t : Fin cfg6.N) (y i : S1x512.Idx)
    (h0 : (i 0).val = (y 0).val) (h1 : (i 1).val = (y 1).val) :
    blk V c 4 t y = (V c (Pipeline.arrRef spec6 4) : S1x512.Idx → EReal) i := by
  obtain ⟨-, -, -, -, -, -, -, -, e0, e1, -⟩ := index_facts t
  unfold blk
  show V c (Pipeline.arrRef spec6 4) (((cfg6.win 4).blk t).view.emb y) = _
  refine congrArg _ (funext fun a => Fin.ext ?_)
  match a with
  | ⟨0, _⟩ => show win6_4.index t (0 : Fin 2) * 1 + 1 * (y 0).val = (i 0).val; omega
  | ⟨1, _⟩ => show win6_4.index t (1 : Fin 2) * 512 + 1 * (y 1).val = (i 1).val; omega

/-! ## What each point writes back, and the arrays after the region -/

/-- Point `t` writes back, into the incoming-message array, block `t` of the message array of the state, the first
    weight and the first bias row as the region finds them. -/
theorem flushed5_eq (c : Dev nD) (t : Fin cfg6.N) :
    (dat V c).flushed 5 t = ((cfg6.win 5).blk t).view.read (Elt Ideal)
      (msg (V c (Pipeline.arrRef spec6 0)) (V c (Pipeline.arrRef spec6 1)) (V c (Pipeline.arrRef spec6 2))) := by
  show (cfg6.win 5).cut (grid6.coords t) ((dat V c).after 5 t) = _
  rw [after5]
  funext j
  obtain ⟨-, -, -, -, -, -, -, -, -, -, e50, e51, -⟩ := index_facts t
  show sIn (blk V c 0 t) (blk V c 1 t) (blk V c 2 t) j
    = msg (V c (Pipeline.arrRef spec6 0)) (V c (Pipeline.arrRef spec6 1)) (V c (Pipeline.arrRef spec6 2)) (((cfg6.win 5).blk t).view.emb j)
  refine (sIn_apply (blk V c 0 t) (blk V c 1 t) (blk V c 2 t) j).trans ?_
  unfold msg
  have hr : ((((cfg6.win 5).blk t).view.emb j) 0).val = win6_5.index t (0 : Fin 2) * 1024 + 1 * (j 0).val := rfl
  have hq : ((((cfg6.win 5).blk t).view.emb j) 1).val = win6_5.index t (1 : Fin 2) * 512 + 1 * (j 1).val := rfl
  refine congrArg₂ (· + ·) (Finset.sum_congr rfl fun k _ => congrArg₂ (· * ·) ?_ ?_) ?_
  · exact blk0_apply V c t _ _ (by show ((((cfg6.win 5).blk t).view.emb j) 0).val = t.val * 1024 + (j 0).val; omega) rfl
  · exact blk1_apply V c t _ _ rfl (by show ((((cfg6.win 5).blk t).view.emb j) 1).val = (j 1).val; omega)
  · exact blk2_apply V c t _ _ rfl (by show ((((cfg6.win 5).blk t).view.emb j) 1).val = (j 1).val; omega)

/-- Point `t` writes back, into the outgoing-message array, block `t` of the message array of the state, the second
    weight and the second bias row as the region finds them. -/
theorem flushed6_eq (c : Dev nD) (t : Fin cfg6.N) :
    (dat V c).flushed 6 t = ((cfg6.win 6).blk t).view.read (Elt Ideal)
      (msg (V c (Pipeline.arrRef spec6 0)) (V c (Pipeline.arrRef spec6 3)) (V c (Pipeline.arrRef spec6 4))) := by
  show (cfg6.win 6).cut (grid6.coords t) ((dat V c).after 6 t) = _
  rw [after6]
  funext j
  obtain ⟨-, -, -, -, -, -, -, -, -, -, -, -, e60, e61⟩ := index_facts t
  show sOut (blk V c 0 t) (blk V c 3 t) (blk V c 4 t) j
    = msg (V c (Pipeline.arrRef spec6 0)) (V c (Pipeline.arrRef spec6 3)) (V c (Pipeline.arrRef spec6 4)) (((cfg6.win 6).blk t).view.emb j)
  refine (sOut_apply (blk V c 0 t) (blk V c 3 t) (blk V c 4 t) j).trans ?_
  unfold msg
  have hr : ((((cfg6.win 6).blk t).view.emb j) 0).val = win6_6.index t (0 : Fin 2) * 1024 + 1 * (j 0).val := rfl
  have hq : ((((cfg6.win 6).blk t).view.emb j) 1).val = win6_6.index t (1 : Fin 2) * 512 + 1 * (j 1).val := rfl
  refine congrArg₂ (· + ·) (Finset.sum_congr rfl fun k _ => congrArg₂ (· * ·) ?_ ?_) ?_
  · exact blk0_apply V c t _ _ (by show ((((cfg6.win 6).blk t).view.emb j) 0).val = t.val * 1024 + (j 0).val; omega) rfl
  · exact blk3_apply V c t _ _ rfl (by show ((((cfg6.win 6).blk t).view.emb j) 1).val = (j 1).val; omega)
  · exact blk4_apply V c t _ _ rfl (by show ((((cfg6.win 6).blk t).view.emb j) 1).val = (j 1).val; omega)

/-- An index of a message array is in point `t`'s block iff each coordinate is in the block's range on its axis. -/
theorem mem_blk5 (t : Fin cfg6.N) (i : S4096x512.Idx) :
    i ∈ ((cfg6.win 5).blk t).view.set ↔ ∀ a : Fin 2, win6_5.index t a * S1024x512.size a ≤ (i a).val
      ∧ (i a).val < win6_5.index t a * S1024x512.size a + S1024x512.size a := by
  show i ∈ ((View.whole (Pipeline.arrRef spec6 5)).slice (win6_5.rect t)).set ↔ _
  rw [View.set_slice_whole, Rect.mem_set_unit]
  exact Iff.rfl

/-- The same for the outgoing-message window. -/
theorem mem_blk6 (t : Fin cfg6.N) (i : S4096x512.Idx) :
    i ∈ ((cfg6.win 6).blk t).view.set ↔ ∀ a : Fin 2, win6_6.index t a * S1024x512.size a ≤ (i a).val
      ∧ (i a).val < win6_6.index t a * S1024x512.size a + S1024x512.size a := by
  show i ∈ ((View.whole (Pipeline.arrRef spec6 6)).slice (win6_6.rect t)).set ↔ _
  rw [View.set_slice_whole, Rect.mem_set_unit]
  exact Iff.rfl

/-- The point whose block holds row `r` is `r / 1024`. -/
def pointOf (i : S4096x512.Idx) : Fin cfg6.N :=
  ⟨(i 0).val / 1024, by have h : (i 0).val < 4096 := (i 0).isLt; rw [show cfg6.N = 4 from N_6]; omega⟩

/-- The blocks of the incoming-message window tile its array: every entry is in the block of the point of its row. -/
theorem cover5 (i : S4096x512.Idx) :
    ∃ t : Fin cfg6.N, (cfg6.win 5).flush t = true ∧ i ∈ ((cfg6.win 5).blk t).view.set := by
  have hi0 : (i 0).val < 4096 := (i 0).isLt
  have hi1 : (i 1).val < 512 := (i 1).isLt
  have ht : (pointOf i).val = (i 0).val / 1024 := rfl
  obtain ⟨-, -, -, -, -, -, -, -, -, -, e0, e1, -⟩ := index_facts (pointOf i)
  refine ⟨pointOf i, flush6_5 (pointOf i), ?_⟩
  rw [mem_blk5]
  intro a
  match a with
  | ⟨0, _⟩ => show win6_5.index (pointOf i) (0 : Fin 2) * 1024 ≤ (i 0).val
                ∧ (i 0).val < win6_5.index (pointOf i) (0 : Fin 2) * 1024 + 1024; omega
  | ⟨1, _⟩ => show win6_5.index (pointOf i) (1 : Fin 2) * 512 ≤ (i 1).val
                ∧ (i 1).val < win6_5.index (pointOf i) (1 : Fin 2) * 512 + 512; omega

/-- The blocks of the outgoing-message window tile its array likewise. -/
theorem cover6 (i : S4096x512.Idx) :
    ∃ t : Fin cfg6.N, (cfg6.win 6).flush t = true ∧ i ∈ ((cfg6.win 6).blk t).view.set := by
  have hi0 : (i 0).val < 4096 := (i 0).isLt
  have hi1 : (i 1).val < 512 := (i 1).isLt
  have ht : (pointOf i).val = (i 0).val / 1024 := rfl
  obtain ⟨-, -, -, -, -, -, -, -, -, -, -, -, e0, e1⟩ := index_facts (pointOf i)
  refine ⟨pointOf i, flush6_6 (pointOf i), ?_⟩
  rw [mem_blk6]
  intro a
  match a with
  | ⟨0, _⟩ => show win6_6.index (pointOf i) (0 : Fin 2) * 1024 ≤ (i 0).val
                ∧ (i 0).val < win6_6.index (pointOf i) (0 : Fin 2) * 1024 + 1024; omega
  | ⟨1, _⟩ => show win6_6.index (pointOf i) (1 : Fin 2) * 512 ≤ (i 1).val
                ∧ (i 1).val < win6_6.index (pointOf i) (1 : Fin 2) * 512 + 512; omega

/-- THE INCOMING-MESSAGE ARRAY after the region: entry (r, q) is row r of the state array against column q of the first
    weight, plus the first bias row at column q — all as the region finds them. -/
theorem arr5 (c : Dev nD) :
    (dat V c).arrAt 5 cfg6.N
      = msg (V c (Pipeline.arrRef spec6 0)) (V c (Pipeline.arrRef spec6 1)) (V c (Pipeline.arrRef spec6 2)) := by
  have hG : ∀ t, (cfg6.win 5).flush t = true → (dat V c).flushed 5 t = ((cfg6.win 5).blk t).view.read (Elt Ideal)
      (msg (V c (Pipeline.arrRef spec6 0)) (V c (Pipeline.arrRef spec6 1)) (V c (Pipeline.arrRef spec6 2))) :=
    fun t _ => flushed5_eq V c t
  exact Dat.arrAt_eq_of_cover (dat V c) 5 _ hG cover5

/-- THE OUTGOING-MESSAGE ARRAY after the region: the same with the second weight and the second bias row. -/
theorem arr6 (c : Dev nD) :
    (dat V c).arrAt 6 cfg6.N
      = msg (V c (Pipeline.arrRef spec6 0)) (V c (Pipeline.arrRef spec6 3)) (V c (Pipeline.arrRef spec6 4)) := by
  have hG : ∀ t, (cfg6.win 6).flush t = true → (dat V c).flushed 6 t = ((cfg6.win 6).blk t).view.read (Elt Ideal)
      (msg (V c (Pipeline.arrRef spec6 0)) (V c (Pipeline.arrRef spec6 3)) (V c (Pipeline.arrRef spec6 4))) :=
    fun t _ => flushed6_eq V c t
  exact Dat.arrAt_eq_of_cover (dat V c) 6 _ hG cover6
/-! ## The input arrays are never written -/

/-- Each of the five input windows' arrays — the state, the two weights, the two bias rows — ends as the region finds it. -/
theorem arr0 (c : Dev nD) : (dat V c).arrAt 0 cfg6.N = V c (Pipeline.arrRef spec6 0) :=
  ((dat V c).arrAt_in 0 rfl cfg6.N).trans (dat_A V c 0)
theorem arr1 (c : Dev nD) : (dat V c).arrAt 1 cfg6.N = V c (Pipeline.arrRef spec6 1) :=
  ((dat V c).arrAt_in 1 rfl cfg6.N).trans (dat_A V c 1)
theorem arr2 (c : Dev nD) : (dat V c).arrAt 2 cfg6.N = V c (Pipeline.arrRef spec6 2) :=
  ((dat V c).arrAt_in 2 rfl cfg6.N).trans (dat_A V c 2)
theorem arr3 (c : Dev nD) : (dat V c).arrAt 3 cfg6.N = V c (Pipeline.arrRef spec6 3) :=
  ((dat V c).arrAt_in 3 rfl cfg6.N).trans (dat_A V c 3)
theorem arr4 (c : Dev nD) : (dat V c).arrAt 4 cfg6.N = V c (Pipeline.arrRef spec6 4) :=
  ((dat V c).arrAt_in 4 rfl cfg6.N).trans (dat_A V c 4)

end Cert.KernelIdeal.MessagesValue6

end
-- ==== Proof.IdealMessagesValue8.lean ====
/-
  The values of the two edge-message arrays of region 0, read over the extended reals.

  At every grid point the body multiplies a block of 1024 rows of the node state by a 512 x 512 weight (rows of the
  state against columns of the weight, into a zero accumulator) and adds a bias row to every row of the product; a change
  of float format is the identity on the extended reals. So an entry of a result block is a finite sum of products plus one
  bias entry. The four points' result blocks are the four consecutive groups of 1024 rows of the result array, and the row
  r of the array lies in the block of point r / 1024; the weight and the bias row are the same whole arrays at every
  point. Hence, after the region, entry (r, q) of a message array is

      (sum over k of  X (r, k) * W (k, q))  +  B (0, q)

  of the state array X, the weight W and the bias row B as the region finds them, and the five input arrays are as the
  region finds them.
-/
import proofs.«121501_j55087250538634_2_alg».proof.Proof.IdealMessages8
import proofs.«121501_j55087250538634_2_alg».proof.Proof.GgnnMath
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MessagesValue8

open Cert.KernelIdeal Cert.KernelIdeal.Gen Cert.KernelIdeal.Messages8
open Idealize.ShloMosaic Idealize.ShloMosaic.TcCoe Idealize.SL.Sem
open Idealize.ShloMosaic.ValueIdx
open Idealize.ShloMosaic.Pipeline (Dat)

/-! ## The product's operand indices, one coordinate at a time -/

/-- The dimension numbers of the block product: rows of the left operand against columns of the right, contracting the
    left's axis 1 with the right's axis 0. -/
abbrev dotRC : DotDims S1024x512 S512x512 S1024x512 := dot_S1024x512_S512x512_S1024x512_1_0_0_1_n_n

/-- The left operand is read at the result's row … -/
theorem lhs_row (i : S1024x512.Idx) (q : dotRC.contr.Idx) : (dotRC.lhsIdx i q 0).val = (i 0).val := by
  unfold DotDims.lhsIdx
  rw [dif_neg (show ¬(0 : Fin S1024x512.rank) ∈ dotRC.lhsBatch by decide),
    dif_pos (show (0 : Fin S1024x512.rank) ∈ dotRC.lhsNonContracting by decide)]
  rfl

/-- … and at the contracted coordinate as its column; -/
theorem lhs_col (i : S1024x512.Idx) (q : dotRC.contr.Idx) : (dotRC.lhsIdx i q 1).val = (q ⟨0, by decide⟩).val :=
  dotRC.lhsIdx_val_of_single rfl i q

/-- the right operand at the contracted coordinate as its row … -/
theorem rhs_row (i : S1024x512.Idx) (q : dotRC.contr.Idx) : (dotRC.rhsIdx i q 0).val = (q ⟨0, by decide⟩).val :=
  dotRC.rhsIdx_val_of_single rfl i q

/-- … and at the result's column. -/
theorem rhs_col (i : S1024x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

/-- The block product into the zero accumulator, at row `p` and column `q`: the sum over the contracted coordinate of
    the left operand's row entry times the right operand's column entry. -/
theorem product_apply (l : FVec Ideal S1024x512 .bf16) (r : FVec Ideal S512x512 .bf16) (p : Fin 1024) (q : Fin 512) :
    matmul dotRC none l r (constant (F := Ideal) S1024x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact lhs_row _ _
    | ⟨1, _⟩ => exact (lhs_col _ _).trans hk)
  have er : dotRC.rhsIdx (ix2 p q) ((contrEquiv1 dotRC 512 rfl rfl).symm k) = ix2 k q := funext fun a => Fin.ext (by
    match a with
    | ⟨0, _⟩ => exact (rhs_row _ _).trans hk
    | ⟨1, _⟩ => exact rhs_col _ _)
  rw [el, er]

/-- The bias row broadcast down the rows, at row `p` and column `q`, is the row's entry at column `q`. -/
theorem bias_apply (b : FVec Ideal S1x512 .f32) (p : Fin 1024) (q : Fin 512) :
    broadcastTo S1024x512 b broadcasts_S1x512_S1024x512 (ix2 p q) = b (ix2 0 q) := by
  refine broadcastTo_apply b _ (ix2 p q) (ix2 0 q) fun a => ?_
  match a with
  | ⟨0, _⟩ => rfl
  | ⟨1, _⟩ => rfl

/-! ## The payloads at an index -/

/-- The incoming-message payload at row `p`, column `q`: the state row against the weight column, plus the bias. -/
theorem pay_in_apply (x : Vec Ideal S1024x512 .f32) (w : Vec Ideal S512x512 .bf16) (b : Vec Ideal S1x512 .f32)
    (p : Fin 1024) (q : Fin 512) :
    k8_pay2 x w b (ix2 p q) = (∑ k : Fin 512, x (ix2 p k) * w (ix2 k q)) + b (ix2 0 q) := by
  unfold k8_pay2 k8_pay1
  simp only [shapeCast_self]
  rw [truncf_apply, addf_apply, bias_apply]
  exact congrArg (· + b (ix2 0 q)) (product_apply _ _ p q)

/-- The outgoing-message payload likewise. -/
theorem pay_out_apply (x : Vec Ideal S1024x512 .f32) (w : Vec Ideal S512x512 .bf16) (b : Vec Ideal S1x512 .f32)
    (p : Fin 1024) (q : Fin 512) :
    k8_pay3 x w b (ix2 p q) = (∑ k : Fin 512, x (ix2 p k) * w (ix2 k q)) + b (ix2 0 q) := by
  unfold k8_pay3 k8_pay1
  simp only [shapeCast_self]
  rw [truncf_apply, addf_apply, bias_apply]
  exact congrArg (· + b (ix2 0 q)) (product_apply _ _ p q)

/-! ## What a result buffer holds after the body, at an index -/

/-- The zero offsets of a whole-buffer rectangle, as the constant function. -/
theorem zeroOffsets : (![0, 0] : Fin 2 → Nat) = fun _ => 0 := funext fun a => by fin_cases a <;> rfl

/-- The incoming-message block of a state block, a weight and a bias row, at an entry: the one stored piece covers the
    buffer, so the entry is the payload's. -/
theorem sIn_apply (x : Vec Ideal S1024x512 .f32) (w : Vec Ideal S512x512 .bf16) (b : Vec Ideal S1x512 .f32) (j : S1024x512.Idx) :
    sIn x w b j = (∑ k : Fin 512, x (ix2 (j 0) k) * w (ix2 k (j 1))) + b (ix2 0 (j 1)) := by
  obtain ⟨p, q, rfl⟩ : ∃ (p : Fin 1024) (q : Fin 512), j = ix2 p q := ⟨j 0, j 1, eq_ix2 j⟩
  unfold sIn
  rw [View.canon_unit_zero zeroOffsets]
  simp only [View.ld_unit_zero (S := S1024x512) zeroOffsets, View.ld_unit_zero (S := S512x512) zeroOffsets,
    View.ld_unit_zero (S := S1x512) zeroOffsets]
  exact pay_in_apply x w b p q

/-- The outgoing-message block likewise. -/
theorem sOut_apply (x : Vec Ideal S1024x512 .f32) (w : Vec Ideal S512x512 .bf16) (b : Vec Ideal S1x512 .f32) (j : S1024x512.Idx) :
    sOut x w b j = (∑ k : Fin 512, x (ix2 (j 0) k) * w (ix2 k (j 1))) + b (ix2 0 (j 1)) := by
  obtain ⟨p, q, rfl⟩ : ∃ (p : Fin 1024) (q : Fin 512), j = ix2 p q := ⟨j 0, j 1, eq_ix2 j⟩
  unfold sOut
  rw [View.canon_unit_zero zeroOffsets]
  simp only [View.ld_unit_zero (S := S1024x512) zeroOffsets, View.ld_unit_zero (S := S512x512) zeroOffsets,
    View.ld_unit_zero (S := S1x512) zeroOffsets]
  exact pay_out_apply x w b p q

/-! ## The whole message array -/

/-- The edge-message array of a state array `X`, a weight `W` and a bias row `B`: entry (r, q) is row r of `X` against
    column q of `W`, plus `B` at column q. -/
def msg (X : S4096x512.Idx → EReal) (W : S512x512.Idx → EReal) (B : S1x512.Idx → EReal) : S4096x512.Idx → EReal :=
  fun i => (∑ k : Fin 512, X (ix2 (i 0) k) * W (ix2 k (i 1))) + B (ix2 0 (i 1))

theorem msg_apply (X : S4096x512.Idx → EReal) (W : S512x512.Idx → EReal) (B : S1x512.Idx → EReal) (i : S4096x512.Idx) :
    msg X W B i = (∑ k : Fin 512, X (ix2 (i 0) k) * W (ix2 k (i 1))) + B (ix2 0 (i 1)) := rfl

/-- The message array is the linear layer `x · Mᵀ + b` whose matrix `M` is the weight operand transposed
    (`M q k = W (k, q)`): the same sum of the same products, entry by entry. -/
theorem msg_eq_affine (X : S4096x512.Idx → EReal) (W : S512x512.Idx → EReal) (B : S1x512.Idx → EReal) (i : S4096x512.Idx) :
    msg X W B i = Cert.GgnnMath.affine (fun p k => X (ix2 p k)) (fun q k => W (ix2 k q)) (fun q => B (ix2 0 q)) (i 0) (i 1) := rfl

variable (V : (c : Dev nD) → (b : Ref sig .tc) → Buf (Elt Ideal) ((c : Thread nD τ).loc b))

/-- The printed index maps over the grid: the state window and the two result windows sit at block row `t` at point `t`,
    the weights and bias rows at block (0, 0) at every point. -/
theorem index_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

/-! ## The input blocks as parts of their arrays -/

/-- The state block at point `t` is rows `1024 t … 1024 t + 1023` of the state array. -/
theorem blk0_apply (c : Dev nD) (t : Fin cfg8.N) (y : S1024x512.Idx) (i : S4096x512.Idx)
    (h0 : (i 0).val = t.val * 1024 + (y 0).val) (h1 : (i 1).val = (y 1).val) :
    blk V c 0 t y = (V c (Pipeline.arrRef spec8 0) : S4096x512.Idx → EReal) i := by
  obtain ⟨e0, e1, -⟩ := index_facts t
  unfold blk
  show V c (Pipeline.arrRef spec8 0) (((cfg8.win 0).blk t).view.emb y) = _
  refine congrArg _ (funext fun a => Fin.ext ?_)
  match a with
  | ⟨0, _⟩ => show win8_0.index t (0 : Fin 2) * 1024 + 1 * (y 0).val = (i 0).val; omega
  | ⟨1, _⟩ => show win8_0.index t (1 : Fin 2) * 512 + 1 * (y 1).val = (i 1).val; omega

/-- The first weight's block is the whole weight at every point. -/
theorem blk1_apply (c : Dev nD) (t : Fin cfg8.N) (y i : S512x512.Idx)
    (h0 : (i 0).val = (y 0).val) (h1 : (i 1).val = (y 1).val) :
    blk V c 1 t y = (V c (Pipeline.arrRef spec8 1) : S512x512.Idx → EReal) i := by
  obtain ⟨-, -, e0, e1, -⟩ := index_facts t
  unfold blk
  show V c (Pipeline.arrRef spec8 1) (((cfg8.win 1).blk t).view.emb y) = _
  refine congrArg _ (funext fun a => Fin.ext ?_)
  match a with
  | ⟨0, _⟩ => show win8_1.index t (0 : Fin 2) * 512 + 1 * (y 0).val = (i 0).val; omega
  | ⟨1, _⟩ => show win8_1.index t (1 : Fin 2) * 512 + 1 * (y 1).val = (i 1).val; omega

/-- The first bias row's block is the whole row at every point. -/
theorem blk2_apply (c : Dev nD) (t : Fin cfg8.N) (y i : S1x512.Idx)
    (h0 : (i 0).val = (y 0).val) (h1 : (i 1).val = (y 1).val) :
    blk V c 2 t y = (V c (Pipeline.arrRef spec8 2) : S1x512.Idx → EReal) i := by
  obtain ⟨-, -, -, -, e0, e1, -⟩ := index_facts t
  unfold blk
  show V c (Pipeline.arrRef spec8 2) (((cfg8.win 2).blk t).view.emb y) = _
  refine congrArg _ (funext fun a => Fin.ext ?_)
  match a with
  | ⟨0, _⟩ => show win8_2.index t (0 : Fin 2) * 1 + 1 * (y 0).val = (i 0).val; omega
  | ⟨1, _⟩ => show win8_2.index t (1 : Fin 2) * 512 + 1 * (y 1).val = (i 1).val; omega

/-- The second weight's block is the whole weight at every point. -/
theorem blk3_apply (c : Dev nD) (t : Fin cfg8.N) (y i : S512x512.Idx)
    (h0 : (i 0).val = (y 0).val) (h1 : (i 1).val = (y 1).val) :
    blk V c 3 t y = (V c (Pipeline.arrRef spec8 3) : S512x512.Idx → EReal) i := by
  obtain ⟨-, -, -, -, -, -, e0, e1, -⟩ := index_facts t
  unfold blk
  show V c (Pipeline.arrRef spec8 3) (((cfg8.win 3).blk t).view.emb y) = _
  refine congrArg _ (funext fun a => Fin.ext ?_)
  match a with
  | ⟨0, _⟩ => show win8_3.index t (0 : Fin 2) * 512 + 1 * (y 0).val = (i 0).val; omega
  | ⟨1, _⟩ => show win8_3.index t (1 : Fin 2) * 512 + 1 * (y 1).val = (i 1).val; omega

/-- The second bias row's block is the whole row at every point. -/
theorem blk4_apply (c : Dev nD) (t : Fin cfg8.N) (y i : S1x512.Idx)
    (h0 : (i 0).val = (y 0).val) (h1 : (i 1).val = (y 1).val) :
    blk V c 4 t y = (V c (Pipeline.arrRef spec8 4) : S1x512.Idx → EReal) i := by
  obtain ⟨-, -, -, -, -, -, -, -, e0, e1, -⟩ := index_facts t
  unfold blk
  show V c (Pipeline.arrRef spec8 4) (((cfg8.win 4).blk t).view.emb y) = _
  refine congrArg _ (funext fun a => Fin.ext ?_)
  match a with
  | ⟨0, _⟩ => show win8_4.index t (0 : Fin 2) * 1 + 1 * (y 0).val = (i 0).val; omega
  | ⟨1, _⟩ => show win8_4.index t (1 : Fin 2) * 512 + 1 * (y 1).val = (i 1).val; omega

/-! ## What each point writes back, and the arrays after the region -/

/-- Point `t` writes back, into the incoming-message array, block `t` of the message array of the state, the first
    weight and the first bias row as the region finds them. -/
theorem flushed5_eq (c : Dev nD) (t : Fin cfg8.N) :
    (dat V c).flushed 5 t = ((cfg8.win 5).blk t).view.read (Elt Ideal)
      (msg (V c (Pipeline.arrRef spec8 0)) (V c (Pipeline.arrRef spec8 1)) (V c (Pipeline.arrRef spec8 2))) := by
  show (cfg8.win 5).cut (grid8.coords t) ((dat V c).after 5 t) = _
  rw [after5]
  funext j
  obtain ⟨-, -, -, -, -, -, -, -, -, -, e50, e51, -⟩ := index_facts t
  show sIn (blk V c 0 t) (blk V c 1 t) (blk V c 2 t) j
    = msg (V c (Pipeline.arrRef spec8 0)) (V c (Pipeline.arrRef spec8 1)) (V c (Pipeline.arrRef spec8 2)) (((cfg8.win 5).blk t).view.emb j)
  refine (sIn_apply (blk V c 0 t) (blk V c 1 t) (blk V c 2 t) j).trans ?_
  unfold msg
  have hr : ((((cfg8.win 5).blk t).view.emb j) 0).val = win8_5.index t (0 : Fin 2) * 1024 + 1 * (j 0).val := rfl
  have hq : ((((cfg8.win 5).blk t).view.emb j) 1).val = win8_5.index t (1 : Fin 2) * 512 + 1 * (j 1).val := rfl
  refine congrArg₂ (· + ·) (Finset.sum_congr rfl fun k _ => congrArg₂ (· * ·) ?_ ?_) ?_
  · exact blk0_apply V c t _ _ (by show ((((cfg8.win 5).blk t).view.emb j) 0).val = t.val * 1024 + (j 0).val; omega) rfl
  · exact blk1_apply V c t _ _ rfl (by show ((((cfg8.win 5).blk t).view.emb j) 1).val = (j 1).val; omega)
  · exact blk2_apply V c t _ _ rfl (by show ((((cfg8.win 5).blk t).view.emb j) 1).val = (j 1).val; omega)

/-- Point `t` writes back, into the outgoing-message array, block `t` of the message array of the state, the second
    weight and the second bias row as the region finds them. -/
theorem flushed6_eq (c : Dev nD) (t : Fin cfg8.N) :
    (dat V c).flushed 6 t = ((cfg8.win 6).blk t).view.read (Elt Ideal)
      (msg (V c (Pipeline.arrRef spec8 0)) (V c (Pipeline.arrRef spec8 3)) (V c (Pipeline.arrRef spec8 4))) := by
  show (cfg8.win 6).cut (grid8.coords t) ((dat V c).after 6 t) = _
  rw [after6]
  funext j
  obtain ⟨-, -, -, -, -, -, -, -, -, -, -, -, e60, e61⟩ := index_facts t
  show sOut (blk V c 0 t) (blk V c 3 t) (blk V c 4 t) j
    = msg (V c (Pipeline.arrRef spec8 0)) (V c (Pipeline.arrRef spec8 3)) (V c (Pipeline.arrRef spec8 4)) (((cfg8.win 6).blk t).view.emb j)
  refine (sOut_apply (blk V c 0 t) (blk V c 3 t) (blk V c 4 t) j).trans ?_
  unfold msg
  have hr : ((((cfg8.win 6).blk t).view.emb j) 0).val = win8_6.index t (0 : Fin 2) * 1024 + 1 * (j 0).val := rfl
  have hq : ((((cfg8.win 6).blk t).view.emb j) 1).val = win8_6.index t (1 : Fin 2) * 512 + 1 * (j 1).val := rfl
  refine congrArg₂ (· + ·) (Finset.sum_congr rfl fun k _ => congrArg₂ (· * ·) ?_ ?_) ?_
  · exact blk0_apply V c t _ _ (by show ((((cfg8.win 6).blk t).view.emb j) 0).val = t.val * 1024 + (j 0).val; omega) rfl
  · exact blk3_apply V c t _ _ rfl (by show ((((cfg8.win 6).blk t).view.emb j) 1).val = (j 1).val; omega)
  · exact blk4_apply V c t _ _ rfl (by show ((((cfg8.win 6).blk t).view.emb j) 1).val = (j 1).val; omega)

/-- An index of a message array is in point `t`'s block iff each coordinate is in the block's range on its axis. -/
theorem mem_blk5 (t : Fin cfg8.N) (i : S4096x512.Idx) :
    i ∈ ((cfg8.win 5).blk t).view.set ↔ ∀ a : Fin 2, win8_5.index t a * S1024x512.size a ≤ (i a).val
      ∧ (i a).val < win8_5.index t a * S1024x512.size a + S1024x512.size a := by
  show i ∈ ((View.whole (Pipeline.arrRef spec8 5)).slice (win8_5.rect t)).set ↔ _
  rw [View.set_slice_whole, Rect.mem_set_unit]
  exact Iff.rfl

/-- The same for the outgoing-message window. -/
theorem mem_blk6 (t : Fin cfg8.N) (i : S4096x512.Idx) :
    i ∈ ((cfg8.win 6).blk t).view.set ↔ ∀ a : Fin 2, win8_6.index t a * S1024x512.size a ≤ (i a).val
      ∧ (i a).val < win8_6.index t a * S1024x512.size a + S1024x512.size a := by
  show i ∈ ((View.whole (Pipeline.arrRef spec8 6)).slice (win8_6.rect t)).set ↔ _
  rw [View.set_slice_whole, Rect.mem_set_unit]
  exact Iff.rfl

/-- The point whose block holds row `r` is `r / 1024`. -/
def pointOf (i : S4096x512.Idx) : Fin cfg8.N :=
  ⟨(i 0).val / 1024, by have h : (i 0).val < 4096 := (i 0).isLt; rw [show cfg8.N = 4 from N_8]; omega⟩

/-- The blocks of the incoming-message window tile its array: every entry is in the block of the point of its row. -/
theorem cover5 (i : S4096x512.Idx) :
    ∃ t : Fin cfg8.N, (cfg8.win 5).flush t = true ∧ i ∈ ((cfg8.win 5).blk t).view.set := by
  have hi0 : (i 0).val < 4096 := (i 0).isLt
  have hi1 : (i 1).val < 512 := (i 1).isLt
  have ht : (pointOf i).val = (i 0).val / 1024 := rfl
  obtain ⟨-, -, -, -, -, -, -, -, -, -, e0, e1, -⟩ := index_facts (pointOf i)
  refine ⟨pointOf i, flush8_5 (pointOf i), ?_⟩
  rw [mem_blk5]
  intro a
  match a with
  | ⟨0, _⟩ => show win8_5.index (pointOf i) (0 : Fin 2) * 1024 ≤ (i 0).val
                ∧ (i 0).val < win8_5.index (pointOf i) (0 : Fin 2) * 1024 + 1024; omega
  | ⟨1, _⟩ => show win8_5.index (pointOf i) (1 : Fin 2) * 512 ≤ (i 1).val
                ∧ (i 1).val < win8_5.index (pointOf i) (1 : Fin 2) * 512 + 512; omega

/-- The blocks of the outgoing-message window tile its array likewise. -/
theorem cover6 (i : S4096x512.Idx) :
    ∃ t : Fin cfg8.N, (cfg8.win 6).flush t = true ∧ i ∈ ((cfg8.win 6).blk t).view.set := by
  have hi0 : (i 0).val < 4096 := (i 0).isLt
  have hi1 : (i 1).val < 512 := (i 1).isLt
  have ht : (pointOf i).val = (i 0).val / 1024 := rfl
  obtain ⟨-, -, -, -, -, -, -, -, -, -, -, -, e0, e1⟩ := index_facts (pointOf i)
  refine ⟨pointOf i, flush8_6 (pointOf i), ?_⟩
  rw [mem_blk6]
  intro a
  match a with
  | ⟨0, _⟩ => show win8_6.index (pointOf i) (0 : Fin 2) * 1024 ≤ (i 0).val
                ∧ (i 0).val < win8_6.index (pointOf i) (0 : Fin 2) * 1024 + 1024; omega
  | ⟨1, _⟩ => show win8_6.index (pointOf i) (1 : Fin 2) * 512 ≤ (i 1).val
                ∧ (i 1).val < win8_6.index (pointOf i) (1 : Fin 2) * 512 + 512; omega

/-- THE INCOMING-MESSAGE ARRAY after the region: entry (r, q) is row r of the state array against column q of the first
    weight, plus the first bias row at column q — all as the region finds them. -/
theorem arr5 (c : Dev nD) :
    (dat V c).arrAt 5 cfg8.N
      = msg (V c (Pipeline.arrRef spec8 0)) (V c (Pipeline.arrRef spec8 1)) (V c (Pipeline.arrRef spec8 2)) := by
  have hG : ∀ t, (cfg8.win 5).flush t = true → (dat V c).flushed 5 t = ((cfg8.win 5).blk t).view.read (Elt Ideal)
      (msg (V c (Pipeline.arrRef spec8 0)) (V c (Pipeline.arrRef spec8 1)) (V c (Pipeline.arrRef spec8 2))) :=
    fun t _ => flushed5_eq V c t
  exact Dat.arrAt_eq_of_cover (dat V c) 5 _ hG cover5

/-- THE OUTGOING-MESSAGE ARRAY after the region: the same with the second weight and the second bias row. -/
theorem arr6 (c : Dev nD) :
    (dat V c).arrAt 6 cfg8.N
      = msg (V c (Pipeline.arrRef spec8 0)) (V c (Pipeline.arrRef spec8 3)) (V c (Pipeline.arrRef spec8 4)) := by
  have hG : ∀ t, (cfg8.win 6).flush t = true → (dat V c).flushed 6 t = ((cfg8.win 6).blk t).view.read (Elt Ideal)
      (msg (V c (Pipeline.arrRef spec8 0)) (V c (Pipeline.arrRef spec8 3)) (V c (Pipeline.arrRef spec8 4))) :=
    fun t _ => flushed6_eq V c t
  exact Dat.arrAt_eq_of_cover (dat V c) 6 _ hG cover6
/-! ## The input arrays are never written -/

/-- Each of the five input windows' arrays — the state, the two weights, the two bias rows — ends as the region finds it. -/
theorem arr0 (c : Dev nD) : (dat V c).arrAt 0 cfg8.N = V c (Pipeline.arrRef spec8 0) :=
  ((dat V c).arrAt_in 0 rfl cfg8.N).trans (dat_A V c 0)
theorem arr1 (c : Dev nD) : (dat V c).arrAt 1 cfg8.N = V c (Pipeline.arrRef spec8 1) :=
  ((dat V c).arrAt_in 1 rfl cfg8.N).trans (dat_A V c 1)
theorem arr2 (c : Dev nD) : (dat V c).arrAt 2 cfg8.N = V c (Pipeline.arrRef spec8 2) :=
  ((dat V c).arrAt_in 2 rfl cfg8.N).trans (dat_A V c 2)
theorem arr3 (c : Dev nD) : (dat V c).arrAt 3 cfg8.N = V c (Pipeline.arrRef spec8 3) :=
  ((dat V c).arrAt_in 3 rfl cfg8.N).trans (dat_A V c 3)
theorem arr4 (c : Dev nD) : (dat V c).arrAt 4 cfg8.N = V c (Pipeline.arrRef spec8 4) :=
  ((dat V c).arrAt_in 4 rfl cfg8.N).trans (dat_A V c 4)

end Cert.KernelIdeal.MessagesValue8

end
-- ==== Proof.IdealGatedPieces1.lean ====
/-
  Region 1: what the body's three runs leave in the buffers they store into, as functions of what they load.

  At every grid point the two running sums each receive one store of "what the sum held plus this point's block
  product"; at the first neighbour block what the sum held is the zero block stored just before. At the last neighbour
  block the result block receives one store: the gated update computed from the two finished sums, the node block's own
  state, the three gate weights (each read as three consecutive blocks of 512 rows) and the three bias rows.
  One store through the whole-buffer rectangle leaves its payload, and a load through it of what was just stored reads
  that payload back; so each stored buffer ends as one payload term of the loaded blocks.
-/
import proofs.«121501_j55087250538634_2_alg».proof.Proof.IdealGated1Runs
import Idealize.ShloMosaic.Lib.Pipeline.Value
import Idealize.ShloMosaic.Lib.Tactic
import Idealize.ShloMosaic.Lib.Ring

set_option maxRecDepth 16384

noncomputable section

namespace Cert.KernelIdeal.GatedPieces1

open Cert.KernelIdeal Cert.KernelIdeal.Gen Cert.KernelIdeal.Gated1
open Idealize.ShloMosaic Idealize.ShloMosaic.TcCoe Idealize.ShloMosaic.Tactic Idealize.SL.Sem

variable {F : FTy → Type} [FloatOps F]

/-- The zero offsets of a whole-buffer rectangle, as the constant function. -/
theorem zeroOffsets : (![0, 0] : Fin 2 → Nat) = fun _ => 0 := funext fun a => by fin_cases a <;> rfl

/-- The 512 rows of a whole message array that the body loads at grid point `i`: those of the point's neighbour block. -/
abbrev nbrRows (i : grid1.Coords) (x : Vec F S4096x512 .bf16) : Vec F S512x512 .bf16 :=
  View.ld x (Rect.unit (s := S4096x512) (k1_off1 i) S512x512.size (k1_off1_inb i))

/-- The three consecutive blocks of 512 rows of a 1536-row gate weight. -/
abbrev rowsA (x : Vec F S1536x512 .bf16) : Vec F S512x512 .bf16 :=
  View.ld x (Rect.unit (s := S1536x512) ![0, 0] S512x512.size inb_S1536x512_S512x512_0_0)
abbrev rowsB (x : Vec F S1536x512 .bf16) : Vec F S512x512 .bf16 :=
  View.ld x (Rect.unit (s := S1536x512) ![512, 0] S512x512.size inb_S1536x512_S512x512_512_0)
abbrev rowsC (x : Vec F S1536x512 .bf16) : Vec F S512x512 .bf16 :=
  View.ld x (Rect.unit (s := S1536x512) ![1024, 0] S512x512.size inb_S1536x512_S512x512_1024_0)

/-- The new state of a node block from its two finished sums `S0`, `S1`, its own state `x6`, the reset gate's weight and
    bias `x7`, `x8`, the update gate's `x9`, `x10` and the candidate's `x11`, `x12`. -/
def newBlock (S0 S1 : Vec F S512x512 .f32) (x6 : Vec F S512x512 .f32) (x7 : Vec F S1536x512 .bf16) (x8 : Vec F S1x512 .f32)
    (x9 : Vec F S1536x512 .bf16) (x10 : Vec F S1x512 .f32) (x11 : Vec F S1536x512 .bf16) (x12 : Vec F S1x512 .f32) :
    Vec F S512x512 .f32 :=
  k1_pay5 x6 (k1_pay6 S0) (k1_pay7 S1) (k1_pay9 S0 S1 x6 (rowsA x7) (rowsB x7) (rowsC x7) x8)
    (k1_pay10 S0 S1 x6 (rowsA x9) (rowsB x9) (rowsC x9)) x10 (rowsA x11) (rowsB x11) (rowsC x11) x12

/-- START, first sum: the zero block plus the first product. -/
theorem start_piece0 (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32)  :
    a14.view.read (Elt F) (a14.view.writes (Elt F) a14.view.junk (runStart c i a2 h2 a3 h3 a4 h4 a5 h5 a6 h6 a7 h7 a8 h8 a9 h9 a10 h10 a11 h11 a12 h12 a13 h13 a14 h14 a15 h15 hs hf x2 x3 x4 x5 x6 x7 x8 x9 x10 x11 x12 ).1) = k1_pay3 (nbrRows i x4) k1_pay1 x2 := by
  rw [View.read_writes_eq_canon _ _ _ (fun y => View.cover_of_tiledL _ S512x512.size (by sl_kernel_rfl) y)]
  unfold runStart
  dsimp only
  try sl_unfold_words
  rw [View.canon_cons_unit_zero zeroOffsets]
  simp only [View.readCov_unit_zero (S := S512x512) _ zeroOffsets, View.readAt_eq_ld, h2.read_unread, h3.read_unread, h4.read_unread, h5.read_unread, View.ld_unit_zero (S := S512x512) zeroOffsets]
  try rfl

/-- START, second sum. -/
theorem start_piece1 (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32)  :
    a15.view.read (Elt F) (a15.view.writes (Elt F) a15.view.junk (runStart c i a2 h2 a3 h3 a4 h4 a5 h5 a6 h6 a7 h7 a8 h8 a9 h9 a10 h10 a11 h11 a12 h12 a13 h13 a14 h14 a15 h15 hs hf x2 x3 x4 x5 x6 x7 x8 x9 x10 x11 x12 ).2.1) = k1_pay4 (nbrRows i x5) k1_pay2 x3 := by
  rw [View.read_writes_eq_canon _ _ _ (fun y => View.cover_of_tiledL _ S512x512.size (by sl_kernel_rfl) y)]
  unfold runStart
  dsimp only
  try sl_unfold_words
  rw [View.canon_cons_unit_zero zeroOffsets]
  simp only [View.readCov_unit_zero (S := S512x512) _ zeroOffsets, View.readAt_eq_ld, h2.read_unread, h3.read_unread, h4.read_unread, h5.read_unread, View.ld_unit_zero (S := S512x512) zeroOffsets]
  try rfl

/-- MIDDLE, first sum: what the point before left plus this point's product. -/
theorem middle_piece0 (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a14.view.read (Elt F) (a14.view.writes (Elt F) a14.view.junk (runMiddle c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).1) = k1_pay3 (nbrRows i x4) s0 x2 := by
  rw [View.read_writes_eq_canon _ _ _ (fun y => View.cover_of_tiledL _ S512x512.size (by sl_kernel_rfl) y)]
  unfold runMiddle
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- MIDDLE, second sum. -/
theorem middle_piece1 (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a15.view.read (Elt F) (a15.view.writes (Elt F) a15.view.junk (runMiddle c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.1) = k1_pay4 (nbrRows i x5) s1 x3 := by
  rw [View.read_writes_eq_canon _ _ _ (fun y => View.cover_of_tiledL _ S512x512.size (by sl_kernel_rfl) y)]
  unfold runMiddle
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, first sum. -/
theorem finish_piece0 (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a14.view.read (Elt F) (a14.view.writes (Elt F) a14.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.1) = k1_pay3 (nbrRows i x4) s0 x2 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, second sum. -/
theorem finish_piece1 (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a15.view.read (Elt F) (a15.view.writes (Elt F) a15.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.2.1) = k1_pay4 (nbrRows i x5) s1 x3 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, the result block: the new state from the two finished sums. -/
theorem finish_pieceO (c : Dev nD) (i : grid1.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a13.view.read (Elt F) (a13.view.writes (Elt F) a13.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).1) = newBlock (k1_pay3 (nbrRows i x4) s0 x2) (k1_pay4 (nbrRows i x5) s1 x3) x6 x7 x8 x9 x10 x11 x12 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readCov_unit_zero (S := S512x512) _ zeroOffsets, View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S512x512) zeroOffsets, View.ld_unit_zero (S := S1x512) zeroOffsets]
  rfl

end Cert.KernelIdeal.GatedPieces1

end
-- ==== Proof.IdealGatedPayload1.lean ====
/-
  The arithmetic of the gated-update body of region 1, entry by entry over the extended reals.

  Every block is 512 x 512 except the bias rows, which are 1 x 512. A change of float format is the identity on the
  extended reals, a reshape to the same shape is the identity, and a bias row broadcast down the rows is the row's entry
  in every row. A block product into the zero accumulator is, at row p and column q, the finite sum over the contracted
  coordinate k of the products of the operands' entries: for the product of rows against columns the entries (p, k) and
  (k, q), for the product contracting both operands' row axes the entries (k, p) and (k, q).

  So, at row p and column q:
    the two cleared accumulators hold zero;
    an accumulation step adds to the running sum one such finite sum;
    a gate's pre-activation is the three finite sums over the three loaded weight blocks, added left to right, then the
    bias entry of column q, and the reset gate is its logistic;
    the candidate is the hyperbolic tangent of the same three-part sum, its third part over the product of the reset gate
    and the state;
    the new state is (1 - z) * x + z * h with z the logistic of the update gate's pre-activation.

  The last section reads the loaded blocks as rows of whole arrays (512 consecutive or any other 512 rows, given by a map
  of row numbers) and the loaded weight blocks as the three blocks of 512 columns of a weight with 1536 columns, stored
  transposed; the new-state block is then the convex update of the network's step at those rows.
-/
import proofs.«121501_j55087250538634_2_alg».proof.Proof.Gen.KernelIdeal.Skeleton
import proofs.«121501_j55087250538634_2_alg».proof.Proof.GgnnMath
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.GatedPayload1

open Cert.KernelIdeal Cert.KernelIdeal.Gen
open Idealize.ShloMosaic Idealize.ShloMosaic.TcCoe Idealize.SL.Sem
open Idealize.ShloMosaic.ValueIdx
open Cert.GgnnMath

/-! ## The two block products' operand indices, one coordinate at a time -/

/-- Rows of the left operand against columns of the right: the left's axis 1 is contracted with the right's axis 0. -/
abbrev dotRC : DotDims S512x512 S512x512 S512x512 := dot_S512x512_S512x512_S512x512_1_0_0_1_n_n

/-- Both operands' axis 0 contracted: columns of the left operand against columns of the right. -/
abbrev dotCC : DotDims S512x512 S512x512 S512x512 := dot_S512x512_S512x512_S512x512_0_0_1_1_n_n

theorem rc_lhs_row (i : S512x512.Idx) (q : dotRC.contr.Idx) : (dotRC.lhsIdx i q 0).val = (i 0).val := by
  unfold DotDims.lhsIdx
  rw [dif_neg (show ¬(0 : Fin S512x512.rank) ∈ dotRC.lhsBatch by decide),
    dif_pos (show (0 : Fin S512x512.rank) ∈ dotRC.lhsNonContracting by decide)]
  rfl

theorem rc_lhs_col (i : S512x512.Idx) (q : dotRC.contr.Idx) : (dotRC.lhsIdx i q 1).val = (q ⟨0, by decide⟩).val :=
  dotRC.lhsIdx_val_of_single rfl i q

theorem rc_rhs_row (i : S512x512.Idx) (q : dotRC.contr.Idx) : (dotRC.rhsIdx i q 0).val = (q ⟨0, by decide⟩).val :=
  dotRC.rhsIdx_val_of_single rfl i q

theorem rc_rhs_col (i : S512x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

theorem cc_lhs_row (i : S512x512.Idx) (q : dotCC.contr.Idx) : (dotCC.lhsIdx i q 0).val = (q ⟨0, by decide⟩).val :=
  dotCC.lhsIdx_val_of_single rfl i q

theorem cc_lhs_col (i : S512x512.Idx) (q : dotCC.contr.Idx) : (dotCC.lhsIdx i q 1).val = (i 0).val := by
  unfold DotDims.lhsIdx
  rw [dif_neg (show ¬(1 : Fin S512x512.rank) ∈ dotCC.lhsBatch by decide),
    dif_pos (show (1 : Fin S512x512.rank) ∈ dotCC.lhsNonContracting by decide)]
  rfl

theorem cc_rhs_row (i : S512x512.Idx) (q : dotCC.contr.Idx) : (dotCC.rhsIdx i q 0).val = (q ⟨0, by decide⟩).val :=
  dotCC.rhsIdx_val_of_single rfl i q

theorem cc_rhs_col (i : S512x512.Idx) (q : dotCC.contr.Idx) : (dotCC.rhsIdx i q 1).val = (i 1).val := by
  unfold DotDims.rhsIdx
  rw [dif_neg (show ¬(1 : Fin S512x512.rank) ∈ dotCC.rhsBatch by decide),
    dif_pos (show (1 : Fin S512x512.rank) ∈ dotCC.rhsNonContracting by decide)]
  rfl

/-- The product of rows against columns into the zero accumulator, at row `p` and column `q`. -/
theorem productRC_apply {φ₁ φ₂ : FTy} (l : FVec Ideal S512x512 φ₁) (r : FVec Ideal S512x512 φ₂) (p q : Fin 512) :
    matmul dotRC none l r (constant (F := Ideal) S512x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact rc_lhs_row _ _
    | ⟨1, _⟩ => exact (rc_lhs_col _ _).trans hk)
  have er : dotRC.rhsIdx (ix2 p q) ((contrEquiv1 dotRC 512 rfl rfl).symm k) = ix2 k q := funext fun a => Fin.ext (by
    match a with
    | ⟨0, _⟩ => exact (rc_rhs_row _ _).trans hk
    | ⟨1, _⟩ => exact rc_rhs_col _ _)
  rw [el, er]

/-- The product contracting both operands' row axes into the zero accumulator, at row `p` and column `q`. -/
theorem productCC_apply {φ₁ φ₂ : FTy} (l : FVec Ideal S512x512 φ₁) (r : FVec Ideal S512x512 φ₂) (p q : Fin 512) :
    matmul dotCC none l r (constant (F := Ideal) S512x512 .f32 0x00000000#32) (ix2 p q)
      = ∑ k : Fin 512, l (ix2 k p) * r (ix2 k q) := by
  simp only [matmul]
  rw [Ideal.matmul_constant_zero_apply, ← Equiv.sum_comp (contrEquiv1 dotCC 512 rfl rfl).symm]
  refine Finset.sum_congr rfl fun k _ => ?_
  have hk := contrEquiv1_symm_val dotCC 512 rfl rfl k
  have el : dotCC.lhsIdx (ix2 p q) ((contrEquiv1 dotCC 512 rfl rfl).symm k) = ix2 k p := funext fun a => Fin.ext (by
    match a with
    | ⟨0, _⟩ => exact (cc_lhs_row _ _).trans hk
    | ⟨1, _⟩ => exact cc_lhs_col _ _)
  have er : dotCC.rhsIdx (ix2 p q) ((contrEquiv1 dotCC 512 rfl rfl).symm k) = ix2 k q := funext fun a => Fin.ext (by
    match a with
    | ⟨0, _⟩ => exact (cc_rhs_row _ _).trans hk
    | ⟨1, _⟩ => exact cc_rhs_col _ _)
  rw [el, er]

/-- The bias row broadcast down the rows, at row `p` and column `q`, is the row's entry at column `q`. -/
theorem bias_apply (b : FVec Ideal S1x512 .f32) (p q : Fin 512) :
    broadcastTo S512x512 b broadcasts_S1x512_S512x512 (ix2 p q) = b (ix2 0 q) := by
  refine broadcastTo_apply b _ (ix2 p q) (ix2 0 q) fun a => ?_
  match a with
  | ⟨0, _⟩ => rfl
  | ⟨1, _⟩ => rfl

/-- The logistic of a block, entry by entry. -/
theorem logistic_apply (v : FVec Ideal S512x512 .f32) (i : S512x512.Idx) : logistic v i = Ideal.logistic (v i) := rfl

/-- The hyperbolic tangent of a block, entry by entry. -/
theorem tanh_apply (v : FVec Ideal S512x512 .f32) (i : S512x512.Idx) : tanh v i = Ideal.tanh (v i) := rfl

/-! ## The payloads at an index -/

/-- The cleared incoming accumulator holds zero everywhere. -/
theorem clear_in_apply (p q : Fin 512) : k1_pay1 (F := Ideal) (ix2 p q) = 0 := by
  unfold k1_pay1
  simp only [shapeCast_self]
  rw [broadcast_apply]
  exact Ideal.ofBits_zero_f32

/-- The cleared outgoing accumulator holds zero everywhere. -/
theorem clear_out_apply (p q : Fin 512) : k1_pay2 (F := Ideal) (ix2 p q) = 0 := by
  unfold k1_pay2
  simp only [shapeCast_self]
  rw [broadcast_apply]
  exact Ideal.ofBits_zero_f32

/-- One accumulation step of the incoming aggregate: the running sum plus, over the 512 nodes `k` of the step, the
    adjacency entry `(p, k)` times the message entry `(k, q)`. -/
theorem acc_in_apply (msg : Vec Ideal S512x512 .bf16) (run : Vec Ideal S512x512 .f32) (adj : Vec Ideal S512x512 .bf16)
    (p q : Fin 512) :
    k1_pay3 msg run adj (ix2 p q) = run (ix2 p q) + ∑ k : Fin 512, adj (ix2 p k) * msg (ix2 k q) := by
  unfold k1_pay3
  simp only [shapeCast_self]
  rw [addf_apply]
  exact congrArg (run (ix2 p q) + ·) (productRC_apply _ _ p q)

/-- One accumulation step of the outgoing aggregate: the running sum plus, over the 512 nodes `k` of the step, the
    adjacency entry `(k, p)` times the message entry `(k, q)`. -/
theorem acc_out_apply (msg : Vec Ideal S512x512 .bf16) (run : Vec Ideal S512x512 .f32) (adj : Vec Ideal S512x512 .bf16)
    (p q : Fin 512) :
    k1_pay4 msg run adj (ix2 p q) = run (ix2 p q) + ∑ k : Fin 512, adj (ix2 k p) * msg (ix2 k q) := by
  unfold k1_pay4
  simp only [shapeCast_self]
  rw [addf_apply]
  exact congrArg (run (ix2 p q) + ·) (productCC_apply _ _ p q)

/-- The reset gate at row `p`, column `q`: the logistic of the three partial sums plus the bias entry. -/
theorem reset_apply (aIn aOut x : Vec Ideal S512x512 .f32) (w0 w1 w2 : Vec Ideal S512x512 .bf16) (b : Vec Ideal S1x512 .f32)
    (p q : Fin 512) :
    k1_pay9 aIn aOut x w0 w1 w2 b (ix2 p q) =
      Ideal.logistic ((((∑ k : Fin 512, aIn (ix2 p k) * w0 (ix2 k q)) + ∑ k : Fin 512, aOut (ix2 p k) * w1 (ix2 k q))
        + ∑ k : Fin 512, x (ix2 p k) * w2 (ix2 k q)) + b (ix2 0 q)) := by
  unfold k1_pay9 k1_pay6 k1_pay7 k1_pay8
  simp only [shapeCast_self]
  rw [logistic_apply, addf_apply, addf_apply, addf_apply, bias_apply, productRC_apply, productRC_apply, productRC_apply]
  rfl

/-- The update gate's pre-activation without its bias at row `p`, column `q`: the three partial sums. -/
theorem updatePre_apply (aIn aOut x : Vec Ideal S512x512 .f32) (w0 w1 w2 : Vec Ideal S512x512 .bf16) (p q : Fin 512) :
    k1_pay10 aIn aOut x w0 w1 w2 (ix2 p q) =
      ((∑ k : Fin 512, aIn (ix2 p k) * w0 (ix2 k q)) + ∑ k : Fin 512, aOut (ix2 p k) * w1 (ix2 k q))
        + ∑ k : Fin 512, x (ix2 p k) * w2 (ix2 k q) := by
  unfold k1_pay10 k1_pay6 k1_pay7 k1_pay8
  simp only [shapeCast_self]
  rw [addf_apply, addf_apply, productRC_apply, productRC_apply, productRC_apply]
  rfl

/-- The new state at row `p`, column `q`: with `z` the logistic of the update gate's pre-activation plus its bias and
    `h` the hyperbolic tangent of the candidate's three partial sums (the third over the reset gate times the state)
    plus its bias, `(1 - z) * x + z * h`. -/
theorem newState_apply (x : Vec Ideal S512x512 .f32) (aIn aOut : FVec Ideal S512x512 .bf16) (r zpre : FVec Ideal S512x512 .f32)
    (bz : Vec Ideal S1x512 .f32) (w0 w1 w2 : Vec Ideal S512x512 .bf16) (bh : Vec Ideal S1x512 .f32) (p q : Fin 512) :
    k1_pay5 x aIn aOut r zpre bz w0 w1 w2 bh (ix2 p q) =
      (1 - Ideal.logistic (zpre (ix2 p q) + bz (ix2 0 q))) * x (ix2 p q)
        + Ideal.logistic (zpre (ix2 p q) + bz (ix2 0 q))
          * Ideal.tanh ((((∑ k : Fin 512, aIn (ix2 p k) * w0 (ix2 k q)) + ∑ k : Fin 512, aOut (ix2 p k) * w1 (ix2 k q))
              + ∑ k : Fin 512, (r (ix2 p k) * x (ix2 p k)) * w2 (ix2 k q)) + bh (ix2 0 q)) := by
  unfold k1_pay5
  simp only [shapeCast_self]
  rw [addf_apply, mulf_apply, mulf_apply, subf_apply, broadcast_apply, logistic_apply, addf_apply, bias_apply, tanh_apply,
    addf_apply, addf_apply, addf_apply, bias_apply, productRC_apply, productRC_apply, productRC_apply]
  simp only [truncf_apply, mulf_apply]
  rw [show (Scalar.ofBits (F := Ideal) .f32 0x3F800000#32 : EReal) = 1 from Ideal.ofBits_one_f32]

/-- The incoming aggregate's block in the narrower float format is the block itself. -/
theorem fmt_in_apply (v : Vec Ideal S512x512 .f32) (i : S512x512.Idx) : k1_pay6 v i = v i := by
  unfold k1_pay6
  rfl

/-- The outgoing aggregate's block in the narrower float format is the block itself. -/
theorem fmt_out_apply (v : Vec Ideal S512x512 .f32) (i : S512x512.Idx) : k1_pay7 v i = v i := by
  unfold k1_pay7
  rfl

/-- The state block in the narrower float format is the block itself. -/
theorem fmt_state_apply (v : Vec Ideal S512x512 .f32) (i : S512x512.Idx) : k1_pay8 v i = v i := by
  unfold k1_pay8
  simp only [shapeCast_self, truncf_apply]

/-! ## The new-state block as the network's convex update at the block's rows

  The loaded blocks are read as rows of whole arrays: `row p` is the array row that the block's row `p` holds. A gate's
  weight has 1536 columns, three blocks of 512; the body loads it transposed, so the loaded block `i` at `(k, q)` is the
  weight's entry at row `q` and column `k` of the column block `i`. -/

/-- The reset gate's block is the network's reset gate at the block's rows. -/
theorem reset_eq_gate (row : Fin 512 → Fin 4096) (aIn aOut x : Fin 4096 → Fin 512 → EReal)
    (Wr : Fin 512 → Fin 1536 → EReal) (br : Fin 512 → EReal)
    (sIn sOut xb : Vec Ideal S512x512 .f32) (r0 r1 r2 : Vec Ideal S512x512 .bf16) (vbr : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hr0 : ∀ k q : Fin 512, r0 (ix2 k q) = Wr q (part0 k))
    (hr1 : ∀ k q : Fin 512, r1 (ix2 k q) = Wr q (part1 k))
    (hr2 : ∀ k q : Fin 512, r2 (ix2 k q) = Wr q (part2 k))
    (hbr : ∀ q : Fin 512, vbr (ix2 0 q) = br q) (p q : Fin 512) :
    k1_pay9 sIn sOut xb r0 r1 r2 vbr (ix2 p q) = Ideal.logistic (gate aIn aOut x Wr br (row p) q) := by
  rw [reset_apply]
  simp only [gate, hIn, hOut, hx, hr0, hr1, hr2, hbr]

/-- The update gate's pre-activation block plus its bias row is the network's update-gate pre-activation at the
    block's rows. -/
theorem updatePre_eq_gate (row : Fin 512 → Fin 4096) (aIn aOut x : Fin 4096 → Fin 512 → EReal)
    (Wz : Fin 512 → Fin 1536 → EReal) (bz : Fin 512 → EReal)
    (sIn sOut xb : Vec Ideal S512x512 .f32) (z0 z1 z2 : Vec Ideal S512x512 .bf16) (vbz : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hz0 : ∀ k q : Fin 512, z0 (ix2 k q) = Wz q (part0 k))
    (hz1 : ∀ k q : Fin 512, z1 (ix2 k q) = Wz q (part1 k))
    (hz2 : ∀ k q : Fin 512, z2 (ix2 k q) = Wz q (part2 k))
    (hbz : ∀ q : Fin 512, vbz (ix2 0 q) = bz q) (p q : Fin 512) :
    k1_pay10 sIn sOut xb z0 z1 z2 (ix2 p q) + vbz (ix2 0 q) = gate aIn aOut x Wz bz (row p) q := by
  rw [updatePre_apply]
  simp only [gate, hIn, hOut, hx, hz0, hz1, hz2, hbz]

/-- The new-state block, computed by the body from the finished aggregates' blocks `sIn`, `sOut`, the state block `xb`,
    the nine loaded weight blocks and the three bias rows, is at `(p, q)` the network's convex update
    `(1 - z) * x + z * h` at row `row p` and column `q`, with `r` and `z` the logistics of the reset and update gates and
    `h` the candidate. -/
theorem newState_eq_update (row : Fin 512 → Fin 4096) (aIn aOut x : Fin 4096 → Fin 512 → EReal)
    (Wr Wz Wh : Fin 512 → Fin 1536 → EReal) (br bz bh : Fin 512 → EReal)
    (sIn sOut xb : Vec Ideal S512x512 .f32)
    (r0 r1 r2 z0 z1 z2 h0 h1 h2 : Vec Ideal S512x512 .bf16) (vbr vbz vbh : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hr0 : ∀ k q : Fin 512, r0 (ix2 k q) = Wr q (part0 k))
    (hr1 : ∀ k q : Fin 512, r1 (ix2 k q) = Wr q (part1 k))
    (hr2 : ∀ k q : Fin 512, r2 (ix2 k q) = Wr q (part2 k))
    (hz0 : ∀ k q : Fin 512, z0 (ix2 k q) = Wz q (part0 k))
    (hz1 : ∀ k q : Fin 512, z1 (ix2 k q) = Wz q (part1 k))
    (hz2 : ∀ k q : Fin 512, z2 (ix2 k q) = Wz q (part2 k))
    (hh0 : ∀ k q : Fin 512, h0 (ix2 k q) = Wh q (part0 k))
    (hh1 : ∀ k q : Fin 512, h1 (ix2 k q) = Wh q (part1 k))
    (hh2 : ∀ k q : Fin 512, h2 (ix2 k q) = Wh q (part2 k))
    (hbr : ∀ q : Fin 512, vbr (ix2 0 q) = br q)
    (hbz : ∀ q : Fin 512, vbz (ix2 0 q) = bz q)
    (hbh : ∀ q : Fin 512, vbh (ix2 0 q) = bh q) (p q : Fin 512) :
    k1_pay5 xb (k1_pay6 sIn) (k1_pay7 sOut) (k1_pay9 sIn sOut xb r0 r1 r2 vbr) (k1_pay10 sIn sOut xb z0 z1 z2)
        vbz h0 h1 h2 vbh (ix2 p q)
      = update (fun p q => Ideal.logistic (gate aIn aOut x Wz bz p q)) x
          (candidate aIn aOut (fun p q => Ideal.logistic (gate aIn aOut x Wr br p q)) x Wh bh) (row p) q := by
  rw [newState_apply, updatePre_eq_gate row aIn aOut x Wz bz sIn sOut xb z0 z1 z2 vbz hIn hOut hx hz0 hz1 hz2 hbz p q]
  have hr : ∀ k : Fin 512, k1_pay9 sIn sOut xb r0 r1 r2 vbr (ix2 p k) = Ideal.logistic (gate aIn aOut x Wr br (row p) k) :=
    fun k => reset_eq_gate row aIn aOut x Wr br sIn sOut xb r0 r1 r2 vbr hIn hOut hx hr0 hr1 hr2 hbr p k
  have hi : ∀ k : Fin 512, k1_pay6 sIn (ix2 p k) = aIn (row p) k := fun k => hIn p k
  have ho : ∀ k : Fin 512, k1_pay7 sOut (ix2 p k) = aOut (row p) k := fun k => hOut p k
  simp only [hr, hi, ho, hx, hh0, hh1, hh2, hbh]
  rfl

/-- The same with each gate's weight given as the transposed array the body loads from: 1536 rows, 512 columns, entry
    `(j, q)` the weight's entry at row `q` and column `j`; the three loaded blocks are its rows 0 to 511, 512 to 1023 and
    1024 to 1535. -/
theorem newState_eq_update_of_transposed (row : Fin 512 → Fin 4096) (aIn aOut x : Fin 4096 → Fin 512 → EReal)
    (Wr Wz Wh : Fin 512 → Fin 1536 → EReal) (br bz bh : Fin 512 → EReal)
    (Tr Tz Th : Vec Ideal S1536x512 .bf16)
    (sIn sOut xb : Vec Ideal S512x512 .f32)
    (r0 r1 r2 z0 z1 z2 h0 h1 h2 : Vec Ideal S512x512 .bf16) (vbr vbz vbh : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hTr : ∀ (j : Fin 1536) (q : Fin 512), Tr (ix2 j q) = Wr q j)
    (hTz : ∀ (j : Fin 1536) (q : Fin 512), Tz (ix2 j q) = Wz q j)
    (hTh : ∀ (j : Fin 1536) (q : Fin 512), Th (ix2 j q) = Wh q j)
    (hr0 : ∀ k q : Fin 512, r0 (ix2 k q) = Tr (ix2 (part0 k) q))
    (hr1 : ∀ k q : Fin 512, r1 (ix2 k q) = Tr (ix2 (part1 k) q))
    (hr2 : ∀ k q : Fin 512, r2 (ix2 k q) = Tr (ix2 (part2 k) q))
    (hz0 : ∀ k q : Fin 512, z0 (ix2 k q) = Tz (ix2 (part0 k) q))
    (hz1 : ∀ k q : Fin 512, z1 (ix2 k q) = Tz (ix2 (part1 k) q))
    (hz2 : ∀ k q : Fin 512, z2 (ix2 k q) = Tz (ix2 (part2 k) q))
    (hh0 : ∀ k q : Fin 512, h0 (ix2 k q) = Th (ix2 (part0 k) q))
    (hh1 : ∀ k q : Fin 512, h1 (ix2 k q) = Th (ix2 (part1 k) q))
    (hh2 : ∀ k q : Fin 512, h2 (ix2 k q) = Th (ix2 (part2 k) q))
    (hbr : ∀ q : Fin 512, vbr (ix2 0 q) = br q)
    (hbz : ∀ q : Fin 512, vbz (ix2 0 q) = bz q)
    (hbh : ∀ q : Fin 512, vbh (ix2 0 q) = bh q) (p q : Fin 512) :
    k1_pay5 xb (k1_pay6 sIn) (k1_pay7 sOut) (k1_pay9 sIn sOut xb r0 r1 r2 vbr) (k1_pay10 sIn sOut xb z0 z1 z2)
        vbz h0 h1 h2 vbh (ix2 p q)
      = update (fun p q => Ideal.logistic (gate aIn aOut x Wz bz p q)) x
          (candidate aIn aOut (fun p q => Ideal.logistic (gate aIn aOut x Wr br p q)) x Wh bh) (row p) q :=
  newState_eq_update row aIn aOut x Wr Wz Wh br bz bh sIn sOut xb r0 r1 r2 z0 z1 z2 h0 h1 h2 vbr vbz vbh hIn hOut hx
    (fun k q => (hr0 k q).trans (hTr _ _)) (fun k q => (hr1 k q).trans (hTr _ _)) (fun k q => (hr2 k q).trans (hTr _ _))
    (fun k q => (hz0 k q).trans (hTz _ _)) (fun k q => (hz1 k q).trans (hTz _ _)) (fun k q => (hz2 k q).trans (hTz _ _))
    (fun k q => (hh0 k q).trans (hTh _ _)) (fun k q => (hh1 k q).trans (hTh _ _)) (fun k q => (hh2 k q).trans (hTh _ _))
    hbr hbz hbh p q

end Cert.KernelIdeal.GatedPayload1

end
-- ==== Proof.LibBlockSum.lean ====
/-
  Sums over an index range cut into consecutive blocks, in any additive commutative monoid — in particular the
  extended reals, where addition is commutative and associative although it does not cancel.

  * `sum_by_blocks`: a sum over `n * b` indices is the sum over the `n` blocks of the sums over each block's `b`
    indices (the index `j + b * i` is entry `j` of block `i`).
  * `sum_three_parts`: a sum over `a + b + c` indices is the sum of its three consecutive parts.
  * `running_total`: an accumulator started at `z` that adds `g k` at step `k` holds `z + ∑ k < n, g k` after
    `n` steps.
-/
import Mathlib.Algebra.BigOperators.Fin
import Mathlib.Algebra.BigOperators.Group.Finset.Basic

namespace BlockSum

open scoped BigOperators

variable {M : Type*} [AddCommMonoid M]

/-- A sum over `n * b` consecutive indices, block by block: index `j + b * i` is entry `j` of block `i`. -/
theorem sum_by_blocks (n b : ℕ) (f : Fin (n * b) → M) :
    ∑ k, f k = ∑ i : Fin n, ∑ j : Fin b, f (finProdFinEquiv (i, j)) := by
  rw [← Fintype.sum_prod_type']
  exact (Equiv.sum_comp finProdFinEquiv f).symm

/-- The position of entry `j` of block `i`. -/
theorem block_entry_val (n b : ℕ) (i : Fin n) (j : Fin b) :
    (finProdFinEquiv (i, j) : Fin (n * b)).val = j.val + b * i.val := rfl

/-- A sum over `a + b + c` consecutive indices is the sum of its three consecutive parts. -/
theorem sum_three_parts (a b c : ℕ) (f : Fin (a + b + c) → M) :
    ∑ k, f k = ∑ i : Fin a, f (Fin.castAdd c (Fin.castAdd b i))
      + ∑ i : Fin b, f (Fin.castAdd c (Fin.natAdd a i)) + ∑ i : Fin c, f (Fin.natAdd (a + b) i) := by
  rw [Fin.sum_univ_add, Fin.sum_univ_add]

/-- An accumulator started at `z` that adds `g k` at step `k` holds `z` plus the first `n` terms after `n` steps. -/
theorem running_total (z : M) (g : ℕ → M) (acc : ℕ → M) (h0 : acc 0 = z) (hs : ∀ k, acc (k + 1) = acc k + g k) (n : ℕ) :
    acc n = z + ∑ k ∈ Finset.range n, g k := by
  induction n with
  | zero => simp [h0]
  | succ n ih => rw [hs, ih, Finset.sum_range_succ, add_assoc]

end BlockSum
-- ==== Proof.IdealGatedValue1.lean ====
/-
  The value of the new-state array of region 1, read over the extended reals.

  The grid is 8 x 8: point t = 8 m + k handles the block of 512 nodes m against the block of 512 neighbours k. Over the
  eight points of a node block two running sums are kept: the first receives, at neighbour block k, the 512 x 512
  adjacency block (m, k) times rows 512 k … 512 k + 511 of the incoming messages; the second the adjacency block (k, m),
  read transposed, times the same rows of the outgoing messages. Both start from zero at k = 0, so after k = 7 entry
  (p, q) of the first is zero plus the eight blocks' sums added in order, which — addition of extended reals being
  associative — is the one sum over all 4096 neighbours of  A (512 m + p, j) * s_in (j, q);  likewise the second with
  A (j, 512 m + p) and s_out. At k = 7 the body forms the two gates and the candidate from the finished sums, the node
  block's own state, the three gate weights (each the transposed matrix, read in three blocks of 512 rows) and the bias
  rows, and stores the convex update; only that point writes the result block back. The eight written blocks tile the
  result array (row r lies in the block written at point 8 (r / 512) + 7). Hence the array after the region is one
  propagation step computed from the given message arrays, and the input arrays are as the region finds them.
-/
import proofs.«121501_j55087250538634_2_alg».proof.Proof.IdealGated1
import proofs.«121501_j55087250538634_2_alg».proof.Proof.IdealGatedPieces1
import proofs.«121501_j55087250538634_2_alg».proof.Proof.IdealGatedPayload1
import proofs.«121501_j55087250538634_2_alg».proof.Proof.GgnnMath
import proofs.«121501_j55087250538634_2_alg».proof.Proof.LibBlockSum
import Idealize.ShloMosaic.Lib.Pipeline.Value
import Idealize.ShloMosaic.Lib.ValueIdx

set_option maxRecDepth 16384

noncomputable section

open scoped BigOperators

namespace Cert.KernelIdeal.GatedValue1

open Cert.KernelIdeal Cert.KernelIdeal.Gen Cert.KernelIdeal.Gated1 Cert.KernelIdeal.GatedPieces1 Cert.KernelIdeal.GatedPayload1
open Idealize.ShloMosaic Idealize.ShloMosaic.TcCoe Idealize.SL.Sem
open Idealize.ShloMosaic.ValueIdx
open Idealize.ShloMosaic.Pipeline (Dat)
open Cert.GgnnMath (part0 part1 part2)

/-! ## The specification: one propagation step from given messages -/

/-- One propagation step with the two edge-message matrices given: the aggregations, the two gates, the candidate and
    the convex update. -/
def stepFrom (Af : Fin 4096 → Fin 4096 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal)
    (sIn sOut x : Fin 4096 → Fin 512 → EReal) : Fin 4096 → Fin 512 → EReal :=
  let aIn := Cert.GgnnMath.aggIn Af sIn
  let aOut := Cert.GgnnMath.aggOut Af sOut
  let r : Fin 4096 → Fin 512 → EReal := fun p q => Ideal.logistic (Cert.GgnnMath.gate aIn aOut x Wr br p q)
  let z : Fin 4096 → Fin 512 → EReal := fun p q => Ideal.logistic (Cert.GgnnMath.gate aIn aOut x Wz bz p q)
  Cert.GgnnMath.update z x (Cert.GgnnMath.candidate aIn aOut r x Wh bh)

/-- A whole step is the step from its own two linear layers. -/
theorem step_eq_stepFrom (Af : Fin 4096 → Fin 4096 → EReal)
    (Win : Fin 512 → Fin 512 → EReal) (bin : Fin 512 → EReal) (Wout : Fin 512 → Fin 512 → EReal) (bout : Fin 512 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal) (x : Fin 4096 → Fin 512 → EReal) :
    Cert.GgnnMath.step Af Win bin Wout bout Wr br Wz bz Wh bh x
      = stepFrom Af Wr br Wz bz Wh bh (Cert.GgnnMath.affine x Win bin) (Cert.GgnnMath.affine x Wout bout) x := rfl

/-- The new-state array of the adjacency array `A`, the message arrays `SI`, `SO`, the state array `X`, the three
    transposed gate weights and the three bias rows. -/
def newState (A : S4096x4096.Idx → EReal) (SI SO X : S4096x512.Idx → EReal)
    (WrT : S1536x512.Idx → EReal) (Br : S1x512.Idx → EReal) (WzT : S1536x512.Idx → EReal) (Bz : S1x512.Idx → EReal)
    (WhT : S1536x512.Idx → EReal) (Bh : S1x512.Idx → EReal) : S4096x512.Idx → EReal :=
  fun i => stepFrom (fun p k => A (ix2 p k)) (fun q j => WrT (ix2 j q)) (fun q => Br (ix2 0 q))
    (fun q j => WzT (ix2 j q)) (fun q => Bz (ix2 0 q)) (fun q j => WhT (ix2 j q)) (fun q => Bh (ix2 0 q))
    (fun p k => SI (ix2 p k)) (fun p k => SO (ix2 p k)) (fun p k => X (ix2 p k)) (i 0) (i 1)

/-! ## Array entries by natural-number coordinates -/

/-- Entry (r, k) of the adjacency array by natural-number coordinates (zero outside the array, never consulted). -/
def entryA (A : S4096x4096.Idx → EReal) (r k : ℕ) : EReal :=
  if h : r < 4096 ∧ k < 4096 then A (ix2 ⟨r, h.1⟩ ⟨k, h.2⟩) else 0

/-- Entry (k, q) of a message array by a natural-number row. -/
def entryS (S : S4096x512.Idx → EReal) (k : ℕ) (q : Fin 512) : EReal :=
  if h : k < 4096 then S (ix2 ⟨k, h⟩ q) else 0

theorem entryA_eq (A : S4096x4096.Idx → EReal) (r k : Fin 4096) : entryA A r.val k.val = A (ix2 r k) := by
  unfold entryA; rw [dif_pos ⟨r.isLt, k.isLt⟩]

theorem entryS_eq (S : S4096x512.Idx → EReal) (k : Fin 4096) (q : Fin 512) : entryS S k.val q = S (ix2 k q) := by
  unfold entryS; rw [dif_pos k.isLt]

/-! ## One neighbour block's contribution, and the eight of them -/

/-- What neighbour block `kb` adds to the incoming sum of node `512 mb + p` at feature `q`. -/
def termIn (A : S4096x4096.Idx → EReal) (SI : S4096x512.Idx → EReal) (mb : ℕ) (p q : Fin 512) (kb : ℕ) : EReal :=
  ∑ j : Fin 512, entryA A (512 * mb + p.val) (512 * kb + j.val) * entryS SI (512 * kb + j.val) q

/-- What neighbour block `kb` adds to the outgoing sum: the adjacency entry is read transposed. -/
def termOut (A : S4096x4096.Idx → EReal) (SO : S4096x512.Idx → EReal) (mb : ℕ) (p q : Fin 512) (kb : ℕ) : EReal :=
  ∑ j : Fin 512, entryA A (512 * kb + j.val) (512 * mb + p.val) * entryS SO (512 * kb + j.val) q

/-- The eight neighbour blocks' contributions, added in order onto zero, are the aggregation over all 4096 neighbours. -/
theorem total_in (A : S4096x4096.Idx → EReal) (SI : S4096x512.Idx → EReal) (mb : ℕ) (hmb : mb < 8) (p q : Fin 512) :
    0 + ∑ kb ∈ Finset.range 8, termIn A SI mb p q kb
      = Cert.GgnnMath.aggIn (fun r k => A (ix2 r k)) (fun k q => SI (ix2 k q)) ⟨512 * mb + p.val, by omega⟩ q := by
  rw [zero_add, Finset.sum_range]
  unfold Cert.GgnnMath.aggIn
  refine Eq.symm ((BlockSum.sum_by_blocks (M := EReal) 8 512
    (fun k => A (ix2 (⟨512 * mb + p.val, by omega⟩ : Fin 4096) k) * SI (ix2 k q))).trans ?_)
  refine Finset.sum_congr rfl fun i _ => Finset.sum_congr rfl fun j _ => ?_
  have hv : (finProdFinEquiv (i, j) : Fin (8 * 512)).val = 512 * i.val + j.val := by
    rw [BlockSum.block_entry_val]; omega
  show A (ix2 (⟨512 * mb + p.val, by omega⟩ : Fin 4096) (finProdFinEquiv (i, j))) * SI (ix2 (finProdFinEquiv (i, j)) q) = _
  rw [← entryA_eq A ⟨512 * mb + p.val, by omega⟩ (finProdFinEquiv (i, j)), ← entryS_eq SI (finProdFinEquiv (i, j)) q, hv]

theorem total_out (A : S4096x4096.Idx → EReal) (SO : S4096x512.Idx → EReal) (mb : ℕ) (hmb : mb < 8) (p q : Fin 512) :
    0 + ∑ kb ∈ Finset.range 8, termOut A SO mb p q kb
      = Cert.GgnnMath.aggOut (fun r k => A (ix2 r k)) (fun k q => SO (ix2 k q)) ⟨512 * mb + p.val, by omega⟩ q := by
  rw [zero_add, Finset.sum_range]
  unfold Cert.GgnnMath.aggOut
  refine Eq.symm ((BlockSum.sum_by_blocks (M := EReal) 8 512
    (fun k => A (ix2 k (⟨512 * mb + p.val, by omega⟩ : Fin 4096)) * SO (ix2 k q))).trans ?_)
  refine Finset.sum_congr rfl fun i _ => Finset.sum_congr rfl fun j _ => ?_
  have hv : (finProdFinEquiv (i, j) : Fin (8 * 512)).val = 512 * i.val + j.val := by
    rw [BlockSum.block_entry_val]; omega
  show A (ix2 (finProdFinEquiv (i, j)) (⟨512 * mb + p.val, by omega⟩ : Fin 4096)) * SO (ix2 (finProdFinEquiv (i, j)) q) = _
  rw [← entryA_eq A (finProdFinEquiv (i, j)) ⟨512 * mb + p.val, by omega⟩, ← entryS_eq SO (finProdFinEquiv (i, j)) q, hv]

/-- A running sum that starts at zero plus the first term and adds one term per step. -/
theorem grow (g : ℕ → EReal) (k : ℕ) (s : EReal) (hs : s = 0 + ∑ kb ∈ Finset.range k, g kb) :
    s + g k = 0 + ∑ kb ∈ Finset.range (k + 1), g kb := by
  rw [hs, Finset.sum_range_succ, add_assoc]

variable (V : (c : Dev nD) → (b : Ref sig .tc) → Buf (Elt Ideal) ((c : Thread nD τ).loc b))

/-! ## The index maps over the grid -/

/-- The printed index maps at point `t = 8 m + k`: the adjacency window at block (m, k), its mirror at (k, m), the
    node-state and result windows at block row m, every other window at block (0, 0); the rows the body loads of the
    message arrays start at `512 k`. -/
theorem index_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = t.val / 8
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val / 8 ∧ win1_11.index t (1 : Fin 2) = 0
    ∧ k1_off1 (grid1.coords t) (0 : Fin 2) = 512 * (t.val % 8) ∧ k1_off1 (grid1.coords t) (1 : Fin 2) = 0 :=
  (by decide +kernel : ∀ t : Fin grid1.N, _)

/-! ## The blocks as parts of their arrays -/

/-- The adjacency block at point `t = 8 m + k` is rows `512 m …`, columns `512 k …` of the adjacency array. -/
theorem blk0_apply (c : Dev nD) (t : Fin cfg1.N) (y : S512x512.Idx) (i : S4096x4096.Idx)
    (h0 : (i 0).val = 512 * (t.val / 8) + (y 0).val) (h1 : (i 1).val = 512 * (t.val % 8) + (y 1).val) :
    blk V c 0 t y = (V c (Pipeline.arrRef spec1 0) : S4096x4096.Idx → EReal) i := by
  obtain ⟨e0, e1, -⟩ := index_facts t
  unfold blk
  show V c (Pipeline.arrRef spec1 0) (((cfg1.win 0).blk t).view.emb y) = _
  refine congrArg _ (funext fun a => Fin.ext ?_)
  match a with
  | ⟨0, _⟩ => show win1_0.index t (0 : Fin 2) * 512 + 1 * (y 0).val = (i 0).val; omega
  | ⟨1, _⟩ => show win1_0.index t (1 : Fin 2) * 512 + 1 * (y 1).val = (i 1).val; omega

/-- The mirrored adjacency block is rows `512 k …`, columns `512 m …` of the same array. -/
theorem blk1_apply (c : Dev nD) (t : Fin cfg1.N) (y : S512x512.Idx) (i : S4096x4096.Idx)
    (h0 : (i 0).val = 512 * (t.val % 8) + (y 0).val) (h1 : (i 1).val = 512 * (t.val / 8) + (y 1).val) :
    blk V c 1 t y = (V c (Pipeline.arrRef spec1 0) : S4096x4096.Idx → EReal) i := by
  obtain ⟨-, -, e0, e1, -⟩ := index_facts t
  unfold blk
  show V c (Pipeline.arrRef spec1 1) (((cfg1.win 1).blk t).view.emb y) = _
  refine congrArg _ (funext fun a => Fin.ext ?_)
  match a with
  | ⟨0, _⟩ => show win1_1.index t (0 : Fin 2) * 512 + 1 * (y 0).val = (i 0).val; omega
  | ⟨1, _⟩ => show win1_1.index t (1 : Fin 2) * 512 + 1 * (y 1).val = (i 1).val; omega

/-- The incoming-message window's block is the whole array at every point. -/
theorem blk2_apply (c : Dev nD) (t : Fin cfg1.N) (y : S4096x512.Idx) (i : S4096x512.Idx)
    (h0 : (i 0).val =  (y 0).val) (h1 : (i 1).val =  (y 1).val) :
    blk V c 2 t y = (V c (Pipeline.arrRef spec1 2) : S4096x512.Idx → EReal) i := by
  obtain ⟨-, -, -, -, e0, e1, -⟩ := index_facts t
  unfold blk
  show V c (Pipeline.arrRef spec1 2) (((cfg1.win 2).blk t).view.emb y) = _
  refine congrArg _ (funext fun a => Fin.ext ?_)
  match a with
  | ⟨0, _⟩ => show win1_2.index t (0 : Fin 2) * 4096 + 1 * (y 0).val = (i 0).val; omega
  | ⟨1, _⟩ => show win1_2.index t (1 : Fin 2) * 512 + 1 * (y 1).val = (i 1).val; omega

/-- The outgoing-message window's block is the whole array at every point. -/
theorem blk3_apply (c : Dev nD) (t : Fin cfg1.N) (y : S4096x512.Idx) (i : S4096x512.Idx)
    (h0 : (i 0).val =  (y 0).val) (h1 : (i 1).val =  (y 1).val) :
    blk V c 3 t y = (V c (Pipeline.arrRef spec1 3) : S4096x512.Idx → EReal) i := by
  obtain ⟨-, -, -, -, -, -, e0, e1, -⟩ := index_facts t
  unfold blk
  show V c (Pipeline.arrRef spec1 3) (((cfg1.win 3).blk t).view.emb y) = _
  refine congrArg _ (funext fun a => Fin.ext ?_)
  match a with
  | ⟨0, _⟩ => show win1_3.index t (0 : Fin 2) * 4096 + 1 * (y 0).val = (i 0).val; omega
  | ⟨1, _⟩ => show win1_3.index t (1 : Fin 2) * 512 + 1 * (y 1).val = (i 1).val; omega

/-- The node block's state is rows `512 m …` of the state array. -/
theorem blk4_apply (c : Dev nD) (t : Fin cfg1.N) (y : S512x512.Idx) (i : S4096x512.Idx)
    (h0 : (i 0).val = 512 * (t.val / 8) + (y 0).val) (h1 : (i 1).val =  (y 1).val) :
    blk V c 4 t y = (V c (Pipeline.arrRef spec1 4) : S4096x512.Idx → EReal) i := by
  obtain ⟨-, -, -, -, -, -, -, -, e0, e1, -⟩ := index_facts t
  unfold blk
  show V c (Pipeline.arrRef spec1 4) (((cfg1.win 4).blk t).view.emb y) = _
  refine congrArg _ (funext fun a => Fin.ext ?_)
  match a with
  | ⟨0, _⟩ => show win1_4.index t (0 : Fin 2) * 512 + 1 * (y 0).val = (i 0).val; omega
  | ⟨1, _⟩ => show win1_4.index t (1 : Fin 2) * 512 + 1 * (y 1).val = (i 1).val; omega

/-- The reset gate's weight window is the whole array at every point. -/
theorem blk5_apply (c : Dev nD) (t : Fin cfg1.N) (y : S1536x512.Idx) (i : S1536x512.Idx)
    (h0 : (i 0).val =  (y 0).val) (h1 : (i 1).val =  (y 1).val) :
    blk V c 5 t y = (V c (Pipeline.arrRef spec1 5) : S1536x512.Idx → EReal) i := by
  obtain ⟨-, -, -, -, -, -, -, -, -, -, e0, e1, -⟩ := index_facts t
  unfold blk
  show V c (Pipeline.arrRef spec1 5) (((cfg1.win 5).blk t).view.emb y) = _
  refine congrArg _ (funext fun a => Fin.ext ?_)
  match a with
  | ⟨0, _⟩ => show win1_5.index t (0 : Fin 2) * 1536 + 1 * (y 0).val = (i 0).val; omega
  | ⟨1, _⟩ => show win1_5.index t (1 : Fin 2) * 512 + 1 * (y 1).val = (i 1).val; omega

/-- The reset gate's bias row likewise. -/
theorem blk6_apply (c : Dev nD) (t : Fin cfg1.N) (y : S1x512.Idx) (i : S1x512.Idx)
    (h0 : (i 0).val =  (y 0).val) (h1 : (i 1).val =  (y 1).val) :
    blk V c 6 t y = (V c (Pipeline.arrRef spec1 6) : S1x512.Idx → EReal) i := by
  obtain ⟨-, -, -, -, -, -, -, -, -, -, -, -, e0, e1, -⟩ := index_facts t
  unfold blk
  show V c (Pipeline.arrRef spec1 6) (((cfg1.win 6).blk t).view.emb y) = _
  refine congrArg _ (funext fun a => Fin.ext ?_)
  match a with
  | ⟨0, _⟩ => show win1_6.index t (0 : Fin 2) * 1 + 1 * (y 0).val = (i 0).val; omega
  | ⟨1, _⟩ => show win1_6.index t (1 : Fin 2) * 512 + 1 * (y 1).val = (i 1).val; omega

/-- The update gate's weight likewise. -/
theorem blk7_apply (c : Dev nD) (t : Fin cfg1.N) (y : S1536x512.Idx) (i : S1536x512.Idx)
    (h0 : (i 0).val =  (y 0).val) (h1 : (i 1).val =  (y 1).val) :
    blk V c 7 t y = (V c (Pipeline.arrRef spec1 7) : S1536x512.Idx → EReal) i := by
  obtain ⟨-, -, -, -, -, -, -, -, -, -, -, -, -, -, e0, e1, -⟩ := index_facts t
  unfold blk
  show V c (Pipeline.arrRef spec1 7) (((cfg1.win 7).blk t).view.emb y) = _
  refine congrArg _ (funext fun a => Fin.ext ?_)
  match a with
  | ⟨0, _⟩ => show win1_7.index t (0 : Fin 2) * 1536 + 1 * (y 0).val = (i 0).val; omega
  | ⟨1, _⟩ => show win1_7.index t (1 : Fin 2) * 512 + 1 * (y 1).val = (i 1).val; omega

/-- The update gate's bias row likewise. -/
theorem blk8_apply (c : Dev nD) (t : Fin cfg1.N) (y : S1x512.Idx) (i : S1x512.Idx)
    (h0 : (i 0).val =  (y 0).val) (h1 : (i 1).val =  (y 1).val) :
    blk V c 8 t y = (V c (Pipeline.arrRef spec1 8) : S1x512.Idx → EReal) i := by
  obtain ⟨-, -, -, -, -, -, -, -, -, -, -, -, -, -, -, -, e0, e1, -⟩ := index_facts t
  unfold blk
  show V c (Pipeline.arrRef spec1 8) (((cfg1.win 8).blk t).view.emb y) = _
  refine congrArg _ (funext fun a => Fin.ext ?_)
  match a with
  | ⟨0, _⟩ => show win1_8.index t (0 : Fin 2) * 1 + 1 * (y 0).val = (i 0).val; omega
  | ⟨1, _⟩ => show win1_8.index t (1 : Fin 2) * 512 + 1 * (y 1).val = (i 1).val; omega

/-- The candidate's weight likewise. -/
theorem blk9_apply (c : Dev nD) (t : Fin cfg1.N) (y : S1536x512.Idx) (i : S1536x512.Idx)
    (h0 : (i 0).val =  (y 0).val) (h1 : (i 1).val =  (y 1).val) :
    blk V c 9 t y = (V c (Pipeline.arrRef spec1 9) : S1536x512.Idx → EReal) i := by
  obtain ⟨-, -, -, -, -, -, -, -, -, -, -, -, -, -, -, -, -, -, e0, e1, -⟩ := index_facts t
  unfold blk
  show V c (Pipeline.arrRef spec1 9) (((cfg1.win 9).blk t).view.emb y) = _
  refine congrArg _ (funext fun a => Fin.ext ?_)
  match a with
  | ⟨0, _⟩ => show win1_9.index t (0 : Fin 2) * 1536 + 1 * (y 0).val = (i 0).val; omega
  | ⟨1, _⟩ => show win1_9.index t (1 : Fin 2) * 512 + 1 * (y 1).val = (i 1).val; omega

/-- The candidate's bias row likewise. -/
theorem blk10_apply (c : Dev nD) (t : Fin cfg1.N) (y : S1x512.Idx) (i : S1x512.Idx)
    (h0 : (i 0).val =  (y 0).val) (h1 : (i 1).val =  (y 1).val) :
    blk V c 10 t y = (V c (Pipeline.arrRef spec1 10) : S1x512.Idx → EReal) i := by
  obtain ⟨-, -, -, -, -, -, -, -, -, -, -, -, -, -, -, -, -, -, -, -, e0, e1, -⟩ := index_facts t
  unfold blk
  show V c (Pipeline.arrRef spec1 10) (((cfg1.win 10).blk t).view.emb y) = _
  refine congrArg _ (funext fun a => Fin.ext ?_)
  match a with
  | ⟨0, _⟩ => show win1_10.index t (0 : Fin 2) * 1 + 1 * (y 0).val = (i 0).val; omega
  | ⟨1, _⟩ => show win1_10.index t (1 : Fin 2) * 512 + 1 * (y 1).val = (i 1).val; omega

/-! ## The rows the body loads out of whole blocks -/

/-- The neighbour block's rows of a whole message block: row `k` of what is loaded is row `512 kb + k`. -/
theorem nbrRows_apply (t : Fin cfg1.N) (x : Vec Ideal S4096x512 .bf16) (k q : Fin 512) (i : S4096x512.Idx)
    (h0 : (i 0).val = 512 * (t.val % 8) + k.val) (h1 : (i 1).val = q.val) :
    nbrRows (grid1.coords t) x (ix2 k q) = x i := by
  obtain ⟨-, -, -, -, -, -, -, -, -, -, -, -, -, -, -, -, -, -, -, -, -, -, -, -, e0, e1⟩ := index_facts t
  show x ((Rect.unit (s := S4096x512) (k1_off1 (grid1.coords t)) S512x512.size (k1_off1_inb (grid1.coords t))).emb (ix2 k q)) = x i
  refine congrArg x (funext fun a => Fin.ext ?_)
  match a with
  | ⟨0, _⟩ => show k1_off1 (grid1.coords t) (0 : Fin 2) + 1 * k.val = (i 0).val; omega
  | ⟨1, _⟩ => show k1_off1 (grid1.coords t) (1 : Fin 2) + 1 * q.val = (i 1).val; omega

/-- The three row blocks of a gate weight: row `k` of each is row `k`, `512 + k`, `1024 + k` of the weight. -/
theorem rowsA_apply (x : Vec Ideal S1536x512 .bf16) (k q : Fin 512) : rowsA x (ix2 k q) = x (ix2 (part0 k) q) := by
  show x ((Rect.unit (s := S1536x512) ![0, 0] S512x512.size inb_S1536x512_S512x512_0_0).emb (ix2 k q)) = _
  refine congrArg x (funext fun a => Fin.ext ?_)
  match a with
  | ⟨0, _⟩ => show 0 + 1 * k.val = k.val; omega
  | ⟨1, _⟩ => show 0 + 1 * q.val = q.val; omega
theorem rowsB_apply (x : Vec Ideal S1536x512 .bf16) (k q : Fin 512) : rowsB x (ix2 k q) = x (ix2 (part1 k) q) := by
  show x ((Rect.unit (s := S1536x512) ![512, 0] S512x512.size inb_S1536x512_S512x512_512_0).emb (ix2 k q)) = _
  refine congrArg x (funext fun a => Fin.ext ?_)
  match a with
  | ⟨0, _⟩ => show 512 + 1 * k.val = 512 + k.val; omega
  | ⟨1, _⟩ => show 0 + 1 * q.val = q.val; omega
theorem rowsC_apply (x : Vec Ideal S1536x512 .bf16) (k q : Fin 512) : rowsC x (ix2 k q) = x (ix2 (part2 k) q) := by
  show x ((Rect.unit (s := S1536x512) ![1024, 0] S512x512.size inb_S1536x512_S512x512_1024_0).emb (ix2 k q)) = _
  refine congrArg x (funext fun a => Fin.ext ?_)
  match a with
  | ⟨0, _⟩ => show 1024 + 1 * k.val = 1024 + k.val; omega
  | ⟨1, _⟩ => show 0 + 1 * q.val = q.val; omega

/-! ## The arrays as the region finds them -/

abbrev arrA (c : Dev nD) : S4096x4096.Idx → EReal := V c (Pipeline.arrRef spec1 0)
abbrev arrSI (c : Dev nD) : S4096x512.Idx → EReal := V c (Pipeline.arrRef spec1 2)
abbrev arrSO (c : Dev nD) : S4096x512.Idx → EReal := V c (Pipeline.arrRef spec1 3)
abbrev arrX (c : Dev nD) : S4096x512.Idx → EReal := V c (Pipeline.arrRef spec1 4)
abbrev arrWr (c : Dev nD) : S1536x512.Idx → EReal := V c (Pipeline.arrRef spec1 5)
abbrev arrBr (c : Dev nD) : S1x512.Idx → EReal := V c (Pipeline.arrRef spec1 6)
abbrev arrWz (c : Dev nD) : S1536x512.Idx → EReal := V c (Pipeline.arrRef spec1 7)
abbrev arrBz (c : Dev nD) : S1x512.Idx → EReal := V c (Pipeline.arrRef spec1 8)
abbrev arrWh (c : Dev nD) : S1536x512.Idx → EReal := V c (Pipeline.arrRef spec1 9)
abbrev arrBh (c : Dev nD) : S1x512.Idx → EReal := V c (Pipeline.arrRef spec1 10)

/-! ## What each kind of point leaves, as payload terms of the blocks -/

theorem start_s0 (c : Dev nD) (t : Fin cfg1.N) (hs : atStart (grid1.coords t)) (hf : ¬atFinish (grid1.coords t)) :
    (startTriple V c t hs hf).2.1 = k1_pay3 (nbrRows (grid1.coords t) (blk V c 2 t)) (k1_pay1 (F := Ideal)) (blk V c 0 t) := by
  unfold startTriple
  dsimp only
  exact start_piece0 c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)
theorem start_s1 (c : Dev nD) (t : Fin cfg1.N) (hs : atStart (grid1.coords t)) (hf : ¬atFinish (grid1.coords t)) :
    (startTriple V c t hs hf).2.2 = k1_pay4 (nbrRows (grid1.coords t) (blk V c 3 t)) (k1_pay2 (F := Ideal)) (blk V c 1 t) := by
  unfold startTriple
  dsimp only
  exact start_piece1 c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)
theorem middle_s0 (c : Dev nD) (t : Fin cfg1.N) (hs : ¬atStart (grid1.coords t)) (hf : ¬atFinish (grid1.coords t))
    (s0 s1 : Vec Ideal S512x512 .f32) :
    (middleTriple V c t hs hf s0 s1).2.1 = k1_pay3 (nbrRows (grid1.coords t) (blk V c 2 t)) s0 (blk V c 0 t) := by
  unfold middleTriple
  dsimp only
  exact middle_piece0 c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem middle_s1 (c : Dev nD) (t : Fin cfg1.N) (hs : ¬atStart (grid1.coords t)) (hf : ¬atFinish (grid1.coords t))
    (s0 s1 : Vec Ideal S512x512 .f32) :
    (middleTriple V c t hs hf s0 s1).2.2 = k1_pay4 (nbrRows (grid1.coords t) (blk V c 3 t)) s1 (blk V c 1 t) := by
  unfold middleTriple
  dsimp only
  exact middle_piece1 c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_s0 (c : Dev nD) (t : Fin cfg1.N) (hs : ¬atStart (grid1.coords t)) (hf : atFinish (grid1.coords t))
    (s0 s1 : Vec Ideal S512x512 .f32) :
    (finishTriple V c t hs hf s0 s1).2.1 = k1_pay3 (nbrRows (grid1.coords t) (blk V c 2 t)) s0 (blk V c 0 t) := by
  unfold finishTriple
  dsimp only
  exact finish_piece0 c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_s1 (c : Dev nD) (t : Fin cfg1.N) (hs : ¬atStart (grid1.coords t)) (hf : atFinish (grid1.coords t))
    (s0 s1 : Vec Ideal S512x512 .f32) :
    (finishTriple V c t hs hf s0 s1).2.2 = k1_pay4 (nbrRows (grid1.coords t) (blk V c 3 t)) s1 (blk V c 1 t) := by
  unfold finishTriple
  dsimp only
  exact finish_piece1 c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_out (c : Dev nD) (t : Fin cfg1.N) (hs : ¬atStart (grid1.coords t)) (hf : atFinish (grid1.coords t))
    (s0 s1 : Vec Ideal S512x512 .f32) :
    (finishTriple V c t hs hf s0 s1).1
      = newBlock (k1_pay3 (nbrRows (grid1.coords t) (blk V c 2 t)) s0 (blk V c 0 t))
          (k1_pay4 (nbrRows (grid1.coords t) (blk V c 3 t)) s1 (blk V c 1 t))
          (blk V c 4 t) (blk V c 5 t) (blk V c 6 t) (blk V c 7 t) (blk V c 8 t) (blk V c 9 t) (blk V c 10 t) := by
  have hc := finish_coverO V c t hs hf s0 s1
  unfold finishTriple
  dsimp only
  exact ((View.read_writes_eq_canon vOut vOut.junk _ hc).trans
    (View.read_writes_eq_canon (mw11 t).view (mw11 t).view.junk _ hc).symm).trans
    (finish_pieceO c (grid1.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1)

/-! ## One point's two products -/

/-- The two adjacency blocks and the two whole message blocks of a point, at their literal vector types. -/
abbrev bAdj (c : Dev nD) (t : Fin cfg1.N) : Vec Ideal S512x512 .bf16 := blk V c 0 t
abbrev bAdjM (c : Dev nD) (t : Fin cfg1.N) : Vec Ideal S512x512 .bf16 := blk V c 1 t
abbrev bSI (c : Dev nD) (t : Fin cfg1.N) : Vec Ideal S4096x512 .bf16 := blk V c 2 t
abbrev bSO (c : Dev nD) (t : Fin cfg1.N) : Vec Ideal S4096x512 .bf16 := blk V c 3 t

theorem grid_size : cfg1.N = 64 := N_1

/-- The adjacency block (m, k) against the neighbour block's incoming messages is neighbour block k's contribution. -/
theorem point_in (c : Dev nD) (n : ℕ) (hn : n < cfg1.N) (p q : Fin 512) :
    ∑ k : Fin 512, bAdj V c ⟨n, hn⟩ (ix2 p k) * nbrRows (grid1.coords ⟨n, hn⟩) (bSI V c ⟨n, hn⟩) (ix2 k q)
      = termIn (arrA V c) (arrSI V c) (n / 8) p q (n % 8) := by
  have hn' : n < 64 := by have h := hn; rwa [grid_size] at h
  unfold termIn
  refine Finset.sum_congr rfl fun k _ => congrArg₂ (· * ·) ?_ ?_
  · exact (blk0_apply V c ⟨n, hn⟩ (ix2 p k) (ix2 ⟨512 * (n / 8) + p.val, by omega⟩ ⟨512 * (n % 8) + k.val, by omega⟩) rfl rfl).trans
      (entryA_eq (arrA V c) ⟨512 * (n / 8) + p.val, by omega⟩ ⟨512 * (n % 8) + k.val, by omega⟩).symm
  · exact ((nbrRows_apply ⟨n, hn⟩ (blk V c 2 ⟨n, hn⟩) k q (ix2 ⟨512 * (n % 8) + k.val, by omega⟩ q) rfl rfl).trans
      (blk2_apply V c ⟨n, hn⟩ (ix2 ⟨512 * (n % 8) + k.val, by omega⟩ q) (ix2 ⟨512 * (n % 8) + k.val, by omega⟩ q) rfl rfl)).trans
      (entryS_eq (arrSI V c) ⟨512 * (n % 8) + k.val, by omega⟩ q).symm

/-- The mirrored adjacency block (k, m), read transposed, against the outgoing messages likewise. -/
theorem point_out (c : Dev nD) (n : ℕ) (hn : n < cfg1.N) (p q : Fin 512) :
    ∑ k : Fin 512, bAdjM V c ⟨n, hn⟩ (ix2 k p) * nbrRows (grid1.coords ⟨n, hn⟩) (bSO V c ⟨n, hn⟩) (ix2 k q)
      = termOut (arrA V c) (arrSO V c) (n / 8) p q (n % 8) := by
  have hn' : n < 64 := by have h := hn; rwa [grid_size] at h
  unfold termOut
  refine Finset.sum_congr rfl fun k _ => congrArg₂ (· * ·) ?_ ?_
  · exact (blk1_apply V c ⟨n, hn⟩ (ix2 k p) (ix2 ⟨512 * (n % 8) + k.val, by omega⟩ ⟨512 * (n / 8) + p.val, by omega⟩) rfl rfl).trans
      (entryA_eq (arrA V c) ⟨512 * (n % 8) + k.val, by omega⟩ ⟨512 * (n / 8) + p.val, by omega⟩).symm
  · exact ((nbrRows_apply ⟨n, hn⟩ (blk V c 3 ⟨n, hn⟩) k q (ix2 ⟨512 * (n % 8) + k.val, by omega⟩ q) rfl rfl).trans
      (blk3_apply V c ⟨n, hn⟩ (ix2 ⟨512 * (n % 8) + k.val, by omega⟩ q) (ix2 ⟨512 * (n % 8) + k.val, by omega⟩ q) rfl rfl)).trans
      (entryS_eq (arrSO V c) ⟨512 * (n % 8) + k.val, by omega⟩ q).symm

/-- The first term onto zero. -/
theorem grow_first (g : ℕ → EReal) : 0 + g 0 = 0 + ∑ kb ∈ Finset.range (0 + 1), g kb := by
  rw [Finset.sum_range_succ, Finset.sum_range_zero, zero_add (g 0), zero_add (g 0)]

/-! ## The running sums after every point -/

/-- After point `n = 8 m + k` the first running sum holds zero plus the contributions of neighbour blocks 0 … k. -/
theorem sums_in (c : Dev nD) (n : ℕ) : ∀ (hn : n < cfg1.N) (p q : Fin 512),
    ((sums V c n hn).2.1 (ix2 p q) : EReal)
      = 0 + ∑ kb ∈ Finset.range (n % 8 + 1), termIn (arrA V c) (arrSI V c) (n / 8) p q kb := by
  induction n using Nat.strong_induction_on with
  | _ n ih =>
    intro hn p q
    by_cases h0 : n % 8 = 0
    · have h7 : ¬n % 8 = 7 := by omega
      have e1 : (sums V c n hn).2.1 = k1_pay3 (nbrRows (grid1.coords ⟨n, hn⟩) (blk V c 2 ⟨n, hn⟩)) (k1_pay1 (F := Ideal)) (blk V c 0 ⟨n, hn⟩) :=
        (congrArg (fun s => s.2.1) (sums_start V c ⟨n, hn⟩ h0 h7)).trans (start_s0 V c ⟨n, hn⟩ _ _)
      refine (congrFun e1 (ix2 p q)).trans ((acc_in_apply _ _ _ p q).trans ?_)
      refine (congrArg₂ (· + ·) (clear_in_apply p q) (point_in V c n hn p q)).trans ?_
      rw [h0]
      exact grow_first _
    · have hm : n - 1 < cfg1.N := by omega
      have ihm := ih (n - 1) (by omega) hm p q
      have hdiv : (n - 1) / 8 = n / 8 := by omega
      have hmod : (n - 1) % 8 + 1 = n % 8 := by omega
      rw [hdiv, hmod] at ihm
      have e1 : (sums V c n hn).2.1
          = k1_pay3 (nbrRows (grid1.coords ⟨n, hn⟩) (blk V c 2 ⟨n, hn⟩)) (sums V c (n - 1) hm).2.1 (blk V c 0 ⟨n, hn⟩) := by
        by_cases h7 : n % 8 = 7
        · exact (congrArg (fun s => s.2.1) (sums_finish V c ⟨n, hn⟩ h0 h7)).trans (finish_s0 V c ⟨n, hn⟩ _ _ _ _)
        · exact (congrArg (fun s => s.2.1) (sums_middle V c ⟨n, hn⟩ h0 h7)).trans (middle_s0 V c ⟨n, hn⟩ _ _ _ _)
      refine (congrFun e1 (ix2 p q)).trans ((acc_in_apply _ _ _ p q).trans ?_)
      refine (congrArg (_ + ·) (point_in V c n hn p q)).trans ?_
      exact grow _ (n % 8) _ ihm

/-- The second running sum likewise, with the transposed adjacency entries and the outgoing messages. -/
theorem sums_out (c : Dev nD) (n : ℕ) : ∀ (hn : n < cfg1.N) (p q : Fin 512),
    ((sums V c n hn).2.2 (ix2 p q) : EReal)
      = 0 + ∑ kb ∈ Finset.range (n % 8 + 1), termOut (arrA V c) (arrSO V c) (n / 8) p q kb := by
  induction n using Nat.strong_induction_on with
  | _ n ih =>
    intro hn p q
    by_cases h0 : n % 8 = 0
    · have h7 : ¬n % 8 = 7 := by omega
      have e1 : (sums V c n hn).2.2 = k1_pay4 (nbrRows (grid1.coords ⟨n, hn⟩) (blk V c 3 ⟨n, hn⟩)) (k1_pay2 (F := Ideal)) (blk V c 1 ⟨n, hn⟩) :=
        (congrArg (fun s => s.2.2) (sums_start V c ⟨n, hn⟩ h0 h7)).trans (start_s1 V c ⟨n, hn⟩ _ _)
      refine (congrFun e1 (ix2 p q)).trans ((acc_out_apply _ _ _ p q).trans ?_)
      refine (congrArg₂ (· + ·) (clear_out_apply p q) (point_out V c n hn p q)).trans ?_
      rw [h0]
      exact grow_first _
    · have hm : n - 1 < cfg1.N := by omega
      have ihm := ih (n - 1) (by omega) hm p q
      have hdiv : (n - 1) / 8 = n / 8 := by omega
      have hmod : (n - 1) % 8 + 1 = n % 8 := by omega
      rw [hdiv, hmod] at ihm
      have e1 : (sums V c n hn).2.2
          = k1_pay4 (nbrRows (grid1.coords ⟨n, hn⟩) (blk V c 3 ⟨n, hn⟩)) (sums V c (n - 1) hm).2.2 (blk V c 1 ⟨n, hn⟩) := by
        by_cases h7 : n % 8 = 7
        · exact (congrArg (fun s => s.2.2) (sums_finish V c ⟨n, hn⟩ h0 h7)).trans (finish_s1 V c ⟨n, hn⟩ _ _ _ _)
        · exact (congrArg (fun s => s.2.2) (sums_middle V c ⟨n, hn⟩ h0 h7)).trans (middle_s1 V c ⟨n, hn⟩ _ _ _ _)
      refine (congrFun e1 (ix2 p q)).trans ((acc_out_apply _ _ _ p q).trans ?_)
      refine (congrArg (_ + ·) (point_out V c n hn p q)).trans ?_
      exact grow _ (n % 8) _ ihm

/-! ## The result block at the last neighbour block -/

/-- At a point `n = 8 m + 7` the result block is the new state formed from the two sums that point leaves. -/
theorem out_of_sums (c : Dev nD) (n : ℕ) (hn : n < cfg1.N) (h7 : n % 8 = 7) :
    (sums V c n hn).1 = newBlock (sums V c n hn).2.1 (sums V c n hn).2.2 (blk V c 4 ⟨n, hn⟩) (blk V c 5 ⟨n, hn⟩) (blk V c 6 ⟨n, hn⟩) (blk V c 7 ⟨n, hn⟩) (blk V c 8 ⟨n, hn⟩) (blk V c 9 ⟨n, hn⟩) (blk V c 10 ⟨n, hn⟩) := by
  have h0 : ¬n % 8 = 0 := by omega
  have e := sums_finish V c ⟨n, hn⟩ h0 h7
  have eO := (congrArg (fun s => s.1) e).trans (finish_out V c ⟨n, hn⟩ _ _ _ _)
  have e0 := (congrArg (fun s => s.2.1) e).trans (finish_s0 V c ⟨n, hn⟩ _ _ _ _)
  have e1 := (congrArg (fun s => s.2.2) e).trans (finish_s1 V c ⟨n, hn⟩ _ _ _ _)
  exact eO.trans (by rw [e0, e1])

/-- Entry (p, q) of the result block at point `n = 8 m + 7` is entry (512 m + p, q) of one propagation step from the
    message arrays. -/
theorem block_value (c : Dev nD) (n : ℕ) (hn : n < cfg1.N) (h7 : n % 8 = 7) (p q : Fin 512) :
    ((sums V c n hn).1 (ix2 p q) : EReal)
      = stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))
          ⟨512 * (n / 8) + p.val, by have h := hn; rw [grid_size] at h; omega⟩ q := by
  have hn' : n < 64 := by have h := hn; rwa [grid_size] at h
  have hmb : n / 8 < 8 := by omega
  rw [out_of_sums V c n hn h7]
  unfold newBlock
  refine (newState_eq_update (fun p => (⟨512 * (n / 8) + p.val, by omega⟩ : Fin 4096))
    (Cert.GgnnMath.aggIn (fun p k => arrA V c (ix2 p k)) (fun p k => arrSI V c (ix2 p k)))
    (Cert.GgnnMath.aggOut (fun p k => arrA V c (ix2 p k)) (fun p k => arrSO V c (ix2 p k)))
    (fun p k => arrX V c (ix2 p k))
    (fun q j => arrWr V c (ix2 j q)) (fun q j => arrWz V c (ix2 j q)) (fun q j => arrWh V c (ix2 j q))
    (fun q => arrBr V c (ix2 0 q)) (fun q => arrBz V c (ix2 0 q)) (fun q => arrBh V c (ix2 0 q))
    (sums V c n hn).2.1 (sums V c n hn).2.2 (blk V c 4 ⟨n, hn⟩)
    (rowsA (blk V c 5 ⟨n, hn⟩)) (rowsB (blk V c 5 ⟨n, hn⟩)) (rowsC (blk V c 5 ⟨n, hn⟩))
    (rowsA (blk V c 7 ⟨n, hn⟩)) (rowsB (blk V c 7 ⟨n, hn⟩)) (rowsC (blk V c 7 ⟨n, hn⟩))
    (rowsA (blk V c 9 ⟨n, hn⟩)) (rowsB (blk V c 9 ⟨n, hn⟩)) (rowsC (blk V c 9 ⟨n, hn⟩))
    (blk V c 6 ⟨n, hn⟩) (blk V c 8 ⟨n, hn⟩) (blk V c 10 ⟨n, hn⟩)
    ?_ ?_ ?_ ?_ ?_ ?_ ?_ ?_ ?_ ?_ ?_ ?_ ?_ ?_ ?_ p q).trans rfl
  · intro p k
    refine (sums_in V c n hn p k).trans ?_
    rw [h7]
    exact total_in (arrA V c) (arrSI V c) (n / 8) hmb p k
  · intro p k
    refine (sums_out V c n hn p k).trans ?_
    rw [h7]
    exact total_out (arrA V c) (arrSO V c) (n / 8) hmb p k
  · intro p k
    exact blk4_apply V c ⟨n, hn⟩ (ix2 p k) (ix2 ⟨512 * (n / 8) + p.val, by omega⟩ k) rfl rfl
  · intro k q
    exact (rowsA_apply (blk V c 5 ⟨n, hn⟩) k q).trans (blk5_apply V c ⟨n, hn⟩ _ (ix2 (part0 k) q) rfl rfl)
  · intro k q
    exact (rowsB_apply (blk V c 5 ⟨n, hn⟩) k q).trans (blk5_apply V c ⟨n, hn⟩ _ (ix2 (part1 k) q) rfl rfl)
  · intro k q
    exact (rowsC_apply (blk V c 5 ⟨n, hn⟩) k q).trans (blk5_apply V c ⟨n, hn⟩ _ (ix2 (part2 k) q) rfl rfl)
  · intro k q
    exact (rowsA_apply (blk V c 7 ⟨n, hn⟩) k q).trans (blk7_apply V c ⟨n, hn⟩ _ (ix2 (part0 k) q) rfl rfl)
  · intro k q
    exact (rowsB_apply (blk V c 7 ⟨n, hn⟩) k q).trans (blk7_apply V c ⟨n, hn⟩ _ (ix2 (part1 k) q) rfl rfl)
  · intro k q
    exact (rowsC_apply (blk V c 7 ⟨n, hn⟩) k q).trans (blk7_apply V c ⟨n, hn⟩ _ (ix2 (part2 k) q) rfl rfl)
  · intro k q
    exact (rowsA_apply (blk V c 9 ⟨n, hn⟩) k q).trans (blk9_apply V c ⟨n, hn⟩ _ (ix2 (part0 k) q) rfl rfl)
  · intro k q
    exact (rowsB_apply (blk V c 9 ⟨n, hn⟩) k q).trans (blk9_apply V c ⟨n, hn⟩ _ (ix2 (part1 k) q) rfl rfl)
  · intro k q
    exact (rowsC_apply (blk V c 9 ⟨n, hn⟩) k q).trans (blk9_apply V c ⟨n, hn⟩ _ (ix2 (part2 k) q) rfl rfl)
  · intro q
    exact blk6_apply V c ⟨n, hn⟩ (ix2 0 q) (ix2 0 q) rfl rfl
  · intro q
    exact blk8_apply V c ⟨n, hn⟩ (ix2 0 q) (ix2 0 q) rfl rfl
  · intro q
    exact blk10_apply V c ⟨n, hn⟩ (ix2 0 q) (ix2 0 q) rfl rfl

/-! ## What the writing points write back, and the array after the region -/

/-- A point that writes the result block back — one at the last neighbour block — writes block m of the new-state array. -/
theorem flushed11_eq (c : Dev nD) (t : Fin cfg1.N) (hf : (cfg1.win 11).flush t = true) :
    (dat V c).flushed 11 t = ((cfg1.win 11).blk t).view.read (Elt Ideal)
      (newState (V c (Pipeline.arrRef spec1 0)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8)) (V c (Pipeline.arrRef spec1 9)) (V c (Pipeline.arrRef spec1 10))) := by
  have h7 : t.val % 8 = 7 := (flush1_11 t).mp hf
  have ht : t.val < 64 := Nat.lt_of_lt_of_eq t.isLt grid_size
  obtain ⟨-, -, -, -, -, -, -, -, -, -, -, -, -, -, -, -, -, -, -, -, -, -, e0, e1, -⟩ := index_facts t
  show (cfg1.win 11).cut (grid1.coords t) ((dat V c).after 11 t) = _
  rw [after11]
  funext j
  have hr : ((((cfg1.win 11).blk t).view.emb j) 0).val = win1_11.index t (0 : Fin 2) * 512 + 1 * (j 0).val := rfl
  have hq : ((((cfg1.win 11).blk t).view.emb j) 1).val = win1_11.index t (1 : Fin 2) * 512 + 1 * (j 1).val := rfl
  show (sums V c t.val t.isLt).1 j = newState (V c (Pipeline.arrRef spec1 0)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8)) (V c (Pipeline.arrRef spec1 9)) (V c (Pipeline.arrRef spec1 10)) (((cfg1.win 11).blk t).view.emb j)
  have hj : (sums V c t.val t.isLt).1 j = (sums V c t.val t.isLt).1 (ix2 (j 0) (j 1)) := congrArg _ (eq_ix2 j)
  refine hj.trans ((block_value V c t.val t.isLt h7 (j 0) (j 1)).trans ?_)
  show _ = stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))
      ((((cfg1.win 11).blk t).view.emb j) 0) ((((cfg1.win 11).blk t).view.emb j) 1)
  refine congrArg₂ (stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))) (Fin.ext ?_) (Fin.ext ?_)
  · show 512 * (t.val / 8) + (j 0).val = ((((cfg1.win 11).blk t).view.emb j) 0).val
    omega
  · show (j 1).val = ((((cfg1.win 11).blk t).view.emb j) 1).val
    omega

/-- An index of the new-state array is in point `t`'s block iff each coordinate is in the block's range on its axis. -/
theorem mem_blk11 (t : Fin cfg1.N) (i : S4096x512.Idx) :
    i ∈ ((cfg1.win 11).blk t).view.set ↔ ∀ a : Fin 2, win1_11.index t a * S512x512.size a ≤ (i a).val
      ∧ (i a).val < win1_11.index t a * S512x512.size a + S512x512.size a := by
  show i ∈ ((View.whole (Pipeline.arrRef spec1 11)).slice (win1_11.rect t)).set ↔ _
  rw [View.set_slice_whole, Rect.mem_set_unit]
  exact Iff.rfl

/-- The point that writes row `r`: the last neighbour block of node block `r / 512`. -/
def pointOf (i : S4096x512.Idx) : Fin cfg1.N :=
  ⟨8 * ((i 0).val / 512) + 7, by have h : (i 0).val < 4096 := (i 0).isLt; rw [grid_size]; omega⟩

/-- The eight written blocks tile the new-state array. -/
theorem cover11 (i : S4096x512.Idx) :
    ∃ t : Fin cfg1.N, (cfg1.win 11).flush t = true ∧ i ∈ ((cfg1.win 11).blk t).view.set := by
  have hi0 : (i 0).val < 4096 := (i 0).isLt
  have hi1 : (i 1).val < 512 := (i 1).isLt
  have ht : (pointOf i).val = 8 * ((i 0).val / 512) + 7 := rfl
  obtain ⟨-, -, -, -, -, -, -, -, -, -, -, -, -, -, -, -, -, -, -, -, -, -, e0, e1, -⟩ := index_facts (pointOf i)
  refine ⟨pointOf i, (flush1_11 (pointOf i)).mpr (by omega), ?_⟩
  rw [mem_blk11]
  intro a
  match a with
  | ⟨0, _⟩ => show win1_11.index (pointOf i) (0 : Fin 2) * 512 ≤ (i 0).val
                ∧ (i 0).val < win1_11.index (pointOf i) (0 : Fin 2) * 512 + 512; omega
  | ⟨1, _⟩ => show win1_11.index (pointOf i) (1 : Fin 2) * 512 ≤ (i 1).val
                ∧ (i 1).val < win1_11.index (pointOf i) (1 : Fin 2) * 512 + 512; omega

/-- THE NEW-STATE ARRAY after the region: one propagation step from the message arrays, the adjacency array, the state
    array, the gate weights and the bias rows as the region finds them. -/
theorem arr11 (c : Dev nD) :
    (dat V c).arrAt 11 cfg1.N = newState (V c (Pipeline.arrRef spec1 0)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8)) (V c (Pipeline.arrRef spec1 9)) (V c (Pipeline.arrRef spec1 10)) := by
  have hG : ∀ t, (cfg1.win 11).flush t = true → (dat V c).flushed 11 t = ((cfg1.win 11).blk t).view.read (Elt Ideal)
      (newState (V c (Pipeline.arrRef spec1 0)) (V c (Pipeline.arrRef spec1 2)) (V c (Pipeline.arrRef spec1 3))
        (V c (Pipeline.arrRef spec1 4)) (V c (Pipeline.arrRef spec1 5)) (V c (Pipeline.arrRef spec1 6)) (V c (Pipeline.arrRef spec1 7))
        (V c (Pipeline.arrRef spec1 8)) (V c (Pipeline.arrRef spec1 9)) (V c (Pipeline.arrRef spec1 10))) :=
    fun t hf => flushed11_eq V c t hf
  exact Dat.arrAt_eq_of_cover (dat V c) 11 _ hG cover11

/-! ## The input arrays are never written -/

/-- Each of the eleven input windows' arrays ends as the region finds it. -/
theorem arr0 (c : Dev nD) : (dat V c).arrAt 0 cfg1.N = V c (Pipeline.arrRef spec1 0) :=
  ((dat V c).arrAt_in 0 rfl cfg1.N).trans (dat_A V c 0)
theorem arr1 (c : Dev nD) : (dat V c).arrAt 1 cfg1.N = V c (Pipeline.arrRef spec1 1) :=
  ((dat V c).arrAt_in 1 rfl cfg1.N).trans (dat_A V c 1)
theorem arr2 (c : Dev nD) : (dat V c).arrAt 2 cfg1.N = V c (Pipeline.arrRef spec1 2) :=
  ((dat V c).arrAt_in 2 rfl cfg1.N).trans (dat_A V c 2)
theorem arr3 (c : Dev nD) : (dat V c).arrAt 3 cfg1.N = V c (Pipeline.arrRef spec1 3) :=
  ((dat V c).arrAt_in 3 rfl cfg1.N).trans (dat_A V c 3)
theorem arr4 (c : Dev nD) : (dat V c).arrAt 4 cfg1.N = V c (Pipeline.arrRef spec1 4) :=
  ((dat V c).arrAt_in 4 rfl cfg1.N).trans (dat_A V c 4)
theorem arr5 (c : Dev nD) : (dat V c).arrAt 5 cfg1.N = V c (Pipeline.arrRef spec1 5) :=
  ((dat V c).arrAt_in 5 rfl cfg1.N).trans (dat_A V c 5)
theorem arr6 (c : Dev nD) : (dat V c).arrAt 6 cfg1.N = V c (Pipeline.arrRef spec1 6) :=
  ((dat V c).arrAt_in 6 rfl cfg1.N).trans (dat_A V c 6)
theorem arr7 (c : Dev nD) : (dat V c).arrAt 7 cfg1.N = V c (Pipeline.arrRef spec1 7) :=
  ((dat V c).arrAt_in 7 rfl cfg1.N).trans (dat_A V c 7)
theorem arr8 (c : Dev nD) : (dat V c).arrAt 8 cfg1.N = V c (Pipeline.arrRef spec1 8) :=
  ((dat V c).arrAt_in 8 rfl cfg1.N).trans (dat_A V c 8)
theorem arr9 (c : Dev nD) : (dat V c).arrAt 9 cfg1.N = V c (Pipeline.arrRef spec1 9) :=
  ((dat V c).arrAt_in 9 rfl cfg1.N).trans (dat_A V c 9)
theorem arr10 (c : Dev nD) : (dat V c).arrAt 10 cfg1.N = V c (Pipeline.arrRef spec1 10) :=
  ((dat V c).arrAt_in 10 rfl cfg1.N).trans (dat_A V c 10)

end Cert.KernelIdeal.GatedValue1

end
-- ==== Proof.IdealGatedPieces3.lean ====
/-
  Region 3: what the body's three runs leave in the buffers they store into, as functions of what they load.

  At every grid point the two running sums each receive one store of "what the sum held plus this point's block
  product"; at the first neighbour block what the sum held is the zero block stored just before. At the last neighbour
  block the result block receives one store: the gated update computed from the two finished sums, the node block's own
  state, the three gate weights (each read as three consecutive blocks of 512 rows) and the three bias rows.
  One store through the whole-buffer rectangle leaves its payload, and a load through it of what was just stored reads
  that payload back; so each stored buffer ends as one payload term of the loaded blocks.
-/
import proofs.«121501_j55087250538634_2_alg».proof.Proof.IdealGated3Runs
import Idealize.ShloMosaic.Lib.Pipeline.Value
import Idealize.ShloMosaic.Lib.Tactic
import Idealize.ShloMosaic.Lib.Ring

set_option maxRecDepth 16384

noncomputable section

namespace Cert.KernelIdeal.GatedPieces3

open Cert.KernelIdeal Cert.KernelIdeal.Gen Cert.KernelIdeal.Gated3
open Idealize.ShloMosaic Idealize.ShloMosaic.TcCoe Idealize.ShloMosaic.Tactic Idealize.SL.Sem

variable {F : FTy → Type} [FloatOps F]

/-- The zero offsets of a whole-buffer rectangle, as the constant function. -/
theorem zeroOffsets : (![0, 0] : Fin 2 → Nat) = fun _ => 0 := funext fun a => by fin_cases a <;> rfl

/-- The 512 rows of a whole message array that the body loads at grid point `i`: those of the point's neighbour block. -/
abbrev nbrRows (i : grid3.Coords) (x : Vec F S4096x512 .bf16) : Vec F S512x512 .bf16 :=
  View.ld x (Rect.unit (s := S4096x512) (k3_off1 i) S512x512.size (k3_off1_inb i))

/-- The three consecutive blocks of 512 rows of a 1536-row gate weight. -/
abbrev rowsA (x : Vec F S1536x512 .bf16) : Vec F S512x512 .bf16 :=
  View.ld x (Rect.unit (s := S1536x512) ![0, 0] S512x512.size inb_S1536x512_S512x512_0_0)
abbrev rowsB (x : Vec F S1536x512 .bf16) : Vec F S512x512 .bf16 :=
  View.ld x (Rect.unit (s := S1536x512) ![512, 0] S512x512.size inb_S1536x512_S512x512_512_0)
abbrev rowsC (x : Vec F S1536x512 .bf16) : Vec F S512x512 .bf16 :=
  View.ld x (Rect.unit (s := S1536x512) ![1024, 0] S512x512.size inb_S1536x512_S512x512_1024_0)

/-- The new state of a node block from its two finished sums `S0`, `S1`, its own state `x6`, the reset gate's weight and
    bias `x7`, `x8`, the update gate's `x9`, `x10` and the candidate's `x11`, `x12`. -/
def newBlock (S0 S1 : Vec F S512x512 .f32) (x6 : Vec F S512x512 .f32) (x7 : Vec F S1536x512 .bf16) (x8 : Vec F S1x512 .f32)
    (x9 : Vec F S1536x512 .bf16) (x10 : Vec F S1x512 .f32) (x11 : Vec F S1536x512 .bf16) (x12 : Vec F S1x512 .f32) :
    Vec F S512x512 .f32 :=
  k3_pay5 (k3_pay6 x6) (k3_pay7 S0) (k3_pay8 S1) (k3_pay10 S0 S1 x6 (rowsA x7) (rowsB x7) (rowsC x7) x8)
    (k3_pay11 S0 S1 x6 (rowsA x9) (rowsB x9) (rowsC x9)) x10 (rowsA x11) (rowsB x11) (rowsC x11) x12

/-- START, first sum: the zero block plus the first product. -/
theorem start_piece0 (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32)  :
    a14.view.read (Elt F) (a14.view.writes (Elt F) a14.view.junk (runStart c i a2 h2 a3 h3 a4 h4 a5 h5 a6 h6 a7 h7 a8 h8 a9 h9 a10 h10 a11 h11 a12 h12 a13 h13 a14 h14 a15 h15 hs hf x2 x3 x4 x5 x6 x7 x8 x9 x10 x11 x12 ).1) = k3_pay3 (nbrRows i x4) k3_pay1 x2 := by
  rw [View.read_writes_eq_canon _ _ _ (fun y => View.cover_of_tiledL _ S512x512.size (by sl_kernel_rfl) y)]
  unfold runStart
  dsimp only
  try sl_unfold_words
  rw [View.canon_cons_unit_zero zeroOffsets]
  simp only [View.readCov_unit_zero (S := S512x512) _ zeroOffsets, View.readAt_eq_ld, h2.read_unread, h3.read_unread, h4.read_unread, h5.read_unread, View.ld_unit_zero (S := S512x512) zeroOffsets]
  try rfl

/-- START, second sum. -/
theorem start_piece1 (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32)  :
    a15.view.read (Elt F) (a15.view.writes (Elt F) a15.view.junk (runStart c i a2 h2 a3 h3 a4 h4 a5 h5 a6 h6 a7 h7 a8 h8 a9 h9 a10 h10 a11 h11 a12 h12 a13 h13 a14 h14 a15 h15 hs hf x2 x3 x4 x5 x6 x7 x8 x9 x10 x11 x12 ).2.1) = k3_pay4 (nbrRows i x5) k3_pay2 x3 := by
  rw [View.read_writes_eq_canon _ _ _ (fun y => View.cover_of_tiledL _ S512x512.size (by sl_kernel_rfl) y)]
  unfold runStart
  dsimp only
  try sl_unfold_words
  rw [View.canon_cons_unit_zero zeroOffsets]
  simp only [View.readCov_unit_zero (S := S512x512) _ zeroOffsets, View.readAt_eq_ld, h2.read_unread, h3.read_unread, h4.read_unread, h5.read_unread, View.ld_unit_zero (S := S512x512) zeroOffsets]
  try rfl

/-- MIDDLE, first sum: what the point before left plus this point's product. -/
theorem middle_piece0 (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a14.view.read (Elt F) (a14.view.writes (Elt F) a14.view.junk (runMiddle c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).1) = k3_pay3 (nbrRows i x4) s0 x2 := by
  rw [View.read_writes_eq_canon _ _ _ (fun y => View.cover_of_tiledL _ S512x512.size (by sl_kernel_rfl) y)]
  unfold runMiddle
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- MIDDLE, second sum. -/
theorem middle_piece1 (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a15.view.read (Elt F) (a15.view.writes (Elt F) a15.view.junk (runMiddle c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.1) = k3_pay4 (nbrRows i x5) s1 x3 := by
  rw [View.read_writes_eq_canon _ _ _ (fun y => View.cover_of_tiledL _ S512x512.size (by sl_kernel_rfl) y)]
  unfold runMiddle
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, first sum. -/
theorem finish_piece0 (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a14.view.read (Elt F) (a14.view.writes (Elt F) a14.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.1) = k3_pay3 (nbrRows i x4) s0 x2 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, second sum. -/
theorem finish_piece1 (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a15.view.read (Elt F) (a15.view.writes (Elt F) a15.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.2.1) = k3_pay4 (nbrRows i x5) s1 x3 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, the result block: the new state from the two finished sums. -/
theorem finish_pieceO (c : Dev nD) (i : grid3.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a13.view.read (Elt F) (a13.view.writes (Elt F) a13.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).1) = newBlock (k3_pay3 (nbrRows i x4) s0 x2) (k3_pay4 (nbrRows i x5) s1 x3) x6 x7 x8 x9 x10 x11 x12 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readCov_unit_zero (S := S512x512) _ zeroOffsets, View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S512x512) zeroOffsets, View.ld_unit_zero (S := S1x512) zeroOffsets]
  rfl

end Cert.KernelIdeal.GatedPieces3

end
-- ==== Proof.IdealGatedPayload3.lean ====
/-
  The arithmetic of the gated-update body of region 3, entry by entry over the extended reals.

  Every block is 512 x 512 except the bias rows, which are 1 x 512. A change of float format is the identity on the
  extended reals, a reshape to the same shape is the identity, and a bias row broadcast down the rows is the row's entry
  in every row. A block product into the zero accumulator is, at row p and column q, the finite sum over the contracted
  coordinate k of the products of the operands' entries: for the product of rows against columns the entries (p, k) and
  (k, q), for the product contracting both operands' row axes the entries (k, p) and (k, q).

  So, at row p and column q:
    the two cleared accumulators hold zero;
    an accumulation step adds to the running sum one such finite sum;
    a gate's pre-activation is the three finite sums over the three loaded weight blocks, added left to right, then the
    bias entry of column q, and the reset gate is its logistic;
    the candidate is the hyperbolic tangent of the same three-part sum, its third part over the product of the reset gate
    and the state;
    the new state is (1 - z) * x + z * h with z the logistic of the update gate's pre-activation.

  The last section reads the loaded blocks as rows of whole arrays (512 consecutive or any other 512 rows, given by a map
  of row numbers) and the loaded weight blocks as the three blocks of 512 columns of a weight with 1536 columns, stored
  transposed; the new-state block is then the convex update of the network's step at those rows.
-/
import proofs.«121501_j55087250538634_2_alg».proof.Proof.Gen.KernelIdeal.Skeleton
import proofs.«121501_j55087250538634_2_alg».proof.Proof.GgnnMath
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.GatedPayload3

open Cert.KernelIdeal Cert.KernelIdeal.Gen
open Idealize.ShloMosaic Idealize.ShloMosaic.TcCoe Idealize.SL.Sem
open Idealize.ShloMosaic.ValueIdx
open Cert.GgnnMath

/-! ## The two block products' operand indices, one coordinate at a time -/

/-- Rows of the left operand against columns of the right: the left's axis 1 is contracted with the right's axis 0. -/
abbrev dotRC : DotDims S512x512 S512x512 S512x512 := dot_S512x512_S512x512_S512x512_1_0_0_1_n_n

/-- Both operands' axis 0 contracted: columns of the left operand against columns of the right. -/
abbrev dotCC : DotDims S512x512 S512x512 S512x512 := dot_S512x512_S512x512_S512x512_0_0_1_1_n_n

theorem rc_lhs_row (i : S512x512.Idx) (q : dotRC.contr.Idx) : (dotRC.lhsIdx i q 0).val = (i 0).val := by
  unfold DotDims.lhsIdx
  rw [dif_neg (show ¬(0 : Fin S512x512.rank) ∈ dotRC.lhsBatch by decide),
    dif_pos (show (0 : Fin S512x512.rank) ∈ dotRC.lhsNonContracting by decide)]
  rfl

theorem rc_lhs_col (i : S512x512.Idx) (q : dotRC.contr.Idx) : (dotRC.lhsIdx i q 1).val = (q ⟨0, by decide⟩).val :=
  dotRC.lhsIdx_val_of_single rfl i q

theorem rc_rhs_row (i : S512x512.Idx) (q : dotRC.contr.Idx) : (dotRC.rhsIdx i q 0).val = (q ⟨0, by decide⟩).val :=
  dotRC.rhsIdx_val_of_single rfl i q

theorem rc_rhs_col (i : S512x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

theorem cc_lhs_row (i : S512x512.Idx) (q : dotCC.contr.Idx) : (dotCC.lhsIdx i q 0).val = (q ⟨0, by decide⟩).val :=
  dotCC.lhsIdx_val_of_single rfl i q

theorem cc_lhs_col (i : S512x512.Idx) (q : dotCC.contr.Idx) : (dotCC.lhsIdx i q 1).val = (i 0).val := by
  unfold DotDims.lhsIdx
  rw [dif_neg (show ¬(1 : Fin S512x512.rank) ∈ dotCC.lhsBatch by decide),
    dif_pos (show (1 : Fin S512x512.rank) ∈ dotCC.lhsNonContracting by decide)]
  rfl

theorem cc_rhs_row (i : S512x512.Idx) (q : dotCC.contr.Idx) : (dotCC.rhsIdx i q 0).val = (q ⟨0, by decide⟩).val :=
  dotCC.rhsIdx_val_of_single rfl i q

theorem cc_rhs_col (i : S512x512.Idx) (q : dotCC.contr.Idx) : (dotCC.rhsIdx i q 1).val = (i 1).val := by
  unfold DotDims.rhsIdx
  rw [dif_neg (show ¬(1 : Fin S512x512.rank) ∈ dotCC.rhsBatch by decide),
    dif_pos (show (1 : Fin S512x512.rank) ∈ dotCC.rhsNonContracting by decide)]
  rfl

/-- The product of rows against columns into the zero accumulator, at row `p` and column `q`. -/
theorem productRC_apply {φ₁ φ₂ : FTy} (l : FVec Ideal S512x512 φ₁) (r : FVec Ideal S512x512 φ₂) (p q : Fin 512) :
    matmul dotRC none l r (constant (F := Ideal) S512x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact rc_lhs_row _ _
    | ⟨1, _⟩ => exact (rc_lhs_col _ _).trans hk)
  have er : dotRC.rhsIdx (ix2 p q) ((contrEquiv1 dotRC 512 rfl rfl).symm k) = ix2 k q := funext fun a => Fin.ext (by
    match a with
    | ⟨0, _⟩ => exact (rc_rhs_row _ _).trans hk
    | ⟨1, _⟩ => exact rc_rhs_col _ _)
  rw [el, er]

/-- The product contracting both operands' row axes into the zero accumulator, at row `p` and column `q`. -/
theorem productCC_apply {φ₁ φ₂ : FTy} (l : FVec Ideal S512x512 φ₁) (r : FVec Ideal S512x512 φ₂) (p q : Fin 512) :
    matmul dotCC none l r (constant (F := Ideal) S512x512 .f32 0x00000000#32) (ix2 p q)
      = ∑ k : Fin 512, l (ix2 k p) * r (ix2 k q) := by
  simp only [matmul]
  rw [Ideal.matmul_constant_zero_apply, ← Equiv.sum_comp (contrEquiv1 dotCC 512 rfl rfl).symm]
  refine Finset.sum_congr rfl fun k _ => ?_
  have hk := contrEquiv1_symm_val dotCC 512 rfl rfl k
  have el : dotCC.lhsIdx (ix2 p q) ((contrEquiv1 dotCC 512 rfl rfl).symm k) = ix2 k p := funext fun a => Fin.ext (by
    match a with
    | ⟨0, _⟩ => exact (cc_lhs_row _ _).trans hk
    | ⟨1, _⟩ => exact cc_lhs_col _ _)
  have er : dotCC.rhsIdx (ix2 p q) ((contrEquiv1 dotCC 512 rfl rfl).symm k) = ix2 k q := funext fun a => Fin.ext (by
    match a with
    | ⟨0, _⟩ => exact (cc_rhs_row _ _).trans hk
    | ⟨1, _⟩ => exact cc_rhs_col _ _)
  rw [el, er]

/-- The bias row broadcast down the rows, at row `p` and column `q`, is the row's entry at column `q`. -/
theorem bias_apply (b : FVec Ideal S1x512 .f32) (p q : Fin 512) :
    broadcastTo S512x512 b broadcasts_S1x512_S512x512 (ix2 p q) = b (ix2 0 q) := by
  refine broadcastTo_apply b _ (ix2 p q) (ix2 0 q) fun a => ?_
  match a with
  | ⟨0, _⟩ => rfl
  | ⟨1, _⟩ => rfl

/-- The logistic of a block, entry by entry. -/
theorem logistic_apply (v : FVec Ideal S512x512 .f32) (i : S512x512.Idx) : logistic v i = Ideal.logistic (v i) := rfl

/-- The hyperbolic tangent of a block, entry by entry. -/
theorem tanh_apply (v : FVec Ideal S512x512 .f32) (i : S512x512.Idx) : tanh v i = Ideal.tanh (v i) := rfl

/-! ## The payloads at an index -/

/-- The cleared incoming accumulator holds zero everywhere. -/
theorem clear_in_apply (p q : Fin 512) : k3_pay1 (F := Ideal) (ix2 p q) = 0 := by
  unfold k3_pay1
  simp only [shapeCast_self]
  rw [broadcast_apply]
  exact Ideal.ofBits_zero_f32

/-- The cleared outgoing accumulator holds zero everywhere. -/
theorem clear_out_apply (p q : Fin 512) : k3_pay2 (F := Ideal) (ix2 p q) = 0 := by
  unfold k3_pay2
  simp only [shapeCast_self]
  rw [broadcast_apply]
  exact Ideal.ofBits_zero_f32

/-- One accumulation step of the incoming aggregate: the running sum plus, over the 512 nodes `k` of the step, the
    adjacency entry `(p, k)` times the message entry `(k, q)`. -/
theorem acc_in_apply (msg : Vec Ideal S512x512 .bf16) (run : Vec Ideal S512x512 .f32) (adj : Vec Ideal S512x512 .bf16)
    (p q : Fin 512) :
    k3_pay3 msg run adj (ix2 p q) = run (ix2 p q) + ∑ k : Fin 512, adj (ix2 p k) * msg (ix2 k q) := by
  unfold k3_pay3
  simp only [shapeCast_self]
  rw [addf_apply]
  exact congrArg (run (ix2 p q) + ·) (productRC_apply _ _ p q)

/-- One accumulation step of the outgoing aggregate: the running sum plus, over the 512 nodes `k` of the step, the
    adjacency entry `(k, p)` times the message entry `(k, q)`. -/
theorem acc_out_apply (msg : Vec Ideal S512x512 .bf16) (run : Vec Ideal S512x512 .f32) (adj : Vec Ideal S512x512 .bf16)
    (p q : Fin 512) :
    k3_pay4 msg run adj (ix2 p q) = run (ix2 p q) + ∑ k : Fin 512, adj (ix2 k p) * msg (ix2 k q) := by
  unfold k3_pay4
  simp only [shapeCast_self]
  rw [addf_apply]
  exact congrArg (run (ix2 p q) + ·) (productCC_apply _ _ p q)

/-- The reset gate at row `p`, column `q`: the logistic of the three partial sums plus the bias entry. -/
theorem reset_apply (aIn aOut x : Vec Ideal S512x512 .f32) (w0 w1 w2 : Vec Ideal S512x512 .bf16) (b : Vec Ideal S1x512 .f32)
    (p q : Fin 512) :
    k3_pay10 aIn aOut x w0 w1 w2 b (ix2 p q) =
      Ideal.logistic ((((∑ k : Fin 512, aIn (ix2 p k) * w0 (ix2 k q)) + ∑ k : Fin 512, aOut (ix2 p k) * w1 (ix2 k q))
        + ∑ k : Fin 512, x (ix2 p k) * w2 (ix2 k q)) + b (ix2 0 q)) := by
  unfold k3_pay10 k3_pay7 k3_pay8 k3_pay9 k3_pay6
  simp only [shapeCast_self]
  rw [logistic_apply, addf_apply, addf_apply, addf_apply, bias_apply, productRC_apply, productRC_apply, productRC_apply]
  rfl

/-- The update gate's pre-activation without its bias at row `p`, column `q`: the three partial sums. -/
theorem updatePre_apply (aIn aOut x : Vec Ideal S512x512 .f32) (w0 w1 w2 : Vec Ideal S512x512 .bf16) (p q : Fin 512) :
    k3_pay11 aIn aOut x w0 w1 w2 (ix2 p q) =
      ((∑ k : Fin 512, aIn (ix2 p k) * w0 (ix2 k q)) + ∑ k : Fin 512, aOut (ix2 p k) * w1 (ix2 k q))
        + ∑ k : Fin 512, x (ix2 p k) * w2 (ix2 k q) := by
  unfold k3_pay11 k3_pay7 k3_pay8 k3_pay9 k3_pay6
  simp only [shapeCast_self]
  rw [addf_apply, addf_apply, productRC_apply, productRC_apply, productRC_apply]
  rfl

/-- The new state at row `p`, column `q`: with `z` the logistic of the update gate's pre-activation plus its bias and
    `h` the hyperbolic tangent of the candidate's three partial sums (the third over the reset gate times the state)
    plus its bias, `(1 - z) * x + z * h`. -/
theorem newState_apply (x : Vec Ideal S512x512 .f32) (aIn aOut : FVec Ideal S512x512 .bf16) (r zpre : FVec Ideal S512x512 .f32)
    (bz : Vec Ideal S1x512 .f32) (w0 w1 w2 : Vec Ideal S512x512 .bf16) (bh : Vec Ideal S1x512 .f32) (p q : Fin 512) :
    k3_pay5 x aIn aOut r zpre bz w0 w1 w2 bh (ix2 p q) =
      (1 - Ideal.logistic (zpre (ix2 p q) + bz (ix2 0 q))) * x (ix2 p q)
        + Ideal.logistic (zpre (ix2 p q) + bz (ix2 0 q))
          * Ideal.tanh ((((∑ k : Fin 512, aIn (ix2 p k) * w0 (ix2 k q)) + ∑ k : Fin 512, aOut (ix2 p k) * w1 (ix2 k q))
              + ∑ k : Fin 512, (r (ix2 p k) * x (ix2 p k)) * w2 (ix2 k q)) + bh (ix2 0 q)) := by
  unfold k3_pay5
  simp only [shapeCast_self]
  rw [addf_apply, mulf_apply, mulf_apply, subf_apply, broadcast_apply, logistic_apply, addf_apply, bias_apply, tanh_apply,
    addf_apply, addf_apply, addf_apply, bias_apply, productRC_apply, productRC_apply, productRC_apply]
  simp only [truncf_apply, mulf_apply]
  rw [show (Scalar.ofBits (F := Ideal) .f32 0x3F800000#32 : EReal) = 1 from Ideal.ofBits_one_f32]

/-- The state block handed on unchanged (a reshape to the same shape). -/
theorem stateCast_apply (x : Vec Ideal S512x512 .f32) (i : S512x512.Idx) : k3_pay6 x i = x i := by
  unfold k3_pay6
  simp only [shapeCast_self]

/-- The incoming aggregate's block in the narrower float format is the block itself. -/
theorem fmt_in_apply (v : Vec Ideal S512x512 .f32) (i : S512x512.Idx) : k3_pay7 v i = v i := by
  unfold k3_pay7
  rfl

/-- The outgoing aggregate's block in the narrower float format is the block itself. -/
theorem fmt_out_apply (v : Vec Ideal S512x512 .f32) (i : S512x512.Idx) : k3_pay8 v i = v i := by
  unfold k3_pay8
  rfl

/-- The state block in the narrower float format is the block itself. -/
theorem fmt_state_apply (v : Vec Ideal S512x512 .f32) (i : S512x512.Idx) : k3_pay9 v i = v i := by
  unfold k3_pay9 k3_pay6
  simp only [shapeCast_self, truncf_apply]

/-! ## The new-state block as the network's convex update at the block's rows

  The loaded blocks are read as rows of whole arrays: `row p` is the array row that the block's row `p` holds. A gate's
  weight has 1536 columns, three blocks of 512; the body loads it transposed, so the loaded block `i` at `(k, q)` is the
  weight's entry at row `q` and column `k` of the column block `i`. -/

/-- The reset gate's block is the network's reset gate at the block's rows. -/
theorem reset_eq_gate (row : Fin 512 → Fin 4096) (aIn aOut x : Fin 4096 → Fin 512 → EReal)
    (Wr : Fin 512 → Fin 1536 → EReal) (br : Fin 512 → EReal)
    (sIn sOut xb : Vec Ideal S512x512 .f32) (r0 r1 r2 : Vec Ideal S512x512 .bf16) (vbr : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hr0 : ∀ k q : Fin 512, r0 (ix2 k q) = Wr q (part0 k))
    (hr1 : ∀ k q : Fin 512, r1 (ix2 k q) = Wr q (part1 k))
    (hr2 : ∀ k q : Fin 512, r2 (ix2 k q) = Wr q (part2 k))
    (hbr : ∀ q : Fin 512, vbr (ix2 0 q) = br q) (p q : Fin 512) :
    k3_pay10 sIn sOut xb r0 r1 r2 vbr (ix2 p q) = Ideal.logistic (gate aIn aOut x Wr br (row p) q) := by
  rw [reset_apply]
  simp only [gate, hIn, hOut, hx, hr0, hr1, hr2, hbr]

/-- The update gate's pre-activation block plus its bias row is the network's update-gate pre-activation at the
    block's rows. -/
theorem updatePre_eq_gate (row : Fin 512 → Fin 4096) (aIn aOut x : Fin 4096 → Fin 512 → EReal)
    (Wz : Fin 512 → Fin 1536 → EReal) (bz : Fin 512 → EReal)
    (sIn sOut xb : Vec Ideal S512x512 .f32) (z0 z1 z2 : Vec Ideal S512x512 .bf16) (vbz : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hz0 : ∀ k q : Fin 512, z0 (ix2 k q) = Wz q (part0 k))
    (hz1 : ∀ k q : Fin 512, z1 (ix2 k q) = Wz q (part1 k))
    (hz2 : ∀ k q : Fin 512, z2 (ix2 k q) = Wz q (part2 k))
    (hbz : ∀ q : Fin 512, vbz (ix2 0 q) = bz q) (p q : Fin 512) :
    k3_pay11 sIn sOut xb z0 z1 z2 (ix2 p q) + vbz (ix2 0 q) = gate aIn aOut x Wz bz (row p) q := by
  rw [updatePre_apply]
  simp only [gate, hIn, hOut, hx, hz0, hz1, hz2, hbz]

/-- The new-state block, computed by the body from the finished aggregates' blocks `sIn`, `sOut`, the state block `xb`,
    the nine loaded weight blocks and the three bias rows, is at `(p, q)` the network's convex update
    `(1 - z) * x + z * h` at row `row p` and column `q`, with `r` and `z` the logistics of the reset and update gates and
    `h` the candidate. -/
theorem newState_eq_update (row : Fin 512 → Fin 4096) (aIn aOut x : Fin 4096 → Fin 512 → EReal)
    (Wr Wz Wh : Fin 512 → Fin 1536 → EReal) (br bz bh : Fin 512 → EReal)
    (sIn sOut xb : Vec Ideal S512x512 .f32)
    (r0 r1 r2 z0 z1 z2 h0 h1 h2 : Vec Ideal S512x512 .bf16) (vbr vbz vbh : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hr0 : ∀ k q : Fin 512, r0 (ix2 k q) = Wr q (part0 k))
    (hr1 : ∀ k q : Fin 512, r1 (ix2 k q) = Wr q (part1 k))
    (hr2 : ∀ k q : Fin 512, r2 (ix2 k q) = Wr q (part2 k))
    (hz0 : ∀ k q : Fin 512, z0 (ix2 k q) = Wz q (part0 k))
    (hz1 : ∀ k q : Fin 512, z1 (ix2 k q) = Wz q (part1 k))
    (hz2 : ∀ k q : Fin 512, z2 (ix2 k q) = Wz q (part2 k))
    (hh0 : ∀ k q : Fin 512, h0 (ix2 k q) = Wh q (part0 k))
    (hh1 : ∀ k q : Fin 512, h1 (ix2 k q) = Wh q (part1 k))
    (hh2 : ∀ k q : Fin 512, h2 (ix2 k q) = Wh q (part2 k))
    (hbr : ∀ q : Fin 512, vbr (ix2 0 q) = br q)
    (hbz : ∀ q : Fin 512, vbz (ix2 0 q) = bz q)
    (hbh : ∀ q : Fin 512, vbh (ix2 0 q) = bh q) (p q : Fin 512) :
    k3_pay5 (k3_pay6 xb) (k3_pay7 sIn) (k3_pay8 sOut) (k3_pay10 sIn sOut xb r0 r1 r2 vbr) (k3_pay11 sIn sOut xb z0 z1 z2)
        vbz h0 h1 h2 vbh (ix2 p q)
      = update (fun p q => Ideal.logistic (gate aIn aOut x Wz bz p q)) x
          (candidate aIn aOut (fun p q => Ideal.logistic (gate aIn aOut x Wr br p q)) x Wh bh) (row p) q := by
  rw [newState_apply, updatePre_eq_gate row aIn aOut x Wz bz sIn sOut xb z0 z1 z2 vbz hIn hOut hx hz0 hz1 hz2 hbz p q]
  have hr : ∀ k : Fin 512, k3_pay10 sIn sOut xb r0 r1 r2 vbr (ix2 p k) = Ideal.logistic (gate aIn aOut x Wr br (row p) k) :=
    fun k => reset_eq_gate row aIn aOut x Wr br sIn sOut xb r0 r1 r2 vbr hIn hOut hx hr0 hr1 hr2 hbr p k
  have hi : ∀ k : Fin 512, k3_pay7 sIn (ix2 p k) = aIn (row p) k := fun k => hIn p k
  have ho : ∀ k : Fin 512, k3_pay8 sOut (ix2 p k) = aOut (row p) k := fun k => hOut p k
  have hc : ∀ k : Fin 512, k3_pay6 xb (ix2 p k) = x (row p) k := fun k => (stateCast_apply xb _).trans (hx p k)
  simp only [hr, hi, ho, hc, hh0, hh1, hh2, hbh]
  rfl

/-- The same with each gate's weight given as the transposed array the body loads from: 1536 rows, 512 columns, entry
    `(j, q)` the weight's entry at row `q` and column `j`; the three loaded blocks are its rows 0 to 511, 512 to 1023 and
    1024 to 1535. -/
theorem newState_eq_update_of_transposed (row : Fin 512 → Fin 4096) (aIn aOut x : Fin 4096 → Fin 512 → EReal)
    (Wr Wz Wh : Fin 512 → Fin 1536 → EReal) (br bz bh : Fin 512 → EReal)
    (Tr Tz Th : Vec Ideal S1536x512 .bf16)
    (sIn sOut xb : Vec Ideal S512x512 .f32)
    (r0 r1 r2 z0 z1 z2 h0 h1 h2 : Vec Ideal S512x512 .bf16) (vbr vbz vbh : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hTr : ∀ (j : Fin 1536) (q : Fin 512), Tr (ix2 j q) = Wr q j)
    (hTz : ∀ (j : Fin 1536) (q : Fin 512), Tz (ix2 j q) = Wz q j)
    (hTh : ∀ (j : Fin 1536) (q : Fin 512), Th (ix2 j q) = Wh q j)
    (hr0 : ∀ k q : Fin 512, r0 (ix2 k q) = Tr (ix2 (part0 k) q))
    (hr1 : ∀ k q : Fin 512, r1 (ix2 k q) = Tr (ix2 (part1 k) q))
    (hr2 : ∀ k q : Fin 512, r2 (ix2 k q) = Tr (ix2 (part2 k) q))
    (hz0 : ∀ k q : Fin 512, z0 (ix2 k q) = Tz (ix2 (part0 k) q))
    (hz1 : ∀ k q : Fin 512, z1 (ix2 k q) = Tz (ix2 (part1 k) q))
    (hz2 : ∀ k q : Fin 512, z2 (ix2 k q) = Tz (ix2 (part2 k) q))
    (hh0 : ∀ k q : Fin 512, h0 (ix2 k q) = Th (ix2 (part0 k) q))
    (hh1 : ∀ k q : Fin 512, h1 (ix2 k q) = Th (ix2 (part1 k) q))
    (hh2 : ∀ k q : Fin 512, h2 (ix2 k q) = Th (ix2 (part2 k) q))
    (hbr : ∀ q : Fin 512, vbr (ix2 0 q) = br q)
    (hbz : ∀ q : Fin 512, vbz (ix2 0 q) = bz q)
    (hbh : ∀ q : Fin 512, vbh (ix2 0 q) = bh q) (p q : Fin 512) :
    k3_pay5 (k3_pay6 xb) (k3_pay7 sIn) (k3_pay8 sOut) (k3_pay10 sIn sOut xb r0 r1 r2 vbr) (k3_pay11 sIn sOut xb z0 z1 z2)
        vbz h0 h1 h2 vbh (ix2 p q)
      = update (fun p q => Ideal.logistic (gate aIn aOut x Wz bz p q)) x
          (candidate aIn aOut (fun p q => Ideal.logistic (gate aIn aOut x Wr br p q)) x Wh bh) (row p) q :=
  newState_eq_update row aIn aOut x Wr Wz Wh br bz bh sIn sOut xb r0 r1 r2 z0 z1 z2 h0 h1 h2 vbr vbz vbh hIn hOut hx
    (fun k q => (hr0 k q).trans (hTr _ _)) (fun k q => (hr1 k q).trans (hTr _ _)) (fun k q => (hr2 k q).trans (hTr _ _))
    (fun k q => (hz0 k q).trans (hTz _ _)) (fun k q => (hz1 k q).trans (hTz _ _)) (fun k q => (hz2 k q).trans (hTz _ _))
    (fun k q => (hh0 k q).trans (hTh _ _)) (fun k q => (hh1 k q).trans (hTh _ _)) (fun k q => (hh2 k q).trans (hTh _ _))
    hbr hbz hbh p q

end Cert.KernelIdeal.GatedPayload3

end
-- ==== Proof.IdealGatedValue3.lean ====
/-
  The value of the new-state array of region 3, read over the extended reals.

  The grid is 8 x 8: point t = 8 m + k handles the block of 512 nodes m against the block of 512 neighbours k. Over the
  eight points of a node block two running sums are kept: the first receives, at neighbour block k, the 512 x 512
  adjacency block (m, k) times rows 512 k … 512 k + 511 of the incoming messages; the second the adjacency block (k, m),
  read transposed, times the same rows of the outgoing messages. Both start from zero at k = 0, so after k = 7 entry
  (p, q) of the first is zero plus the eight blocks' sums added in order, which — addition of extended reals being
  associative — is the one sum over all 4096 neighbours of  A (512 m + p, j) * s_in (j, q);  likewise the second with
  A (j, 512 m + p) and s_out. At k = 7 the body forms the two gates and the candidate from the finished sums, the node
  block's own state, the three gate weights (each the transposed matrix, read in three blocks of 512 rows) and the bias
  rows, and stores the convex update; only that point writes the result block back. The eight written blocks tile the
  result array (row r lies in the block written at point 8 (r / 512) + 7). Hence the array after the region is one
  propagation step computed from the given message arrays, and the input arrays are as the region finds them.
-/
import proofs.«121501_j55087250538634_2_alg».proof.Proof.IdealGated3
import proofs.«121501_j55087250538634_2_alg».proof.Proof.IdealGatedPieces3
import proofs.«121501_j55087250538634_2_alg».proof.Proof.IdealGatedPayload3
import proofs.«121501_j55087250538634_2_alg».proof.Proof.GgnnMath
import proofs.«121501_j55087250538634_2_alg».proof.Proof.LibBlockSum
import Idealize.ShloMosaic.Lib.Pipeline.Value
import Idealize.ShloMosaic.Lib.ValueIdx

set_option maxRecDepth 16384

noncomputable section

open scoped BigOperators

namespace Cert.KernelIdeal.GatedValue3

open Cert.KernelIdeal Cert.KernelIdeal.Gen Cert.KernelIdeal.Gated3 Cert.KernelIdeal.GatedPieces3 Cert.KernelIdeal.GatedPayload3
open Idealize.ShloMosaic Idealize.ShloMosaic.TcCoe Idealize.SL.Sem
open Idealize.ShloMosaic.ValueIdx
open Idealize.ShloMosaic.Pipeline (Dat)
open Cert.GgnnMath (part0 part1 part2)

/-! ## The specification: one propagation step from given messages -/

/-- One propagation step with the two edge-message matrices given: the aggregations, the two gates, the candidate and
    the convex update. -/
def stepFrom (Af : Fin 4096 → Fin 4096 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal)
    (sIn sOut x : Fin 4096 → Fin 512 → EReal) : Fin 4096 → Fin 512 → EReal :=
  let aIn := Cert.GgnnMath.aggIn Af sIn
  let aOut := Cert.GgnnMath.aggOut Af sOut
  let r : Fin 4096 → Fin 512 → EReal := fun p q => Ideal.logistic (Cert.GgnnMath.gate aIn aOut x Wr br p q)
  let z : Fin 4096 → Fin 512 → EReal := fun p q => Ideal.logistic (Cert.GgnnMath.gate aIn aOut x Wz bz p q)
  Cert.GgnnMath.update z x (Cert.GgnnMath.candidate aIn aOut r x Wh bh)

/-- A whole step is the step from its own two linear layers. -/
theorem step_eq_stepFrom (Af : Fin 4096 → Fin 4096 → EReal)
    (Win : Fin 512 → Fin 512 → EReal) (bin : Fin 512 → EReal) (Wout : Fin 512 → Fin 512 → EReal) (bout : Fin 512 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal) (x : Fin 4096 → Fin 512 → EReal) :
    Cert.GgnnMath.step Af Win bin Wout bout Wr br Wz bz Wh bh x
      = stepFrom Af Wr br Wz bz Wh bh (Cert.GgnnMath.affine x Win bin) (Cert.GgnnMath.affine x Wout bout) x := rfl

/-- The new-state array of the adjacency array `A`, the message arrays `SI`, `SO`, the state array `X`, the three
    transposed gate weights and the three bias rows. -/
def newState (A : S4096x4096.Idx → EReal) (SI SO X : S4096x512.Idx → EReal)
    (WrT : S1536x512.Idx → EReal) (Br : S1x512.Idx → EReal) (WzT : S1536x512.Idx → EReal) (Bz : S1x512.Idx → EReal)
    (WhT : S1536x512.Idx → EReal) (Bh : S1x512.Idx → EReal) : S4096x512.Idx → EReal :=
  fun i => stepFrom (fun p k => A (ix2 p k)) (fun q j => WrT (ix2 j q)) (fun q => Br (ix2 0 q))
    (fun q j => WzT (ix2 j q)) (fun q => Bz (ix2 0 q)) (fun q j => WhT (ix2 j q)) (fun q => Bh (ix2 0 q))
    (fun p k => SI (ix2 p k)) (fun p k => SO (ix2 p k)) (fun p k => X (ix2 p k)) (i 0) (i 1)

/-! ## Array entries by natural-number coordinates -/

/-- Entry (r, k) of the adjacency array by natural-number coordinates (zero outside the array, never consulted). -/
def entryA (A : S4096x4096.Idx → EReal) (r k : ℕ) : EReal :=
  if h : r < 4096 ∧ k < 4096 then A (ix2 ⟨r, h.1⟩ ⟨k, h.2⟩) else 0

/-- Entry (k, q) of a message array by a natural-number row. -/
def entryS (S : S4096x512.Idx → EReal) (k : ℕ) (q : Fin 512) : EReal :=
  if h : k < 4096 then S (ix2 ⟨k, h⟩ q) else 0

theorem entryA_eq (A : S4096x4096.Idx → EReal) (r k : Fin 4096) : entryA A r.val k.val = A (ix2 r k) := by
  unfold entryA; rw [dif_pos ⟨r.isLt, k.isLt⟩]

theorem entryS_eq (S : S4096x512.Idx → EReal) (k : Fin 4096) (q : Fin 512) : entryS S k.val q = S (ix2 k q) := by
  unfold entryS; rw [dif_pos k.isLt]

/-! ## One neighbour block's contribution, and the eight of them -/

/-- What neighbour block `kb` adds to the incoming sum of node `512 mb + p` at feature `q`. -/
def termIn (A : S4096x4096.Idx → EReal) (SI : S4096x512.Idx → EReal) (mb : ℕ) (p q : Fin 512) (kb : ℕ) : EReal :=
  ∑ j : Fin 512, entryA A (512 * mb + p.val) (512 * kb + j.val) * entryS SI (512 * kb + j.val) q

/-- What neighbour block `kb` adds to the outgoing sum: the adjacency entry is read transposed. -/
def termOut (A : S4096x4096.Idx → EReal) (SO : S4096x512.Idx → EReal) (mb : ℕ) (p q : Fin 512) (kb : ℕ) : EReal :=
  ∑ j : Fin 512, entryA A (512 * kb + j.val) (512 * mb + p.val) * entryS SO (512 * kb + j.val) q

/-- The eight neighbour blocks' contributions, added in order onto zero, are the aggregation over all 4096 neighbours. -/
theorem total_in (A : S4096x4096.Idx → EReal) (SI : S4096x512.Idx → EReal) (mb : ℕ) (hmb : mb < 8) (p q : Fin 512) :
    0 + ∑ kb ∈ Finset.range 8, termIn A SI mb p q kb
      = Cert.GgnnMath.aggIn (fun r k => A (ix2 r k)) (fun k q => SI (ix2 k q)) ⟨512 * mb + p.val, by omega⟩ q := by
  rw [zero_add, Finset.sum_range]
  unfold Cert.GgnnMath.aggIn
  refine Eq.symm ((BlockSum.sum_by_blocks (M := EReal) 8 512
    (fun k => A (ix2 (⟨512 * mb + p.val, by omega⟩ : Fin 4096) k) * SI (ix2 k q))).trans ?_)
  refine Finset.sum_congr rfl fun i _ => Finset.sum_congr rfl fun j _ => ?_
  have hv : (finProdFinEquiv (i, j) : Fin (8 * 512)).val = 512 * i.val + j.val := by
    rw [BlockSum.block_entry_val]; omega
  show A (ix2 (⟨512 * mb + p.val, by omega⟩ : Fin 4096) (finProdFinEquiv (i, j))) * SI (ix2 (finProdFinEquiv (i, j)) q) = _
  rw [← entryA_eq A ⟨512 * mb + p.val, by omega⟩ (finProdFinEquiv (i, j)), ← entryS_eq SI (finProdFinEquiv (i, j)) q, hv]

theorem total_out (A : S4096x4096.Idx → EReal) (SO : S4096x512.Idx → EReal) (mb : ℕ) (hmb : mb < 8) (p q : Fin 512) :
    0 + ∑ kb ∈ Finset.range 8, termOut A SO mb p q kb
      = Cert.GgnnMath.aggOut (fun r k => A (ix2 r k)) (fun k q => SO (ix2 k q)) ⟨512 * mb + p.val, by omega⟩ q := by
  rw [zero_add, Finset.sum_range]
  unfold Cert.GgnnMath.aggOut
  refine Eq.symm ((BlockSum.sum_by_blocks (M := EReal) 8 512
    (fun k => A (ix2 k (⟨512 * mb + p.val, by omega⟩ : Fin 4096)) * SO (ix2 k q))).trans ?_)
  refine Finset.sum_congr rfl fun i _ => Finset.sum_congr rfl fun j _ => ?_
  have hv : (finProdFinEquiv (i, j) : Fin (8 * 512)).val = 512 * i.val + j.val := by
    rw [BlockSum.block_entry_val]; omega
  show A (ix2 (finProdFinEquiv (i, j)) (⟨512 * mb + p.val, by omega⟩ : Fin 4096)) * SO (ix2 (finProdFinEquiv (i, j)) q) = _
  rw [← entryA_eq A (finProdFinEquiv (i, j)) ⟨512 * mb + p.val, by omega⟩, ← entryS_eq SO (finProdFinEquiv (i, j)) q, hv]

/-- A running sum that starts at zero plus the first term and adds one term per step. -/
theorem grow (g : ℕ → EReal) (k : ℕ) (s : EReal) (hs : s = 0 + ∑ kb ∈ Finset.range k, g kb) :
    s + g k = 0 + ∑ kb ∈ Finset.range (k + 1), g kb := by
  rw [hs, Finset.sum_range_succ, add_assoc]

variable (V : (c : Dev nD) → (b : Ref sig .tc) → Buf (Elt Ideal) ((c : Thread nD τ).loc b))

/-! ## The index maps over the grid -/

/-- The printed index maps at point `t = 8 m + k`: the adjacency window at block (m, k), its mirror at (k, m), the
    node-state and result windows at block row m, every other window at block (0, 0); the rows the body loads of the
    message arrays start at `512 k`. -/
theorem index_facts : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = t.val / 8
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val / 8 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = t.val / 8 ∧ win3_11.index t (1 : Fin 2) = 0
    ∧ k3_off1 (grid3.coords t) (0 : Fin 2) = 512 * (t.val % 8) ∧ k3_off1 (grid3.coords t) (1 : Fin 2) = 0 :=
  (by decide +kernel : ∀ t : Fin grid3.N, _)

/-! ## The blocks as parts of their arrays -/

/-- The adjacency block at point `t = 8 m + k` is rows `512 m …`, columns `512 k …` of the adjacency array. -/
theorem blk0_apply (c : Dev nD) (t : Fin cfg3.N) (y : S512x512.Idx) (i : S4096x4096.Idx)
    (h0 : (i 0).val = 512 * (t.val / 8) + (y 0).val) (h1 : (i 1).val = 512 * (t.val % 8) + (y 1).val) :
    blk V c 0 t y = (V c (Pipeline.arrRef spec3 0) : S4096x4096.Idx → EReal) i := by
  obtain ⟨e0, e1, -⟩ := index_facts t
  unfold blk
  show V c (Pipeline.arrRef spec3 0) (((cfg3.win 0).blk t).view.emb y) = _
  refine congrArg _ (funext fun a => Fin.ext ?_)
  match a with
  | ⟨0, _⟩ => show win3_0.index t (0 : Fin 2) * 512 + 1 * (y 0).val = (i 0).val; omega
  | ⟨1, _⟩ => show win3_0.index t (1 : Fin 2) * 512 + 1 * (y 1).val = (i 1).val; omega

/-- The mirrored adjacency block is rows `512 k …`, columns `512 m …` of the same array. -/
theorem blk1_apply (c : Dev nD) (t : Fin cfg3.N) (y : S512x512.Idx) (i : S4096x4096.Idx)
    (h0 : (i 0).val = 512 * (t.val % 8) + (y 0).val) (h1 : (i 1).val = 512 * (t.val / 8) + (y 1).val) :
    blk V c 1 t y = (V c (Pipeline.arrRef spec3 0) : S4096x4096.Idx → EReal) i := by
  obtain ⟨-, -, e0, e1, -⟩ := index_facts t
  unfold blk
  show V c (Pipeline.arrRef spec3 1) (((cfg3.win 1).blk t).view.emb y) = _
  refine congrArg _ (funext fun a => Fin.ext ?_)
  match a with
  | ⟨0, _⟩ => show win3_1.index t (0 : Fin 2) * 512 + 1 * (y 0).val = (i 0).val; omega
  | ⟨1, _⟩ => show win3_1.index t (1 : Fin 2) * 512 + 1 * (y 1).val = (i 1).val; omega

/-- The incoming-message window's block is the whole array at every point. -/
theorem blk2_apply (c : Dev nD) (t : Fin cfg3.N) (y : S4096x512.Idx) (i : S4096x512.Idx)
    (h0 : (i 0).val =  (y 0).val) (h1 : (i 1).val =  (y 1).val) :
    blk V c 2 t y = (V c (Pipeline.arrRef spec3 2) : S4096x512.Idx → EReal) i := by
  obtain ⟨-, -, -, -, e0, e1, -⟩ := index_facts t
  unfold blk
  show V c (Pipeline.arrRef spec3 2) (((cfg3.win 2).blk t).view.emb y) = _
  refine congrArg _ (funext fun a => Fin.ext ?_)
  match a with
  | ⟨0, _⟩ => show win3_2.index t (0 : Fin 2) * 4096 + 1 * (y 0).val = (i 0).val; omega
  | ⟨1, _⟩ => show win3_2.index t (1 : Fin 2) * 512 + 1 * (y 1).val = (i 1).val; omega

/-- The outgoing-message window's block is the whole array at every point. -/
theorem blk3_apply (c : Dev nD) (t : Fin cfg3.N) (y : S4096x512.Idx) (i : S4096x512.Idx)
    (h0 : (i 0).val =  (y 0).val) (h1 : (i 1).val =  (y 1).val) :
    blk V c 3 t y = (V c (Pipeline.arrRef spec3 3) : S4096x512.Idx → EReal) i := by
  obtain ⟨-, -, -, -, -, -, e0, e1, -⟩ := index_facts t
  unfold blk
  show V c (Pipeline.arrRef spec3 3) (((cfg3.win 3).blk t).view.emb y) = _
  refine congrArg _ (funext fun a => Fin.ext ?_)
  match a with
  | ⟨0, _⟩ => show win3_3.index t (0 : Fin 2) * 4096 + 1 * (y 0).val = (i 0).val; omega
  | ⟨1, _⟩ => show win3_3.index t (1 : Fin 2) * 512 + 1 * (y 1).val = (i 1).val; omega

/-- The node block's state is rows `512 m …` of the state array. -/
theorem blk4_apply (c : Dev nD) (t : Fin cfg3.N) (y : S512x512.Idx) (i : S4096x512.Idx)
    (h0 : (i 0).val = 512 * (t.val / 8) + (y 0).val) (h1 : (i 1).val =  (y 1).val) :
    blk V c 4 t y = (V c (Pipeline.arrRef spec3 4) : S4096x512.Idx → EReal) i := by
  obtain ⟨-, -, -, -, -, -, -, -, e0, e1, -⟩ := index_facts t
  unfold blk
  show V c (Pipeline.arrRef spec3 4) (((cfg3.win 4).blk t).view.emb y) = _
  refine congrArg _ (funext fun a => Fin.ext ?_)
  match a with
  | ⟨0, _⟩ => show win3_4.index t (0 : Fin 2) * 512 + 1 * (y 0).val = (i 0).val; omega
  | ⟨1, _⟩ => show win3_4.index t (1 : Fin 2) * 512 + 1 * (y 1).val = (i 1).val; omega

/-- The reset gate's weight window is the whole array at every point. -/
theorem blk5_apply (c : Dev nD) (t : Fin cfg3.N) (y : S1536x512.Idx) (i : S1536x512.Idx)
    (h0 : (i 0).val =  (y 0).val) (h1 : (i 1).val =  (y 1).val) :
    blk V c 5 t y = (V c (Pipeline.arrRef spec3 5) : S1536x512.Idx → EReal) i := by
  obtain ⟨-, -, -, -, -, -, -, -, -, -, e0, e1, -⟩ := index_facts t
  unfold blk
  show V c (Pipeline.arrRef spec3 5) (((cfg3.win 5).blk t).view.emb y) = _
  refine congrArg _ (funext fun a => Fin.ext ?_)
  match a with
  | ⟨0, _⟩ => show win3_5.index t (0 : Fin 2) * 1536 + 1 * (y 0).val = (i 0).val; omega
  | ⟨1, _⟩ => show win3_5.index t (1 : Fin 2) * 512 + 1 * (y 1).val = (i 1).val; omega

/-- The reset gate's bias row likewise. -/
theorem blk6_apply (c : Dev nD) (t : Fin cfg3.N) (y : S1x512.Idx) (i : S1x512.Idx)
    (h0 : (i 0).val =  (y 0).val) (h1 : (i 1).val =  (y 1).val) :
    blk V c 6 t y = (V c (Pipeline.arrRef spec3 6) : S1x512.Idx → EReal) i := by
  obtain ⟨-, -, -, -, -, -, -, -, -, -, -, -, e0, e1, -⟩ := index_facts t
  unfold blk
  show V c (Pipeline.arrRef spec3 6) (((cfg3.win 6).blk t).view.emb y) = _
  refine congrArg _ (funext fun a => Fin.ext ?_)
  match a with
  | ⟨0, _⟩ => show win3_6.index t (0 : Fin 2) * 1 + 1 * (y 0).val = (i 0).val; omega
  | ⟨1, _⟩ => show win3_6.index t (1 : Fin 2) * 512 + 1 * (y 1).val = (i 1).val; omega

/-- The update gate's weight likewise. -/
theorem blk7_apply (c : Dev nD) (t : Fin cfg3.N) (y : S1536x512.Idx) (i : S1536x512.Idx)
    (h0 : (i 0).val =  (y 0).val) (h1 : (i 1).val =  (y 1).val) :
    blk V c 7 t y = (V c (Pipeline.arrRef spec3 7) : S1536x512.Idx → EReal) i := by
  obtain ⟨-, -, -, -, -, -, -, -, -, -, -, -, -, -, e0, e1, -⟩ := index_facts t
  unfold blk
  show V c (Pipeline.arrRef spec3 7) (((cfg3.win 7).blk t).view.emb y) = _
  refine congrArg _ (funext fun a => Fin.ext ?_)
  match a with
  | ⟨0, _⟩ => show win3_7.index t (0 : Fin 2) * 1536 + 1 * (y 0).val = (i 0).val; omega
  | ⟨1, _⟩ => show win3_7.index t (1 : Fin 2) * 512 + 1 * (y 1).val = (i 1).val; omega

/-- The update gate's bias row likewise. -/
theorem blk8_apply (c : Dev nD) (t : Fin cfg3.N) (y : S1x512.Idx) (i : S1x512.Idx)
    (h0 : (i 0).val =  (y 0).val) (h1 : (i 1).val =  (y 1).val) :
    blk V c 8 t y = (V c (Pipeline.arrRef spec3 8) : S1x512.Idx → EReal) i := by
  obtain ⟨-, -, -, -, -, -, -, -, -, -, -, -, -, -, -, -, e0, e1, -⟩ := index_facts t
  unfold blk
  show V c (Pipeline.arrRef spec3 8) (((cfg3.win 8).blk t).view.emb y) = _
  refine congrArg _ (funext fun a => Fin.ext ?_)
  match a with
  | ⟨0, _⟩ => show win3_8.index t (0 : Fin 2) * 1 + 1 * (y 0).val = (i 0).val; omega
  | ⟨1, _⟩ => show win3_8.index t (1 : Fin 2) * 512 + 1 * (y 1).val = (i 1).val; omega

/-- The candidate's weight likewise. -/
theorem blk9_apply (c : Dev nD) (t : Fin cfg3.N) (y : S1536x512.Idx) (i : S1536x512.Idx)
    (h0 : (i 0).val =  (y 0).val) (h1 : (i 1).val =  (y 1).val) :
    blk V c 9 t y = (V c (Pipeline.arrRef spec3 9) : S1536x512.Idx → EReal) i := by
  obtain ⟨-, -, -, -, -, -, -, -, -, -, -, -, -, -, -, -, -, -, e0, e1, -⟩ := index_facts t
  unfold blk
  show V c (Pipeline.arrRef spec3 9) (((cfg3.win 9).blk t).view.emb y) = _
  refine congrArg _ (funext fun a => Fin.ext ?_)
  match a with
  | ⟨0, _⟩ => show win3_9.index t (0 : Fin 2) * 1536 + 1 * (y 0).val = (i 0).val; omega
  | ⟨1, _⟩ => show win3_9.index t (1 : Fin 2) * 512 + 1 * (y 1).val = (i 1).val; omega

/-- The candidate's bias row likewise. -/
theorem blk10_apply (c : Dev nD) (t : Fin cfg3.N) (y : S1x512.Idx) (i : S1x512.Idx)
    (h0 : (i 0).val =  (y 0).val) (h1 : (i 1).val =  (y 1).val) :
    blk V c 10 t y = (V c (Pipeline.arrRef spec3 10) : S1x512.Idx → EReal) i := by
  obtain ⟨-, -, -, -, -, -, -, -, -, -, -, -, -, -, -, -, -, -, -, -, e0, e1, -⟩ := index_facts t
  unfold blk
  show V c (Pipeline.arrRef spec3 10) (((cfg3.win 10).blk t).view.emb y) = _
  refine congrArg _ (funext fun a => Fin.ext ?_)
  match a with
  | ⟨0, _⟩ => show win3_10.index t (0 : Fin 2) * 1 + 1 * (y 0).val = (i 0).val; omega
  | ⟨1, _⟩ => show win3_10.index t (1 : Fin 2) * 512 + 1 * (y 1).val = (i 1).val; omega

/-! ## The rows the body loads out of whole blocks -/

/-- The neighbour block's rows of a whole message block: row `k` of what is loaded is row `512 kb + k`. -/
theorem nbrRows_apply (t : Fin cfg3.N) (x : Vec Ideal S4096x512 .bf16) (k q : Fin 512) (i : S4096x512.Idx)
    (h0 : (i 0).val = 512 * (t.val % 8) + k.val) (h1 : (i 1).val = q.val) :
    nbrRows (grid3.coords t) x (ix2 k q) = x i := by
  obtain ⟨-, -, -, -, -, -, -, -, -, -, -, -, -, -, -, -, -, -, -, -, -, -, -, -, e0, e1⟩ := index_facts t
  show x ((Rect.unit (s := S4096x512) (k3_off1 (grid3.coords t)) S512x512.size (k3_off1_inb (grid3.coords t))).emb (ix2 k q)) = x i
  refine congrArg x (funext fun a => Fin.ext ?_)
  match a with
  | ⟨0, _⟩ => show k3_off1 (grid3.coords t) (0 : Fin 2) + 1 * k.val = (i 0).val; omega
  | ⟨1, _⟩ => show k3_off1 (grid3.coords t) (1 : Fin 2) + 1 * q.val = (i 1).val; omega

/-- The three row blocks of a gate weight: row `k` of each is row `k`, `512 + k`, `1024 + k` of the weight. -/
theorem rowsA_apply (x : Vec Ideal S1536x512 .bf16) (k q : Fin 512) : rowsA x (ix2 k q) = x (ix2 (part0 k) q) := by
  show x ((Rect.unit (s := S1536x512) ![0, 0] S512x512.size inb_S1536x512_S512x512_0_0).emb (ix2 k q)) = _
  refine congrArg x (funext fun a => Fin.ext ?_)
  match a with
  | ⟨0, _⟩ => show 0 + 1 * k.val = k.val; omega
  | ⟨1, _⟩ => show 0 + 1 * q.val = q.val; omega
theorem rowsB_apply (x : Vec Ideal S1536x512 .bf16) (k q : Fin 512) : rowsB x (ix2 k q) = x (ix2 (part1 k) q) := by
  show x ((Rect.unit (s := S1536x512) ![512, 0] S512x512.size inb_S1536x512_S512x512_512_0).emb (ix2 k q)) = _
  refine congrArg x (funext fun a => Fin.ext ?_)
  match a with
  | ⟨0, _⟩ => show 512 + 1 * k.val = 512 + k.val; omega
  | ⟨1, _⟩ => show 0 + 1 * q.val = q.val; omega
theorem rowsC_apply (x : Vec Ideal S1536x512 .bf16) (k q : Fin 512) : rowsC x (ix2 k q) = x (ix2 (part2 k) q) := by
  show x ((Rect.unit (s := S1536x512) ![1024, 0] S512x512.size inb_S1536x512_S512x512_1024_0).emb (ix2 k q)) = _
  refine congrArg x (funext fun a => Fin.ext ?_)
  match a with
  | ⟨0, _⟩ => show 1024 + 1 * k.val = 1024 + k.val; omega
  | ⟨1, _⟩ => show 0 + 1 * q.val = q.val; omega

/-! ## The arrays as the region finds them -/

abbrev arrA (c : Dev nD) : S4096x4096.Idx → EReal := V c (Pipeline.arrRef spec3 0)
abbrev arrSI (c : Dev nD) : S4096x512.Idx → EReal := V c (Pipeline.arrRef spec3 2)
abbrev arrSO (c : Dev nD) : S4096x512.Idx → EReal := V c (Pipeline.arrRef spec3 3)
abbrev arrX (c : Dev nD) : S4096x512.Idx → EReal := V c (Pipeline.arrRef spec3 4)
abbrev arrWr (c : Dev nD) : S1536x512.Idx → EReal := V c (Pipeline.arrRef spec3 5)
abbrev arrBr (c : Dev nD) : S1x512.Idx → EReal := V c (Pipeline.arrRef spec3 6)
abbrev arrWz (c : Dev nD) : S1536x512.Idx → EReal := V c (Pipeline.arrRef spec3 7)
abbrev arrBz (c : Dev nD) : S1x512.Idx → EReal := V c (Pipeline.arrRef spec3 8)
abbrev arrWh (c : Dev nD) : S1536x512.Idx → EReal := V c (Pipeline.arrRef spec3 9)
abbrev arrBh (c : Dev nD) : S1x512.Idx → EReal := V c (Pipeline.arrRef spec3 10)

/-! ## What each kind of point leaves, as payload terms of the blocks -/

theorem start_s0 (c : Dev nD) (t : Fin cfg3.N) (hs : atStart (grid3.coords t)) (hf : ¬atFinish (grid3.coords t)) :
    (startTriple V c t hs hf).2.1 = k3_pay3 (nbrRows (grid3.coords t) (blk V c 2 t)) (k3_pay1 (F := Ideal)) (blk V c 0 t) := by
  unfold startTriple
  dsimp only
  exact start_piece0 c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)
theorem start_s1 (c : Dev nD) (t : Fin cfg3.N) (hs : atStart (grid3.coords t)) (hf : ¬atFinish (grid3.coords t)) :
    (startTriple V c t hs hf).2.2 = k3_pay4 (nbrRows (grid3.coords t) (blk V c 3 t)) (k3_pay2 (F := Ideal)) (blk V c 1 t) := by
  unfold startTriple
  dsimp only
  exact start_piece1 c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)
theorem middle_s0 (c : Dev nD) (t : Fin cfg3.N) (hs : ¬atStart (grid3.coords t)) (hf : ¬atFinish (grid3.coords t))
    (s0 s1 : Vec Ideal S512x512 .f32) :
    (middleTriple V c t hs hf s0 s1).2.1 = k3_pay3 (nbrRows (grid3.coords t) (blk V c 2 t)) s0 (blk V c 0 t) := by
  unfold middleTriple
  dsimp only
  exact middle_piece0 c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem middle_s1 (c : Dev nD) (t : Fin cfg3.N) (hs : ¬atStart (grid3.coords t)) (hf : ¬atFinish (grid3.coords t))
    (s0 s1 : Vec Ideal S512x512 .f32) :
    (middleTriple V c t hs hf s0 s1).2.2 = k3_pay4 (nbrRows (grid3.coords t) (blk V c 3 t)) s1 (blk V c 1 t) := by
  unfold middleTriple
  dsimp only
  exact middle_piece1 c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_s0 (c : Dev nD) (t : Fin cfg3.N) (hs : ¬atStart (grid3.coords t)) (hf : atFinish (grid3.coords t))
    (s0 s1 : Vec Ideal S512x512 .f32) :
    (finishTriple V c t hs hf s0 s1).2.1 = k3_pay3 (nbrRows (grid3.coords t) (blk V c 2 t)) s0 (blk V c 0 t) := by
  unfold finishTriple
  dsimp only
  exact finish_piece0 c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_s1 (c : Dev nD) (t : Fin cfg3.N) (hs : ¬atStart (grid3.coords t)) (hf : atFinish (grid3.coords t))
    (s0 s1 : Vec Ideal S512x512 .f32) :
    (finishTriple V c t hs hf s0 s1).2.2 = k3_pay4 (nbrRows (grid3.coords t) (blk V c 3 t)) s1 (blk V c 1 t) := by
  unfold finishTriple
  dsimp only
  exact finish_piece1 c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_out (c : Dev nD) (t : Fin cfg3.N) (hs : ¬atStart (grid3.coords t)) (hf : atFinish (grid3.coords t))
    (s0 s1 : Vec Ideal S512x512 .f32) :
    (finishTriple V c t hs hf s0 s1).1
      = newBlock (k3_pay3 (nbrRows (grid3.coords t) (blk V c 2 t)) s0 (blk V c 0 t))
          (k3_pay4 (nbrRows (grid3.coords t) (blk V c 3 t)) s1 (blk V c 1 t))
          (blk V c 4 t) (blk V c 5 t) (blk V c 6 t) (blk V c 7 t) (blk V c 8 t) (blk V c 9 t) (blk V c 10 t) := by
  have hc := finish_coverO V c t hs hf s0 s1
  unfold finishTriple
  dsimp only
  exact ((View.read_writes_eq_canon vOut vOut.junk _ hc).trans
    (View.read_writes_eq_canon (mw11 t).view (mw11 t).view.junk _ hc).symm).trans
    (finish_pieceO c (grid3.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1)

/-! ## One point's two products -/

/-- The two adjacency blocks and the two whole message blocks of a point, at their literal vector types. -/
abbrev bAdj (c : Dev nD) (t : Fin cfg3.N) : Vec Ideal S512x512 .bf16 := blk V c 0 t
abbrev bAdjM (c : Dev nD) (t : Fin cfg3.N) : Vec Ideal S512x512 .bf16 := blk V c 1 t
abbrev bSI (c : Dev nD) (t : Fin cfg3.N) : Vec Ideal S4096x512 .bf16 := blk V c 2 t
abbrev bSO (c : Dev nD) (t : Fin cfg3.N) : Vec Ideal S4096x512 .bf16 := blk V c 3 t

theorem grid_size : cfg3.N = 64 := N_3

/-- The adjacency block (m, k) against the neighbour block's incoming messages is neighbour block k's contribution. -/
theorem point_in (c : Dev nD) (n : ℕ) (hn : n < cfg3.N) (p q : Fin 512) :
    ∑ k : Fin 512, bAdj V c ⟨n, hn⟩ (ix2 p k) * nbrRows (grid3.coords ⟨n, hn⟩) (bSI V c ⟨n, hn⟩) (ix2 k q)
      = termIn (arrA V c) (arrSI V c) (n / 8) p q (n % 8) := by
  have hn' : n < 64 := by have h := hn; rwa [grid_size] at h
  unfold termIn
  refine Finset.sum_congr rfl fun k _ => congrArg₂ (· * ·) ?_ ?_
  · exact (blk0_apply V c ⟨n, hn⟩ (ix2 p k) (ix2 ⟨512 * (n / 8) + p.val, by omega⟩ ⟨512 * (n % 8) + k.val, by omega⟩) rfl rfl).trans
      (entryA_eq (arrA V c) ⟨512 * (n / 8) + p.val, by omega⟩ ⟨512 * (n % 8) + k.val, by omega⟩).symm
  · exact ((nbrRows_apply ⟨n, hn⟩ (blk V c 2 ⟨n, hn⟩) k q (ix2 ⟨512 * (n % 8) + k.val, by omega⟩ q) rfl rfl).trans
      (blk2_apply V c ⟨n, hn⟩ (ix2 ⟨512 * (n % 8) + k.val, by omega⟩ q) (ix2 ⟨512 * (n % 8) + k.val, by omega⟩ q) rfl rfl)).trans
      (entryS_eq (arrSI V c) ⟨512 * (n % 8) + k.val, by omega⟩ q).symm

/-- The mirrored adjacency block (k, m), read transposed, against the outgoing messages likewise. -/
theorem point_out (c : Dev nD) (n : ℕ) (hn : n < cfg3.N) (p q : Fin 512) :
    ∑ k : Fin 512, bAdjM V c ⟨n, hn⟩ (ix2 k p) * nbrRows (grid3.coords ⟨n, hn⟩) (bSO V c ⟨n, hn⟩) (ix2 k q)
      = termOut (arrA V c) (arrSO V c) (n / 8) p q (n % 8) := by
  have hn' : n < 64 := by have h := hn; rwa [grid_size] at h
  unfold termOut
  refine Finset.sum_congr rfl fun k _ => congrArg₂ (· * ·) ?_ ?_
  · exact (blk1_apply V c ⟨n, hn⟩ (ix2 k p) (ix2 ⟨512 * (n % 8) + k.val, by omega⟩ ⟨512 * (n / 8) + p.val, by omega⟩) rfl rfl).trans
      (entryA_eq (arrA V c) ⟨512 * (n % 8) + k.val, by omega⟩ ⟨512 * (n / 8) + p.val, by omega⟩).symm
  · exact ((nbrRows_apply ⟨n, hn⟩ (blk V c 3 ⟨n, hn⟩) k q (ix2 ⟨512 * (n % 8) + k.val, by omega⟩ q) rfl rfl).trans
      (blk3_apply V c ⟨n, hn⟩ (ix2 ⟨512 * (n % 8) + k.val, by omega⟩ q) (ix2 ⟨512 * (n % 8) + k.val, by omega⟩ q) rfl rfl)).trans
      (entryS_eq (arrSO V c) ⟨512 * (n % 8) + k.val, by omega⟩ q).symm

/-- The first term onto zero. -/
theorem grow_first (g : ℕ → EReal) : 0 + g 0 = 0 + ∑ kb ∈ Finset.range (0 + 1), g kb := by
  rw [Finset.sum_range_succ, Finset.sum_range_zero, zero_add (g 0), zero_add (g 0)]

/-! ## The running sums after every point -/

/-- After point `n = 8 m + k` the first running sum holds zero plus the contributions of neighbour blocks 0 … k. -/
theorem sums_in (c : Dev nD) (n : ℕ) : ∀ (hn : n < cfg3.N) (p q : Fin 512),
    ((sums V c n hn).2.1 (ix2 p q) : EReal)
      = 0 + ∑ kb ∈ Finset.range (n % 8 + 1), termIn (arrA V c) (arrSI V c) (n / 8) p q kb := by
  induction n using Nat.strong_induction_on with
  | _ n ih =>
    intro hn p q
    by_cases h0 : n % 8 = 0
    · have h7 : ¬n % 8 = 7 := by omega
      have e1 : (sums V c n hn).2.1 = k3_pay3 (nbrRows (grid3.coords ⟨n, hn⟩) (blk V c 2 ⟨n, hn⟩)) (k3_pay1 (F := Ideal)) (blk V c 0 ⟨n, hn⟩) :=
        (congrArg (fun s => s.2.1) (sums_start V c ⟨n, hn⟩ h0 h7)).trans (start_s0 V c ⟨n, hn⟩ _ _)
      refine (congrFun e1 (ix2 p q)).trans ((acc_in_apply _ _ _ p q).trans ?_)
      refine (congrArg₂ (· + ·) (clear_in_apply p q) (point_in V c n hn p q)).trans ?_
      rw [h0]
      exact grow_first _
    · have hm : n - 1 < cfg3.N := by omega
      have ihm := ih (n - 1) (by omega) hm p q
      have hdiv : (n - 1) / 8 = n / 8 := by omega
      have hmod : (n - 1) % 8 + 1 = n % 8 := by omega
      rw [hdiv, hmod] at ihm
      have e1 : (sums V c n hn).2.1
          = k3_pay3 (nbrRows (grid3.coords ⟨n, hn⟩) (blk V c 2 ⟨n, hn⟩)) (sums V c (n - 1) hm).2.1 (blk V c 0 ⟨n, hn⟩) := by
        by_cases h7 : n % 8 = 7
        · exact (congrArg (fun s => s.2.1) (sums_finish V c ⟨n, hn⟩ h0 h7)).trans (finish_s0 V c ⟨n, hn⟩ _ _ _ _)
        · exact (congrArg (fun s => s.2.1) (sums_middle V c ⟨n, hn⟩ h0 h7)).trans (middle_s0 V c ⟨n, hn⟩ _ _ _ _)
      refine (congrFun e1 (ix2 p q)).trans ((acc_in_apply _ _ _ p q).trans ?_)
      refine (congrArg (_ + ·) (point_in V c n hn p q)).trans ?_
      exact grow _ (n % 8) _ ihm

/-- The second running sum likewise, with the transposed adjacency entries and the outgoing messages. -/
theorem sums_out (c : Dev nD) (n : ℕ) : ∀ (hn : n < cfg3.N) (p q : Fin 512),
    ((sums V c n hn).2.2 (ix2 p q) : EReal)
      = 0 + ∑ kb ∈ Finset.range (n % 8 + 1), termOut (arrA V c) (arrSO V c) (n / 8) p q kb := by
  induction n using Nat.strong_induction_on with
  | _ n ih =>
    intro hn p q
    by_cases h0 : n % 8 = 0
    · have h7 : ¬n % 8 = 7 := by omega
      have e1 : (sums V c n hn).2.2 = k3_pay4 (nbrRows (grid3.coords ⟨n, hn⟩) (blk V c 3 ⟨n, hn⟩)) (k3_pay2 (F := Ideal)) (blk V c 1 ⟨n, hn⟩) :=
        (congrArg (fun s => s.2.2) (sums_start V c ⟨n, hn⟩ h0 h7)).trans (start_s1 V c ⟨n, hn⟩ _ _)
      refine (congrFun e1 (ix2 p q)).trans ((acc_out_apply _ _ _ p q).trans ?_)
      refine (congrArg₂ (· + ·) (clear_out_apply p q) (point_out V c n hn p q)).trans ?_
      rw [h0]
      exact grow_first _
    · have hm : n - 1 < cfg3.N := by omega
      have ihm := ih (n - 1) (by omega) hm p q
      have hdiv : (n - 1) / 8 = n / 8 := by omega
      have hmod : (n - 1) % 8 + 1 = n % 8 := by omega
      rw [hdiv, hmod] at ihm
      have e1 : (sums V c n hn).2.2
          = k3_pay4 (nbrRows (grid3.coords ⟨n, hn⟩) (blk V c 3 ⟨n, hn⟩)) (sums V c (n - 1) hm).2.2 (blk V c 1 ⟨n, hn⟩) := by
        by_cases h7 : n % 8 = 7
        · exact (congrArg (fun s => s.2.2) (sums_finish V c ⟨n, hn⟩ h0 h7)).trans (finish_s1 V c ⟨n, hn⟩ _ _ _ _)
        · exact (congrArg (fun s => s.2.2) (sums_middle V c ⟨n, hn⟩ h0 h7)).trans (middle_s1 V c ⟨n, hn⟩ _ _ _ _)
      refine (congrFun e1 (ix2 p q)).trans ((acc_out_apply _ _ _ p q).trans ?_)
      refine (congrArg (_ + ·) (point_out V c n hn p q)).trans ?_
      exact grow _ (n % 8) _ ihm

/-! ## The result block at the last neighbour block -/

/-- At a point `n = 8 m + 7` the result block is the new state formed from the two sums that point leaves. -/
theorem out_of_sums (c : Dev nD) (n : ℕ) (hn : n < cfg3.N) (h7 : n % 8 = 7) :
    (sums V c n hn).1 = newBlock (sums V c n hn).2.1 (sums V c n hn).2.2 (blk V c 4 ⟨n, hn⟩) (blk V c 5 ⟨n, hn⟩) (blk V c 6 ⟨n, hn⟩) (blk V c 7 ⟨n, hn⟩) (blk V c 8 ⟨n, hn⟩) (blk V c 9 ⟨n, hn⟩) (blk V c 10 ⟨n, hn⟩) := by
  have h0 : ¬n % 8 = 0 := by omega
  have e := sums_finish V c ⟨n, hn⟩ h0 h7
  have eO := (congrArg (fun s => s.1) e).trans (finish_out V c ⟨n, hn⟩ _ _ _ _)
  have e0 := (congrArg (fun s => s.2.1) e).trans (finish_s0 V c ⟨n, hn⟩ _ _ _ _)
  have e1 := (congrArg (fun s => s.2.2) e).trans (finish_s1 V c ⟨n, hn⟩ _ _ _ _)
  exact eO.trans (by rw [e0, e1])

/-- Entry (p, q) of the result block at point `n = 8 m + 7` is entry (512 m + p, q) of one propagation step from the
    message arrays. -/
theorem block_value (c : Dev nD) (n : ℕ) (hn : n < cfg3.N) (h7 : n % 8 = 7) (p q : Fin 512) :
    ((sums V c n hn).1 (ix2 p q) : EReal)
      = stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))
          ⟨512 * (n / 8) + p.val, by have h := hn; rw [grid_size] at h; omega⟩ q := by
  have hn' : n < 64 := by have h := hn; rwa [grid_size] at h
  have hmb : n / 8 < 8 := by omega
  rw [out_of_sums V c n hn h7]
  unfold newBlock
  refine (newState_eq_update (fun p => (⟨512 * (n / 8) + p.val, by omega⟩ : Fin 4096))
    (Cert.GgnnMath.aggIn (fun p k => arrA V c (ix2 p k)) (fun p k => arrSI V c (ix2 p k)))
    (Cert.GgnnMath.aggOut (fun p k => arrA V c (ix2 p k)) (fun p k => arrSO V c (ix2 p k)))
    (fun p k => arrX V c (ix2 p k))
    (fun q j => arrWr V c (ix2 j q)) (fun q j => arrWz V c (ix2 j q)) (fun q j => arrWh V c (ix2 j q))
    (fun q => arrBr V c (ix2 0 q)) (fun q => arrBz V c (ix2 0 q)) (fun q => arrBh V c (ix2 0 q))
    (sums V c n hn).2.1 (sums V c n hn).2.2 (blk V c 4 ⟨n, hn⟩)
    (rowsA (blk V c 5 ⟨n, hn⟩)) (rowsB (blk V c 5 ⟨n, hn⟩)) (rowsC (blk V c 5 ⟨n, hn⟩))
    (rowsA (blk V c 7 ⟨n, hn⟩)) (rowsB (blk V c 7 ⟨n, hn⟩)) (rowsC (blk V c 7 ⟨n, hn⟩))
    (rowsA (blk V c 9 ⟨n, hn⟩)) (rowsB (blk V c 9 ⟨n, hn⟩)) (rowsC (blk V c 9 ⟨n, hn⟩))
    (blk V c 6 ⟨n, hn⟩) (blk V c 8 ⟨n, hn⟩) (blk V c 10 ⟨n, hn⟩)
    ?_ ?_ ?_ ?_ ?_ ?_ ?_ ?_ ?_ ?_ ?_ ?_ ?_ ?_ ?_ p q).trans rfl
  · intro p k
    refine (sums_in V c n hn p k).trans ?_
    rw [h7]
    exact total_in (arrA V c) (arrSI V c) (n / 8) hmb p k
  · intro p k
    refine (sums_out V c n hn p k).trans ?_
    rw [h7]
    exact total_out (arrA V c) (arrSO V c) (n / 8) hmb p k
  · intro p k
    exact blk4_apply V c ⟨n, hn⟩ (ix2 p k) (ix2 ⟨512 * (n / 8) + p.val, by omega⟩ k) rfl rfl
  · intro k q
    exact (rowsA_apply (blk V c 5 ⟨n, hn⟩) k q).trans (blk5_apply V c ⟨n, hn⟩ _ (ix2 (part0 k) q) rfl rfl)
  · intro k q
    exact (rowsB_apply (blk V c 5 ⟨n, hn⟩) k q).trans (blk5_apply V c ⟨n, hn⟩ _ (ix2 (part1 k) q) rfl rfl)
  · intro k q
    exact (rowsC_apply (blk V c 5 ⟨n, hn⟩) k q).trans (blk5_apply V c ⟨n, hn⟩ _ (ix2 (part2 k) q) rfl rfl)
  · intro k q
    exact (rowsA_apply (blk V c 7 ⟨n, hn⟩) k q).trans (blk7_apply V c ⟨n, hn⟩ _ (ix2 (part0 k) q) rfl rfl)
  · intro k q
    exact (rowsB_apply (blk V c 7 ⟨n, hn⟩) k q).trans (blk7_apply V c ⟨n, hn⟩ _ (ix2 (part1 k) q) rfl rfl)
  · intro k q
    exact (rowsC_apply (blk V c 7 ⟨n, hn⟩) k q).trans (blk7_apply V c ⟨n, hn⟩ _ (ix2 (part2 k) q) rfl rfl)
  · intro k q
    exact (rowsA_apply (blk V c 9 ⟨n, hn⟩) k q).trans (blk9_apply V c ⟨n, hn⟩ _ (ix2 (part0 k) q) rfl rfl)
  · intro k q
    exact (rowsB_apply (blk V c 9 ⟨n, hn⟩) k q).trans (blk9_apply V c ⟨n, hn⟩ _ (ix2 (part1 k) q) rfl rfl)
  · intro k q
    exact (rowsC_apply (blk V c 9 ⟨n, hn⟩) k q).trans (blk9_apply V c ⟨n, hn⟩ _ (ix2 (part2 k) q) rfl rfl)
  · intro q
    exact blk6_apply V c ⟨n, hn⟩ (ix2 0 q) (ix2 0 q) rfl rfl
  · intro q
    exact blk8_apply V c ⟨n, hn⟩ (ix2 0 q) (ix2 0 q) rfl rfl
  · intro q
    exact blk10_apply V c ⟨n, hn⟩ (ix2 0 q) (ix2 0 q) rfl rfl

/-! ## What the writing points write back, and the array after the region -/

/-- A point that writes the result block back — one at the last neighbour block — writes block m of the new-state array. -/
theorem flushed11_eq (c : Dev nD) (t : Fin cfg3.N) (hf : (cfg3.win 11).flush t = true) :
    (dat V c).flushed 11 t = ((cfg3.win 11).blk t).view.read (Elt Ideal)
      (newState (V c (Pipeline.arrRef spec3 0)) (V c (Pipeline.arrRef spec3 2)) (V c (Pipeline.arrRef spec3 3))
        (V c (Pipeline.arrRef spec3 4)) (V c (Pipeline.arrRef spec3 5)) (V c (Pipeline.arrRef spec3 6)) (V c (Pipeline.arrRef spec3 7))
        (V c (Pipeline.arrRef spec3 8)) (V c (Pipeline.arrRef spec3 9)) (V c (Pipeline.arrRef spec3 10))) := by
  have h7 : t.val % 8 = 7 := (flush3_11 t).mp hf
  have ht : t.val < 64 := Nat.lt_of_lt_of_eq t.isLt grid_size
  obtain ⟨-, -, -, -, -, -, -, -, -, -, -, -, -, -, -, -, -, -, -, -, -, -, e0, e1, -⟩ := index_facts t
  show (cfg3.win 11).cut (grid3.coords t) ((dat V c).after 11 t) = _
  rw [after11]
  funext j
  have hr : ((((cfg3.win 11).blk t).view.emb j) 0).val = win3_11.index t (0 : Fin 2) * 512 + 1 * (j 0).val := rfl
  have hq : ((((cfg3.win 11).blk t).view.emb j) 1).val = win3_11.index t (1 : Fin 2) * 512 + 1 * (j 1).val := rfl
  show (sums V c t.val t.isLt).1 j = newState (V c (Pipeline.arrRef spec3 0)) (V c (Pipeline.arrRef spec3 2)) (V c (Pipeline.arrRef spec3 3))
        (V c (Pipeline.arrRef spec3 4)) (V c (Pipeline.arrRef spec3 5)) (V c (Pipeline.arrRef spec3 6)) (V c (Pipeline.arrRef spec3 7))
        (V c (Pipeline.arrRef spec3 8)) (V c (Pipeline.arrRef spec3 9)) (V c (Pipeline.arrRef spec3 10)) (((cfg3.win 11).blk t).view.emb j)
  have hj : (sums V c t.val t.isLt).1 j = (sums V c t.val t.isLt).1 (ix2 (j 0) (j 1)) := congrArg _ (eq_ix2 j)
  refine hj.trans ((block_value V c t.val t.isLt h7 (j 0) (j 1)).trans ?_)
  show _ = stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))
      ((((cfg3.win 11).blk t).view.emb j) 0) ((((cfg3.win 11).blk t).view.emb j) 1)
  refine congrArg₂ (stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))) (Fin.ext ?_) (Fin.ext ?_)
  · show 512 * (t.val / 8) + (j 0).val = ((((cfg3.win 11).blk t).view.emb j) 0).val
    omega
  · show (j 1).val = ((((cfg3.win 11).blk t).view.emb j) 1).val
    omega

/-- An index of the new-state array is in point `t`'s block iff each coordinate is in the block's range on its axis. -/
theorem mem_blk11 (t : Fin cfg3.N) (i : S4096x512.Idx) :
    i ∈ ((cfg3.win 11).blk t).view.set ↔ ∀ a : Fin 2, win3_11.index t a * S512x512.size a ≤ (i a).val
      ∧ (i a).val < win3_11.index t a * S512x512.size a + S512x512.size a := by
  show i ∈ ((View.whole (Pipeline.arrRef spec3 11)).slice (win3_11.rect t)).set ↔ _
  rw [View.set_slice_whole, Rect.mem_set_unit]
  exact Iff.rfl

/-- The point that writes row `r`: the last neighbour block of node block `r / 512`. -/
def pointOf (i : S4096x512.Idx) : Fin cfg3.N :=
  ⟨8 * ((i 0).val / 512) + 7, by have h : (i 0).val < 4096 := (i 0).isLt; rw [grid_size]; omega⟩

/-- The eight written blocks tile the new-state array. -/
theorem cover11 (i : S4096x512.Idx) :
    ∃ t : Fin cfg3.N, (cfg3.win 11).flush t = true ∧ i ∈ ((cfg3.win 11).blk t).view.set := by
  have hi0 : (i 0).val < 4096 := (i 0).isLt
  have hi1 : (i 1).val < 512 := (i 1).isLt
  have ht : (pointOf i).val = 8 * ((i 0).val / 512) + 7 := rfl
  obtain ⟨-, -, -, -, -, -, -, -, -, -, -, -, -, -, -, -, -, -, -, -, -, -, e0, e1, -⟩ := index_facts (pointOf i)
  refine ⟨pointOf i, (flush3_11 (pointOf i)).mpr (by omega), ?_⟩
  rw [mem_blk11]
  intro a
  match a with
  | ⟨0, _⟩ => show win3_11.index (pointOf i) (0 : Fin 2) * 512 ≤ (i 0).val
                ∧ (i 0).val < win3_11.index (pointOf i) (0 : Fin 2) * 512 + 512; omega
  | ⟨1, _⟩ => show win3_11.index (pointOf i) (1 : Fin 2) * 512 ≤ (i 1).val
                ∧ (i 1).val < win3_11.index (pointOf i) (1 : Fin 2) * 512 + 512; omega

/-- THE NEW-STATE ARRAY after the region: one propagation step from the message arrays, the adjacency array, the state
    array, the gate weights and the bias rows as the region finds them. -/
theorem arr11 (c : Dev nD) :
    (dat V c).arrAt 11 cfg3.N = newState (V c (Pipeline.arrRef spec3 0)) (V c (Pipeline.arrRef spec3 2)) (V c (Pipeline.arrRef spec3 3))
        (V c (Pipeline.arrRef spec3 4)) (V c (Pipeline.arrRef spec3 5)) (V c (Pipeline.arrRef spec3 6)) (V c (Pipeline.arrRef spec3 7))
        (V c (Pipeline.arrRef spec3 8)) (V c (Pipeline.arrRef spec3 9)) (V c (Pipeline.arrRef spec3 10)) := by
  have hG : ∀ t, (cfg3.win 11).flush t = true → (dat V c).flushed 11 t = ((cfg3.win 11).blk t).view.read (Elt Ideal)
      (newState (V c (Pipeline.arrRef spec3 0)) (V c (Pipeline.arrRef spec3 2)) (V c (Pipeline.arrRef spec3 3))
        (V c (Pipeline.arrRef spec3 4)) (V c (Pipeline.arrRef spec3 5)) (V c (Pipeline.arrRef spec3 6)) (V c (Pipeline.arrRef spec3 7))
        (V c (Pipeline.arrRef spec3 8)) (V c (Pipeline.arrRef spec3 9)) (V c (Pipeline.arrRef spec3 10))) :=
    fun t hf => flushed11_eq V c t hf
  exact Dat.arrAt_eq_of_cover (dat V c) 11 _ hG cover11

/-! ## The input arrays are never written -/

/-- Each of the eleven input windows' arrays ends as the region finds it. -/
theorem arr0 (c : Dev nD) : (dat V c).arrAt 0 cfg3.N = V c (Pipeline.arrRef spec3 0) :=
  ((dat V c).arrAt_in 0 rfl cfg3.N).trans (dat_A V c 0)
theorem arr1 (c : Dev nD) : (dat V c).arrAt 1 cfg3.N = V c (Pipeline.arrRef spec3 1) :=
  ((dat V c).arrAt_in 1 rfl cfg3.N).trans (dat_A V c 1)
theorem arr2 (c : Dev nD) : (dat V c).arrAt 2 cfg3.N = V c (Pipeline.arrRef spec3 2) :=
  ((dat V c).arrAt_in 2 rfl cfg3.N).trans (dat_A V c 2)
theorem arr3 (c : Dev nD) : (dat V c).arrAt 3 cfg3.N = V c (Pipeline.arrRef spec3 3) :=
  ((dat V c).arrAt_in 3 rfl cfg3.N).trans (dat_A V c 3)
theorem arr4 (c : Dev nD) : (dat V c).arrAt 4 cfg3.N = V c (Pipeline.arrRef spec3 4) :=
  ((dat V c).arrAt_in 4 rfl cfg3.N).trans (dat_A V c 4)
theorem arr5 (c : Dev nD) : (dat V c).arrAt 5 cfg3.N = V c (Pipeline.arrRef spec3 5) :=
  ((dat V c).arrAt_in 5 rfl cfg3.N).trans (dat_A V c 5)
theorem arr6 (c : Dev nD) : (dat V c).arrAt 6 cfg3.N = V c (Pipeline.arrRef spec3 6) :=
  ((dat V c).arrAt_in 6 rfl cfg3.N).trans (dat_A V c 6)
theorem arr7 (c : Dev nD) : (dat V c).arrAt 7 cfg3.N = V c (Pipeline.arrRef spec3 7) :=
  ((dat V c).arrAt_in 7 rfl cfg3.N).trans (dat_A V c 7)
theorem arr8 (c : Dev nD) : (dat V c).arrAt 8 cfg3.N = V c (Pipeline.arrRef spec3 8) :=
  ((dat V c).arrAt_in 8 rfl cfg3.N).trans (dat_A V c 8)
theorem arr9 (c : Dev nD) : (dat V c).arrAt 9 cfg3.N = V c (Pipeline.arrRef spec3 9) :=
  ((dat V c).arrAt_in 9 rfl cfg3.N).trans (dat_A V c 9)
theorem arr10 (c : Dev nD) : (dat V c).arrAt 10 cfg3.N = V c (Pipeline.arrRef spec3 10) :=
  ((dat V c).arrAt_in 10 rfl cfg3.N).trans (dat_A V c 10)

end Cert.KernelIdeal.GatedValue3

end
-- ==== Proof.IdealGatedPieces5.lean ====
/-
  Region 5: what the body's three runs leave in the buffers they store into, as functions of what they load.

  At every grid point the two running sums each receive one store of "what the sum held plus this point's block
  product"; at the first neighbour block what the sum held is the zero block stored just before. At the last neighbour
  block the result block receives one store: the gated update computed from the two finished sums, the node block's own
  state, the three gate weights (each read as three consecutive blocks of 512 rows) and the three bias rows.
  One store through the whole-buffer rectangle leaves its payload, and a load through it of what was just stored reads
  that payload back; so each stored buffer ends as one payload term of the loaded blocks.
-/
import proofs.«121501_j55087250538634_2_alg».proof.Proof.IdealGated5Runs
import Idealize.ShloMosaic.Lib.Pipeline.Value
import Idealize.ShloMosaic.Lib.Tactic
import Idealize.ShloMosaic.Lib.Ring

set_option maxRecDepth 16384

noncomputable section

namespace Cert.KernelIdeal.GatedPieces5

open Cert.KernelIdeal Cert.KernelIdeal.Gen Cert.KernelIdeal.Gated5
open Idealize.ShloMosaic Idealize.ShloMosaic.TcCoe Idealize.ShloMosaic.Tactic Idealize.SL.Sem

variable {F : FTy → Type} [FloatOps F]

/-- The zero offsets of a whole-buffer rectangle, as the constant function. -/
theorem zeroOffsets : (![0, 0] : Fin 2 → Nat) = fun _ => 0 := funext fun a => by fin_cases a <;> rfl

/-- The 512 rows of a whole message array that the body loads at grid point `i`: those of the point's neighbour block. -/
abbrev nbrRows (i : grid5.Coords) (x : Vec F S4096x512 .bf16) : Vec F S512x512 .bf16 :=
  View.ld x (Rect.unit (s := S4096x512) (k5_off1 i) S512x512.size (k5_off1_inb i))

/-- The three consecutive blocks of 512 rows of a 1536-row gate weight. -/
abbrev rowsA (x : Vec F S1536x512 .bf16) : Vec F S512x512 .bf16 :=
  View.ld x (Rect.unit (s := S1536x512) ![0, 0] S512x512.size inb_S1536x512_S512x512_0_0)
abbrev rowsB (x : Vec F S1536x512 .bf16) : Vec F S512x512 .bf16 :=
  View.ld x (Rect.unit (s := S1536x512) ![512, 0] S512x512.size inb_S1536x512_S512x512_512_0)
abbrev rowsC (x : Vec F S1536x512 .bf16) : Vec F S512x512 .bf16 :=
  View.ld x (Rect.unit (s := S1536x512) ![1024, 0] S512x512.size inb_S1536x512_S512x512_1024_0)

/-- The new state of a node block from its two finished sums `S0`, `S1`, its own state `x6`, the reset gate's weight and
    bias `x7`, `x8`, the update gate's `x9`, `x10` and the candidate's `x11`, `x12`. -/
def newBlock (S0 S1 : Vec F S512x512 .f32) (x6 : Vec F S512x512 .f32) (x7 : Vec F S1536x512 .bf16) (x8 : Vec F S1x512 .f32)
    (x9 : Vec F S1536x512 .bf16) (x10 : Vec F S1x512 .f32) (x11 : Vec F S1536x512 .bf16) (x12 : Vec F S1x512 .f32) :
    Vec F S512x512 .f32 :=
  k5_pay5 (k5_pay6 x6) (k5_pay7 S0) (k5_pay8 S1) (k5_pay10 S0 S1 x6 (rowsA x7) (rowsB x7) (rowsC x7) x8)
    (k5_pay11 S0 S1 x6 (rowsA x9) (rowsB x9) (rowsC x9)) x10 (rowsA x11) (rowsB x11) (rowsC x11) x12

/-- START, first sum: the zero block plus the first product. -/
theorem start_piece0 (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32)  :
    a14.view.read (Elt F) (a14.view.writes (Elt F) a14.view.junk (runStart c i a2 h2 a3 h3 a4 h4 a5 h5 a6 h6 a7 h7 a8 h8 a9 h9 a10 h10 a11 h11 a12 h12 a13 h13 a14 h14 a15 h15 hs hf x2 x3 x4 x5 x6 x7 x8 x9 x10 x11 x12 ).1) = k5_pay3 (nbrRows i x4) k5_pay1 x2 := by
  rw [View.read_writes_eq_canon _ _ _ (fun y => View.cover_of_tiledL _ S512x512.size (by sl_kernel_rfl) y)]
  unfold runStart
  dsimp only
  try sl_unfold_words
  rw [View.canon_cons_unit_zero zeroOffsets]
  simp only [View.readCov_unit_zero (S := S512x512) _ zeroOffsets, View.readAt_eq_ld, h2.read_unread, h3.read_unread, h4.read_unread, h5.read_unread, View.ld_unit_zero (S := S512x512) zeroOffsets]
  try rfl

/-- START, second sum. -/
theorem start_piece1 (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32)  :
    a15.view.read (Elt F) (a15.view.writes (Elt F) a15.view.junk (runStart c i a2 h2 a3 h3 a4 h4 a5 h5 a6 h6 a7 h7 a8 h8 a9 h9 a10 h10 a11 h11 a12 h12 a13 h13 a14 h14 a15 h15 hs hf x2 x3 x4 x5 x6 x7 x8 x9 x10 x11 x12 ).2.1) = k5_pay4 (nbrRows i x5) k5_pay2 x3 := by
  rw [View.read_writes_eq_canon _ _ _ (fun y => View.cover_of_tiledL _ S512x512.size (by sl_kernel_rfl) y)]
  unfold runStart
  dsimp only
  try sl_unfold_words
  rw [View.canon_cons_unit_zero zeroOffsets]
  simp only [View.readCov_unit_zero (S := S512x512) _ zeroOffsets, View.readAt_eq_ld, h2.read_unread, h3.read_unread, h4.read_unread, h5.read_unread, View.ld_unit_zero (S := S512x512) zeroOffsets]
  try rfl

/-- MIDDLE, first sum: what the point before left plus this point's product. -/
theorem middle_piece0 (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a14.view.read (Elt F) (a14.view.writes (Elt F) a14.view.junk (runMiddle c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).1) = k5_pay3 (nbrRows i x4) s0 x2 := by
  rw [View.read_writes_eq_canon _ _ _ (fun y => View.cover_of_tiledL _ S512x512.size (by sl_kernel_rfl) y)]
  unfold runMiddle
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- MIDDLE, second sum. -/
theorem middle_piece1 (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a15.view.read (Elt F) (a15.view.writes (Elt F) a15.view.junk (runMiddle c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.1) = k5_pay4 (nbrRows i x5) s1 x3 := by
  rw [View.read_writes_eq_canon _ _ _ (fun y => View.cover_of_tiledL _ S512x512.size (by sl_kernel_rfl) y)]
  unfold runMiddle
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, first sum. -/
theorem finish_piece0 (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a14.view.read (Elt F) (a14.view.writes (Elt F) a14.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.1) = k5_pay3 (nbrRows i x4) s0 x2 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, second sum. -/
theorem finish_piece1 (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a15.view.read (Elt F) (a15.view.writes (Elt F) a15.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.2.1) = k5_pay4 (nbrRows i x5) s1 x3 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, the result block: the new state from the two finished sums. -/
theorem finish_pieceO (c : Dev nD) (i : grid5.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a13.view.read (Elt F) (a13.view.writes (Elt F) a13.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).1) = newBlock (k5_pay3 (nbrRows i x4) s0 x2) (k5_pay4 (nbrRows i x5) s1 x3) x6 x7 x8 x9 x10 x11 x12 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readCov_unit_zero (S := S512x512) _ zeroOffsets, View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S512x512) zeroOffsets, View.ld_unit_zero (S := S1x512) zeroOffsets]
  rfl

end Cert.KernelIdeal.GatedPieces5

end
-- ==== Proof.IdealGatedPayload5.lean ====
/-
  The arithmetic of the gated-update body of region 5, entry by entry over the extended reals.

  Every block is 512 x 512 except the bias rows, which are 1 x 512. A change of float format is the identity on the
  extended reals, a reshape to the same shape is the identity, and a bias row broadcast down the rows is the row's entry
  in every row. A block product into the zero accumulator is, at row p and column q, the finite sum over the contracted
  coordinate k of the products of the operands' entries: for the product of rows against columns the entries (p, k) and
  (k, q), for the product contracting both operands' row axes the entries (k, p) and (k, q).

  So, at row p and column q:
    the two cleared accumulators hold zero;
    an accumulation step adds to the running sum one such finite sum;
    a gate's pre-activation is the three finite sums over the three loaded weight blocks, added left to right, then the
    bias entry of column q, and the reset gate is its logistic;
    the candidate is the hyperbolic tangent of the same three-part sum, its third part over the product of the reset gate
    and the state;
    the new state is (1 - z) * x + z * h with z the logistic of the update gate's pre-activation.

  The last section reads the loaded blocks as rows of whole arrays (512 consecutive or any other 512 rows, given by a map
  of row numbers) and the loaded weight blocks as the three blocks of 512 columns of a weight with 1536 columns, stored
  transposed; the new-state block is then the convex update of the network's step at those rows.
-/
import proofs.«121501_j55087250538634_2_alg».proof.Proof.Gen.KernelIdeal.Skeleton
import proofs.«121501_j55087250538634_2_alg».proof.Proof.GgnnMath
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.GatedPayload5

open Cert.KernelIdeal Cert.KernelIdeal.Gen
open Idealize.ShloMosaic Idealize.ShloMosaic.TcCoe Idealize.SL.Sem
open Idealize.ShloMosaic.ValueIdx
open Cert.GgnnMath

/-! ## The two block products' operand indices, one coordinate at a time -/

/-- Rows of the left operand against columns of the right: the left's axis 1 is contracted with the right's axis 0. -/
abbrev dotRC : DotDims S512x512 S512x512 S512x512 := dot_S512x512_S512x512_S512x512_1_0_0_1_n_n

/-- Both operands' axis 0 contracted: columns of the left operand against columns of the right. -/
abbrev dotCC : DotDims S512x512 S512x512 S512x512 := dot_S512x512_S512x512_S512x512_0_0_1_1_n_n

theorem rc_lhs_row (i : S512x512.Idx) (q : dotRC.contr.Idx) : (dotRC.lhsIdx i q 0).val = (i 0).val := by
  unfold DotDims.lhsIdx
  rw [dif_neg (show ¬(0 : Fin S512x512.rank) ∈ dotRC.lhsBatch by decide),
    dif_pos (show (0 : Fin S512x512.rank) ∈ dotRC.lhsNonContracting by decide)]
  rfl

theorem rc_lhs_col (i : S512x512.Idx) (q : dotRC.contr.Idx) : (dotRC.lhsIdx i q 1).val = (q ⟨0, by decide⟩).val :=
  dotRC.lhsIdx_val_of_single rfl i q

theorem rc_rhs_row (i : S512x512.Idx) (q : dotRC.contr.Idx) : (dotRC.rhsIdx i q 0).val = (q ⟨0, by decide⟩).val :=
  dotRC.rhsIdx_val_of_single rfl i q

theorem rc_rhs_col (i : S512x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

theorem cc_lhs_row (i : S512x512.Idx) (q : dotCC.contr.Idx) : (dotCC.lhsIdx i q 0).val = (q ⟨0, by decide⟩).val :=
  dotCC.lhsIdx_val_of_single rfl i q

theorem cc_lhs_col (i : S512x512.Idx) (q : dotCC.contr.Idx) : (dotCC.lhsIdx i q 1).val = (i 0).val := by
  unfold DotDims.lhsIdx
  rw [dif_neg (show ¬(1 : Fin S512x512.rank) ∈ dotCC.lhsBatch by decide),
    dif_pos (show (1 : Fin S512x512.rank) ∈ dotCC.lhsNonContracting by decide)]
  rfl

theorem cc_rhs_row (i : S512x512.Idx) (q : dotCC.contr.Idx) : (dotCC.rhsIdx i q 0).val = (q ⟨0, by decide⟩).val :=
  dotCC.rhsIdx_val_of_single rfl i q

theorem cc_rhs_col (i : S512x512.Idx) (q : dotCC.contr.Idx) : (dotCC.rhsIdx i q 1).val = (i 1).val := by
  unfold DotDims.rhsIdx
  rw [dif_neg (show ¬(1 : Fin S512x512.rank) ∈ dotCC.rhsBatch by decide),
    dif_pos (show (1 : Fin S512x512.rank) ∈ dotCC.rhsNonContracting by decide)]
  rfl

/-- The product of rows against columns into the zero accumulator, at row `p` and column `q`. -/
theorem productRC_apply {φ₁ φ₂ : FTy} (l : FVec Ideal S512x512 φ₁) (r : FVec Ideal S512x512 φ₂) (p q : Fin 512) :
    matmul dotRC none l r (constant (F := Ideal) S512x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact rc_lhs_row _ _
    | ⟨1, _⟩ => exact (rc_lhs_col _ _).trans hk)
  have er : dotRC.rhsIdx (ix2 p q) ((contrEquiv1 dotRC 512 rfl rfl).symm k) = ix2 k q := funext fun a => Fin.ext (by
    match a with
    | ⟨0, _⟩ => exact (rc_rhs_row _ _).trans hk
    | ⟨1, _⟩ => exact rc_rhs_col _ _)
  rw [el, er]

/-- The product contracting both operands' row axes into the zero accumulator, at row `p` and column `q`. -/
theorem productCC_apply {φ₁ φ₂ : FTy} (l : FVec Ideal S512x512 φ₁) (r : FVec Ideal S512x512 φ₂) (p q : Fin 512) :
    matmul dotCC none l r (constant (F := Ideal) S512x512 .f32 0x00000000#32) (ix2 p q)
      = ∑ k : Fin 512, l (ix2 k p) * r (ix2 k q) := by
  simp only [matmul]
  rw [Ideal.matmul_constant_zero_apply, ← Equiv.sum_comp (contrEquiv1 dotCC 512 rfl rfl).symm]
  refine Finset.sum_congr rfl fun k _ => ?_
  have hk := contrEquiv1_symm_val dotCC 512 rfl rfl k
  have el : dotCC.lhsIdx (ix2 p q) ((contrEquiv1 dotCC 512 rfl rfl).symm k) = ix2 k p := funext fun a => Fin.ext (by
    match a with
    | ⟨0, _⟩ => exact (cc_lhs_row _ _).trans hk
    | ⟨1, _⟩ => exact cc_lhs_col _ _)
  have er : dotCC.rhsIdx (ix2 p q) ((contrEquiv1 dotCC 512 rfl rfl).symm k) = ix2 k q := funext fun a => Fin.ext (by
    match a with
    | ⟨0, _⟩ => exact (cc_rhs_row _ _).trans hk
    | ⟨1, _⟩ => exact cc_rhs_col _ _)
  rw [el, er]

/-- The bias row broadcast down the rows, at row `p` and column `q`, is the row's entry at column `q`. -/
theorem bias_apply (b : FVec Ideal S1x512 .f32) (p q : Fin 512) :
    broadcastTo S512x512 b broadcasts_S1x512_S512x512 (ix2 p q) = b (ix2 0 q) := by
  refine broadcastTo_apply b _ (ix2 p q) (ix2 0 q) fun a => ?_
  match a with
  | ⟨0, _⟩ => rfl
  | ⟨1, _⟩ => rfl

/-- The logistic of a block, entry by entry. -/
theorem logistic_apply (v : FVec Ideal S512x512 .f32) (i : S512x512.Idx) : logistic v i = Ideal.logistic (v i) := rfl

/-- The hyperbolic tangent of a block, entry by entry. -/
theorem tanh_apply (v : FVec Ideal S512x512 .f32) (i : S512x512.Idx) : tanh v i = Ideal.tanh (v i) := rfl

/-! ## The payloads at an index -/

/-- The cleared incoming accumulator holds zero everywhere. -/
theorem clear_in_apply (p q : Fin 512) : k5_pay1 (F := Ideal) (ix2 p q) = 0 := by
  unfold k5_pay1
  simp only [shapeCast_self]
  rw [broadcast_apply]
  exact Ideal.ofBits_zero_f32

/-- The cleared outgoing accumulator holds zero everywhere. -/
theorem clear_out_apply (p q : Fin 512) : k5_pay2 (F := Ideal) (ix2 p q) = 0 := by
  unfold k5_pay2
  simp only [shapeCast_self]
  rw [broadcast_apply]
  exact Ideal.ofBits_zero_f32

/-- One accumulation step of the incoming aggregate: the running sum plus, over the 512 nodes `k` of the step, the
    adjacency entry `(p, k)` times the message entry `(k, q)`. -/
theorem acc_in_apply (msg : Vec Ideal S512x512 .bf16) (run : Vec Ideal S512x512 .f32) (adj : Vec Ideal S512x512 .bf16)
    (p q : Fin 512) :
    k5_pay3 msg run adj (ix2 p q) = run (ix2 p q) + ∑ k : Fin 512, adj (ix2 p k) * msg (ix2 k q) := by
  unfold k5_pay3
  simp only [shapeCast_self]
  rw [addf_apply]
  exact congrArg (run (ix2 p q) + ·) (productRC_apply _ _ p q)

/-- One accumulation step of the outgoing aggregate: the running sum plus, over the 512 nodes `k` of the step, the
    adjacency entry `(k, p)` times the message entry `(k, q)`. -/
theorem acc_out_apply (msg : Vec Ideal S512x512 .bf16) (run : Vec Ideal S512x512 .f32) (adj : Vec Ideal S512x512 .bf16)
    (p q : Fin 512) :
    k5_pay4 msg run adj (ix2 p q) = run (ix2 p q) + ∑ k : Fin 512, adj (ix2 k p) * msg (ix2 k q) := by
  unfold k5_pay4
  simp only [shapeCast_self]
  rw [addf_apply]
  exact congrArg (run (ix2 p q) + ·) (productCC_apply _ _ p q)

/-- The reset gate at row `p`, column `q`: the logistic of the three partial sums plus the bias entry. -/
theorem reset_apply (aIn aOut x : Vec Ideal S512x512 .f32) (w0 w1 w2 : Vec Ideal S512x512 .bf16) (b : Vec Ideal S1x512 .f32)
    (p q : Fin 512) :
    k5_pay10 aIn aOut x w0 w1 w2 b (ix2 p q) =
      Ideal.logistic ((((∑ k : Fin 512, aIn (ix2 p k) * w0 (ix2 k q)) + ∑ k : Fin 512, aOut (ix2 p k) * w1 (ix2 k q))
        + ∑ k : Fin 512, x (ix2 p k) * w2 (ix2 k q)) + b (ix2 0 q)) := by
  unfold k5_pay10 k5_pay7 k5_pay8 k5_pay9 k5_pay6
  simp only [shapeCast_self]
  rw [logistic_apply, addf_apply, addf_apply, addf_apply, bias_apply, productRC_apply, productRC_apply, productRC_apply]
  rfl

/-- The update gate's pre-activation without its bias at row `p`, column `q`: the three partial sums. -/
theorem updatePre_apply (aIn aOut x : Vec Ideal S512x512 .f32) (w0 w1 w2 : Vec Ideal S512x512 .bf16) (p q : Fin 512) :
    k5_pay11 aIn aOut x w0 w1 w2 (ix2 p q) =
      ((∑ k : Fin 512, aIn (ix2 p k) * w0 (ix2 k q)) + ∑ k : Fin 512, aOut (ix2 p k) * w1 (ix2 k q))
        + ∑ k : Fin 512, x (ix2 p k) * w2 (ix2 k q) := by
  unfold k5_pay11 k5_pay7 k5_pay8 k5_pay9 k5_pay6
  simp only [shapeCast_self]
  rw [addf_apply, addf_apply, productRC_apply, productRC_apply, productRC_apply]
  rfl

/-- The new state at row `p`, column `q`: with `z` the logistic of the update gate's pre-activation plus its bias and
    `h` the hyperbolic tangent of the candidate's three partial sums (the third over the reset gate times the state)
    plus its bias, `(1 - z) * x + z * h`. -/
theorem newState_apply (x : Vec Ideal S512x512 .f32) (aIn aOut : FVec Ideal S512x512 .bf16) (r zpre : FVec Ideal S512x512 .f32)
    (bz : Vec Ideal S1x512 .f32) (w0 w1 w2 : Vec Ideal S512x512 .bf16) (bh : Vec Ideal S1x512 .f32) (p q : Fin 512) :
    k5_pay5 x aIn aOut r zpre bz w0 w1 w2 bh (ix2 p q) =
      (1 - Ideal.logistic (zpre (ix2 p q) + bz (ix2 0 q))) * x (ix2 p q)
        + Ideal.logistic (zpre (ix2 p q) + bz (ix2 0 q))
          * Ideal.tanh ((((∑ k : Fin 512, aIn (ix2 p k) * w0 (ix2 k q)) + ∑ k : Fin 512, aOut (ix2 p k) * w1 (ix2 k q))
              + ∑ k : Fin 512, (r (ix2 p k) * x (ix2 p k)) * w2 (ix2 k q)) + bh (ix2 0 q)) := by
  unfold k5_pay5
  simp only [shapeCast_self]
  rw [addf_apply, mulf_apply, mulf_apply, subf_apply, broadcast_apply, logistic_apply, addf_apply, bias_apply, tanh_apply,
    addf_apply, addf_apply, addf_apply, bias_apply, productRC_apply, productRC_apply, productRC_apply]
  simp only [truncf_apply, mulf_apply]
  rw [show (Scalar.ofBits (F := Ideal) .f32 0x3F800000#32 : EReal) = 1 from Ideal.ofBits_one_f32]

/-- The state block handed on unchanged (a reshape to the same shape). -/
theorem stateCast_apply (x : Vec Ideal S512x512 .f32) (i : S512x512.Idx) : k5_pay6 x i = x i := by
  unfold k5_pay6
  simp only [shapeCast_self]

/-- The incoming aggregate's block in the narrower float format is the block itself. -/
theorem fmt_in_apply (v : Vec Ideal S512x512 .f32) (i : S512x512.Idx) : k5_pay7 v i = v i := by
  unfold k5_pay7
  rfl

/-- The outgoing aggregate's block in the narrower float format is the block itself. -/
theorem fmt_out_apply (v : Vec Ideal S512x512 .f32) (i : S512x512.Idx) : k5_pay8 v i = v i := by
  unfold k5_pay8
  rfl

/-- The state block in the narrower float format is the block itself. -/
theorem fmt_state_apply (v : Vec Ideal S512x512 .f32) (i : S512x512.Idx) : k5_pay9 v i = v i := by
  unfold k5_pay9 k5_pay6
  simp only [shapeCast_self, truncf_apply]

/-! ## The new-state block as the network's convex update at the block's rows

  The loaded blocks are read as rows of whole arrays: `row p` is the array row that the block's row `p` holds. A gate's
  weight has 1536 columns, three blocks of 512; the body loads it transposed, so the loaded block `i` at `(k, q)` is the
  weight's entry at row `q` and column `k` of the column block `i`. -/

/-- The reset gate's block is the network's reset gate at the block's rows. -/
theorem reset_eq_gate (row : Fin 512 → Fin 4096) (aIn aOut x : Fin 4096 → Fin 512 → EReal)
    (Wr : Fin 512 → Fin 1536 → EReal) (br : Fin 512 → EReal)
    (sIn sOut xb : Vec Ideal S512x512 .f32) (r0 r1 r2 : Vec Ideal S512x512 .bf16) (vbr : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hr0 : ∀ k q : Fin 512, r0 (ix2 k q) = Wr q (part0 k))
    (hr1 : ∀ k q : Fin 512, r1 (ix2 k q) = Wr q (part1 k))
    (hr2 : ∀ k q : Fin 512, r2 (ix2 k q) = Wr q (part2 k))
    (hbr : ∀ q : Fin 512, vbr (ix2 0 q) = br q) (p q : Fin 512) :
    k5_pay10 sIn sOut xb r0 r1 r2 vbr (ix2 p q) = Ideal.logistic (gate aIn aOut x Wr br (row p) q) := by
  rw [reset_apply]
  simp only [gate, hIn, hOut, hx, hr0, hr1, hr2, hbr]

/-- The update gate's pre-activation block plus its bias row is the network's update-gate pre-activation at the
    block's rows. -/
theorem updatePre_eq_gate (row : Fin 512 → Fin 4096) (aIn aOut x : Fin 4096 → Fin 512 → EReal)
    (Wz : Fin 512 → Fin 1536 → EReal) (bz : Fin 512 → EReal)
    (sIn sOut xb : Vec Ideal S512x512 .f32) (z0 z1 z2 : Vec Ideal S512x512 .bf16) (vbz : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hz0 : ∀ k q : Fin 512, z0 (ix2 k q) = Wz q (part0 k))
    (hz1 : ∀ k q : Fin 512, z1 (ix2 k q) = Wz q (part1 k))
    (hz2 : ∀ k q : Fin 512, z2 (ix2 k q) = Wz q (part2 k))
    (hbz : ∀ q : Fin 512, vbz (ix2 0 q) = bz q) (p q : Fin 512) :
    k5_pay11 sIn sOut xb z0 z1 z2 (ix2 p q) + vbz (ix2 0 q) = gate aIn aOut x Wz bz (row p) q := by
  rw [updatePre_apply]
  simp only [gate, hIn, hOut, hx, hz0, hz1, hz2, hbz]

/-- The new-state block, computed by the body from the finished aggregates' blocks `sIn`, `sOut`, the state block `xb`,
    the nine loaded weight blocks and the three bias rows, is at `(p, q)` the network's convex update
    `(1 - z) * x + z * h` at row `row p` and column `q`, with `r` and `z` the logistics of the reset and update gates and
    `h` the candidate. -/
theorem newState_eq_update (row : Fin 512 → Fin 4096) (aIn aOut x : Fin 4096 → Fin 512 → EReal)
    (Wr Wz Wh : Fin 512 → Fin 1536 → EReal) (br bz bh : Fin 512 → EReal)
    (sIn sOut xb : Vec Ideal S512x512 .f32)
    (r0 r1 r2 z0 z1 z2 h0 h1 h2 : Vec Ideal S512x512 .bf16) (vbr vbz vbh : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hr0 : ∀ k q : Fin 512, r0 (ix2 k q) = Wr q (part0 k))
    (hr1 : ∀ k q : Fin 512, r1 (ix2 k q) = Wr q (part1 k))
    (hr2 : ∀ k q : Fin 512, r2 (ix2 k q) = Wr q (part2 k))
    (hz0 : ∀ k q : Fin 512, z0 (ix2 k q) = Wz q (part0 k))
    (hz1 : ∀ k q : Fin 512, z1 (ix2 k q) = Wz q (part1 k))
    (hz2 : ∀ k q : Fin 512, z2 (ix2 k q) = Wz q (part2 k))
    (hh0 : ∀ k q : Fin 512, h0 (ix2 k q) = Wh q (part0 k))
    (hh1 : ∀ k q : Fin 512, h1 (ix2 k q) = Wh q (part1 k))
    (hh2 : ∀ k q : Fin 512, h2 (ix2 k q) = Wh q (part2 k))
    (hbr : ∀ q : Fin 512, vbr (ix2 0 q) = br q)
    (hbz : ∀ q : Fin 512, vbz (ix2 0 q) = bz q)
    (hbh : ∀ q : Fin 512, vbh (ix2 0 q) = bh q) (p q : Fin 512) :
    k5_pay5 (k5_pay6 xb) (k5_pay7 sIn) (k5_pay8 sOut) (k5_pay10 sIn sOut xb r0 r1 r2 vbr) (k5_pay11 sIn sOut xb z0 z1 z2)
        vbz h0 h1 h2 vbh (ix2 p q)
      = update (fun p q => Ideal.logistic (gate aIn aOut x Wz bz p q)) x
          (candidate aIn aOut (fun p q => Ideal.logistic (gate aIn aOut x Wr br p q)) x Wh bh) (row p) q := by
  rw [newState_apply, updatePre_eq_gate row aIn aOut x Wz bz sIn sOut xb z0 z1 z2 vbz hIn hOut hx hz0 hz1 hz2 hbz p q]
  have hr : ∀ k : Fin 512, k5_pay10 sIn sOut xb r0 r1 r2 vbr (ix2 p k) = Ideal.logistic (gate aIn aOut x Wr br (row p) k) :=
    fun k => reset_eq_gate row aIn aOut x Wr br sIn sOut xb r0 r1 r2 vbr hIn hOut hx hr0 hr1 hr2 hbr p k
  have hi : ∀ k : Fin 512, k5_pay7 sIn (ix2 p k) = aIn (row p) k := fun k => hIn p k
  have ho : ∀ k : Fin 512, k5_pay8 sOut (ix2 p k) = aOut (row p) k := fun k => hOut p k
  have hc : ∀ k : Fin 512, k5_pay6 xb (ix2 p k) = x (row p) k := fun k => (stateCast_apply xb _).trans (hx p k)
  simp only [hr, hi, ho, hc, hh0, hh1, hh2, hbh]
  rfl

/-- The same with each gate's weight given as the transposed array the body loads from: 1536 rows, 512 columns, entry
    `(j, q)` the weight's entry at row `q` and column `j`; the three loaded blocks are its rows 0 to 511, 512 to 1023 and
    1024 to 1535. -/
theorem newState_eq_update_of_transposed (row : Fin 512 → Fin 4096) (aIn aOut x : Fin 4096 → Fin 512 → EReal)
    (Wr Wz Wh : Fin 512 → Fin 1536 → EReal) (br bz bh : Fin 512 → EReal)
    (Tr Tz Th : Vec Ideal S1536x512 .bf16)
    (sIn sOut xb : Vec Ideal S512x512 .f32)
    (r0 r1 r2 z0 z1 z2 h0 h1 h2 : Vec Ideal S512x512 .bf16) (vbr vbz vbh : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hTr : ∀ (j : Fin 1536) (q : Fin 512), Tr (ix2 j q) = Wr q j)
    (hTz : ∀ (j : Fin 1536) (q : Fin 512), Tz (ix2 j q) = Wz q j)
    (hTh : ∀ (j : Fin 1536) (q : Fin 512), Th (ix2 j q) = Wh q j)
    (hr0 : ∀ k q : Fin 512, r0 (ix2 k q) = Tr (ix2 (part0 k) q))
    (hr1 : ∀ k q : Fin 512, r1 (ix2 k q) = Tr (ix2 (part1 k) q))
    (hr2 : ∀ k q : Fin 512, r2 (ix2 k q) = Tr (ix2 (part2 k) q))
    (hz0 : ∀ k q : Fin 512, z0 (ix2 k q) = Tz (ix2 (part0 k) q))
    (hz1 : ∀ k q : Fin 512, z1 (ix2 k q) = Tz (ix2 (part1 k) q))
    (hz2 : ∀ k q : Fin 512, z2 (ix2 k q) = Tz (ix2 (part2 k) q))
    (hh0 : ∀ k q : Fin 512, h0 (ix2 k q) = Th (ix2 (part0 k) q))
    (hh1 : ∀ k q : Fin 512, h1 (ix2 k q) = Th (ix2 (part1 k) q))
    (hh2 : ∀ k q : Fin 512, h2 (ix2 k q) = Th (ix2 (part2 k) q))
    (hbr : ∀ q : Fin 512, vbr (ix2 0 q) = br q)
    (hbz : ∀ q : Fin 512, vbz (ix2 0 q) = bz q)
    (hbh : ∀ q : Fin 512, vbh (ix2 0 q) = bh q) (p q : Fin 512) :
    k5_pay5 (k5_pay6 xb) (k5_pay7 sIn) (k5_pay8 sOut) (k5_pay10 sIn sOut xb r0 r1 r2 vbr) (k5_pay11 sIn sOut xb z0 z1 z2)
        vbz h0 h1 h2 vbh (ix2 p q)
      = update (fun p q => Ideal.logistic (gate aIn aOut x Wz bz p q)) x
          (candidate aIn aOut (fun p q => Ideal.logistic (gate aIn aOut x Wr br p q)) x Wh bh) (row p) q :=
  newState_eq_update row aIn aOut x Wr Wz Wh br bz bh sIn sOut xb r0 r1 r2 z0 z1 z2 h0 h1 h2 vbr vbz vbh hIn hOut hx
    (fun k q => (hr0 k q).trans (hTr _ _)) (fun k q => (hr1 k q).trans (hTr _ _)) (fun k q => (hr2 k q).trans (hTr _ _))
    (fun k q => (hz0 k q).trans (hTz _ _)) (fun k q => (hz1 k q).trans (hTz _ _)) (fun k q => (hz2 k q).trans (hTz _ _))
    (fun k q => (hh0 k q).trans (hTh _ _)) (fun k q => (hh1 k q).trans (hTh _ _)) (fun k q => (hh2 k q).trans (hTh _ _))
    hbr hbz hbh p q

end Cert.KernelIdeal.GatedPayload5

end
-- ==== Proof.IdealGatedValue5.lean ====
/-
  The value of the new-state array of region 5, read over the extended reals.

  The grid is 8 x 8: point t = 8 m + k handles the block of 512 nodes m against the block of 512 neighbours k. Over the
  eight points of a node block two running sums are kept: the first receives, at neighbour block k, the 512 x 512
  adjacency block (m, k) times rows 512 k … 512 k + 511 of the incoming messages; the second the adjacency block (k, m),
  read transposed, times the same rows of the outgoing messages. Both start from zero at k = 0, so after k = 7 entry
  (p, q) of the first is zero plus the eight blocks' sums added in order, which — addition of extended reals being
  associative — is the one sum over all 4096 neighbours of  A (512 m + p, j) * s_in (j, q);  likewise the second with
  A (j, 512 m + p) and s_out. At k = 7 the body forms the two gates and the candidate from the finished sums, the node
  block's own state, the three gate weights (each the transposed matrix, read in three blocks of 512 rows) and the bias
  rows, and stores the convex update; only that point writes the result block back. The eight written blocks tile the
  result array (row r lies in the block written at point 8 (r / 512) + 7). Hence the array after the region is one
  propagation step computed from the given message arrays, and the input arrays are as the region finds them.
-/
import proofs.«121501_j55087250538634_2_alg».proof.Proof.IdealGated5
import proofs.«121501_j55087250538634_2_alg».proof.Proof.IdealGatedPieces5
import proofs.«121501_j55087250538634_2_alg».proof.Proof.IdealGatedPayload5
import proofs.«121501_j55087250538634_2_alg».proof.Proof.GgnnMath
import proofs.«121501_j55087250538634_2_alg».proof.Proof.LibBlockSum
import Idealize.ShloMosaic.Lib.Pipeline.Value
import Idealize.ShloMosaic.Lib.ValueIdx

set_option maxRecDepth 16384

noncomputable section

open scoped BigOperators

namespace Cert.KernelIdeal.GatedValue5

open Cert.KernelIdeal Cert.KernelIdeal.Gen Cert.KernelIdeal.Gated5 Cert.KernelIdeal.GatedPieces5 Cert.KernelIdeal.GatedPayload5
open Idealize.ShloMosaic Idealize.ShloMosaic.TcCoe Idealize.SL.Sem
open Idealize.ShloMosaic.ValueIdx
open Idealize.ShloMosaic.Pipeline (Dat)
open Cert.GgnnMath (part0 part1 part2)

/-! ## The specification: one propagation step from given messages -/

/-- One propagation step with the two edge-message matrices given: the aggregations, the two gates, the candidate and
    the convex update. -/
def stepFrom (Af : Fin 4096 → Fin 4096 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal)
    (sIn sOut x : Fin 4096 → Fin 512 → EReal) : Fin 4096 → Fin 512 → EReal :=
  let aIn := Cert.GgnnMath.aggIn Af sIn
  let aOut := Cert.GgnnMath.aggOut Af sOut
  let r : Fin 4096 → Fin 512 → EReal := fun p q => Ideal.logistic (Cert.GgnnMath.gate aIn aOut x Wr br p q)
  let z : Fin 4096 → Fin 512 → EReal := fun p q => Ideal.logistic (Cert.GgnnMath.gate aIn aOut x Wz bz p q)
  Cert.GgnnMath.update z x (Cert.GgnnMath.candidate aIn aOut r x Wh bh)

/-- A whole step is the step from its own two linear layers. -/
theorem step_eq_stepFrom (Af : Fin 4096 → Fin 4096 → EReal)
    (Win : Fin 512 → Fin 512 → EReal) (bin : Fin 512 → EReal) (Wout : Fin 512 → Fin 512 → EReal) (bout : Fin 512 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal) (x : Fin 4096 → Fin 512 → EReal) :
    Cert.GgnnMath.step Af Win bin Wout bout Wr br Wz bz Wh bh x
      = stepFrom Af Wr br Wz bz Wh bh (Cert.GgnnMath.affine x Win bin) (Cert.GgnnMath.affine x Wout bout) x := rfl

/-- The new-state array of the adjacency array `A`, the message arrays `SI`, `SO`, the state array `X`, the three
    transposed gate weights and the three bias rows. -/
def newState (A : S4096x4096.Idx → EReal) (SI SO X : S4096x512.Idx → EReal)
    (WrT : S1536x512.Idx → EReal) (Br : S1x512.Idx → EReal) (WzT : S1536x512.Idx → EReal) (Bz : S1x512.Idx → EReal)
    (WhT : S1536x512.Idx → EReal) (Bh : S1x512.Idx → EReal) : S4096x512.Idx → EReal :=
  fun i => stepFrom (fun p k => A (ix2 p k)) (fun q j => WrT (ix2 j q)) (fun q => Br (ix2 0 q))
    (fun q j => WzT (ix2 j q)) (fun q => Bz (ix2 0 q)) (fun q j => WhT (ix2 j q)) (fun q => Bh (ix2 0 q))
    (fun p k => SI (ix2 p k)) (fun p k => SO (ix2 p k)) (fun p k => X (ix2 p k)) (i 0) (i 1)

/-! ## Array entries by natural-number coordinates -/

/-- Entry (r, k) of the adjacency array by natural-number coordinates (zero outside the array, never consulted). -/
def entryA (A : S4096x4096.Idx → EReal) (r k : ℕ) : EReal :=
  if h : r < 4096 ∧ k < 4096 then A (ix2 ⟨r, h.1⟩ ⟨k, h.2⟩) else 0

/-- Entry (k, q) of a message array by a natural-number row. -/
def entryS (S : S4096x512.Idx → EReal) (k : ℕ) (q : Fin 512) : EReal :=
  if h : k < 4096 then S (ix2 ⟨k, h⟩ q) else 0

theorem entryA_eq (A : S4096x4096.Idx → EReal) (r k : Fin 4096) : entryA A r.val k.val = A (ix2 r k) := by
  unfold entryA; rw [dif_pos ⟨r.isLt, k.isLt⟩]

theorem entryS_eq (S : S4096x512.Idx → EReal) (k : Fin 4096) (q : Fin 512) : entryS S k.val q = S (ix2 k q) := by
  unfold entryS; rw [dif_pos k.isLt]

/-! ## One neighbour block's contribution, and the eight of them -/

/-- What neighbour block `kb` adds to the incoming sum of node `512 mb + p` at feature `q`. -/
def termIn (A : S4096x4096.Idx → EReal) (SI : S4096x512.Idx → EReal) (mb : ℕ) (p q : Fin 512) (kb : ℕ) : EReal :=
  ∑ j : Fin 512, entryA A (512 * mb + p.val) (512 * kb + j.val) * entryS SI (512 * kb + j.val) q

/-- What neighbour block `kb` adds to the outgoing sum: the adjacency entry is read transposed. -/
def termOut (A : S4096x4096.Idx → EReal) (SO : S4096x512.Idx → EReal) (mb : ℕ) (p q : Fin 512) (kb : ℕ) : EReal :=
  ∑ j : Fin 512, entryA A (512 * kb + j.val) (512 * mb + p.val) * entryS SO (512 * kb + j.val) q

/-- The eight neighbour blocks' contributions, added in order onto zero, are the aggregation over all 4096 neighbours. -/
theorem total_in (A : S4096x4096.Idx → EReal) (SI : S4096x512.Idx → EReal) (mb : ℕ) (hmb : mb < 8) (p q : Fin 512) :
    0 + ∑ kb ∈ Finset.range 8, termIn A SI mb p q kb
      = Cert.GgnnMath.aggIn (fun r k => A (ix2 r k)) (fun k q => SI (ix2 k q)) ⟨512 * mb + p.val, by omega⟩ q := by
  rw [zero_add, Finset.sum_range]
  unfold Cert.GgnnMath.aggIn
  refine Eq.symm ((BlockSum.sum_by_blocks (M := EReal) 8 512
    (fun k => A (ix2 (⟨512 * mb + p.val, by omega⟩ : Fin 4096) k) * SI (ix2 k q))).trans ?_)
  refine Finset.sum_congr rfl fun i _ => Finset.sum_congr rfl fun j _ => ?_
  have hv : (finProdFinEquiv (i, j) : Fin (8 * 512)).val = 512 * i.val + j.val := by
    rw [BlockSum.block_entry_val]; omega
  show A (ix2 (⟨512 * mb + p.val, by omega⟩ : Fin 4096) (finProdFinEquiv (i, j))) * SI (ix2 (finProdFinEquiv (i, j)) q) = _
  rw [← entryA_eq A ⟨512 * mb + p.val, by omega⟩ (finProdFinEquiv (i, j)), ← entryS_eq SI (finProdFinEquiv (i, j)) q, hv]

theorem total_out (A : S4096x4096.Idx → EReal) (SO : S4096x512.Idx → EReal) (mb : ℕ) (hmb : mb < 8) (p q : Fin 512) :
    0 + ∑ kb ∈ Finset.range 8, termOut A SO mb p q kb
      = Cert.GgnnMath.aggOut (fun r k => A (ix2 r k)) (fun k q => SO (ix2 k q)) ⟨512 * mb + p.val, by omega⟩ q := by
  rw [zero_add, Finset.sum_range]
  unfold Cert.GgnnMath.aggOut
  refine Eq.symm ((BlockSum.sum_by_blocks (M := EReal) 8 512
    (fun k => A (ix2 k (⟨512 * mb + p.val, by omega⟩ : Fin 4096)) * SO (ix2 k q))).trans ?_)
  refine Finset.sum_congr rfl fun i _ => Finset.sum_congr rfl fun j _ => ?_
  have hv : (finProdFinEquiv (i, j) : Fin (8 * 512)).val = 512 * i.val + j.val := by
    rw [BlockSum.block_entry_val]; omega
  show A (ix2 (finProdFinEquiv (i, j)) (⟨512 * mb + p.val, by omega⟩ : Fin 4096)) * SO (ix2 (finProdFinEquiv (i, j)) q) = _
  rw [← entryA_eq A (finProdFinEquiv (i, j)) ⟨512 * mb + p.val, by omega⟩, ← entryS_eq SO (finProdFinEquiv (i, j)) q, hv]

/-- A running sum that starts at zero plus the first term and adds one term per step. -/
theorem grow (g : ℕ → EReal) (k : ℕ) (s : EReal) (hs : s = 0 + ∑ kb ∈ Finset.range k, g kb) :
    s + g k = 0 + ∑ kb ∈ Finset.range (k + 1), g kb := by
  rw [hs, Finset.sum_range_succ, add_assoc]

variable (V : (c : Dev nD) → (b : Ref sig .tc) → Buf (Elt Ideal) ((c : Thread nD τ).loc b))

/-! ## The index maps over the grid -/

/-- The printed index maps at point `t = 8 m + k`: the adjacency window at block (m, k), its mirror at (k, m), the
    node-state and result windows at block row m, every other window at block (0, 0); the rows the body loads of the
    message arrays start at `512 k`. -/
theorem index_facts : ∀ t : Fin cfg5.N,
    win5_0.index t (0 : Fin 2) = t.val / 8 ∧ win5_0.index t (1 : Fin 2) = t.val % 8
    ∧ win5_1.index t (0 : Fin 2) = t.val % 8 ∧ win5_1.index t (1 : Fin 2) = t.val / 8
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val / 8 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0
    ∧ win5_10.index t (0 : Fin 2) = 0 ∧ win5_10.index t (1 : Fin 2) = 0
    ∧ win5_11.index t (0 : Fin 2) = t.val / 8 ∧ win5_11.index t (1 : Fin 2) = 0
    ∧ k5_off1 (grid5.coords t) (0 : Fin 2) = 512 * (t.val % 8) ∧ k5_off1 (grid5.coords t) (1 : Fin 2) = 0 :=
  (by decide +kernel : ∀ t : Fin grid5.N, _)

/-! ## The blocks as parts of their arrays -/

/-- The adjacency block at point `t = 8 m + k` is rows `512 m …`, columns `512 k …` of the adjacency array. -/
theorem blk0_apply (c : Dev nD) (t : Fin cfg5.N) (y : S512x512.Idx) (i : S4096x4096.Idx)
    (h0 : (i 0).val = 512 * (t.val / 8) + (y 0).val) (h1 : (i 1).val = 512 * (t.val % 8) + (y 1).val) :
    blk V c 0 t y = (V c (Pipeline.arrRef spec5 0) : S4096x4096.Idx → EReal) i := by
  obtain ⟨e0, e1, -⟩ := index_facts t
  unfold blk
  show V c (Pipeline.arrRef spec5 0) (((cfg5.win 0).blk t).view.emb y) = _
  refine congrArg _ (funext fun a => Fin.ext ?_)
  match a with
  | ⟨0, _⟩ => show win5_0.index t (0 : Fin 2) * 512 + 1 * (y 0).val = (i 0).val; omega
  | ⟨1, _⟩ => show win5_0.index t (1 : Fin 2) * 512 + 1 * (y 1).val = (i 1).val; omega

/-- The mirrored adjacency block is rows `512 k …`, columns `512 m …` of the same array. -/
theorem blk1_apply (c : Dev nD) (t : Fin cfg5.N) (y : S512x512.Idx) (i : S4096x4096.Idx)
    (h0 : (i 0).val = 512 * (t.val % 8) + (y 0).val) (h1 : (i 1).val = 512 * (t.val / 8) + (y 1).val) :
    blk V c 1 t y = (V c (Pipeline.arrRef spec5 0) : S4096x4096.Idx → EReal) i := by
  obtain ⟨-, -, e0, e1, -⟩ := index_facts t
  unfold blk
  show V c (Pipeline.arrRef spec5 1) (((cfg5.win 1).blk t).view.emb y) = _
  refine congrArg _ (funext fun a => Fin.ext ?_)
  match a with
  | ⟨0, _⟩ => show win5_1.index t (0 : Fin 2) * 512 + 1 * (y 0).val = (i 0).val; omega
  | ⟨1, _⟩ => show win5_1.index t (1 : Fin 2) * 512 + 1 * (y 1).val = (i 1).val; omega

/-- The incoming-message window's block is the whole array at every point. -/
theorem blk2_apply (c : Dev nD) (t : Fin cfg5.N) (y : S4096x512.Idx) (i : S4096x512.Idx)
    (h0 : (i 0).val =  (y 0).val) (h1 : (i 1).val =  (y 1).val) :
    blk V c 2 t y = (V c (Pipeline.arrRef spec5 2) : S4096x512.Idx → EReal) i := by
  obtain ⟨-, -, -, -, e0, e1, -⟩ := index_facts t
  unfold blk
  show V c (Pipeline.arrRef spec5 2) (((cfg5.win 2).blk t).view.emb y) = _
  refine congrArg _ (funext fun a => Fin.ext ?_)
  match a with
  | ⟨0, _⟩ => show win5_2.index t (0 : Fin 2) * 4096 + 1 * (y 0).val = (i 0).val; omega
  | ⟨1, _⟩ => show win5_2.index t (1 : Fin 2) * 512 + 1 * (y 1).val = (i 1).val; omega

/-- The outgoing-message window's block is the whole array at every point. -/
theorem blk3_apply (c : Dev nD) (t : Fin cfg5.N) (y : S4096x512.Idx) (i : S4096x512.Idx)
    (h0 : (i 0).val =  (y 0).val) (h1 : (i 1).val =  (y 1).val) :
    blk V c 3 t y = (V c (Pipeline.arrRef spec5 3) : S4096x512.Idx → EReal) i := by
  obtain ⟨-, -, -, -, -, -, e0, e1, -⟩ := index_facts t
  unfold blk
  show V c (Pipeline.arrRef spec5 3) (((cfg5.win 3).blk t).view.emb y) = _
  refine congrArg _ (funext fun a => Fin.ext ?_)
  match a with
  | ⟨0, _⟩ => show win5_3.index t (0 : Fin 2) * 4096 + 1 * (y 0).val = (i 0).val; omega
  | ⟨1, _⟩ => show win5_3.index t (1 : Fin 2) * 512 + 1 * (y 1).val = (i 1).val; omega

/-- The node block's state is rows `512 m …` of the state array. -/
theorem blk4_apply (c : Dev nD) (t : Fin cfg5.N) (y : S512x512.Idx) (i : S4096x512.Idx)
    (h0 : (i 0).val = 512 * (t.val / 8) + (y 0).val) (h1 : (i 1).val =  (y 1).val) :
    blk V c 4 t y = (V c (Pipeline.arrRef spec5 4) : S4096x512.Idx → EReal) i := by
  obtain ⟨-, -, -, -, -, -, -, -, e0, e1, -⟩ := index_facts t
  unfold blk
  show V c (Pipeline.arrRef spec5 4) (((cfg5.win 4).blk t).view.emb y) = _
  refine congrArg _ (funext fun a => Fin.ext ?_)
  match a with
  | ⟨0, _⟩ => show win5_4.index t (0 : Fin 2) * 512 + 1 * (y 0).val = (i 0).val; omega
  | ⟨1, _⟩ => show win5_4.index t (1 : Fin 2) * 512 + 1 * (y 1).val = (i 1).val; omega

/-- The reset gate's weight window is the whole array at every point. -/
theorem blk5_apply (c : Dev nD) (t : Fin cfg5.N) (y : S1536x512.Idx) (i : S1536x512.Idx)
    (h0 : (i 0).val =  (y 0).val) (h1 : (i 1).val =  (y 1).val) :
    blk V c 5 t y = (V c (Pipeline.arrRef spec5 5) : S1536x512.Idx → EReal) i := by
  obtain ⟨-, -, -, -, -, -, -, -, -, -, e0, e1, -⟩ := index_facts t
  unfold blk
  show V c (Pipeline.arrRef spec5 5) (((cfg5.win 5).blk t).view.emb y) = _
  refine congrArg _ (funext fun a => Fin.ext ?_)
  match a with
  | ⟨0, _⟩ => show win5_5.index t (0 : Fin 2) * 1536 + 1 * (y 0).val = (i 0).val; omega
  | ⟨1, _⟩ => show win5_5.index t (1 : Fin 2) * 512 + 1 * (y 1).val = (i 1).val; omega

/-- The reset gate's bias row likewise. -/
theorem blk6_apply (c : Dev nD) (t : Fin cfg5.N) (y : S1x512.Idx) (i : S1x512.Idx)
    (h0 : (i 0).val =  (y 0).val) (h1 : (i 1).val =  (y 1).val) :
    blk V c 6 t y = (V c (Pipeline.arrRef spec5 6) : S1x512.Idx → EReal) i := by
  obtain ⟨-, -, -, -, -, -, -, -, -, -, -, -, e0, e1, -⟩ := index_facts t
  unfold blk
  show V c (Pipeline.arrRef spec5 6) (((cfg5.win 6).blk t).view.emb y) = _
  refine congrArg _ (funext fun a => Fin.ext ?_)
  match a with
  | ⟨0, _⟩ => show win5_6.index t (0 : Fin 2) * 1 + 1 * (y 0).val = (i 0).val; omega
  | ⟨1, _⟩ => show win5_6.index t (1 : Fin 2) * 512 + 1 * (y 1).val = (i 1).val; omega

/-- The update gate's weight likewise. -/
theorem blk7_apply (c : Dev nD) (t : Fin cfg5.N) (y : S1536x512.Idx) (i : S1536x512.Idx)
    (h0 : (i 0).val =  (y 0).val) (h1 : (i 1).val =  (y 1).val) :
    blk V c 7 t y = (V c (Pipeline.arrRef spec5 7) : S1536x512.Idx → EReal) i := by
  obtain ⟨-, -, -, -, -, -, -, -, -, -, -, -, -, -, e0, e1, -⟩ := index_facts t
  unfold blk
  show V c (Pipeline.arrRef spec5 7) (((cfg5.win 7).blk t).view.emb y) = _
  refine congrArg _ (funext fun a => Fin.ext ?_)
  match a with
  | ⟨0, _⟩ => show win5_7.index t (0 : Fin 2) * 1536 + 1 * (y 0).val = (i 0).val; omega
  | ⟨1, _⟩ => show win5_7.index t (1 : Fin 2) * 512 + 1 * (y 1).val = (i 1).val; omega

/-- The update gate's bias row likewise. -/
theorem blk8_apply (c : Dev nD) (t : Fin cfg5.N) (y : S1x512.Idx) (i : S1x512.Idx)
    (h0 : (i 0).val =  (y 0).val) (h1 : (i 1).val =  (y 1).val) :
    blk V c 8 t y = (V c (Pipeline.arrRef spec5 8) : S1x512.Idx → EReal) i := by
  obtain ⟨-, -, -, -, -, -, -, -, -, -, -, -, -, -, -, -, e0, e1, -⟩ := index_facts t
  unfold blk
  show V c (Pipeline.arrRef spec5 8) (((cfg5.win 8).blk t).view.emb y) = _
  refine congrArg _ (funext fun a => Fin.ext ?_)
  match a with
  | ⟨0, _⟩ => show win5_8.index t (0 : Fin 2) * 1 + 1 * (y 0).val = (i 0).val; omega
  | ⟨1, _⟩ => show win5_8.index t (1 : Fin 2) * 512 + 1 * (y 1).val = (i 1).val; omega

/-- The candidate's weight likewise. -/
theorem blk9_apply (c : Dev nD) (t : Fin cfg5.N) (y : S1536x512.Idx) (i : S1536x512.Idx)
    (h0 : (i 0).val =  (y 0).val) (h1 : (i 1).val =  (y 1).val) :
    blk V c 9 t y = (V c (Pipeline.arrRef spec5 9) : S1536x512.Idx → EReal) i := by
  obtain ⟨-, -, -, -, -, -, -, -, -, -, -, -, -, -, -, -, -, -, e0, e1, -⟩ := index_facts t
  unfold blk
  show V c (Pipeline.arrRef spec5 9) (((cfg5.win 9).blk t).view.emb y) = _
  refine congrArg _ (funext fun a => Fin.ext ?_)
  match a with
  | ⟨0, _⟩ => show win5_9.index t (0 : Fin 2) * 1536 + 1 * (y 0).val = (i 0).val; omega
  | ⟨1, _⟩ => show win5_9.index t (1 : Fin 2) * 512 + 1 * (y 1).val = (i 1).val; omega

/-- The candidate's bias row likewise. -/
theorem blk10_apply (c : Dev nD) (t : Fin cfg5.N) (y : S1x512.Idx) (i : S1x512.Idx)
    (h0 : (i 0).val =  (y 0).val) (h1 : (i 1).val =  (y 1).val) :
    blk V c 10 t y = (V c (Pipeline.arrRef spec5 10) : S1x512.Idx → EReal) i := by
  obtain ⟨-, -, -, -, -, -, -, -, -, -, -, -, -, -, -, -, -, -, -, -, e0, e1, -⟩ := index_facts t
  unfold blk
  show V c (Pipeline.arrRef spec5 10) (((cfg5.win 10).blk t).view.emb y) = _
  refine congrArg _ (funext fun a => Fin.ext ?_)
  match a with
  | ⟨0, _⟩ => show win5_10.index t (0 : Fin 2) * 1 + 1 * (y 0).val = (i 0).val; omega
  | ⟨1, _⟩ => show win5_10.index t (1 : Fin 2) * 512 + 1 * (y 1).val = (i 1).val; omega

/-! ## The rows the body loads out of whole blocks -/

/-- The neighbour block's rows of a whole message block: row `k` of what is loaded is row `512 kb + k`. -/
theorem nbrRows_apply (t : Fin cfg5.N) (x : Vec Ideal S4096x512 .bf16) (k q : Fin 512) (i : S4096x512.Idx)
    (h0 : (i 0).val = 512 * (t.val % 8) + k.val) (h1 : (i 1).val = q.val) :
    nbrRows (grid5.coords t) x (ix2 k q) = x i := by
  obtain ⟨-, -, -, -, -, -, -, -, -, -, -, -, -, -, -, -, -, -, -, -, -, -, -, -, e0, e1⟩ := index_facts t
  show x ((Rect.unit (s := S4096x512) (k5_off1 (grid5.coords t)) S512x512.size (k5_off1_inb (grid5.coords t))).emb (ix2 k q)) = x i
  refine congrArg x (funext fun a => Fin.ext ?_)
  match a with
  | ⟨0, _⟩ => show k5_off1 (grid5.coords t) (0 : Fin 2) + 1 * k.val = (i 0).val; omega
  | ⟨1, _⟩ => show k5_off1 (grid5.coords t) (1 : Fin 2) + 1 * q.val = (i 1).val; omega

/-- The three row blocks of a gate weight: row `k` of each is row `k`, `512 + k`, `1024 + k` of the weight. -/
theorem rowsA_apply (x : Vec Ideal S1536x512 .bf16) (k q : Fin 512) : rowsA x (ix2 k q) = x (ix2 (part0 k) q) := by
  show x ((Rect.unit (s := S1536x512) ![0, 0] S512x512.size inb_S1536x512_S512x512_0_0).emb (ix2 k q)) = _
  refine congrArg x (funext fun a => Fin.ext ?_)
  match a with
  | ⟨0, _⟩ => show 0 + 1 * k.val = k.val; omega
  | ⟨1, _⟩ => show 0 + 1 * q.val = q.val; omega
theorem rowsB_apply (x : Vec Ideal S1536x512 .bf16) (k q : Fin 512) : rowsB x (ix2 k q) = x (ix2 (part1 k) q) := by
  show x ((Rect.unit (s := S1536x512) ![512, 0] S512x512.size inb_S1536x512_S512x512_512_0).emb (ix2 k q)) = _
  refine congrArg x (funext fun a => Fin.ext ?_)
  match a with
  | ⟨0, _⟩ => show 512 + 1 * k.val = 512 + k.val; omega
  | ⟨1, _⟩ => show 0 + 1 * q.val = q.val; omega
theorem rowsC_apply (x : Vec Ideal S1536x512 .bf16) (k q : Fin 512) : rowsC x (ix2 k q) = x (ix2 (part2 k) q) := by
  show x ((Rect.unit (s := S1536x512) ![1024, 0] S512x512.size inb_S1536x512_S512x512_1024_0).emb (ix2 k q)) = _
  refine congrArg x (funext fun a => Fin.ext ?_)
  match a with
  | ⟨0, _⟩ => show 1024 + 1 * k.val = 1024 + k.val; omega
  | ⟨1, _⟩ => show 0 + 1 * q.val = q.val; omega

/-! ## The arrays as the region finds them -/

abbrev arrA (c : Dev nD) : S4096x4096.Idx → EReal := V c (Pipeline.arrRef spec5 0)
abbrev arrSI (c : Dev nD) : S4096x512.Idx → EReal := V c (Pipeline.arrRef spec5 2)
abbrev arrSO (c : Dev nD) : S4096x512.Idx → EReal := V c (Pipeline.arrRef spec5 3)
abbrev arrX (c : Dev nD) : S4096x512.Idx → EReal := V c (Pipeline.arrRef spec5 4)
abbrev arrWr (c : Dev nD) : S1536x512.Idx → EReal := V c (Pipeline.arrRef spec5 5)
abbrev arrBr (c : Dev nD) : S1x512.Idx → EReal := V c (Pipeline.arrRef spec5 6)
abbrev arrWz (c : Dev nD) : S1536x512.Idx → EReal := V c (Pipeline.arrRef spec5 7)
abbrev arrBz (c : Dev nD) : S1x512.Idx → EReal := V c (Pipeline.arrRef spec5 8)
abbrev arrWh (c : Dev nD) : S1536x512.Idx → EReal := V c (Pipeline.arrRef spec5 9)
abbrev arrBh (c : Dev nD) : S1x512.Idx → EReal := V c (Pipeline.arrRef spec5 10)

/-! ## What each kind of point leaves, as payload terms of the blocks -/

theorem start_s0 (c : Dev nD) (t : Fin cfg5.N) (hs : atStart (grid5.coords t)) (hf : ¬atFinish (grid5.coords t)) :
    (startTriple V c t hs hf).2.1 = k5_pay3 (nbrRows (grid5.coords t) (blk V c 2 t)) (k5_pay1 (F := Ideal)) (blk V c 0 t) := by
  unfold startTriple
  dsimp only
  exact start_piece0 c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)
theorem start_s1 (c : Dev nD) (t : Fin cfg5.N) (hs : atStart (grid5.coords t)) (hf : ¬atFinish (grid5.coords t)) :
    (startTriple V c t hs hf).2.2 = k5_pay4 (nbrRows (grid5.coords t) (blk V c 3 t)) (k5_pay2 (F := Ideal)) (blk V c 1 t) := by
  unfold startTriple
  dsimp only
  exact start_piece1 c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)
theorem middle_s0 (c : Dev nD) (t : Fin cfg5.N) (hs : ¬atStart (grid5.coords t)) (hf : ¬atFinish (grid5.coords t))
    (s0 s1 : Vec Ideal S512x512 .f32) :
    (middleTriple V c t hs hf s0 s1).2.1 = k5_pay3 (nbrRows (grid5.coords t) (blk V c 2 t)) s0 (blk V c 0 t) := by
  unfold middleTriple
  dsimp only
  exact middle_piece0 c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem middle_s1 (c : Dev nD) (t : Fin cfg5.N) (hs : ¬atStart (grid5.coords t)) (hf : ¬atFinish (grid5.coords t))
    (s0 s1 : Vec Ideal S512x512 .f32) :
    (middleTriple V c t hs hf s0 s1).2.2 = k5_pay4 (nbrRows (grid5.coords t) (blk V c 3 t)) s1 (blk V c 1 t) := by
  unfold middleTriple
  dsimp only
  exact middle_piece1 c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_s0 (c : Dev nD) (t : Fin cfg5.N) (hs : ¬atStart (grid5.coords t)) (hf : atFinish (grid5.coords t))
    (s0 s1 : Vec Ideal S512x512 .f32) :
    (finishTriple V c t hs hf s0 s1).2.1 = k5_pay3 (nbrRows (grid5.coords t) (blk V c 2 t)) s0 (blk V c 0 t) := by
  unfold finishTriple
  dsimp only
  exact finish_piece0 c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_s1 (c : Dev nD) (t : Fin cfg5.N) (hs : ¬atStart (grid5.coords t)) (hf : atFinish (grid5.coords t))
    (s0 s1 : Vec Ideal S512x512 .f32) :
    (finishTriple V c t hs hf s0 s1).2.2 = k5_pay4 (nbrRows (grid5.coords t) (blk V c 3 t)) s1 (blk V c 1 t) := by
  unfold finishTriple
  dsimp only
  exact finish_piece1 c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_out (c : Dev nD) (t : Fin cfg5.N) (hs : ¬atStart (grid5.coords t)) (hf : atFinish (grid5.coords t))
    (s0 s1 : Vec Ideal S512x512 .f32) :
    (finishTriple V c t hs hf s0 s1).1
      = newBlock (k5_pay3 (nbrRows (grid5.coords t) (blk V c 2 t)) s0 (blk V c 0 t))
          (k5_pay4 (nbrRows (grid5.coords t) (blk V c 3 t)) s1 (blk V c 1 t))
          (blk V c 4 t) (blk V c 5 t) (blk V c 6 t) (blk V c 7 t) (blk V c 8 t) (blk V c 9 t) (blk V c 10 t) := by
  have hc := finish_coverO V c t hs hf s0 s1
  unfold finishTriple
  dsimp only
  exact ((View.read_writes_eq_canon vOut vOut.junk _ hc).trans
    (View.read_writes_eq_canon (mw11 t).view (mw11 t).view.junk _ hc).symm).trans
    (finish_pieceO c (grid5.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1)

/-! ## One point's two products -/

/-- The two adjacency blocks and the two whole message blocks of a point, at their literal vector types. -/
abbrev bAdj (c : Dev nD) (t : Fin cfg5.N) : Vec Ideal S512x512 .bf16 := blk V c 0 t
abbrev bAdjM (c : Dev nD) (t : Fin cfg5.N) : Vec Ideal S512x512 .bf16 := blk V c 1 t
abbrev bSI (c : Dev nD) (t : Fin cfg5.N) : Vec Ideal S4096x512 .bf16 := blk V c 2 t
abbrev bSO (c : Dev nD) (t : Fin cfg5.N) : Vec Ideal S4096x512 .bf16 := blk V c 3 t

theorem grid_size : cfg5.N = 64 := N_5

/-- The adjacency block (m, k) against the neighbour block's incoming messages is neighbour block k's contribution. -/
theorem point_in (c : Dev nD) (n : ℕ) (hn : n < cfg5.N) (p q : Fin 512) :
    ∑ k : Fin 512, bAdj V c ⟨n, hn⟩ (ix2 p k) * nbrRows (grid5.coords ⟨n, hn⟩) (bSI V c ⟨n, hn⟩) (ix2 k q)
      = termIn (arrA V c) (arrSI V c) (n / 8) p q (n % 8) := by
  have hn' : n < 64 := by have h := hn; rwa [grid_size] at h
  unfold termIn
  refine Finset.sum_congr rfl fun k _ => congrArg₂ (· * ·) ?_ ?_
  · exact (blk0_apply V c ⟨n, hn⟩ (ix2 p k) (ix2 ⟨512 * (n / 8) + p.val, by omega⟩ ⟨512 * (n % 8) + k.val, by omega⟩) rfl rfl).trans
      (entryA_eq (arrA V c) ⟨512 * (n / 8) + p.val, by omega⟩ ⟨512 * (n % 8) + k.val, by omega⟩).symm
  · exact ((nbrRows_apply ⟨n, hn⟩ (blk V c 2 ⟨n, hn⟩) k q (ix2 ⟨512 * (n % 8) + k.val, by omega⟩ q) rfl rfl).trans
      (blk2_apply V c ⟨n, hn⟩ (ix2 ⟨512 * (n % 8) + k.val, by omega⟩ q) (ix2 ⟨512 * (n % 8) + k.val, by omega⟩ q) rfl rfl)).trans
      (entryS_eq (arrSI V c) ⟨512 * (n % 8) + k.val, by omega⟩ q).symm

/-- The mirrored adjacency block (k, m), read transposed, against the outgoing messages likewise. -/
theorem point_out (c : Dev nD) (n : ℕ) (hn : n < cfg5.N) (p q : Fin 512) :
    ∑ k : Fin 512, bAdjM V c ⟨n, hn⟩ (ix2 k p) * nbrRows (grid5.coords ⟨n, hn⟩) (bSO V c ⟨n, hn⟩) (ix2 k q)
      = termOut (arrA V c) (arrSO V c) (n / 8) p q (n % 8) := by
  have hn' : n < 64 := by have h := hn; rwa [grid_size] at h
  unfold termOut
  refine Finset.sum_congr rfl fun k _ => congrArg₂ (· * ·) ?_ ?_
  · exact (blk1_apply V c ⟨n, hn⟩ (ix2 k p) (ix2 ⟨512 * (n % 8) + k.val, by omega⟩ ⟨512 * (n / 8) + p.val, by omega⟩) rfl rfl).trans
      (entryA_eq (arrA V c) ⟨512 * (n % 8) + k.val, by omega⟩ ⟨512 * (n / 8) + p.val, by omega⟩).symm
  · exact ((nbrRows_apply ⟨n, hn⟩ (blk V c 3 ⟨n, hn⟩) k q (ix2 ⟨512 * (n % 8) + k.val, by omega⟩ q) rfl rfl).trans
      (blk3_apply V c ⟨n, hn⟩ (ix2 ⟨512 * (n % 8) + k.val, by omega⟩ q) (ix2 ⟨512 * (n % 8) + k.val, by omega⟩ q) rfl rfl)).trans
      (entryS_eq (arrSO V c) ⟨512 * (n % 8) + k.val, by omega⟩ q).symm

/-- The first term onto zero. -/
theorem grow_first (g : ℕ → EReal) : 0 + g 0 = 0 + ∑ kb ∈ Finset.range (0 + 1), g kb := by
  rw [Finset.sum_range_succ, Finset.sum_range_zero, zero_add (g 0), zero_add (g 0)]

/-! ## The running sums after every point -/

/-- After point `n = 8 m + k` the first running sum holds zero plus the contributions of neighbour blocks 0 … k. -/
theorem sums_in (c : Dev nD) (n : ℕ) : ∀ (hn : n < cfg5.N) (p q : Fin 512),
    ((sums V c n hn).2.1 (ix2 p q) : EReal)
      = 0 + ∑ kb ∈ Finset.range (n % 8 + 1), termIn (arrA V c) (arrSI V c) (n / 8) p q kb := by
  induction n using Nat.strong_induction_on with
  | _ n ih =>
    intro hn p q
    by_cases h0 : n % 8 = 0
    · have h7 : ¬n % 8 = 7 := by omega
      have e1 : (sums V c n hn).2.1 = k5_pay3 (nbrRows (grid5.coords ⟨n, hn⟩) (blk V c 2 ⟨n, hn⟩)) (k5_pay1 (F := Ideal)) (blk V c 0 ⟨n, hn⟩) :=
        (congrArg (fun s => s.2.1) (sums_start V c ⟨n, hn⟩ h0 h7)).trans (start_s0 V c ⟨n, hn⟩ _ _)
      refine (congrFun e1 (ix2 p q)).trans ((acc_in_apply _ _ _ p q).trans ?_)
      refine (congrArg₂ (· + ·) (clear_in_apply p q) (point_in V c n hn p q)).trans ?_
      rw [h0]
      exact grow_first _
    · have hm : n - 1 < cfg5.N := by omega
      have ihm := ih (n - 1) (by omega) hm p q
      have hdiv : (n - 1) / 8 = n / 8 := by omega
      have hmod : (n - 1) % 8 + 1 = n % 8 := by omega
      rw [hdiv, hmod] at ihm
      have e1 : (sums V c n hn).2.1
          = k5_pay3 (nbrRows (grid5.coords ⟨n, hn⟩) (blk V c 2 ⟨n, hn⟩)) (sums V c (n - 1) hm).2.1 (blk V c 0 ⟨n, hn⟩) := by
        by_cases h7 : n % 8 = 7
        · exact (congrArg (fun s => s.2.1) (sums_finish V c ⟨n, hn⟩ h0 h7)).trans (finish_s0 V c ⟨n, hn⟩ _ _ _ _)
        · exact (congrArg (fun s => s.2.1) (sums_middle V c ⟨n, hn⟩ h0 h7)).trans (middle_s0 V c ⟨n, hn⟩ _ _ _ _)
      refine (congrFun e1 (ix2 p q)).trans ((acc_in_apply _ _ _ p q).trans ?_)
      refine (congrArg (_ + ·) (point_in V c n hn p q)).trans ?_
      exact grow _ (n % 8) _ ihm

/-- The second running sum likewise, with the transposed adjacency entries and the outgoing messages. -/
theorem sums_out (c : Dev nD) (n : ℕ) : ∀ (hn : n < cfg5.N) (p q : Fin 512),
    ((sums V c n hn).2.2 (ix2 p q) : EReal)
      = 0 + ∑ kb ∈ Finset.range (n % 8 + 1), termOut (arrA V c) (arrSO V c) (n / 8) p q kb := by
  induction n using Nat.strong_induction_on with
  | _ n ih =>
    intro hn p q
    by_cases h0 : n % 8 = 0
    · have h7 : ¬n % 8 = 7 := by omega
      have e1 : (sums V c n hn).2.2 = k5_pay4 (nbrRows (grid5.coords ⟨n, hn⟩) (blk V c 3 ⟨n, hn⟩)) (k5_pay2 (F := Ideal)) (blk V c 1 ⟨n, hn⟩) :=
        (congrArg (fun s => s.2.2) (sums_start V c ⟨n, hn⟩ h0 h7)).trans (start_s1 V c ⟨n, hn⟩ _ _)
      refine (congrFun e1 (ix2 p q)).trans ((acc_out_apply _ _ _ p q).trans ?_)
      refine (congrArg₂ (· + ·) (clear_out_apply p q) (point_out V c n hn p q)).trans ?_
      rw [h0]
      exact grow_first _
    · have hm : n - 1 < cfg5.N := by omega
      have ihm := ih (n - 1) (by omega) hm p q
      have hdiv : (n - 1) / 8 = n / 8 := by omega
      have hmod : (n - 1) % 8 + 1 = n % 8 := by omega
      rw [hdiv, hmod] at ihm
      have e1 : (sums V c n hn).2.2
          = k5_pay4 (nbrRows (grid5.coords ⟨n, hn⟩) (blk V c 3 ⟨n, hn⟩)) (sums V c (n - 1) hm).2.2 (blk V c 1 ⟨n, hn⟩) := by
        by_cases h7 : n % 8 = 7
        · exact (congrArg (fun s => s.2.2) (sums_finish V c ⟨n, hn⟩ h0 h7)).trans (finish_s1 V c ⟨n, hn⟩ _ _ _ _)
        · exact (congrArg (fun s => s.2.2) (sums_middle V c ⟨n, hn⟩ h0 h7)).trans (middle_s1 V c ⟨n, hn⟩ _ _ _ _)
      refine (congrFun e1 (ix2 p q)).trans ((acc_out_apply _ _ _ p q).trans ?_)
      refine (congrArg (_ + ·) (point_out V c n hn p q)).trans ?_
      exact grow _ (n % 8) _ ihm

/-! ## The result block at the last neighbour block -/

/-- At a point `n = 8 m + 7` the result block is the new state formed from the two sums that point leaves. -/
theorem out_of_sums (c : Dev nD) (n : ℕ) (hn : n < cfg5.N) (h7 : n % 8 = 7) :
    (sums V c n hn).1 = newBlock (sums V c n hn).2.1 (sums V c n hn).2.2 (blk V c 4 ⟨n, hn⟩) (blk V c 5 ⟨n, hn⟩) (blk V c 6 ⟨n, hn⟩) (blk V c 7 ⟨n, hn⟩) (blk V c 8 ⟨n, hn⟩) (blk V c 9 ⟨n, hn⟩) (blk V c 10 ⟨n, hn⟩) := by
  have h0 : ¬n % 8 = 0 := by omega
  have e := sums_finish V c ⟨n, hn⟩ h0 h7
  have eO := (congrArg (fun s => s.1) e).trans (finish_out V c ⟨n, hn⟩ _ _ _ _)
  have e0 := (congrArg (fun s => s.2.1) e).trans (finish_s0 V c ⟨n, hn⟩ _ _ _ _)
  have e1 := (congrArg (fun s => s.2.2) e).trans (finish_s1 V c ⟨n, hn⟩ _ _ _ _)
  exact eO.trans (by rw [e0, e1])

/-- Entry (p, q) of the result block at point `n = 8 m + 7` is entry (512 m + p, q) of one propagation step from the
    message arrays. -/
theorem block_value (c : Dev nD) (n : ℕ) (hn : n < cfg5.N) (h7 : n % 8 = 7) (p q : Fin 512) :
    ((sums V c n hn).1 (ix2 p q) : EReal)
      = stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))
          ⟨512 * (n / 8) + p.val, by have h := hn; rw [grid_size] at h; omega⟩ q := by
  have hn' : n < 64 := by have h := hn; rwa [grid_size] at h
  have hmb : n / 8 < 8 := by omega
  rw [out_of_sums V c n hn h7]
  unfold newBlock
  refine (newState_eq_update (fun p => (⟨512 * (n / 8) + p.val, by omega⟩ : Fin 4096))
    (Cert.GgnnMath.aggIn (fun p k => arrA V c (ix2 p k)) (fun p k => arrSI V c (ix2 p k)))
    (Cert.GgnnMath.aggOut (fun p k => arrA V c (ix2 p k)) (fun p k => arrSO V c (ix2 p k)))
    (fun p k => arrX V c (ix2 p k))
    (fun q j => arrWr V c (ix2 j q)) (fun q j => arrWz V c (ix2 j q)) (fun q j => arrWh V c (ix2 j q))
    (fun q => arrBr V c (ix2 0 q)) (fun q => arrBz V c (ix2 0 q)) (fun q => arrBh V c (ix2 0 q))
    (sums V c n hn).2.1 (sums V c n hn).2.2 (blk V c 4 ⟨n, hn⟩)
    (rowsA (blk V c 5 ⟨n, hn⟩)) (rowsB (blk V c 5 ⟨n, hn⟩)) (rowsC (blk V c 5 ⟨n, hn⟩))
    (rowsA (blk V c 7 ⟨n, hn⟩)) (rowsB (blk V c 7 ⟨n, hn⟩)) (rowsC (blk V c 7 ⟨n, hn⟩))
    (rowsA (blk V c 9 ⟨n, hn⟩)) (rowsB (blk V c 9 ⟨n, hn⟩)) (rowsC (blk V c 9 ⟨n, hn⟩))
    (blk V c 6 ⟨n, hn⟩) (blk V c 8 ⟨n, hn⟩) (blk V c 10 ⟨n, hn⟩)
    ?_ ?_ ?_ ?_ ?_ ?_ ?_ ?_ ?_ ?_ ?_ ?_ ?_ ?_ ?_ p q).trans rfl
  · intro p k
    refine (sums_in V c n hn p k).trans ?_
    rw [h7]
    exact total_in (arrA V c) (arrSI V c) (n / 8) hmb p k
  · intro p k
    refine (sums_out V c n hn p k).trans ?_
    rw [h7]
    exact total_out (arrA V c) (arrSO V c) (n / 8) hmb p k
  · intro p k
    exact blk4_apply V c ⟨n, hn⟩ (ix2 p k) (ix2 ⟨512 * (n / 8) + p.val, by omega⟩ k) rfl rfl
  · intro k q
    exact (rowsA_apply (blk V c 5 ⟨n, hn⟩) k q).trans (blk5_apply V c ⟨n, hn⟩ _ (ix2 (part0 k) q) rfl rfl)
  · intro k q
    exact (rowsB_apply (blk V c 5 ⟨n, hn⟩) k q).trans (blk5_apply V c ⟨n, hn⟩ _ (ix2 (part1 k) q) rfl rfl)
  · intro k q
    exact (rowsC_apply (blk V c 5 ⟨n, hn⟩) k q).trans (blk5_apply V c ⟨n, hn⟩ _ (ix2 (part2 k) q) rfl rfl)
  · intro k q
    exact (rowsA_apply (blk V c 7 ⟨n, hn⟩) k q).trans (blk7_apply V c ⟨n, hn⟩ _ (ix2 (part0 k) q) rfl rfl)
  · intro k q
    exact (rowsB_apply (blk V c 7 ⟨n, hn⟩) k q).trans (blk7_apply V c ⟨n, hn⟩ _ (ix2 (part1 k) q) rfl rfl)
  · intro k q
    exact (rowsC_apply (blk V c 7 ⟨n, hn⟩) k q).trans (blk7_apply V c ⟨n, hn⟩ _ (ix2 (part2 k) q) rfl rfl)
  · intro k q
    exact (rowsA_apply (blk V c 9 ⟨n, hn⟩) k q).trans (blk9_apply V c ⟨n, hn⟩ _ (ix2 (part0 k) q) rfl rfl)
  · intro k q
    exact (rowsB_apply (blk V c 9 ⟨n, hn⟩) k q).trans (blk9_apply V c ⟨n, hn⟩ _ (ix2 (part1 k) q) rfl rfl)
  · intro k q
    exact (rowsC_apply (blk V c 9 ⟨n, hn⟩) k q).trans (blk9_apply V c ⟨n, hn⟩ _ (ix2 (part2 k) q) rfl rfl)
  · intro q
    exact blk6_apply V c ⟨n, hn⟩ (ix2 0 q) (ix2 0 q) rfl rfl
  · intro q
    exact blk8_apply V c ⟨n, hn⟩ (ix2 0 q) (ix2 0 q) rfl rfl
  · intro q
    exact blk10_apply V c ⟨n, hn⟩ (ix2 0 q) (ix2 0 q) rfl rfl

/-! ## What the writing points write back, and the array after the region -/

/-- A point that writes the result block back — one at the last neighbour block — writes block m of the new-state array. -/
theorem flushed11_eq (c : Dev nD) (t : Fin cfg5.N) (hf : (cfg5.win 11).flush t = true) :
    (dat V c).flushed 11 t = ((cfg5.win 11).blk t).view.read (Elt Ideal)
      (newState (V c (Pipeline.arrRef spec5 0)) (V c (Pipeline.arrRef spec5 2)) (V c (Pipeline.arrRef spec5 3))
        (V c (Pipeline.arrRef spec5 4)) (V c (Pipeline.arrRef spec5 5)) (V c (Pipeline.arrRef spec5 6)) (V c (Pipeline.arrRef spec5 7))
        (V c (Pipeline.arrRef spec5 8)) (V c (Pipeline.arrRef spec5 9)) (V c (Pipeline.arrRef spec5 10))) := by
  have h7 : t.val % 8 = 7 := (flush5_11 t).mp hf
  have ht : t.val < 64 := Nat.lt_of_lt_of_eq t.isLt grid_size
  obtain ⟨-, -, -, -, -, -, -, -, -, -, -, -, -, -, -, -, -, -, -, -, -, -, e0, e1, -⟩ := index_facts t
  show (cfg5.win 11).cut (grid5.coords t) ((dat V c).after 11 t) = _
  rw [after11]
  funext j
  have hr : ((((cfg5.win 11).blk t).view.emb j) 0).val = win5_11.index t (0 : Fin 2) * 512 + 1 * (j 0).val := rfl
  have hq : ((((cfg5.win 11).blk t).view.emb j) 1).val = win5_11.index t (1 : Fin 2) * 512 + 1 * (j 1).val := rfl
  show (sums V c t.val t.isLt).1 j = newState (V c (Pipeline.arrRef spec5 0)) (V c (Pipeline.arrRef spec5 2)) (V c (Pipeline.arrRef spec5 3))
        (V c (Pipeline.arrRef spec5 4)) (V c (Pipeline.arrRef spec5 5)) (V c (Pipeline.arrRef spec5 6)) (V c (Pipeline.arrRef spec5 7))
        (V c (Pipeline.arrRef spec5 8)) (V c (Pipeline.arrRef spec5 9)) (V c (Pipeline.arrRef spec5 10)) (((cfg5.win 11).blk t).view.emb j)
  have hj : (sums V c t.val t.isLt).1 j = (sums V c t.val t.isLt).1 (ix2 (j 0) (j 1)) := congrArg _ (eq_ix2 j)
  refine hj.trans ((block_value V c t.val t.isLt h7 (j 0) (j 1)).trans ?_)
  show _ = stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))
      ((((cfg5.win 11).blk t).view.emb j) 0) ((((cfg5.win 11).blk t).view.emb j) 1)
  refine congrArg₂ (stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))) (Fin.ext ?_) (Fin.ext ?_)
  · show 512 * (t.val / 8) + (j 0).val = ((((cfg5.win 11).blk t).view.emb j) 0).val
    omega
  · show (j 1).val = ((((cfg5.win 11).blk t).view.emb j) 1).val
    omega

/-- An index of the new-state array is in point `t`'s block iff each coordinate is in the block's range on its axis. -/
theorem mem_blk11 (t : Fin cfg5.N) (i : S4096x512.Idx) :
    i ∈ ((cfg5.win 11).blk t).view.set ↔ ∀ a : Fin 2, win5_11.index t a * S512x512.size a ≤ (i a).val
      ∧ (i a).val < win5_11.index t a * S512x512.size a + S512x512.size a := by
  show i ∈ ((View.whole (Pipeline.arrRef spec5 11)).slice (win5_11.rect t)).set ↔ _
  rw [View.set_slice_whole, Rect.mem_set_unit]
  exact Iff.rfl

/-- The point that writes row `r`: the last neighbour block of node block `r / 512`. -/
def pointOf (i : S4096x512.Idx) : Fin cfg5.N :=
  ⟨8 * ((i 0).val / 512) + 7, by have h : (i 0).val < 4096 := (i 0).isLt; rw [grid_size]; omega⟩

/-- The eight written blocks tile the new-state array. -/
theorem cover11 (i : S4096x512.Idx) :
    ∃ t : Fin cfg5.N, (cfg5.win 11).flush t = true ∧ i ∈ ((cfg5.win 11).blk t).view.set := by
  have hi0 : (i 0).val < 4096 := (i 0).isLt
  have hi1 : (i 1).val < 512 := (i 1).isLt
  have ht : (pointOf i).val = 8 * ((i 0).val / 512) + 7 := rfl
  obtain ⟨-, -, -, -, -, -, -, -, -, -, -, -, -, -, -, -, -, -, -, -, -, -, e0, e1, -⟩ := index_facts (pointOf i)
  refine ⟨pointOf i, (flush5_11 (pointOf i)).mpr (by omega), ?_⟩
  rw [mem_blk11]
  intro a
  match a with
  | ⟨0, _⟩ => show win5_11.index (pointOf i) (0 : Fin 2) * 512 ≤ (i 0).val
                ∧ (i 0).val < win5_11.index (pointOf i) (0 : Fin 2) * 512 + 512; omega
  | ⟨1, _⟩ => show win5_11.index (pointOf i) (1 : Fin 2) * 512 ≤ (i 1).val
                ∧ (i 1).val < win5_11.index (pointOf i) (1 : Fin 2) * 512 + 512; omega

/-- THE NEW-STATE ARRAY after the region: one propagation step from the message arrays, the adjacency array, the state
    array, the gate weights and the bias rows as the region finds them. -/
theorem arr11 (c : Dev nD) :
    (dat V c).arrAt 11 cfg5.N = newState (V c (Pipeline.arrRef spec5 0)) (V c (Pipeline.arrRef spec5 2)) (V c (Pipeline.arrRef spec5 3))
        (V c (Pipeline.arrRef spec5 4)) (V c (Pipeline.arrRef spec5 5)) (V c (Pipeline.arrRef spec5 6)) (V c (Pipeline.arrRef spec5 7))
        (V c (Pipeline.arrRef spec5 8)) (V c (Pipeline.arrRef spec5 9)) (V c (Pipeline.arrRef spec5 10)) := by
  have hG : ∀ t, (cfg5.win 11).flush t = true → (dat V c).flushed 11 t = ((cfg5.win 11).blk t).view.read (Elt Ideal)
      (newState (V c (Pipeline.arrRef spec5 0)) (V c (Pipeline.arrRef spec5 2)) (V c (Pipeline.arrRef spec5 3))
        (V c (Pipeline.arrRef spec5 4)) (V c (Pipeline.arrRef spec5 5)) (V c (Pipeline.arrRef spec5 6)) (V c (Pipeline.arrRef spec5 7))
        (V c (Pipeline.arrRef spec5 8)) (V c (Pipeline.arrRef spec5 9)) (V c (Pipeline.arrRef spec5 10))) :=
    fun t hf => flushed11_eq V c t hf
  exact Dat.arrAt_eq_of_cover (dat V c) 11 _ hG cover11

/-! ## The input arrays are never written -/

/-- Each of the eleven input windows' arrays ends as the region finds it. -/
theorem arr0 (c : Dev nD) : (dat V c).arrAt 0 cfg5.N = V c (Pipeline.arrRef spec5 0) :=
  ((dat V c).arrAt_in 0 rfl cfg5.N).trans (dat_A V c 0)
theorem arr1 (c : Dev nD) : (dat V c).arrAt 1 cfg5.N = V c (Pipeline.arrRef spec5 1) :=
  ((dat V c).arrAt_in 1 rfl cfg5.N).trans (dat_A V c 1)
theorem arr2 (c : Dev nD) : (dat V c).arrAt 2 cfg5.N = V c (Pipeline.arrRef spec5 2) :=
  ((dat V c).arrAt_in 2 rfl cfg5.N).trans (dat_A V c 2)
theorem arr3 (c : Dev nD) : (dat V c).arrAt 3 cfg5.N = V c (Pipeline.arrRef spec5 3) :=
  ((dat V c).arrAt_in 3 rfl cfg5.N).trans (dat_A V c 3)
theorem arr4 (c : Dev nD) : (dat V c).arrAt 4 cfg5.N = V c (Pipeline.arrRef spec5 4) :=
  ((dat V c).arrAt_in 4 rfl cfg5.N).trans (dat_A V c 4)
theorem arr5 (c : Dev nD) : (dat V c).arrAt 5 cfg5.N = V c (Pipeline.arrRef spec5 5) :=
  ((dat V c).arrAt_in 5 rfl cfg5.N).trans (dat_A V c 5)
theorem arr6 (c : Dev nD) : (dat V c).arrAt 6 cfg5.N = V c (Pipeline.arrRef spec5 6) :=
  ((dat V c).arrAt_in 6 rfl cfg5.N).trans (dat_A V c 6)
theorem arr7 (c : Dev nD) : (dat V c).arrAt 7 cfg5.N = V c (Pipeline.arrRef spec5 7) :=
  ((dat V c).arrAt_in 7 rfl cfg5.N).trans (dat_A V c 7)
theorem arr8 (c : Dev nD) : (dat V c).arrAt 8 cfg5.N = V c (Pipeline.arrRef spec5 8) :=
  ((dat V c).arrAt_in 8 rfl cfg5.N).trans (dat_A V c 8)
theorem arr9 (c : Dev nD) : (dat V c).arrAt 9 cfg5.N = V c (Pipeline.arrRef spec5 9) :=
  ((dat V c).arrAt_in 9 rfl cfg5.N).trans (dat_A V c 9)
theorem arr10 (c : Dev nD) : (dat V c).arrAt 10 cfg5.N = V c (Pipeline.arrRef spec5 10) :=
  ((dat V c).arrAt_in 10 rfl cfg5.N).trans (dat_A V c 10)

end Cert.KernelIdeal.GatedValue5

end
-- ==== Proof.IdealGatedPieces7.lean ====
/-
  Region 7: what the body's three runs leave in the buffers they store into, as functions of what they load.

  At every grid point the two running sums each receive one store of "what the sum held plus this point's block
  product"; at the first neighbour block what the sum held is the zero block stored just before. At the last neighbour
  block the result block receives one store: the gated update computed from the two finished sums, the node block's own
  state, the three gate weights (each read as three consecutive blocks of 512 rows) and the three bias rows.
  One store through the whole-buffer rectangle leaves its payload, and a load through it of what was just stored reads
  that payload back; so each stored buffer ends as one payload term of the loaded blocks.
-/
import proofs.«121501_j55087250538634_2_alg».proof.Proof.IdealGated7Runs
import Idealize.ShloMosaic.Lib.Pipeline.Value
import Idealize.ShloMosaic.Lib.Tactic
import Idealize.ShloMosaic.Lib.Ring

set_option maxRecDepth 16384

noncomputable section

namespace Cert.KernelIdeal.GatedPieces7

open Cert.KernelIdeal Cert.KernelIdeal.Gen Cert.KernelIdeal.Gated7
open Idealize.ShloMosaic Idealize.ShloMosaic.TcCoe Idealize.ShloMosaic.Tactic Idealize.SL.Sem

variable {F : FTy → Type} [FloatOps F]

/-- The zero offsets of a whole-buffer rectangle, as the constant function. -/
theorem zeroOffsets : (![0, 0] : Fin 2 → Nat) = fun _ => 0 := funext fun a => by fin_cases a <;> rfl

/-- The 512 rows of a whole message array that the body loads at grid point `i`: those of the point's neighbour block. -/
abbrev nbrRows (i : grid7.Coords) (x : Vec F S4096x512 .bf16) : Vec F S512x512 .bf16 :=
  View.ld x (Rect.unit (s := S4096x512) (k7_off1 i) S512x512.size (k7_off1_inb i))

/-- The three consecutive blocks of 512 rows of a 1536-row gate weight. -/
abbrev rowsA (x : Vec F S1536x512 .bf16) : Vec F S512x512 .bf16 :=
  View.ld x (Rect.unit (s := S1536x512) ![0, 0] S512x512.size inb_S1536x512_S512x512_0_0)
abbrev rowsB (x : Vec F S1536x512 .bf16) : Vec F S512x512 .bf16 :=
  View.ld x (Rect.unit (s := S1536x512) ![512, 0] S512x512.size inb_S1536x512_S512x512_512_0)
abbrev rowsC (x : Vec F S1536x512 .bf16) : Vec F S512x512 .bf16 :=
  View.ld x (Rect.unit (s := S1536x512) ![1024, 0] S512x512.size inb_S1536x512_S512x512_1024_0)

/-- The new state of a node block from its two finished sums `S0`, `S1`, its own state `x6`, the reset gate's weight and
    bias `x7`, `x8`, the update gate's `x9`, `x10` and the candidate's `x11`, `x12`. -/
def newBlock (S0 S1 : Vec F S512x512 .f32) (x6 : Vec F S512x512 .f32) (x7 : Vec F S1536x512 .bf16) (x8 : Vec F S1x512 .f32)
    (x9 : Vec F S1536x512 .bf16) (x10 : Vec F S1x512 .f32) (x11 : Vec F S1536x512 .bf16) (x12 : Vec F S1x512 .f32) :
    Vec F S512x512 .f32 :=
  k7_pay5 (k7_pay6 x6) (k7_pay7 S0) (k7_pay8 S1) (k7_pay10 S0 S1 x6 (rowsA x7) (rowsB x7) (rowsC x7) x8)
    (k7_pay11 S0 S1 x6 (rowsA x9) (rowsB x9) (rowsC x9)) x10 (rowsA x11) (rowsB x11) (rowsC x11) x12

/-- START, first sum: the zero block plus the first product. -/
theorem start_piece0 (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32)  :
    a14.view.read (Elt F) (a14.view.writes (Elt F) a14.view.junk (runStart c i a2 h2 a3 h3 a4 h4 a5 h5 a6 h6 a7 h7 a8 h8 a9 h9 a10 h10 a11 h11 a12 h12 a13 h13 a14 h14 a15 h15 hs hf x2 x3 x4 x5 x6 x7 x8 x9 x10 x11 x12 ).1) = k7_pay3 (nbrRows i x4) k7_pay1 x2 := by
  rw [View.read_writes_eq_canon _ _ _ (fun y => View.cover_of_tiledL _ S512x512.size (by sl_kernel_rfl) y)]
  unfold runStart
  dsimp only
  try sl_unfold_words
  rw [View.canon_cons_unit_zero zeroOffsets]
  simp only [View.readCov_unit_zero (S := S512x512) _ zeroOffsets, View.readAt_eq_ld, h2.read_unread, h3.read_unread, h4.read_unread, h5.read_unread, View.ld_unit_zero (S := S512x512) zeroOffsets]
  try rfl

/-- START, second sum. -/
theorem start_piece1 (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32)  :
    a15.view.read (Elt F) (a15.view.writes (Elt F) a15.view.junk (runStart c i a2 h2 a3 h3 a4 h4 a5 h5 a6 h6 a7 h7 a8 h8 a9 h9 a10 h10 a11 h11 a12 h12 a13 h13 a14 h14 a15 h15 hs hf x2 x3 x4 x5 x6 x7 x8 x9 x10 x11 x12 ).2.1) = k7_pay4 (nbrRows i x5) k7_pay2 x3 := by
  rw [View.read_writes_eq_canon _ _ _ (fun y => View.cover_of_tiledL _ S512x512.size (by sl_kernel_rfl) y)]
  unfold runStart
  dsimp only
  try sl_unfold_words
  rw [View.canon_cons_unit_zero zeroOffsets]
  simp only [View.readCov_unit_zero (S := S512x512) _ zeroOffsets, View.readAt_eq_ld, h2.read_unread, h3.read_unread, h4.read_unread, h5.read_unread, View.ld_unit_zero (S := S512x512) zeroOffsets]
  try rfl

/-- MIDDLE, first sum: what the point before left plus this point's product. -/
theorem middle_piece0 (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a14.view.read (Elt F) (a14.view.writes (Elt F) a14.view.junk (runMiddle c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).1) = k7_pay3 (nbrRows i x4) s0 x2 := by
  rw [View.read_writes_eq_canon _ _ _ (fun y => View.cover_of_tiledL _ S512x512.size (by sl_kernel_rfl) y)]
  unfold runMiddle
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- MIDDLE, second sum. -/
theorem middle_piece1 (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a15.view.read (Elt F) (a15.view.writes (Elt F) a15.view.junk (runMiddle c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.1) = k7_pay4 (nbrRows i x5) s1 x3 := by
  rw [View.read_writes_eq_canon _ _ _ (fun y => View.cover_of_tiledL _ S512x512.size (by sl_kernel_rfl) y)]
  unfold runMiddle
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, first sum. -/
theorem finish_piece0 (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a14.view.read (Elt F) (a14.view.writes (Elt F) a14.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.1) = k7_pay3 (nbrRows i x4) s0 x2 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, second sum. -/
theorem finish_piece1 (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a15.view.read (Elt F) (a15.view.writes (Elt F) a15.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.2.1) = k7_pay4 (nbrRows i x5) s1 x3 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, the result block: the new state from the two finished sums. -/
theorem finish_pieceO (c : Dev nD) (i : grid7.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a13.view.read (Elt F) (a13.view.writes (Elt F) a13.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).1) = newBlock (k7_pay3 (nbrRows i x4) s0 x2) (k7_pay4 (nbrRows i x5) s1 x3) x6 x7 x8 x9 x10 x11 x12 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readCov_unit_zero (S := S512x512) _ zeroOffsets, View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S512x512) zeroOffsets, View.ld_unit_zero (S := S1x512) zeroOffsets]
  rfl

end Cert.KernelIdeal.GatedPieces7

end
-- ==== Proof.IdealGatedPayload7.lean ====
/-
  The arithmetic of the gated-update body of region 7, entry by entry over the extended reals.

  Every block is 512 x 512 except the bias rows, which are 1 x 512. A change of float format is the identity on the
  extended reals, a reshape to the same shape is the identity, and a bias row broadcast down the rows is the row's entry
  in every row. A block product into the zero accumulator is, at row p and column q, the finite sum over the contracted
  coordinate k of the products of the operands' entries: for the product of rows against columns the entries (p, k) and
  (k, q), for the product contracting both operands' row axes the entries (k, p) and (k, q).

  So, at row p and column q:
    the two cleared accumulators hold zero;
    an accumulation step adds to the running sum one such finite sum;
    a gate's pre-activation is the three finite sums over the three loaded weight blocks, added left to right, then the
    bias entry of column q, and the reset gate is its logistic;
    the candidate is the hyperbolic tangent of the same three-part sum, its third part over the product of the reset gate
    and the state;
    the new state is (1 - z) * x + z * h with z the logistic of the update gate's pre-activation.

  The last section reads the loaded blocks as rows of whole arrays (512 consecutive or any other 512 rows, given by a map
  of row numbers) and the loaded weight blocks as the three blocks of 512 columns of a weight with 1536 columns, stored
  transposed; the new-state block is then the convex update of the network's step at those rows.
-/
import proofs.«121501_j55087250538634_2_alg».proof.Proof.Gen.KernelIdeal.Skeleton
import proofs.«121501_j55087250538634_2_alg».proof.Proof.GgnnMath
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.GatedPayload7

open Cert.KernelIdeal Cert.KernelIdeal.Gen
open Idealize.ShloMosaic Idealize.ShloMosaic.TcCoe Idealize.SL.Sem
open Idealize.ShloMosaic.ValueIdx
open Cert.GgnnMath

/-! ## The two block products' operand indices, one coordinate at a time -/

/-- Rows of the left operand against columns of the right: the left's axis 1 is contracted with the right's axis 0. -/
abbrev dotRC : DotDims S512x512 S512x512 S512x512 := dot_S512x512_S512x512_S512x512_1_0_0_1_n_n

/-- Both operands' axis 0 contracted: columns of the left operand against columns of the right. -/
abbrev dotCC : DotDims S512x512 S512x512 S512x512 := dot_S512x512_S512x512_S512x512_0_0_1_1_n_n

theorem rc_lhs_row (i : S512x512.Idx) (q : dotRC.contr.Idx) : (dotRC.lhsIdx i q 0).val = (i 0).val := by
  unfold DotDims.lhsIdx
  rw [dif_neg (show ¬(0 : Fin S512x512.rank) ∈ dotRC.lhsBatch by decide),
    dif_pos (show (0 : Fin S512x512.rank) ∈ dotRC.lhsNonContracting by decide)]
  rfl

theorem rc_lhs_col (i : S512x512.Idx) (q : dotRC.contr.Idx) : (dotRC.lhsIdx i q 1).val = (q ⟨0, by decide⟩).val :=
  dotRC.lhsIdx_val_of_single rfl i q

theorem rc_rhs_row (i : S512x512.Idx) (q : dotRC.contr.Idx) : (dotRC.rhsIdx i q 0).val = (q ⟨0, by decide⟩).val :=
  dotRC.rhsIdx_val_of_single rfl i q

theorem rc_rhs_col (i : S512x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

theorem cc_lhs_row (i : S512x512.Idx) (q : dotCC.contr.Idx) : (dotCC.lhsIdx i q 0).val = (q ⟨0, by decide⟩).val :=
  dotCC.lhsIdx_val_of_single rfl i q

theorem cc_lhs_col (i : S512x512.Idx) (q : dotCC.contr.Idx) : (dotCC.lhsIdx i q 1).val = (i 0).val := by
  unfold DotDims.lhsIdx
  rw [dif_neg (show ¬(1 : Fin S512x512.rank) ∈ dotCC.lhsBatch by decide),
    dif_pos (show (1 : Fin S512x512.rank) ∈ dotCC.lhsNonContracting by decide)]
  rfl

theorem cc_rhs_row (i : S512x512.Idx) (q : dotCC.contr.Idx) : (dotCC.rhsIdx i q 0).val = (q ⟨0, by decide⟩).val :=
  dotCC.rhsIdx_val_of_single rfl i q

theorem cc_rhs_col (i : S512x512.Idx) (q : dotCC.contr.Idx) : (dotCC.rhsIdx i q 1).val = (i 1).val := by
  unfold DotDims.rhsIdx
  rw [dif_neg (show ¬(1 : Fin S512x512.rank) ∈ dotCC.rhsBatch by decide),
    dif_pos (show (1 : Fin S512x512.rank) ∈ dotCC.rhsNonContracting by decide)]
  rfl

/-- The product of rows against columns into the zero accumulator, at row `p` and column `q`. -/
theorem productRC_apply {φ₁ φ₂ : FTy} (l : FVec Ideal S512x512 φ₁) (r : FVec Ideal S512x512 φ₂) (p q : Fin 512) :
    matmul dotRC none l r (constant (F := Ideal) S512x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact rc_lhs_row _ _
    | ⟨1, _⟩ => exact (rc_lhs_col _ _).trans hk)
  have er : dotRC.rhsIdx (ix2 p q) ((contrEquiv1 dotRC 512 rfl rfl).symm k) = ix2 k q := funext fun a => Fin.ext (by
    match a with
    | ⟨0, _⟩ => exact (rc_rhs_row _ _).trans hk
    | ⟨1, _⟩ => exact rc_rhs_col _ _)
  rw [el, er]

/-- The product contracting both operands' row axes into the zero accumulator, at row `p` and column `q`. -/
theorem productCC_apply {φ₁ φ₂ : FTy} (l : FVec Ideal S512x512 φ₁) (r : FVec Ideal S512x512 φ₂) (p q : Fin 512) :
    matmul dotCC none l r (constant (F := Ideal) S512x512 .f32 0x00000000#32) (ix2 p q)
      = ∑ k : Fin 512, l (ix2 k p) * r (ix2 k q) := by
  simp only [matmul]
  rw [Ideal.matmul_constant_zero_apply, ← Equiv.sum_comp (contrEquiv1 dotCC 512 rfl rfl).symm]
  refine Finset.sum_congr rfl fun k _ => ?_
  have hk := contrEquiv1_symm_val dotCC 512 rfl rfl k
  have el : dotCC.lhsIdx (ix2 p q) ((contrEquiv1 dotCC 512 rfl rfl).symm k) = ix2 k p := funext fun a => Fin.ext (by
    match a with
    | ⟨0, _⟩ => exact (cc_lhs_row _ _).trans hk
    | ⟨1, _⟩ => exact cc_lhs_col _ _)
  have er : dotCC.rhsIdx (ix2 p q) ((contrEquiv1 dotCC 512 rfl rfl).symm k) = ix2 k q := funext fun a => Fin.ext (by
    match a with
    | ⟨0, _⟩ => exact (cc_rhs_row _ _).trans hk
    | ⟨1, _⟩ => exact cc_rhs_col _ _)
  rw [el, er]

/-- The bias row broadcast down the rows, at row `p` and column `q`, is the row's entry at column `q`. -/
theorem bias_apply (b : FVec Ideal S1x512 .f32) (p q : Fin 512) :
    broadcastTo S512x512 b broadcasts_S1x512_S512x512 (ix2 p q) = b (ix2 0 q) := by
  refine broadcastTo_apply b _ (ix2 p q) (ix2 0 q) fun a => ?_
  match a with
  | ⟨0, _⟩ => rfl
  | ⟨1, _⟩ => rfl

/-- The logistic of a block, entry by entry. -/
theorem logistic_apply (v : FVec Ideal S512x512 .f32) (i : S512x512.Idx) : logistic v i = Ideal.logistic (v i) := rfl

/-- The hyperbolic tangent of a block, entry by entry. -/
theorem tanh_apply (v : FVec Ideal S512x512 .f32) (i : S512x512.Idx) : tanh v i = Ideal.tanh (v i) := rfl

/-! ## The payloads at an index -/

/-- The cleared incoming accumulator holds zero everywhere. -/
theorem clear_in_apply (p q : Fin 512) : k7_pay1 (F := Ideal) (ix2 p q) = 0 := by
  unfold k7_pay1
  simp only [shapeCast_self]
  rw [broadcast_apply]
  exact Ideal.ofBits_zero_f32

/-- The cleared outgoing accumulator holds zero everywhere. -/
theorem clear_out_apply (p q : Fin 512) : k7_pay2 (F := Ideal) (ix2 p q) = 0 := by
  unfold k7_pay2
  simp only [shapeCast_self]
  rw [broadcast_apply]
  exact Ideal.ofBits_zero_f32

/-- One accumulation step of the incoming aggregate: the running sum plus, over the 512 nodes `k` of the step, the
    adjacency entry `(p, k)` times the message entry `(k, q)`. -/
theorem acc_in_apply (msg : Vec Ideal S512x512 .bf16) (run : Vec Ideal S512x512 .f32) (adj : Vec Ideal S512x512 .bf16)
    (p q : Fin 512) :
    k7_pay3 msg run adj (ix2 p q) = run (ix2 p q) + ∑ k : Fin 512, adj (ix2 p k) * msg (ix2 k q) := by
  unfold k7_pay3
  simp only [shapeCast_self]
  rw [addf_apply]
  exact congrArg (run (ix2 p q) + ·) (productRC_apply _ _ p q)

/-- One accumulation step of the outgoing aggregate: the running sum plus, over the 512 nodes `k` of the step, the
    adjacency entry `(k, p)` times the message entry `(k, q)`. -/
theorem acc_out_apply (msg : Vec Ideal S512x512 .bf16) (run : Vec Ideal S512x512 .f32) (adj : Vec Ideal S512x512 .bf16)
    (p q : Fin 512) :
    k7_pay4 msg run adj (ix2 p q) = run (ix2 p q) + ∑ k : Fin 512, adj (ix2 k p) * msg (ix2 k q) := by
  unfold k7_pay4
  simp only [shapeCast_self]
  rw [addf_apply]
  exact congrArg (run (ix2 p q) + ·) (productCC_apply _ _ p q)

/-- The reset gate at row `p`, column `q`: the logistic of the three partial sums plus the bias entry. -/
theorem reset_apply (aIn aOut x : Vec Ideal S512x512 .f32) (w0 w1 w2 : Vec Ideal S512x512 .bf16) (b : Vec Ideal S1x512 .f32)
    (p q : Fin 512) :
    k7_pay10 aIn aOut x w0 w1 w2 b (ix2 p q) =
      Ideal.logistic ((((∑ k : Fin 512, aIn (ix2 p k) * w0 (ix2 k q)) + ∑ k : Fin 512, aOut (ix2 p k) * w1 (ix2 k q))
        + ∑ k : Fin 512, x (ix2 p k) * w2 (ix2 k q)) + b (ix2 0 q)) := by
  unfold k7_pay10 k7_pay7 k7_pay8 k7_pay9 k7_pay6
  simp only [shapeCast_self]
  rw [logistic_apply, addf_apply, addf_apply, addf_apply, bias_apply, productRC_apply, productRC_apply, productRC_apply]
  rfl

/-- The update gate's pre-activation without its bias at row `p`, column `q`: the three partial sums. -/
theorem updatePre_apply (aIn aOut x : Vec Ideal S512x512 .f32) (w0 w1 w2 : Vec Ideal S512x512 .bf16) (p q : Fin 512) :
    k7_pay11 aIn aOut x w0 w1 w2 (ix2 p q) =
      ((∑ k : Fin 512, aIn (ix2 p k) * w0 (ix2 k q)) + ∑ k : Fin 512, aOut (ix2 p k) * w1 (ix2 k q))
        + ∑ k : Fin 512, x (ix2 p k) * w2 (ix2 k q) := by
  unfold k7_pay11 k7_pay7 k7_pay8 k7_pay9 k7_pay6
  simp only [shapeCast_self]
  rw [addf_apply, addf_apply, productRC_apply, productRC_apply, productRC_apply]
  rfl

/-- The new state at row `p`, column `q`: with `z` the logistic of the update gate's pre-activation plus its bias and
    `h` the hyperbolic tangent of the candidate's three partial sums (the third over the reset gate times the state)
    plus its bias, `(1 - z) * x + z * h`. -/
theorem newState_apply (x : Vec Ideal S512x512 .f32) (aIn aOut : FVec Ideal S512x512 .bf16) (r zpre : FVec Ideal S512x512 .f32)
    (bz : Vec Ideal S1x512 .f32) (w0 w1 w2 : Vec Ideal S512x512 .bf16) (bh : Vec Ideal S1x512 .f32) (p q : Fin 512) :
    k7_pay5 x aIn aOut r zpre bz w0 w1 w2 bh (ix2 p q) =
      (1 - Ideal.logistic (zpre (ix2 p q) + bz (ix2 0 q))) * x (ix2 p q)
        + Ideal.logistic (zpre (ix2 p q) + bz (ix2 0 q))
          * Ideal.tanh ((((∑ k : Fin 512, aIn (ix2 p k) * w0 (ix2 k q)) + ∑ k : Fin 512, aOut (ix2 p k) * w1 (ix2 k q))
              + ∑ k : Fin 512, (r (ix2 p k) * x (ix2 p k)) * w2 (ix2 k q)) + bh (ix2 0 q)) := by
  unfold k7_pay5
  simp only [shapeCast_self]
  rw [addf_apply, mulf_apply, mulf_apply, subf_apply, broadcast_apply, logistic_apply, addf_apply, bias_apply, tanh_apply,
    addf_apply, addf_apply, addf_apply, bias_apply, productRC_apply, productRC_apply, productRC_apply]
  simp only [truncf_apply, mulf_apply]
  rw [show (Scalar.ofBits (F := Ideal) .f32 0x3F800000#32 : EReal) = 1 from Ideal.ofBits_one_f32]

/-- The state block handed on unchanged (a reshape to the same shape). -/
theorem stateCast_apply (x : Vec Ideal S512x512 .f32) (i : S512x512.Idx) : k7_pay6 x i = x i := by
  unfold k7_pay6
  simp only [shapeCast_self]

/-- The incoming aggregate's block in the narrower float format is the block itself. -/
theorem fmt_in_apply (v : Vec Ideal S512x512 .f32) (i : S512x512.Idx) : k7_pay7 v i = v i := by
  unfold k7_pay7
  rfl

/-- The outgoing aggregate's block in the narrower float format is the block itself. -/
theorem fmt_out_apply (v : Vec Ideal S512x512 .f32) (i : S512x512.Idx) : k7_pay8 v i = v i := by
  unfold k7_pay8
  rfl

/-- The state block in the narrower float format is the block itself. -/
theorem fmt_state_apply (v : Vec Ideal S512x512 .f32) (i : S512x512.Idx) : k7_pay9 v i = v i := by
  unfold k7_pay9 k7_pay6
  simp only [shapeCast_self, truncf_apply]

/-! ## The new-state block as the network's convex update at the block's rows

  The loaded blocks are read as rows of whole arrays: `row p` is the array row that the block's row `p` holds. A gate's
  weight has 1536 columns, three blocks of 512; the body loads it transposed, so the loaded block `i` at `(k, q)` is the
  weight's entry at row `q` and column `k` of the column block `i`. -/

/-- The reset gate's block is the network's reset gate at the block's rows. -/
theorem reset_eq_gate (row : Fin 512 → Fin 4096) (aIn aOut x : Fin 4096 → Fin 512 → EReal)
    (Wr : Fin 512 → Fin 1536 → EReal) (br : Fin 512 → EReal)
    (sIn sOut xb : Vec Ideal S512x512 .f32) (r0 r1 r2 : Vec Ideal S512x512 .bf16) (vbr : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hr0 : ∀ k q : Fin 512, r0 (ix2 k q) = Wr q (part0 k))
    (hr1 : ∀ k q : Fin 512, r1 (ix2 k q) = Wr q (part1 k))
    (hr2 : ∀ k q : Fin 512, r2 (ix2 k q) = Wr q (part2 k))
    (hbr : ∀ q : Fin 512, vbr (ix2 0 q) = br q) (p q : Fin 512) :
    k7_pay10 sIn sOut xb r0 r1 r2 vbr (ix2 p q) = Ideal.logistic (gate aIn aOut x Wr br (row p) q) := by
  rw [reset_apply]
  simp only [gate, hIn, hOut, hx, hr0, hr1, hr2, hbr]

/-- The update gate's pre-activation block plus its bias row is the network's update-gate pre-activation at the
    block's rows. -/
theorem updatePre_eq_gate (row : Fin 512 → Fin 4096) (aIn aOut x : Fin 4096 → Fin 512 → EReal)
    (Wz : Fin 512 → Fin 1536 → EReal) (bz : Fin 512 → EReal)
    (sIn sOut xb : Vec Ideal S512x512 .f32) (z0 z1 z2 : Vec Ideal S512x512 .bf16) (vbz : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hz0 : ∀ k q : Fin 512, z0 (ix2 k q) = Wz q (part0 k))
    (hz1 : ∀ k q : Fin 512, z1 (ix2 k q) = Wz q (part1 k))
    (hz2 : ∀ k q : Fin 512, z2 (ix2 k q) = Wz q (part2 k))
    (hbz : ∀ q : Fin 512, vbz (ix2 0 q) = bz q) (p q : Fin 512) :
    k7_pay11 sIn sOut xb z0 z1 z2 (ix2 p q) + vbz (ix2 0 q) = gate aIn aOut x Wz bz (row p) q := by
  rw [updatePre_apply]
  simp only [gate, hIn, hOut, hx, hz0, hz1, hz2, hbz]

/-- The new-state block, computed by the body from the finished aggregates' blocks `sIn`, `sOut`, the state block `xb`,
    the nine loaded weight blocks and the three bias rows, is at `(p, q)` the network's convex update
    `(1 - z) * x + z * h` at row `row p` and column `q`, with `r` and `z` the logistics of the reset and update gates and
    `h` the candidate. -/
theorem newState_eq_update (row : Fin 512 → Fin 4096) (aIn aOut x : Fin 4096 → Fin 512 → EReal)
    (Wr Wz Wh : Fin 512 → Fin 1536 → EReal) (br bz bh : Fin 512 → EReal)
    (sIn sOut xb : Vec Ideal S512x512 .f32)
    (r0 r1 r2 z0 z1 z2 h0 h1 h2 : Vec Ideal S512x512 .bf16) (vbr vbz vbh : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hr0 : ∀ k q : Fin 512, r0 (ix2 k q) = Wr q (part0 k))
    (hr1 : ∀ k q : Fin 512, r1 (ix2 k q) = Wr q (part1 k))
    (hr2 : ∀ k q : Fin 512, r2 (ix2 k q) = Wr q (part2 k))
    (hz0 : ∀ k q : Fin 512, z0 (ix2 k q) = Wz q (part0 k))
    (hz1 : ∀ k q : Fin 512, z1 (ix2 k q) = Wz q (part1 k))
    (hz2 : ∀ k q : Fin 512, z2 (ix2 k q) = Wz q (part2 k))
    (hh0 : ∀ k q : Fin 512, h0 (ix2 k q) = Wh q (part0 k))
    (hh1 : ∀ k q : Fin 512, h1 (ix2 k q) = Wh q (part1 k))
    (hh2 : ∀ k q : Fin 512, h2 (ix2 k q) = Wh q (part2 k))
    (hbr : ∀ q : Fin 512, vbr (ix2 0 q) = br q)
    (hbz : ∀ q : Fin 512, vbz (ix2 0 q) = bz q)
    (hbh : ∀ q : Fin 512, vbh (ix2 0 q) = bh q) (p q : Fin 512) :
    k7_pay5 (k7_pay6 xb) (k7_pay7 sIn) (k7_pay8 sOut) (k7_pay10 sIn sOut xb r0 r1 r2 vbr) (k7_pay11 sIn sOut xb z0 z1 z2)
        vbz h0 h1 h2 vbh (ix2 p q)
      = update (fun p q => Ideal.logistic (gate aIn aOut x Wz bz p q)) x
          (candidate aIn aOut (fun p q => Ideal.logistic (gate aIn aOut x Wr br p q)) x Wh bh) (row p) q := by
  rw [newState_apply, updatePre_eq_gate row aIn aOut x Wz bz sIn sOut xb z0 z1 z2 vbz hIn hOut hx hz0 hz1 hz2 hbz p q]
  have hr : ∀ k : Fin 512, k7_pay10 sIn sOut xb r0 r1 r2 vbr (ix2 p k) = Ideal.logistic (gate aIn aOut x Wr br (row p) k) :=
    fun k => reset_eq_gate row aIn aOut x Wr br sIn sOut xb r0 r1 r2 vbr hIn hOut hx hr0 hr1 hr2 hbr p k
  have hi : ∀ k : Fin 512, k7_pay7 sIn (ix2 p k) = aIn (row p) k := fun k => hIn p k
  have ho : ∀ k : Fin 512, k7_pay8 sOut (ix2 p k) = aOut (row p) k := fun k => hOut p k
  have hc : ∀ k : Fin 512, k7_pay6 xb (ix2 p k) = x (row p) k := fun k => (stateCast_apply xb _).trans (hx p k)
  simp only [hr, hi, ho, hc, hh0, hh1, hh2, hbh]
  rfl

/-- The same with each gate's weight given as the transposed array the body loads from: 1536 rows, 512 columns, entry
    `(j, q)` the weight's entry at row `q` and column `j`; the three loaded blocks are its rows 0 to 511, 512 to 1023 and
    1024 to 1535. -/
theorem newState_eq_update_of_transposed (row : Fin 512 → Fin 4096) (aIn aOut x : Fin 4096 → Fin 512 → EReal)
    (Wr Wz Wh : Fin 512 → Fin 1536 → EReal) (br bz bh : Fin 512 → EReal)
    (Tr Tz Th : Vec Ideal S1536x512 .bf16)
    (sIn sOut xb : Vec Ideal S512x512 .f32)
    (r0 r1 r2 z0 z1 z2 h0 h1 h2 : Vec Ideal S512x512 .bf16) (vbr vbz vbh : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hTr : ∀ (j : Fin 1536) (q : Fin 512), Tr (ix2 j q) = Wr q j)
    (hTz : ∀ (j : Fin 1536) (q : Fin 512), Tz (ix2 j q) = Wz q j)
    (hTh : ∀ (j : Fin 1536) (q : Fin 512), Th (ix2 j q) = Wh q j)
    (hr0 : ∀ k q : Fin 512, r0 (ix2 k q) = Tr (ix2 (part0 k) q))
    (hr1 : ∀ k q : Fin 512, r1 (ix2 k q) = Tr (ix2 (part1 k) q))
    (hr2 : ∀ k q : Fin 512, r2 (ix2 k q) = Tr (ix2 (part2 k) q))
    (hz0 : ∀ k q : Fin 512, z0 (ix2 k q) = Tz (ix2 (part0 k) q))
    (hz1 : ∀ k q : Fin 512, z1 (ix2 k q) = Tz (ix2 (part1 k) q))
    (hz2 : ∀ k q : Fin 512, z2 (ix2 k q) = Tz (ix2 (part2 k) q))
    (hh0 : ∀ k q : Fin 512, h0 (ix2 k q) = Th (ix2 (part0 k) q))
    (hh1 : ∀ k q : Fin 512, h1 (ix2 k q) = Th (ix2 (part1 k) q))
    (hh2 : ∀ k q : Fin 512, h2 (ix2 k q) = Th (ix2 (part2 k) q))
    (hbr : ∀ q : Fin 512, vbr (ix2 0 q) = br q)
    (hbz : ∀ q : Fin 512, vbz (ix2 0 q) = bz q)
    (hbh : ∀ q : Fin 512, vbh (ix2 0 q) = bh q) (p q : Fin 512) :
    k7_pay5 (k7_pay6 xb) (k7_pay7 sIn) (k7_pay8 sOut) (k7_pay10 sIn sOut xb r0 r1 r2 vbr) (k7_pay11 sIn sOut xb z0 z1 z2)
        vbz h0 h1 h2 vbh (ix2 p q)
      = update (fun p q => Ideal.logistic (gate aIn aOut x Wz bz p q)) x
          (candidate aIn aOut (fun p q => Ideal.logistic (gate aIn aOut x Wr br p q)) x Wh bh) (row p) q :=
  newState_eq_update row aIn aOut x Wr Wz Wh br bz bh sIn sOut xb r0 r1 r2 z0 z1 z2 h0 h1 h2 vbr vbz vbh hIn hOut hx
    (fun k q => (hr0 k q).trans (hTr _ _)) (fun k q => (hr1 k q).trans (hTr _ _)) (fun k q => (hr2 k q).trans (hTr _ _))
    (fun k q => (hz0 k q).trans (hTz _ _)) (fun k q => (hz1 k q).trans (hTz _ _)) (fun k q => (hz2 k q).trans (hTz _ _))
    (fun k q => (hh0 k q).trans (hTh _ _)) (fun k q => (hh1 k q).trans (hTh _ _)) (fun k q => (hh2 k q).trans (hTh _ _))
    hbr hbz hbh p q

end Cert.KernelIdeal.GatedPayload7

end
-- ==== Proof.IdealGatedValue7.lean ====
/-
  The value of the new-state array of region 7, read over the extended reals.

  The grid is 8 x 8: point t = 8 m + k handles the block of 512 nodes m against the block of 512 neighbours k. Over the
  eight points of a node block two running sums are kept: the first receives, at neighbour block k, the 512 x 512
  adjacency block (m, k) times rows 512 k … 512 k + 511 of the incoming messages; the second the adjacency block (k, m),
  read transposed, times the same rows of the outgoing messages. Both start from zero at k = 0, so after k = 7 entry
  (p, q) of the first is zero plus the eight blocks' sums added in order, which — addition of extended reals being
  associative — is the one sum over all 4096 neighbours of  A (512 m + p, j) * s_in (j, q);  likewise the second with
  A (j, 512 m + p) and s_out. At k = 7 the body forms the two gates and the candidate from the finished sums, the node
  block's own state, the three gate weights (each the transposed matrix, read in three blocks of 512 rows) and the bias
  rows, and stores the convex update; only that point writes the result block back. The eight written blocks tile the
  result array (row r lies in the block written at point 8 (r / 512) + 7). Hence the array after the region is one
  propagation step computed from the given message arrays, and the input arrays are as the region finds them.
-/
import proofs.«121501_j55087250538634_2_alg».proof.Proof.IdealGated7
import proofs.«121501_j55087250538634_2_alg».proof.Proof.IdealGatedPieces7
import proofs.«121501_j55087250538634_2_alg».proof.Proof.IdealGatedPayload7
import proofs.«121501_j55087250538634_2_alg».proof.Proof.GgnnMath
import proofs.«121501_j55087250538634_2_alg».proof.Proof.LibBlockSum
import Idealize.ShloMosaic.Lib.Pipeline.Value
import Idealize.ShloMosaic.Lib.ValueIdx

set_option maxRecDepth 16384

noncomputable section

open scoped BigOperators

namespace Cert.KernelIdeal.GatedValue7

open Cert.KernelIdeal Cert.KernelIdeal.Gen Cert.KernelIdeal.Gated7 Cert.KernelIdeal.GatedPieces7 Cert.KernelIdeal.GatedPayload7
open Idealize.ShloMosaic Idealize.ShloMosaic.TcCoe Idealize.SL.Sem
open Idealize.ShloMosaic.ValueIdx
open Idealize.ShloMosaic.Pipeline (Dat)
open Cert.GgnnMath (part0 part1 part2)

/-! ## The specification: one propagation step from given messages -/

/-- One propagation step with the two edge-message matrices given: the aggregations, the two gates, the candidate and
    the convex update. -/
def stepFrom (Af : Fin 4096 → Fin 4096 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal)
    (sIn sOut x : Fin 4096 → Fin 512 → EReal) : Fin 4096 → Fin 512 → EReal :=
  let aIn := Cert.GgnnMath.aggIn Af sIn
  let aOut := Cert.GgnnMath.aggOut Af sOut
  let r : Fin 4096 → Fin 512 → EReal := fun p q => Ideal.logistic (Cert.GgnnMath.gate aIn aOut x Wr br p q)
  let z : Fin 4096 → Fin 512 → EReal := fun p q => Ideal.logistic (Cert.GgnnMath.gate aIn aOut x Wz bz p q)
  Cert.GgnnMath.update z x (Cert.GgnnMath.candidate aIn aOut r x Wh bh)

/-- A whole step is the step from its own two linear layers. -/
theorem step_eq_stepFrom (Af : Fin 4096 → Fin 4096 → EReal)
    (Win : Fin 512 → Fin 512 → EReal) (bin : Fin 512 → EReal) (Wout : Fin 512 → Fin 512 → EReal) (bout : Fin 512 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal) (x : Fin 4096 → Fin 512 → EReal) :
    Cert.GgnnMath.step Af Win bin Wout bout Wr br Wz bz Wh bh x
      = stepFrom Af Wr br Wz bz Wh bh (Cert.GgnnMath.affine x Win bin) (Cert.GgnnMath.affine x Wout bout) x := rfl

/-- The new-state array of the adjacency array `A`, the message arrays `SI`, `SO`, the state array `X`, the three
    transposed gate weights and the three bias rows. -/
def newState (A : S4096x4096.Idx → EReal) (SI SO X : S4096x512.Idx → EReal)
    (WrT : S1536x512.Idx → EReal) (Br : S1x512.Idx → EReal) (WzT : S1536x512.Idx → EReal) (Bz : S1x512.Idx → EReal)
    (WhT : S1536x512.Idx → EReal) (Bh : S1x512.Idx → EReal) : S4096x512.Idx → EReal :=
  fun i => stepFrom (fun p k => A (ix2 p k)) (fun q j => WrT (ix2 j q)) (fun q => Br (ix2 0 q))
    (fun q j => WzT (ix2 j q)) (fun q => Bz (ix2 0 q)) (fun q j => WhT (ix2 j q)) (fun q => Bh (ix2 0 q))
    (fun p k => SI (ix2 p k)) (fun p k => SO (ix2 p k)) (fun p k => X (ix2 p k)) (i 0) (i 1)

/-! ## Array entries by natural-number coordinates -/

/-- Entry (r, k) of the adjacency array by natural-number coordinates (zero outside the array, never consulted). -/
def entryA (A : S4096x4096.Idx → EReal) (r k : ℕ) : EReal :=
  if h : r < 4096 ∧ k < 4096 then A (ix2 ⟨r, h.1⟩ ⟨k, h.2⟩) else 0

/-- Entry (k, q) of a message array by a natural-number row. -/
def entryS (S : S4096x512.Idx → EReal) (k : ℕ) (q : Fin 512) : EReal :=
  if h : k < 4096 then S (ix2 ⟨k, h⟩ q) else 0

theorem entryA_eq (A : S4096x4096.Idx → EReal) (r k : Fin 4096) : entryA A r.val k.val = A (ix2 r k) := by
  unfold entryA; rw [dif_pos ⟨r.isLt, k.isLt⟩]

theorem entryS_eq (S : S4096x512.Idx → EReal) (k : Fin 4096) (q : Fin 512) : entryS S k.val q = S (ix2 k q) := by
  unfold entryS; rw [dif_pos k.isLt]

/-! ## One neighbour block's contribution, and the eight of them -/

/-- What neighbour block `kb` adds to the incoming sum of node `512 mb + p` at feature `q`. -/
def termIn (A : S4096x4096.Idx → EReal) (SI : S4096x512.Idx → EReal) (mb : ℕ) (p q : Fin 512) (kb : ℕ) : EReal :=
  ∑ j : Fin 512, entryA A (512 * mb + p.val) (512 * kb + j.val) * entryS SI (512 * kb + j.val) q

/-- What neighbour block `kb` adds to the outgoing sum: the adjacency entry is read transposed. -/
def termOut (A : S4096x4096.Idx → EReal) (SO : S4096x512.Idx → EReal) (mb : ℕ) (p q : Fin 512) (kb : ℕ) : EReal :=
  ∑ j : Fin 512, entryA A (512 * kb + j.val) (512 * mb + p.val) * entryS SO (512 * kb + j.val) q

/-- The eight neighbour blocks' contributions, added in order onto zero, are the aggregation over all 4096 neighbours. -/
theorem total_in (A : S4096x4096.Idx → EReal) (SI : S4096x512.Idx → EReal) (mb : ℕ) (hmb : mb < 8) (p q : Fin 512) :
    0 + ∑ kb ∈ Finset.range 8, termIn A SI mb p q kb
      = Cert.GgnnMath.aggIn (fun r k => A (ix2 r k)) (fun k q => SI (ix2 k q)) ⟨512 * mb + p.val, by omega⟩ q := by
  rw [zero_add, Finset.sum_range]
  unfold Cert.GgnnMath.aggIn
  refine Eq.symm ((BlockSum.sum_by_blocks (M := EReal) 8 512
    (fun k => A (ix2 (⟨512 * mb + p.val, by omega⟩ : Fin 4096) k) * SI (ix2 k q))).trans ?_)
  refine Finset.sum_congr rfl fun i _ => Finset.sum_congr rfl fun j _ => ?_
  have hv : (finProdFinEquiv (i, j) : Fin (8 * 512)).val = 512 * i.val + j.val := by
    rw [BlockSum.block_entry_val]; omega
  show A (ix2 (⟨512 * mb + p.val, by omega⟩ : Fin 4096) (finProdFinEquiv (i, j))) * SI (ix2 (finProdFinEquiv (i, j)) q) = _
  rw [← entryA_eq A ⟨512 * mb + p.val, by omega⟩ (finProdFinEquiv (i, j)), ← entryS_eq SI (finProdFinEquiv (i, j)) q, hv]

theorem total_out (A : S4096x4096.Idx → EReal) (SO : S4096x512.Idx → EReal) (mb : ℕ) (hmb : mb < 8) (p q : Fin 512) :
    0 + ∑ kb ∈ Finset.range 8, termOut A SO mb p q kb
      = Cert.GgnnMath.aggOut (fun r k => A (ix2 r k)) (fun k q => SO (ix2 k q)) ⟨512 * mb + p.val, by omega⟩ q := by
  rw [zero_add, Finset.sum_range]
  unfold Cert.GgnnMath.aggOut
  refine Eq.symm ((BlockSum.sum_by_blocks (M := EReal) 8 512
    (fun k => A (ix2 k (⟨512 * mb + p.val, by omega⟩ : Fin 4096)) * SO (ix2 k q))).trans ?_)
  refine Finset.sum_congr rfl fun i _ => Finset.sum_congr rfl fun j _ => ?_
  have hv : (finProdFinEquiv (i, j) : Fin (8 * 512)).val = 512 * i.val + j.val := by
    rw [BlockSum.block_entry_val]; omega
  show A (ix2 (finProdFinEquiv (i, j)) (⟨512 * mb + p.val, by omega⟩ : Fin 4096)) * SO (ix2 (finProdFinEquiv (i, j)) q) = _
  rw [← entryA_eq A (finProdFinEquiv (i, j)) ⟨512 * mb + p.val, by omega⟩, ← entryS_eq SO (finProdFinEquiv (i, j)) q, hv]

/-- A running sum that starts at zero plus the first term and adds one term per step. -/
theorem grow (g : ℕ → EReal) (k : ℕ) (s : EReal) (hs : s = 0 + ∑ kb ∈ Finset.range k, g kb) :
    s + g k = 0 + ∑ kb ∈ Finset.range (k + 1), g kb := by
  rw [hs, Finset.sum_range_succ, add_assoc]

variable (V : (c : Dev nD) → (b : Ref sig .tc) → Buf (Elt Ideal) ((c : Thread nD τ).loc b))

/-! ## The index maps over the grid -/

/-- The printed index maps at point `t = 8 m + k`: the adjacency window at block (m, k), its mirror at (k, m), the
    node-state and result windows at block row m, every other window at block (0, 0); the rows the body loads of the
    message arrays start at `512 k`. -/
theorem index_facts : ∀ t : Fin cfg7.N,
    win7_0.index t (0 : Fin 2) = t.val / 8 ∧ win7_0.index t (1 : Fin 2) = t.val % 8
    ∧ win7_1.index t (0 : Fin 2) = t.val % 8 ∧ win7_1.index t (1 : Fin 2) = t.val / 8
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val / 8 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (0 : Fin 2) = 0 ∧ win7_9.index t (1 : Fin 2) = 0
    ∧ win7_10.index t (0 : Fin 2) = 0 ∧ win7_10.index t (1 : Fin 2) = 0
    ∧ win7_11.index t (0 : Fin 2) = t.val / 8 ∧ win7_11.index t (1 : Fin 2) = 0
    ∧ k7_off1 (grid7.coords t) (0 : Fin 2) = 512 * (t.val % 8) ∧ k7_off1 (grid7.coords t) (1 : Fin 2) = 0 :=
  (by decide +kernel : ∀ t : Fin grid7.N, _)

/-! ## The blocks as parts of their arrays -/

/-- The adjacency block at point `t = 8 m + k` is rows `512 m …`, columns `512 k …` of the adjacency array. -/
theorem blk0_apply (c : Dev nD) (t : Fin cfg7.N) (y : S512x512.Idx) (i : S4096x4096.Idx)
    (h0 : (i 0).val = 512 * (t.val / 8) + (y 0).val) (h1 : (i 1).val = 512 * (t.val % 8) + (y 1).val) :
    blk V c 0 t y = (V c (Pipeline.arrRef spec7 0) : S4096x4096.Idx → EReal) i := by
  obtain ⟨e0, e1, -⟩ := index_facts t
  unfold blk
  show V c (Pipeline.arrRef spec7 0) (((cfg7.win 0).blk t).view.emb y) = _
  refine congrArg _ (funext fun a => Fin.ext ?_)
  match a with
  | ⟨0, _⟩ => show win7_0.index t (0 : Fin 2) * 512 + 1 * (y 0).val = (i 0).val; omega
  | ⟨1, _⟩ => show win7_0.index t (1 : Fin 2) * 512 + 1 * (y 1).val = (i 1).val; omega

/-- The mirrored adjacency block is rows `512 k …`, columns `512 m …` of the same array. -/
theorem blk1_apply (c : Dev nD) (t : Fin cfg7.N) (y : S512x512.Idx) (i : S4096x4096.Idx)
    (h0 : (i 0).val = 512 * (t.val % 8) + (y 0).val) (h1 : (i 1).val = 512 * (t.val / 8) + (y 1).val) :
    blk V c 1 t y = (V c (Pipeline.arrRef spec7 0) : S4096x4096.Idx → EReal) i := by
  obtain ⟨-, -, e0, e1, -⟩ := index_facts t
  unfold blk
  show V c (Pipeline.arrRef spec7 1) (((cfg7.win 1).blk t).view.emb y) = _
  refine congrArg _ (funext fun a => Fin.ext ?_)
  match a with
  | ⟨0, _⟩ => show win7_1.index t (0 : Fin 2) * 512 + 1 * (y 0).val = (i 0).val; omega
  | ⟨1, _⟩ => show win7_1.index t (1 : Fin 2) * 512 + 1 * (y 1).val = (i 1).val; omega

/-- The incoming-message window's block is the whole array at every point. -/
theorem blk2_apply (c : Dev nD) (t : Fin cfg7.N) (y : S4096x512.Idx) (i : S4096x512.Idx)
    (h0 : (i 0).val =  (y 0).val) (h1 : (i 1).val =  (y 1).val) :
    blk V c 2 t y = (V c (Pipeline.arrRef spec7 2) : S4096x512.Idx → EReal) i := by
  obtain ⟨-, -, -, -, e0, e1, -⟩ := index_facts t
  unfold blk
  show V c (Pipeline.arrRef spec7 2) (((cfg7.win 2).blk t).view.emb y) = _
  refine congrArg _ (funext fun a => Fin.ext ?_)
  match a with
  | ⟨0, _⟩ => show win7_2.index t (0 : Fin 2) * 4096 + 1 * (y 0).val = (i 0).val; omega
  | ⟨1, _⟩ => show win7_2.index t (1 : Fin 2) * 512 + 1 * (y 1).val = (i 1).val; omega

/-- The outgoing-message window's block is the whole array at every point. -/
theorem blk3_apply (c : Dev nD) (t : Fin cfg7.N) (y : S4096x512.Idx) (i : S4096x512.Idx)
    (h0 : (i 0).val =  (y 0).val) (h1 : (i 1).val =  (y 1).val) :
    blk V c 3 t y = (V c (Pipeline.arrRef spec7 3) : S4096x512.Idx → EReal) i := by
  obtain ⟨-, -, -, -, -, -, e0, e1, -⟩ := index_facts t
  unfold blk
  show V c (Pipeline.arrRef spec7 3) (((cfg7.win 3).blk t).view.emb y) = _
  refine congrArg _ (funext fun a => Fin.ext ?_)
  match a with
  | ⟨0, _⟩ => show win7_3.index t (0 : Fin 2) * 4096 + 1 * (y 0).val = (i 0).val; omega
  | ⟨1, _⟩ => show win7_3.index t (1 : Fin 2) * 512 + 1 * (y 1).val = (i 1).val; omega

/-- The node block's state is rows `512 m …` of the state array. -/
theorem blk4_apply (c : Dev nD) (t : Fin cfg7.N) (y : S512x512.Idx) (i : S4096x512.Idx)
    (h0 : (i 0).val = 512 * (t.val / 8) + (y 0).val) (h1 : (i 1).val =  (y 1).val) :
    blk V c 4 t y = (V c (Pipeline.arrRef spec7 4) : S4096x512.Idx → EReal) i := by
  obtain ⟨-, -, -, -, -, -, -, -, e0, e1, -⟩ := index_facts t
  unfold blk
  show V c (Pipeline.arrRef spec7 4) (((cfg7.win 4).blk t).view.emb y) = _
  refine congrArg _ (funext fun a => Fin.ext ?_)
  match a with
  | ⟨0, _⟩ => show win7_4.index t (0 : Fin 2) * 512 + 1 * (y 0).val = (i 0).val; omega
  | ⟨1, _⟩ => show win7_4.index t (1 : Fin 2) * 512 + 1 * (y 1).val = (i 1).val; omega

/-- The reset gate's weight window is the whole array at every point. -/
theorem blk5_apply (c : Dev nD) (t : Fin cfg7.N) (y : S1536x512.Idx) (i : S1536x512.Idx)
    (h0 : (i 0).val =  (y 0).val) (h1 : (i 1).val =  (y 1).val) :
    blk V c 5 t y = (V c (Pipeline.arrRef spec7 5) : S1536x512.Idx → EReal) i := by
  obtain ⟨-, -, -, -, -, -, -, -, -, -, e0, e1, -⟩ := index_facts t
  unfold blk
  show V c (Pipeline.arrRef spec7 5) (((cfg7.win 5).blk t).view.emb y) = _
  refine congrArg _ (funext fun a => Fin.ext ?_)
  match a with
  | ⟨0, _⟩ => show win7_5.index t (0 : Fin 2) * 1536 + 1 * (y 0).val = (i 0).val; omega
  | ⟨1, _⟩ => show win7_5.index t (1 : Fin 2) * 512 + 1 * (y 1).val = (i 1).val; omega

/-- The reset gate's bias row likewise. -/
theorem blk6_apply (c : Dev nD) (t : Fin cfg7.N) (y : S1x512.Idx) (i : S1x512.Idx)
    (h0 : (i 0).val =  (y 0).val) (h1 : (i 1).val =  (y 1).val) :
    blk V c 6 t y = (V c (Pipeline.arrRef spec7 6) : S1x512.Idx → EReal) i := by
  obtain ⟨-, -, -, -, -, -, -, -, -, -, -, -, e0, e1, -⟩ := index_facts t
  unfold blk
  show V c (Pipeline.arrRef spec7 6) (((cfg7.win 6).blk t).view.emb y) = _
  refine congrArg _ (funext fun a => Fin.ext ?_)
  match a with
  | ⟨0, _⟩ => show win7_6.index t (0 : Fin 2) * 1 + 1 * (y 0).val = (i 0).val; omega
  | ⟨1, _⟩ => show win7_6.index t (1 : Fin 2) * 512 + 1 * (y 1).val = (i 1).val; omega

/-- The update gate's weight likewise. -/
theorem blk7_apply (c : Dev nD) (t : Fin cfg7.N) (y : S1536x512.Idx) (i : S1536x512.Idx)
    (h0 : (i 0).val =  (y 0).val) (h1 : (i 1).val =  (y 1).val) :
    blk V c 7 t y = (V c (Pipeline.arrRef spec7 7) : S1536x512.Idx → EReal) i := by
  obtain ⟨-, -, -, -, -, -, -, -, -, -, -, -, -, -, e0, e1, -⟩ := index_facts t
  unfold blk
  show V c (Pipeline.arrRef spec7 7) (((cfg7.win 7).blk t).view.emb y) = _
  refine congrArg _ (funext fun a => Fin.ext ?_)
  match a with
  | ⟨0, _⟩ => show win7_7.index t (0 : Fin 2) * 1536 + 1 * (y 0).val = (i 0).val; omega
  | ⟨1, _⟩ => show win7_7.index t (1 : Fin 2) * 512 + 1 * (y 1).val = (i 1).val; omega

/-- The update gate's bias row likewise. -/
theorem blk8_apply (c : Dev nD) (t : Fin cfg7.N) (y : S1x512.Idx) (i : S1x512.Idx)
    (h0 : (i 0).val =  (y 0).val) (h1 : (i 1).val =  (y 1).val) :
    blk V c 8 t y = (V c (Pipeline.arrRef spec7 8) : S1x512.Idx → EReal) i := by
  obtain ⟨-, -, -, -, -, -, -, -, -, -, -, -, -, -, -, -, e0, e1, -⟩ := index_facts t
  unfold blk
  show V c (Pipeline.arrRef spec7 8) (((cfg7.win 8).blk t).view.emb y) = _
  refine congrArg _ (funext fun a => Fin.ext ?_)
  match a with
  | ⟨0, _⟩ => show win7_8.index t (0 : Fin 2) * 1 + 1 * (y 0).val = (i 0).val; omega
  | ⟨1, _⟩ => show win7_8.index t (1 : Fin 2) * 512 + 1 * (y 1).val = (i 1).val; omega

/-- The candidate's weight likewise. -/
theorem blk9_apply (c : Dev nD) (t : Fin cfg7.N) (y : S1536x512.Idx) (i : S1536x512.Idx)
    (h0 : (i 0).val =  (y 0).val) (h1 : (i 1).val =  (y 1).val) :
    blk V c 9 t y = (V c (Pipeline.arrRef spec7 9) : S1536x512.Idx → EReal) i := by
  obtain ⟨-, -, -, -, -, -, -, -, -, -, -, -, -, -, -, -, -, -, e0, e1, -⟩ := index_facts t
  unfold blk
  show V c (Pipeline.arrRef spec7 9) (((cfg7.win 9).blk t).view.emb y) = _
  refine congrArg _ (funext fun a => Fin.ext ?_)
  match a with
  | ⟨0, _⟩ => show win7_9.index t (0 : Fin 2) * 1536 + 1 * (y 0).val = (i 0).val; omega
  | ⟨1, _⟩ => show win7_9.index t (1 : Fin 2) * 512 + 1 * (y 1).val = (i 1).val; omega

/-- The candidate's bias row likewise. -/
theorem blk10_apply (c : Dev nD) (t : Fin cfg7.N) (y : S1x512.Idx) (i : S1x512.Idx)
    (h0 : (i 0).val =  (y 0).val) (h1 : (i 1).val =  (y 1).val) :
    blk V c 10 t y = (V c (Pipeline.arrRef spec7 10) : S1x512.Idx → EReal) i := by
  obtain ⟨-, -, -, -, -, -, -, -, -, -, -, -, -, -, -, -, -, -, -, -, e0, e1, -⟩ := index_facts t
  unfold blk
  show V c (Pipeline.arrRef spec7 10) (((cfg7.win 10).blk t).view.emb y) = _
  refine congrArg _ (funext fun a => Fin.ext ?_)
  match a with
  | ⟨0, _⟩ => show win7_10.index t (0 : Fin 2) * 1 + 1 * (y 0).val = (i 0).val; omega
  | ⟨1, _⟩ => show win7_10.index t (1 : Fin 2) * 512 + 1 * (y 1).val = (i 1).val; omega

/-! ## The rows the body loads out of whole blocks -/

/-- The neighbour block's rows of a whole message block: row `k` of what is loaded is row `512 kb + k`. -/
theorem nbrRows_apply (t : Fin cfg7.N) (x : Vec Ideal S4096x512 .bf16) (k q : Fin 512) (i : S4096x512.Idx)
    (h0 : (i 0).val = 512 * (t.val % 8) + k.val) (h1 : (i 1).val = q.val) :
    nbrRows (grid7.coords t) x (ix2 k q) = x i := by
  obtain ⟨-, -, -, -, -, -, -, -, -, -, -, -, -, -, -, -, -, -, -, -, -, -, -, -, e0, e1⟩ := index_facts t
  show x ((Rect.unit (s := S4096x512) (k7_off1 (grid7.coords t)) S512x512.size (k7_off1_inb (grid7.coords t))).emb (ix2 k q)) = x i
  refine congrArg x (funext fun a => Fin.ext ?_)
  match a with
  | ⟨0, _⟩ => show k7_off1 (grid7.coords t) (0 : Fin 2) + 1 * k.val = (i 0).val; omega
  | ⟨1, _⟩ => show k7_off1 (grid7.coords t) (1 : Fin 2) + 1 * q.val = (i 1).val; omega

/-- The three row blocks of a gate weight: row `k` of each is row `k`, `512 + k`, `1024 + k` of the weight. -/
theorem rowsA_apply (x : Vec Ideal S1536x512 .bf16) (k q : Fin 512) : rowsA x (ix2 k q) = x (ix2 (part0 k) q) := by
  show x ((Rect.unit (s := S1536x512) ![0, 0] S512x512.size inb_S1536x512_S512x512_0_0).emb (ix2 k q)) = _
  refine congrArg x (funext fun a => Fin.ext ?_)
  match a with
  | ⟨0, _⟩ => show 0 + 1 * k.val = k.val; omega
  | ⟨1, _⟩ => show 0 + 1 * q.val = q.val; omega
theorem rowsB_apply (x : Vec Ideal S1536x512 .bf16) (k q : Fin 512) : rowsB x (ix2 k q) = x (ix2 (part1 k) q) := by
  show x ((Rect.unit (s := S1536x512) ![512, 0] S512x512.size inb_S1536x512_S512x512_512_0).emb (ix2 k q)) = _
  refine congrArg x (funext fun a => Fin.ext ?_)
  match a with
  | ⟨0, _⟩ => show 512 + 1 * k.val = 512 + k.val; omega
  | ⟨1, _⟩ => show 0 + 1 * q.val = q.val; omega
theorem rowsC_apply (x : Vec Ideal S1536x512 .bf16) (k q : Fin 512) : rowsC x (ix2 k q) = x (ix2 (part2 k) q) := by
  show x ((Rect.unit (s := S1536x512) ![1024, 0] S512x512.size inb_S1536x512_S512x512_1024_0).emb (ix2 k q)) = _
  refine congrArg x (funext fun a => Fin.ext ?_)
  match a with
  | ⟨0, _⟩ => show 1024 + 1 * k.val = 1024 + k.val; omega
  | ⟨1, _⟩ => show 0 + 1 * q.val = q.val; omega

/-! ## The arrays as the region finds them -/

abbrev arrA (c : Dev nD) : S4096x4096.Idx → EReal := V c (Pipeline.arrRef spec7 0)
abbrev arrSI (c : Dev nD) : S4096x512.Idx → EReal := V c (Pipeline.arrRef spec7 2)
abbrev arrSO (c : Dev nD) : S4096x512.Idx → EReal := V c (Pipeline.arrRef spec7 3)
abbrev arrX (c : Dev nD) : S4096x512.Idx → EReal := V c (Pipeline.arrRef spec7 4)
abbrev arrWr (c : Dev nD) : S1536x512.Idx → EReal := V c (Pipeline.arrRef spec7 5)
abbrev arrBr (c : Dev nD) : S1x512.Idx → EReal := V c (Pipeline.arrRef spec7 6)
abbrev arrWz (c : Dev nD) : S1536x512.Idx → EReal := V c (Pipeline.arrRef spec7 7)
abbrev arrBz (c : Dev nD) : S1x512.Idx → EReal := V c (Pipeline.arrRef spec7 8)
abbrev arrWh (c : Dev nD) : S1536x512.Idx → EReal := V c (Pipeline.arrRef spec7 9)
abbrev arrBh (c : Dev nD) : S1x512.Idx → EReal := V c (Pipeline.arrRef spec7 10)

/-! ## What each kind of point leaves, as payload terms of the blocks -/

theorem start_s0 (c : Dev nD) (t : Fin cfg7.N) (hs : atStart (grid7.coords t)) (hf : ¬atFinish (grid7.coords t)) :
    (startTriple V c t hs hf).2.1 = k7_pay3 (nbrRows (grid7.coords t) (blk V c 2 t)) (k7_pay1 (F := Ideal)) (blk V c 0 t) := by
  unfold startTriple
  dsimp only
  exact start_piece0 c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)
theorem start_s1 (c : Dev nD) (t : Fin cfg7.N) (hs : atStart (grid7.coords t)) (hf : ¬atFinish (grid7.coords t)) :
    (startTriple V c t hs hf).2.2 = k7_pay4 (nbrRows (grid7.coords t) (blk V c 3 t)) (k7_pay2 (F := Ideal)) (blk V c 1 t) := by
  unfold startTriple
  dsimp only
  exact start_piece1 c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)
theorem middle_s0 (c : Dev nD) (t : Fin cfg7.N) (hs : ¬atStart (grid7.coords t)) (hf : ¬atFinish (grid7.coords t))
    (s0 s1 : Vec Ideal S512x512 .f32) :
    (middleTriple V c t hs hf s0 s1).2.1 = k7_pay3 (nbrRows (grid7.coords t) (blk V c 2 t)) s0 (blk V c 0 t) := by
  unfold middleTriple
  dsimp only
  exact middle_piece0 c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem middle_s1 (c : Dev nD) (t : Fin cfg7.N) (hs : ¬atStart (grid7.coords t)) (hf : ¬atFinish (grid7.coords t))
    (s0 s1 : Vec Ideal S512x512 .f32) :
    (middleTriple V c t hs hf s0 s1).2.2 = k7_pay4 (nbrRows (grid7.coords t) (blk V c 3 t)) s1 (blk V c 1 t) := by
  unfold middleTriple
  dsimp only
  exact middle_piece1 c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_s0 (c : Dev nD) (t : Fin cfg7.N) (hs : ¬atStart (grid7.coords t)) (hf : atFinish (grid7.coords t))
    (s0 s1 : Vec Ideal S512x512 .f32) :
    (finishTriple V c t hs hf s0 s1).2.1 = k7_pay3 (nbrRows (grid7.coords t) (blk V c 2 t)) s0 (blk V c 0 t) := by
  unfold finishTriple
  dsimp only
  exact finish_piece0 c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_s1 (c : Dev nD) (t : Fin cfg7.N) (hs : ¬atStart (grid7.coords t)) (hf : atFinish (grid7.coords t))
    (s0 s1 : Vec Ideal S512x512 .f32) :
    (finishTriple V c t hs hf s0 s1).2.2 = k7_pay4 (nbrRows (grid7.coords t) (blk V c 3 t)) s1 (blk V c 1 t) := by
  unfold finishTriple
  dsimp only
  exact finish_piece1 c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_out (c : Dev nD) (t : Fin cfg7.N) (hs : ¬atStart (grid7.coords t)) (hf : atFinish (grid7.coords t))
    (s0 s1 : Vec Ideal S512x512 .f32) :
    (finishTriple V c t hs hf s0 s1).1
      = newBlock (k7_pay3 (nbrRows (grid7.coords t) (blk V c 2 t)) s0 (blk V c 0 t))
          (k7_pay4 (nbrRows (grid7.coords t) (blk V c 3 t)) s1 (blk V c 1 t))
          (blk V c 4 t) (blk V c 5 t) (blk V c 6 t) (blk V c 7 t) (blk V c 8 t) (blk V c 9 t) (blk V c 10 t) := by
  have hc := finish_coverO V c t hs hf s0 s1
  unfold finishTriple
  dsimp only
  exact ((View.read_writes_eq_canon vOut vOut.junk _ hc).trans
    (View.read_writes_eq_canon (mw11 t).view (mw11 t).view.junk _ hc).symm).trans
    (finish_pieceO c (grid7.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1)

/-! ## One point's two products -/

/-- The two adjacency blocks and the two whole message blocks of a point, at their literal vector types. -/
abbrev bAdj (c : Dev nD) (t : Fin cfg7.N) : Vec Ideal S512x512 .bf16 := blk V c 0 t
abbrev bAdjM (c : Dev nD) (t : Fin cfg7.N) : Vec Ideal S512x512 .bf16 := blk V c 1 t
abbrev bSI (c : Dev nD) (t : Fin cfg7.N) : Vec Ideal S4096x512 .bf16 := blk V c 2 t
abbrev bSO (c : Dev nD) (t : Fin cfg7.N) : Vec Ideal S4096x512 .bf16 := blk V c 3 t

theorem grid_size : cfg7.N = 64 := N_7

/-- The adjacency block (m, k) against the neighbour block's incoming messages is neighbour block k's contribution. -/
theorem point_in (c : Dev nD) (n : ℕ) (hn : n < cfg7.N) (p q : Fin 512) :
    ∑ k : Fin 512, bAdj V c ⟨n, hn⟩ (ix2 p k) * nbrRows (grid7.coords ⟨n, hn⟩) (bSI V c ⟨n, hn⟩) (ix2 k q)
      = termIn (arrA V c) (arrSI V c) (n / 8) p q (n % 8) := by
  have hn' : n < 64 := by have h := hn; rwa [grid_size] at h
  unfold termIn
  refine Finset.sum_congr rfl fun k _ => congrArg₂ (· * ·) ?_ ?_
  · exact (blk0_apply V c ⟨n, hn⟩ (ix2 p k) (ix2 ⟨512 * (n / 8) + p.val, by omega⟩ ⟨512 * (n % 8) + k.val, by omega⟩) rfl rfl).trans
      (entryA_eq (arrA V c) ⟨512 * (n / 8) + p.val, by omega⟩ ⟨512 * (n % 8) + k.val, by omega⟩).symm
  · exact ((nbrRows_apply ⟨n, hn⟩ (blk V c 2 ⟨n, hn⟩) k q (ix2 ⟨512 * (n % 8) + k.val, by omega⟩ q) rfl rfl).trans
      (blk2_apply V c ⟨n, hn⟩ (ix2 ⟨512 * (n % 8) + k.val, by omega⟩ q) (ix2 ⟨512 * (n % 8) + k.val, by omega⟩ q) rfl rfl)).trans
      (entryS_eq (arrSI V c) ⟨512 * (n % 8) + k.val, by omega⟩ q).symm

/-- The mirrored adjacency block (k, m), read transposed, against the outgoing messages likewise. -/
theorem point_out (c : Dev nD) (n : ℕ) (hn : n < cfg7.N) (p q : Fin 512) :
    ∑ k : Fin 512, bAdjM V c ⟨n, hn⟩ (ix2 k p) * nbrRows (grid7.coords ⟨n, hn⟩) (bSO V c ⟨n, hn⟩) (ix2 k q)
      = termOut (arrA V c) (arrSO V c) (n / 8) p q (n % 8) := by
  have hn' : n < 64 := by have h := hn; rwa [grid_size] at h
  unfold termOut
  refine Finset.sum_congr rfl fun k _ => congrArg₂ (· * ·) ?_ ?_
  · exact (blk1_apply V c ⟨n, hn⟩ (ix2 k p) (ix2 ⟨512 * (n % 8) + k.val, by omega⟩ ⟨512 * (n / 8) + p.val, by omega⟩) rfl rfl).trans
      (entryA_eq (arrA V c) ⟨512 * (n % 8) + k.val, by omega⟩ ⟨512 * (n / 8) + p.val, by omega⟩).symm
  · exact ((nbrRows_apply ⟨n, hn⟩ (blk V c 3 ⟨n, hn⟩) k q (ix2 ⟨512 * (n % 8) + k.val, by omega⟩ q) rfl rfl).trans
      (blk3_apply V c ⟨n, hn⟩ (ix2 ⟨512 * (n % 8) + k.val, by omega⟩ q) (ix2 ⟨512 * (n % 8) + k.val, by omega⟩ q) rfl rfl)).trans
      (entryS_eq (arrSO V c) ⟨512 * (n % 8) + k.val, by omega⟩ q).symm

/-- The first term onto zero. -/
theorem grow_first (g : ℕ → EReal) : 0 + g 0 = 0 + ∑ kb ∈ Finset.range (0 + 1), g kb := by
  rw [Finset.sum_range_succ, Finset.sum_range_zero, zero_add (g 0), zero_add (g 0)]

/-! ## The running sums after every point -/

/-- After point `n = 8 m + k` the first running sum holds zero plus the contributions of neighbour blocks 0 … k. -/
theorem sums_in (c : Dev nD) (n : ℕ) : ∀ (hn : n < cfg7.N) (p q : Fin 512),
    ((sums V c n hn).2.1 (ix2 p q) : EReal)
      = 0 + ∑ kb ∈ Finset.range (n % 8 + 1), termIn (arrA V c) (arrSI V c) (n / 8) p q kb := by
  induction n using Nat.strong_induction_on with
  | _ n ih =>
    intro hn p q
    by_cases h0 : n % 8 = 0
    · have h7 : ¬n % 8 = 7 := by omega
      have e1 : (sums V c n hn).2.1 = k7_pay3 (nbrRows (grid7.coords ⟨n, hn⟩) (blk V c 2 ⟨n, hn⟩)) (k7_pay1 (F := Ideal)) (blk V c 0 ⟨n, hn⟩) :=
        (congrArg (fun s => s.2.1) (sums_start V c ⟨n, hn⟩ h0 h7)).trans (start_s0 V c ⟨n, hn⟩ _ _)
      refine (congrFun e1 (ix2 p q)).trans ((acc_in_apply _ _ _ p q).trans ?_)
      refine (congrArg₂ (· + ·) (clear_in_apply p q) (point_in V c n hn p q)).trans ?_
      rw [h0]
      exact grow_first _
    · have hm : n - 1 < cfg7.N := by omega
      have ihm := ih (n - 1) (by omega) hm p q
      have hdiv : (n - 1) / 8 = n / 8 := by omega
      have hmod : (n - 1) % 8 + 1 = n % 8 := by omega
      rw [hdiv, hmod] at ihm
      have e1 : (sums V c n hn).2.1
          = k7_pay3 (nbrRows (grid7.coords ⟨n, hn⟩) (blk V c 2 ⟨n, hn⟩)) (sums V c (n - 1) hm).2.1 (blk V c 0 ⟨n, hn⟩) := by
        by_cases h7 : n % 8 = 7
        · exact (congrArg (fun s => s.2.1) (sums_finish V c ⟨n, hn⟩ h0 h7)).trans (finish_s0 V c ⟨n, hn⟩ _ _ _ _)
        · exact (congrArg (fun s => s.2.1) (sums_middle V c ⟨n, hn⟩ h0 h7)).trans (middle_s0 V c ⟨n, hn⟩ _ _ _ _)
      refine (congrFun e1 (ix2 p q)).trans ((acc_in_apply _ _ _ p q).trans ?_)
      refine (congrArg (_ + ·) (point_in V c n hn p q)).trans ?_
      exact grow _ (n % 8) _ ihm

/-- The second running sum likewise, with the transposed adjacency entries and the outgoing messages. -/
theorem sums_out (c : Dev nD) (n : ℕ) : ∀ (hn : n < cfg7.N) (p q : Fin 512),
    ((sums V c n hn).2.2 (ix2 p q) : EReal)
      = 0 + ∑ kb ∈ Finset.range (n % 8 + 1), termOut (arrA V c) (arrSO V c) (n / 8) p q kb := by
  induction n using Nat.strong_induction_on with
  | _ n ih =>
    intro hn p q
    by_cases h0 : n % 8 = 0
    · have h7 : ¬n % 8 = 7 := by omega
      have e1 : (sums V c n hn).2.2 = k7_pay4 (nbrRows (grid7.coords ⟨n, hn⟩) (blk V c 3 ⟨n, hn⟩)) (k7_pay2 (F := Ideal)) (blk V c 1 ⟨n, hn⟩) :=
        (congrArg (fun s => s.2.2) (sums_start V c ⟨n, hn⟩ h0 h7)).trans (start_s1 V c ⟨n, hn⟩ _ _)
      refine (congrFun e1 (ix2 p q)).trans ((acc_out_apply _ _ _ p q).trans ?_)
      refine (congrArg₂ (· + ·) (clear_out_apply p q) (point_out V c n hn p q)).trans ?_
      rw [h0]
      exact grow_first _
    · have hm : n - 1 < cfg7.N := by omega
      have ihm := ih (n - 1) (by omega) hm p q
      have hdiv : (n - 1) / 8 = n / 8 := by omega
      have hmod : (n - 1) % 8 + 1 = n % 8 := by omega
      rw [hdiv, hmod] at ihm
      have e1 : (sums V c n hn).2.2
          = k7_pay4 (nbrRows (grid7.coords ⟨n, hn⟩) (blk V c 3 ⟨n, hn⟩)) (sums V c (n - 1) hm).2.2 (blk V c 1 ⟨n, hn⟩) := by
        by_cases h7 : n % 8 = 7
        · exact (congrArg (fun s => s.2.2) (sums_finish V c ⟨n, hn⟩ h0 h7)).trans (finish_s1 V c ⟨n, hn⟩ _ _ _ _)
        · exact (congrArg (fun s => s.2.2) (sums_middle V c ⟨n, hn⟩ h0 h7)).trans (middle_s1 V c ⟨n, hn⟩ _ _ _ _)
      refine (congrFun e1 (ix2 p q)).trans ((acc_out_apply _ _ _ p q).trans ?_)
      refine (congrArg (_ + ·) (point_out V c n hn p q)).trans ?_
      exact grow _ (n % 8) _ ihm

/-! ## The result block at the last neighbour block -/

/-- At a point `n = 8 m + 7` the result block is the new state formed from the two sums that point leaves. -/
theorem out_of_sums (c : Dev nD) (n : ℕ) (hn : n < cfg7.N) (h7 : n % 8 = 7) :
    (sums V c n hn).1 = newBlock (sums V c n hn).2.1 (sums V c n hn).2.2 (blk V c 4 ⟨n, hn⟩) (blk V c 5 ⟨n, hn⟩) (blk V c 6 ⟨n, hn⟩) (blk V c 7 ⟨n, hn⟩) (blk V c 8 ⟨n, hn⟩) (blk V c 9 ⟨n, hn⟩) (blk V c 10 ⟨n, hn⟩) := by
  have h0 : ¬n % 8 = 0 := by omega
  have e := sums_finish V c ⟨n, hn⟩ h0 h7
  have eO := (congrArg (fun s => s.1) e).trans (finish_out V c ⟨n, hn⟩ _ _ _ _)
  have e0 := (congrArg (fun s => s.2.1) e).trans (finish_s0 V c ⟨n, hn⟩ _ _ _ _)
  have e1 := (congrArg (fun s => s.2.2) e).trans (finish_s1 V c ⟨n, hn⟩ _ _ _ _)
  exact eO.trans (by rw [e0, e1])

/-- Entry (p, q) of the result block at point `n = 8 m + 7` is entry (512 m + p, q) of one propagation step from the
    message arrays. -/
theorem block_value (c : Dev nD) (n : ℕ) (hn : n < cfg7.N) (h7 : n % 8 = 7) (p q : Fin 512) :
    ((sums V c n hn).1 (ix2 p q) : EReal)
      = stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))
          ⟨512 * (n / 8) + p.val, by have h := hn; rw [grid_size] at h; omega⟩ q := by
  have hn' : n < 64 := by have h := hn; rwa [grid_size] at h
  have hmb : n / 8 < 8 := by omega
  rw [out_of_sums V c n hn h7]
  unfold newBlock
  refine (newState_eq_update (fun p => (⟨512 * (n / 8) + p.val, by omega⟩ : Fin 4096))
    (Cert.GgnnMath.aggIn (fun p k => arrA V c (ix2 p k)) (fun p k => arrSI V c (ix2 p k)))
    (Cert.GgnnMath.aggOut (fun p k => arrA V c (ix2 p k)) (fun p k => arrSO V c (ix2 p k)))
    (fun p k => arrX V c (ix2 p k))
    (fun q j => arrWr V c (ix2 j q)) (fun q j => arrWz V c (ix2 j q)) (fun q j => arrWh V c (ix2 j q))
    (fun q => arrBr V c (ix2 0 q)) (fun q => arrBz V c (ix2 0 q)) (fun q => arrBh V c (ix2 0 q))
    (sums V c n hn).2.1 (sums V c n hn).2.2 (blk V c 4 ⟨n, hn⟩)
    (rowsA (blk V c 5 ⟨n, hn⟩)) (rowsB (blk V c 5 ⟨n, hn⟩)) (rowsC (blk V c 5 ⟨n, hn⟩))
    (rowsA (blk V c 7 ⟨n, hn⟩)) (rowsB (blk V c 7 ⟨n, hn⟩)) (rowsC (blk V c 7 ⟨n, hn⟩))
    (rowsA (blk V c 9 ⟨n, hn⟩)) (rowsB (blk V c 9 ⟨n, hn⟩)) (rowsC (blk V c 9 ⟨n, hn⟩))
    (blk V c 6 ⟨n, hn⟩) (blk V c 8 ⟨n, hn⟩) (blk V c 10 ⟨n, hn⟩)
    ?_ ?_ ?_ ?_ ?_ ?_ ?_ ?_ ?_ ?_ ?_ ?_ ?_ ?_ ?_ p q).trans rfl
  · intro p k
    refine (sums_in V c n hn p k).trans ?_
    rw [h7]
    exact total_in (arrA V c) (arrSI V c) (n / 8) hmb p k
  · intro p k
    refine (sums_out V c n hn p k).trans ?_
    rw [h7]
    exact total_out (arrA V c) (arrSO V c) (n / 8) hmb p k
  · intro p k
    exact blk4_apply V c ⟨n, hn⟩ (ix2 p k) (ix2 ⟨512 * (n / 8) + p.val, by omega⟩ k) rfl rfl
  · intro k q
    exact (rowsA_apply (blk V c 5 ⟨n, hn⟩) k q).trans (blk5_apply V c ⟨n, hn⟩ _ (ix2 (part0 k) q) rfl rfl)
  · intro k q
    exact (rowsB_apply (blk V c 5 ⟨n, hn⟩) k q).trans (blk5_apply V c ⟨n, hn⟩ _ (ix2 (part1 k) q) rfl rfl)
  · intro k q
    exact (rowsC_apply (blk V c 5 ⟨n, hn⟩) k q).trans (blk5_apply V c ⟨n, hn⟩ _ (ix2 (part2 k) q) rfl rfl)
  · intro k q
    exact (rowsA_apply (blk V c 7 ⟨n, hn⟩) k q).trans (blk7_apply V c ⟨n, hn⟩ _ (ix2 (part0 k) q) rfl rfl)
  · intro k q
    exact (rowsB_apply (blk V c 7 ⟨n, hn⟩) k q).trans (blk7_apply V c ⟨n, hn⟩ _ (ix2 (part1 k) q) rfl rfl)
  · intro k q
    exact (rowsC_apply (blk V c 7 ⟨n, hn⟩) k q).trans (blk7_apply V c ⟨n, hn⟩ _ (ix2 (part2 k) q) rfl rfl)
  · intro k q
    exact (rowsA_apply (blk V c 9 ⟨n, hn⟩) k q).trans (blk9_apply V c ⟨n, hn⟩ _ (ix2 (part0 k) q) rfl rfl)
  · intro k q
    exact (rowsB_apply (blk V c 9 ⟨n, hn⟩) k q).trans (blk9_apply V c ⟨n, hn⟩ _ (ix2 (part1 k) q) rfl rfl)
  · intro k q
    exact (rowsC_apply (blk V c 9 ⟨n, hn⟩) k q).trans (blk9_apply V c ⟨n, hn⟩ _ (ix2 (part2 k) q) rfl rfl)
  · intro q
    exact blk6_apply V c ⟨n, hn⟩ (ix2 0 q) (ix2 0 q) rfl rfl
  · intro q
    exact blk8_apply V c ⟨n, hn⟩ (ix2 0 q) (ix2 0 q) rfl rfl
  · intro q
    exact blk10_apply V c ⟨n, hn⟩ (ix2 0 q) (ix2 0 q) rfl rfl

/-! ## What the writing points write back, and the array after the region -/

/-- A point that writes the result block back — one at the last neighbour block — writes block m of the new-state array. -/
theorem flushed11_eq (c : Dev nD) (t : Fin cfg7.N) (hf : (cfg7.win 11).flush t = true) :
    (dat V c).flushed 11 t = ((cfg7.win 11).blk t).view.read (Elt Ideal)
      (newState (V c (Pipeline.arrRef spec7 0)) (V c (Pipeline.arrRef spec7 2)) (V c (Pipeline.arrRef spec7 3))
        (V c (Pipeline.arrRef spec7 4)) (V c (Pipeline.arrRef spec7 5)) (V c (Pipeline.arrRef spec7 6)) (V c (Pipeline.arrRef spec7 7))
        (V c (Pipeline.arrRef spec7 8)) (V c (Pipeline.arrRef spec7 9)) (V c (Pipeline.arrRef spec7 10))) := by
  have h7 : t.val % 8 = 7 := (flush7_11 t).mp hf
  have ht : t.val < 64 := Nat.lt_of_lt_of_eq t.isLt grid_size
  obtain ⟨-, -, -, -, -, -, -, -, -, -, -, -, -, -, -, -, -, -, -, -, -, -, e0, e1, -⟩ := index_facts t
  show (cfg7.win 11).cut (grid7.coords t) ((dat V c).after 11 t) = _
  rw [after11]
  funext j
  have hr : ((((cfg7.win 11).blk t).view.emb j) 0).val = win7_11.index t (0 : Fin 2) * 512 + 1 * (j 0).val := rfl
  have hq : ((((cfg7.win 11).blk t).view.emb j) 1).val = win7_11.index t (1 : Fin 2) * 512 + 1 * (j 1).val := rfl
  show (sums V c t.val t.isLt).1 j = newState (V c (Pipeline.arrRef spec7 0)) (V c (Pipeline.arrRef spec7 2)) (V c (Pipeline.arrRef spec7 3))
        (V c (Pipeline.arrRef spec7 4)) (V c (Pipeline.arrRef spec7 5)) (V c (Pipeline.arrRef spec7 6)) (V c (Pipeline.arrRef spec7 7))
        (V c (Pipeline.arrRef spec7 8)) (V c (Pipeline.arrRef spec7 9)) (V c (Pipeline.arrRef spec7 10)) (((cfg7.win 11).blk t).view.emb j)
  have hj : (sums V c t.val t.isLt).1 j = (sums V c t.val t.isLt).1 (ix2 (j 0) (j 1)) := congrArg _ (eq_ix2 j)
  refine hj.trans ((block_value V c t.val t.isLt h7 (j 0) (j 1)).trans ?_)
  show _ = stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))
      ((((cfg7.win 11).blk t).view.emb j) 0) ((((cfg7.win 11).blk t).view.emb j) 1)
  refine congrArg₂ (stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))) (Fin.ext ?_) (Fin.ext ?_)
  · show 512 * (t.val / 8) + (j 0).val = ((((cfg7.win 11).blk t).view.emb j) 0).val
    omega
  · show (j 1).val = ((((cfg7.win 11).blk t).view.emb j) 1).val
    omega

/-- An index of the new-state array is in point `t`'s block iff each coordinate is in the block's range on its axis. -/
theorem mem_blk11 (t : Fin cfg7.N) (i : S4096x512.Idx) :
    i ∈ ((cfg7.win 11).blk t).view.set ↔ ∀ a : Fin 2, win7_11.index t a * S512x512.size a ≤ (i a).val
      ∧ (i a).val < win7_11.index t a * S512x512.size a + S512x512.size a := by
  show i ∈ ((View.whole (Pipeline.arrRef spec7 11)).slice (win7_11.rect t)).set ↔ _
  rw [View.set_slice_whole, Rect.mem_set_unit]
  exact Iff.rfl

/-- The point that writes row `r`: the last neighbour block of node block `r / 512`. -/
def pointOf (i : S4096x512.Idx) : Fin cfg7.N :=
  ⟨8 * ((i 0).val / 512) + 7, by have h : (i 0).val < 4096 := (i 0).isLt; rw [grid_size]; omega⟩

/-- The eight written blocks tile the new-state array. -/
theorem cover11 (i : S4096x512.Idx) :
    ∃ t : Fin cfg7.N, (cfg7.win 11).flush t = true ∧ i ∈ ((cfg7.win 11).blk t).view.set := by
  have hi0 : (i 0).val < 4096 := (i 0).isLt
  have hi1 : (i 1).val < 512 := (i 1).isLt
  have ht : (pointOf i).val = 8 * ((i 0).val / 512) + 7 := rfl
  obtain ⟨-, -, -, -, -, -, -, -, -, -, -, -, -, -, -, -, -, -, -, -, -, -, e0, e1, -⟩ := index_facts (pointOf i)
  refine ⟨pointOf i, (flush7_11 (pointOf i)).mpr (by omega), ?_⟩
  rw [mem_blk11]
  intro a
  match a with
  | ⟨0, _⟩ => show win7_11.index (pointOf i) (0 : Fin 2) * 512 ≤ (i 0).val
                ∧ (i 0).val < win7_11.index (pointOf i) (0 : Fin 2) * 512 + 512; omega
  | ⟨1, _⟩ => show win7_11.index (pointOf i) (1 : Fin 2) * 512 ≤ (i 1).val
                ∧ (i 1).val < win7_11.index (pointOf i) (1 : Fin 2) * 512 + 512; omega

/-- THE NEW-STATE ARRAY after the region: one propagation step from the message arrays, the adjacency array, the state
    array, the gate weights and the bias rows as the region finds them. -/
theorem arr11 (c : Dev nD) :
    (dat V c).arrAt 11 cfg7.N = newState (V c (Pipeline.arrRef spec7 0)) (V c (Pipeline.arrRef spec7 2)) (V c (Pipeline.arrRef spec7 3))
        (V c (Pipeline.arrRef spec7 4)) (V c (Pipeline.arrRef spec7 5)) (V c (Pipeline.arrRef spec7 6)) (V c (Pipeline.arrRef spec7 7))
        (V c (Pipeline.arrRef spec7 8)) (V c (Pipeline.arrRef spec7 9)) (V c (Pipeline.arrRef spec7 10)) := by
  have hG : ∀ t, (cfg7.win 11).flush t = true → (dat V c).flushed 11 t = ((cfg7.win 11).blk t).view.read (Elt Ideal)
      (newState (V c (Pipeline.arrRef spec7 0)) (V c (Pipeline.arrRef spec7 2)) (V c (Pipeline.arrRef spec7 3))
        (V c (Pipeline.arrRef spec7 4)) (V c (Pipeline.arrRef spec7 5)) (V c (Pipeline.arrRef spec7 6)) (V c (Pipeline.arrRef spec7 7))
        (V c (Pipeline.arrRef spec7 8)) (V c (Pipeline.arrRef spec7 9)) (V c (Pipeline.arrRef spec7 10))) :=
    fun t hf => flushed11_eq V c t hf
  exact Dat.arrAt_eq_of_cover (dat V c) 11 _ hG cover11

/-! ## The input arrays are never written -/

/-- Each of the eleven input windows' arrays ends as the region finds it. -/
theorem arr0 (c : Dev nD) : (dat V c).arrAt 0 cfg7.N = V c (Pipeline.arrRef spec7 0) :=
  ((dat V c).arrAt_in 0 rfl cfg7.N).trans (dat_A V c 0)
theorem arr1 (c : Dev nD) : (dat V c).arrAt 1 cfg7.N = V c (Pipeline.arrRef spec7 1) :=
  ((dat V c).arrAt_in 1 rfl cfg7.N).trans (dat_A V c 1)
theorem arr2 (c : Dev nD) : (dat V c).arrAt 2 cfg7.N = V c (Pipeline.arrRef spec7 2) :=
  ((dat V c).arrAt_in 2 rfl cfg7.N).trans (dat_A V c 2)
theorem arr3 (c : Dev nD) : (dat V c).arrAt 3 cfg7.N = V c (Pipeline.arrRef spec7 3) :=
  ((dat V c).arrAt_in 3 rfl cfg7.N).trans (dat_A V c 3)
theorem arr4 (c : Dev nD) : (dat V c).arrAt 4 cfg7.N = V c (Pipeline.arrRef spec7 4) :=
  ((dat V c).arrAt_in 4 rfl cfg7.N).trans (dat_A V c 4)
theorem arr5 (c : Dev nD) : (dat V c).arrAt 5 cfg7.N = V c (Pipeline.arrRef spec7 5) :=
  ((dat V c).arrAt_in 5 rfl cfg7.N).trans (dat_A V c 5)
theorem arr6 (c : Dev nD) : (dat V c).arrAt 6 cfg7.N = V c (Pipeline.arrRef spec7 6) :=
  ((dat V c).arrAt_in 6 rfl cfg7.N).trans (dat_A V c 6)
theorem arr7 (c : Dev nD) : (dat V c).arrAt 7 cfg7.N = V c (Pipeline.arrRef spec7 7) :=
  ((dat V c).arrAt_in 7 rfl cfg7.N).trans (dat_A V c 7)
theorem arr8 (c : Dev nD) : (dat V c).arrAt 8 cfg7.N = V c (Pipeline.arrRef spec7 8) :=
  ((dat V c).arrAt_in 8 rfl cfg7.N).trans (dat_A V c 8)
theorem arr9 (c : Dev nD) : (dat V c).arrAt 9 cfg7.N = V c (Pipeline.arrRef spec7 9) :=
  ((dat V c).arrAt_in 9 rfl cfg7.N).trans (dat_A V c 9)
theorem arr10 (c : Dev nD) : (dat V c).arrAt 10 cfg7.N = V c (Pipeline.arrRef spec7 10) :=
  ((dat V c).arrAt_in 10 rfl cfg7.N).trans (dat_A V c 10)

end Cert.KernelIdeal.GatedValue7

end
-- ==== Proof.IdealGatedPieces9.lean ====
/-
  Region 9: what the body's three runs leave in the buffers they store into, as functions of what they load.

  At every grid point the two running sums each receive one store of "what the sum held plus this point's block
  product"; at the first neighbour block what the sum held is the zero block stored just before. At the last neighbour
  block the result block receives one store: the gated update computed from the two finished sums, the node block's own
  state, the three gate weights (each read as three consecutive blocks of 512 rows) and the three bias rows.
  One store through the whole-buffer rectangle leaves its payload, and a load through it of what was just stored reads
  that payload back; so each stored buffer ends as one payload term of the loaded blocks.
-/
import proofs.«121501_j55087250538634_2_alg».proof.Proof.IdealGated9Runs
import Idealize.ShloMosaic.Lib.Pipeline.Value
import Idealize.ShloMosaic.Lib.Tactic
import Idealize.ShloMosaic.Lib.Ring

set_option maxRecDepth 16384

noncomputable section

namespace Cert.KernelIdeal.GatedPieces9

open Cert.KernelIdeal Cert.KernelIdeal.Gen Cert.KernelIdeal.Gated9
open Idealize.ShloMosaic Idealize.ShloMosaic.TcCoe Idealize.ShloMosaic.Tactic Idealize.SL.Sem

variable {F : FTy → Type} [FloatOps F]

/-- The zero offsets of a whole-buffer rectangle, as the constant function. -/
theorem zeroOffsets : (![0, 0] : Fin 2 → Nat) = fun _ => 0 := funext fun a => by fin_cases a <;> rfl

/-- The 512 rows of a whole message array that the body loads at grid point `i`: those of the point's neighbour block. -/
abbrev nbrRows (i : grid9.Coords) (x : Vec F S4096x512 .bf16) : Vec F S512x512 .bf16 :=
  View.ld x (Rect.unit (s := S4096x512) (k9_off1 i) S512x512.size (k9_off1_inb i))

/-- The three consecutive blocks of 512 rows of a 1536-row gate weight. -/
abbrev rowsA (x : Vec F S1536x512 .bf16) : Vec F S512x512 .bf16 :=
  View.ld x (Rect.unit (s := S1536x512) ![0, 0] S512x512.size inb_S1536x512_S512x512_0_0)
abbrev rowsB (x : Vec F S1536x512 .bf16) : Vec F S512x512 .bf16 :=
  View.ld x (Rect.unit (s := S1536x512) ![512, 0] S512x512.size inb_S1536x512_S512x512_512_0)
abbrev rowsC (x : Vec F S1536x512 .bf16) : Vec F S512x512 .bf16 :=
  View.ld x (Rect.unit (s := S1536x512) ![1024, 0] S512x512.size inb_S1536x512_S512x512_1024_0)

/-- The new state of a node block from its two finished sums `S0`, `S1`, its own state `x6`, the reset gate's weight and
    bias `x7`, `x8`, the update gate's `x9`, `x10` and the candidate's `x11`, `x12`. -/
def newBlock (S0 S1 : Vec F S512x512 .f32) (x6 : Vec F S512x512 .f32) (x7 : Vec F S1536x512 .bf16) (x8 : Vec F S1x512 .f32)
    (x9 : Vec F S1536x512 .bf16) (x10 : Vec F S1x512 .f32) (x11 : Vec F S1536x512 .bf16) (x12 : Vec F S1x512 .f32) :
    Vec F S512x512 .f32 :=
  k9_pay5 (k9_pay6 x6) (k9_pay7 S0) (k9_pay8 S1) (k9_pay10 S0 S1 x6 (rowsA x7) (rowsB x7) (rowsC x7) x8)
    (k9_pay11 S0 S1 x6 (rowsA x9) (rowsB x9) (rowsC x9)) x10 (rowsA x11) (rowsB x11) (rowsC x11) x12

/-- START, first sum: the zero block plus the first product. -/
theorem start_piece0 (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32)  :
    a14.view.read (Elt F) (a14.view.writes (Elt F) a14.view.junk (runStart c i a2 h2 a3 h3 a4 h4 a5 h5 a6 h6 a7 h7 a8 h8 a9 h9 a10 h10 a11 h11 a12 h12 a13 h13 a14 h14 a15 h15 hs hf x2 x3 x4 x5 x6 x7 x8 x9 x10 x11 x12 ).1) = k9_pay3 (nbrRows i x4) k9_pay1 x2 := by
  rw [View.read_writes_eq_canon _ _ _ (fun y => View.cover_of_tiledL _ S512x512.size (by sl_kernel_rfl) y)]
  unfold runStart
  dsimp only
  try sl_unfold_words
  rw [View.canon_cons_unit_zero zeroOffsets]
  simp only [View.readCov_unit_zero (S := S512x512) _ zeroOffsets, View.readAt_eq_ld, h2.read_unread, h3.read_unread, h4.read_unread, h5.read_unread, View.ld_unit_zero (S := S512x512) zeroOffsets]
  try rfl

/-- START, second sum. -/
theorem start_piece1 (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32)  :
    a15.view.read (Elt F) (a15.view.writes (Elt F) a15.view.junk (runStart c i a2 h2 a3 h3 a4 h4 a5 h5 a6 h6 a7 h7 a8 h8 a9 h9 a10 h10 a11 h11 a12 h12 a13 h13 a14 h14 a15 h15 hs hf x2 x3 x4 x5 x6 x7 x8 x9 x10 x11 x12 ).2.1) = k9_pay4 (nbrRows i x5) k9_pay2 x3 := by
  rw [View.read_writes_eq_canon _ _ _ (fun y => View.cover_of_tiledL _ S512x512.size (by sl_kernel_rfl) y)]
  unfold runStart
  dsimp only
  try sl_unfold_words
  rw [View.canon_cons_unit_zero zeroOffsets]
  simp only [View.readCov_unit_zero (S := S512x512) _ zeroOffsets, View.readAt_eq_ld, h2.read_unread, h3.read_unread, h4.read_unread, h5.read_unread, View.ld_unit_zero (S := S512x512) zeroOffsets]
  try rfl

/-- MIDDLE, first sum: what the point before left plus this point's product. -/
theorem middle_piece0 (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a14.view.read (Elt F) (a14.view.writes (Elt F) a14.view.junk (runMiddle c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).1) = k9_pay3 (nbrRows i x4) s0 x2 := by
  rw [View.read_writes_eq_canon _ _ _ (fun y => View.cover_of_tiledL _ S512x512.size (by sl_kernel_rfl) y)]
  unfold runMiddle
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- MIDDLE, second sum. -/
theorem middle_piece1 (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : ¬atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a15.view.read (Elt F) (a15.view.writes (Elt F) a15.view.junk (runMiddle c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.1) = k9_pay4 (nbrRows i x5) s1 x3 := by
  rw [View.read_writes_eq_canon _ _ _ (fun y => View.cover_of_tiledL _ S512x512.size (by sl_kernel_rfl) y)]
  unfold runMiddle
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, first sum. -/
theorem finish_piece0 (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a14.view.read (Elt F) (a14.view.writes (Elt F) a14.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.1) = k9_pay3 (nbrRows i x4) s0 x2 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, second sum. -/
theorem finish_piece1 (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a15.view.read (Elt F) (a15.view.writes (Elt F) a15.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).2.2.1) = k9_pay4 (nbrRows i x5) s1 x3 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readAt_eq_ld, h2.read_unread, h3.read_unread, h4.read_unread, h5.read_unread, h14.read_unread, h15.read_unread, View.ld_unit_zero (S := S512x512) zeroOffsets]
  try rfl

/-- FINISH, the result block: the new state from the two finished sums. -/
theorem finish_pieceO (c : Dev nD) (i : grid9.Coords) (a2 : Memref sig .tc .vmem S512x512 .bf16) (h2 : a2.IsWhole) (a3 : Memref sig .tc .vmem S512x512 .bf16) (h3 : a3.IsWhole) (a4 : Memref sig .tc .vmem S4096x512 .bf16) (h4 : a4.IsWhole) (a5 : Memref sig .tc .vmem S4096x512 .bf16) (h5 : a5.IsWhole) (a6 : Memref sig .tc .vmem S512x512 .f32) (h6 : a6.IsWhole) (a7 : Memref sig .tc .vmem S1536x512 .bf16) (h7 : a7.IsWhole) (a8 : Memref sig .tc .vmem S1x512 .f32) (h8 : a8.IsWhole) (a9 : Memref sig .tc .vmem S1536x512 .bf16) (h9 : a9.IsWhole) (a10 : Memref sig .tc .vmem S1x512 .f32) (h10 : a10.IsWhole) (a11 : Memref sig .tc .vmem S1536x512 .bf16) (h11 : a11.IsWhole) (a12 : Memref sig .tc .vmem S1x512 .f32) (h12 : a12.IsWhole) (a13 : Memref sig .tc .vmem S512x512 .f32) (h13 : a13.IsWhole) (a14 : Memref sig .tc .vmem S512x512 .f32) (h14 : a14.IsWhole) (a15 : Memref sig .tc .vmem S512x512 .f32) (h15 : a15.IsWhole)
    (hs : ¬atStart i) (hf : atFinish i) (x2 : Vec F S512x512 .bf16) (x3 : Vec F S512x512 .bf16) (x4 : Vec F S4096x512 .bf16) (x5 : Vec F S4096x512 .bf16) (x6 : Vec F S512x512 .f32) (x7 : Vec F S1536x512 .bf16) (x8 : Vec F S1x512 .f32) (x9 : Vec F S1536x512 .bf16) (x10 : Vec F S1x512 .f32) (x11 : Vec F S1536x512 .bf16) (x12 : Vec F S1x512 .f32) (s0 s1 : Vec F S512x512 .f32) :
    a13.view.read (Elt F) (a13.view.writes (Elt F) a13.view.junk (runFinish c i a2 h2 a3 h3 a4 h4 a5 h5 a6 h6 a7 h7 a8 h8 a9 h9 a10 h10 a11 h11 a12 h12 a13 h13 a14 h14 a15 h15 hs hf x2 x3 x4 x5 x6 x7 x8 x9 x10 x11 x12 s0 s1).1) = newBlock (k9_pay3 (nbrRows i x4) s0 x2) (k9_pay4 (nbrRows i x5) s1 x3) x6 x7 x8 x9 x10 x11 x12 := by
  rw [View.read_writes_eq_canon _ _ _ (fun y => View.cover_of_tiledL _ S512x512.size (by sl_kernel_rfl) y)]
  unfold runFinish
  dsimp only
  try sl_unfold_words
  rw [View.canon_unit_zero zeroOffsets]
  simp only [View.readCov_unit_zero (S := S512x512) _ zeroOffsets, View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S512x512) zeroOffsets, View.ld_unit_zero (S := S1x512) zeroOffsets]
  rfl

end Cert.KernelIdeal.GatedPieces9

end
-- ==== Proof.IdealGatedPayload9.lean ====
/-
  The arithmetic of the gated-update body of region 9, entry by entry over the extended reals.

  Every block is 512 x 512 except the bias rows, which are 1 x 512. A change of float format is the identity on the
  extended reals, a reshape to the same shape is the identity, and a bias row broadcast down the rows is the row's entry
  in every row. A block product into the zero accumulator is, at row p and column q, the finite sum over the contracted
  coordinate k of the products of the operands' entries: for the product of rows against columns the entries (p, k) and
  (k, q), for the product contracting both operands' row axes the entries (k, p) and (k, q).

  So, at row p and column q:
    the two cleared accumulators hold zero;
    an accumulation step adds to the running sum one such finite sum;
    a gate's pre-activation is the three finite sums over the three loaded weight blocks, added left to right, then the
    bias entry of column q, and the reset gate is its logistic;
    the candidate is the hyperbolic tangent of the same three-part sum, its third part over the product of the reset gate
    and the state;
    the new state is (1 - z) * x + z * h with z the logistic of the update gate's pre-activation.

  The last section reads the loaded blocks as rows of whole arrays (512 consecutive or any other 512 rows, given by a map
  of row numbers) and the loaded weight blocks as the three blocks of 512 columns of a weight with 1536 columns, stored
  transposed; the new-state block is then the convex update of the network's step at those rows.
-/
import proofs.«121501_j55087250538634_2_alg».proof.Proof.Gen.KernelIdeal.Skeleton
import proofs.«121501_j55087250538634_2_alg».proof.Proof.GgnnMath
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.GatedPayload9

open Cert.KernelIdeal Cert.KernelIdeal.Gen
open Idealize.ShloMosaic Idealize.ShloMosaic.TcCoe Idealize.SL.Sem
open Idealize.ShloMosaic.ValueIdx
open Cert.GgnnMath

/-! ## The two block products' operand indices, one coordinate at a time -/

/-- Rows of the left operand against columns of the right: the left's axis 1 is contracted with the right's axis 0. -/
abbrev dotRC : DotDims S512x512 S512x512 S512x512 := dot_S512x512_S512x512_S512x512_1_0_0_1_n_n

/-- Both operands' axis 0 contracted: columns of the left operand against columns of the right. -/
abbrev dotCC : DotDims S512x512 S512x512 S512x512 := dot_S512x512_S512x512_S512x512_0_0_1_1_n_n

theorem rc_lhs_row (i : S512x512.Idx) (q : dotRC.contr.Idx) : (dotRC.lhsIdx i q 0).val = (i 0).val := by
  unfold DotDims.lhsIdx
  rw [dif_neg (show ¬(0 : Fin S512x512.rank) ∈ dotRC.lhsBatch by decide),
    dif_pos (show (0 : Fin S512x512.rank) ∈ dotRC.lhsNonContracting by decide)]
  rfl

theorem rc_lhs_col (i : S512x512.Idx) (q : dotRC.contr.Idx) : (dotRC.lhsIdx i q 1).val = (q ⟨0, by decide⟩).val :=
  dotRC.lhsIdx_val_of_single rfl i q

theorem rc_rhs_row (i : S512x512.Idx) (q : dotRC.contr.Idx) : (dotRC.rhsIdx i q 0).val = (q ⟨0, by decide⟩).val :=
  dotRC.rhsIdx_val_of_single rfl i q

theorem rc_rhs_col (i : S512x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

theorem cc_lhs_row (i : S512x512.Idx) (q : dotCC.contr.Idx) : (dotCC.lhsIdx i q 0).val = (q ⟨0, by decide⟩).val :=
  dotCC.lhsIdx_val_of_single rfl i q

theorem cc_lhs_col (i : S512x512.Idx) (q : dotCC.contr.Idx) : (dotCC.lhsIdx i q 1).val = (i 0).val := by
  unfold DotDims.lhsIdx
  rw [dif_neg (show ¬(1 : Fin S512x512.rank) ∈ dotCC.lhsBatch by decide),
    dif_pos (show (1 : Fin S512x512.rank) ∈ dotCC.lhsNonContracting by decide)]
  rfl

theorem cc_rhs_row (i : S512x512.Idx) (q : dotCC.contr.Idx) : (dotCC.rhsIdx i q 0).val = (q ⟨0, by decide⟩).val :=
  dotCC.rhsIdx_val_of_single rfl i q

theorem cc_rhs_col (i : S512x512.Idx) (q : dotCC.contr.Idx) : (dotCC.rhsIdx i q 1).val = (i 1).val := by
  unfold DotDims.rhsIdx
  rw [dif_neg (show ¬(1 : Fin S512x512.rank) ∈ dotCC.rhsBatch by decide),
    dif_pos (show (1 : Fin S512x512.rank) ∈ dotCC.rhsNonContracting by decide)]
  rfl

/-- The product of rows against columns into the zero accumulator, at row `p` and column `q`. -/
theorem productRC_apply {φ₁ φ₂ : FTy} (l : FVec Ideal S512x512 φ₁) (r : FVec Ideal S512x512 φ₂) (p q : Fin 512) :
    matmul dotRC none l r (constant (F := Ideal) S512x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact rc_lhs_row _ _
    | ⟨1, _⟩ => exact (rc_lhs_col _ _).trans hk)
  have er : dotRC.rhsIdx (ix2 p q) ((contrEquiv1 dotRC 512 rfl rfl).symm k) = ix2 k q := funext fun a => Fin.ext (by
    match a with
    | ⟨0, _⟩ => exact (rc_rhs_row _ _).trans hk
    | ⟨1, _⟩ => exact rc_rhs_col _ _)
  rw [el, er]

/-- The product contracting both operands' row axes into the zero accumulator, at row `p` and column `q`. -/
theorem productCC_apply {φ₁ φ₂ : FTy} (l : FVec Ideal S512x512 φ₁) (r : FVec Ideal S512x512 φ₂) (p q : Fin 512) :
    matmul dotCC none l r (constant (F := Ideal) S512x512 .f32 0x00000000#32) (ix2 p q)
      = ∑ k : Fin 512, l (ix2 k p) * r (ix2 k q) := by
  simp only [matmul]
  rw [Ideal.matmul_constant_zero_apply, ← Equiv.sum_comp (contrEquiv1 dotCC 512 rfl rfl).symm]
  refine Finset.sum_congr rfl fun k _ => ?_
  have hk := contrEquiv1_symm_val dotCC 512 rfl rfl k
  have el : dotCC.lhsIdx (ix2 p q) ((contrEquiv1 dotCC 512 rfl rfl).symm k) = ix2 k p := funext fun a => Fin.ext (by
    match a with
    | ⟨0, _⟩ => exact (cc_lhs_row _ _).trans hk
    | ⟨1, _⟩ => exact cc_lhs_col _ _)
  have er : dotCC.rhsIdx (ix2 p q) ((contrEquiv1 dotCC 512 rfl rfl).symm k) = ix2 k q := funext fun a => Fin.ext (by
    match a with
    | ⟨0, _⟩ => exact (cc_rhs_row _ _).trans hk
    | ⟨1, _⟩ => exact cc_rhs_col _ _)
  rw [el, er]

/-- The bias row broadcast down the rows, at row `p` and column `q`, is the row's entry at column `q`. -/
theorem bias_apply (b : FVec Ideal S1x512 .f32) (p q : Fin 512) :
    broadcastTo S512x512 b broadcasts_S1x512_S512x512 (ix2 p q) = b (ix2 0 q) := by
  refine broadcastTo_apply b _ (ix2 p q) (ix2 0 q) fun a => ?_
  match a with
  | ⟨0, _⟩ => rfl
  | ⟨1, _⟩ => rfl

/-- The logistic of a block, entry by entry. -/
theorem logistic_apply (v : FVec Ideal S512x512 .f32) (i : S512x512.Idx) : logistic v i = Ideal.logistic (v i) := rfl

/-- The hyperbolic tangent of a block, entry by entry. -/
theorem tanh_apply (v : FVec Ideal S512x512 .f32) (i : S512x512.Idx) : tanh v i = Ideal.tanh (v i) := rfl

/-! ## The payloads at an index -/

/-- The cleared incoming accumulator holds zero everywhere. -/
theorem clear_in_apply (p q : Fin 512) : k9_pay1 (F := Ideal) (ix2 p q) = 0 := by
  unfold k9_pay1
  simp only [shapeCast_self]
  rw [broadcast_apply]
  exact Ideal.ofBits_zero_f32

/-- The cleared outgoing accumulator holds zero everywhere. -/
theorem clear_out_apply (p q : Fin 512) : k9_pay2 (F := Ideal) (ix2 p q) = 0 := by
  unfold k9_pay2
  simp only [shapeCast_self]
  rw [broadcast_apply]
  exact Ideal.ofBits_zero_f32

/-- One accumulation step of the incoming aggregate: the running sum plus, over the 512 nodes `k` of the step, the
    adjacency entry `(p, k)` times the message entry `(k, q)`. -/
theorem acc_in_apply (msg : Vec Ideal S512x512 .bf16) (run : Vec Ideal S512x512 .f32) (adj : Vec Ideal S512x512 .bf16)
    (p q : Fin 512) :
    k9_pay3 msg run adj (ix2 p q) = run (ix2 p q) + ∑ k : Fin 512, adj (ix2 p k) * msg (ix2 k q) := by
  unfold k9_pay3
  simp only [shapeCast_self]
  rw [addf_apply]
  exact congrArg (run (ix2 p q) + ·) (productRC_apply _ _ p q)

/-- One accumulation step of the outgoing aggregate: the running sum plus, over the 512 nodes `k` of the step, the
    adjacency entry `(k, p)` times the message entry `(k, q)`. -/
theorem acc_out_apply (msg : Vec Ideal S512x512 .bf16) (run : Vec Ideal S512x512 .f32) (adj : Vec Ideal S512x512 .bf16)
    (p q : Fin 512) :
    k9_pay4 msg run adj (ix2 p q) = run (ix2 p q) + ∑ k : Fin 512, adj (ix2 k p) * msg (ix2 k q) := by
  unfold k9_pay4
  simp only [shapeCast_self]
  rw [addf_apply]
  exact congrArg (run (ix2 p q) + ·) (productCC_apply _ _ p q)

/-- The reset gate at row `p`, column `q`: the logistic of the three partial sums plus the bias entry. -/
theorem reset_apply (aIn aOut x : Vec Ideal S512x512 .f32) (w0 w1 w2 : Vec Ideal S512x512 .bf16) (b : Vec Ideal S1x512 .f32)
    (p q : Fin 512) :
    k9_pay10 aIn aOut x w0 w1 w2 b (ix2 p q) =
      Ideal.logistic ((((∑ k : Fin 512, aIn (ix2 p k) * w0 (ix2 k q)) + ∑ k : Fin 512, aOut (ix2 p k) * w1 (ix2 k q))
        + ∑ k : Fin 512, x (ix2 p k) * w2 (ix2 k q)) + b (ix2 0 q)) := by
  unfold k9_pay10 k9_pay7 k9_pay8 k9_pay9 k9_pay6
  simp only [shapeCast_self]
  rw [logistic_apply, addf_apply, addf_apply, addf_apply, bias_apply, productRC_apply, productRC_apply, productRC_apply]
  rfl

/-- The update gate's pre-activation without its bias at row `p`, column `q`: the three partial sums. -/
theorem updatePre_apply (aIn aOut x : Vec Ideal S512x512 .f32) (w0 w1 w2 : Vec Ideal S512x512 .bf16) (p q : Fin 512) :
    k9_pay11 aIn aOut x w0 w1 w2 (ix2 p q) =
      ((∑ k : Fin 512, aIn (ix2 p k) * w0 (ix2 k q)) + ∑ k : Fin 512, aOut (ix2 p k) * w1 (ix2 k q))
        + ∑ k : Fin 512, x (ix2 p k) * w2 (ix2 k q) := by
  unfold k9_pay11 k9_pay7 k9_pay8 k9_pay9 k9_pay6
  simp only [shapeCast_self]
  rw [addf_apply, addf_apply, productRC_apply, productRC_apply, productRC_apply]
  rfl

/-- The new state at row `p`, column `q`: with `z` the logistic of the update gate's pre-activation plus its bias and
    `h` the hyperbolic tangent of the candidate's three partial sums (the third over the reset gate times the state)
    plus its bias, `(1 - z) * x + z * h`. -/
theorem newState_apply (x : Vec Ideal S512x512 .f32) (aIn aOut : FVec Ideal S512x512 .bf16) (r zpre : FVec Ideal S512x512 .f32)
    (bz : Vec Ideal S1x512 .f32) (w0 w1 w2 : Vec Ideal S512x512 .bf16) (bh : Vec Ideal S1x512 .f32) (p q : Fin 512) :
    k9_pay5 x aIn aOut r zpre bz w0 w1 w2 bh (ix2 p q) =
      (1 - Ideal.logistic (zpre (ix2 p q) + bz (ix2 0 q))) * x (ix2 p q)
        + Ideal.logistic (zpre (ix2 p q) + bz (ix2 0 q))
          * Ideal.tanh ((((∑ k : Fin 512, aIn (ix2 p k) * w0 (ix2 k q)) + ∑ k : Fin 512, aOut (ix2 p k) * w1 (ix2 k q))
              + ∑ k : Fin 512, (r (ix2 p k) * x (ix2 p k)) * w2 (ix2 k q)) + bh (ix2 0 q)) := by
  unfold k9_pay5
  simp only [shapeCast_self]
  rw [addf_apply, mulf_apply, mulf_apply, subf_apply, broadcast_apply, logistic_apply, addf_apply, bias_apply, tanh_apply,
    addf_apply, addf_apply, addf_apply, bias_apply, productRC_apply, productRC_apply, productRC_apply]
  simp only [truncf_apply, mulf_apply]
  rw [show (Scalar.ofBits (F := Ideal) .f32 0x3F800000#32 : EReal) = 1 from Ideal.ofBits_one_f32]

/-- The state block handed on unchanged (a reshape to the same shape). -/
theorem stateCast_apply (x : Vec Ideal S512x512 .f32) (i : S512x512.Idx) : k9_pay6 x i = x i := by
  unfold k9_pay6
  simp only [shapeCast_self]

/-- The incoming aggregate's block in the narrower float format is the block itself. -/
theorem fmt_in_apply (v : Vec Ideal S512x512 .f32) (i : S512x512.Idx) : k9_pay7 v i = v i := by
  unfold k9_pay7
  rfl

/-- The outgoing aggregate's block in the narrower float format is the block itself. -/
theorem fmt_out_apply (v : Vec Ideal S512x512 .f32) (i : S512x512.Idx) : k9_pay8 v i = v i := by
  unfold k9_pay8
  rfl

/-- The state block in the narrower float format is the block itself. -/
theorem fmt_state_apply (v : Vec Ideal S512x512 .f32) (i : S512x512.Idx) : k9_pay9 v i = v i := by
  unfold k9_pay9 k9_pay6
  simp only [shapeCast_self, truncf_apply]

/-! ## The new-state block as the network's convex update at the block's rows

  The loaded blocks are read as rows of whole arrays: `row p` is the array row that the block's row `p` holds. A gate's
  weight has 1536 columns, three blocks of 512; the body loads it transposed, so the loaded block `i` at `(k, q)` is the
  weight's entry at row `q` and column `k` of the column block `i`. -/

/-- The reset gate's block is the network's reset gate at the block's rows. -/
theorem reset_eq_gate (row : Fin 512 → Fin 4096) (aIn aOut x : Fin 4096 → Fin 512 → EReal)
    (Wr : Fin 512 → Fin 1536 → EReal) (br : Fin 512 → EReal)
    (sIn sOut xb : Vec Ideal S512x512 .f32) (r0 r1 r2 : Vec Ideal S512x512 .bf16) (vbr : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hr0 : ∀ k q : Fin 512, r0 (ix2 k q) = Wr q (part0 k))
    (hr1 : ∀ k q : Fin 512, r1 (ix2 k q) = Wr q (part1 k))
    (hr2 : ∀ k q : Fin 512, r2 (ix2 k q) = Wr q (part2 k))
    (hbr : ∀ q : Fin 512, vbr (ix2 0 q) = br q) (p q : Fin 512) :
    k9_pay10 sIn sOut xb r0 r1 r2 vbr (ix2 p q) = Ideal.logistic (gate aIn aOut x Wr br (row p) q) := by
  rw [reset_apply]
  simp only [gate, hIn, hOut, hx, hr0, hr1, hr2, hbr]

/-- The update gate's pre-activation block plus its bias row is the network's update-gate pre-activation at the
    block's rows. -/
theorem updatePre_eq_gate (row : Fin 512 → Fin 4096) (aIn aOut x : Fin 4096 → Fin 512 → EReal)
    (Wz : Fin 512 → Fin 1536 → EReal) (bz : Fin 512 → EReal)
    (sIn sOut xb : Vec Ideal S512x512 .f32) (z0 z1 z2 : Vec Ideal S512x512 .bf16) (vbz : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hz0 : ∀ k q : Fin 512, z0 (ix2 k q) = Wz q (part0 k))
    (hz1 : ∀ k q : Fin 512, z1 (ix2 k q) = Wz q (part1 k))
    (hz2 : ∀ k q : Fin 512, z2 (ix2 k q) = Wz q (part2 k))
    (hbz : ∀ q : Fin 512, vbz (ix2 0 q) = bz q) (p q : Fin 512) :
    k9_pay11 sIn sOut xb z0 z1 z2 (ix2 p q) + vbz (ix2 0 q) = gate aIn aOut x Wz bz (row p) q := by
  rw [updatePre_apply]
  simp only [gate, hIn, hOut, hx, hz0, hz1, hz2, hbz]

/-- The new-state block, computed by the body from the finished aggregates' blocks `sIn`, `sOut`, the state block `xb`,
    the nine loaded weight blocks and the three bias rows, is at `(p, q)` the network's convex update
    `(1 - z) * x + z * h` at row `row p` and column `q`, with `r` and `z` the logistics of the reset and update gates and
    `h` the candidate. -/
theorem newState_eq_update (row : Fin 512 → Fin 4096) (aIn aOut x : Fin 4096 → Fin 512 → EReal)
    (Wr Wz Wh : Fin 512 → Fin 1536 → EReal) (br bz bh : Fin 512 → EReal)
    (sIn sOut xb : Vec Ideal S512x512 .f32)
    (r0 r1 r2 z0 z1 z2 h0 h1 h2 : Vec Ideal S512x512 .bf16) (vbr vbz vbh : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hr0 : ∀ k q : Fin 512, r0 (ix2 k q) = Wr q (part0 k))
    (hr1 : ∀ k q : Fin 512, r1 (ix2 k q) = Wr q (part1 k))
    (hr2 : ∀ k q : Fin 512, r2 (ix2 k q) = Wr q (part2 k))
    (hz0 : ∀ k q : Fin 512, z0 (ix2 k q) = Wz q (part0 k))
    (hz1 : ∀ k q : Fin 512, z1 (ix2 k q) = Wz q (part1 k))
    (hz2 : ∀ k q : Fin 512, z2 (ix2 k q) = Wz q (part2 k))
    (hh0 : ∀ k q : Fin 512, h0 (ix2 k q) = Wh q (part0 k))
    (hh1 : ∀ k q : Fin 512, h1 (ix2 k q) = Wh q (part1 k))
    (hh2 : ∀ k q : Fin 512, h2 (ix2 k q) = Wh q (part2 k))
    (hbr : ∀ q : Fin 512, vbr (ix2 0 q) = br q)
    (hbz : ∀ q : Fin 512, vbz (ix2 0 q) = bz q)
    (hbh : ∀ q : Fin 512, vbh (ix2 0 q) = bh q) (p q : Fin 512) :
    k9_pay5 (k9_pay6 xb) (k9_pay7 sIn) (k9_pay8 sOut) (k9_pay10 sIn sOut xb r0 r1 r2 vbr) (k9_pay11 sIn sOut xb z0 z1 z2)
        vbz h0 h1 h2 vbh (ix2 p q)
      = update (fun p q => Ideal.logistic (gate aIn aOut x Wz bz p q)) x
          (candidate aIn aOut (fun p q => Ideal.logistic (gate aIn aOut x Wr br p q)) x Wh bh) (row p) q := by
  rw [newState_apply, updatePre_eq_gate row aIn aOut x Wz bz sIn sOut xb z0 z1 z2 vbz hIn hOut hx hz0 hz1 hz2 hbz p q]
  have hr : ∀ k : Fin 512, k9_pay10 sIn sOut xb r0 r1 r2 vbr (ix2 p k) = Ideal.logistic (gate aIn aOut x Wr br (row p) k) :=
    fun k => reset_eq_gate row aIn aOut x Wr br sIn sOut xb r0 r1 r2 vbr hIn hOut hx hr0 hr1 hr2 hbr p k
  have hi : ∀ k : Fin 512, k9_pay7 sIn (ix2 p k) = aIn (row p) k := fun k => hIn p k
  have ho : ∀ k : Fin 512, k9_pay8 sOut (ix2 p k) = aOut (row p) k := fun k => hOut p k
  have hc : ∀ k : Fin 512, k9_pay6 xb (ix2 p k) = x (row p) k := fun k => (stateCast_apply xb _).trans (hx p k)
  simp only [hr, hi, ho, hc, hh0, hh1, hh2, hbh]
  rfl

/-- The same with each gate's weight given as the transposed array the body loads from: 1536 rows, 512 columns, entry
    `(j, q)` the weight's entry at row `q` and column `j`; the three loaded blocks are its rows 0 to 511, 512 to 1023 and
    1024 to 1535. -/
theorem newState_eq_update_of_transposed (row : Fin 512 → Fin 4096) (aIn aOut x : Fin 4096 → Fin 512 → EReal)
    (Wr Wz Wh : Fin 512 → Fin 1536 → EReal) (br bz bh : Fin 512 → EReal)
    (Tr Tz Th : Vec Ideal S1536x512 .bf16)
    (sIn sOut xb : Vec Ideal S512x512 .f32)
    (r0 r1 r2 z0 z1 z2 h0 h1 h2 : Vec Ideal S512x512 .bf16) (vbr vbz vbh : Vec Ideal S1x512 .f32)
    (hIn : ∀ p k : Fin 512, sIn (ix2 p k) = aIn (row p) k)
    (hOut : ∀ p k : Fin 512, sOut (ix2 p k) = aOut (row p) k)
    (hx : ∀ p k : Fin 512, xb (ix2 p k) = x (row p) k)
    (hTr : ∀ (j : Fin 1536) (q : Fin 512), Tr (ix2 j q) = Wr q j)
    (hTz : ∀ (j : Fin 1536) (q : Fin 512), Tz (ix2 j q) = Wz q j)
    (hTh : ∀ (j : Fin 1536) (q : Fin 512), Th (ix2 j q) = Wh q j)
    (hr0 : ∀ k q : Fin 512, r0 (ix2 k q) = Tr (ix2 (part0 k) q))
    (hr1 : ∀ k q : Fin 512, r1 (ix2 k q) = Tr (ix2 (part1 k) q))
    (hr2 : ∀ k q : Fin 512, r2 (ix2 k q) = Tr (ix2 (part2 k) q))
    (hz0 : ∀ k q : Fin 512, z0 (ix2 k q) = Tz (ix2 (part0 k) q))
    (hz1 : ∀ k q : Fin 512, z1 (ix2 k q) = Tz (ix2 (part1 k) q))
    (hz2 : ∀ k q : Fin 512, z2 (ix2 k q) = Tz (ix2 (part2 k) q))
    (hh0 : ∀ k q : Fin 512, h0 (ix2 k q) = Th (ix2 (part0 k) q))
    (hh1 : ∀ k q : Fin 512, h1 (ix2 k q) = Th (ix2 (part1 k) q))
    (hh2 : ∀ k q : Fin 512, h2 (ix2 k q) = Th (ix2 (part2 k) q))
    (hbr : ∀ q : Fin 512, vbr (ix2 0 q) = br q)
    (hbz : ∀ q : Fin 512, vbz (ix2 0 q) = bz q)
    (hbh : ∀ q : Fin 512, vbh (ix2 0 q) = bh q) (p q : Fin 512) :
    k9_pay5 (k9_pay6 xb) (k9_pay7 sIn) (k9_pay8 sOut) (k9_pay10 sIn sOut xb r0 r1 r2 vbr) (k9_pay11 sIn sOut xb z0 z1 z2)
        vbz h0 h1 h2 vbh (ix2 p q)
      = update (fun p q => Ideal.logistic (gate aIn aOut x Wz bz p q)) x
          (candidate aIn aOut (fun p q => Ideal.logistic (gate aIn aOut x Wr br p q)) x Wh bh) (row p) q :=
  newState_eq_update row aIn aOut x Wr Wz Wh br bz bh sIn sOut xb r0 r1 r2 z0 z1 z2 h0 h1 h2 vbr vbz vbh hIn hOut hx
    (fun k q => (hr0 k q).trans (hTr _ _)) (fun k q => (hr1 k q).trans (hTr _ _)) (fun k q => (hr2 k q).trans (hTr _ _))
    (fun k q => (hz0 k q).trans (hTz _ _)) (fun k q => (hz1 k q).trans (hTz _ _)) (fun k q => (hz2 k q).trans (hTz _ _))
    (fun k q => (hh0 k q).trans (hTh _ _)) (fun k q => (hh1 k q).trans (hTh _ _)) (fun k q => (hh2 k q).trans (hTh _ _))
    hbr hbz hbh p q

end Cert.KernelIdeal.GatedPayload9

end
-- ==== Proof.IdealGatedValue9.lean ====
/-
  The value of the new-state array of region 9, read over the extended reals.

  The grid is 8 x 8: point t = 8 m + k handles the block of 512 nodes m against the block of 512 neighbours k. Over the
  eight points of a node block two running sums are kept: the first receives, at neighbour block k, the 512 x 512
  adjacency block (m, k) times rows 512 k … 512 k + 511 of the incoming messages; the second the adjacency block (k, m),
  read transposed, times the same rows of the outgoing messages. Both start from zero at k = 0, so after k = 7 entry
  (p, q) of the first is zero plus the eight blocks' sums added in order, which — addition of extended reals being
  associative — is the one sum over all 4096 neighbours of  A (512 m + p, j) * s_in (j, q);  likewise the second with
  A (j, 512 m + p) and s_out. At k = 7 the body forms the two gates and the candidate from the finished sums, the node
  block's own state, the three gate weights (each the transposed matrix, read in three blocks of 512 rows) and the bias
  rows, and stores the convex update; only that point writes the result block back. The eight written blocks tile the
  result array (row r lies in the block written at point 8 (r / 512) + 7). Hence the array after the region is one
  propagation step computed from the given message arrays, and the input arrays are as the region finds them.
-/
import proofs.«121501_j55087250538634_2_alg».proof.Proof.IdealGated9
import proofs.«121501_j55087250538634_2_alg».proof.Proof.IdealGatedPieces9
import proofs.«121501_j55087250538634_2_alg».proof.Proof.IdealGatedPayload9
import proofs.«121501_j55087250538634_2_alg».proof.Proof.GgnnMath
import proofs.«121501_j55087250538634_2_alg».proof.Proof.LibBlockSum
import Idealize.ShloMosaic.Lib.Pipeline.Value
import Idealize.ShloMosaic.Lib.ValueIdx

set_option maxRecDepth 16384

noncomputable section

open scoped BigOperators

namespace Cert.KernelIdeal.GatedValue9

open Cert.KernelIdeal Cert.KernelIdeal.Gen Cert.KernelIdeal.Gated9 Cert.KernelIdeal.GatedPieces9 Cert.KernelIdeal.GatedPayload9
open Idealize.ShloMosaic Idealize.ShloMosaic.TcCoe Idealize.SL.Sem
open Idealize.ShloMosaic.ValueIdx
open Idealize.ShloMosaic.Pipeline (Dat)
open Cert.GgnnMath (part0 part1 part2)

/-! ## The specification: one propagation step from given messages -/

/-- One propagation step with the two edge-message matrices given: the aggregations, the two gates, the candidate and
    the convex update. -/
def stepFrom (Af : Fin 4096 → Fin 4096 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal)
    (sIn sOut x : Fin 4096 → Fin 512 → EReal) : Fin 4096 → Fin 512 → EReal :=
  let aIn := Cert.GgnnMath.aggIn Af sIn
  let aOut := Cert.GgnnMath.aggOut Af sOut
  let r : Fin 4096 → Fin 512 → EReal := fun p q => Ideal.logistic (Cert.GgnnMath.gate aIn aOut x Wr br p q)
  let z : Fin 4096 → Fin 512 → EReal := fun p q => Ideal.logistic (Cert.GgnnMath.gate aIn aOut x Wz bz p q)
  Cert.GgnnMath.update z x (Cert.GgnnMath.candidate aIn aOut r x Wh bh)

/-- A whole step is the step from its own two linear layers. -/
theorem step_eq_stepFrom (Af : Fin 4096 → Fin 4096 → EReal)
    (Win : Fin 512 → Fin 512 → EReal) (bin : Fin 512 → EReal) (Wout : Fin 512 → Fin 512 → EReal) (bout : Fin 512 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal) (x : Fin 4096 → Fin 512 → EReal) :
    Cert.GgnnMath.step Af Win bin Wout bout Wr br Wz bz Wh bh x
      = stepFrom Af Wr br Wz bz Wh bh (Cert.GgnnMath.affine x Win bin) (Cert.GgnnMath.affine x Wout bout) x := rfl

/-- The new-state array of the adjacency array `A`, the message arrays `SI`, `SO`, the state array `X`, the three
    transposed gate weights and the three bias rows. -/
def newState (A : S4096x4096.Idx → EReal) (SI SO X : S4096x512.Idx → EReal)
    (WrT : S1536x512.Idx → EReal) (Br : S1x512.Idx → EReal) (WzT : S1536x512.Idx → EReal) (Bz : S1x512.Idx → EReal)
    (WhT : S1536x512.Idx → EReal) (Bh : S1x512.Idx → EReal) : S4096x512.Idx → EReal :=
  fun i => stepFrom (fun p k => A (ix2 p k)) (fun q j => WrT (ix2 j q)) (fun q => Br (ix2 0 q))
    (fun q j => WzT (ix2 j q)) (fun q => Bz (ix2 0 q)) (fun q j => WhT (ix2 j q)) (fun q => Bh (ix2 0 q))
    (fun p k => SI (ix2 p k)) (fun p k => SO (ix2 p k)) (fun p k => X (ix2 p k)) (i 0) (i 1)

/-! ## Array entries by natural-number coordinates -/

/-- Entry (r, k) of the adjacency array by natural-number coordinates (zero outside the array, never consulted). -/
def entryA (A : S4096x4096.Idx → EReal) (r k : ℕ) : EReal :=
  if h : r < 4096 ∧ k < 4096 then A (ix2 ⟨r, h.1⟩ ⟨k, h.2⟩) else 0

/-- Entry (k, q) of a message array by a natural-number row. -/
def entryS (S : S4096x512.Idx → EReal) (k : ℕ) (q : Fin 512) : EReal :=
  if h : k < 4096 then S (ix2 ⟨k, h⟩ q) else 0

theorem entryA_eq (A : S4096x4096.Idx → EReal) (r k : Fin 4096) : entryA A r.val k.val = A (ix2 r k) := by
  unfold entryA; rw [dif_pos ⟨r.isLt, k.isLt⟩]

theorem entryS_eq (S : S4096x512.Idx → EReal) (k : Fin 4096) (q : Fin 512) : entryS S k.val q = S (ix2 k q) := by
  unfold entryS; rw [dif_pos k.isLt]

/-! ## One neighbour block's contribution, and the eight of them -/

/-- What neighbour block `kb` adds to the incoming sum of node `512 mb + p` at feature `q`. -/
def termIn (A : S4096x4096.Idx → EReal) (SI : S4096x512.Idx → EReal) (mb : ℕ) (p q : Fin 512) (kb : ℕ) : EReal :=
  ∑ j : Fin 512, entryA A (512 * mb + p.val) (512 * kb + j.val) * entryS SI (512 * kb + j.val) q

/-- What neighbour block `kb` adds to the outgoing sum: the adjacency entry is read transposed. -/
def termOut (A : S4096x4096.Idx → EReal) (SO : S4096x512.Idx → EReal) (mb : ℕ) (p q : Fin 512) (kb : ℕ) : EReal :=
  ∑ j : Fin 512, entryA A (512 * kb + j.val) (512 * mb + p.val) * entryS SO (512 * kb + j.val) q

/-- The eight neighbour blocks' contributions, added in order onto zero, are the aggregation over all 4096 neighbours. -/
theorem total_in (A : S4096x4096.Idx → EReal) (SI : S4096x512.Idx → EReal) (mb : ℕ) (hmb : mb < 8) (p q : Fin 512) :
    0 + ∑ kb ∈ Finset.range 8, termIn A SI mb p q kb
      = Cert.GgnnMath.aggIn (fun r k => A (ix2 r k)) (fun k q => SI (ix2 k q)) ⟨512 * mb + p.val, by omega⟩ q := by
  rw [zero_add, Finset.sum_range]
  unfold Cert.GgnnMath.aggIn
  refine Eq.symm ((BlockSum.sum_by_blocks (M := EReal) 8 512
    (fun k => A (ix2 (⟨512 * mb + p.val, by omega⟩ : Fin 4096) k) * SI (ix2 k q))).trans ?_)
  refine Finset.sum_congr rfl fun i _ => Finset.sum_congr rfl fun j _ => ?_
  have hv : (finProdFinEquiv (i, j) : Fin (8 * 512)).val = 512 * i.val + j.val := by
    rw [BlockSum.block_entry_val]; omega
  show A (ix2 (⟨512 * mb + p.val, by omega⟩ : Fin 4096) (finProdFinEquiv (i, j))) * SI (ix2 (finProdFinEquiv (i, j)) q) = _
  rw [← entryA_eq A ⟨512 * mb + p.val, by omega⟩ (finProdFinEquiv (i, j)), ← entryS_eq SI (finProdFinEquiv (i, j)) q, hv]

theorem total_out (A : S4096x4096.Idx → EReal) (SO : S4096x512.Idx → EReal) (mb : ℕ) (hmb : mb < 8) (p q : Fin 512) :
    0 + ∑ kb ∈ Finset.range 8, termOut A SO mb p q kb
      = Cert.GgnnMath.aggOut (fun r k => A (ix2 r k)) (fun k q => SO (ix2 k q)) ⟨512 * mb + p.val, by omega⟩ q := by
  rw [zero_add, Finset.sum_range]
  unfold Cert.GgnnMath.aggOut
  refine Eq.symm ((BlockSum.sum_by_blocks (M := EReal) 8 512
    (fun k => A (ix2 k (⟨512 * mb + p.val, by omega⟩ : Fin 4096)) * SO (ix2 k q))).trans ?_)
  refine Finset.sum_congr rfl fun i _ => Finset.sum_congr rfl fun j _ => ?_
  have hv : (finProdFinEquiv (i, j) : Fin (8 * 512)).val = 512 * i.val + j.val := by
    rw [BlockSum.block_entry_val]; omega
  show A (ix2 (finProdFinEquiv (i, j)) (⟨512 * mb + p.val, by omega⟩ : Fin 4096)) * SO (ix2 (finProdFinEquiv (i, j)) q) = _
  rw [← entryA_eq A (finProdFinEquiv (i, j)) ⟨512 * mb + p.val, by omega⟩, ← entryS_eq SO (finProdFinEquiv (i, j)) q, hv]

/-- A running sum that starts at zero plus the first term and adds one term per step. -/
theorem grow (g : ℕ → EReal) (k : ℕ) (s : EReal) (hs : s = 0 + ∑ kb ∈ Finset.range k, g kb) :
    s + g k = 0 + ∑ kb ∈ Finset.range (k + 1), g kb := by
  rw [hs, Finset.sum_range_succ, add_assoc]

variable (V : (c : Dev nD) → (b : Ref sig .tc) → Buf (Elt Ideal) ((c : Thread nD τ).loc b))

/-! ## The index maps over the grid -/

/-- The printed index maps at point `t = 8 m + k`: the adjacency window at block (m, k), its mirror at (k, m), the
    node-state and result windows at block row m, every other window at block (0, 0); the rows the body loads of the
    message arrays start at `512 k`. -/
theorem index_facts : ∀ t : Fin cfg9.N,
    win9_0.index t (0 : Fin 2) = t.val / 8 ∧ win9_0.index t (1 : Fin 2) = t.val % 8
    ∧ win9_1.index t (0 : Fin 2) = t.val % 8 ∧ win9_1.index t (1 : Fin 2) = t.val / 8
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val / 8 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0
    ∧ win9_8.index t (0 : Fin 2) = 0 ∧ win9_8.index t (1 : Fin 2) = 0
    ∧ win9_9.index t (0 : Fin 2) = 0 ∧ win9_9.index t (1 : Fin 2) = 0
    ∧ win9_10.index t (0 : Fin 2) = 0 ∧ win9_10.index t (1 : Fin 2) = 0
    ∧ win9_11.index t (0 : Fin 2) = t.val / 8 ∧ win9_11.index t (1 : Fin 2) = 0
    ∧ k9_off1 (grid9.coords t) (0 : Fin 2) = 512 * (t.val % 8) ∧ k9_off1 (grid9.coords t) (1 : Fin 2) = 0 :=
  (by decide +kernel : ∀ t : Fin grid9.N, _)

/-! ## The blocks as parts of their arrays -/

/-- The adjacency block at point `t = 8 m + k` is rows `512 m …`, columns `512 k …` of the adjacency array. -/
theorem blk0_apply (c : Dev nD) (t : Fin cfg9.N) (y : S512x512.Idx) (i : S4096x4096.Idx)
    (h0 : (i 0).val = 512 * (t.val / 8) + (y 0).val) (h1 : (i 1).val = 512 * (t.val % 8) + (y 1).val) :
    blk V c 0 t y = (V c (Pipeline.arrRef spec9 0) : S4096x4096.Idx → EReal) i := by
  obtain ⟨e0, e1, -⟩ := index_facts t
  unfold blk
  show V c (Pipeline.arrRef spec9 0) (((cfg9.win 0).blk t).view.emb y) = _
  refine congrArg _ (funext fun a => Fin.ext ?_)
  match a with
  | ⟨0, _⟩ => show win9_0.index t (0 : Fin 2) * 512 + 1 * (y 0).val = (i 0).val; omega
  | ⟨1, _⟩ => show win9_0.index t (1 : Fin 2) * 512 + 1 * (y 1).val = (i 1).val; omega

/-- The mirrored adjacency block is rows `512 k …`, columns `512 m …` of the same array. -/
theorem blk1_apply (c : Dev nD) (t : Fin cfg9.N) (y : S512x512.Idx) (i : S4096x4096.Idx)
    (h0 : (i 0).val = 512 * (t.val % 8) + (y 0).val) (h1 : (i 1).val = 512 * (t.val / 8) + (y 1).val) :
    blk V c 1 t y = (V c (Pipeline.arrRef spec9 0) : S4096x4096.Idx → EReal) i := by
  obtain ⟨-, -, e0, e1, -⟩ := index_facts t
  unfold blk
  show V c (Pipeline.arrRef spec9 1) (((cfg9.win 1).blk t).view.emb y) = _
  refine congrArg _ (funext fun a => Fin.ext ?_)
  match a with
  | ⟨0, _⟩ => show win9_1.index t (0 : Fin 2) * 512 + 1 * (y 0).val = (i 0).val; omega
  | ⟨1, _⟩ => show win9_1.index t (1 : Fin 2) * 512 + 1 * (y 1).val = (i 1).val; omega

/-- The incoming-message window's block is the whole array at every point. -/
theorem blk2_apply (c : Dev nD) (t : Fin cfg9.N) (y : S4096x512.Idx) (i : S4096x512.Idx)
    (h0 : (i 0).val =  (y 0).val) (h1 : (i 1).val =  (y 1).val) :
    blk V c 2 t y = (V c (Pipeline.arrRef spec9 2) : S4096x512.Idx → EReal) i := by
  obtain ⟨-, -, -, -, e0, e1, -⟩ := index_facts t
  unfold blk
  show V c (Pipeline.arrRef spec9 2) (((cfg9.win 2).blk t).view.emb y) = _
  refine congrArg _ (funext fun a => Fin.ext ?_)
  match a with
  | ⟨0, _⟩ => show win9_2.index t (0 : Fin 2) * 4096 + 1 * (y 0).val = (i 0).val; omega
  | ⟨1, _⟩ => show win9_2.index t (1 : Fin 2) * 512 + 1 * (y 1).val = (i 1).val; omega

/-- The outgoing-message window's block is the whole array at every point. -/
theorem blk3_apply (c : Dev nD) (t : Fin cfg9.N) (y : S4096x512.Idx) (i : S4096x512.Idx)
    (h0 : (i 0).val =  (y 0).val) (h1 : (i 1).val =  (y 1).val) :
    blk V c 3 t y = (V c (Pipeline.arrRef spec9 3) : S4096x512.Idx → EReal) i := by
  obtain ⟨-, -, -, -, -, -, e0, e1, -⟩ := index_facts t
  unfold blk
  show V c (Pipeline.arrRef spec9 3) (((cfg9.win 3).blk t).view.emb y) = _
  refine congrArg _ (funext fun a => Fin.ext ?_)
  match a with
  | ⟨0, _⟩ => show win9_3.index t (0 : Fin 2) * 4096 + 1 * (y 0).val = (i 0).val; omega
  | ⟨1, _⟩ => show win9_3.index t (1 : Fin 2) * 512 + 1 * (y 1).val = (i 1).val; omega

/-- The node block's state is rows `512 m …` of the state array. -/
theorem blk4_apply (c : Dev nD) (t : Fin cfg9.N) (y : S512x512.Idx) (i : S4096x512.Idx)
    (h0 : (i 0).val = 512 * (t.val / 8) + (y 0).val) (h1 : (i 1).val =  (y 1).val) :
    blk V c 4 t y = (V c (Pipeline.arrRef spec9 4) : S4096x512.Idx → EReal) i := by
  obtain ⟨-, -, -, -, -, -, -, -, e0, e1, -⟩ := index_facts t
  unfold blk
  show V c (Pipeline.arrRef spec9 4) (((cfg9.win 4).blk t).view.emb y) = _
  refine congrArg _ (funext fun a => Fin.ext ?_)
  match a with
  | ⟨0, _⟩ => show win9_4.index t (0 : Fin 2) * 512 + 1 * (y 0).val = (i 0).val; omega
  | ⟨1, _⟩ => show win9_4.index t (1 : Fin 2) * 512 + 1 * (y 1).val = (i 1).val; omega

/-- The reset gate's weight window is the whole array at every point. -/
theorem blk5_apply (c : Dev nD) (t : Fin cfg9.N) (y : S1536x512.Idx) (i : S1536x512.Idx)
    (h0 : (i 0).val =  (y 0).val) (h1 : (i 1).val =  (y 1).val) :
    blk V c 5 t y = (V c (Pipeline.arrRef spec9 5) : S1536x512.Idx → EReal) i := by
  obtain ⟨-, -, -, -, -, -, -, -, -, -, e0, e1, -⟩ := index_facts t
  unfold blk
  show V c (Pipeline.arrRef spec9 5) (((cfg9.win 5).blk t).view.emb y) = _
  refine congrArg _ (funext fun a => Fin.ext ?_)
  match a with
  | ⟨0, _⟩ => show win9_5.index t (0 : Fin 2) * 1536 + 1 * (y 0).val = (i 0).val; omega
  | ⟨1, _⟩ => show win9_5.index t (1 : Fin 2) * 512 + 1 * (y 1).val = (i 1).val; omega

/-- The reset gate's bias row likewise. -/
theorem blk6_apply (c : Dev nD) (t : Fin cfg9.N) (y : S1x512.Idx) (i : S1x512.Idx)
    (h0 : (i 0).val =  (y 0).val) (h1 : (i 1).val =  (y 1).val) :
    blk V c 6 t y = (V c (Pipeline.arrRef spec9 6) : S1x512.Idx → EReal) i := by
  obtain ⟨-, -, -, -, -, -, -, -, -, -, -, -, e0, e1, -⟩ := index_facts t
  unfold blk
  show V c (Pipeline.arrRef spec9 6) (((cfg9.win 6).blk t).view.emb y) = _
  refine congrArg _ (funext fun a => Fin.ext ?_)
  match a with
  | ⟨0, _⟩ => show win9_6.index t (0 : Fin 2) * 1 + 1 * (y 0).val = (i 0).val; omega
  | ⟨1, _⟩ => show win9_6.index t (1 : Fin 2) * 512 + 1 * (y 1).val = (i 1).val; omega

/-- The update gate's weight likewise. -/
theorem blk7_apply (c : Dev nD) (t : Fin cfg9.N) (y : S1536x512.Idx) (i : S1536x512.Idx)
    (h0 : (i 0).val =  (y 0).val) (h1 : (i 1).val =  (y 1).val) :
    blk V c 7 t y = (V c (Pipeline.arrRef spec9 7) : S1536x512.Idx → EReal) i := by
  obtain ⟨-, -, -, -, -, -, -, -, -, -, -, -, -, -, e0, e1, -⟩ := index_facts t
  unfold blk
  show V c (Pipeline.arrRef spec9 7) (((cfg9.win 7).blk t).view.emb y) = _
  refine congrArg _ (funext fun a => Fin.ext ?_)
  match a with
  | ⟨0, _⟩ => show win9_7.index t (0 : Fin 2) * 1536 + 1 * (y 0).val = (i 0).val; omega
  | ⟨1, _⟩ => show win9_7.index t (1 : Fin 2) * 512 + 1 * (y 1).val = (i 1).val; omega

/-- The update gate's bias row likewise. -/
theorem blk8_apply (c : Dev nD) (t : Fin cfg9.N) (y : S1x512.Idx) (i : S1x512.Idx)
    (h0 : (i 0).val =  (y 0).val) (h1 : (i 1).val =  (y 1).val) :
    blk V c 8 t y = (V c (Pipeline.arrRef spec9 8) : S1x512.Idx → EReal) i := by
  obtain ⟨-, -, -, -, -, -, -, -, -, -, -, -, -, -, -, -, e0, e1, -⟩ := index_facts t
  unfold blk
  show V c (Pipeline.arrRef spec9 8) (((cfg9.win 8).blk t).view.emb y) = _
  refine congrArg _ (funext fun a => Fin.ext ?_)
  match a with
  | ⟨0, _⟩ => show win9_8.index t (0 : Fin 2) * 1 + 1 * (y 0).val = (i 0).val; omega
  | ⟨1, _⟩ => show win9_8.index t (1 : Fin 2) * 512 + 1 * (y 1).val = (i 1).val; omega

/-- The candidate's weight likewise. -/
theorem blk9_apply (c : Dev nD) (t : Fin cfg9.N) (y : S1536x512.Idx) (i : S1536x512.Idx)
    (h0 : (i 0).val =  (y 0).val) (h1 : (i 1).val =  (y 1).val) :
    blk V c 9 t y = (V c (Pipeline.arrRef spec9 9) : S1536x512.Idx → EReal) i := by
  obtain ⟨-, -, -, -, -, -, -, -, -, -, -, -, -, -, -, -, -, -, e0, e1, -⟩ := index_facts t
  unfold blk
  show V c (Pipeline.arrRef spec9 9) (((cfg9.win 9).blk t).view.emb y) = _
  refine congrArg _ (funext fun a => Fin.ext ?_)
  match a with
  | ⟨0, _⟩ => show win9_9.index t (0 : Fin 2) * 1536 + 1 * (y 0).val = (i 0).val; omega
  | ⟨1, _⟩ => show win9_9.index t (1 : Fin 2) * 512 + 1 * (y 1).val = (i 1).val; omega

/-- The candidate's bias row likewise. -/
theorem blk10_apply (c : Dev nD) (t : Fin cfg9.N) (y : S1x512.Idx) (i : S1x512.Idx)
    (h0 : (i 0).val =  (y 0).val) (h1 : (i 1).val =  (y 1).val) :
    blk V c 10 t y = (V c (Pipeline.arrRef spec9 10) : S1x512.Idx → EReal) i := by
  obtain ⟨-, -, -, -, -, -, -, -, -, -, -, -, -, -, -, -, -, -, -, -, e0, e1, -⟩ := index_facts t
  unfold blk
  show V c (Pipeline.arrRef spec9 10) (((cfg9.win 10).blk t).view.emb y) = _
  refine congrArg _ (funext fun a => Fin.ext ?_)
  match a with
  | ⟨0, _⟩ => show win9_10.index t (0 : Fin 2) * 1 + 1 * (y 0).val = (i 0).val; omega
  | ⟨1, _⟩ => show win9_10.index t (1 : Fin 2) * 512 + 1 * (y 1).val = (i 1).val; omega

/-! ## The rows the body loads out of whole blocks -/

/-- The neighbour block's rows of a whole message block: row `k` of what is loaded is row `512 kb + k`. -/
theorem nbrRows_apply (t : Fin cfg9.N) (x : Vec Ideal S4096x512 .bf16) (k q : Fin 512) (i : S4096x512.Idx)
    (h0 : (i 0).val = 512 * (t.val % 8) + k.val) (h1 : (i 1).val = q.val) :
    nbrRows (grid9.coords t) x (ix2 k q) = x i := by
  obtain ⟨-, -, -, -, -, -, -, -, -, -, -, -, -, -, -, -, -, -, -, -, -, -, -, -, e0, e1⟩ := index_facts t
  show x ((Rect.unit (s := S4096x512) (k9_off1 (grid9.coords t)) S512x512.size (k9_off1_inb (grid9.coords t))).emb (ix2 k q)) = x i
  refine congrArg x (funext fun a => Fin.ext ?_)
  match a with
  | ⟨0, _⟩ => show k9_off1 (grid9.coords t) (0 : Fin 2) + 1 * k.val = (i 0).val; omega
  | ⟨1, _⟩ => show k9_off1 (grid9.coords t) (1 : Fin 2) + 1 * q.val = (i 1).val; omega

/-- The three row blocks of a gate weight: row `k` of each is row `k`, `512 + k`, `1024 + k` of the weight. -/
theorem rowsA_apply (x : Vec Ideal S1536x512 .bf16) (k q : Fin 512) : rowsA x (ix2 k q) = x (ix2 (part0 k) q) := by
  show x ((Rect.unit (s := S1536x512) ![0, 0] S512x512.size inb_S1536x512_S512x512_0_0).emb (ix2 k q)) = _
  refine congrArg x (funext fun a => Fin.ext ?_)
  match a with
  | ⟨0, _⟩ => show 0 + 1 * k.val = k.val; omega
  | ⟨1, _⟩ => show 0 + 1 * q.val = q.val; omega
theorem rowsB_apply (x : Vec Ideal S1536x512 .bf16) (k q : Fin 512) : rowsB x (ix2 k q) = x (ix2 (part1 k) q) := by
  show x ((Rect.unit (s := S1536x512) ![512, 0] S512x512.size inb_S1536x512_S512x512_512_0).emb (ix2 k q)) = _
  refine congrArg x (funext fun a => Fin.ext ?_)
  match a with
  | ⟨0, _⟩ => show 512 + 1 * k.val = 512 + k.val; omega
  | ⟨1, _⟩ => show 0 + 1 * q.val = q.val; omega
theorem rowsC_apply (x : Vec Ideal S1536x512 .bf16) (k q : Fin 512) : rowsC x (ix2 k q) = x (ix2 (part2 k) q) := by
  show x ((Rect.unit (s := S1536x512) ![1024, 0] S512x512.size inb_S1536x512_S512x512_1024_0).emb (ix2 k q)) = _
  refine congrArg x (funext fun a => Fin.ext ?_)
  match a with
  | ⟨0, _⟩ => show 1024 + 1 * k.val = 1024 + k.val; omega
  | ⟨1, _⟩ => show 0 + 1 * q.val = q.val; omega

/-! ## The arrays as the region finds them -/

abbrev arrA (c : Dev nD) : S4096x4096.Idx → EReal := V c (Pipeline.arrRef spec9 0)
abbrev arrSI (c : Dev nD) : S4096x512.Idx → EReal := V c (Pipeline.arrRef spec9 2)
abbrev arrSO (c : Dev nD) : S4096x512.Idx → EReal := V c (Pipeline.arrRef spec9 3)
abbrev arrX (c : Dev nD) : S4096x512.Idx → EReal := V c (Pipeline.arrRef spec9 4)
abbrev arrWr (c : Dev nD) : S1536x512.Idx → EReal := V c (Pipeline.arrRef spec9 5)
abbrev arrBr (c : Dev nD) : S1x512.Idx → EReal := V c (Pipeline.arrRef spec9 6)
abbrev arrWz (c : Dev nD) : S1536x512.Idx → EReal := V c (Pipeline.arrRef spec9 7)
abbrev arrBz (c : Dev nD) : S1x512.Idx → EReal := V c (Pipeline.arrRef spec9 8)
abbrev arrWh (c : Dev nD) : S1536x512.Idx → EReal := V c (Pipeline.arrRef spec9 9)
abbrev arrBh (c : Dev nD) : S1x512.Idx → EReal := V c (Pipeline.arrRef spec9 10)

/-! ## What each kind of point leaves, as payload terms of the blocks -/

theorem start_s0 (c : Dev nD) (t : Fin cfg9.N) (hs : atStart (grid9.coords t)) (hf : ¬atFinish (grid9.coords t)) :
    (startTriple V c t hs hf).2.1 = k9_pay3 (nbrRows (grid9.coords t) (blk V c 2 t)) (k9_pay1 (F := Ideal)) (blk V c 0 t) := by
  unfold startTriple
  dsimp only
  exact start_piece0 c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)
theorem start_s1 (c : Dev nD) (t : Fin cfg9.N) (hs : atStart (grid9.coords t)) (hf : ¬atFinish (grid9.coords t)) :
    (startTriple V c t hs hf).2.2 = k9_pay4 (nbrRows (grid9.coords t) (blk V c 3 t)) (k9_pay2 (F := Ideal)) (blk V c 1 t) := by
  unfold startTriple
  dsimp only
  exact start_piece1 c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t)
theorem middle_s0 (c : Dev nD) (t : Fin cfg9.N) (hs : ¬atStart (grid9.coords t)) (hf : ¬atFinish (grid9.coords t))
    (s0 s1 : Vec Ideal S512x512 .f32) :
    (middleTriple V c t hs hf s0 s1).2.1 = k9_pay3 (nbrRows (grid9.coords t) (blk V c 2 t)) s0 (blk V c 0 t) := by
  unfold middleTriple
  dsimp only
  exact middle_piece0 c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem middle_s1 (c : Dev nD) (t : Fin cfg9.N) (hs : ¬atStart (grid9.coords t)) (hf : ¬atFinish (grid9.coords t))
    (s0 s1 : Vec Ideal S512x512 .f32) :
    (middleTriple V c t hs hf s0 s1).2.2 = k9_pay4 (nbrRows (grid9.coords t) (blk V c 3 t)) s1 (blk V c 1 t) := by
  unfold middleTriple
  dsimp only
  exact middle_piece1 c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_s0 (c : Dev nD) (t : Fin cfg9.N) (hs : ¬atStart (grid9.coords t)) (hf : atFinish (grid9.coords t))
    (s0 s1 : Vec Ideal S512x512 .f32) :
    (finishTriple V c t hs hf s0 s1).2.1 = k9_pay3 (nbrRows (grid9.coords t) (blk V c 2 t)) s0 (blk V c 0 t) := by
  unfold finishTriple
  dsimp only
  exact finish_piece0 c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_s1 (c : Dev nD) (t : Fin cfg9.N) (hs : ¬atStart (grid9.coords t)) (hf : atFinish (grid9.coords t))
    (s0 s1 : Vec Ideal S512x512 .f32) :
    (finishTriple V c t hs hf s0 s1).2.2 = k9_pay4 (nbrRows (grid9.coords t) (blk V c 3 t)) s1 (blk V c 1 t) := by
  unfold finishTriple
  dsimp only
  exact finish_piece1 c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1
theorem finish_out (c : Dev nD) (t : Fin cfg9.N) (hs : ¬atStart (grid9.coords t)) (hf : atFinish (grid9.coords t))
    (s0 s1 : Vec Ideal S512x512 .f32) :
    (finishTriple V c t hs hf s0 s1).1
      = newBlock (k9_pay3 (nbrRows (grid9.coords t) (blk V c 2 t)) s0 (blk V c 0 t))
          (k9_pay4 (nbrRows (grid9.coords t) (blk V c 3 t)) s1 (blk V c 1 t))
          (blk V c 4 t) (blk V c 5 t) (blk V c 6 t) (blk V c 7 t) (blk V c 8 t) (blk V c 9 t) (blk V c 10 t) := by
  have hc := finish_coverO V c t hs hf s0 s1
  unfold finishTriple
  dsimp only
  exact ((View.read_writes_eq_canon vOut vOut.junk _ hc).trans
    (View.read_writes_eq_canon (mw11 t).view (mw11 t).view.junk _ hc).symm).trans
    (finish_pieceO c (grid9.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) sc0 (Memref.isWhole_whole _) sc1 (Memref.isWhole_whole _) hs hf (blk V c 0 t) (blk V c 1 t) (blk V c 2 t) (blk V c 3 t) (blk V c 4 t) (blk V c 5 t) (blk V c 6 t) (blk V c 7 t) (blk V c 8 t) (blk V c 9 t) (blk V c 10 t) s0 s1)

/-! ## One point's two products -/

/-- The two adjacency blocks and the two whole message blocks of a point, at their literal vector types. -/
abbrev bAdj (c : Dev nD) (t : Fin cfg9.N) : Vec Ideal S512x512 .bf16 := blk V c 0 t
abbrev bAdjM (c : Dev nD) (t : Fin cfg9.N) : Vec Ideal S512x512 .bf16 := blk V c 1 t
abbrev bSI (c : Dev nD) (t : Fin cfg9.N) : Vec Ideal S4096x512 .bf16 := blk V c 2 t
abbrev bSO (c : Dev nD) (t : Fin cfg9.N) : Vec Ideal S4096x512 .bf16 := blk V c 3 t

theorem grid_size : cfg9.N = 64 := N_9

/-- The adjacency block (m, k) against the neighbour block's incoming messages is neighbour block k's contribution. -/
theorem point_in (c : Dev nD) (n : ℕ) (hn : n < cfg9.N) (p q : Fin 512) :
    ∑ k : Fin 512, bAdj V c ⟨n, hn⟩ (ix2 p k) * nbrRows (grid9.coords ⟨n, hn⟩) (bSI V c ⟨n, hn⟩) (ix2 k q)
      = termIn (arrA V c) (arrSI V c) (n / 8) p q (n % 8) := by
  have hn' : n < 64 := by have h := hn; rwa [grid_size] at h
  unfold termIn
  refine Finset.sum_congr rfl fun k _ => congrArg₂ (· * ·) ?_ ?_
  · exact (blk0_apply V c ⟨n, hn⟩ (ix2 p k) (ix2 ⟨512 * (n / 8) + p.val, by omega⟩ ⟨512 * (n % 8) + k.val, by omega⟩) rfl rfl).trans
      (entryA_eq (arrA V c) ⟨512 * (n / 8) + p.val, by omega⟩ ⟨512 * (n % 8) + k.val, by omega⟩).symm
  · exact ((nbrRows_apply ⟨n, hn⟩ (blk V c 2 ⟨n, hn⟩) k q (ix2 ⟨512 * (n % 8) + k.val, by omega⟩ q) rfl rfl).trans
      (blk2_apply V c ⟨n, hn⟩ (ix2 ⟨512 * (n % 8) + k.val, by omega⟩ q) (ix2 ⟨512 * (n % 8) + k.val, by omega⟩ q) rfl rfl)).trans
      (entryS_eq (arrSI V c) ⟨512 * (n % 8) + k.val, by omega⟩ q).symm

/-- The mirrored adjacency block (k, m), read transposed, against the outgoing messages likewise. -/
theorem point_out (c : Dev nD) (n : ℕ) (hn : n < cfg9.N) (p q : Fin 512) :
    ∑ k : Fin 512, bAdjM V c ⟨n, hn⟩ (ix2 k p) * nbrRows (grid9.coords ⟨n, hn⟩) (bSO V c ⟨n, hn⟩) (ix2 k q)
      = termOut (arrA V c) (arrSO V c) (n / 8) p q (n % 8) := by
  have hn' : n < 64 := by have h := hn; rwa [grid_size] at h
  unfold termOut
  refine Finset.sum_congr rfl fun k _ => congrArg₂ (· * ·) ?_ ?_
  · exact (blk1_apply V c ⟨n, hn⟩ (ix2 k p) (ix2 ⟨512 * (n % 8) + k.val, by omega⟩ ⟨512 * (n / 8) + p.val, by omega⟩) rfl rfl).trans
      (entryA_eq (arrA V c) ⟨512 * (n % 8) + k.val, by omega⟩ ⟨512 * (n / 8) + p.val, by omega⟩).symm
  · exact ((nbrRows_apply ⟨n, hn⟩ (blk V c 3 ⟨n, hn⟩) k q (ix2 ⟨512 * (n % 8) + k.val, by omega⟩ q) rfl rfl).trans
      (blk3_apply V c ⟨n, hn⟩ (ix2 ⟨512 * (n % 8) + k.val, by omega⟩ q) (ix2 ⟨512 * (n % 8) + k.val, by omega⟩ q) rfl rfl)).trans
      (entryS_eq (arrSO V c) ⟨512 * (n % 8) + k.val, by omega⟩ q).symm

/-- The first term onto zero. -/
theorem grow_first (g : ℕ → EReal) : 0 + g 0 = 0 + ∑ kb ∈ Finset.range (0 + 1), g kb := by
  rw [Finset.sum_range_succ, Finset.sum_range_zero, zero_add (g 0), zero_add (g 0)]

/-! ## The running sums after every point -/

/-- After point `n = 8 m + k` the first running sum holds zero plus the contributions of neighbour blocks 0 … k. -/
theorem sums_in (c : Dev nD) (n : ℕ) : ∀ (hn : n < cfg9.N) (p q : Fin 512),
    ((sums V c n hn).2.1 (ix2 p q) : EReal)
      = 0 + ∑ kb ∈ Finset.range (n % 8 + 1), termIn (arrA V c) (arrSI V c) (n / 8) p q kb := by
  induction n using Nat.strong_induction_on with
  | _ n ih =>
    intro hn p q
    by_cases h0 : n % 8 = 0
    · have h7 : ¬n % 8 = 7 := by omega
      have e1 : (sums V c n hn).2.1 = k9_pay3 (nbrRows (grid9.coords ⟨n, hn⟩) (blk V c 2 ⟨n, hn⟩)) (k9_pay1 (F := Ideal)) (blk V c 0 ⟨n, hn⟩) :=
        (congrArg (fun s => s.2.1) (sums_start V c ⟨n, hn⟩ h0 h7)).trans (start_s0 V c ⟨n, hn⟩ _ _)
      refine (congrFun e1 (ix2 p q)).trans ((acc_in_apply _ _ _ p q).trans ?_)
      refine (congrArg₂ (· + ·) (clear_in_apply p q) (point_in V c n hn p q)).trans ?_
      rw [h0]
      exact grow_first _
    · have hm : n - 1 < cfg9.N := by omega
      have ihm := ih (n - 1) (by omega) hm p q
      have hdiv : (n - 1) / 8 = n / 8 := by omega
      have hmod : (n - 1) % 8 + 1 = n % 8 := by omega
      rw [hdiv, hmod] at ihm
      have e1 : (sums V c n hn).2.1
          = k9_pay3 (nbrRows (grid9.coords ⟨n, hn⟩) (blk V c 2 ⟨n, hn⟩)) (sums V c (n - 1) hm).2.1 (blk V c 0 ⟨n, hn⟩) := by
        by_cases h7 : n % 8 = 7
        · exact (congrArg (fun s => s.2.1) (sums_finish V c ⟨n, hn⟩ h0 h7)).trans (finish_s0 V c ⟨n, hn⟩ _ _ _ _)
        · exact (congrArg (fun s => s.2.1) (sums_middle V c ⟨n, hn⟩ h0 h7)).trans (middle_s0 V c ⟨n, hn⟩ _ _ _ _)
      refine (congrFun e1 (ix2 p q)).trans ((acc_in_apply _ _ _ p q).trans ?_)
      refine (congrArg (_ + ·) (point_in V c n hn p q)).trans ?_
      exact grow _ (n % 8) _ ihm

/-- The second running sum likewise, with the transposed adjacency entries and the outgoing messages. -/
theorem sums_out (c : Dev nD) (n : ℕ) : ∀ (hn : n < cfg9.N) (p q : Fin 512),
    ((sums V c n hn).2.2 (ix2 p q) : EReal)
      = 0 + ∑ kb ∈ Finset.range (n % 8 + 1), termOut (arrA V c) (arrSO V c) (n / 8) p q kb := by
  induction n using Nat.strong_induction_on with
  | _ n ih =>
    intro hn p q
    by_cases h0 : n % 8 = 0
    · have h7 : ¬n % 8 = 7 := by omega
      have e1 : (sums V c n hn).2.2 = k9_pay4 (nbrRows (grid9.coords ⟨n, hn⟩) (blk V c 3 ⟨n, hn⟩)) (k9_pay2 (F := Ideal)) (blk V c 1 ⟨n, hn⟩) :=
        (congrArg (fun s => s.2.2) (sums_start V c ⟨n, hn⟩ h0 h7)).trans (start_s1 V c ⟨n, hn⟩ _ _)
      refine (congrFun e1 (ix2 p q)).trans ((acc_out_apply _ _ _ p q).trans ?_)
      refine (congrArg₂ (· + ·) (clear_out_apply p q) (point_out V c n hn p q)).trans ?_
      rw [h0]
      exact grow_first _
    · have hm : n - 1 < cfg9.N := by omega
      have ihm := ih (n - 1) (by omega) hm p q
      have hdiv : (n - 1) / 8 = n / 8 := by omega
      have hmod : (n - 1) % 8 + 1 = n % 8 := by omega
      rw [hdiv, hmod] at ihm
      have e1 : (sums V c n hn).2.2
          = k9_pay4 (nbrRows (grid9.coords ⟨n, hn⟩) (blk V c 3 ⟨n, hn⟩)) (sums V c (n - 1) hm).2.2 (blk V c 1 ⟨n, hn⟩) := by
        by_cases h7 : n % 8 = 7
        · exact (congrArg (fun s => s.2.2) (sums_finish V c ⟨n, hn⟩ h0 h7)).trans (finish_s1 V c ⟨n, hn⟩ _ _ _ _)
        · exact (congrArg (fun s => s.2.2) (sums_middle V c ⟨n, hn⟩ h0 h7)).trans (middle_s1 V c ⟨n, hn⟩ _ _ _ _)
      refine (congrFun e1 (ix2 p q)).trans ((acc_out_apply _ _ _ p q).trans ?_)
      refine (congrArg (_ + ·) (point_out V c n hn p q)).trans ?_
      exact grow _ (n % 8) _ ihm

/-! ## The result block at the last neighbour block -/

/-- At a point `n = 8 m + 7` the result block is the new state formed from the two sums that point leaves. -/
theorem out_of_sums (c : Dev nD) (n : ℕ) (hn : n < cfg9.N) (h7 : n % 8 = 7) :
    (sums V c n hn).1 = newBlock (sums V c n hn).2.1 (sums V c n hn).2.2 (blk V c 4 ⟨n, hn⟩) (blk V c 5 ⟨n, hn⟩) (blk V c 6 ⟨n, hn⟩) (blk V c 7 ⟨n, hn⟩) (blk V c 8 ⟨n, hn⟩) (blk V c 9 ⟨n, hn⟩) (blk V c 10 ⟨n, hn⟩) := by
  have h0 : ¬n % 8 = 0 := by omega
  have e := sums_finish V c ⟨n, hn⟩ h0 h7
  have eO := (congrArg (fun s => s.1) e).trans (finish_out V c ⟨n, hn⟩ _ _ _ _)
  have e0 := (congrArg (fun s => s.2.1) e).trans (finish_s0 V c ⟨n, hn⟩ _ _ _ _)
  have e1 := (congrArg (fun s => s.2.2) e).trans (finish_s1 V c ⟨n, hn⟩ _ _ _ _)
  exact eO.trans (by rw [e0, e1])

/-- Entry (p, q) of the result block at point `n = 8 m + 7` is entry (512 m + p, q) of one propagation step from the
    message arrays. -/
theorem block_value (c : Dev nD) (n : ℕ) (hn : n < cfg9.N) (h7 : n % 8 = 7) (p q : Fin 512) :
    ((sums V c n hn).1 (ix2 p q) : EReal)
      = stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))
          ⟨512 * (n / 8) + p.val, by have h := hn; rw [grid_size] at h; omega⟩ q := by
  have hn' : n < 64 := by have h := hn; rwa [grid_size] at h
  have hmb : n / 8 < 8 := by omega
  rw [out_of_sums V c n hn h7]
  unfold newBlock
  refine (newState_eq_update (fun p => (⟨512 * (n / 8) + p.val, by omega⟩ : Fin 4096))
    (Cert.GgnnMath.aggIn (fun p k => arrA V c (ix2 p k)) (fun p k => arrSI V c (ix2 p k)))
    (Cert.GgnnMath.aggOut (fun p k => arrA V c (ix2 p k)) (fun p k => arrSO V c (ix2 p k)))
    (fun p k => arrX V c (ix2 p k))
    (fun q j => arrWr V c (ix2 j q)) (fun q j => arrWz V c (ix2 j q)) (fun q j => arrWh V c (ix2 j q))
    (fun q => arrBr V c (ix2 0 q)) (fun q => arrBz V c (ix2 0 q)) (fun q => arrBh V c (ix2 0 q))
    (sums V c n hn).2.1 (sums V c n hn).2.2 (blk V c 4 ⟨n, hn⟩)
    (rowsA (blk V c 5 ⟨n, hn⟩)) (rowsB (blk V c 5 ⟨n, hn⟩)) (rowsC (blk V c 5 ⟨n, hn⟩))
    (rowsA (blk V c 7 ⟨n, hn⟩)) (rowsB (blk V c 7 ⟨n, hn⟩)) (rowsC (blk V c 7 ⟨n, hn⟩))
    (rowsA (blk V c 9 ⟨n, hn⟩)) (rowsB (blk V c 9 ⟨n, hn⟩)) (rowsC (blk V c 9 ⟨n, hn⟩))
    (blk V c 6 ⟨n, hn⟩) (blk V c 8 ⟨n, hn⟩) (blk V c 10 ⟨n, hn⟩)
    ?_ ?_ ?_ ?_ ?_ ?_ ?_ ?_ ?_ ?_ ?_ ?_ ?_ ?_ ?_ p q).trans rfl
  · intro p k
    refine (sums_in V c n hn p k).trans ?_
    rw [h7]
    exact total_in (arrA V c) (arrSI V c) (n / 8) hmb p k
  · intro p k
    refine (sums_out V c n hn p k).trans ?_
    rw [h7]
    exact total_out (arrA V c) (arrSO V c) (n / 8) hmb p k
  · intro p k
    exact blk4_apply V c ⟨n, hn⟩ (ix2 p k) (ix2 ⟨512 * (n / 8) + p.val, by omega⟩ k) rfl rfl
  · intro k q
    exact (rowsA_apply (blk V c 5 ⟨n, hn⟩) k q).trans (blk5_apply V c ⟨n, hn⟩ _ (ix2 (part0 k) q) rfl rfl)
  · intro k q
    exact (rowsB_apply (blk V c 5 ⟨n, hn⟩) k q).trans (blk5_apply V c ⟨n, hn⟩ _ (ix2 (part1 k) q) rfl rfl)
  · intro k q
    exact (rowsC_apply (blk V c 5 ⟨n, hn⟩) k q).trans (blk5_apply V c ⟨n, hn⟩ _ (ix2 (part2 k) q) rfl rfl)
  · intro k q
    exact (rowsA_apply (blk V c 7 ⟨n, hn⟩) k q).trans (blk7_apply V c ⟨n, hn⟩ _ (ix2 (part0 k) q) rfl rfl)
  · intro k q
    exact (rowsB_apply (blk V c 7 ⟨n, hn⟩) k q).trans (blk7_apply V c ⟨n, hn⟩ _ (ix2 (part1 k) q) rfl rfl)
  · intro k q
    exact (rowsC_apply (blk V c 7 ⟨n, hn⟩) k q).trans (blk7_apply V c ⟨n, hn⟩ _ (ix2 (part2 k) q) rfl rfl)
  · intro k q
    exact (rowsA_apply (blk V c 9 ⟨n, hn⟩) k q).trans (blk9_apply V c ⟨n, hn⟩ _ (ix2 (part0 k) q) rfl rfl)
  · intro k q
    exact (rowsB_apply (blk V c 9 ⟨n, hn⟩) k q).trans (blk9_apply V c ⟨n, hn⟩ _ (ix2 (part1 k) q) rfl rfl)
  · intro k q
    exact (rowsC_apply (blk V c 9 ⟨n, hn⟩) k q).trans (blk9_apply V c ⟨n, hn⟩ _ (ix2 (part2 k) q) rfl rfl)
  · intro q
    exact blk6_apply V c ⟨n, hn⟩ (ix2 0 q) (ix2 0 q) rfl rfl
  · intro q
    exact blk8_apply V c ⟨n, hn⟩ (ix2 0 q) (ix2 0 q) rfl rfl
  · intro q
    exact blk10_apply V c ⟨n, hn⟩ (ix2 0 q) (ix2 0 q) rfl rfl

/-! ## What the writing points write back, and the array after the region -/

/-- A point that writes the result block back — one at the last neighbour block — writes block m of the new-state array. -/
theorem flushed11_eq (c : Dev nD) (t : Fin cfg9.N) (hf : (cfg9.win 11).flush t = true) :
    (dat V c).flushed 11 t = ((cfg9.win 11).blk t).view.read (Elt Ideal)
      (newState (V c (Pipeline.arrRef spec9 0)) (V c (Pipeline.arrRef spec9 2)) (V c (Pipeline.arrRef spec9 3))
        (V c (Pipeline.arrRef spec9 4)) (V c (Pipeline.arrRef spec9 5)) (V c (Pipeline.arrRef spec9 6)) (V c (Pipeline.arrRef spec9 7))
        (V c (Pipeline.arrRef spec9 8)) (V c (Pipeline.arrRef spec9 9)) (V c (Pipeline.arrRef spec9 10))) := by
  have h7 : t.val % 8 = 7 := (flush9_11 t).mp hf
  have ht : t.val < 64 := Nat.lt_of_lt_of_eq t.isLt grid_size
  obtain ⟨-, -, -, -, -, -, -, -, -, -, -, -, -, -, -, -, -, -, -, -, -, -, e0, e1, -⟩ := index_facts t
  show (cfg9.win 11).cut (grid9.coords t) ((dat V c).after 11 t) = _
  rw [after11]
  funext j
  have hr : ((((cfg9.win 11).blk t).view.emb j) 0).val = win9_11.index t (0 : Fin 2) * 512 + 1 * (j 0).val := rfl
  have hq : ((((cfg9.win 11).blk t).view.emb j) 1).val = win9_11.index t (1 : Fin 2) * 512 + 1 * (j 1).val := rfl
  show (sums V c t.val t.isLt).1 j = newState (V c (Pipeline.arrRef spec9 0)) (V c (Pipeline.arrRef spec9 2)) (V c (Pipeline.arrRef spec9 3))
        (V c (Pipeline.arrRef spec9 4)) (V c (Pipeline.arrRef spec9 5)) (V c (Pipeline.arrRef spec9 6)) (V c (Pipeline.arrRef spec9 7))
        (V c (Pipeline.arrRef spec9 8)) (V c (Pipeline.arrRef spec9 9)) (V c (Pipeline.arrRef spec9 10)) (((cfg9.win 11).blk t).view.emb j)
  have hj : (sums V c t.val t.isLt).1 j = (sums V c t.val t.isLt).1 (ix2 (j 0) (j 1)) := congrArg _ (eq_ix2 j)
  refine hj.trans ((block_value V c t.val t.isLt h7 (j 0) (j 1)).trans ?_)
  show _ = stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))
      ((((cfg9.win 11).blk t).view.emb j) 0) ((((cfg9.win 11).blk t).view.emb j) 1)
  refine congrArg₂ (stepFrom (fun p k => arrA V c (ix2 p k)) (fun q j => arrWr V c (ix2 j q)) (fun q => arrBr V c (ix2 0 q))
        (fun q j => arrWz V c (ix2 j q)) (fun q => arrBz V c (ix2 0 q)) (fun q j => arrWh V c (ix2 j q)) (fun q => arrBh V c (ix2 0 q))
        (fun p k => arrSI V c (ix2 p k)) (fun p k => arrSO V c (ix2 p k)) (fun p k => arrX V c (ix2 p k))) (Fin.ext ?_) (Fin.ext ?_)
  · show 512 * (t.val / 8) + (j 0).val = ((((cfg9.win 11).blk t).view.emb j) 0).val
    omega
  · show (j 1).val = ((((cfg9.win 11).blk t).view.emb j) 1).val
    omega

/-- An index of the new-state array is in point `t`'s block iff each coordinate is in the block's range on its axis. -/
theorem mem_blk11 (t : Fin cfg9.N) (i : S4096x512.Idx) :
    i ∈ ((cfg9.win 11).blk t).view.set ↔ ∀ a : Fin 2, win9_11.index t a * S512x512.size a ≤ (i a).val
      ∧ (i a).val < win9_11.index t a * S512x512.size a + S512x512.size a := by
  show i ∈ ((View.whole (Pipeline.arrRef spec9 11)).slice (win9_11.rect t)).set ↔ _
  rw [View.set_slice_whole, Rect.mem_set_unit]
  exact Iff.rfl

/-- The point that writes row `r`: the last neighbour block of node block `r / 512`. -/
def pointOf (i : S4096x512.Idx) : Fin cfg9.N :=
  ⟨8 * ((i 0).val / 512) + 7, by have h : (i 0).val < 4096 := (i 0).isLt; rw [grid_size]; omega⟩

/-- The eight written blocks tile the new-state array. -/
theorem cover11 (i : S4096x512.Idx) :
    ∃ t : Fin cfg9.N, (cfg9.win 11).flush t = true ∧ i ∈ ((cfg9.win 11).blk t).view.set := by
  have hi0 : (i 0).val < 4096 := (i 0).isLt
  have hi1 : (i 1).val < 512 := (i 1).isLt
  have ht : (pointOf i).val = 8 * ((i 0).val / 512) + 7 := rfl
  obtain ⟨-, -, -, -, -, -, -, -, -, -, -, -, -, -, -, -, -, -, -, -, -, -, e0, e1, -⟩ := index_facts (pointOf i)
  refine ⟨pointOf i, (flush9_11 (pointOf i)).mpr (by omega), ?_⟩
  rw [mem_blk11]
  intro a
  match a with
  | ⟨0, _⟩ => show win9_11.index (pointOf i) (0 : Fin 2) * 512 ≤ (i 0).val
                ∧ (i 0).val < win9_11.index (pointOf i) (0 : Fin 2) * 512 + 512; omega
  | ⟨1, _⟩ => show win9_11.index (pointOf i) (1 : Fin 2) * 512 ≤ (i 1).val
                ∧ (i 1).val < win9_11.index (pointOf i) (1 : Fin 2) * 512 + 512; omega

/-- THE NEW-STATE ARRAY after the region: one propagation step from the message arrays, the adjacency array, the state
    array, the gate weights and the bias rows as the region finds them. -/
theorem arr11 (c : Dev nD) :
    (dat V c).arrAt 11 cfg9.N = newState (V c (Pipeline.arrRef spec9 0)) (V c (Pipeline.arrRef spec9 2)) (V c (Pipeline.arrRef spec9 3))
        (V c (Pipeline.arrRef spec9 4)) (V c (Pipeline.arrRef spec9 5)) (V c (Pipeline.arrRef spec9 6)) (V c (Pipeline.arrRef spec9 7))
        (V c (Pipeline.arrRef spec9 8)) (V c (Pipeline.arrRef spec9 9)) (V c (Pipeline.arrRef spec9 10)) := by
  have hG : ∀ t, (cfg9.win 11).flush t = true → (dat V c).flushed 11 t = ((cfg9.win 11).blk t).view.read (Elt Ideal)
      (newState (V c (Pipeline.arrRef spec9 0)) (V c (Pipeline.arrRef spec9 2)) (V c (Pipeline.arrRef spec9 3))
        (V c (Pipeline.arrRef spec9 4)) (V c (Pipeline.arrRef spec9 5)) (V c (Pipeline.arrRef spec9 6)) (V c (Pipeline.arrRef spec9 7))
        (V c (Pipeline.arrRef spec9 8)) (V c (Pipeline.arrRef spec9 9)) (V c (Pipeline.arrRef spec9 10))) :=
    fun t hf => flushed11_eq V c t hf
  exact Dat.arrAt_eq_of_cover (dat V c) 11 _ hG cover11

/-! ## The input arrays are never written -/

/-- Each of the eleven input windows' arrays ends as the region finds it. -/
theorem arr0 (c : Dev nD) : (dat V c).arrAt 0 cfg9.N = V c (Pipeline.arrRef spec9 0) :=
  ((dat V c).arrAt_in 0 rfl cfg9.N).trans (dat_A V c 0)
theorem arr1 (c : Dev nD) : (dat V c).arrAt 1 cfg9.N = V c (Pipeline.arrRef spec9 1) :=
  ((dat V c).arrAt_in 1 rfl cfg9.N).trans (dat_A V c 1)
theorem arr2 (c : Dev nD) : (dat V c).arrAt 2 cfg9.N = V c (Pipeline.arrRef spec9 2) :=
  ((dat V c).arrAt_in 2 rfl cfg9.N).trans (dat_A V c 2)
theorem arr3 (c : Dev nD) : (dat V c).arrAt 3 cfg9.N = V c (Pipeline.arrRef spec9 3) :=
  ((dat V c).arrAt_in 3 rfl cfg9.N).trans (dat_A V c 3)
theorem arr4 (c : Dev nD) : (dat V c).arrAt 4 cfg9.N = V c (Pipeline.arrRef spec9 4) :=
  ((dat V c).arrAt_in 4 rfl cfg9.N).trans (dat_A V c 4)
theorem arr5 (c : Dev nD) : (dat V c).arrAt 5 cfg9.N = V c (Pipeline.arrRef spec9 5) :=
  ((dat V c).arrAt_in 5 rfl cfg9.N).trans (dat_A V c 5)
theorem arr6 (c : Dev nD) : (dat V c).arrAt 6 cfg9.N = V c (Pipeline.arrRef spec9 6) :=
  ((dat V c).arrAt_in 6 rfl cfg9.N).trans (dat_A V c 6)
theorem arr7 (c : Dev nD) : (dat V c).arrAt 7 cfg9.N = V c (Pipeline.arrRef spec9 7) :=
  ((dat V c).arrAt_in 7 rfl cfg9.N).trans (dat_A V c 7)
theorem arr8 (c : Dev nD) : (dat V c).arrAt 8 cfg9.N = V c (Pipeline.arrRef spec9 8) :=
  ((dat V c).arrAt_in 8 rfl cfg9.N).trans (dat_A V c 8)
theorem arr9 (c : Dev nD) : (dat V c).arrAt 9 cfg9.N = V c (Pipeline.arrRef spec9 9) :=
  ((dat V c).arrAt_in 9 rfl cfg9.N).trans (dat_A V c 9)
theorem arr10 (c : Dev nD) : (dat V c).arrAt 10 cfg9.N = V c (Pipeline.arrRef spec9 10) :=
  ((dat V c).arrAt_in 10 rfl cfg9.N).trans (dat_A V c 10)

end Cert.KernelIdeal.GatedValue9

end
-- ==== Proof.IdealOutputValue10.lean ====
/-
  The value of the output array of region 10, read over the extended reals.

  At every grid point the body sends a block of 1024 rows of the final node state through a two-layer network: the block
  times a first 512 x 512 weight (rows against columns, into a zero accumulator) plus a first bias row on every row, the
  hyperbolic tangent of every entry, then the result times a second 512 x 512 weight plus a second bias row. A change of
  float format is the identity on the extended reals. So an entry of the result block is a finite sum, over the hidden
  coordinate k, of  tanh(hidden entry k) * (second weight entry), plus one bias entry, where a hidden entry is itself a
  finite sum of products plus a bias entry. The four points' result blocks are the four consecutive groups of 1024 rows of
  the result array, row r lying in the block of point r / 1024; both weights and both bias rows are the same whole arrays
  at every point. Hence, after the region, entry (r, q) of the result array is

      (sum over k of  tanh( (sum over j of X (r, j) * W1 (j, k)) + B1 (0, k) ) * W2 (k, q))  +  B2 (0, q)

  of the state array X, the weights and the bias rows as the region finds them, and the five input arrays are as the
  region finds them.
-/
import proofs.«121501_j55087250538634_2_alg».proof.Proof.IdealOutput10
import proofs.«121501_j55087250538634_2_alg».proof.Proof.GgnnMath
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.OutputValue10

open Cert.KernelIdeal Cert.KernelIdeal.Gen Cert.KernelIdeal.Output10
open Idealize.ShloMosaic Idealize.ShloMosaic.TcCoe Idealize.SL.Sem
open Idealize.ShloMosaic.ValueIdx
open Idealize.ShloMosaic.Pipeline (Dat)

/-! ## The product's operand indices, one coordinate at a time -/

/-- The dimension numbers of the block product: rows of the left operand against columns of the right, contracting the
    left's axis 1 with the right's axis 0. -/
abbrev dotRC : DotDims S1024x512 S512x512 S1024x512 := dot_S1024x512_S512x512_S1024x512_1_0_0_1_n_n

/-- The left operand is read at the result's row … -/
theorem lhs_row (i : S1024x512.Idx) (q : dotRC.contr.Idx) : (dotRC.lhsIdx i q 0).val = (i 0).val := by
  unfold DotDims.lhsIdx
  rw [dif_neg (show ¬(0 : Fin S1024x512.rank) ∈ dotRC.lhsBatch by decide),
    dif_pos (show (0 : Fin S1024x512.rank) ∈ dotRC.lhsNonContracting by decide)]
  rfl

/-- … and at the contracted coordinate as its column; -/
theorem lhs_col (i : S1024x512.Idx) (q : dotRC.contr.Idx) : (dotRC.lhsIdx i q 1).val = (q ⟨0, by decide⟩).val :=
  dotRC.lhsIdx_val_of_single rfl i q

/-- the right operand at the contracted coordinate as its row … -/
theorem rhs_row (i : S1024x512.Idx) (q : dotRC.contr.Idx) : (dotRC.rhsIdx i q 0).val = (q ⟨0, by decide⟩).val :=
  dotRC.rhsIdx_val_of_single rfl i q

/-- … and at the result's column. -/
theorem rhs_col (i : S1024x512.Idx) (q : dotRC.contr.Idx) : (dotRC.rhsIdx i q 1).val = (i 1).val := by
  unfold DotDims.rhsIdx
  rw [dif_neg (show ¬(1 : Fin S512x512.rank) ∈ dotRC.rhsBatch by decide),
    dif_pos (show (1 : Fin S512x512.rank) ∈ dotRC.rhsNonContracting by decide)]
  rfl

/-- The block product into the zero accumulator, at row `p` and column `q`: the sum over the contracted coordinate of
    the left operand's row entry times the right operand's column entry. -/
theorem product_apply (l : FVec Ideal S1024x512 .bf16) (r : FVec Ideal S512x512 .bf16) (p : Fin 1024) (q : Fin 512) :
    matmul dotRC none l r (constant (F := Ideal) S1024x512 .f32 0x00000000#32) (ix2 p q)
      = ∑ k : Fin 512, l (ix2 p k) * r (ix2 k q) := by
  simp only [matmul]
  rw [Ideal.matmul_constant_zero_apply, ← Equiv.sum_comp (contrEquiv1 dotRC 512 rfl rfl).symm]
  refine Finset.sum_congr rfl fun k _ => ?_
  have hk := contrEquiv1_symm_val dotRC 512 rfl rfl k
  have el : dotRC.lhsIdx (ix2 p q) ((contrEquiv1 dotRC 512 rfl rfl).symm k) = ix2 p k := funext fun a => Fin.ext (by
    match a with
    | ⟨0, _⟩ => exact lhs_row _ _
    | ⟨1, _⟩ => exact (lhs_col _ _).trans hk)
  have er : dotRC.rhsIdx (ix2 p q) ((contrEquiv1 dotRC 512 rfl rfl).symm k) = ix2 k q := funext fun a => Fin.ext (by
    match a with
    | ⟨0, _⟩ => exact (rhs_row _ _).trans hk
    | ⟨1, _⟩ => exact rhs_col _ _)
  rw [el, er]

/-- The bias row broadcast down the rows, at row `p` and column `q`, is the row's entry at column `q`. -/
theorem bias_apply (b : FVec Ideal S1x512 .f32) (p : Fin 1024) (q : Fin 512) :
    broadcastTo S1024x512 b broadcasts_S1x512_S1024x512 (ix2 p q) = b (ix2 0 q) := by
  refine broadcastTo_apply b _ (ix2 p q) (ix2 0 q) fun a => ?_
  match a with
  | ⟨0, _⟩ => rfl
  | ⟨1, _⟩ => rfl

/-- The hyperbolic tangent of a vector, at an entry. -/
theorem tanh_apply {s : Shape} (v : FVec Ideal s .f32) (i : s.Idx) : tanh v i = Ideal.tanh (v i) := rfl

/-! ## The payload at an index -/

/-- The hidden layer's pre-activation at row `p`, hidden coordinate `k`. -/
def hidden (x : S1024x512.Idx → EReal) (w1 : S512x512.Idx → EReal) (b1 : S1x512.Idx → EReal) (p : Fin 1024) (k : Fin 512) : EReal :=
  (∑ j : Fin 512, x (ix2 p j) * w1 (ix2 j k)) + b1 (ix2 0 k)

/-- The result payload at row `p`, column `q`: the tangents of the hidden row against the second weight's column, plus
    the second bias. -/
theorem pay_apply (x : Vec Ideal S1024x512 .f32) (w1 : Vec Ideal S512x512 .bf16) (b1 : Vec Ideal S1x512 .f32)
    (w2 : Vec Ideal S512x512 .bf16) (b2 : Vec Ideal S1x512 .f32) (p : Fin 1024) (q : Fin 512) :
    k10_pay1 x w1 b1 w2 b2 (ix2 p q)
      = (∑ k : Fin 512, Ideal.tanh ((∑ j : Fin 512, x (ix2 p j) * w1 (ix2 j k)) + b1 (ix2 0 k)) * w2 (ix2 k q)) + b2 (ix2 0 q) := by
  unfold k10_pay1
  simp only [shapeCast_self]
  rw [addf_apply, bias_apply]
  refine congrArg (· + b2 (ix2 0 q)) ((product_apply _ _ p q).trans (Finset.sum_congr rfl fun k _ => congrArg (· * w2 (ix2 k q)) ?_))
  rw [truncf_apply, tanh_apply, addf_apply, bias_apply]
  exact congrArg (fun s => Ideal.tanh (s + b1 (ix2 0 k))) (product_apply _ _ p k)

/-! ## What the result buffer holds after the body, at an index -/

/-- The zero offsets of a whole-buffer rectangle, as the constant function. -/
theorem zeroOffsets : (![0, 0] : Fin 2 → Nat) = fun _ => 0 := funext fun a => by fin_cases a <;> rfl

/-- The output block of a state block, two weights and two bias rows, at an entry: the one stored piece covers the
    buffer, so the entry is the payload's. -/
theorem outBlock_apply (x : Vec Ideal S1024x512 .f32) (w1 : Vec Ideal S512x512 .bf16) (b1 : Vec Ideal S1x512 .f32)
    (w2 : Vec Ideal S512x512 .bf16) (b2 : Vec Ideal S1x512 .f32) (j : S1024x512.Idx) :
    outBlock x w1 b1 w2 b2 j
      = (∑ k : Fin 512, Ideal.tanh ((∑ l : Fin 512, x (ix2 (j 0) l) * w1 (ix2 l k)) + b1 (ix2 0 k)) * w2 (ix2 k (j 1)))
        + b2 (ix2 0 (j 1)) := by
  obtain ⟨p, q, rfl⟩ : ∃ (p : Fin 1024) (q : Fin 512), j = ix2 p q := ⟨j 0, j 1, eq_ix2 j⟩
  unfold outBlock
  rw [View.canon_unit_zero zeroOffsets]
  simp only [View.ld_unit_zero (S := S1024x512) zeroOffsets, View.ld_unit_zero (S := S512x512) zeroOffsets,
    View.ld_unit_zero (S := S1x512) zeroOffsets]
  exact pay_apply x w1 b1 w2 b2 p q

/-! ## The whole result array -/

/-- The result array of a state array `X`, weights `W1`, `W2` and bias rows `B1`, `B2`: entry (r, q) is the tangents of
    the hidden row r — row r of `X` against the columns of `W1`, plus `B1` — against column q of `W2`, plus `B2` at
    column q. -/
def out (X : S4096x512.Idx → EReal) (W1 : S512x512.Idx → EReal) (B1 : S1x512.Idx → EReal)
    (W2 : S512x512.Idx → EReal) (B2 : S1x512.Idx → EReal) : S4096x512.Idx → EReal :=
  fun i => (∑ k : Fin 512, Ideal.tanh ((∑ l : Fin 512, X (ix2 (i 0) l) * W1 (ix2 l k)) + B1 (ix2 0 k)) * W2 (ix2 k (i 1)))
    + B2 (ix2 0 (i 1))

theorem out_apply (X : S4096x512.Idx → EReal) (W1 : S512x512.Idx → EReal) (B1 : S1x512.Idx → EReal)
    (W2 : S512x512.Idx → EReal) (B2 : S1x512.Idx → EReal) (i : S4096x512.Idx) :
    out X W1 B1 W2 B2 i
      = (∑ k : Fin 512, Ideal.tanh ((∑ l : Fin 512, X (ix2 (i 0) l) * W1 (ix2 l k)) + B1 (ix2 0 k)) * W2 (ix2 k (i 1)))
        + B2 (ix2 0 (i 1)) := rfl

/-- The result array is the two-layer network `tanh(x · M1ᵀ + b1) · M2ᵀ + b2` whose matrices are the weight operands
    transposed (`M q k = W (k, q)`): the same sums of the same products, entry by entry. -/
theorem out_eq_outMlp (X : S4096x512.Idx → EReal) (W1 : S512x512.Idx → EReal) (B1 : S1x512.Idx → EReal)
    (W2 : S512x512.Idx → EReal) (B2 : S1x512.Idx → EReal) (i : S4096x512.Idx) :
    out X W1 B1 W2 B2 i
      = Cert.GgnnMath.outMlp (fun q k => W1 (ix2 k q)) (fun q => B1 (ix2 0 q)) (fun q k => W2 (ix2 k q)) (fun q => B2 (ix2 0 q))
          (fun p k => X (ix2 p k)) (i 0) (i 1) := rfl

variable (V : (c : Dev nD) → (b : Ref sig .tc) → Buf (Elt Ideal) ((c : Thread nD τ).loc b))

/-- The printed index maps over the grid: the state window and the result window sit at block row `t` at point `t`,
    the weights and bias rows at block (0, 0) at every point. -/
theorem index_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-! ## The input blocks as parts of their arrays -/

/-- The state block at point `t` is rows `1024 t … 1024 t + 1023` of the state array. -/
theorem blk0_apply (c : Dev nD) (t : Fin cfg10.N) (y : S1024x512.Idx) (i : S4096x512.Idx)
    (h0 : (i 0).val = t.val * 1024 + (y 0).val) (h1 : (i 1).val = (y 1).val) :
    blk V c 0 t y = (V c (Pipeline.arrRef spec10 0) : S4096x512.Idx → EReal) i := by
  obtain ⟨e0, e1, -⟩ := index_facts t
  unfold blk
  show V c (Pipeline.arrRef spec10 0) (((cfg10.win 0).blk t).view.emb y) = _
  refine congrArg _ (funext fun a => Fin.ext ?_)
  match a with
  | ⟨0, _⟩ => show win10_0.index t (0 : Fin 2) * 1024 + 1 * (y 0).val = (i 0).val; omega
  | ⟨1, _⟩ => show win10_0.index t (1 : Fin 2) * 512 + 1 * (y 1).val = (i 1).val; omega

/-- The first weight's block is the whole weight at every point. -/
theorem blk1_apply (c : Dev nD) (t : Fin cfg10.N) (y i : S512x512.Idx)
    (h0 : (i 0).val = (y 0).val) (h1 : (i 1).val = (y 1).val) :
    blk V c 1 t y = (V c (Pipeline.arrRef spec10 1) : S512x512.Idx → EReal) i := by
  obtain ⟨-, -, e0, e1, -⟩ := index_facts t
  unfold blk
  show V c (Pipeline.arrRef spec10 1) (((cfg10.win 1).blk t).view.emb y) = _
  refine congrArg _ (funext fun a => Fin.ext ?_)
  match a with
  | ⟨0, _⟩ => show win10_1.index t (0 : Fin 2) * 512 + 1 * (y 0).val = (i 0).val; omega
  | ⟨1, _⟩ => show win10_1.index t (1 : Fin 2) * 512 + 1 * (y 1).val = (i 1).val; omega

/-- The first bias row's block is the whole row at every point. -/
theorem blk2_apply (c : Dev nD) (t : Fin cfg10.N) (y i : S1x512.Idx)
    (h0 : (i 0).val = (y 0).val) (h1 : (i 1).val = (y 1).val) :
    blk V c 2 t y = (V c (Pipeline.arrRef spec10 2) : S1x512.Idx → EReal) i := by
  obtain ⟨-, -, -, -, e0, e1, -⟩ := index_facts t
  unfold blk
  show V c (Pipeline.arrRef spec10 2) (((cfg10.win 2).blk t).view.emb y) = _
  refine congrArg _ (funext fun a => Fin.ext ?_)
  match a with
  | ⟨0, _⟩ => show win10_2.index t (0 : Fin 2) * 1 + 1 * (y 0).val = (i 0).val; omega
  | ⟨1, _⟩ => show win10_2.index t (1 : Fin 2) * 512 + 1 * (y 1).val = (i 1).val; omega

/-- The second weight's block is the whole weight at every point. -/
theorem blk3_apply (c : Dev nD) (t : Fin cfg10.N) (y i : S512x512.Idx)
    (h0 : (i 0).val = (y 0).val) (h1 : (i 1).val = (y 1).val) :
    blk V c 3 t y = (V c (Pipeline.arrRef spec10 3) : S512x512.Idx → EReal) i := by
  obtain ⟨-, -, -, -, -, -, e0, e1, -⟩ := index_facts t
  unfold blk
  show V c (Pipeline.arrRef spec10 3) (((cfg10.win 3).blk t).view.emb y) = _
  refine congrArg _ (funext fun a => Fin.ext ?_)
  match a with
  | ⟨0, _⟩ => show win10_3.index t (0 : Fin 2) * 512 + 1 * (y 0).val = (i 0).val; omega
  | ⟨1, _⟩ => show win10_3.index t (1 : Fin 2) * 512 + 1 * (y 1).val = (i 1).val; omega

/-- The second bias row's block is the whole row at every point. -/
theorem blk4_apply (c : Dev nD) (t : Fin cfg10.N) (y i : S1x512.Idx)
    (h0 : (i 0).val = (y 0).val) (h1 : (i 1).val = (y 1).val) :
    blk V c 4 t y = (V c (Pipeline.arrRef spec10 4) : S1x512.Idx → EReal) i := by
  obtain ⟨-, -, -, -, -, -, -, -, e0, e1, -⟩ := index_facts t
  unfold blk
  show V c (Pipeline.arrRef spec10 4) (((cfg10.win 4).blk t).view.emb y) = _
  refine congrArg _ (funext fun a => Fin.ext ?_)
  match a with
  | ⟨0, _⟩ => show win10_4.index t (0 : Fin 2) * 1 + 1 * (y 0).val = (i 0).val; omega
  | ⟨1, _⟩ => show win10_4.index t (1 : Fin 2) * 512 + 1 * (y 1).val = (i 1).val; omega

/-! ## What each point writes back, and the array after the region -/

/-- Point `t` writes back block `t` of the result array of the state, the weights and the bias rows as the region
    finds them. -/
theorem flushed5_eq (c : Dev nD) (t : Fin cfg10.N) :
    (dat V c).flushed 5 t = ((cfg10.win 5).blk t).view.read (Elt Ideal)
      (out (V c (Pipeline.arrRef spec10 0)) (V c (Pipeline.arrRef spec10 1)) (V c (Pipeline.arrRef spec10 2))
        (V c (Pipeline.arrRef spec10 3)) (V c (Pipeline.arrRef spec10 4))) := by
  show (cfg10.win 5).cut (grid10.coords t) ((dat V c).after 5 t) = _
  rw [after5]
  funext j
  obtain ⟨-, -, -, -, -, -, -, -, -, -, e50, e51⟩ := index_facts t
  show outBlock (blk V c 0 t) (blk V c 1 t) (blk V c 2 t) (blk V c 3 t) (blk V c 4 t) j
    = out (V c (Pipeline.arrRef spec10 0)) (V c (Pipeline.arrRef spec10 1)) (V c (Pipeline.arrRef spec10 2))
        (V c (Pipeline.arrRef spec10 3)) (V c (Pipeline.arrRef spec10 4)) (((cfg10.win 5).blk t).view.emb j)
  refine (outBlock_apply (blk V c 0 t) (blk V c 1 t) (blk V c 2 t) (blk V c 3 t) (blk V c 4 t) j).trans ?_
  unfold out
  have hr : ((((cfg10.win 5).blk t).view.emb j) 0).val = win10_5.index t (0 : Fin 2) * 1024 + 1 * (j 0).val := rfl
  have hq : ((((cfg10.win 5).blk t).view.emb j) 1).val = win10_5.index t (1 : Fin 2) * 512 + 1 * (j 1).val := rfl
  refine congrArg₂ (· + ·) (Finset.sum_congr rfl fun k _ => congrArg₂ (· * ·) (congrArg Ideal.tanh
    (congrArg₂ (· + ·) (Finset.sum_congr rfl fun l _ => congrArg₂ (· * ·) ?_ ?_) ?_)) ?_) ?_
  · exact blk0_apply V c t _ _ (by show ((((cfg10.win 5).blk t).view.emb j) 0).val = t.val * 1024 + (j 0).val; omega) rfl
  · exact blk1_apply V c t _ _ rfl rfl
  · exact blk2_apply V c t _ _ rfl rfl
  · exact blk3_apply V c t _ _ rfl (by show ((((cfg10.win 5).blk t).view.emb j) 1).val = (j 1).val; omega)
  · exact blk4_apply V c t _ _ rfl (by show ((((cfg10.win 5).blk t).view.emb j) 1).val = (j 1).val; omega)

/-- An index of the result array is in point `t`'s block iff each coordinate is in the block's range on its axis. -/
theorem mem_blk5 (t : Fin cfg10.N) (i : S4096x512.Idx) :
    i ∈ ((cfg10.win 5).blk t).view.set ↔ ∀ a : Fin 2, win10_5.index t a * S1024x512.size a ≤ (i a).val
      ∧ (i a).val < win10_5.index t a * S1024x512.size a + S1024x512.size a := by
  show i ∈ ((View.whole (Pipeline.arrRef spec10 5)).slice (win10_5.rect t)).set ↔ _
  rw [View.set_slice_whole, Rect.mem_set_unit]
  exact Iff.rfl

/-- The point whose block holds row `r` is `r / 1024`. -/
def pointOf (i : S4096x512.Idx) : Fin cfg10.N :=
  ⟨(i 0).val / 1024, by have h : (i 0).val < 4096 := (i 0).isLt; rw [show cfg10.N = 4 from N_10]; omega⟩

/-- The blocks of the result window tile its array: every entry is in the block of the point of its row. -/
theorem cover5 (i : S4096x512.Idx) :
    ∃ t : Fin cfg10.N, (cfg10.win 5).flush t = true ∧ i ∈ ((cfg10.win 5).blk t).view.set := by
  have hi0 : (i 0).val < 4096 := (i 0).isLt
  have hi1 : (i 1).val < 512 := (i 1).isLt
  have ht : (pointOf i).val = (i 0).val / 1024 := rfl
  obtain ⟨-, -, -, -, -, -, -, -, -, -, e0, e1⟩ := index_facts (pointOf i)
  refine ⟨pointOf i, flush10_5 (pointOf i), ?_⟩
  rw [mem_blk5]
  intro a
  match a with
  | ⟨0, _⟩ => show win10_5.index (pointOf i) (0 : Fin 2) * 1024 ≤ (i 0).val
                ∧ (i 0).val < win10_5.index (pointOf i) (0 : Fin 2) * 1024 + 1024; omega
  | ⟨1, _⟩ => show win10_5.index (pointOf i) (1 : Fin 2) * 512 ≤ (i 1).val
                ∧ (i 1).val < win10_5.index (pointOf i) (1 : Fin 2) * 512 + 512; omega

/-- THE RESULT ARRAY after the region: entry (r, q) is the tangents of the hidden row r against column q of the second
    weight, plus the second bias row at column q — of the arrays as the region finds them. -/
theorem arr5 (c : Dev nD) :
    (dat V c).arrAt 5 cfg10.N
      = out (V c (Pipeline.arrRef spec10 0)) (V c (Pipeline.arrRef spec10 1)) (V c (Pipeline.arrRef spec10 2))
          (V c (Pipeline.arrRef spec10 3)) (V c (Pipeline.arrRef spec10 4)) := by
  have hG : ∀ t, (cfg10.win 5).flush t = true → (dat V c).flushed 5 t = ((cfg10.win 5).blk t).view.read (Elt Ideal)
      (out (V c (Pipeline.arrRef spec10 0)) (V c (Pipeline.arrRef spec10 1)) (V c (Pipeline.arrRef spec10 2))
        (V c (Pipeline.arrRef spec10 3)) (V c (Pipeline.arrRef spec10 4))) :=
    fun t _ => flushed5_eq V c t
  exact Dat.arrAt_eq_of_cover (dat V c) 5 _ hG cover5
/-! ## The input arrays are never written -/

/-- Each of the five input windows' arrays — the state, the two weights, the two bias rows — ends as the region finds it. -/
theorem arr0 (c : Dev nD) : (dat V c).arrAt 0 cfg10.N = V c (Pipeline.arrRef spec10 0) :=
  ((dat V c).arrAt_in 0 rfl cfg10.N).trans (dat_A V c 0)
theorem arr1 (c : Dev nD) : (dat V c).arrAt 1 cfg10.N = V c (Pipeline.arrRef spec10 1) :=
  ((dat V c).arrAt_in 1 rfl cfg10.N).trans (dat_A V c 1)
theorem arr2 (c : Dev nD) : (dat V c).arrAt 2 cfg10.N = V c (Pipeline.arrRef spec10 2) :=
  ((dat V c).arrAt_in 2 rfl cfg10.N).trans (dat_A V c 2)
theorem arr3 (c : Dev nD) : (dat V c).arrAt 3 cfg10.N = V c (Pipeline.arrRef spec10 3) :=
  ((dat V c).arrAt_in 3 rfl cfg10.N).trans (dat_A V c 3)
theorem arr4 (c : Dev nD) : (dat V c).arrAt 4 cfg10.N = V c (Pipeline.arrRef spec10 4) :=
  ((dat V c).arrAt_in 4 rfl cfg10.N).trans (dat_A V c 4)

end Cert.KernelIdeal.OutputValue10

end
-- ==== Proof.RefStepDefs.lean ====
/-
  One propagation step of the gated graph network, and its output layer, as functions of whole arrays built from
  the reference program's own host operations.

  With `Af` the adjacency matrix as floats, a step maps the state `x` to

    s_in = x · W_inᵀ + b_in,  s_out = x · W_outᵀ + b_out,  a_in = Af · s_in,  a_out = Afᵀ · s_out,
    r = σ([a_in, a_out, x] · W_rᵀ + b_r),  z = σ([a_in, a_out, x] · W_zᵀ + b_z)  with σ y = 1 / (1 + exp (−y)),
    h = tanh([a_in, a_out, r ∘ x] · W_hᵀ + b_h),  x' = (1 − z) ∘ x + z ∘ h;

  the output layer is tanh(x · W_o1ᵀ + b_o1) · W_o2ᵀ + b_o2. A product with a transposed weight is the host's
  matrix product with the transposed array; a bias is broadcast over the rows; `[u, v, w]` is the concatenation
  along the columns.
-/
import proofs.«121501_j55087250538634_2_alg».proof.Proof.Gen.ReferenceIdeal

noncomputable section

namespace Cert.ReferenceIdeal.RefValue

open Cert.ReferenceIdeal Cert.ReferenceIdeal.Gen Idealize.ShloMosaic

variable {F : FTy → Type} [FloatOps F]

/-- A bias vector repeated on every row. -/
def biasRows (b : Vec F S512 .f32) : Vec F S4096x512 .f32 :=
  broadcastInDim S4096x512 ![0, 1] bcast_S1x512_S4096x512_0_1 (broadcastInDim S1x512 ![1] bcast_S512_S1x512_1 b)

/-- The constant one at every entry. -/
def ones : Vec F S4096x512 .f32 :=
  broadcastInDim S4096x512 ![] bcast_S_S4096x512 (constant S_ .f32 0x3F800000#32)

/-- A linear layer `x · Wᵀ + b`. -/
def linear (x : Vec F S4096x512 .f32) (W : Vec F S512x512 .f32) (b : Vec F S512 .f32) : Vec F S4096x512 .f32 :=
  addf (Host.dotGeneral dot_S4096x512_S512x512_S4096x512_1_0_0_1_n_n none x
    (transpose S512x512 [1, 0] W transposes_S512x512_S512x512_1_0)) (biasRows b)

/-- An aggregation `M · s` over the graph's nodes. -/
def aggregate (M : Vec F S4096x4096 .f32) (s : Vec F S4096x512 .f32) : Vec F S4096x512 .f32 :=
  Host.dotGeneral dot_S4096x4096_S4096x512_S4096x512_1_0_0_1_n_n none M s

/-- Three blocks of 512 columns side by side. -/
def joined (u v w : Vec F S4096x512 .f32) : Vec F S4096x1536 .f32 :=
  concatenate S4096x1536 1 [⟨S4096x512, u⟩, ⟨S4096x512, v⟩, ⟨S4096x512, w⟩]
    concatenates_S4096x512_S4096x512_S4096x512_S4096x1536_d1

/-- A gate's pre-activation `a · Wᵀ + b` for a joined input `a`. -/
def gatePre (a : Vec F S4096x1536 .f32) (W : Vec F S512x1536 .f32) (b : Vec F S512 .f32) : Vec F S4096x512 .f32 :=
  addf (Host.dotGeneral dot_S4096x1536_S1536x512_S4096x512_1_0_0_1_n_n none a
    (transpose S1536x512 [1, 0] W transposes_S512x1536_S1536x512_1_0)) (biasRows b)

/-- The sigmoid as the reference spells it: `1 / (1 + exp (−y))`. -/
def sigmoid (y : Vec F S4096x512 .f32) : Vec F S4096x512 .f32 :=
  Host.divf ones (addf ones (Host.exp (Host.negf y)))

/-- One propagation step on whole arrays. -/
def step (Af : Vec F S4096x4096 .f32)
    (Win : Vec F S512x512 .f32) (bin : Vec F S512 .f32) (Wout : Vec F S512x512 .f32) (bout : Vec F S512 .f32)
    (Wr : Vec F S512x1536 .f32) (br : Vec F S512 .f32) (Wz : Vec F S512x1536 .f32) (bz : Vec F S512 .f32)
    (Wh : Vec F S512x1536 .f32) (bh : Vec F S512 .f32) (x : Vec F S4096x512 .f32) : Vec F S4096x512 .f32 :=
  addf
    (mulf (subf ones
        (sigmoid (gatePre (joined (aggregate Af (linear x Win bin))
          (aggregate (transpose S4096x4096 [1, 0] Af transposes_S4096x4096_S4096x4096_1_0) (linear x Wout bout)) x) Wz bz)))
      x)
    (mulf
      (sigmoid (gatePre (joined (aggregate Af (linear x Win bin))
        (aggregate (transpose S4096x4096 [1, 0] Af transposes_S4096x4096_S4096x4096_1_0) (linear x Wout bout)) x) Wz bz))
      (Host.tanh (gatePre
        (joined (aggregate Af (linear x Win bin))
          (aggregate (transpose S4096x4096 [1, 0] Af transposes_S4096x4096_S4096x4096_1_0) (linear x Wout bout))
          (mulf (sigmoid (gatePre (joined (aggregate Af (linear x Win bin))
            (aggregate (transpose S4096x4096 [1, 0] Af transposes_S4096x4096_S4096x4096_1_0) (linear x Wout bout)) x) Wr br)) x))
        Wh bh)))

/-- The output layer on whole arrays. -/
def outMlp (W1 : Vec F S512x512 .f32) (b1 : Vec F S512 .f32) (W2 : Vec F S512x512 .f32) (b2 : Vec F S512 .f32)
    (x : Vec F S4096x512 .f32) : Vec F S4096x512 .f32 :=
  linear (Host.tanh (linear x W1 b1)) W2 b2

end Cert.ReferenceIdeal.RefValue

end
-- ==== Proof.LibRefLayout.lean ====
/-
  Two host operations read at an index given by coordinates.

  * A concatenation of three matrices along the columns, read at `(p, j)`: the first piece at `(p, k)` when
    `j = k`, the second when `j = a + k`, the third when `j = a + b + k` (`a`, `b` the first two pieces'
    column counts).
  * A host matrix product (a `dot_general` contracting the left operand's columns with the right operand's rows,
    no batch axis) read at `(p, q)` over the extended reals: the sum over `k` of `l (p, k) * r (k, q)`.
-/
import Idealize.ShloMosaic.Lib.Pipeline.Value
import Idealize.ShloMosaic.Lib.ValueLayout
import Idealize.ShloMosaic.Lib.IdealHost

namespace RefLayout

open Idealize.ShloMosaic Idealize.ShloMosaic.ValueIdx
open scoped BigOperators

variable {α : Type}

/-- Three matrices side by side, read in the first one's columns. -/
theorem concatenate3_cols_fst {n a b c m : ℕ} (x₁ : (⟨2, ![n, a]⟩ : Shape).Idx → α) (x₂ : (⟨2, ![n, b]⟩ : Shape).Idx → α)
    (x₃ : (⟨2, ![n, c]⟩ : Shape).Idx → α)
    (h : Shape.Concatenates [⟨2, ![n, a]⟩, ⟨2, ![n, b]⟩, ⟨2, ![n, c]⟩] ⟨2, ![n, m]⟩ 1)
    (p : Fin n) (k : Fin a) (j : Fin m) (hj : j.val = k.val) :
    concatenate ⟨2, ![n, m]⟩ 1 [⟨⟨2, ![n, a]⟩, x₁⟩, ⟨⟨2, ![n, b]⟩, x₂⟩, ⟨⟨2, ![n, c]⟩, x₃⟩] h (ix2 p j) = x₁ (ix2 p k) :=
  concatenate_apply_piece (t := ⟨2, ![n, m]⟩) 1
    ([⟨⟨2, ![n, a]⟩, x₁⟩, ⟨⟨2, ![n, b]⟩, x₂⟩, ⟨⟨2, ![n, c]⟩, x₃⟩] : List ((s : Shape) × (s.Idx → α))) h (ix2 p j)
    0 (by simp) ⟨2, ![n, a]⟩ x₁ rfl rfl 0 rfl (ix2 p k)
    (fun d hd => match d with | ⟨0, _⟩ => rfl | ⟨1, _⟩ => absurd rfl hd)
    (by show 0 + k.val = j.val; omega)

/-- Three matrices side by side, read in the second one's columns. -/
theorem concatenate3_cols_snd {n a b c m : ℕ} (x₁ : (⟨2, ![n, a]⟩ : Shape).Idx → α) (x₂ : (⟨2, ![n, b]⟩ : Shape).Idx → α)
    (x₃ : (⟨2, ![n, c]⟩ : Shape).Idx → α)
    (h : Shape.Concatenates [⟨2, ![n, a]⟩, ⟨2, ![n, b]⟩, ⟨2, ![n, c]⟩] ⟨2, ![n, m]⟩ 1)
    (p : Fin n) (k : Fin b) (j : Fin m) (hj : j.val = a + k.val) :
    concatenate ⟨2, ![n, m]⟩ 1 [⟨⟨2, ![n, a]⟩, x₁⟩, ⟨⟨2, ![n, b]⟩, x₂⟩, ⟨⟨2, ![n, c]⟩, x₃⟩] h (ix2 p j) = x₂ (ix2 p k) :=
  concatenate_apply_piece (t := ⟨2, ![n, m]⟩) 1
    ([⟨⟨2, ![n, a]⟩, x₁⟩, ⟨⟨2, ![n, b]⟩, x₂⟩, ⟨⟨2, ![n, c]⟩, x₃⟩] : List ((s : Shape) × (s.Idx → α))) h (ix2 p j)
    1 (by simp) ⟨2, ![n, b]⟩ x₂ rfl rfl a (by simp) (ix2 p k)
    (fun d hd => match d with | ⟨0, _⟩ => rfl | ⟨1, _⟩ => absurd rfl hd)
    (by show a + k.val = j.val; omega)

/-- Three matrices side by side, read in the third one's columns. -/
theorem concatenate3_cols_thd {n a b c m : ℕ} (x₁ : (⟨2, ![n, a]⟩ : Shape).Idx → α) (x₂ : (⟨2, ![n, b]⟩ : Shape).Idx → α)
    (x₃ : (⟨2, ![n, c]⟩ : Shape).Idx → α)
    (h : Shape.Concatenates [⟨2, ![n, a]⟩, ⟨2, ![n, b]⟩, ⟨2, ![n, c]⟩] ⟨2, ![n, m]⟩ 1)
    (p : Fin n) (k : Fin c) (j : Fin m) (hj : j.val = a + b + k.val) :
    concatenate ⟨2, ![n, m]⟩ 1 [⟨⟨2, ![n, a]⟩, x₁⟩, ⟨⟨2, ![n, b]⟩, x₂⟩, ⟨⟨2, ![n, c]⟩, x₃⟩] h (ix2 p j) = x₃ (ix2 p k) :=
  concatenate_apply_piece (t := ⟨2, ![n, m]⟩) 1
    ([⟨⟨2, ![n, a]⟩, x₁⟩, ⟨⟨2, ![n, b]⟩, x₂⟩, ⟨⟨2, ![n, c]⟩, x₃⟩] : List ((s : Shape) × (s.Idx → α))) h (ix2 p j)
    2 (by simp) ⟨2, ![n, c]⟩ x₃ rfl rfl (a + b) (by simp) (ix2 p k)
    (fun d hd => match d with | ⟨0, _⟩ => rfl | ⟨1, _⟩ => absurd rfl hd)
    (by show a + b + k.val = j.val; omega)

/-- A host matrix product `l · r` over the extended reals, read at `(p, q)`: the sum over the contracted coordinate
    `k` of `l (p, k) * r (k, q)`. The dimension numbers are the plain product's: no batch axis, the left operand's
    rows then the right operand's columns free, the left operand's columns contracted with the right operand's rows. -/
theorem dotGeneral_rows_cols_apply {n K m : ℕ} {φ₁ φ₂ : FTy}
    (D : DotDims ⟨2, ![n, K]⟩ ⟨2, ![K, m]⟩ ⟨2, ![n, m]⟩)
    (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = K)
    (prec : Option ContractPrecision) (sched : HostSchedule)
    (l : FVec Ideal ⟨2, ![n, K]⟩ φ₁) (r : FVec Ideal ⟨2, ![K, m]⟩ φ₂) (p : Fin n) (q : Fin m) :
    FloatOps.dotGeneral D prec sched l r (ix2 p q) = ∑ k : Fin K, l (ix2 p k) * r (ix2 k q) := by
  have key : ∀ (j : (⟨2, ![n, m]⟩ : Shape).Idx) (a b : Nat) (ha : a < 2) (hb : b < 2), a = b →
      (j ⟨a, ha⟩).val = (j ⟨b, hb⟩).val := fun j a b ha hb h => by subst h; rfl
  have l0 : ∀ (j : (⟨2, ![n, m]⟩ : Shape).Idx) (c : D.contr.Idx), (D.lhsIdx j c 0).val = (j 0).val := fun j c => by
    unfold DotDims.lhsIdx
    rw [dif_neg (by rw [hlb]; exact List.not_mem_nil), dif_pos (by rw [hln]; exact List.mem_singleton.mpr rfl)]
    simp only [Fin.val_cast]
    exact key j _ _ _ _ (by simp [hlb, hln])
  have l1 : ∀ (j : (⟨2, ![n, m]⟩ : Shape).Idx) (c : D.contr.Idx), (D.lhsIdx j c 1).val = (c ⟨0, by omega⟩).val :=
    fun j c => D.lhsIdx_val_of_single hlc j c
  have r0 : ∀ (j : (⟨2, ![n, m]⟩ : Shape).Idx) (c : D.contr.Idx), (D.rhsIdx j c 0).val = (c ⟨0, by omega⟩).val :=
    fun j c => D.rhsIdx_val_of_single hrc j c
  have r1 : ∀ (j : (⟨2, ![n, m]⟩ : Shape).Idx) (c : D.contr.Idx), (D.rhsIdx j c 1).val = (j 1).val := fun j c => by
    unfold DotDims.rhsIdx
    rw [dif_neg (by rw [hrb]; exact List.not_mem_nil), dif_pos (by rw [hrn]; exact List.mem_singleton.mpr rfl)]
    simp only [Fin.val_cast]
    exact key j _ _ _ _ (by simp [hlb, hln, hrn])
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact l0 _ _
    | ⟨1, _⟩ => exact (l1 _ _).trans hk)
  have er : D.rhsIdx (ix2 p q) ((contrEquiv1 D K hr hs).symm k) = ix2 k q := funext fun a => Fin.ext (by
    match a with
    | ⟨0, _⟩ => exact (r0 _ _).trans hk
    | ⟨1, _⟩ => exact r1 _ _)
  rw [el, er]

end RefLayout
-- ==== Proof.RefStepMath.lean ====
/-
  The reference's propagation step and output layer, read index by index over the extended reals.

  An array of shape 4096 × 512 is read as the matrix `fun p q => v (p, q)`, a bias array as `fun q => b (q)`. Each
  host operation of the step is then the closed formula of the gated graph network's arithmetic:

  * a bias broadcast over the rows reads the bias at the column; the constant one reads `1`;
  * a host matrix product reads the sum over the contracted coordinate of the products of the operands' entries,
    and a transposed operand reads the original at the swapped coordinates, so `x · Wᵀ` at `(p, q)` is
    `∑ k, x p k * W q k`, `Af · s` is `∑ k, Af p k * s k q` and `Afᵀ · s` is `∑ k, Af k p * s k q`;
  * the product of a concatenation `[u, v, w]` with a transposed 512 × 1536 weight is a sum over 1536 columns; cut
    into its three consecutive blocks of 512 it is the sum of the three blocks' partial sums, in that order
    (finite sums in the extended reals regroup freely: addition there is commutative and associative);
  * `1 / (1 + exp (−y))` is the logistic function.
-/
import proofs.«121501_j55087250538634_2_alg».proof.Proof.RefStepDefs
import proofs.«121501_j55087250538634_2_alg».proof.Proof.GgnnMath
import proofs.«121501_j55087250538634_2_alg».proof.Proof.LibRefLayout
import proofs.«121501_j55087250538634_2_alg».proof.Proof.LibBlockSum

noncomputable section

namespace Cert.ReferenceIdeal.RefValue

open Cert.ReferenceIdeal Cert.ReferenceIdeal.Gen Idealize.ShloMosaic Idealize.ShloMosaic.ValueIdx
open scoped BigOperators

/-- A rank-2 array read as a matrix of its coordinates. -/
def mat {n m : ℕ} (v : (⟨2, ![n, m]⟩ : Shape).Idx → EReal) : Fin n → Fin m → EReal := fun p q => v (ix2 p q)

/-- A rank-1 array read as a function of its coordinate. -/
def vec {n : ℕ} (v : (⟨1, ![n]⟩ : Shape).Idx → EReal) : Fin n → EReal := fun q => v (ix1 q)

theorem mat_apply {n m : ℕ} (v : (⟨2, ![n, m]⟩ : Shape).Idx → EReal) (p : Fin n) (q : Fin m) : mat v p q = v (ix2 p q) := rfl
theorem vec_apply {n : ℕ} (v : (⟨1, ![n]⟩ : Shape).Idx → EReal) (q : Fin n) : vec v q = v (ix1 q) := rfl

/-- A bias broadcast over the rows reads the bias at the column. -/
theorem biasRows_apply (b : Vec Ideal S512 .f32) (p : Fin 4096) (q : Fin 512) :
    biasRows (F := Ideal) b (ix2 p q) = b (ix1 q) := by
  unfold biasRows
  refine (broadcastInDim_apply _ _ _ (ix2 p q) (ix2 (0 : Fin 1) q)
    (fun a => match a with | ⟨0, _⟩ => rfl | ⟨1, _⟩ => rfl)).trans ?_
  exact broadcastInDim_apply _ _ _ (ix2 (0 : Fin 1) q) (ix1 q) (fun a => match a with | ⟨0, _⟩ => rfl)

/-- The constant one at every entry is the extended real `1`. -/
theorem ones_apply (j : S4096x512.Idx) : ones (F := Ideal) j = 1 := by
  unfold ones
  rw [broadcastInDim_scalar_apply]
  exact Ideal.ofBits_one_f32

/-- A linear layer at `(p, q)`: `∑ k, x p k * W q k`, then the bias. -/
theorem mat_linear (x : Vec Ideal S4096x512 .f32) (W : Vec Ideal S512x512 .f32) (b : Vec Ideal S512 .f32) :
    mat (linear (F := Ideal) x W b) = Cert.GgnnMath.affine (mat x) (mat W) (vec b) := by
  funext p q
  unfold linear Cert.GgnnMath.affine
  show Host.dotGeneral (F := Ideal) dot_S4096x512_S512x512_S4096x512_1_0_0_1_n_n none x
      (transpose S512x512 [1, 0] W transposes_S512x512_S512x512_1_0) (ix2 p q) + biasRows (F := Ideal) b (ix2 p q) = _
  rw [biasRows_apply]
  simp only [Host.dotGeneral]
  rw [RefLayout.dotGeneral_rows_cols_apply dot_S4096x512_S512x512_S4096x512_1_0_0_1_n_n rfl rfl rfl rfl rfl rfl rfl rfl]
  refine congrArg (· + b (ix1 q)) (Finset.sum_congr rfl fun k _ => ?_)
  rw [transpose_ix2_apply]
  rfl

/-- An aggregation `M · s` at `(p, q)`: `∑ k, M p k * s k q`. -/
theorem mat_aggregate (M : Vec Ideal S4096x4096 .f32) (s : Vec Ideal S4096x512 .f32) :
    mat (aggregate (F := Ideal) M s) = Cert.GgnnMath.aggIn (mat M) (mat s) := by
  funext p q
  unfold aggregate Cert.GgnnMath.aggIn
  show Host.dotGeneral (F := Ideal) dot_S4096x4096_S4096x512_S4096x512_1_0_0_1_n_n none M s (ix2 p q) = _
  simp only [Host.dotGeneral]
  rw [RefLayout.dotGeneral_rows_cols_apply dot_S4096x4096_S4096x512_S4096x512_1_0_0_1_n_n rfl rfl rfl rfl rfl rfl rfl rfl]
  rfl

/-- An aggregation with the transposed matrix, `Mᵀ · s`, at `(p, q)`: `∑ k, M k p * s k q`. -/
theorem mat_aggregate_transpose (M : Vec Ideal S4096x4096 .f32) (s : Vec Ideal S4096x512 .f32) :
    mat (aggregate (F := Ideal) (transpose S4096x4096 [1, 0] M transposes_S4096x4096_S4096x4096_1_0) s)
      = Cert.GgnnMath.aggOut (mat M) (mat s) := by
  rw [mat_aggregate]
  funext p q
  unfold Cert.GgnnMath.aggIn Cert.GgnnMath.aggOut
  refine Finset.sum_congr rfl fun k _ => ?_
  rw [mat_apply, transpose_ix2_apply]
  rfl

/-- A gate's pre-activation on a concatenation `[u, v, w]`, at `(p, q)`: the sum over the 1536 columns cut into its
    three consecutive blocks of 512, then the bias. -/
theorem mat_gatePre_joined (u v w : Vec Ideal S4096x512 .f32) (W : Vec Ideal S512x1536 .f32) (b : Vec Ideal S512 .f32) :
    mat (gatePre (F := Ideal) (joined u v w) W b)
      = Cert.GgnnMath.gate (mat u) (mat v) (mat w) (mat W) (vec b) := by
  funext p q
  unfold gatePre Cert.GgnnMath.gate
  show Host.dotGeneral (F := Ideal) dot_S4096x1536_S1536x512_S4096x512_1_0_0_1_n_n none (joined u v w)
      (transpose S1536x512 [1, 0] W transposes_S512x1536_S1536x512_1_0) (ix2 p q) + biasRows (F := Ideal) b (ix2 p q) = _
  rw [biasRows_apply]
  simp only [Host.dotGeneral]
  rw [RefLayout.dotGeneral_rows_cols_apply dot_S4096x1536_S1536x512_S4096x512_1_0_0_1_n_n rfl rfl rfl rfl rfl rfl rfl rfl]
  refine congrArg (· + b (ix1 q)) ?_
  have hcut := BlockSum.sum_three_parts 512 512 512
    (fun k : Fin (512 + 512 + 512) => joined (F := Ideal) u v w (ix2 p k)
      * transpose S1536x512 [1, 0] W transposes_S512x1536_S1536x512_1_0 (ix2 k q))
  refine hcut.trans ?_
  refine congrArg₂ (· + ·) (congrArg₂ (· + ·) ?_ ?_) ?_
  · refine Finset.sum_congr rfl fun k _ => ?_
    exact congrArg₂ (· * ·)
      (RefLayout.concatenate3_cols_fst (m := 1536) u v w concatenates_S4096x512_S4096x512_S4096x512_S4096x1536_d1 p k
        (Fin.castAdd 512 (Fin.castAdd 512 k)) rfl)
      (transpose_ix2_apply W transposes_S512x1536_S1536x512_1_0 (Fin.castAdd 512 (Fin.castAdd 512 k)) q)
  · refine Finset.sum_congr rfl fun k _ => ?_
    exact congrArg₂ (· * ·)
      (RefLayout.concatenate3_cols_snd (m := 1536) u v w concatenates_S4096x512_S4096x512_S4096x512_S4096x1536_d1 p k
        (Fin.castAdd 512 (Fin.natAdd 512 k)) rfl)
      (transpose_ix2_apply W transposes_S512x1536_S1536x512_1_0 (Fin.castAdd 512 (Fin.natAdd 512 k)) q)
  · refine Finset.sum_congr rfl fun k _ => ?_
    exact congrArg₂ (· * ·)
      (RefLayout.concatenate3_cols_thd (m := 1536) u v w concatenates_S4096x512_S4096x512_S4096x512_S4096x1536_d1 p k
        (Fin.natAdd (512 + 512) k) rfl)
      (transpose_ix2_apply W transposes_S512x1536_S1536x512_1_0 (Fin.natAdd (512 + 512) k) q)

/-- The reference's `1 / (1 + exp (−y))` is the logistic function at every entry. -/
theorem mat_sigmoid (y : Vec Ideal S4096x512 .f32) :
    mat (sigmoid (F := Ideal) y) = fun p q => Ideal.logistic (mat y p q) := by
  funext p q
  unfold sigmoid
  show Ideal.div (ones (F := Ideal) (ix2 p q)) (ones (F := Ideal) (ix2 p q) + Ideal.exp (-(y (ix2 p q)))) = _
  rw [ones_apply]
  rfl

/-- One propagation step of the reference, index by index: the gated graph network's step. -/
theorem mat_step (Af : Vec Ideal S4096x4096 .f32)
    (Win : Vec Ideal S512x512 .f32) (bin : Vec Ideal S512 .f32) (Wout : Vec Ideal S512x512 .f32) (bout : Vec Ideal S512 .f32)
    (Wr : Vec Ideal S512x1536 .f32) (br : Vec Ideal S512 .f32) (Wz : Vec Ideal S512x1536 .f32) (bz : Vec Ideal S512 .f32)
    (Wh : Vec Ideal S512x1536 .f32) (bh : Vec Ideal S512 .f32) (x : Vec Ideal S4096x512 .f32) :
    mat (step (F := Ideal) Af Win bin Wout bout Wr br Wz bz Wh bh x)
      = Cert.GgnnMath.step (mat Af) (mat Win) (vec bin) (mat Wout) (vec bout) (mat Wr) (vec br) (mat Wz) (vec bz)
          (mat Wh) (vec bh) (mat x) := by
  unfold step
  have hin : mat (aggregate (F := Ideal) Af (linear x Win bin))
      = Cert.GgnnMath.aggIn (mat Af) (Cert.GgnnMath.affine (mat x) (mat Win) (vec bin)) := by
    rw [mat_aggregate, mat_linear]
  have hout : mat (aggregate (F := Ideal) (transpose S4096x4096 [1, 0] Af transposes_S4096x4096_S4096x4096_1_0)
        (linear x Wout bout))
      = Cert.GgnnMath.aggOut (mat Af) (Cert.GgnnMath.affine (mat x) (mat Wout) (vec bout)) := by
    rw [mat_aggregate_transpose, mat_linear]
  generalize aggregate (F := Ideal) Af (linear x Win bin) = aIn at hin ⊢
  generalize aggregate (F := Ideal) (transpose S4096x4096 [1, 0] Af transposes_S4096x4096_S4096x4096_1_0)
    (linear x Wout bout) = aOut at hout ⊢
  have hz : mat (sigmoid (F := Ideal) (gatePre (joined aIn aOut x) Wz bz))
      = fun p q => Ideal.logistic (Cert.GgnnMath.gate (mat aIn) (mat aOut) (mat x) (mat Wz) (vec bz) p q) := by
    rw [mat_sigmoid, mat_gatePre_joined]
  have hr : mat (sigmoid (F := Ideal) (gatePre (joined aIn aOut x) Wr br))
      = fun p q => Ideal.logistic (Cert.GgnnMath.gate (mat aIn) (mat aOut) (mat x) (mat Wr) (vec br) p q) := by
    rw [mat_sigmoid, mat_gatePre_joined]
  generalize sigmoid (F := Ideal) (gatePre (joined aIn aOut x) Wz bz) = z at hz ⊢
  generalize sigmoid (F := Ideal) (gatePre (joined aIn aOut x) Wr br) = r at hr ⊢
  have hh : mat (Host.tanh (F := Ideal) (φ := .f32) (gatePre (F := Ideal) (joined aIn aOut (mulf (F := Ideal) (φ := .f32) r x)) Wh bh))
      = Cert.GgnnMath.candidate (mat aIn) (mat aOut) (mat r) (mat x) (mat Wh) (vec bh) := by
    funext p q
    unfold Cert.GgnnMath.candidate
    show Ideal.tanh (mat (gatePre (F := Ideal) (joined aIn aOut (mulf (F := Ideal) (φ := .f32) r x)) Wh bh) p q) = _
    rw [mat_gatePre_joined]
    rfl
  generalize Host.tanh (F := Ideal) (φ := .f32) (gatePre (F := Ideal) (joined aIn aOut (mulf (F := Ideal) (φ := .f32) r x)) Wh bh) = h at hh ⊢
  funext p q
  unfold Cert.GgnnMath.step Cert.GgnnMath.update
  show (ones (F := Ideal) (ix2 p q) - mat z p q) * mat x p q + mat z p q * mat h p q = _
  rw [ones_apply, hz, hh, hr, hin, hout]

/-- The reference's output layer, index by index. -/
theorem mat_outMlp (W1 : Vec Ideal S512x512 .f32) (b1 : Vec Ideal S512 .f32) (W2 : Vec Ideal S512x512 .f32)
    (b2 : Vec Ideal S512 .f32) (x : Vec Ideal S4096x512 .f32) :
    mat (outMlp (F := Ideal) W1 b1 W2 b2 x)
      = Cert.GgnnMath.outMlp (mat W1) (vec b1) (mat W2) (vec b2) (mat x) := by
  unfold outMlp Cert.GgnnMath.outMlp
  rw [mat_linear]
  have : mat (Host.tanh (F := Ideal) (φ := .f32) (linear (F := Ideal) x W1 b1))
      = fun p q => Ideal.tanh (Cert.GgnnMath.affine (mat x) (mat W1) (vec b1) p q) := by
    funext p q
    show Ideal.tanh (mat (linear (F := Ideal) x W1 b1) p q) = _
    rw [mat_linear]
  rw [this]

end Cert.ReferenceIdeal.RefValue

end
-- ==== Proof.IdealHostValues.lean ====
/-
  The kernel program's opening host operations, read at an index over the extended reals.

  Before its first region the program converts the integer adjacency matrix to floats and changes its format,
  transposes each weight matrix and changes its format, and reshapes each bias from `[512]` to `[1, 512]`. Over the
  extended reals a format change is the identity, so after these operations: the adjacency buffer reads the
  converted integer entry; a transposed weight at `(k, q)` reads the weight argument at `(q, k)`; a reshaped bias at
  `(0, q)` reads the bias argument at `q`. Every other buffer a later operation leaves alone keeps these contents.
-/
import proofs.«121501_j55087250538634_2_alg».proof.Proof.Gen.KernelIdeal.Launch
import proofs.«121501_j55087250538634_2_alg».proof.Proof.RefStepMath
import Idealize.ShloMosaic.Lib.StableHlo.Run
import Idealize.ShloMosaic.Lib.ValueLayout

noncomputable section

namespace Cert.KernelIdeal.HostValues

open Cert.KernelIdeal Idealize.ShloMosaic Idealize.ShloMosaic.ValueIdx Idealize.ShloMosaic.StableHlo
open Cert.ReferenceIdeal.RefValue (mat vec mat_apply vec_apply)

/-! ## The adjacency matrix -/

set_option maxRecDepth 8192 in
/-- The adjacency buffer after the opening operations: the integer argument converted to floats, its format changed. -/
theorem adj_whole (V0 : Valuation τ sig (Elt Ideal)) :
    (after (Gen.hostOps0 (F := Ideal)) V0 (Proc.devRef .tc main_v1) : S4096x4096.Idx → EReal)
      = truncf (F := Ideal) (φ := .f32) .bf16 (sitofp (F := Ideal) .f32 (V0 (Proc.devRef .tc main_arg1))) Gen.bitsLt_bf16_f32 := by
  dsimp only [Gen.hostOps0]
  after_results <;> rfl

/-- At `(p, k)` it reads the converted integer entry. -/
theorem adj_apply (V0 : Valuation τ sig (Elt Ideal)) (p k : Fin 4096) :
    (after (Gen.hostOps0 (F := Ideal)) V0 (Proc.devRef .tc main_v1) : S4096x4096.Idx → EReal) (ix2 p k)
      = FloatOps.sitofp (F := Ideal) .f32 ((V0 (Proc.devRef .tc main_arg1)) (ix2 p k)) := by
  rw [adj_whole]; rfl

/-- As a matrix it is the converted integer argument's. -/
theorem adj_mat (V0 : Valuation τ sig (Elt Ideal)) :
    mat (after (Gen.hostOps0 (F := Ideal)) V0 (Proc.devRef .tc main_v1) : S4096x4096.Idx → EReal) = mat (sitofp (F := Ideal) .f32 (V0 (Proc.devRef .tc main_arg1))) := by
  funext p k; exact adj_apply V0 p k

/-! ## The 512 × 512 weights -/

set_option maxRecDepth 8192 in
/-- The incoming-edge layer's weight buffer: the weight argument transposed, its format changed. -/
theorem wIn_whole (V0 : Valuation τ sig (Elt Ideal)) :
    (after (Gen.hostOps0 (F := Ideal)) V0 (Proc.devRef .tc main_v3) : S512x512.Idx → EReal)
      = truncf (F := Ideal) (φ := .f32) .bf16 (transpose S512x512 [1, 0] (V0 (Proc.devRef .tc main_arg2)) Gen.transposes_S512x512_S512x512_1_0) Gen.bitsLt_bf16_f32 := by
  dsimp only [Gen.hostOps0]
  after_results <;> rfl

/-- At `(k, q)` it reads the weight argument at `(q, k)`. -/
theorem wIn_apply (V0 : Valuation τ sig (Elt Ideal)) (k : Fin 512) (q : Fin 512) :
    (after (Gen.hostOps0 (F := Ideal)) V0 (Proc.devRef .tc main_v3) : S512x512.Idx → EReal) (ix2 k q) = (V0 (Proc.devRef .tc main_arg2)) (ix2 q k) := by
  rw [wIn_whole]
  exact transpose_ix2_apply (V0 (Proc.devRef .tc main_arg2) : S512x512.Idx → EReal) Gen.transposes_S512x512_S512x512_1_0 k q

/-- Read with the coordinates swapped it is the weight argument's matrix. -/
theorem wIn_mat (V0 : Valuation τ sig (Elt Ideal)) :
    (fun (q : Fin 512) (k : Fin 512) => (after (Gen.hostOps0 (F := Ideal)) V0 (Proc.devRef .tc main_v3) : S512x512.Idx → EReal) (ix2 k q))
      = mat (V0 (Proc.devRef .tc main_arg2) : S512x512.Idx → EReal) := by
  funext q k; exact wIn_apply V0 k q

set_option maxRecDepth 8192 in
/-- The outgoing-edge layer's weight buffer: the weight argument transposed, its format changed. -/
theorem wOut_whole (V0 : Valuation τ sig (Elt Ideal)) :
    (after (Gen.hostOps0 (F := Ideal)) V0 (Proc.devRef .tc main_v5) : S512x512.Idx → EReal)
      = truncf (F := Ideal) (φ := .f32) .bf16 (transpose S512x512 [1, 0] (V0 (Proc.devRef .tc main_arg4)) Gen.transposes_S512x512_S512x512_1_0) Gen.bitsLt_bf16_f32 := by
  dsimp only [Gen.hostOps0]
  after_results <;> rfl

/-- At `(k, q)` it reads the weight argument at `(q, k)`. -/
theorem wOut_apply (V0 : Valuation τ sig (Elt Ideal)) (k : Fin 512) (q : Fin 512) :
    (after (Gen.hostOps0 (F := Ideal)) V0 (Proc.devRef .tc main_v5) : S512x512.Idx → EReal) (ix2 k q) = (V0 (Proc.devRef .tc main_arg4)) (ix2 q k) := by
  rw [wOut_whole]
  exact transpose_ix2_apply (V0 (Proc.devRef .tc main_arg4) : S512x512.Idx → EReal) Gen.transposes_S512x512_S512x512_1_0 k q

/-- Read with the coordinates swapped it is the weight argument's matrix. -/
theorem wOut_mat (V0 : Valuation τ sig (Elt Ideal)) :
    (fun (q : Fin 512) (k : Fin 512) => (after (Gen.hostOps0 (F := Ideal)) V0 (Proc.devRef .tc main_v5) : S512x512.Idx → EReal) (ix2 k q))
      = mat (V0 (Proc.devRef .tc main_arg4) : S512x512.Idx → EReal) := by
  funext q k; exact wOut_apply V0 k q

set_option maxRecDepth 8192 in
/-- The first output layer's weight buffer: the weight argument transposed, its format changed. -/
theorem wO1_whole (V0 : Valuation τ sig (Elt Ideal)) :
    (after (Gen.hostOps0 (F := Ideal)) V0 (Proc.devRef .tc main_v13) : S512x512.Idx → EReal)
      = truncf (F := Ideal) (φ := .f32) .bf16 (transpose S512x512 [1, 0] (V0 (Proc.devRef .tc main_arg12)) Gen.transposes_S512x512_S512x512_1_0) Gen.bitsLt_bf16_f32 := by
  dsimp only [Gen.hostOps0]
  after_results <;> rfl

/-- At `(k, q)` it reads the weight argument at `(q, k)`. -/
theorem wO1_apply (V0 : Valuation τ sig (Elt Ideal)) (k : Fin 512) (q : Fin 512) :
    (after (Gen.hostOps0 (F := Ideal)) V0 (Proc.devRef .tc main_v13) : S512x512.Idx → EReal) (ix2 k q) = (V0 (Proc.devRef .tc main_arg12)) (ix2 q k) := by
  rw [wO1_whole]
  exact transpose_ix2_apply (V0 (Proc.devRef .tc main_arg12) : S512x512.Idx → EReal) Gen.transposes_S512x512_S512x512_1_0 k q

/-- Read with the coordinates swapped it is the weight argument's matrix. -/
theorem wO1_mat (V0 : Valuation τ sig (Elt Ideal)) :
    (fun (q : Fin 512) (k : Fin 512) => (after (Gen.hostOps0 (F := Ideal)) V0 (Proc.devRef .tc main_v13) : S512x512.Idx → EReal) (ix2 k q))
      = mat (V0 (Proc.devRef .tc main_arg12) : S512x512.Idx → EReal) := by
  funext q k; exact wO1_apply V0 k q

set_option maxRecDepth 8192 in
/-- The second output layer's weight buffer: the weight argument transposed, its format changed. -/
theorem wO2_whole (V0 : Valuation τ sig (Elt Ideal)) :
    (after (Gen.hostOps0 (F := Ideal)) V0 (Proc.devRef .tc main_v15) : S512x512.Idx → EReal)
      = truncf (F := Ideal) (φ := .f32) .bf16 (transpose S512x512 [1, 0] (V0 (Proc.devRef .tc main_arg14)) Gen.transposes_S512x512_S512x512_1_0) Gen.bitsLt_bf16_f32 := by
  dsimp only [Gen.hostOps0]
  after_results <;> rfl

/-- At `(k, q)` it reads the weight argument at `(q, k)`. -/
theorem wO2_apply (V0 : Valuation τ sig (Elt Ideal)) (k : Fin 512) (q : Fin 512) :
    (after (Gen.hostOps0 (F := Ideal)) V0 (Proc.devRef .tc main_v15) : S512x512.Idx → EReal) (ix2 k q) = (V0 (Proc.devRef .tc main_arg14)) (ix2 q k) := by
  rw [wO2_whole]
  exact transpose_ix2_apply (V0 (Proc.devRef .tc main_arg14) : S512x512.Idx → EReal) Gen.transposes_S512x512_S512x512_1_0 k q

/-- Read with the coordinates swapped it is the weight argument's matrix. -/
theorem wO2_mat (V0 : Valuation τ sig (Elt Ideal)) :
    (fun (q : Fin 512) (k : Fin 512) => (after (Gen.hostOps0 (F := Ideal)) V0 (Proc.devRef .tc main_v15) : S512x512.Idx → EReal) (ix2 k q))
      = mat (V0 (Proc.devRef .tc main_arg14) : S512x512.Idx → EReal) := by
  funext q k; exact wO2_apply V0 k q

/-! ## The 512 × 1536 gate weights -/

set_option maxRecDepth 8192 in
/-- The reset gate's weight buffer: the weight argument transposed, its format changed. -/
theorem wR_whole (V0 : Valuation τ sig (Elt Ideal)) :
    (after (Gen.hostOps0 (F := Ideal)) V0 (Proc.devRef .tc main_v7) : S1536x512.Idx → EReal)
      = truncf (F := Ideal) (φ := .f32) .bf16 (transpose S1536x512 [1, 0] (V0 (Proc.devRef .tc main_arg6)) Gen.transposes_S512x1536_S1536x512_1_0) Gen.bitsLt_bf16_f32 := by
  dsimp only [Gen.hostOps0]
  after_results <;> rfl

/-- At `(k, q)` it reads the weight argument at `(q, k)`. -/
theorem wR_apply (V0 : Valuation τ sig (Elt Ideal)) (k : Fin 1536) (q : Fin 512) :
    (after (Gen.hostOps0 (F := Ideal)) V0 (Proc.devRef .tc main_v7) : S1536x512.Idx → EReal) (ix2 k q) = (V0 (Proc.devRef .tc main_arg6)) (ix2 q k) := by
  rw [wR_whole]
  exact transpose_ix2_apply (V0 (Proc.devRef .tc main_arg6) : S512x1536.Idx → EReal) Gen.transposes_S512x1536_S1536x512_1_0 k q

/-- Read with the coordinates swapped it is the weight argument's matrix. -/
theorem wR_mat (V0 : Valuation τ sig (Elt Ideal)) :
    (fun (q : Fin 512) (k : Fin 1536) => (after (Gen.hostOps0 (F := Ideal)) V0 (Proc.devRef .tc main_v7) : S1536x512.Idx → EReal) (ix2 k q))
      = mat (V0 (Proc.devRef .tc main_arg6) : S512x1536.Idx → EReal) := by
  funext q k; exact wR_apply V0 k q

set_option maxRecDepth 8192 in
/-- The update gate's weight buffer: the weight argument transposed, its format changed. -/
theorem wZ_whole (V0 : Valuation τ sig (Elt Ideal)) :
    (after (Gen.hostOps0 (F := Ideal)) V0 (Proc.devRef .tc main_v9) : S1536x512.Idx → EReal)
      = truncf (F := Ideal) (φ := .f32) .bf16 (transpose S1536x512 [1, 0] (V0 (Proc.devRef .tc main_arg8)) Gen.transposes_S512x1536_S1536x512_1_0) Gen.bitsLt_bf16_f32 := by
  dsimp only [Gen.hostOps0]
  after_results <;> rfl

/-- At `(k, q)` it reads the weight argument at `(q, k)`. -/
theorem wZ_apply (V0 : Valuation τ sig (Elt Ideal)) (k : Fin 1536) (q : Fin 512) :
    (after (Gen.hostOps0 (F := Ideal)) V0 (Proc.devRef .tc main_v9) : S1536x512.Idx → EReal) (ix2 k q) = (V0 (Proc.devRef .tc main_arg8)) (ix2 q k) := by
  rw [wZ_whole]
  exact transpose_ix2_apply (V0 (Proc.devRef .tc main_arg8) : S512x1536.Idx → EReal) Gen.transposes_S512x1536_S1536x512_1_0 k q

/-- Read with the coordinates swapped it is the weight argument's matrix. -/
theorem wZ_mat (V0 : Valuation τ sig (Elt Ideal)) :
    (fun (q : Fin 512) (k : Fin 1536) => (after (Gen.hostOps0 (F := Ideal)) V0 (Proc.devRef .tc main_v9) : S1536x512.Idx → EReal) (ix2 k q))
      = mat (V0 (Proc.devRef .tc main_arg8) : S512x1536.Idx → EReal) := by
  funext q k; exact wZ_apply V0 k q

set_option maxRecDepth 8192 in
/-- The candidate layer's weight buffer: the weight argument transposed, its format changed. -/
theorem wH_whole (V0 : Valuation τ sig (Elt Ideal)) :
    (after (Gen.hostOps0 (F := Ideal)) V0 (Proc.devRef .tc main_v11) : S1536x512.Idx → EReal)
      = truncf (F := Ideal) (φ := .f32) .bf16 (transpose S1536x512 [1, 0] (V0 (Proc.devRef .tc main_arg10)) Gen.transposes_S512x1536_S1536x512_1_0) Gen.bitsLt_bf16_f32 := by
  dsimp only [Gen.hostOps0]
  after_results <;> rfl

/-- At `(k, q)` it reads the weight argument at `(q, k)`. -/
theorem wH_apply (V0 : Valuation τ sig (Elt Ideal)) (k : Fin 1536) (q : Fin 512) :
    (after (Gen.hostOps0 (F := Ideal)) V0 (Proc.devRef .tc main_v11) : S1536x512.Idx → EReal) (ix2 k q) = (V0 (Proc.devRef .tc main_arg10)) (ix2 q k) := by
  rw [wH_whole]
  exact transpose_ix2_apply (V0 (Proc.devRef .tc main_arg10) : S512x1536.Idx → EReal) Gen.transposes_S512x1536_S1536x512_1_0 k q

/-- Read with the coordinates swapped it is the weight argument's matrix. -/
theorem wH_mat (V0 : Valuation τ sig (Elt Ideal)) :
    (fun (q : Fin 512) (k : Fin 1536) => (after (Gen.hostOps0 (F := Ideal)) V0 (Proc.devRef .tc main_v11) : S1536x512.Idx → EReal) (ix2 k q))
      = mat (V0 (Proc.devRef .tc main_arg10) : S512x1536.Idx → EReal) := by
  funext q k; exact wH_apply V0 k q

/-! ## The biases -/

set_option maxRecDepth 8192 in
/-- The incoming-edge layer's bias buffer: the bias argument reshaped to one row. -/
theorem bIn_whole (V0 : Valuation τ sig (Elt Ideal)) :
    (after (Gen.hostOps0 (F := Ideal)) V0 (Proc.devRef .tc main_v16) : S1x512.Idx → EReal)
      = shapeCast S1x512 (V0 (Proc.devRef .tc main_arg3)) Gen.shapeCasts_S512_S1x512 := by
  dsimp only [Gen.hostOps0]
  after_results <;> rfl

/-- At `(0, q)` it reads the bias argument at `q`. -/
theorem bIn_apply (V0 : Valuation τ sig (Elt Ideal)) (u : Fin 1) (q : Fin 512) :
    (after (Gen.hostOps0 (F := Ideal)) V0 (Proc.devRef .tc main_v16) : S1x512.Idx → EReal) (ix2 u q) = (V0 (Proc.devRef .tc main_arg3)) (ix1 q) := by
  rw [bIn_whole]
  exact shapeCast_a_1a_apply (V0 (Proc.devRef .tc main_arg3) : S512.Idx → EReal) Gen.shapeCasts_S512_S1x512 u q

/-- Its one row is the bias argument's vector. -/
theorem bIn_vec (V0 : Valuation τ sig (Elt Ideal)) :
    (fun (q : Fin 512) => (after (Gen.hostOps0 (F := Ideal)) V0 (Proc.devRef .tc main_v16) : S1x512.Idx → EReal) (ix2 (0 : Fin 1) q))
      = vec (V0 (Proc.devRef .tc main_arg3) : S512.Idx → EReal) := by
  funext q; exact bIn_apply V0 0 q

set_option maxRecDepth 8192 in
/-- The outgoing-edge layer's bias buffer: the bias argument reshaped to one row. -/
theorem bOut_whole (V0 : Valuation τ sig (Elt Ideal)) :
    (after (Gen.hostOps0 (F := Ideal)) V0 (Proc.devRef .tc main_v17) : S1x512.Idx → EReal)
      = shapeCast S1x512 (V0 (Proc.devRef .tc main_arg5)) Gen.shapeCasts_S512_S1x512 := by
  dsimp only [Gen.hostOps0]
  after_results <;> rfl

/-- At `(0, q)` it reads the bias argument at `q`. -/
theorem bOut_apply (V0 : Valuation τ sig (Elt Ideal)) (u : Fin 1) (q : Fin 512) :
    (after (Gen.hostOps0 (F := Ideal)) V0 (Proc.devRef .tc main_v17) : S1x512.Idx → EReal) (ix2 u q) = (V0 (Proc.devRef .tc main_arg5)) (ix1 q) := by
  rw [bOut_whole]
  exact shapeCast_a_1a_apply (V0 (Proc.devRef .tc main_arg5) : S512.Idx → EReal) Gen.shapeCasts_S512_S1x512 u q

/-- Its one row is the bias argument's vector. -/
theorem bOut_vec (V0 : Valuation τ sig (Elt Ideal)) :
    (fun (q : Fin 512) => (after (Gen.hostOps0 (F := Ideal)) V0 (Proc.devRef .tc main_v17) : S1x512.Idx → EReal) (ix2 (0 : Fin 1) q))
      = vec (V0 (Proc.devRef .tc main_arg5) : S512.Idx → EReal) := by
  funext q; exact bOut_apply V0 0 q

set_option maxRecDepth 8192 in
/-- The reset gate's bias buffer: the bias argument reshaped to one row. -/
theorem bR_whole (V0 : Valuation τ sig (Elt Ideal)) :
    (after (Gen.hostOps0 (F := Ideal)) V0 (Proc.devRef .tc main_v18) : S1x512.Idx → EReal)
      = shapeCast S1x512 (V0 (Proc.devRef .tc main_arg7)) Gen.shapeCasts_S512_S1x512 := by
  dsimp only [Gen.hostOps0]
  after_results <;> rfl

/-- At `(0, q)` it reads the bias argument at `q`. -/
theorem bR_apply (V0 : Valuation τ sig (Elt Ideal)) (u : Fin 1) (q : Fin 512) :
    (after (Gen.hostOps0 (F := Ideal)) V0 (Proc.devRef .tc main_v18) : S1x512.Idx → EReal) (ix2 u q) = (V0 (Proc.devRef .tc main_arg7)) (ix1 q) := by
  rw [bR_whole]
  exact shapeCast_a_1a_apply (V0 (Proc.devRef .tc main_arg7) : S512.Idx → EReal) Gen.shapeCasts_S512_S1x512 u q

/-- Its one row is the bias argument's vector. -/
theorem bR_vec (V0 : Valuation τ sig (Elt Ideal)) :
    (fun (q : Fin 512) => (after (Gen.hostOps0 (F := Ideal)) V0 (Proc.devRef .tc main_v18) : S1x512.Idx → EReal) (ix2 (0 : Fin 1) q))
      = vec (V0 (Proc.devRef .tc main_arg7) : S512.Idx → EReal) := by
  funext q; exact bR_apply V0 0 q

set_option maxRecDepth 8192 in
/-- The update gate's bias buffer: the bias argument reshaped to one row. -/
theorem bZ_whole (V0 : Valuation τ sig (Elt Ideal)) :
    (after (Gen.hostOps0 (F := Ideal)) V0 (Proc.devRef .tc main_v19) : S1x512.Idx → EReal)
      = shapeCast S1x512 (V0 (Proc.devRef .tc main_arg9)) Gen.shapeCasts_S512_S1x512 := by
  dsimp only [Gen.hostOps0]
  after_results <;> rfl

/-- At `(0, q)` it reads the bias argument at `q`. -/
theorem bZ_apply (V0 : Valuation τ sig (Elt Ideal)) (u : Fin 1) (q : Fin 512) :
    (after (Gen.hostOps0 (F := Ideal)) V0 (Proc.devRef .tc main_v19) : S1x512.Idx → EReal) (ix2 u q) = (V0 (Proc.devRef .tc main_arg9)) (ix1 q) := by
  rw [bZ_whole]
  exact shapeCast_a_1a_apply (V0 (Proc.devRef .tc main_arg9) : S512.Idx → EReal) Gen.shapeCasts_S512_S1x512 u q

/-- Its one row is the bias argument's vector. -/
theorem bZ_vec (V0 : Valuation τ sig (Elt Ideal)) :
    (fun (q : Fin 512) => (after (Gen.hostOps0 (F := Ideal)) V0 (Proc.devRef .tc main_v19) : S1x512.Idx → EReal) (ix2 (0 : Fin 1) q))
      = vec (V0 (Proc.devRef .tc main_arg9) : S512.Idx → EReal) := by
  funext q; exact bZ_apply V0 0 q

set_option maxRecDepth 8192 in
/-- The candidate layer's bias buffer: the bias argument reshaped to one row. -/
theorem bH_whole (V0 : Valuation τ sig (Elt Ideal)) :
    (after (Gen.hostOps0 (F := Ideal)) V0 (Proc.devRef .tc main_v20) : S1x512.Idx → EReal)
      = shapeCast S1x512 (V0 (Proc.devRef .tc main_arg11)) Gen.shapeCasts_S512_S1x512 := by
  dsimp only [Gen.hostOps0]
  after_results <;> rfl

/-- At `(0, q)` it reads the bias argument at `q`. -/
theorem bH_apply (V0 : Valuation τ sig (Elt Ideal)) (u : Fin 1) (q : Fin 512) :
    (after (Gen.hostOps0 (F := Ideal)) V0 (Proc.devRef .tc main_v20) : S1x512.Idx → EReal) (ix2 u q) = (V0 (Proc.devRef .tc main_arg11)) (ix1 q) := by
  rw [bH_whole]
  exact shapeCast_a_1a_apply (V0 (Proc.devRef .tc main_arg11) : S512.Idx → EReal) Gen.shapeCasts_S512_S1x512 u q

/-- Its one row is the bias argument's vector. -/
theorem bH_vec (V0 : Valuation τ sig (Elt Ideal)) :
    (fun (q : Fin 512) => (after (Gen.hostOps0 (F := Ideal)) V0 (Proc.devRef .tc main_v20) : S1x512.Idx → EReal) (ix2 (0 : Fin 1) q))
      = vec (V0 (Proc.devRef .tc main_arg11) : S512.Idx → EReal) := by
  funext q; exact bH_apply V0 0 q

set_option maxRecDepth 8192 in
/-- The first output layer's bias buffer: the bias argument reshaped to one row. -/
theorem bO1_whole (V0 : Valuation τ sig (Elt Ideal)) :
    (after (Gen.hostOps0 (F := Ideal)) V0 (Proc.devRef .tc main_v21) : S1x512.Idx → EReal)
      = shapeCast S1x512 (V0 (Proc.devRef .tc main_arg13)) Gen.shapeCasts_S512_S1x512 := by
  dsimp only [Gen.hostOps0]
  after_results <;> rfl

/-- At `(0, q)` it reads the bias argument at `q`. -/
theorem bO1_apply (V0 : Valuation τ sig (Elt Ideal)) (u : Fin 1) (q : Fin 512) :
    (after (Gen.hostOps0 (F := Ideal)) V0 (Proc.devRef .tc main_v21) : S1x512.Idx → EReal) (ix2 u q) = (V0 (Proc.devRef .tc main_arg13)) (ix1 q) := by
  rw [bO1_whole]
  exact shapeCast_a_1a_apply (V0 (Proc.devRef .tc main_arg13) : S512.Idx → EReal) Gen.shapeCasts_S512_S1x512 u q

/-- Its one row is the bias argument's vector. -/
theorem bO1_vec (V0 : Valuation τ sig (Elt Ideal)) :
    (fun (q : Fin 512) => (after (Gen.hostOps0 (F := Ideal)) V0 (Proc.devRef .tc main_v21) : S1x512.Idx → EReal) (ix2 (0 : Fin 1) q))
      = vec (V0 (Proc.devRef .tc main_arg13) : S512.Idx → EReal) := by
  funext q; exact bO1_apply V0 0 q

set_option maxRecDepth 8192 in
/-- The second output layer's bias buffer: the bias argument reshaped to one row. -/
theorem bO2_whole (V0 : Valuation τ sig (Elt Ideal)) :
    (after (Gen.hostOps0 (F := Ideal)) V0 (Proc.devRef .tc main_v22) : S1x512.Idx → EReal)
      = shapeCast S1x512 (V0 (Proc.devRef .tc main_arg15)) Gen.shapeCasts_S512_S1x512 := by
  dsimp only [Gen.hostOps0]
  after_results <;> rfl

/-- At `(0, q)` it reads the bias argument at `q`. -/
theorem bO2_apply (V0 : Valuation τ sig (Elt Ideal)) (u : Fin 1) (q : Fin 512) :
    (after (Gen.hostOps0 (F := Ideal)) V0 (Proc.devRef .tc main_v22) : S1x512.Idx → EReal) (ix2 u q) = (V0 (Proc.devRef .tc main_arg15)) (ix1 q) := by
  rw [bO2_whole]
  exact shapeCast_a_1a_apply (V0 (Proc.devRef .tc main_arg15) : S512.Idx → EReal) Gen.shapeCasts_S512_S1x512 u q

/-- Its one row is the bias argument's vector. -/
theorem bO2_vec (V0 : Valuation τ sig (Elt Ideal)) :
    (fun (q : Fin 512) => (after (Gen.hostOps0 (F := Ideal)) V0 (Proc.devRef .tc main_v22) : S1x512.Idx → EReal) (ix2 (0 : Fin 1) q))
      = vec (V0 (Proc.devRef .tc main_arg15) : S512.Idx → EReal) := by
  funext q; exact bO2_apply V0 0 q

end Cert.KernelIdeal.HostValues

end
-- ==== Proof.GgnnChain.lean ====
/-
  The gated graph network's five propagation steps and output layer, chained from per-stage facts about arrays.

  A computation that produces, stage by stage, arrays `SI = X · W_inᵀ + b_in`, `SO = X · W_outᵀ + b_out` and then the
  next state from `SI`, `SO` and `X` (aggregation, the two gates, the candidate and the convex update), has produced
  one propagation step of `X`; five such rounds followed by the output layer give the output layer of the fifth
  iterate of the step. Arrays are read as matrices of their coordinates; a weight stored transposed is read with
  its coordinates swapped, a bias stored as one row is read along that row. Two arrays with the same matrix of
  coordinates are equal.
-/
import proofs.«121501_j55087250538634_2_alg».proof.Proof.GgnnMath
import Idealize.ShloMosaic.Lib.ValueIdx

noncomputable section

namespace Cert.GgnnMath

open scoped BigOperators
open Idealize.ShloMosaic Idealize.ShloMosaic.ValueIdx

/-- The part of a propagation step after the two linear layers: from `s_in`, `s_out` and the state `x`, the
    aggregations, the reset and update gates, the candidate state and the convex update. -/
def stepFrom (Af : Fin 4096 → Fin 4096 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal)
    (sIn sOut x : Fin 4096 → Fin 512 → EReal) : Fin 4096 → Fin 512 → EReal :=
  let aIn := aggIn Af sIn
  let aOut := aggOut Af sOut
  let r : Fin 4096 → Fin 512 → EReal := fun p q => Ideal.logistic (gate aIn aOut x Wr br p q)
  let z : Fin 4096 → Fin 512 → EReal := fun p q => Ideal.logistic (gate aIn aOut x Wz bz p q)
  update z x (candidate aIn aOut r x Wh bh)

/-- A propagation step is its two linear layers followed by the rest. -/
theorem step_eq_stepFrom (Af : Fin 4096 → Fin 4096 → EReal)
    (Win : Fin 512 → Fin 512 → EReal) (bin : Fin 512 → EReal)
    (Wout : Fin 512 → Fin 512 → EReal) (bout : Fin 512 → EReal)
    (Wr : Fin 512 → Fin 1536 → EReal) (br : Fin 512 → EReal)
    (Wz : Fin 512 → Fin 1536 → EReal) (bz : Fin 512 → EReal)
    (Wh : Fin 512 → Fin 1536 → EReal) (bh : Fin 512 → EReal)
    (x : Fin 4096 → Fin 512 → EReal) :
    step Af Win bin Wout bout Wr br Wz bz Wh bh x
      = stepFrom Af Wr br Wz bz Wh bh (affine x Win bin) (affine x Wout bout) x := rfl

/-- Two 4096 × 512 arrays with the same matrix of coordinates are equal. -/
theorem array_ext (F G : (⟨2, ![4096, 512]⟩ : Shape).Idx → EReal)
    (h : (fun (p : Fin 4096) (k : Fin 512) => F (ix2 p k)) = fun p k => G (ix2 p k)) : F = G :=
  funext fun i => (congrArg F (eq_ix2 i)).trans
    ((congrFun (congrFun h (i 0)) (i 1)).trans (congrArg G (eq_ix2 i)).symm)

section Chain

variable (A : (⟨2, ![4096, 4096]⟩ : Shape).Idx → EReal)
  (WinT WoutT : (⟨2, ![512, 512]⟩ : Shape).Idx → EReal) (Bin Bout Br Bz Bh : (⟨2, ![1, 512]⟩ : Shape).Idx → EReal)
  (WrT WzT WhT : (⟨2, ![1536, 512]⟩ : Shape).Idx → EReal)

/-- One round of stages is one propagation step: if `SI` and `SO` are the two linear layers of `X` and `XN` is the
    rest of the step from `SI`, `SO` and `X`, entry by entry, then `XN`'s matrix is the step of `X`'s matrix. -/
theorem one_step (X SI SO XN : (⟨2, ![4096, 512]⟩ : Shape).Idx → EReal)
    (hsin : ∀ i, SI i = affine (fun p k => X (ix2 p k)) (fun q k => WinT (ix2 k q)) (fun q => Bin (ix2 0 q)) (i 0) (i 1))
    (hsout : ∀ i, SO i = affine (fun p k => X (ix2 p k)) (fun q k => WoutT (ix2 k q)) (fun q => Bout (ix2 0 q)) (i 0) (i 1))
    (hnext : ∀ i, XN i = stepFrom (fun p k => A (ix2 p k)) (fun q j => WrT (ix2 j q)) (fun q => Br (ix2 0 q)) (fun q j => WzT (ix2 j q)) (fun q => Bz (ix2 0 q))
      (fun q j => WhT (ix2 j q)) (fun q => Bh (ix2 0 q))
      (fun p k => SI (ix2 p k)) (fun p k => SO (ix2 p k)) (fun p k => X (ix2 p k)) (i 0) (i 1)) :
    (fun (p : Fin 4096) (k : Fin 512) => XN (ix2 p k))
      = step (fun p k => A (ix2 p k)) (fun q k => WinT (ix2 k q)) (fun q => Bin (ix2 0 q)) (fun q k => WoutT (ix2 k q)) (fun q => Bout (ix2 0 q))
      (fun q j => WrT (ix2 j q)) (fun q => Br (ix2 0 q)) (fun q j => WzT (ix2 j q)) (fun q => Bz (ix2 0 q))
      (fun q j => WhT (ix2 j q)) (fun q => Bh (ix2 0 q))
      (fun p k => X (ix2 p k)) := by
  have e1 : (fun (p : Fin 4096) (k : Fin 512) => SI (ix2 p k))
      = affine (fun p k => X (ix2 p k)) (fun q k => WinT (ix2 k q)) (fun q => Bin (ix2 0 q)) :=
    funext fun p => funext fun k => hsin (ix2 p k)
  have e2 : (fun (p : Fin 4096) (k : Fin 512) => SO (ix2 p k))
      = affine (fun p k => X (ix2 p k)) (fun q k => WoutT (ix2 k q)) (fun q => Bout (ix2 0 q)) :=
    funext fun p => funext fun k => hsout (ix2 p k)
  funext p k
  have h := hnext (ix2 p k)
  rw [e1, e2] at h
  rw [step_eq_stepFrom]
  exact h

/-- Five rounds of stages and the output stage: the output array's matrix is the output layer of the fifth iterate
    of the propagation step on the initial state's matrix. -/
theorem five_steps_out (W1T W2T : (⟨2, ![512, 512]⟩ : Shape).Idx → EReal) (B1 B2 : (⟨2, ![1, 512]⟩ : Shape).Idx → EReal)
    (X0 X1 X2 X3 X4 X5 SI0 SI1 SI2 SI3 SI4 SO0 SO1 SO2 SO3 SO4 OUT : (⟨2, ![4096, 512]⟩ : Shape).Idx → EReal)
    (hsin0 : ∀ i, SI0 i = affine (fun p k => X0 (ix2 p k)) (fun q k => WinT (ix2 k q)) (fun q => Bin (ix2 0 q)) (i 0) (i 1))
    (hsout0 : ∀ i, SO0 i = affine (fun p k => X0 (ix2 p k)) (fun q k => WoutT (ix2 k q)) (fun q => Bout (ix2 0 q)) (i 0) (i 1))
    (hnext0 : ∀ i, X1 i = stepFrom (fun p k => A (ix2 p k)) (fun q j => WrT (ix2 j q)) (fun q => Br (ix2 0 q)) (fun q j => WzT (ix2 j q)) (fun q => Bz (ix2 0 q))
      (fun q j => WhT (ix2 j q)) (fun q => Bh (ix2 0 q))
      (fun p k => SI0 (ix2 p k)) (fun p k => SO0 (ix2 p k)) (fun p k => X0 (ix2 p k)) (i 0) (i 1))
    (hsin1 : ∀ i, SI1 i = affine (fun p k => X1 (ix2 p k)) (fun q k => WinT (ix2 k q)) (fun q => Bin (ix2 0 q)) (i 0) (i 1))
    (hsout1 : ∀ i, SO1 i = affine (fun p k => X1 (ix2 p k)) (fun q k => WoutT (ix2 k q)) (fun q => Bout (ix2 0 q)) (i 0) (i 1))
    (hnext1 : ∀ i, X2 i = stepFrom (fun p k => A (ix2 p k)) (fun q j => WrT (ix2 j q)) (fun q => Br (ix2 0 q)) (fun q j => WzT (ix2 j q)) (fun q => Bz (ix2 0 q))
      (fun q j => WhT (ix2 j q)) (fun q => Bh (ix2 0 q))
      (fun p k => SI1 (ix2 p k)) (fun p k => SO1 (ix2 p k)) (fun p k => X1 (ix2 p k)) (i 0) (i 1))
    (hsin2 : ∀ i, SI2 i = affine (fun p k => X2 (ix2 p k)) (fun q k => WinT (ix2 k q)) (fun q => Bin (ix2 0 q)) (i 0) (i 1))
    (hsout2 : ∀ i, SO2 i = affine (fun p k => X2 (ix2 p k)) (fun q k => WoutT (ix2 k q)) (fun q => Bout (ix2 0 q)) (i 0) (i 1))
    (hnext2 : ∀ i, X3 i = stepFrom (fun p k => A (ix2 p k)) (fun q j => WrT (ix2 j q)) (fun q => Br (ix2 0 q)) (fun q j => WzT (ix2 j q)) (fun q => Bz (ix2 0 q))
      (fun q j => WhT (ix2 j q)) (fun q => Bh (ix2 0 q))
      (fun p k => SI2 (ix2 p k)) (fun p k => SO2 (ix2 p k)) (fun p k => X2 (ix2 p k)) (i 0) (i 1))
    (hsin3 : ∀ i, SI3 i = affine (fun p k => X3 (ix2 p k)) (fun q k => WinT (ix2 k q)) (fun q => Bin (ix2 0 q)) (i 0) (i 1))
    (hsout3 : ∀ i, SO3 i = affine (fun p k => X3 (ix2 p k)) (fun q k => WoutT (ix2 k q)) (fun q => Bout (ix2 0 q)) (i 0) (i 1))
    (hnext3 : ∀ i, X4 i = stepFrom (fun p k => A (ix2 p k)) (fun q j => WrT (ix2 j q)) (fun q => Br (ix2 0 q)) (fun q j => WzT (ix2 j q)) (fun q => Bz (ix2 0 q))
      (fun q j => WhT (ix2 j q)) (fun q => Bh (ix2 0 q))
      (fun p k => SI3 (ix2 p k)) (fun p k => SO3 (ix2 p k)) (fun p k => X3 (ix2 p k)) (i 0) (i 1))
    (hsin4 : ∀ i, SI4 i = affine (fun p k => X4 (ix2 p k)) (fun q k => WinT (ix2 k q)) (fun q => Bin (ix2 0 q)) (i 0) (i 1))
    (hsout4 : ∀ i, SO4 i = affine (fun p k => X4 (ix2 p k)) (fun q k => WoutT (ix2 k q)) (fun q => Bout (ix2 0 q)) (i 0) (i 1))
    (hnext4 : ∀ i, X5 i = stepFrom (fun p k => A (ix2 p k)) (fun q j => WrT (ix2 j q)) (fun q => Br (ix2 0 q)) (fun q j => WzT (ix2 j q)) (fun q => Bz (ix2 0 q))
      (fun q j => WhT (ix2 j q)) (fun q => Bh (ix2 0 q))
      (fun p k => SI4 (ix2 p k)) (fun p k => SO4 (ix2 p k)) (fun p k => X4 (ix2 p k)) (i 0) (i 1))
    (hout : ∀ i, OUT i = outMlp (fun q k => W1T (ix2 k q)) (fun q => B1 (ix2 0 q)) (fun q k => W2T (ix2 k q))
      (fun q => B2 (ix2 0 q)) (fun p k => X5 (ix2 p k)) (i 0) (i 1)) :
    (fun (p : Fin 4096) (k : Fin 512) => OUT (ix2 p k))
      = outMlp (fun q k => W1T (ix2 k q)) (fun q => B1 (ix2 0 q)) (fun q k => W2T (ix2 k q)) (fun q => B2 (ix2 0 q))
          (step (fun p k => A (ix2 p k)) (fun q k => WinT (ix2 k q)) (fun q => Bin (ix2 0 q)) (fun q k => WoutT (ix2 k q)) (fun q => Bout (ix2 0 q))
      (fun q j => WrT (ix2 j q)) (fun q => Br (ix2 0 q)) (fun q j => WzT (ix2 j q)) (fun q => Bz (ix2 0 q))
      (fun q j => WhT (ix2 j q)) (fun q => Bh (ix2 0 q))
          (step (fun p k => A (ix2 p k)) (fun q k => WinT (ix2 k q)) (fun q => Bin (ix2 0 q)) (fun q k => WoutT (ix2 k q)) (fun q => Bout (ix2 0 q))
      (fun q j => WrT (ix2 j q)) (fun q => Br (ix2 0 q)) (fun q j => WzT (ix2 j q)) (fun q => Bz (ix2 0 q))
      (fun q j => WhT (ix2 j q)) (fun q => Bh (ix2 0 q))
          (step (fun p k => A (ix2 p k)) (fun q k => WinT (ix2 k q)) (fun q => Bin (ix2 0 q)) (fun q k => WoutT (ix2 k q)) (fun q => Bout (ix2 0 q))
      (fun q j => WrT (ix2 j q)) (fun q => Br (ix2 0 q)) (fun q j => WzT (ix2 j q)) (fun q => Bz (ix2 0 q))
      (fun q j => WhT (ix2 j q)) (fun q => Bh (ix2 0 q))
          (step (fun p k => A (ix2 p k)) (fun q k => WinT (ix2 k q)) (fun q => Bin (ix2 0 q)) (fun q k => WoutT (ix2 k q)) (fun q => Bout (ix2 0 q))
      (fun q j => WrT (ix2 j q)) (fun q => Br (ix2 0 q)) (fun q j => WzT (ix2 j q)) (fun q => Bz (ix2 0 q))
      (fun q j => WhT (ix2 j q)) (fun q => Bh (ix2 0 q))
          (step (fun p k => A (ix2 p k)) (fun q k => WinT (ix2 k q)) (fun q => Bin (ix2 0 q)) (fun q k => WoutT (ix2 k q)) (fun q => Bout (ix2 0 q))
      (fun q j => WrT (ix2 j q)) (fun q => Br (ix2 0 q)) (fun q j => WzT (ix2 j q)) (fun q => Bz (ix2 0 q))
      (fun q j => WhT (ix2 j q)) (fun q => Bh (ix2 0 q))
          (fun p k => X0 (ix2 p k))))))) := by
  have s1 := one_step A WinT WoutT Bin Bout Br Bz Bh WrT WzT WhT X0 SI0 SO0 X1 hsin0 hsout0 hnext0
  have s2 := one_step A WinT WoutT Bin Bout Br Bz Bh WrT WzT WhT X1 SI1 SO1 X2 hsin1 hsout1 hnext1
  have s3 := one_step A WinT WoutT Bin Bout Br Bz Bh WrT WzT WhT X2 SI2 SO2 X3 hsin2 hsout2 hnext2
  have s4 := one_step A WinT WoutT Bin Bout Br Bz Bh WrT WzT WhT X3 SI3 SO3 X4 hsin3 hsout3 hnext3
  have s5 := one_step A WinT WoutT Bin Bout Br Bz Bh WrT WzT WhT X4 SI4 SO4 X5 hsin4 hsout4 hnext4
  rw [← s1, ← s2, ← s3, ← s4, ← s5]
  funext p k
  exact hout (ix2 p k)

end Chain

end Cert.GgnnMath

end
-- ==== Proof.RefStep.lean ====
/-
  The reference program's result as five applications of ONE propagation step followed by the output layer.

  The reference casts the adjacency matrix to floats once, transposes it once, and then repeats five times the
  same chain of host operations on the state; the output layer follows. Each of the run's named intermediate terms
  is the step (a function of whole arrays, defined from the same host operations) applied to the previous one, by
  unfolding the names alone; so the result buffer ends at the output layer of the fifth iterate of the step on the
  initial state.
-/
import proofs.«121501_j55087250538634_2_alg».proof.Proof.Gen.ReferenceIdeal.Run
import proofs.«121501_j55087250538634_2_alg».proof.Proof.RefStepDefs

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo

variable {F : FTy → Type} [FloatOps F]

/-- The step with the argument arrays of a valuation as its weights. -/
def stepOf (V0 : Valuation τ sig (Elt F)) (x : Vec F S4096x512 .f32) : Vec F S4096x512 .f32 :=
  step (sitofp .f32 (V0 (Proc.devRef .tc main_arg1)))
    (V0 (Proc.devRef .tc main_arg2)) (V0 (Proc.devRef .tc main_arg3))
    (V0 (Proc.devRef .tc main_arg4)) (V0 (Proc.devRef .tc main_arg5))
    (V0 (Proc.devRef .tc main_arg6)) (V0 (Proc.devRef .tc main_arg7))
    (V0 (Proc.devRef .tc main_arg8)) (V0 (Proc.devRef .tc main_arg9))
    (V0 (Proc.devRef .tc main_arg10)) (V0 (Proc.devRef .tc main_arg11)) x

/-- The reference's result as a function of the argument arrays: the output layer of the fifth state. -/
def result (V0 : Valuation τ sig (Elt F)) : Vec F S4096x512 .f32 :=
  outMlp (V0 (Proc.devRef .tc main_arg12)) (V0 (Proc.devRef .tc main_arg13))
    (V0 (Proc.devRef .tc main_arg14)) (V0 (Proc.devRef .tc main_arg15))
    (stepOf V0 (stepOf V0 (stepOf V0 (stepOf V0 (stepOf V0 (V0 (Proc.devRef .tc main_arg0)))))))

set_option maxRecDepth 8192 in
/-- The state after the first step. -/
theorem state1 (V0 : Valuation τ sig (Elt F)) : res_main_v49 V0 = stepOf V0 (V0 (Proc.devRef .tc main_arg0)) := by
  unfold res_main_v49 res_main_v36 res_main_v14 res_main_v12 res_main_v13 res_main_v1 res_main_v0
  rfl

set_option maxRecDepth 8192 in
/-- The state after the second step. -/
theorem state2 (V0 : Valuation τ sig (Elt F)) : res_main_v97 V0 = stepOf V0 (res_main_v49 V0) := by
  unfold res_main_v97 res_main_v84 res_main_v62 res_main_v60 res_main_v61 res_main_v1 res_main_v0
  rfl

set_option maxRecDepth 8192 in
/-- The state after the third step. -/
theorem state3 (V0 : Valuation τ sig (Elt F)) : res_main_v145 V0 = stepOf V0 (res_main_v97 V0) := by
  unfold res_main_v145 res_main_v132 res_main_v110 res_main_v108 res_main_v109 res_main_v1 res_main_v0
  rfl

set_option maxRecDepth 8192 in
/-- The state after the fourth step. -/
theorem state4 (V0 : Valuation τ sig (Elt F)) : res_main_v193 V0 = stepOf V0 (res_main_v145 V0) := by
  unfold res_main_v193 res_main_v180 res_main_v158 res_main_v156 res_main_v157 res_main_v1 res_main_v0
  rfl

set_option maxRecDepth 8192 in
/-- The result buffer's term is the output layer of the fifth state. -/
theorem result_eq (V0 : Valuation τ sig (Elt F)) :
    val5 V0 (Proc.devRef .tc main_v252) = result V0 := by
  refine (val5_main_v252 V0).trans ?_
  have e4 : res_main_v193 V0 = stepOf V0 (stepOf V0 (stepOf V0 (stepOf V0 (V0 (Proc.devRef .tc main_arg0))))) :=
    (state4 V0).trans (congrArg (stepOf V0) ((state3 V0).trans (congrArg (stepOf V0)
      ((state2 V0).trans (congrArg (stepOf V0) (state1 V0))))))
  unfold result
  rw [← e4]
  unfold res_main_v228 res_main_v206 res_main_v204 res_main_v205 res_main_v1 res_main_v0
  rfl

set_option maxRecDepth 8192 in
/-- On every device, from any memory with zero counters: every weakly fair execution of the reference terminates
    with the result buffer at the output layer of the fifth state, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v252) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans
      ((val5_main_v252 (launchContents m c)).symm.trans (result_eq (launchContents m c))), (h c).2⟩)
    (Value.run (F := F) m ρ)

end Cert.ReferenceIdeal.RefValue

end
-- ==== Proof.RefResult.lean ====
/-
  The reference's result, index by index: the output layer of the fifth iterate of the gated graph network's step
  on the initial state, with every weight read off the argument arrays as a matrix of its coordinates.
-/
import proofs.«121501_j55087250538634_2_alg».proof.Proof.RefStep
import proofs.«121501_j55087250538634_2_alg».proof.Proof.RefStepMath

noncomputable section

namespace Cert.ReferenceIdeal.RefValue

open Cert.ReferenceIdeal Cert.ReferenceIdeal.Gen Cert.ReferenceIdeal.Value Idealize.ShloMosaic Idealize.ShloMosaic.ValueIdx

/-- The adjacency matrix as extended reals: the integer argument converted entry by entry. -/
def adjacency (V0 : Valuation τ sig (Elt Ideal)) : Fin 4096 → Fin 4096 → EReal :=
  mat (sitofp (F := Ideal) .f32 (V0 (Proc.devRef .tc main_arg1)))

/-- The gated graph network's step with the weights of a valuation's argument arrays. -/
def mathStepOf (V0 : Valuation τ sig (Elt Ideal)) (x : Fin 4096 → Fin 512 → EReal) : Fin 4096 → Fin 512 → EReal :=
  Cert.GgnnMath.step (adjacency V0)
    (mat (V0 (Proc.devRef .tc main_arg2) : Vec Ideal S512x512 .f32)) (vec (V0 (Proc.devRef .tc main_arg3) : Vec Ideal S512 .f32))
    (mat (V0 (Proc.devRef .tc main_arg4) : Vec Ideal S512x512 .f32)) (vec (V0 (Proc.devRef .tc main_arg5) : Vec Ideal S512 .f32))
    (mat (V0 (Proc.devRef .tc main_arg6) : Vec Ideal S512x1536 .f32)) (vec (V0 (Proc.devRef .tc main_arg7) : Vec Ideal S512 .f32))
    (mat (V0 (Proc.devRef .tc main_arg8) : Vec Ideal S512x1536 .f32)) (vec (V0 (Proc.devRef .tc main_arg9) : Vec Ideal S512 .f32))
    (mat (V0 (Proc.devRef .tc main_arg10) : Vec Ideal S512x1536 .f32)) (vec (V0 (Proc.devRef .tc main_arg11) : Vec Ideal S512 .f32)) x

/-- The reference's step on whole arrays is the gated graph network's step on their matrices. -/
theorem mat_stepOf (V0 : Valuation τ sig (Elt Ideal)) (x : Vec Ideal S4096x512 .f32) :
    mat (stepOf V0 x) = mathStepOf V0 (mat x) := by
  unfold stepOf mathStepOf adjacency
  exact mat_step _ _ _ _ _ _ _ _ _ _ _ x

/-- The reference's result at every index. -/
theorem mat_result (V0 : Valuation τ sig (Elt Ideal)) :
    mat (result V0)
      = Cert.GgnnMath.outMlp (mat (V0 (Proc.devRef .tc main_arg12) : Vec Ideal S512x512 .f32)) (vec (V0 (Proc.devRef .tc main_arg13) : Vec Ideal S512 .f32))
          (mat (V0 (Proc.devRef .tc main_arg14) : Vec Ideal S512x512 .f32)) (vec (V0 (Proc.devRef .tc main_arg15) : Vec Ideal S512 .f32))
          (mathStepOf V0 (mathStepOf V0 (mathStepOf V0 (mathStepOf V0 (mathStepOf V0
            (mat (V0 (Proc.devRef .tc main_arg0) : Vec Ideal S4096x512 .f32))))))) := by
  unfold result
  rw [mat_outMlp, mat_stepOf, mat_stepOf, mat_stepOf, mat_stepOf, mat_stepOf]

end Cert.ReferenceIdeal.RefValue

end
-- ==== Proof.Bridge.lean ====
/-
  The reference's result and the kernel program's result are the same array, once the kernel's result is known
  index by index.

  Both programs start from memories that agree on the sixteen argument arrays. The reference's result is, index by
  index, the output layer of the fifth iterate of the gated graph network's step on the initial state, with the
  weights read off ITS argument arrays; if the kernel program's result array is, index by index, the same formula
  over the kernel's own argument arrays, then the agreement of the arguments makes the two formulas one, and two
  arrays with the same entries are equal.
-/
import proofs.«121501_j55087250538634_2_alg».proof.KernelIdeal
import proofs.«121501_j55087250538634_2_alg».proof.Proof.RefResult
import proofs.«121501_j55087250538634_2_alg».proof.Proof.GgnnChain

noncomputable section

namespace Cert.Bridge

open Idealize.ShloMosaic Idealize.ShloMosaic.TcCoe Idealize.ShloMosaic.ValueIdx Idealize.SL.Sem Idealize.ShloMosaic.StableHlo
open Cert.ReferenceIdeal.RefValue (mat vec)

/-- The gated graph network's step with the weights of the kernel program's own argument arrays on core `c`. -/
def kernelStep (m : (ℓ : Loc Cert.KernelIdeal.nD Cert.KernelIdeal.τ Cert.KernelIdeal.sig) → Buf (Elt Ideal) ℓ) (c : Dev Cert.KernelIdeal.nD)
    (x : Fin 4096 → Fin 512 → EReal) : Fin 4096 → Fin 512 → EReal :=
  Cert.GgnnMath.step (mat (sitofp (F := Ideal) .f32 (m ((c.tc : Thread Cert.KernelIdeal.nD Cert.KernelIdeal.τ).loc Cert.KernelIdeal.main_arg1) : Vec Ideal Cert.KernelIdeal.S4096x4096 .i32)))
    (mat (m ((c.tc : Thread Cert.KernelIdeal.nD Cert.KernelIdeal.τ).loc Cert.KernelIdeal.main_arg2) : Vec Ideal Cert.KernelIdeal.S512x512 .f32)) (vec (m ((c.tc : Thread Cert.KernelIdeal.nD Cert.KernelIdeal.τ).loc Cert.KernelIdeal.main_arg3) : Vec Ideal Cert.KernelIdeal.S512 .f32))
    (mat (m ((c.tc : Thread Cert.KernelIdeal.nD Cert.KernelIdeal.τ).loc Cert.KernelIdeal.main_arg4) : Vec Ideal Cert.KernelIdeal.S512x512 .f32)) (vec (m ((c.tc : Thread Cert.KernelIdeal.nD Cert.KernelIdeal.τ).loc Cert.KernelIdeal.main_arg5) : Vec Ideal Cert.KernelIdeal.S512 .f32))
    (mat (m ((c.tc : Thread Cert.KernelIdeal.nD Cert.KernelIdeal.τ).loc Cert.KernelIdeal.main_arg6) : Vec Ideal Cert.KernelIdeal.S512x1536 .f32)) (vec (m ((c.tc : Thread Cert.KernelIdeal.nD Cert.KernelIdeal.τ).loc Cert.KernelIdeal.main_arg7) : Vec Ideal Cert.KernelIdeal.S512 .f32))
    (mat (m ((c.tc : Thread Cert.KernelIdeal.nD Cert.KernelIdeal.τ).loc Cert.KernelIdeal.main_arg8) : Vec Ideal Cert.KernelIdeal.S512x1536 .f32)) (vec (m ((c.tc : Thread Cert.KernelIdeal.nD Cert.KernelIdeal.τ).loc Cert.KernelIdeal.main_arg9) : Vec Ideal Cert.KernelIdeal.S512 .f32))
    (mat (m ((c.tc : Thread Cert.KernelIdeal.nD Cert.KernelIdeal.τ).loc Cert.KernelIdeal.main_arg10) : Vec Ideal Cert.KernelIdeal.S512x1536 .f32)) (vec (m ((c.tc : Thread Cert.KernelIdeal.nD Cert.KernelIdeal.τ).loc Cert.KernelIdeal.main_arg11) : Vec Ideal Cert.KernelIdeal.S512 .f32)) x

/-- The closed form a kernel-side value proof aims at: the output layer of the fifth iterate of the step on the
    kernel program's own initial state. -/
def kernelClosed (m : (ℓ : Loc Cert.KernelIdeal.nD Cert.KernelIdeal.τ Cert.KernelIdeal.sig) → Buf (Elt Ideal) ℓ) (c : Dev Cert.KernelIdeal.nD) :
    Fin 4096 → Fin 512 → EReal :=
  Cert.GgnnMath.outMlp (mat (m ((c.tc : Thread Cert.KernelIdeal.nD Cert.KernelIdeal.τ).loc Cert.KernelIdeal.main_arg12) : Vec Ideal Cert.KernelIdeal.S512x512 .f32)) (vec (m ((c.tc : Thread Cert.KernelIdeal.nD Cert.KernelIdeal.τ).loc Cert.KernelIdeal.main_arg13) : Vec Ideal Cert.KernelIdeal.S512 .f32))
    (mat (m ((c.tc : Thread Cert.KernelIdeal.nD Cert.KernelIdeal.τ).loc Cert.KernelIdeal.main_arg14) : Vec Ideal Cert.KernelIdeal.S512x512 .f32)) (vec (m ((c.tc : Thread Cert.KernelIdeal.nD Cert.KernelIdeal.τ).loc Cert.KernelIdeal.main_arg15) : Vec Ideal Cert.KernelIdeal.S512 .f32))
    (kernelStep m c (kernelStep m c (kernelStep m c (kernelStep m c (kernelStep m c
      (mat (m ((c.tc : Thread Cert.KernelIdeal.nD Cert.KernelIdeal.τ).loc Cert.KernelIdeal.main_arg0) : Vec Ideal Cert.KernelIdeal.S4096x512 .f32)))))))

/-- From memories agreeing on the sixteen arguments, a kernel result `K` that is the closed form index by index is
    the reference's result. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (K : Cert.KernelIdeal.S4096x512.Idx → EReal)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hk : (fun (p : Fin 4096) (k : Fin 512) => K (ix2 p k)) = kernelClosed m c) :
    Cert.ReferenceIdeal.RefValue.result (F := Ideal) (launchContents m' c) = K := by
  obtain ⟨h0, h1, h2, h3, h4, h5, h6, h7, h8, h9, h10, h11, h12, h13, h14, h15⟩ := hagree
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have e6 : launchContents m' c (Proc.devRef .tc Cert.ReferenceIdeal.main_arg6) = m ((c.tc : Thread Cert.KernelIdeal.nD Cert.KernelIdeal.τ).loc Cert.KernelIdeal.main_arg6) := h6
  have e7 : launchContents m' c (Proc.devRef .tc Cert.ReferenceIdeal.main_arg7) = m ((c.tc : Thread Cert.KernelIdeal.nD Cert.KernelIdeal.τ).loc Cert.KernelIdeal.main_arg7) := h7
  have e8 : launchContents m' c (Proc.devRef .tc Cert.ReferenceIdeal.main_arg8) = m ((c.tc : Thread Cert.KernelIdeal.nD Cert.KernelIdeal.τ).loc Cert.KernelIdeal.main_arg8) := h8
  have e9 : launchContents m' c (Proc.devRef .tc Cert.ReferenceIdeal.main_arg9) = m ((c.tc : Thread Cert.KernelIdeal.nD Cert.KernelIdeal.τ).loc Cert.KernelIdeal.main_arg9) := h9
  have e10 : launchContents m' c (Proc.devRef .tc Cert.ReferenceIdeal.main_arg10) = m ((c.tc : Thread Cert.KernelIdeal.nD Cert.KernelIdeal.τ).loc Cert.KernelIdeal.main_arg10) := h10
  have e11 : launchContents m' c (Proc.devRef .tc Cert.ReferenceIdeal.main_arg11) = m ((c.tc : Thread Cert.KernelIdeal.nD Cert.KernelIdeal.τ).loc Cert.KernelIdeal.main_arg11) := h11
  have e12 : launchContents m' c (Proc.devRef .tc Cert.ReferenceIdeal.main_arg12) = m ((c.tc : Thread Cert.KernelIdeal.nD Cert.KernelIdeal.τ).loc Cert.KernelIdeal.main_arg12) := h12
  have e13 : launchContents m' c (Proc.devRef .tc Cert.ReferenceIdeal.main_arg13) = m ((c.tc : Thread Cert.KernelIdeal.nD Cert.KernelIdeal.τ).loc Cert.KernelIdeal.main_arg13) := h13
  have e14 : launchContents m' c (Proc.devRef .tc Cert.ReferenceIdeal.main_arg14) = m ((c.tc : Thread Cert.KernelIdeal.nD Cert.KernelIdeal.τ).loc Cert.KernelIdeal.main_arg14) := h14
  have e15 : launchContents m' c (Proc.devRef .tc Cert.ReferenceIdeal.main_arg15) = m ((c.tc : Thread Cert.KernelIdeal.nD Cert.KernelIdeal.τ).loc Cert.KernelIdeal.main_arg15) := h15
  refine Cert.GgnnMath.array_ext _ _ ?_
  rw [hk]
  show mat (Cert.ReferenceIdeal.RefValue.result (F := Ideal) (launchContents m' c)) = _
  rw [Cert.ReferenceIdeal.RefValue.mat_result]
  unfold Cert.ReferenceIdeal.RefValue.mathStepOf Cert.ReferenceIdeal.RefValue.adjacency
  rw [e0, e1, e2, e3, e4, e5, e6, e7, e8, e9, e10, e11, e12, e13, e14, e15]
  rfl

end Cert.Bridge

end
-- ==== Proof.IdealWholeValue.lean ====
/-
  The value the idealized kernel program computes. After the opening host operations the weights sit transposed, the
  biases as rows, the adjacency matrix as floats; each message region then leaves  s_in = x·W_inᵀ + b_in  and
  s_out = x·W_outᵀ + b_out  of the current node state x, each gated-update region the next state, and the last region
  the output network of the final state. Chained through the twelve boundaries, the result buffer holds
  outMlp (step (step (step (step (step x))))) of the launch state, with the operands read off the buffers the host
  operations wrote.
-/
import proofs.«121501_j55087250538634_2_alg».proof.Proof.IdealWholeFold
import proofs.«121501_j55087250538634_2_alg».proof.Proof.IdealMessagesValue0
import proofs.«121501_j55087250538634_2_alg».proof.Proof.IdealMessagesValue2
import proofs.«121501_j55087250538634_2_alg».proof.Proof.IdealMessagesValue4
import proofs.«121501_j55087250538634_2_alg».proof.Proof.IdealMessagesValue6
import proofs.«121501_j55087250538634_2_alg».proof.Proof.IdealMessagesValue8
import proofs.«121501_j55087250538634_2_alg».proof.Proof.IdealGatedValue1
import proofs.«121501_j55087250538634_2_alg».proof.Proof.IdealGatedValue3
import proofs.«121501_j55087250538634_2_alg».proof.Proof.IdealGatedValue5
import proofs.«121501_j55087250538634_2_alg».proof.Proof.IdealGatedValue7
import proofs.«121501_j55087250538634_2_alg».proof.Proof.IdealGatedValue9
import proofs.«121501_j55087250538634_2_alg».proof.Proof.IdealOutputValue10
import proofs.«121501_j55087250538634_2_alg».proof.Proof.IdealHostValues
import proofs.«121501_j55087250538634_2_alg».proof.Proof.IdealHostKeeps
import proofs.«121501_j55087250538634_2_alg».proof.Proof.GgnnChain
import proofs.«121501_j55087250538634_2_alg».proof.Proof.Bridge

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- A rank-2 array as a matrix. -/
def mt2 {a b : ℕ} (v : (⟨2, ![a, b]⟩ : Shape).Idx → EReal) : Fin a → Fin b → EReal := fun p q => v (ix2 p q)

/-! ## The operands, as the opening host operations leave them -/

def kAf (c : Dev nD) : Fin 4096 → Fin 4096 → EReal := fun p k => (W1 m ρ c (Proc.devRef .tc main_v1) : S4096x4096.Idx → EReal) (ix2 p k)
def kWin (c : Dev nD) : Fin 512 → Fin 512 → EReal := fun q k => (W1 m ρ c (Proc.devRef .tc main_v3) : S512x512.Idx → EReal) (ix2 k q)
def kWout (c : Dev nD) : Fin 512 → Fin 512 → EReal := fun q k => (W1 m ρ c (Proc.devRef .tc main_v5) : S512x512.Idx → EReal) (ix2 k q)
def kW1 (c : Dev nD) : Fin 512 → Fin 512 → EReal := fun q k => (W1 m ρ c (Proc.devRef .tc main_v13) : S512x512.Idx → EReal) (ix2 k q)
def kW2 (c : Dev nD) : Fin 512 → Fin 512 → EReal := fun q k => (W1 m ρ c (Proc.devRef .tc main_v15) : S512x512.Idx → EReal) (ix2 k q)
def kWr (c : Dev nD) : Fin 512 → Fin 1536 → EReal := fun q k => (W1 m ρ c (Proc.devRef .tc main_v7) : S1536x512.Idx → EReal) (ix2 k q)
def kWz (c : Dev nD) : Fin 512 → Fin 1536 → EReal := fun q k => (W1 m ρ c (Proc.devRef .tc main_v9) : S1536x512.Idx → EReal) (ix2 k q)
def kWh (c : Dev nD) : Fin 512 → Fin 1536 → EReal := fun q k => (W1 m ρ c (Proc.devRef .tc main_v11) : S1536x512.Idx → EReal) (ix2 k q)
def kbin (c : Dev nD) : Fin 512 → EReal := fun q => (W1 m ρ c (Proc.devRef .tc main_v16) : S1x512.Idx → EReal) (ix2 0 q)
def kbout (c : Dev nD) : Fin 512 → EReal := fun q => (W1 m ρ c (Proc.devRef .tc main_v17) : S1x512.Idx → EReal) (ix2 0 q)
def kbr (c : Dev nD) : Fin 512 → EReal := fun q => (W1 m ρ c (Proc.devRef .tc main_v18) : S1x512.Idx → EReal) (ix2 0 q)
def kbz (c : Dev nD) : Fin 512 → EReal := fun q => (W1 m ρ c (Proc.devRef .tc main_v19) : S1x512.Idx → EReal) (ix2 0 q)
def kbh (c : Dev nD) : Fin 512 → EReal := fun q => (W1 m ρ c (Proc.devRef .tc main_v20) : S1x512.Idx → EReal) (ix2 0 q)
def kb1 (c : Dev nD) : Fin 512 → EReal := fun q => (W1 m ρ c (Proc.devRef .tc main_v21) : S1x512.Idx → EReal) (ix2 0 q)
def kb2 (c : Dev nD) : Fin 512 → EReal := fun q => (W1 m ρ c (Proc.devRef .tc main_v22) : S1x512.Idx → EReal) (ix2 0 q)

/-- One propagation step with these operands. -/
def kStep (c : Dev nD) (x : Fin 4096 → Fin 512 → EReal) : Fin 4096 → Fin 512 → EReal :=
  Cert.GgnnMath.step (kAf m ρ c) (kWin m ρ c) (kbin m ρ c) (kWout m ρ c) (kbout m ρ c) (kWr m ρ c) (kbr m ρ c) (kWz m ρ c) (kbz m ρ c) (kWh m ρ c) (kbh m ρ c) x

/-- The node state the program starts from. -/
def kX0 (c : Dev nD) : Fin 4096 → Fin 512 → EReal := fun p k => (W1 m ρ c (Proc.devRef .tc main_arg0) : S4096x512.Idx → EReal) (ix2 p k)

/-! ## Step 1 -/

/-- After message region 0: the incoming-edge messages of the state entering it. -/
theorem sin0 (c : Dev nD) : (W2 m ρ c (Proc.devRef .tc main_v23_0) : S4096x512.Idx → EReal)
    = MessagesValue0.msg (W1 m ρ c (Proc.devRef .tc main_arg0)) (W1 m ρ c (Proc.devRef .tc main_v3)) (W1 m ρ c (Proc.devRef .tc main_v16)) :=
  (W2_arr m ρ c 5).trans ((MessagesValue0.arr5 (V1 m ρ) c).trans
    (show MessagesValue0.msg (W1 m ρ c (Proc.devRef .tc main_arg0)) (W1 m ρ c (Proc.devRef .tc main_v3)) (W1 m ρ c (Proc.devRef .tc main_v16)) = _ from
      congr (congrArg _ (rfl)) (rfl)))
theorem sout0 (c : Dev nD) : (W2 m ρ c (Proc.devRef .tc main_v23_1) : S4096x512.Idx → EReal)
    = MessagesValue0.msg (W1 m ρ c (Proc.devRef .tc main_arg0)) (W1 m ρ c (Proc.devRef .tc main_v5)) (W1 m ρ c (Proc.devRef .tc main_v17)) :=
  (W2_arr m ρ c 6).trans ((MessagesValue0.arr6 (V1 m ρ) c).trans
    (show MessagesValue0.msg (W1 m ρ c (Proc.devRef .tc main_arg0)) (W1 m ρ c (Proc.devRef .tc main_v5)) (W1 m ρ c (Proc.devRef .tc main_v17)) = _ from
      congr (congrArg _ (rfl)) (rfl)))

/-- After gated-update region 1: the next node state. -/
theorem next0 (c : Dev nD) : (W3 m ρ c (Proc.devRef .tc main_v24) : S4096x512.Idx → EReal)
    = GatedValue1.newState (W1 m ρ c (Proc.devRef .tc main_v1)) (W2 m ρ c (Proc.devRef .tc main_v23_0)) (W2 m ρ c (Proc.devRef .tc main_v23_1))
        (W1 m ρ c (Proc.devRef .tc main_arg0)) (W1 m ρ c (Proc.devRef .tc main_v7)) (W1 m ρ c (Proc.devRef .tc main_v18))
        (W1 m ρ c (Proc.devRef .tc main_v9)) (W1 m ρ c (Proc.devRef .tc main_v19)) (W1 m ρ c (Proc.devRef .tc main_v11)) (W1 m ρ c (Proc.devRef .tc main_v20)) :=
  (W3_out m ρ c).trans ((GatedValue1.arr11 (V2 m ρ) c).trans
    (show GatedValue1.newState (W2 m ρ c (Proc.devRef .tc main_v1)) (W2 m ρ c (Proc.devRef .tc main_v23_0)) (W2 m ρ c (Proc.devRef .tc main_v23_1))
        (W2 m ρ c (Proc.devRef .tc main_arg0)) (W2 m ρ c (Proc.devRef .tc main_v7)) (W2 m ρ c (Proc.devRef .tc main_v18))
        (W2 m ρ c (Proc.devRef .tc main_v9)) (W2 m ρ c (Proc.devRef .tc main_v19)) (W2 m ρ c (Proc.devRef .tc main_v11)) (W2 m ρ c (Proc.devRef .tc main_v20)) = _ from by
      rw [show W2 m ρ c (Proc.devRef .tc main_v1) = W1 m ρ c (Proc.devRef .tc main_v1) from (W2_of_ne m ρ c main_v1 (by decide)).trans <| rfl,
        show W2 m ρ c (Proc.devRef .tc main_arg0) = W1 m ρ c (Proc.devRef .tc main_arg0) from ((W2_arr m ρ c 0).trans (((Messages0.dat (V1 m ρ) c).arrAt_in 0 rfl _).trans (Messages0.dat_A (V1 m ρ) c 0))).trans <| rfl,
        show W2 m ρ c (Proc.devRef .tc main_v7) = W1 m ρ c (Proc.devRef .tc main_v7) from (W2_of_ne m ρ c main_v7 (by decide)).trans <| rfl,
        show W2 m ρ c (Proc.devRef .tc main_v18) = W1 m ρ c (Proc.devRef .tc main_v18) from (W2_of_ne m ρ c main_v18 (by decide)).trans <| rfl,
        show W2 m ρ c (Proc.devRef .tc main_v9) = W1 m ρ c (Proc.devRef .tc main_v9) from (W2_of_ne m ρ c main_v9 (by decide)).trans <| rfl,
        show W2 m ρ c (Proc.devRef .tc main_v19) = W1 m ρ c (Proc.devRef .tc main_v19) from (W2_of_ne m ρ c main_v19 (by decide)).trans <| rfl,
        show W2 m ρ c (Proc.devRef .tc main_v11) = W1 m ρ c (Proc.devRef .tc main_v11) from (W2_of_ne m ρ c main_v11 (by decide)).trans <| rfl,
        show W2 m ρ c (Proc.devRef .tc main_v20) = W1 m ρ c (Proc.devRef .tc main_v20) from (W2_of_ne m ρ c main_v20 (by decide)).trans <| rfl]))

/-! ## Step 2 -/

/-- After message region 2: the incoming-edge messages of the state entering it. -/
theorem sin1 (c : Dev nD) : (W4 m ρ c (Proc.devRef .tc main_v25_0) : S4096x512.Idx → EReal)
    = MessagesValue2.msg (W3 m ρ c (Proc.devRef .tc main_v24)) (W1 m ρ c (Proc.devRef .tc main_v3)) (W1 m ρ c (Proc.devRef .tc main_v16)) :=
  (W4_arr m ρ c 5).trans ((MessagesValue2.arr5 (V3 m ρ) c).trans
    (show MessagesValue2.msg (W3 m ρ c (Proc.devRef .tc main_v24)) (W3 m ρ c (Proc.devRef .tc main_v3)) (W3 m ρ c (Proc.devRef .tc main_v16)) = _ from
      congr (congrArg _ ((W3_of_ne m ρ c main_v3 (by decide)).trans <| ((W2_arr m ρ c 1).trans (((Messages0.dat (V1 m ρ) c).arrAt_in 1 rfl _).trans (Messages0.dat_A (V1 m ρ) c 1))).trans <| rfl)) ((W3_of_ne m ρ c main_v16 (by decide)).trans <| ((W2_arr m ρ c 2).trans (((Messages0.dat (V1 m ρ) c).arrAt_in 2 rfl _).trans (Messages0.dat_A (V1 m ρ) c 2))).trans <| rfl)))
theorem sout1 (c : Dev nD) : (W4 m ρ c (Proc.devRef .tc main_v25_1) : S4096x512.Idx → EReal)
    = MessagesValue2.msg (W3 m ρ c (Proc.devRef .tc main_v24)) (W1 m ρ c (Proc.devRef .tc main_v5)) (W1 m ρ c (Proc.devRef .tc main_v17)) :=
  (W4_arr m ρ c 6).trans ((MessagesValue2.arr6 (V3 m ρ) c).trans
    (show MessagesValue2.msg (W3 m ρ c (Proc.devRef .tc main_v24)) (W3 m ρ c (Proc.devRef .tc main_v5)) (W3 m ρ c (Proc.devRef .tc main_v17)) = _ from
      congr (congrArg _ ((W3_of_ne m ρ c main_v5 (by decide)).trans <| ((W2_arr m ρ c 3).trans (((Messages0.dat (V1 m ρ) c).arrAt_in 3 rfl _).trans (Messages0.dat_A (V1 m ρ) c 3))).trans <| rfl)) ((W3_of_ne m ρ c main_v17 (by decide)).trans <| ((W2_arr m ρ c 4).trans (((Messages0.dat (V1 m ρ) c).arrAt_in 4 rfl _).trans (Messages0.dat_A (V1 m ρ) c 4))).trans <| rfl)))

/-- After gated-update region 3: the next node state. -/
theorem next1 (c : Dev nD) : (W5 m ρ c (Proc.devRef .tc main_v26) : S4096x512.Idx → EReal)
    = GatedValue3.newState (W1 m ρ c (Proc.devRef .tc main_v1)) (W4 m ρ c (Proc.devRef .tc main_v25_0)) (W4 m ρ c (Proc.devRef .tc main_v25_1))
        (W3 m ρ c (Proc.devRef .tc main_v24)) (W1 m ρ c (Proc.devRef .tc main_v7)) (W1 m ρ c (Proc.devRef .tc main_v18))
        (W1 m ρ c (Proc.devRef .tc main_v9)) (W1 m ρ c (Proc.devRef .tc main_v19)) (W1 m ρ c (Proc.devRef .tc main_v11)) (W1 m ρ c (Proc.devRef .tc main_v20)) :=
  (W5_out m ρ c).trans ((GatedValue3.arr11 (V4 m ρ) c).trans
    (show GatedValue3.newState (W4 m ρ c (Proc.devRef .tc main_v1)) (W4 m ρ c (Proc.devRef .tc main_v25_0)) (W4 m ρ c (Proc.devRef .tc main_v25_1))
        (W4 m ρ c (Proc.devRef .tc main_v24)) (W4 m ρ c (Proc.devRef .tc main_v7)) (W4 m ρ c (Proc.devRef .tc main_v18))
        (W4 m ρ c (Proc.devRef .tc main_v9)) (W4 m ρ c (Proc.devRef .tc main_v19)) (W4 m ρ c (Proc.devRef .tc main_v11)) (W4 m ρ c (Proc.devRef .tc main_v20)) = _ from by
      rw [show W4 m ρ c (Proc.devRef .tc main_v1) = W1 m ρ c (Proc.devRef .tc main_v1) from (W4_of_ne m ρ c main_v1 (by decide)).trans <| (W3_of_ne m ρ c main_v1 (by decide)).trans <| (W2_of_ne m ρ c main_v1 (by decide)).trans <| rfl,
        show W4 m ρ c (Proc.devRef .tc main_v24) = W3 m ρ c (Proc.devRef .tc main_v24) from ((W4_arr m ρ c 0).trans (((Messages2.dat (V3 m ρ) c).arrAt_in 0 rfl _).trans (Messages2.dat_A (V3 m ρ) c 0))).trans <| rfl,
        show W4 m ρ c (Proc.devRef .tc main_v7) = W1 m ρ c (Proc.devRef .tc main_v7) from (W4_of_ne m ρ c main_v7 (by decide)).trans <| (W3_of_ne m ρ c main_v7 (by decide)).trans <| (W2_of_ne m ρ c main_v7 (by decide)).trans <| rfl,
        show W4 m ρ c (Proc.devRef .tc main_v18) = W1 m ρ c (Proc.devRef .tc main_v18) from (W4_of_ne m ρ c main_v18 (by decide)).trans <| (W3_of_ne m ρ c main_v18 (by decide)).trans <| (W2_of_ne m ρ c main_v18 (by decide)).trans <| rfl,
        show W4 m ρ c (Proc.devRef .tc main_v9) = W1 m ρ c (Proc.devRef .tc main_v9) from (W4_of_ne m ρ c main_v9 (by decide)).trans <| (W3_of_ne m ρ c main_v9 (by decide)).trans <| (W2_of_ne m ρ c main_v9 (by decide)).trans <| rfl,
        show W4 m ρ c (Proc.devRef .tc main_v19) = W1 m ρ c (Proc.devRef .tc main_v19) from (W4_of_ne m ρ c main_v19 (by decide)).trans <| (W3_of_ne m ρ c main_v19 (by decide)).trans <| (W2_of_ne m ρ c main_v19 (by decide)).trans <| rfl,
        show W4 m ρ c (Proc.devRef .tc main_v11) = W1 m ρ c (Proc.devRef .tc main_v11) from (W4_of_ne m ρ c main_v11 (by decide)).trans <| (W3_of_ne m ρ c main_v11 (by decide)).trans <| (W2_of_ne m ρ c main_v11 (by decide)).trans <| rfl,
        show W4 m ρ c (Proc.devRef .tc main_v20) = W1 m ρ c (Proc.devRef .tc main_v20) from (W4_of_ne m ρ c main_v20 (by decide)).trans <| (W3_of_ne m ρ c main_v20 (by decide)).trans <| (W2_of_ne m ρ c main_v20 (by decide)).trans <| rfl]))

/-! ## Step 3 -/

/-- After message region 4: the incoming-edge messages of the state entering it. -/
theorem sin2 (c : Dev nD) : (W6 m ρ c (Proc.devRef .tc main_v27_0) : S4096x512.Idx → EReal)
    = MessagesValue4.msg (W5 m ρ c (Proc.devRef .tc main_v26)) (W1 m ρ c (Proc.devRef .tc main_v3)) (W1 m ρ c (Proc.devRef .tc main_v16)) :=
  (W6_arr m ρ c 5).trans ((MessagesValue4.arr5 (V5 m ρ) c).trans
    (show MessagesValue4.msg (W5 m ρ c (Proc.devRef .tc main_v26)) (W5 m ρ c (Proc.devRef .tc main_v3)) (W5 m ρ c (Proc.devRef .tc main_v16)) = _ from
      congr (congrArg _ ((W5_of_ne m ρ c main_v3 (by decide)).trans <| ((W4_arr m ρ c 1).trans (((Messages2.dat (V3 m ρ) c).arrAt_in 1 rfl _).trans (Messages2.dat_A (V3 m ρ) c 1))).trans <| (W3_of_ne m ρ c main_v3 (by decide)).trans <| ((W2_arr m ρ c 1).trans (((Messages0.dat (V1 m ρ) c).arrAt_in 1 rfl _).trans (Messages0.dat_A (V1 m ρ) c 1))).trans <| rfl)) ((W5_of_ne m ρ c main_v16 (by decide)).trans <| ((W4_arr m ρ c 2).trans (((Messages2.dat (V3 m ρ) c).arrAt_in 2 rfl _).trans (Messages2.dat_A (V3 m ρ) c 2))).trans <| (W3_of_ne m ρ c main_v16 (by decide)).trans <| ((W2_arr m ρ c 2).trans (((Messages0.dat (V1 m ρ) c).arrAt_in 2 rfl _).trans (Messages0.dat_A (V1 m ρ) c 2))).trans <| rfl)))
theorem sout2 (c : Dev nD) : (W6 m ρ c (Proc.devRef .tc main_v27_1) : S4096x512.Idx → EReal)
    = MessagesValue4.msg (W5 m ρ c (Proc.devRef .tc main_v26)) (W1 m ρ c (Proc.devRef .tc main_v5)) (W1 m ρ c (Proc.devRef .tc main_v17)) :=
  (W6_arr m ρ c 6).trans ((MessagesValue4.arr6 (V5 m ρ) c).trans
    (show MessagesValue4.msg (W5 m ρ c (Proc.devRef .tc main_v26)) (W5 m ρ c (Proc.devRef .tc main_v5)) (W5 m ρ c (Proc.devRef .tc main_v17)) = _ from
      congr (congrArg _ ((W5_of_ne m ρ c main_v5 (by decide)).trans <| ((W4_arr m ρ c 3).trans (((Messages2.dat (V3 m ρ) c).arrAt_in 3 rfl _).trans (Messages2.dat_A (V3 m ρ) c 3))).trans <| (W3_of_ne m ρ c main_v5 (by decide)).trans <| ((W2_arr m ρ c 3).trans (((Messages0.dat (V1 m ρ) c).arrAt_in 3 rfl _).trans (Messages0.dat_A (V1 m ρ) c 3))).trans <| rfl)) ((W5_of_ne m ρ c main_v17 (by decide)).trans <| ((W4_arr m ρ c 4).trans (((Messages2.dat (V3 m ρ) c).arrAt_in 4 rfl _).trans (Messages2.dat_A (V3 m ρ) c 4))).trans <| (W3_of_ne m ρ c main_v17 (by decide)).trans <| ((W2_arr m ρ c 4).trans (((Messages0.dat (V1 m ρ) c).arrAt_in 4 rfl _).trans (Messages0.dat_A (V1 m ρ) c 4))).trans <| rfl)))

/-- After gated-update region 5: the next node state. -/
theorem next2 (c : Dev nD) : (W7 m ρ c (Proc.devRef .tc main_v28) : S4096x512.Idx → EReal)
    = GatedValue5.newState (W1 m ρ c (Proc.devRef .tc main_v1)) (W6 m ρ c (Proc.devRef .tc main_v27_0)) (W6 m ρ c (Proc.devRef .tc main_v27_1))
        (W5 m ρ c (Proc.devRef .tc main_v26)) (W1 m ρ c (Proc.devRef .tc main_v7)) (W1 m ρ c (Proc.devRef .tc main_v18))
        (W1 m ρ c (Proc.devRef .tc main_v9)) (W1 m ρ c (Proc.devRef .tc main_v19)) (W1 m ρ c (Proc.devRef .tc main_v11)) (W1 m ρ c (Proc.devRef .tc main_v20)) :=
  (W7_out m ρ c).trans ((GatedValue5.arr11 (V6 m ρ) c).trans
    (show GatedValue5.newState (W6 m ρ c (Proc.devRef .tc main_v1)) (W6 m ρ c (Proc.devRef .tc main_v27_0)) (W6 m ρ c (Proc.devRef .tc main_v27_1))
        (W6 m ρ c (Proc.devRef .tc main_v26)) (W6 m ρ c (Proc.devRef .tc main_v7)) (W6 m ρ c (Proc.devRef .tc main_v18))
        (W6 m ρ c (Proc.devRef .tc main_v9)) (W6 m ρ c (Proc.devRef .tc main_v19)) (W6 m ρ c (Proc.devRef .tc main_v11)) (W6 m ρ c (Proc.devRef .tc main_v20)) = _ from by
      rw [show W6 m ρ c (Proc.devRef .tc main_v1) = W1 m ρ c (Proc.devRef .tc main_v1) from (W6_of_ne m ρ c main_v1 (by decide)).trans <| (W5_of_ne m ρ c main_v1 (by decide)).trans <| (W4_of_ne m ρ c main_v1 (by decide)).trans <| (W3_of_ne m ρ c main_v1 (by decide)).trans <| (W2_of_ne m ρ c main_v1 (by decide)).trans <| rfl,
        show W6 m ρ c (Proc.devRef .tc main_v26) = W5 m ρ c (Proc.devRef .tc main_v26) from ((W6_arr m ρ c 0).trans (((Messages4.dat (V5 m ρ) c).arrAt_in 0 rfl _).trans (Messages4.dat_A (V5 m ρ) c 0))).trans <| rfl,
        show W6 m ρ c (Proc.devRef .tc main_v7) = W1 m ρ c (Proc.devRef .tc main_v7) from (W6_of_ne m ρ c main_v7 (by decide)).trans <| (W5_of_ne m ρ c main_v7 (by decide)).trans <| (W4_of_ne m ρ c main_v7 (by decide)).trans <| (W3_of_ne m ρ c main_v7 (by decide)).trans <| (W2_of_ne m ρ c main_v7 (by decide)).trans <| rfl,
        show W6 m ρ c (Proc.devRef .tc main_v18) = W1 m ρ c (Proc.devRef .tc main_v18) from (W6_of_ne m ρ c main_v18 (by decide)).trans <| (W5_of_ne m ρ c main_v18 (by decide)).trans <| (W4_of_ne m ρ c main_v18 (by decide)).trans <| (W3_of_ne m ρ c main_v18 (by decide)).trans <| (W2_of_ne m ρ c main_v18 (by decide)).trans <| rfl,
        show W6 m ρ c (Proc.devRef .tc main_v9) = W1 m ρ c (Proc.devRef .tc main_v9) from (W6_of_ne m ρ c main_v9 (by decide)).trans <| (W5_of_ne m ρ c main_v9 (by decide)).trans <| (W4_of_ne m ρ c main_v9 (by decide)).trans <| (W3_of_ne m ρ c main_v9 (by decide)).trans <| (W2_of_ne m ρ c main_v9 (by decide)).trans <| rfl,
        show W6 m ρ c (Proc.devRef .tc main_v19) = W1 m ρ c (Proc.devRef .tc main_v19) from (W6_of_ne m ρ c main_v19 (by decide)).trans <| (W5_of_ne m ρ c main_v19 (by decide)).trans <| (W4_of_ne m ρ c main_v19 (by decide)).trans <| (W3_of_ne m ρ c main_v19 (by decide)).trans <| (W2_of_ne m ρ c main_v19 (by decide)).trans <| rfl,
        show W6 m ρ c (Proc.devRef .tc main_v11) = W1 m ρ c (Proc.devRef .tc main_v11) from (W6_of_ne m ρ c main_v11 (by decide)).trans <| (W5_of_ne m ρ c main_v11 (by decide)).trans <| (W4_of_ne m ρ c main_v11 (by decide)).trans <| (W3_of_ne m ρ c main_v11 (by decide)).trans <| (W2_of_ne m ρ c main_v11 (by decide)).trans <| rfl,
        show W6 m ρ c (Proc.devRef .tc main_v20) = W1 m ρ c (Proc.devRef .tc main_v20) from (W6_of_ne m ρ c main_v20 (by decide)).trans <| (W5_of_ne m ρ c main_v20 (by decide)).trans <| (W4_of_ne m ρ c main_v20 (by decide)).trans <| (W3_of_ne m ρ c main_v20 (by decide)).trans <| (W2_of_ne m ρ c main_v20 (by decide)).trans <| rfl]))

/-! ## Step 4 -/

/-- After message region 6: the incoming-edge messages of the state entering it. -/
theorem sin3 (c : Dev nD) : (W8 m ρ c (Proc.devRef .tc main_v29_0) : S4096x512.Idx → EReal)
    = MessagesValue6.msg (W7 m ρ c (Proc.devRef .tc main_v28)) (W1 m ρ c (Proc.devRef .tc main_v3)) (W1 m ρ c (Proc.devRef .tc main_v16)) :=
  (W8_arr m ρ c 5).trans ((MessagesValue6.arr5 (V7 m ρ) c).trans
    (show MessagesValue6.msg (W7 m ρ c (Proc.devRef .tc main_v28)) (W7 m ρ c (Proc.devRef .tc main_v3)) (W7 m ρ c (Proc.devRef .tc main_v16)) = _ from
      congr (congrArg _ ((W7_of_ne m ρ c main_v3 (by decide)).trans <| ((W6_arr m ρ c 1).trans (((Messages4.dat (V5 m ρ) c).arrAt_in 1 rfl _).trans (Messages4.dat_A (V5 m ρ) c 1))).trans <| (W5_of_ne m ρ c main_v3 (by decide)).trans <| ((W4_arr m ρ c 1).trans (((Messages2.dat (V3 m ρ) c).arrAt_in 1 rfl _).trans (Messages2.dat_A (V3 m ρ) c 1))).trans <| (W3_of_ne m ρ c main_v3 (by decide)).trans <| ((W2_arr m ρ c 1).trans (((Messages0.dat (V1 m ρ) c).arrAt_in 1 rfl _).trans (Messages0.dat_A (V1 m ρ) c 1))).trans <| rfl)) ((W7_of_ne m ρ c main_v16 (by decide)).trans <| ((W6_arr m ρ c 2).trans (((Messages4.dat (V5 m ρ) c).arrAt_in 2 rfl _).trans (Messages4.dat_A (V5 m ρ) c 2))).trans <| (W5_of_ne m ρ c main_v16 (by decide)).trans <| ((W4_arr m ρ c 2).trans (((Messages2.dat (V3 m ρ) c).arrAt_in 2 rfl _).trans (Messages2.dat_A (V3 m ρ) c 2))).trans <| (W3_of_ne m ρ c main_v16 (by decide)).trans <| ((W2_arr m ρ c 2).trans (((Messages0.dat (V1 m ρ) c).arrAt_in 2 rfl _).trans (Messages0.dat_A (V1 m ρ) c 2))).trans <| rfl)))
theorem sout3 (c : Dev nD) : (W8 m ρ c (Proc.devRef .tc main_v29_1) : S4096x512.Idx → EReal)
    = MessagesValue6.msg (W7 m ρ c (Proc.devRef .tc main_v28)) (W1 m ρ c (Proc.devRef .tc main_v5)) (W1 m ρ c (Proc.devRef .tc main_v17)) :=
  (W8_arr m ρ c 6).trans ((MessagesValue6.arr6 (V7 m ρ) c).trans
    (show MessagesValue6.msg (W7 m ρ c (Proc.devRef .tc main_v28)) (W7 m ρ c (Proc.devRef .tc main_v5)) (W7 m ρ c (Proc.devRef .tc main_v17)) = _ from
      congr (congrArg _ ((W7_of_ne m ρ c main_v5 (by decide)).trans <| ((W6_arr m ρ c 3).trans (((Messages4.dat (V5 m ρ) c).arrAt_in 3 rfl _).trans (Messages4.dat_A (V5 m ρ) c 3))).trans <| (W5_of_ne m ρ c main_v5 (by decide)).trans <| ((W4_arr m ρ c 3).trans (((Messages2.dat (V3 m ρ) c).arrAt_in 3 rfl _).trans (Messages2.dat_A (V3 m ρ) c 3))).trans <| (W3_of_ne m ρ c main_v5 (by decide)).trans <| ((W2_arr m ρ c 3).trans (((Messages0.dat (V1 m ρ) c).arrAt_in 3 rfl _).trans (Messages0.dat_A (V1 m ρ) c 3))).trans <| rfl)) ((W7_of_ne m ρ c main_v17 (by decide)).trans <| ((W6_arr m ρ c 4).trans (((Messages4.dat (V5 m ρ) c).arrAt_in 4 rfl _).trans (Messages4.dat_A (V5 m ρ) c 4))).trans <| (W5_of_ne m ρ c main_v17 (by decide)).trans <| ((W4_arr m ρ c 4).trans (((Messages2.dat (V3 m ρ) c).arrAt_in 4 rfl _).trans (Messages2.dat_A (V3 m ρ) c 4))).trans <| (W3_of_ne m ρ c main_v17 (by decide)).trans <| ((W2_arr m ρ c 4).trans (((Messages0.dat (V1 m ρ) c).arrAt_in 4 rfl _).trans (Messages0.dat_A (V1 m ρ) c 4))).trans <| rfl)))

/-- After gated-update region 7: the next node state. -/
theorem next3 (c : Dev nD) : (W9 m ρ c (Proc.devRef .tc main_v30) : S4096x512.Idx → EReal)
    = GatedValue7.newState (W1 m ρ c (Proc.devRef .tc main_v1)) (W8 m ρ c (Proc.devRef .tc main_v29_0)) (W8 m ρ c (Proc.devRef .tc main_v29_1))
        (W7 m ρ c (Proc.devRef .tc main_v28)) (W1 m ρ c (Proc.devRef .tc main_v7)) (W1 m ρ c (Proc.devRef .tc main_v18))
        (W1 m ρ c (Proc.devRef .tc main_v9)) (W1 m ρ c (Proc.devRef .tc main_v19)) (W1 m ρ c (Proc.devRef .tc main_v11)) (W1 m ρ c (Proc.devRef .tc main_v20)) :=
  (W9_out m ρ c).trans ((GatedValue7.arr11 (V8 m ρ) c).trans
    (show GatedValue7.newState (W8 m ρ c (Proc.devRef .tc main_v1)) (W8 m ρ c (Proc.devRef .tc main_v29_0)) (W8 m ρ c (Proc.devRef .tc main_v29_1))
        (W8 m ρ c (Proc.devRef .tc main_v28)) (W8 m ρ c (Proc.devRef .tc main_v7)) (W8 m ρ c (Proc.devRef .tc main_v18))
        (W8 m ρ c (Proc.devRef .tc main_v9)) (W8 m ρ c (Proc.devRef .tc main_v19)) (W8 m ρ c (Proc.devRef .tc main_v11)) (W8 m ρ c (Proc.devRef .tc main_v20)) = _ from by
      rw [show W8 m ρ c (Proc.devRef .tc main_v1) = W1 m ρ c (Proc.devRef .tc main_v1) from (W8_of_ne m ρ c main_v1 (by decide)).trans <| (W7_of_ne m ρ c main_v1 (by decide)).trans <| (W6_of_ne m ρ c main_v1 (by decide)).trans <| (W5_of_ne m ρ c main_v1 (by decide)).trans <| (W4_of_ne m ρ c main_v1 (by decide)).trans <| (W3_of_ne m ρ c main_v1 (by decide)).trans <| (W2_of_ne m ρ c main_v1 (by decide)).trans <| rfl,
        show W8 m ρ c (Proc.devRef .tc main_v28) = W7 m ρ c (Proc.devRef .tc main_v28) from ((W8_arr m ρ c 0).trans (((Messages6.dat (V7 m ρ) c).arrAt_in 0 rfl _).trans (Messages6.dat_A (V7 m ρ) c 0))).trans <| rfl,
        show W8 m ρ c (Proc.devRef .tc main_v7) = W1 m ρ c (Proc.devRef .tc main_v7) from (W8_of_ne m ρ c main_v7 (by decide)).trans <| (W7_of_ne m ρ c main_v7 (by decide)).trans <| (W6_of_ne m ρ c main_v7 (by decide)).trans <| (W5_of_ne m ρ c main_v7 (by decide)).trans <| (W4_of_ne m ρ c main_v7 (by decide)).trans <| (W3_of_ne m ρ c main_v7 (by decide)).trans <| (W2_of_ne m ρ c main_v7 (by decide)).trans <| rfl,
        show W8 m ρ c (Proc.devRef .tc main_v18) = W1 m ρ c (Proc.devRef .tc main_v18) from (W8_of_ne m ρ c main_v18 (by decide)).trans <| (W7_of_ne m ρ c main_v18 (by decide)).trans <| (W6_of_ne m ρ c main_v18 (by decide)).trans <| (W5_of_ne m ρ c main_v18 (by decide)).trans <| (W4_of_ne m ρ c main_v18 (by decide)).trans <| (W3_of_ne m ρ c main_v18 (by decide)).trans <| (W2_of_ne m ρ c main_v18 (by decide)).trans <| rfl,
        show W8 m ρ c (Proc.devRef .tc main_v9) = W1 m ρ c (Proc.devRef .tc main_v9) from (W8_of_ne m ρ c main_v9 (by decide)).trans <| (W7_of_ne m ρ c main_v9 (by decide)).trans <| (W6_of_ne m ρ c main_v9 (by decide)).trans <| (W5_of_ne m ρ c main_v9 (by decide)).trans <| (W4_of_ne m ρ c main_v9 (by decide)).trans <| (W3_of_ne m ρ c main_v9 (by decide)).trans <| (W2_of_ne m ρ c main_v9 (by decide)).trans <| rfl,
        show W8 m ρ c (Proc.devRef .tc main_v19) = W1 m ρ c (Proc.devRef .tc main_v19) from (W8_of_ne m ρ c main_v19 (by decide)).trans <| (W7_of_ne m ρ c main_v19 (by decide)).trans <| (W6_of_ne m ρ c main_v19 (by decide)).trans <| (W5_of_ne m ρ c main_v19 (by decide)).trans <| (W4_of_ne m ρ c main_v19 (by decide)).trans <| (W3_of_ne m ρ c main_v19 (by decide)).trans <| (W2_of_ne m ρ c main_v19 (by decide)).trans <| rfl,
        show W8 m ρ c (Proc.devRef .tc main_v11) = W1 m ρ c (Proc.devRef .tc main_v11) from (W8_of_ne m ρ c main_v11 (by decide)).trans <| (W7_of_ne m ρ c main_v11 (by decide)).trans <| (W6_of_ne m ρ c main_v11 (by decide)).trans <| (W5_of_ne m ρ c main_v11 (by decide)).trans <| (W4_of_ne m ρ c main_v11 (by decide)).trans <| (W3_of_ne m ρ c main_v11 (by decide)).trans <| (W2_of_ne m ρ c main_v11 (by decide)).trans <| rfl,
        show W8 m ρ c (Proc.devRef .tc main_v20) = W1 m ρ c (Proc.devRef .tc main_v20) from (W8_of_ne m ρ c main_v20 (by decide)).trans <| (W7_of_ne m ρ c main_v20 (by decide)).trans <| (W6_of_ne m ρ c main_v20 (by decide)).trans <| (W5_of_ne m ρ c main_v20 (by decide)).trans <| (W4_of_ne m ρ c main_v20 (by decide)).trans <| (W3_of_ne m ρ c main_v20 (by decide)).trans <| (W2_of_ne m ρ c main_v20 (by decide)).trans <| rfl]))

/-! ## Step 5 -/

/-- After message region 8: the incoming-edge messages of the state entering it. -/
theorem sin4 (c : Dev nD) : (W10 m ρ c (Proc.devRef .tc main_v31_0) : S4096x512.Idx → EReal)
    = MessagesValue8.msg (W9 m ρ c (Proc.devRef .tc main_v30)) (W1 m ρ c (Proc.devRef .tc main_v3)) (W1 m ρ c (Proc.devRef .tc main_v16)) :=
  (W10_arr m ρ c 5).trans ((MessagesValue8.arr5 (V9 m ρ) c).trans
    (show MessagesValue8.msg (W9 m ρ c (Proc.devRef .tc main_v30)) (W9 m ρ c (Proc.devRef .tc main_v3)) (W9 m ρ c (Proc.devRef .tc main_v16)) = _ from
      congr (congrArg _ ((W9_of_ne m ρ c main_v3 (by decide)).trans <| ((W8_arr m ρ c 1).trans (((Messages6.dat (V7 m ρ) c).arrAt_in 1 rfl _).trans (Messages6.dat_A (V7 m ρ) c 1))).trans <| (W7_of_ne m ρ c main_v3 (by decide)).trans <| ((W6_arr m ρ c 1).trans (((Messages4.dat (V5 m ρ) c).arrAt_in 1 rfl _).trans (Messages4.dat_A (V5 m ρ) c 1))).trans <| (W5_of_ne m ρ c main_v3 (by decide)).trans <| ((W4_arr m ρ c 1).trans (((Messages2.dat (V3 m ρ) c).arrAt_in 1 rfl _).trans (Messages2.dat_A (V3 m ρ) c 1))).trans <| (W3_of_ne m ρ c main_v3 (by decide)).trans <| ((W2_arr m ρ c 1).trans (((Messages0.dat (V1 m ρ) c).arrAt_in 1 rfl _).trans (Messages0.dat_A (V1 m ρ) c 1))).trans <| rfl)) ((W9_of_ne m ρ c main_v16 (by decide)).trans <| ((W8_arr m ρ c 2).trans (((Messages6.dat (V7 m ρ) c).arrAt_in 2 rfl _).trans (Messages6.dat_A (V7 m ρ) c 2))).trans <| (W7_of_ne m ρ c main_v16 (by decide)).trans <| ((W6_arr m ρ c 2).trans (((Messages4.dat (V5 m ρ) c).arrAt_in 2 rfl _).trans (Messages4.dat_A (V5 m ρ) c 2))).trans <| (W5_of_ne m ρ c main_v16 (by decide)).trans <| ((W4_arr m ρ c 2).trans (((Messages2.dat (V3 m ρ) c).arrAt_in 2 rfl _).trans (Messages2.dat_A (V3 m ρ) c 2))).trans <| (W3_of_ne m ρ c main_v16 (by decide)).trans <| ((W2_arr m ρ c 2).trans (((Messages0.dat (V1 m ρ) c).arrAt_in 2 rfl _).trans (Messages0.dat_A (V1 m ρ) c 2))).trans <| rfl)))
theorem sout4 (c : Dev nD) : (W10 m ρ c (Proc.devRef .tc main_v31_1) : S4096x512.Idx → EReal)
    = MessagesValue8.msg (W9 m ρ c (Proc.devRef .tc main_v30)) (W1 m ρ c (Proc.devRef .tc main_v5)) (W1 m ρ c (Proc.devRef .tc main_v17)) :=
  (W10_arr m ρ c 6).trans ((MessagesValue8.arr6 (V9 m ρ) c).trans
    (show MessagesValue8.msg (W9 m ρ c (Proc.devRef .tc main_v30)) (W9 m ρ c (Proc.devRef .tc main_v5)) (W9 m ρ c (Proc.devRef .tc main_v17)) = _ from
      congr (congrArg _ ((W9_of_ne m ρ c main_v5 (by decide)).trans <| ((W8_arr m ρ c 3).trans (((Messages6.dat (V7 m ρ) c).arrAt_in 3 rfl _).trans (Messages6.dat_A (V7 m ρ) c 3))).trans <| (W7_of_ne m ρ c main_v5 (by decide)).trans <| ((W6_arr m ρ c 3).trans (((Messages4.dat (V5 m ρ) c).arrAt_in 3 rfl _).trans (Messages4.dat_A (V5 m ρ) c 3))).trans <| (W5_of_ne m ρ c main_v5 (by decide)).trans <| ((W4_arr m ρ c 3).trans (((Messages2.dat (V3 m ρ) c).arrAt_in 3 rfl _).trans (Messages2.dat_A (V3 m ρ) c 3))).trans <| (W3_of_ne m ρ c main_v5 (by decide)).trans <| ((W2_arr m ρ c 3).trans (((Messages0.dat (V1 m ρ) c).arrAt_in 3 rfl _).trans (Messages0.dat_A (V1 m ρ) c 3))).trans <| rfl)) ((W9_of_ne m ρ c main_v17 (by decide)).trans <| ((W8_arr m ρ c 4).trans (((Messages6.dat (V7 m ρ) c).arrAt_in 4 rfl _).trans (Messages6.dat_A (V7 m ρ) c 4))).trans <| (W7_of_ne m ρ c main_v17 (by decide)).trans <| ((W6_arr m ρ c 4).trans (((Messages4.dat (V5 m ρ) c).arrAt_in 4 rfl _).trans (Messages4.dat_A (V5 m ρ) c 4))).trans <| (W5_of_ne m ρ c main_v17 (by decide)).trans <| ((W4_arr m ρ c 4).trans (((Messages2.dat (V3 m ρ) c).arrAt_in 4 rfl _).trans (Messages2.dat_A (V3 m ρ) c 4))).trans <| (W3_of_ne m ρ c main_v17 (by decide)).trans <| ((W2_arr m ρ c 4).trans (((Messages0.dat (V1 m ρ) c).arrAt_in 4 rfl _).trans (Messages0.dat_A (V1 m ρ) c 4))).trans <| rfl)))

/-- After gated-update region 9: the next node state. -/
theorem next4 (c : Dev nD) : (W11 m ρ c (Proc.devRef .tc main_v32) : S4096x512.Idx → EReal)
    = GatedValue9.newState (W1 m ρ c (Proc.devRef .tc main_v1)) (W10 m ρ c (Proc.devRef .tc main_v31_0)) (W10 m ρ c (Proc.devRef .tc main_v31_1))
        (W9 m ρ c (Proc.devRef .tc main_v30)) (W1 m ρ c (Proc.devRef .tc main_v7)) (W1 m ρ c (Proc.devRef .tc main_v18))
        (W1 m ρ c (Proc.devRef .tc main_v9)) (W1 m ρ c (Proc.devRef .tc main_v19)) (W1 m ρ c (Proc.devRef .tc main_v11)) (W1 m ρ c (Proc.devRef .tc main_v20)) :=
  (W11_out m ρ c).trans ((GatedValue9.arr11 (V10 m ρ) c).trans
    (show GatedValue9.newState (W10 m ρ c (Proc.devRef .tc main_v1)) (W10 m ρ c (Proc.devRef .tc main_v31_0)) (W10 m ρ c (Proc.devRef .tc main_v31_1))
        (W10 m ρ c (Proc.devRef .tc main_v30)) (W10 m ρ c (Proc.devRef .tc main_v7)) (W10 m ρ c (Proc.devRef .tc main_v18))
        (W10 m ρ c (Proc.devRef .tc main_v9)) (W10 m ρ c (Proc.devRef .tc main_v19)) (W10 m ρ c (Proc.devRef .tc main_v11)) (W10 m ρ c (Proc.devRef .tc main_v20)) = _ from by
      rw [show W10 m ρ c (Proc.devRef .tc main_v1) = W1 m ρ c (Proc.devRef .tc main_v1) from (W10_of_ne m ρ c main_v1 (by decide)).trans <| (W9_of_ne m ρ c main_v1 (by decide)).trans <| (W8_of_ne m ρ c main_v1 (by decide)).trans <| (W7_of_ne m ρ c main_v1 (by decide)).trans <| (W6_of_ne m ρ c main_v1 (by decide)).trans <| (W5_of_ne m ρ c main_v1 (by decide)).trans <| (W4_of_ne m ρ c main_v1 (by decide)).trans <| (W3_of_ne m ρ c main_v1 (by decide)).trans <| (W2_of_ne m ρ c main_v1 (by decide)).trans <| rfl,
        show W10 m ρ c (Proc.devRef .tc main_v30) = W9 m ρ c (Proc.devRef .tc main_v30) from ((W10_arr m ρ c 0).trans (((Messages8.dat (V9 m ρ) c).arrAt_in 0 rfl _).trans (Messages8.dat_A (V9 m ρ) c 0))).trans <| rfl,
        show W10 m ρ c (Proc.devRef .tc main_v7) = W1 m ρ c (Proc.devRef .tc main_v7) from (W10_of_ne m ρ c main_v7 (by decide)).trans <| (W9_of_ne m ρ c main_v7 (by decide)).trans <| (W8_of_ne m ρ c main_v7 (by decide)).trans <| (W7_of_ne m ρ c main_v7 (by decide)).trans <| (W6_of_ne m ρ c main_v7 (by decide)).trans <| (W5_of_ne m ρ c main_v7 (by decide)).trans <| (W4_of_ne m ρ c main_v7 (by decide)).trans <| (W3_of_ne m ρ c main_v7 (by decide)).trans <| (W2_of_ne m ρ c main_v7 (by decide)).trans <| rfl,
        show W10 m ρ c (Proc.devRef .tc main_v18) = W1 m ρ c (Proc.devRef .tc main_v18) from (W10_of_ne m ρ c main_v18 (by decide)).trans <| (W9_of_ne m ρ c main_v18 (by decide)).trans <| (W8_of_ne m ρ c main_v18 (by decide)).trans <| (W7_of_ne m ρ c main_v18 (by decide)).trans <| (W6_of_ne m ρ c main_v18 (by decide)).trans <| (W5_of_ne m ρ c main_v18 (by decide)).trans <| (W4_of_ne m ρ c main_v18 (by decide)).trans <| (W3_of_ne m ρ c main_v18 (by decide)).trans <| (W2_of_ne m ρ c main_v18 (by decide)).trans <| rfl,
        show W10 m ρ c (Proc.devRef .tc main_v9) = W1 m ρ c (Proc.devRef .tc main_v9) from (W10_of_ne m ρ c main_v9 (by decide)).trans <| (W9_of_ne m ρ c main_v9 (by decide)).trans <| (W8_of_ne m ρ c main_v9 (by decide)).trans <| (W7_of_ne m ρ c main_v9 (by decide)).trans <| (W6_of_ne m ρ c main_v9 (by decide)).trans <| (W5_of_ne m ρ c main_v9 (by decide)).trans <| (W4_of_ne m ρ c main_v9 (by decide)).trans <| (W3_of_ne m ρ c main_v9 (by decide)).trans <| (W2_of_ne m ρ c main_v9 (by decide)).trans <| rfl,
        show W10 m ρ c (Proc.devRef .tc main_v19) = W1 m ρ c (Proc.devRef .tc main_v19) from (W10_of_ne m ρ c main_v19 (by decide)).trans <| (W9_of_ne m ρ c main_v19 (by decide)).trans <| (W8_of_ne m ρ c main_v19 (by decide)).trans <| (W7_of_ne m ρ c main_v19 (by decide)).trans <| (W6_of_ne m ρ c main_v19 (by decide)).trans <| (W5_of_ne m ρ c main_v19 (by decide)).trans <| (W4_of_ne m ρ c main_v19 (by decide)).trans <| (W3_of_ne m ρ c main_v19 (by decide)).trans <| (W2_of_ne m ρ c main_v19 (by decide)).trans <| rfl,
        show W10 m ρ c (Proc.devRef .tc main_v11) = W1 m ρ c (Proc.devRef .tc main_v11) from (W10_of_ne m ρ c main_v11 (by decide)).trans <| (W9_of_ne m ρ c main_v11 (by decide)).trans <| (W8_of_ne m ρ c main_v11 (by decide)).trans <| (W7_of_ne m ρ c main_v11 (by decide)).trans <| (W6_of_ne m ρ c main_v11 (by decide)).trans <| (W5_of_ne m ρ c main_v11 (by decide)).trans <| (W4_of_ne m ρ c main_v11 (by decide)).trans <| (W3_of_ne m ρ c main_v11 (by decide)).trans <| (W2_of_ne m ρ c main_v11 (by decide)).trans <| rfl,
        show W10 m ρ c (Proc.devRef .tc main_v20) = W1 m ρ c (Proc.devRef .tc main_v20) from (W10_of_ne m ρ c main_v20 (by decide)).trans <| (W9_of_ne m ρ c main_v20 (by decide)).trans <| (W8_of_ne m ρ c main_v20 (by decide)).trans <| (W7_of_ne m ρ c main_v20 (by decide)).trans <| (W6_of_ne m ρ c main_v20 (by decide)).trans <| (W5_of_ne m ρ c main_v20 (by decide)).trans <| (W4_of_ne m ρ c main_v20 (by decide)).trans <| (W3_of_ne m ρ c main_v20 (by decide)).trans <| (W2_of_ne m ρ c main_v20 (by decide)).trans <| rfl]))

/-! ## The output region and the whole chain -/

/-- After the output region: the output network of the final state. -/
theorem out_final (c : Dev nD) : (W12 m ρ c (Proc.devRef .tc main_v33) : S4096x512.Idx → EReal)
    = OutputValue10.out (W11 m ρ c (Proc.devRef .tc main_v32)) (W1 m ρ c (Proc.devRef .tc main_v13)) (W1 m ρ c (Proc.devRef .tc main_v21)) (W1 m ρ c (Proc.devRef .tc main_v15)) (W1 m ρ c (Proc.devRef .tc main_v22)) :=
  (W12_arr m ρ c 5).trans ((OutputValue10.arr5 (V11 m ρ) c).trans
    (show OutputValue10.out (W11 m ρ c (Proc.devRef .tc main_v32)) (W11 m ρ c (Proc.devRef .tc main_v13)) (W11 m ρ c (Proc.devRef .tc main_v21))
        (W11 m ρ c (Proc.devRef .tc main_v15)) (W11 m ρ c (Proc.devRef .tc main_v22)) = _ from by
      rw [show W11 m ρ c (Proc.devRef .tc main_v13) = W1 m ρ c (Proc.devRef .tc main_v13) from (W11_of_ne m ρ c main_v13 (by decide)).trans <| (W10_of_ne m ρ c main_v13 (by decide)).trans <| (W9_of_ne m ρ c main_v13 (by decide)).trans <| (W8_of_ne m ρ c main_v13 (by decide)).trans <| (W7_of_ne m ρ c main_v13 (by decide)).trans <| (W6_of_ne m ρ c main_v13 (by decide)).trans <| (W5_of_ne m ρ c main_v13 (by decide)).trans <| (W4_of_ne m ρ c main_v13 (by decide)).trans <| (W3_of_ne m ρ c main_v13 (by decide)).trans <| (W2_of_ne m ρ c main_v13 (by decide)).trans <| rfl,
        show W11 m ρ c (Proc.devRef .tc main_v21) = W1 m ρ c (Proc.devRef .tc main_v21) from (W11_of_ne m ρ c main_v21 (by decide)).trans <| (W10_of_ne m ρ c main_v21 (by decide)).trans <| (W9_of_ne m ρ c main_v21 (by decide)).trans <| (W8_of_ne m ρ c main_v21 (by decide)).trans <| (W7_of_ne m ρ c main_v21 (by decide)).trans <| (W6_of_ne m ρ c main_v21 (by decide)).trans <| (W5_of_ne m ρ c main_v21 (by decide)).trans <| (W4_of_ne m ρ c main_v21 (by decide)).trans <| (W3_of_ne m ρ c main_v21 (by decide)).trans <| (W2_of_ne m ρ c main_v21 (by decide)).trans <| rfl,
        show W11 m ρ c (Proc.devRef .tc main_v15) = W1 m ρ c (Proc.devRef .tc main_v15) from (W11_of_ne m ρ c main_v15 (by decide)).trans <| (W10_of_ne m ρ c main_v15 (by decide)).trans <| (W9_of_ne m ρ c main_v15 (by decide)).trans <| (W8_of_ne m ρ c main_v15 (by decide)).trans <| (W7_of_ne m ρ c main_v15 (by decide)).trans <| (W6_of_ne m ρ c main_v15 (by decide)).trans <| (W5_of_ne m ρ c main_v15 (by decide)).trans <| (W4_of_ne m ρ c main_v15 (by decide)).trans <| (W3_of_ne m ρ c main_v15 (by decide)).trans <| (W2_of_ne m ρ c main_v15 (by decide)).trans <| rfl,
        show W11 m ρ c (Proc.devRef .tc main_v22) = W1 m ρ c (Proc.devRef .tc main_v22) from (W11_of_ne m ρ c main_v22 (by decide)).trans <| (W10_of_ne m ρ c main_v22 (by decide)).trans <| (W9_of_ne m ρ c main_v22 (by decide)).trans <| (W8_of_ne m ρ c main_v22 (by decide)).trans <| (W7_of_ne m ρ c main_v22 (by decide)).trans <| (W6_of_ne m ρ c main_v22 (by decide)).trans <| (W5_of_ne m ρ c main_v22 (by decide)).trans <| (W4_of_ne m ρ c main_v22 (by decide)).trans <| (W3_of_ne m ρ c main_v22 (by decide)).trans <| (W2_of_ne m ρ c main_v22 (by decide)).trans <| rfl]))

/-- The result buffer's matrix is the output network of the fifth iterate of the propagation step on the state the
    program starts from, all operands as the opening host operations leave them. -/
theorem result_matrix (c : Dev nD) :
    (fun (p : Fin 4096) (k : Fin 512) => (W12 m ρ c (Proc.devRef .tc main_v33) : S4096x512.Idx → EReal) (ix2 p k))
      = Cert.GgnnMath.outMlp (kW1 m ρ c) (kb1 m ρ c) (kW2 m ρ c) (kb2 m ρ c)
          (kStep m ρ c (kStep m ρ c (kStep m ρ c (kStep m ρ c (kStep m ρ c (kX0 m ρ c)))))) :=
  Cert.GgnnMath.five_steps_out (W1 m ρ c (Proc.devRef .tc main_v1)) (W1 m ρ c (Proc.devRef .tc main_v3)) (W1 m ρ c (Proc.devRef .tc main_v5)) (W1 m ρ c (Proc.devRef .tc main_v16)) (W1 m ρ c (Proc.devRef .tc main_v17)) (W1 m ρ c (Proc.devRef .tc main_v18)) (W1 m ρ c (Proc.devRef .tc main_v19)) (W1 m ρ c (Proc.devRef .tc main_v20))
    (W1 m ρ c (Proc.devRef .tc main_v7)) (W1 m ρ c (Proc.devRef .tc main_v9)) (W1 m ρ c (Proc.devRef .tc main_v11)) (W1 m ρ c (Proc.devRef .tc main_v13)) (W1 m ρ c (Proc.devRef .tc main_v15)) (W1 m ρ c (Proc.devRef .tc main_v21)) (W1 m ρ c (Proc.devRef .tc main_v22))
    (W1 m ρ c (Proc.devRef .tc main_arg0)) (W3 m ρ c (Proc.devRef .tc main_v24)) (W5 m ρ c (Proc.devRef .tc main_v26)) (W7 m ρ c (Proc.devRef .tc main_v28)) (W9 m ρ c (Proc.devRef .tc main_v30)) (W11 m ρ c (Proc.devRef .tc main_v32))
    (W2 m ρ c (Proc.devRef .tc main_v23_0)) (W4 m ρ c (Proc.devRef .tc main_v25_0)) (W6 m ρ c (Proc.devRef .tc main_v27_0)) (W8 m ρ c (Proc.devRef .tc main_v29_0)) (W10 m ρ c (Proc.devRef .tc main_v31_0))
    (W2 m ρ c (Proc.devRef .tc main_v23_1)) (W4 m ρ c (Proc.devRef .tc main_v25_1)) (W6 m ρ c (Proc.devRef .tc main_v27_1)) (W8 m ρ c (Proc.devRef .tc main_v29_1)) (W10 m ρ c (Proc.devRef .tc main_v31_1))
    (W12 m ρ c (Proc.devRef .tc main_v33))
    (fun i => (congrFun (sin0 m ρ c) i).trans (MessagesValue0.msg_eq_affine _ _ _ i))
    (fun i => (congrFun (sout0 m ρ c) i).trans (MessagesValue0.msg_eq_affine _ _ _ i))
    (fun i => (congrFun (next0 m ρ c) i).trans rfl)
    (fun i => (congrFun (sin1 m ρ c) i).trans (MessagesValue2.msg_eq_affine _ _ _ i))
    (fun i => (congrFun (sout1 m ρ c) i).trans (MessagesValue2.msg_eq_affine _ _ _ i))
    (fun i => (congrFun (next1 m ρ c) i).trans rfl)
    (fun i => (congrFun (sin2 m ρ c) i).trans (MessagesValue4.msg_eq_affine _ _ _ i))
    (fun i => (congrFun (sout2 m ρ c) i).trans (MessagesValue4.msg_eq_affine _ _ _ i))
    (fun i => (congrFun (next2 m ρ c) i).trans rfl)
    (fun i => (congrFun (sin3 m ρ c) i).trans (MessagesValue6.msg_eq_affine _ _ _ i))
    (fun i => (congrFun (sout3 m ρ c) i).trans (MessagesValue6.msg_eq_affine _ _ _ i))
    (fun i => (congrFun (next3 m ρ c) i).trans rfl)
    (fun i => (congrFun (sin4 m ρ c) i).trans (MessagesValue8.msg_eq_affine _ _ _ i))
    (fun i => (congrFun (sout4 m ρ c) i).trans (MessagesValue8.msg_eq_affine _ _ _ i))
    (fun i => (congrFun (next4 m ρ c) i).trans rfl)
    (fun i => (congrFun (out_final m ρ c) i).trans (OutputValue10.out_eq_outMlp _ _ _ _ _ i))

/-! ## The operands in terms of the launch memory -/

/-- In terms of the arguments as launched: the float adjacency matrix, each weight (the host transposed it, the kernel
    contracts its first axis: the weight itself), each bias, and the launch state. -/
theorem kernel_result (c : Dev nD) :
    (fun (p : Fin 4096) (k : Fin 512) => (W12 m ρ c (Proc.devRef .tc main_v33) : S4096x512.Idx → EReal) (ix2 p k))
      = Cert.Bridge.kernelClosed m c := by
  rw [result_matrix m ρ c]
  unfold Cert.Bridge.kernelClosed Cert.Bridge.kernelStep kStep kAf kWin kWout kWr kWz kWh kW1 kW2 kbin kbout kbr kbz kbh kb1 kb2 kX0
  rw [show (fun (p : Fin 4096) (k : Fin 4096) => (W1 m ρ c (Proc.devRef .tc main_v1) : S4096x4096.Idx → EReal) (ix2 p k)) = _ from HostValues.adj_mat (W0 m ρ c),
    show (fun (q k : Fin 512) => (W1 m ρ c (Proc.devRef .tc main_v3) : S512x512.Idx → EReal) (ix2 k q)) = _ from HostValues.wIn_mat (W0 m ρ c),
    show (fun (q k : Fin 512) => (W1 m ρ c (Proc.devRef .tc main_v5) : S512x512.Idx → EReal) (ix2 k q)) = _ from HostValues.wOut_mat (W0 m ρ c),
    show (fun (q k : Fin 512) => (W1 m ρ c (Proc.devRef .tc main_v13) : S512x512.Idx → EReal) (ix2 k q)) = _ from HostValues.wO1_mat (W0 m ρ c),
    show (fun (q k : Fin 512) => (W1 m ρ c (Proc.devRef .tc main_v15) : S512x512.Idx → EReal) (ix2 k q)) = _ from HostValues.wO2_mat (W0 m ρ c),
    show (fun (q : Fin 512) (k : Fin 1536) => (W1 m ρ c (Proc.devRef .tc main_v7) : S1536x512.Idx → EReal) (ix2 k q)) = _ from HostValues.wR_mat (W0 m ρ c),
    show (fun (q : Fin 512) (k : Fin 1536) => (W1 m ρ c (Proc.devRef .tc main_v9) : S1536x512.Idx → EReal) (ix2 k q)) = _ from HostValues.wZ_mat (W0 m ρ c),
    show (fun (q : Fin 512) (k : Fin 1536) => (W1 m ρ c (Proc.devRef .tc main_v11) : S1536x512.Idx → EReal) (ix2 k q)) = _ from HostValues.wH_mat (W0 m ρ c),
    show (fun (q : Fin 512) => (W1 m ρ c (Proc.devRef .tc main_v16) : S1x512.Idx → EReal) (ix2 0 q)) = _ from HostValues.bIn_vec (W0 m ρ c),
    show (fun (q : Fin 512) => (W1 m ρ c (Proc.devRef .tc main_v17) : S1x512.Idx → EReal) (ix2 0 q)) = _ from HostValues.bOut_vec (W0 m ρ c),
    show (fun (q : Fin 512) => (W1 m ρ c (Proc.devRef .tc main_v18) : S1x512.Idx → EReal) (ix2 0 q)) = _ from HostValues.bR_vec (W0 m ρ c),
    show (fun (q : Fin 512) => (W1 m ρ c (Proc.devRef .tc main_v19) : S1x512.Idx → EReal) (ix2 0 q)) = _ from HostValues.bZ_vec (W0 m ρ c),
    show (fun (q : Fin 512) => (W1 m ρ c (Proc.devRef .tc main_v20) : S1x512.Idx → EReal) (ix2 0 q)) = _ from HostValues.bH_vec (W0 m ρ c),
    show (fun (q : Fin 512) => (W1 m ρ c (Proc.devRef .tc main_v21) : S1x512.Idx → EReal) (ix2 0 q)) = _ from HostValues.bO1_vec (W0 m ρ c),
    show (fun (q : Fin 512) => (W1 m ρ c (Proc.devRef .tc main_v22) : S1x512.Idx → EReal) (ix2 0 q)) = _ from HostValues.bO2_vec (W0 m ρ c),
    show W1 m ρ c (Proc.devRef .tc main_arg0) = W0 m ρ c (Proc.devRef .tc main_arg0) from HostKeeps.keeps (W0 m ρ c) main_arg0 (by decide)]
  rfl

end Cert.KernelIdeal.Whole

end
-- ==== Proof.lean ====
/-
  The certificate of a five-step gated graph network: the kernel program against its plain reference.

  Both programs take a node state x (4096 x 512), an integer adjacency matrix A (4096 x 4096, used as floats) and the
  weights and biases of seven linear layers, and compute five times
      s_in = x·W_inᵀ + b_in,  s_out = x·W_outᵀ + b_out,  a_in = A·s_in,  a_out = Aᵀ·s_out,
      r = σ([a_in, a_out, x]·W_rᵀ + b_r),  z = σ([a_in, a_out, x]·W_zᵀ + b_z),
      h = tanh([a_in, a_out, r∘x]·W_hᵀ + b_h),  x ← (1 − z)∘x + z∘h,
  and then  tanh(x·W_o1ᵀ + b_o1)·W_o2ᵀ + b_o2.
  The kernel program transposes the weights once on the host, forms s_in and s_out block by block, accumulates the two
  aggregations over eight blocks of 512 neighbours in running sums kept between grid points, and computes each gate as
  three products against the three row blocks of its transposed weight instead of one product against a concatenation.
  Over the extended reals, where addition is commutative and associative, these are regroupings of the same finite
  sums; no other law is needed, so the inputs' finiteness is never used.

  The frames: every execution of each program terminates without a fault and leaves the arguments as launched. For
  the two kernel programs this is the run of the opening host operations followed by the eleven kernel regions; for
  the reference it is its run with the result dropped. The ideal pass rewrote nothing (its ledger is empty), so
  `preserves` holds trivially. `algebraic`: both idealized programs end with the same function of the arguments.
-/
import proofs.«121501_j55087250538634_2_alg».proof.Defs
import proofs.«121501_j55087250538634_2_alg».proof.Proof.Gen.Kernel
import proofs.«121501_j55087250538634_2_alg».proof.Proof.Gen.KernelIdeal
import proofs.«121501_j55087250538634_2_alg».proof.Proof.Gen.ReferenceIdeal
import proofs.«121501_j55087250538634_2_alg».proof.Proof.Gen.Pre_finite_inputs
import proofs.«121501_j55087250538634_2_alg».proof.Proof.BitsWholeFrame
import proofs.«121501_j55087250538634_2_alg».proof.Proof.IdealWholeFrame
import proofs.«121501_j55087250538634_2_alg».proof.Proof.IdealWholeValue
import proofs.«121501_j55087250538634_2_alg».proof.Proof.RefStep
import proofs.«121501_j55087250538634_2_alg».proof.Proof.Bridge

noncomputable section

namespace Cert.Proof

open Idealize.ShloMosaic Idealize.ShloMosaic.TcCoe Idealize.SL.Sem

/-- The word-level kernel program's frame. -/
theorem frame_kernel : Cert.frame_Kernel := fun m ρ _ => Cert.Kernel.Whole.frame (F := Bits) m ρ

/-- The idealized kernel program's frame. -/
theorem frame_kernelIdeal : Cert.frame_KernelIdeal := fun m ρ _ => Cert.KernelIdeal.Whole.frame (F := Ideal) m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, the idealized kernel program ends with its result buffer at the output
    network of the fifth iterate of the propagation step, and so does the reference: one function of the arguments. -/
theorem algebraic : Cert.algebraic_KernelIdeal_ReferenceIdeal := by
  intro m ρ m' ρ' _ hagree
  refine ⟨fun c => Cert.KernelIdeal.Whole.W12 m ρ c (Proc.devRef .tc Cert.KernelIdeal.main_v33),
    Cert.KernelIdeal.Whole.run_result (F := Ideal) m ρ, ?_⟩
  refine (θ_run Cert.ReferenceIdeal.defs _ _).mono (fun _ h c => ⟨(h c).1.trans ?_, (h c).2⟩)
    (Cert.ReferenceIdeal.RefValue.run (F := Ideal) m' ρ')
  exact Cert.Bridge.results_agree m m' c _ (hagree c) (Cert.KernelIdeal.Whole.kernel_result m ρ c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
